-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x400 : Shape := ⟨2, ![4096, 400]⟩
abbrev S4x64 : Shape := ⟨2, ![4, 64]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bcast_S_S4096x400 : S_.BroadcastsInDim S4096x400 (![] : Fin 0 → Fin S4096x400.rank)
  reducesTo_S4096x400_S_d0_1 : S4096x400.ReducesTo [0, 1] S_

variable [Facts]

def fn {F : FTy → Type} [FloatOps F] (main_arg0 : IVec S4096x400 32) (main_arg1 : FVec F S4x64 .f32) : IVec S_ 1 :=
  let main_v0 : FVec F S4x64 .f32 := Host.absf main_arg1
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_c_0 : IVec S_ 32 := constantI S_ 32 0#32
  let main_v4 : IVec S4096x400 32 := broadcastInDim S4096x400 ![] bcast_S_S4096x400 main_c_0
  let main_v5 : IVec S4096x400 1 := cmpi .sge main_arg0 main_v4
  let main_c_1 : IVec S_ 32 := constantI S_ 32 1#32
  let main_v6 : IVec S4096x400 32 := broadcastInDim S4096x400 ![] bcast_S_S4096x400 main_c_1
  let main_v7 : IVec S4096x400 1 := cmpi .sle main_arg0 main_v6
  let main_v8 : IVec S4096x400 1 := andi main_v5 main_v7
  let main_c_2 : IVec S_ 1 := constantI S_ 1 1#1
  let main_v9 : IVec S_ 1 := (fun x v => Host.reduce IntOp.andi x v reducesTo_S4096x400_S_d0_1 h_S_) main_v8 main_c_2
  let main_v10 : IVec S_ 1 := andi main_v3 main_v9
  main_v10
-- ==== Kernel.lean ====
abbrev S4096x400 : Shape := ⟨2, ![4096, 400]⟩
abbrev S4x64 : Shape := ⟨2, ![4, 64]⟩
abbrev S256 : Shape := ⟨1, ![256]⟩
abbrev S4096x200x64 : Shape := ⟨3, ![4096, 200, 64]⟩
abbrev S8x400 : Shape := ⟨2, ![8, 400]⟩
abbrev S1600 : Shape := ⟨1, ![1600]⟩
abbrev S2x200x64 : Shape := ⟨3, ![2, 200, 64]⟩
abbrev S_ : Shape := ⟨0, ![]⟩
abbrev S16 : Shape := ⟨1, ![16]⟩
abbrev S1x16 : Shape := ⟨2, ![1, 16]⟩
abbrev S1 : Shape := ⟨1, ![1]⟩
abbrev S1x1x16 : Shape := ⟨3, ![1, 1, 16]⟩

abbrev nBuf : Table → Nat
  | .hbm => 4
  | .local .scVector .vmem => 7
  | _ => 0

abbrev bufTy : (tb : Table) → Fin (nBuf tb) → BufTy
  | .hbm, ⟨0, _⟩ => ⟨S4096x400, .i32⟩
  | .hbm, ⟨1, _⟩ => ⟨S4x64, .f32⟩
  | .hbm, ⟨2, _⟩ => ⟨S256, .f32⟩
  | .hbm, ⟨3, _⟩ => ⟨S4096x200x64, .f32⟩
  | .local .scVector .vmem, ⟨0, _⟩ => ⟨S8x400, .i32⟩
  | .local .scVector .vmem, ⟨1, _⟩ => ⟨S1600, .i32⟩
  | .local .scVector .vmem, ⟨2, _⟩ => ⟨S2x200x64, .f32⟩
  | .local .scVector .vmem, ⟨3, _⟩ => ⟨S8x400, .i32⟩
  | .local .scVector .vmem, ⟨4, _⟩ => ⟨S1600, .i32⟩
  | .local .scVector .vmem, ⟨5, _⟩ => ⟨S2x200x64, .f32⟩
  | .local .scVector .vmem, ⟨6, _⟩ => ⟨S256, .f32⟩
  | _, _ => ⟨S4096x400, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch5 : Ref sig .scVector := ⟨.vmem, 3, rfl⟩
abbrev cc0_scratch6 : Ref sig .scVector := ⟨.vmem, 4, rfl⟩
abbrev cc0_scratch7 : Ref sig .scVector := ⟨.vmem, 5, rfl⟩
abbrev cc0_scratch10 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v55 : BitVec 32 := Scalar.addi v2 c0_i32
  let c0_i32_0 : BitVec 32 := 0#32
  ![v55.toNat, 0]
@[reducible] def k0_t1_loop : Scf.Loop 32 :=
  let c0_i32_5 : BitVec 32 := 0#32
  let c8_i32_6 : BitVec 32 := 8#32
  let v61 : BitVec 32 := Scalar.addi c0_i32_5 c8_i32_6
  let c1_i32 : BitVec 32 := 1#32
  ⟨c0_i32_5, v61, c1_i32⟩
def k0_cond1 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_20 : BitVec 32 := 2#32
  let v67 : BitVec 32 := Scalar.muli arg16 c2_i32_20
  let c0_i32_21 : BitVec 32 := 0#32
  let v68 : BitVec 32 := Scalar.addi v67 c0_i32_21
  let c14_i32 : BitVec 32 := 14#32
  let v1215 : BitVec 1 := Scalar.cmpi .slt v68 c14_i32
  let v1216 : BitVec 32 := Scalar.extui v1215
  let c0_i32_448 : BitVec 32 := 0#32
  let v1217 : BitVec 1 := Scalar.cmpi .ne v1216 c0_i32_448
  v1217

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg16 : BitVec 32 := Scf.iv c0_i32_5 c1_i32 k0_t1
  let c2_i32_20 : BitVec 32 := 2#32
  let v67 : BitVec 32 := Scalar.muli arg16 c2_i32_20
  let c0_i32_21 : BitVec 32 := 0#32
  let v68 : BitVec 32 := Scalar.addi v67 c0_i32_21
  let c2_i32_1137 : BitVec 32 := 2#32
  let v2461 : BitVec 32 := Scalar.addi v68 c2_i32_1137
  let c8_i32_1138 : BitVec 32 := 8#32
  let v2462 : BitVec 32 := Scalar.muli v2461 c8_i32_1138
  let v2463 : BitVec 32 := Scalar.addi v2 v2462
  let c0_i32_1139 : BitVec 32 := 0#32
  ![v2463.toNat, 0]
@[reducible] def k0_t2_loop : Scf.Loop 32 :=
  let c0_i32_452 : BitVec 32 := 0#32
  let c13_i32 : BitVec 32 := 13#32
  let v1221 : BitVec 32 := Scalar.addi c0_i32_452 c13_i32
  let c1_i32_453 : BitVec 32 := 1#32
  ⟨c0_i32_452, v1221, c1_i32_453⟩
def k0_off3 (k0_t2 : Fin k0_t2_loop.trips) : Fin 1 → Nat :=
  let c0_i32_1137 : BitVec 32 := 0#32
  let c0_i32_452 : BitVec 32 := 0#32
  let c1_i32_453 : BitVec 32 := 1#32
  let arg18 : BitVec 32 := Scf.iv c0_i32_452 c1_i32_453 k0_t2
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c0_i32_1137 v2462
  let v2464 : Index := Scalar.indexCast v2463
  ![v2464.toNat]
def k0_off4 (k0_t2 : Fin k0_t2_loop.trips) (c0_i32_1141 : BitVec 32) : Fin 3 → Nat :=
  let c0_i32_1142 : BitVec 32 := 0#32
  let v2485 : Index := Scalar.indexCast c0_i32_1142
  let c0_i32_452 : BitVec 32 := 0#32
  let c1_i32_453 : BitVec 32 := 1#32
  let arg18 : BitVec 32 := Scf.iv c0_i32_452 c1_i32_453 k0_t2
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1141
  let v2486 : Index := Scalar.indexCast v2484
  let c0_1143 : Index := 0#32
  ![0, v2486.toNat, 0]
def k0_off5 (k0_t2 : Fin k0_t2_loop.trips) (c0_i32_1144 : BitVec 32) : Fin 3 → Nat :=
  let c0_i32_1145 : BitVec 32 := 0#32
  let v2497 : Index := Scalar.indexCast c0_i32_1145
  let c0_i32_452 : BitVec 32 := 0#32
  let c1_i32_453 : BitVec 32 := 1#32
  let arg18 : BitVec 32 := Scf.iv c0_i32_452 c1_i32_453 k0_t2
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1144
  let v2498 : Index := Scalar.indexCast v2496
  let c16_1146 : Index := 16#32
  ![0, v2498.toNat, 16]
def k0_off6 (k0_t2 : Fin k0_t2_loop.trips) (c0_i32_1147 : BitVec 32) : Fin 3 → Nat :=
  let c0_i32_1148 : BitVec 32 := 0#32
  let v2509 : Index := Scalar.indexCast c0_i32_1148
  let c0_i32_452 : BitVec 32 := 0#32
  let c1_i32_453 : BitVec 32 := 1#32
  let arg18 : BitVec 32 := Scf.iv c0_i32_452 c1_i32_453 k0_t2
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1147
  let v2510 : Index := Scalar.indexCast v2508
  let c32_1149 : Index := 32#32
  ![0, v2510.toNat, 32]
def k0_off7 (k0_t2 : Fin k0_t2_loop.trips) (c0_i32_1150 : BitVec 32) : Fin 3 → Nat :=
  let c0_i32_1151 : BitVec 32 := 0#32
  let v2521 : Index := Scalar.indexCast c0_i32_1151
  let c0_i32_452 : BitVec 32 := 0#32
  let c1_i32_453 : BitVec 32 := 1#32
  let arg18 : BitVec 32 := Scf.iv c0_i32_452 c1_i32_453 k0_t2
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1150
  let v2522 : Index := Scalar.indexCast v2520
  let c48_1152 : Index := 48#32
  ![0, v2522.toNat, 48]
@[reducible] def k0_t3_loop : Scf.Loop 32 :=
  let c0_i32_456 : BitVec 32 := 0#32
  let c13_i32_457 : BitVec 32 := 13#32
  let v1223 : BitVec 32 := Scalar.addi c0_i32_456 c13_i32_457
  let c1_i32_458 : BitVec 32 := 1#32
  ⟨c0_i32_456, v1223, c1_i32_458⟩
def k0_off8 (k0_t3 : Fin k0_t3_loop.trips) : Fin 1 → Nat :=
  let c200_i32 : BitVec 32 := 200#32
  let c0_i32_456 : BitVec 32 := 0#32
  let c1_i32_458 : BitVec 32 := 1#32
  let arg18 : BitVec 32 := Scf.iv c0_i32_456 c1_i32_458 k0_t3
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c200_i32 v2462
  let v2464 : Index := Scalar.indexCast v2463
  ![v2464.toNat]
def k0_off9 (k0_t3 : Fin k0_t3_loop.trips) (c0_i32_1140 : BitVec 32) : Fin 3 → Nat :=
  let c1_i32_1141 : BitVec 32 := 1#32
  let v2485 : Index := Scalar.indexCast c1_i32_1141
  let c0_i32_456 : BitVec 32 := 0#32
  let c1_i32_458 : BitVec 32 := 1#32
  let arg18 : BitVec 32 := Scf.iv c0_i32_456 c1_i32_458 k0_t3
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off10 (k0_t3 : Fin k0_t3_loop.trips) (c0_i32_1143 : BitVec 32) : Fin 3 → Nat :=
  let c1_i32_1144 : BitVec 32 := 1#32
  let v2497 : Index := Scalar.indexCast c1_i32_1144
  let c0_i32_456 : BitVec 32 := 0#32
  let c1_i32_458 : BitVec 32 := 1#32
  let arg18 : BitVec 32 := Scf.iv c0_i32_456 c1_i32_458 k0_t3
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off11 (k0_t3 : Fin k0_t3_loop.trips) (c0_i32_1146 : BitVec 32) : Fin 3 → Nat :=
  let c1_i32_1147 : BitVec 32 := 1#32
  let v2509 : Index := Scalar.indexCast c1_i32_1147
  let c0_i32_456 : BitVec 32 := 0#32
  let c1_i32_458 : BitVec 32 := 1#32
  let arg18 : BitVec 32 := Scf.iv c0_i32_456 c1_i32_458 k0_t3
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off12 (k0_t3 : Fin k0_t3_loop.trips) (c0_i32_1149 : BitVec 32) : Fin 3 → Nat :=
  let c1_i32_1150 : BitVec 32 := 1#32
  let v2521 : Index := Scalar.indexCast c1_i32_1150
  let c0_i32_456 : BitVec 32 := 0#32
  let c1_i32_458 : BitVec 32 := 1#32
  let arg18 : BitVec 32 := Scf.iv c0_i32_456 c1_i32_458 k0_t3
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
def k0_off13 (i : grid0.Coords) (k0_t1 : Fin k0_t1_loop.trips) (c0_i32_21 : BitVec 32) (c0_i32_461 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg16 : BitVec 32 := Scf.iv c0_i32_5 c1_i32 k0_t1
  let c2_i32_20 : BitVec 32 := 2#32
  let v67 : BitVec 32 := Scalar.muli arg16 c2_i32_20
  let v68 : BitVec 32 := Scalar.addi v67 c0_i32_21
  let c8_i32_460 : BitVec 32 := 8#32
  let v1225 : BitVec 32 := Scalar.muli v68 c8_i32_460
  let v1226 : BitVec 32 := Scalar.addi v2 v1225
  let v1227 : BitVec 32 := Scalar.addi v1226 c0_i32_461
  let c0_i32_462 : BitVec 32 := 0#32
  let c0_i32_463 : BitVec 32 := 0#32
  ![v1227.toNat, 0, 0]
@[reducible] def k0_t4_loop : Scf.Loop 32 :=
  let c0_i32_469 : BitVec 32 := 0#32
  let c13_i32_470 : BitVec 32 := 13#32
  let v1233 : BitVec 32 := Scalar.addi c0_i32_469 c13_i32_470
  let c1_i32_471 : BitVec 32 := 1#32
  ⟨c0_i32_469, v1233, c1_i32_471⟩
def k0_off14 (k0_t4 : Fin k0_t4_loop.trips) : Fin 1 → Nat :=
  let c400_i32 : BitVec 32 := 400#32
  let c0_i32_469 : BitVec 32 := 0#32
  let c1_i32_471 : BitVec 32 := 1#32
  let arg18 : BitVec 32 := Scf.iv c0_i32_469 c1_i32_471 k0_t4
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c400_i32 v2462
  let v2464 : Index := Scalar.indexCast v2463
  ![v2464.toNat]
def k0_off15 (k0_t4 : Fin k0_t4_loop.trips) (c0_i32_1140 : BitVec 32) : Fin 3 → Nat :=
  let c0_i32_1141 : BitVec 32 := 0#32
  let v2485 : Index := Scalar.indexCast c0_i32_1141
  let c0_i32_469 : BitVec 32 := 0#32
  let c1_i32_471 : BitVec 32 := 1#32
  let arg18 : BitVec 32 := Scf.iv c0_i32_469 c1_i32_471 k0_t4
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off16 (k0_t4 : Fin k0_t4_loop.trips) (c0_i32_1143 : BitVec 32) : Fin 3 → Nat :=
  let c0_i32_1144 : BitVec 32 := 0#32
  let v2497 : Index := Scalar.indexCast c0_i32_1144
  let c0_i32_469 : BitVec 32 := 0#32
  let c1_i32_471 : BitVec 32 := 1#32
  let arg18 : BitVec 32 := Scf.iv c0_i32_469 c1_i32_471 k0_t4
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off17 (k0_t4 : Fin k0_t4_loop.trips) (c0_i32_1146 : BitVec 32) : Fin 3 → Nat :=
  let c0_i32_1147 : BitVec 32 := 0#32
  let v2509 : Index := Scalar.indexCast c0_i32_1147
  let c0_i32_469 : BitVec 32 := 0#32
  let c1_i32_471 : BitVec 32 := 1#32
  let arg18 : BitVec 32 := Scf.iv c0_i32_469 c1_i32_471 k0_t4
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off18 (k0_t4 : Fin k0_t4_loop.trips) (c0_i32_1149 : BitVec 32) : Fin 3 → Nat :=
  let c0_i32_1150 : BitVec 32 := 0#32
  let v2521 : Index := Scalar.indexCast c0_i32_1150
  let c0_i32_469 : BitVec 32 := 0#32
  let c1_i32_471 : BitVec 32 := 1#32
  let arg18 : BitVec 32 := Scf.iv c0_i32_469 c1_i32_471 k0_t4
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t5_loop : Scf.Loop 32 :=
  let c0_i32_474 : BitVec 32 := 0#32
  let c13_i32_475 : BitVec 32 := 13#32
  let v1235 : BitVec 32 := Scalar.addi c0_i32_474 c13_i32_475
  let c1_i32_476 : BitVec 32 := 1#32
  ⟨c0_i32_474, v1235, c1_i32_476⟩
def k0_off19 (k0_t5 : Fin k0_t5_loop.trips) : Fin 1 → Nat :=
  let c600_i32 : BitVec 32 := 600#32
  let c0_i32_474 : BitVec 32 := 0#32
  let c1_i32_476 : BitVec 32 := 1#32
  let arg18 : BitVec 32 := Scf.iv c0_i32_474 c1_i32_476 k0_t5
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c600_i32 v2462
  let v2464 : Index := Scalar.indexCast v2463
  ![v2464.toNat]
def k0_off20 (k0_t5 : Fin k0_t5_loop.trips) (c0_i32_1140 : BitVec 32) : Fin 3 → Nat :=
  let c1_i32_1141 : BitVec 32 := 1#32
  let v2485 : Index := Scalar.indexCast c1_i32_1141
  let c0_i32_474 : BitVec 32 := 0#32
  let c1_i32_476 : BitVec 32 := 1#32
  let arg18 : BitVec 32 := Scf.iv c0_i32_474 c1_i32_476 k0_t5
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off21 (k0_t5 : Fin k0_t5_loop.trips) (c0_i32_1143 : BitVec 32) : Fin 3 → Nat :=
  let c1_i32_1144 : BitVec 32 := 1#32
  let v2497 : Index := Scalar.indexCast c1_i32_1144
  let c0_i32_474 : BitVec 32 := 0#32
  let c1_i32_476 : BitVec 32 := 1#32
  let arg18 : BitVec 32 := Scf.iv c0_i32_474 c1_i32_476 k0_t5
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off22 (k0_t5 : Fin k0_t5_loop.trips) (c0_i32_1146 : BitVec 32) : Fin 3 → Nat :=
  let c1_i32_1147 : BitVec 32 := 1#32
  let v2509 : Index := Scalar.indexCast c1_i32_1147
  let c0_i32_474 : BitVec 32 := 0#32
  let c1_i32_476 : BitVec 32 := 1#32
  let arg18 : BitVec 32 := Scf.iv c0_i32_474 c1_i32_476 k0_t5
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off23 (k0_t5 : Fin k0_t5_loop.trips) (c0_i32_1149 : BitVec 32) : Fin 3 → Nat :=
  let c1_i32_1150 : BitVec 32 := 1#32
  let v2521 : Index := Scalar.indexCast c1_i32_1150
  let c0_i32_474 : BitVec 32 := 0#32
  let c1_i32_476 : BitVec 32 := 1#32
  let arg18 : BitVec 32 := Scf.iv c0_i32_474 c1_i32_476 k0_t5
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
@[reducible] def k0_t6_loop : Scf.Loop 32 :=
  let c0_i32_491 : BitVec 32 := 0#32
  let c13_i32_492 : BitVec 32 := 13#32
  let v1244 : BitVec 32 := Scalar.addi c0_i32_491 c13_i32_492
  let c1_i32_493 : BitVec 32 := 1#32
  ⟨c0_i32_491, v1244, c1_i32_493⟩
def k0_off24 (k0_t6 : Fin k0_t6_loop.trips) : Fin 1 → Nat :=
  let c800_i32 : BitVec 32 := 800#32
  let c0_i32_491 : BitVec 32 := 0#32
  let c1_i32_493 : BitVec 32 := 1#32
  let arg18 : BitVec 32 := Scf.iv c0_i32_491 c1_i32_493 k0_t6
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c800_i32 v2462
  let v2464 : Index := Scalar.indexCast v2463
  ![v2464.toNat]
def k0_off25 (k0_t6 : Fin k0_t6_loop.trips) (c0_i32_1140 : BitVec 32) : Fin 3 → Nat :=
  let c0_i32_1141 : BitVec 32 := 0#32
  let v2485 : Index := Scalar.indexCast c0_i32_1141
  let c0_i32_491 : BitVec 32 := 0#32
  let c1_i32_493 : BitVec 32 := 1#32
  let arg18 : BitVec 32 := Scf.iv c0_i32_491 c1_i32_493 k0_t6
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off26 (k0_t6 : Fin k0_t6_loop.trips) (c0_i32_1143 : BitVec 32) : Fin 3 → Nat :=
  let c0_i32_1144 : BitVec 32 := 0#32
  let v2497 : Index := Scalar.indexCast c0_i32_1144
  let c0_i32_491 : BitVec 32 := 0#32
  let c1_i32_493 : BitVec 32 := 1#32
  let arg18 : BitVec 32 := Scf.iv c0_i32_491 c1_i32_493 k0_t6
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off27 (k0_t6 : Fin k0_t6_loop.trips) (c0_i32_1146 : BitVec 32) : Fin 3 → Nat :=
  let c0_i32_1147 : BitVec 32 := 0#32
  let v2509 : Index := Scalar.indexCast c0_i32_1147
  let c0_i32_491 : BitVec 32 := 0#32
  let c1_i32_493 : BitVec 32 := 1#32
  let arg18 : BitVec 32 := Scf.iv c0_i32_491 c1_i32_493 k0_t6
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off28 (k0_t6 : Fin k0_t6_loop.trips) (c0_i32_1149 : BitVec 32) : Fin 3 → Nat :=
  let c0_i32_1150 : BitVec 32 := 0#32
  let v2521 : Index := Scalar.indexCast c0_i32_1150
  let c0_i32_491 : BitVec 32 := 0#32
  let c1_i32_493 : BitVec 32 := 1#32
  let arg18 : BitVec 32 := Scf.iv c0_i32_491 c1_i32_493 k0_t6
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t7_loop : Scf.Loop 32 :=
  let c0_i32_496 : BitVec 32 := 0#32
  let c13_i32_497 : BitVec 32 := 13#32
  let v1246 : BitVec 32 := Scalar.addi c0_i32_496 c13_i32_497
  let c1_i32_498 : BitVec 32 := 1#32
  ⟨c0_i32_496, v1246, c1_i32_498⟩
def k0_off29 (k0_t7 : Fin k0_t7_loop.trips) : Fin 1 → Nat :=
  let c1000_i32 : BitVec 32 := 1000#32
  let c0_i32_496 : BitVec 32 := 0#32
  let c1_i32_498 : BitVec 32 := 1#32
  let arg18 : BitVec 32 := Scf.iv c0_i32_496 c1_i32_498 k0_t7
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1000_i32 v2462
  let v2464 : Index := Scalar.indexCast v2463
  ![v2464.toNat]
def k0_off30 (k0_t7 : Fin k0_t7_loop.trips) (c0_i32_1140 : BitVec 32) : Fin 3 → Nat :=
  let c1_i32_1141 : BitVec 32 := 1#32
  let v2485 : Index := Scalar.indexCast c1_i32_1141
  let c0_i32_496 : BitVec 32 := 0#32
  let c1_i32_498 : BitVec 32 := 1#32
  let arg18 : BitVec 32 := Scf.iv c0_i32_496 c1_i32_498 k0_t7
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off31 (k0_t7 : Fin k0_t7_loop.trips) (c0_i32_1143 : BitVec 32) : Fin 3 → Nat :=
  let c1_i32_1144 : BitVec 32 := 1#32
  let v2497 : Index := Scalar.indexCast c1_i32_1144
  let c0_i32_496 : BitVec 32 := 0#32
  let c1_i32_498 : BitVec 32 := 1#32
  let arg18 : BitVec 32 := Scf.iv c0_i32_496 c1_i32_498 k0_t7
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off32 (k0_t7 : Fin k0_t7_loop.trips) (c0_i32_1146 : BitVec 32) : Fin 3 → Nat :=
  let c1_i32_1147 : BitVec 32 := 1#32
  let v2509 : Index := Scalar.indexCast c1_i32_1147
  let c0_i32_496 : BitVec 32 := 0#32
  let c1_i32_498 : BitVec 32 := 1#32
  let arg18 : BitVec 32 := Scf.iv c0_i32_496 c1_i32_498 k0_t7
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off33 (k0_t7 : Fin k0_t7_loop.trips) (c0_i32_1149 : BitVec 32) : Fin 3 → Nat :=
  let c1_i32_1150 : BitVec 32 := 1#32
  let v2521 : Index := Scalar.indexCast c1_i32_1150
  let c0_i32_496 : BitVec 32 := 0#32
  let c1_i32_498 : BitVec 32 := 1#32
  let arg18 : BitVec 32 := Scf.iv c0_i32_496 c1_i32_498 k0_t7
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
@[reducible] def k0_t8_loop : Scf.Loop 32 :=
  let c0_i32_513 : BitVec 32 := 0#32
  let c13_i32_514 : BitVec 32 := 13#32
  let v1255 : BitVec 32 := Scalar.addi c0_i32_513 c13_i32_514
  let c1_i32_515 : BitVec 32 := 1#32
  ⟨c0_i32_513, v1255, c1_i32_515⟩
def k0_off34 (k0_t8 : Fin k0_t8_loop.trips) : Fin 1 → Nat :=
  let c1200_i32 : BitVec 32 := 1200#32
  let c0_i32_513 : BitVec 32 := 0#32
  let c1_i32_515 : BitVec 32 := 1#32
  let arg18 : BitVec 32 := Scf.iv c0_i32_513 c1_i32_515 k0_t8
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1200_i32 v2462
  let v2464 : Index := Scalar.indexCast v2463
  ![v2464.toNat]
def k0_off35 (k0_t8 : Fin k0_t8_loop.trips) (c0_i32_1140 : BitVec 32) : Fin 3 → Nat :=
  let c0_i32_1141 : BitVec 32 := 0#32
  let v2485 : Index := Scalar.indexCast c0_i32_1141
  let c0_i32_513 : BitVec 32 := 0#32
  let c1_i32_515 : BitVec 32 := 1#32
  let arg18 : BitVec 32 := Scf.iv c0_i32_513 c1_i32_515 k0_t8
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off36 (k0_t8 : Fin k0_t8_loop.trips) (c0_i32_1143 : BitVec 32) : Fin 3 → Nat :=
  let c0_i32_1144 : BitVec 32 := 0#32
  let v2497 : Index := Scalar.indexCast c0_i32_1144
  let c0_i32_513 : BitVec 32 := 0#32
  let c1_i32_515 : BitVec 32 := 1#32
  let arg18 : BitVec 32 := Scf.iv c0_i32_513 c1_i32_515 k0_t8
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off37 (k0_t8 : Fin k0_t8_loop.trips) (c0_i32_1146 : BitVec 32) : Fin 3 → Nat :=
  let c0_i32_1147 : BitVec 32 := 0#32
  let v2509 : Index := Scalar.indexCast c0_i32_1147
  let c0_i32_513 : BitVec 32 := 0#32
  let c1_i32_515 : BitVec 32 := 1#32
  let arg18 : BitVec 32 := Scf.iv c0_i32_513 c1_i32_515 k0_t8
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off38 (k0_t8 : Fin k0_t8_loop.trips) (c0_i32_1149 : BitVec 32) : Fin 3 → Nat :=
  let c0_i32_1150 : BitVec 32 := 0#32
  let v2521 : Index := Scalar.indexCast c0_i32_1150
  let c0_i32_513 : BitVec 32 := 0#32
  let c1_i32_515 : BitVec 32 := 1#32
  let arg18 : BitVec 32 := Scf.iv c0_i32_513 c1_i32_515 k0_t8
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t9_loop : Scf.Loop 32 :=
  let c0_i32_518 : BitVec 32 := 0#32
  let c13_i32_519 : BitVec 32 := 13#32
  let v1257 : BitVec 32 := Scalar.addi c0_i32_518 c13_i32_519
  let c1_i32_520 : BitVec 32 := 1#32
  ⟨c0_i32_518, v1257, c1_i32_520⟩
def k0_off39 (k0_t9 : Fin k0_t9_loop.trips) : Fin 1 → Nat :=
  let c1400_i32 : BitVec 32 := 1400#32
  let c0_i32_518 : BitVec 32 := 0#32
  let c1_i32_520 : BitVec 32 := 1#32
  let arg18 : BitVec 32 := Scf.iv c0_i32_518 c1_i32_520 k0_t9
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1400_i32 v2462
  let v2464 : Index := Scalar.indexCast v2463
  ![v2464.toNat]
def k0_off40 (k0_t9 : Fin k0_t9_loop.trips) (c0_i32_1140 : BitVec 32) : Fin 3 → Nat :=
  let c1_i32_1141 : BitVec 32 := 1#32
  let v2485 : Index := Scalar.indexCast c1_i32_1141
  let c0_i32_518 : BitVec 32 := 0#32
  let c1_i32_520 : BitVec 32 := 1#32
  let arg18 : BitVec 32 := Scf.iv c0_i32_518 c1_i32_520 k0_t9
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off41 (k0_t9 : Fin k0_t9_loop.trips) (c0_i32_1143 : BitVec 32) : Fin 3 → Nat :=
  let c1_i32_1144 : BitVec 32 := 1#32
  let v2497 : Index := Scalar.indexCast c1_i32_1144
  let c0_i32_518 : BitVec 32 := 0#32
  let c1_i32_520 : BitVec 32 := 1#32
  let arg18 : BitVec 32 := Scf.iv c0_i32_518 c1_i32_520 k0_t9
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off42 (k0_t9 : Fin k0_t9_loop.trips) (c0_i32_1146 : BitVec 32) : Fin 3 → Nat :=
  let c1_i32_1147 : BitVec 32 := 1#32
  let v2509 : Index := Scalar.indexCast c1_i32_1147
  let c0_i32_518 : BitVec 32 := 0#32
  let c1_i32_520 : BitVec 32 := 1#32
  let arg18 : BitVec 32 := Scf.iv c0_i32_518 c1_i32_520 k0_t9
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off43 (k0_t9 : Fin k0_t9_loop.trips) (c0_i32_1149 : BitVec 32) : Fin 3 → Nat :=
  let c1_i32_1150 : BitVec 32 := 1#32
  let v2521 : Index := Scalar.indexCast c1_i32_1150
  let c0_i32_518 : BitVec 32 := 0#32
  let c1_i32_520 : BitVec 32 := 1#32
  let arg18 : BitVec 32 := Scf.iv c0_i32_518 c1_i32_520 k0_t9
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
def k0_cond4 (k0_t1 : Fin k0_t1_loop.trips) : BitVec 1 :=
  let c0_i32_5 : BitVec 32 := 0#32
  let c1_i32 : BitVec 32 := 1#32
  let arg16 : BitVec 32 := Scf.iv c0_i32_5 c1_i32 k0_t1
  let c2_i32_528 : BitVec 32 := 2#32
  let v1264 : BitVec 32 := Scalar.muli arg16 c2_i32_528
  let c1_i32_529 : BitVec 32 := 1#32
  let v1265 : BitVec 32 := Scalar.addi v1264 c1_i32_529
  let c14_i32_1054 : BitVec 32 := 14#32
  let v2412 : BitVec 1 := Scalar.cmpi .slt v1265 c14_i32_1054
  let v2413 : BitVec 32 := Scalar.extui v2412
  let c0_i32_1055 : BitVec 32 := 0#32
  let v2414 : BitVec 1 := Scalar.cmpi .ne v2413 c0_i32_1055
  v2414

def k0_off44 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg16 : BitVec 32 := Scf.iv c0_i32_5 c1_i32 k0_t1
  let c2_i32_528 : BitVec 32 := 2#32
  let v1264 : BitVec 32 := Scalar.muli arg16 c2_i32_528
  let c1_i32_529 : BitVec 32 := 1#32
  let v1265 : BitVec 32 := Scalar.addi v1264 c1_i32_529
  let c2_i32_1137 : BitVec 32 := 2#32
  let v2461 : BitVec 32 := Scalar.addi v1265 c2_i32_1137
  let c8_i32_1138 : BitVec 32 := 8#32
  let v2462 : BitVec 32 := Scalar.muli v2461 c8_i32_1138
  let v2463 : BitVec 32 := Scalar.addi v2 v2462
  let c0_i32_1139 : BitVec 32 := 0#32
  ![v2463.toNat, 0]
@[reducible] def k0_t10_loop : Scf.Loop 32 :=
  let c0_i32_1059 : BitVec 32 := 0#32
  let c13_i32_1060 : BitVec 32 := 13#32
  let v2418 : BitVec 32 := Scalar.addi c0_i32_1059 c13_i32_1060
  let c1_i32_1061 : BitVec 32 := 1#32
  ⟨c0_i32_1059, v2418, c1_i32_1061⟩
def k0_off45 (k0_t10 : Fin k0_t10_loop.trips) : Fin 1 → Nat :=
  let c0_i32_1137 : BitVec 32 := 0#32
  let c0_i32_1059 : BitVec 32 := 0#32
  let c1_i32_1061 : BitVec 32 := 1#32
  let arg18 : BitVec 32 := Scf.iv c0_i32_1059 c1_i32_1061 k0_t10
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c0_i32_1137 v2462
  let v2464 : Index := Scalar.indexCast v2463
  ![v2464.toNat]
def k0_off46 (k0_t10 : Fin k0_t10_loop.trips) (c0_i32_1141 : BitVec 32) : Fin 3 → Nat :=
  let c0_i32_1142 : BitVec 32 := 0#32
  let v2485 : Index := Scalar.indexCast c0_i32_1142
  let c0_i32_1059 : BitVec 32 := 0#32
  let c1_i32_1061 : BitVec 32 := 1#32
  let arg18 : BitVec 32 := Scf.iv c0_i32_1059 c1_i32_1061 k0_t10
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1141
  let v2486 : Index := Scalar.indexCast v2484
  let c0_1143 : Index := 0#32
  ![0, v2486.toNat, 0]
def k0_off47 (k0_t10 : Fin k0_t10_loop.trips) (c0_i32_1144 : BitVec 32) : Fin 3 → Nat :=
  let c0_i32_1145 : BitVec 32 := 0#32
  let v2497 : Index := Scalar.indexCast c0_i32_1145
  let c0_i32_1059 : BitVec 32 := 0#32
  let c1_i32_1061 : BitVec 32 := 1#32
  let arg18 : BitVec 32 := Scf.iv c0_i32_1059 c1_i32_1061 k0_t10
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1144
  let v2498 : Index := Scalar.indexCast v2496
  let c16_1146 : Index := 16#32
  ![0, v2498.toNat, 16]
def k0_off48 (k0_t10 : Fin k0_t10_loop.trips) (c0_i32_1147 : BitVec 32) : Fin 3 → Nat :=
  let c0_i32_1148 : BitVec 32 := 0#32
  let v2509 : Index := Scalar.indexCast c0_i32_1148
  let c0_i32_1059 : BitVec 32 := 0#32
  let c1_i32_1061 : BitVec 32 := 1#32
  let arg18 : BitVec 32 := Scf.iv c0_i32_1059 c1_i32_1061 k0_t10
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1147
  let v2510 : Index := Scalar.indexCast v2508
  let c32_1149 : Index := 32#32
  ![0, v2510.toNat, 32]
def k0_off49 (k0_t10 : Fin k0_t10_loop.trips) (c0_i32_1150 : BitVec 32) : Fin 3 → Nat :=
  let c0_i32_1151 : BitVec 32 := 0#32
  let v2521 : Index := Scalar.indexCast c0_i32_1151
  let c0_i32_1059 : BitVec 32 := 0#32
  let c1_i32_1061 : BitVec 32 := 1#32
  let arg18 : BitVec 32 := Scf.iv c0_i32_1059 c1_i32_1061 k0_t10
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1150
  let v2522 : Index := Scalar.indexCast v2520
  let c48_1152 : Index := 48#32
  ![0, v2522.toNat, 48]
@[reducible] def k0_t11_loop : Scf.Loop 32 :=
  let c0_i32_1064 : BitVec 32 := 0#32
  let c13_i32_1065 : BitVec 32 := 13#32
  let v2420 : BitVec 32 := Scalar.addi c0_i32_1064 c13_i32_1065
  let c1_i32_1066 : BitVec 32 := 1#32
  ⟨c0_i32_1064, v2420, c1_i32_1066⟩
def k0_off50 (k0_t11 : Fin k0_t11_loop.trips) : Fin 1 → Nat :=
  let c200_i32 : BitVec 32 := 200#32
  let c0_i32_1064 : BitVec 32 := 0#32
  let c1_i32_1066 : BitVec 32 := 1#32
  let arg18 : BitVec 32 := Scf.iv c0_i32_1064 c1_i32_1066 k0_t11
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c200_i32 v2462
  let v2464 : Index := Scalar.indexCast v2463
  ![v2464.toNat]
def k0_off51 (k0_t11 : Fin k0_t11_loop.trips) (c0_i32_1140 : BitVec 32) : Fin 3 → Nat :=
  let c1_i32_1141 : BitVec 32 := 1#32
  let v2485 : Index := Scalar.indexCast c1_i32_1141
  let c0_i32_1064 : BitVec 32 := 0#32
  let c1_i32_1066 : BitVec 32 := 1#32
  let arg18 : BitVec 32 := Scf.iv c0_i32_1064 c1_i32_1066 k0_t11
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off52 (k0_t11 : Fin k0_t11_loop.trips) (c0_i32_1143 : BitVec 32) : Fin 3 → Nat :=
  let c1_i32_1144 : BitVec 32 := 1#32
  let v2497 : Index := Scalar.indexCast c1_i32_1144
  let c0_i32_1064 : BitVec 32 := 0#32
  let c1_i32_1066 : BitVec 32 := 1#32
  let arg18 : BitVec 32 := Scf.iv c0_i32_1064 c1_i32_1066 k0_t11
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off53 (k0_t11 : Fin k0_t11_loop.trips) (c0_i32_1146 : BitVec 32) : Fin 3 → Nat :=
  let c1_i32_1147 : BitVec 32 := 1#32
  let v2509 : Index := Scalar.indexCast c1_i32_1147
  let c0_i32_1064 : BitVec 32 := 0#32
  let c1_i32_1066 : BitVec 32 := 1#32
  let arg18 : BitVec 32 := Scf.iv c0_i32_1064 c1_i32_1066 k0_t11
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off54 (k0_t11 : Fin k0_t11_loop.trips) (c0_i32_1149 : BitVec 32) : Fin 3 → Nat :=
  let c1_i32_1150 : BitVec 32 := 1#32
  let v2521 : Index := Scalar.indexCast c1_i32_1150
  let c0_i32_1064 : BitVec 32 := 0#32
  let c1_i32_1066 : BitVec 32 := 1#32
  let arg18 : BitVec 32 := Scf.iv c0_i32_1064 c1_i32_1066 k0_t11
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
@[reducible] def k0_t12_loop : Scf.Loop 32 :=
  let c0_i32_1077 : BitVec 32 := 0#32
  let c13_i32_1078 : BitVec 32 := 13#32
  let v2430 : BitVec 32 := Scalar.addi c0_i32_1077 c13_i32_1078
  let c1_i32_1079 : BitVec 32 := 1#32
  ⟨c0_i32_1077, v2430, c1_i32_1079⟩
def k0_off55 (k0_t12 : Fin k0_t12_loop.trips) : Fin 1 → Nat :=
  let c400_i32 : BitVec 32 := 400#32
  let c0_i32_1077 : BitVec 32 := 0#32
  let c1_i32_1079 : BitVec 32 := 1#32
  let arg18 : BitVec 32 := Scf.iv c0_i32_1077 c1_i32_1079 k0_t12
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c400_i32 v2462
  let v2464 : Index := Scalar.indexCast v2463
  ![v2464.toNat]
def k0_off56 (k0_t12 : Fin k0_t12_loop.trips) (c0_i32_1140 : BitVec 32) : Fin 3 → Nat :=
  let c0_i32_1141 : BitVec 32 := 0#32
  let v2485 : Index := Scalar.indexCast c0_i32_1141
  let c0_i32_1077 : BitVec 32 := 0#32
  let c1_i32_1079 : BitVec 32 := 1#32
  let arg18 : BitVec 32 := Scf.iv c0_i32_1077 c1_i32_1079 k0_t12
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off57 (k0_t12 : Fin k0_t12_loop.trips) (c0_i32_1143 : BitVec 32) : Fin 3 → Nat :=
  let c0_i32_1144 : BitVec 32 := 0#32
  let v2497 : Index := Scalar.indexCast c0_i32_1144
  let c0_i32_1077 : BitVec 32 := 0#32
  let c1_i32_1079 : BitVec 32 := 1#32
  let arg18 : BitVec 32 := Scf.iv c0_i32_1077 c1_i32_1079 k0_t12
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off58 (k0_t12 : Fin k0_t12_loop.trips) (c0_i32_1146 : BitVec 32) : Fin 3 → Nat :=
  let c0_i32_1147 : BitVec 32 := 0#32
  let v2509 : Index := Scalar.indexCast c0_i32_1147
  let c0_i32_1077 : BitVec 32 := 0#32
  let c1_i32_1079 : BitVec 32 := 1#32
  let arg18 : BitVec 32 := Scf.iv c0_i32_1077 c1_i32_1079 k0_t12
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off59 (k0_t12 : Fin k0_t12_loop.trips) (c0_i32_1149 : BitVec 32) : Fin 3 → Nat :=
  let c0_i32_1150 : BitVec 32 := 0#32
  let v2521 : Index := Scalar.indexCast c0_i32_1150
  let c0_i32_1077 : BitVec 32 := 0#32
  let c1_i32_1079 : BitVec 32 := 1#32
  let arg18 : BitVec 32 := Scf.iv c0_i32_1077 c1_i32_1079 k0_t12
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t13_loop : Scf.Loop 32 :=
  let c0_i32_1082 : BitVec 32 := 0#32
  let c13_i32_1083 : BitVec 32 := 13#32
  let v2432 : BitVec 32 := Scalar.addi c0_i32_1082 c13_i32_1083
  let c1_i32_1084 : BitVec 32 := 1#32
  ⟨c0_i32_1082, v2432, c1_i32_1084⟩
def k0_off60 (k0_t13 : Fin k0_t13_loop.trips) : Fin 1 → Nat :=
  let c600_i32 : BitVec 32 := 600#32
  let c0_i32_1082 : BitVec 32 := 0#32
  let c1_i32_1084 : BitVec 32 := 1#32
  let arg18 : BitVec 32 := Scf.iv c0_i32_1082 c1_i32_1084 k0_t13
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c600_i32 v2462
  let v2464 : Index := Scalar.indexCast v2463
  ![v2464.toNat]
def k0_off61 (k0_t13 : Fin k0_t13_loop.trips) (c0_i32_1140 : BitVec 32) : Fin 3 → Nat :=
  let c1_i32_1141 : BitVec 32 := 1#32
  let v2485 : Index := Scalar.indexCast c1_i32_1141
  let c0_i32_1082 : BitVec 32 := 0#32
  let c1_i32_1084 : BitVec 32 := 1#32
  let arg18 : BitVec 32 := Scf.iv c0_i32_1082 c1_i32_1084 k0_t13
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off62 (k0_t13 : Fin k0_t13_loop.trips) (c0_i32_1143 : BitVec 32) : Fin 3 → Nat :=
  let c1_i32_1144 : BitVec 32 := 1#32
  let v2497 : Index := Scalar.indexCast c1_i32_1144
  let c0_i32_1082 : BitVec 32 := 0#32
  let c1_i32_1084 : BitVec 32 := 1#32
  let arg18 : BitVec 32 := Scf.iv c0_i32_1082 c1_i32_1084 k0_t13
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off63 (k0_t13 : Fin k0_t13_loop.trips) (c0_i32_1146 : BitVec 32) : Fin 3 → Nat :=
  let c1_i32_1147 : BitVec 32 := 1#32
  let v2509 : Index := Scalar.indexCast c1_i32_1147
  let c0_i32_1082 : BitVec 32 := 0#32
  let c1_i32_1084 : BitVec 32 := 1#32
  let arg18 : BitVec 32 := Scf.iv c0_i32_1082 c1_i32_1084 k0_t13
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off64 (k0_t13 : Fin k0_t13_loop.trips) (c0_i32_1149 : BitVec 32) : Fin 3 → Nat :=
  let c1_i32_1150 : BitVec 32 := 1#32
  let v2521 : Index := Scalar.indexCast c1_i32_1150
  let c0_i32_1082 : BitVec 32 := 0#32
  let c1_i32_1084 : BitVec 32 := 1#32
  let arg18 : BitVec 32 := Scf.iv c0_i32_1082 c1_i32_1084 k0_t13
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
@[reducible] def k0_t14_loop : Scf.Loop 32 :=
  let c0_i32_1099 : BitVec 32 := 0#32
  let c13_i32_1100 : BitVec 32 := 13#32
  let v2441 : BitVec 32 := Scalar.addi c0_i32_1099 c13_i32_1100
  let c1_i32_1101 : BitVec 32 := 1#32
  ⟨c0_i32_1099, v2441, c1_i32_1101⟩
def k0_off65 (k0_t14 : Fin k0_t14_loop.trips) : Fin 1 → Nat :=
  let c800_i32 : BitVec 32 := 800#32
  let c0_i32_1099 : BitVec 32 := 0#32
  let c1_i32_1101 : BitVec 32 := 1#32
  let arg18 : BitVec 32 := Scf.iv c0_i32_1099 c1_i32_1101 k0_t14
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c800_i32 v2462
  let v2464 : Index := Scalar.indexCast v2463
  ![v2464.toNat]
def k0_off66 (k0_t14 : Fin k0_t14_loop.trips) (c0_i32_1140 : BitVec 32) : Fin 3 → Nat :=
  let c0_i32_1141 : BitVec 32 := 0#32
  let v2485 : Index := Scalar.indexCast c0_i32_1141
  let c0_i32_1099 : BitVec 32 := 0#32
  let c1_i32_1101 : BitVec 32 := 1#32
  let arg18 : BitVec 32 := Scf.iv c0_i32_1099 c1_i32_1101 k0_t14
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off67 (k0_t14 : Fin k0_t14_loop.trips) (c0_i32_1143 : BitVec 32) : Fin 3 → Nat :=
  let c0_i32_1144 : BitVec 32 := 0#32
  let v2497 : Index := Scalar.indexCast c0_i32_1144
  let c0_i32_1099 : BitVec 32 := 0#32
  let c1_i32_1101 : BitVec 32 := 1#32
  let arg18 : BitVec 32 := Scf.iv c0_i32_1099 c1_i32_1101 k0_t14
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off68 (k0_t14 : Fin k0_t14_loop.trips) (c0_i32_1146 : BitVec 32) : Fin 3 → Nat :=
  let c0_i32_1147 : BitVec 32 := 0#32
  let v2509 : Index := Scalar.indexCast c0_i32_1147
  let c0_i32_1099 : BitVec 32 := 0#32
  let c1_i32_1101 : BitVec 32 := 1#32
  let arg18 : BitVec 32 := Scf.iv c0_i32_1099 c1_i32_1101 k0_t14
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off69 (k0_t14 : Fin k0_t14_loop.trips) (c0_i32_1149 : BitVec 32) : Fin 3 → Nat :=
  let c0_i32_1150 : BitVec 32 := 0#32
  let v2521 : Index := Scalar.indexCast c0_i32_1150
  let c0_i32_1099 : BitVec 32 := 0#32
  let c1_i32_1101 : BitVec 32 := 1#32
  let arg18 : BitVec 32 := Scf.iv c0_i32_1099 c1_i32_1101 k0_t14
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t15_loop : Scf.Loop 32 :=
  let c0_i32_1104 : BitVec 32 := 0#32
  let c13_i32_1105 : BitVec 32 := 13#32
  let v2443 : BitVec 32 := Scalar.addi c0_i32_1104 c13_i32_1105
  let c1_i32_1106 : BitVec 32 := 1#32
  ⟨c0_i32_1104, v2443, c1_i32_1106⟩
def k0_off70 (k0_t15 : Fin k0_t15_loop.trips) : Fin 1 → Nat :=
  let c1000_i32 : BitVec 32 := 1000#32
  let c0_i32_1104 : BitVec 32 := 0#32
  let c1_i32_1106 : BitVec 32 := 1#32
  let arg18 : BitVec 32 := Scf.iv c0_i32_1104 c1_i32_1106 k0_t15
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1000_i32 v2462
  let v2464 : Index := Scalar.indexCast v2463
  ![v2464.toNat]
def k0_off71 (k0_t15 : Fin k0_t15_loop.trips) (c0_i32_1140 : BitVec 32) : Fin 3 → Nat :=
  let c1_i32_1141 : BitVec 32 := 1#32
  let v2485 : Index := Scalar.indexCast c1_i32_1141
  let c0_i32_1104 : BitVec 32 := 0#32
  let c1_i32_1106 : BitVec 32 := 1#32
  let arg18 : BitVec 32 := Scf.iv c0_i32_1104 c1_i32_1106 k0_t15
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off72 (k0_t15 : Fin k0_t15_loop.trips) (c0_i32_1143 : BitVec 32) : Fin 3 → Nat :=
  let c1_i32_1144 : BitVec 32 := 1#32
  let v2497 : Index := Scalar.indexCast c1_i32_1144
  let c0_i32_1104 : BitVec 32 := 0#32
  let c1_i32_1106 : BitVec 32 := 1#32
  let arg18 : BitVec 32 := Scf.iv c0_i32_1104 c1_i32_1106 k0_t15
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off73 (k0_t15 : Fin k0_t15_loop.trips) (c0_i32_1146 : BitVec 32) : Fin 3 → Nat :=
  let c1_i32_1147 : BitVec 32 := 1#32
  let v2509 : Index := Scalar.indexCast c1_i32_1147
  let c0_i32_1104 : BitVec 32 := 0#32
  let c1_i32_1106 : BitVec 32 := 1#32
  let arg18 : BitVec 32 := Scf.iv c0_i32_1104 c1_i32_1106 k0_t15
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off74 (k0_t15 : Fin k0_t15_loop.trips) (c0_i32_1149 : BitVec 32) : Fin 3 → Nat :=
  let c1_i32_1150 : BitVec 32 := 1#32
  let v2521 : Index := Scalar.indexCast c1_i32_1150
  let c0_i32_1104 : BitVec 32 := 0#32
  let c1_i32_1106 : BitVec 32 := 1#32
  let arg18 : BitVec 32 := Scf.iv c0_i32_1104 c1_i32_1106 k0_t15
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
@[reducible] def k0_t16_loop : Scf.Loop 32 :=
  let c0_i32_1121 : BitVec 32 := 0#32
  let c13_i32_1122 : BitVec 32 := 13#32
  let v2452 : BitVec 32 := Scalar.addi c0_i32_1121 c13_i32_1122
  let c1_i32_1123 : BitVec 32 := 1#32
  ⟨c0_i32_1121, v2452, c1_i32_1123⟩
def k0_off75 (k0_t16 : Fin k0_t16_loop.trips) : Fin 1 → Nat :=
  let c1200_i32 : BitVec 32 := 1200#32
  let c0_i32_1121 : BitVec 32 := 0#32
  let c1_i32_1123 : BitVec 32 := 1#32
  let arg18 : BitVec 32 := Scf.iv c0_i32_1121 c1_i32_1123 k0_t16
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1200_i32 v2462
  let v2464 : Index := Scalar.indexCast v2463
  ![v2464.toNat]
def k0_off76 (k0_t16 : Fin k0_t16_loop.trips) (c0_i32_1140 : BitVec 32) : Fin 3 → Nat :=
  let c0_i32_1141 : BitVec 32 := 0#32
  let v2485 : Index := Scalar.indexCast c0_i32_1141
  let c0_i32_1121 : BitVec 32 := 0#32
  let c1_i32_1123 : BitVec 32 := 1#32
  let arg18 : BitVec 32 := Scf.iv c0_i32_1121 c1_i32_1123 k0_t16
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![0, v2486.toNat, 0]
def k0_off77 (k0_t16 : Fin k0_t16_loop.trips) (c0_i32_1143 : BitVec 32) : Fin 3 → Nat :=
  let c0_i32_1144 : BitVec 32 := 0#32
  let v2497 : Index := Scalar.indexCast c0_i32_1144
  let c0_i32_1121 : BitVec 32 := 0#32
  let c1_i32_1123 : BitVec 32 := 1#32
  let arg18 : BitVec 32 := Scf.iv c0_i32_1121 c1_i32_1123 k0_t16
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![0, v2498.toNat, 16]
def k0_off78 (k0_t16 : Fin k0_t16_loop.trips) (c0_i32_1146 : BitVec 32) : Fin 3 → Nat :=
  let c0_i32_1147 : BitVec 32 := 0#32
  let v2509 : Index := Scalar.indexCast c0_i32_1147
  let c0_i32_1121 : BitVec 32 := 0#32
  let c1_i32_1123 : BitVec 32 := 1#32
  let arg18 : BitVec 32 := Scf.iv c0_i32_1121 c1_i32_1123 k0_t16
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![0, v2510.toNat, 32]
def k0_off79 (k0_t16 : Fin k0_t16_loop.trips) (c0_i32_1149 : BitVec 32) : Fin 3 → Nat :=
  let c0_i32_1150 : BitVec 32 := 0#32
  let v2521 : Index := Scalar.indexCast c0_i32_1150
  let c0_i32_1121 : BitVec 32 := 0#32
  let c1_i32_1123 : BitVec 32 := 1#32
  let arg18 : BitVec 32 := Scf.iv c0_i32_1121 c1_i32_1123 k0_t16
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![0, v2522.toNat, 48]
@[reducible] def k0_t17_loop : Scf.Loop 32 :=
  let c0_i32_1126 : BitVec 32 := 0#32
  let c13_i32_1127 : BitVec 32 := 13#32
  let v2454 : BitVec 32 := Scalar.addi c0_i32_1126 c13_i32_1127
  let c1_i32_1128 : BitVec 32 := 1#32
  ⟨c0_i32_1126, v2454, c1_i32_1128⟩
def k0_off80 (k0_t17 : Fin k0_t17_loop.trips) : Fin 1 → Nat :=
  let c1400_i32 : BitVec 32 := 1400#32
  let c0_i32_1126 : BitVec 32 := 0#32
  let c1_i32_1128 : BitVec 32 := 1#32
  let arg18 : BitVec 32 := Scf.iv c0_i32_1126 c1_i32_1128 k0_t17
  let c16_i32 : BitVec 32 := 16#32
  let v2461 : BitVec 32 := Scalar.muli arg18 c16_i32
  let c184_i32 : BitVec 32 := 184#32
  let v2462 : BitVec 32 := Scalar.minsi v2461 c184_i32
  let v2463 : BitVec 32 := Scalar.addi c1400_i32 v2462
  let v2464 : Index := Scalar.indexCast v2463
  ![v2464.toNat]
def k0_off81 (k0_t17 : Fin k0_t17_loop.trips) (c0_i32_1140 : BitVec 32) : Fin 3 → Nat :=
  let c1_i32_1141 : BitVec 32 := 1#32
  let v2485 : Index := Scalar.indexCast c1_i32_1141
  let c0_i32_1126 : BitVec 32 := 0#32
  let c1_i32_1128 : BitVec 32 := 1#32
  let arg18 : BitVec 32 := Scf.iv c0_i32_1126 c1_i32_1128 k0_t17
  let c16_i32 : BitVec 32 := 16#32
  let v2461 : BitVec 32 := Scalar.muli arg18 c16_i32
  let c184_i32 : BitVec 32 := 184#32
  let v2462 : BitVec 32 := Scalar.minsi v2461 c184_i32
  let v2484 : BitVec 32 := Scalar.addi v2462 c0_i32_1140
  let v2486 : Index := Scalar.indexCast v2484
  let c0_1142 : Index := 0#32
  ![1, v2486.toNat, 0]
def k0_off82 (k0_t17 : Fin k0_t17_loop.trips) (c0_i32_1143 : BitVec 32) : Fin 3 → Nat :=
  let c1_i32_1144 : BitVec 32 := 1#32
  let v2497 : Index := Scalar.indexCast c1_i32_1144
  let c0_i32_1126 : BitVec 32 := 0#32
  let c1_i32_1128 : BitVec 32 := 1#32
  let arg18 : BitVec 32 := Scf.iv c0_i32_1126 c1_i32_1128 k0_t17
  let c16_i32 : BitVec 32 := 16#32
  let v2461 : BitVec 32 := Scalar.muli arg18 c16_i32
  let c184_i32 : BitVec 32 := 184#32
  let v2462 : BitVec 32 := Scalar.minsi v2461 c184_i32
  let v2496 : BitVec 32 := Scalar.addi v2462 c0_i32_1143
  let v2498 : Index := Scalar.indexCast v2496
  let c16_1145 : Index := 16#32
  ![1, v2498.toNat, 16]
def k0_off83 (k0_t17 : Fin k0_t17_loop.trips) (c0_i32_1146 : BitVec 32) : Fin 3 → Nat :=
  let c1_i32_1147 : BitVec 32 := 1#32
  let v2509 : Index := Scalar.indexCast c1_i32_1147
  let c0_i32_1126 : BitVec 32 := 0#32
  let c1_i32_1128 : BitVec 32 := 1#32
  let arg18 : BitVec 32 := Scf.iv c0_i32_1126 c1_i32_1128 k0_t17
  let c16_i32 : BitVec 32 := 16#32
  let v2461 : BitVec 32 := Scalar.muli arg18 c16_i32
  let c184_i32 : BitVec 32 := 184#32
  let v2462 : BitVec 32 := Scalar.minsi v2461 c184_i32
  let v2508 : BitVec 32 := Scalar.addi v2462 c0_i32_1146
  let v2510 : Index := Scalar.indexCast v2508
  let c32_1148 : Index := 32#32
  ![1, v2510.toNat, 32]
def k0_off84 (k0_t17 : Fin k0_t17_loop.trips) (c0_i32_1149 : BitVec 32) : Fin 3 → Nat :=
  let c1_i32_1150 : BitVec 32 := 1#32
  let v2521 : Index := Scalar.indexCast c1_i32_1150
  let c0_i32_1126 : BitVec 32 := 0#32
  let c1_i32_1128 : BitVec 32 := 1#32
  let arg18 : BitVec 32 := Scf.iv c0_i32_1126 c1_i32_1128 k0_t17
  let c16_i32 : BitVec 32 := 16#32
  let v2461 : BitVec 32 := Scalar.muli arg18 c16_i32
  let c184_i32 : BitVec 32 := 184#32
  let v2462 : BitVec 32 := Scalar.minsi v2461 c184_i32
  let v2520 : BitVec 32 := Scalar.addi v2462 c0_i32_1149
  let v2522 : Index := Scalar.indexCast v2520
  let c48_1151 : Index := 48#32
  ![1, v2522.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x64_S256 : S4x64.ShapeCasts S256
  inb_S256_S16_0 : ∀ a, (![0] : Fin 1 → Nat) a + S16.size a ≤ S256.size a
  h_S16 : 0 < S16.numel
  shapeCasts_S16_S16 : S16.ShapeCasts S16
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  inb_S4096x400_S8x400_0_0 : ∀ a, (![0, 0] : Fin 2 → Nat) a + S8x400.size a ≤ S4096x400.size a
  inb_S8x400_S1x16_0_0 : ∀ a, (![0, 0] : Fin 2 → Nat) a + S1x16.size a ≤ S8x400.size a
  h_S1x16 : 0 < S1x16.numel
  shapeCasts_S1x16_S16 : S1x16.ShapeCasts S16
  inb_S8x400_S1x16_0_200 : ∀ a, (![0, 200] : Fin 2 → Nat) a + S1x16.size a ≤ S8x400.size a
  inb_S1600_S16_0 : ∀ a, (![0] : Fin 1 → Nat) a + S16.size a ≤ S1600.size a
  inb_S8x400_S1x16_0_16 : ∀ a, (![0, 16] : Fin 2 → Nat) a + S1x16.size a ≤ S8x400.size a
  inb_S8x400_S1x16_0_216 : ∀ a, (![0, 216] : Fin 2 → Nat) a + S1x16.size a ≤ S8x400.size a
  inb_S1600_S16_16 : ∀ a, (![16] : Fin 1 → Nat) a + S16.size a ≤ S1600.size a
  inb_S8x400_S1x16_0_32 : ∀ a, (![0, 32] : Fin 2 → Nat) a + S1x16.size a ≤ S8x400.size a
  inb_S8x400_S1x16_0_232 : ∀ a, (![0, 232] : Fin 2 → Nat) a + S1x16.size a ≤ S8x400.size a
  inb_S1600_S16_32 : ∀ a, (![32] : Fin 1 → Nat) a + S16.size a ≤ S1600.size a
  inb_S8x400_S1x16_0_48 : ∀ a, (![0, 48] : Fin 2 → Nat) a + S1x16.size a ≤ S8x400.size a
  inb_S8x400_S1x16_0_248 : ∀ a, (![0, 248] : Fin 2 → Nat) a + S1x16.size a ≤ S8x400.size a
  inb_S1600_S16_48 : ∀ a, (![48] : Fin 1 → Nat) a + S16.size a ≤ S1600.size a
  inb_S8x400_S1x16_0_64 : ∀ a, (![0, 64] : Fin 2 → Nat) a + S1x16.size a ≤ S8x400.size a
  inb_S8x400_S1x16_0_264 : ∀ a, (![0, 264] : Fin 2 → Nat) a + S1x16.size a ≤ S8x400.size a
  inb_S1600_S16_64 : ∀ a, (![64] : Fin 1 → Nat) a + S16.size a ≤ S1600.size a
  inb_S8x400_S1x16_0_80 : ∀ a, (![0, 80] : Fin 2 → Nat) a + S1x16.size a ≤ S8x400.size a
  inb_S8x400_S1x16_0_280 : ∀ a, (![0, 280] : Fin 2 → Nat) a + S1x16.size a ≤ S8x400.size a
  inb_S1600_S16_80 : ∀ a, (![80] : Fin 1 → Nat) a + S16.size a ≤ S1600.size a
  inb_S8x400_S1x16_0_96 : ∀ a, (![0, 96] : Fin 2 → Nat) a + S1x16.size a ≤ S8x400.size a
  inb_S8x400_S1x16_0_296 : ∀ a, (![0, 296] : Fin 2 → Nat) a + S1x16.size a ≤ S8x400.size a
  inb_S1600_S16_96 : ∀ a, (![96] : Fin 1 → Nat) a + S16.size a ≤ S1600.size a
  inb_S8x400_S1x16_0_112 : ∀ a, (![0, 112] : Fin 2 → Nat) a + S1x16.size a ≤ S8x400.size a
  inb_S8x400_S1x16_0_312 : ∀ a, (![0, 312] : Fin 2 → Nat) a + S1x16.size a ≤ S8x400.size a
  inb_S1600_S16_112 : ∀ a, (![112] : Fin 1 → Nat) a + S16.size a ≤ S1600.size a
  inb_S8x400_S1x16_0_128 : ∀ a, (![0, 128] : Fin 2 → Nat) a + S1x16.size a ≤ S8x400.size a
  inb_S8x400_S1x16_0_328 : ∀ a, (![0, 328] : Fin 2 → Nat) a + S1x16.size a ≤ S8x400.size a
  inb_S1600_S16_128 : ∀ a, (![128] : Fin 1 → Nat) a + S16.size a ≤ S1600.size a
  inb_S8x400_S1x16_0_144 : ∀ a, (![0, 144] : Fin 2 → Nat) a + S1x16.size a ≤ S8x400.size a
  inb_S8x400_S1x16_0_344 : ∀ a, (![0, 344] : Fin 2 → Nat) a + S1x16.size a ≤ S8x400.size a
  inb_S1600_S16_144 : ∀ a, (![144] : Fin 1 → Nat) a + S16.size a ≤ S1600.size a
  inb_S8x400_S1x16_0_160 : ∀ a, (![0, 160] : Fin 2 → Nat) a + S1x16.size a ≤ S8x400.size a
  inb_S8x400_S1x16_0_360 : ∀ a, (![0, 360] : Fin 2 → Nat) a + S1x16.size a ≤ S8x400.size a
  inb_S1600_S16_160 : ∀ a, (![160] : Fin 1 → Nat) a + S16.size a ≤ S1600.size a
  inb_S8x400_S1x16_0_168 : ∀ a, (![0, 168] : Fin 2 → Nat) a + S1x16.size a ≤ S8x400.size a
  inb_S8x400_S1x16_0_368 : ∀ a, (![0, 368] : Fin 2 → Nat) a + S1x16.size a ≤ S8x400.size a
  inb_S1600_S16_168 : ∀ a, (![168] : Fin 1 → Nat) a + S16.size a ≤ S1600.size a
  inb_S8x400_S1x16_0_184 : ∀ a, (![0, 184] : Fin 2 → Nat) a + S1x16.size a ≤ S8x400.size a
  inb_S8x400_S1x16_0_384 : ∀ a, (![0, 384] : Fin 2 → Nat) a + S1x16.size a ≤ S8x400.size a
  inb_S1600_S16_184 : ∀ a, (![184] : Fin 1 → Nat) a + S16.size a ≤ S1600.size a
  inb_S8x400_S1x16_1_0 : ∀ a, (![1, 0] : Fin 2 → Nat) a + S1x16.size a ≤ S8x400.size a
  inb_S8x400_S1x16_1_200 : ∀ a, (![1, 200] : Fin 2 → Nat) a + S1x16.size a ≤ S8x400.size a
  inb_S1600_S16_200 : ∀ a, (![200] : Fin 1 → Nat) a + S16.size a ≤ S1600.size a
  inb_S8x400_S1x16_1_16 : ∀ a, (![1, 16] : Fin 2 → Nat) a + S1x16.size a ≤ S8x400.size a
  inb_S8x400_S1x16_1_216 : ∀ a, (![1, 216] : Fin 2 → Nat) a + S1x16.size a ≤ S8x400.size a
  inb_S1600_S16_216 : ∀ a, (![216] : Fin 1 → Nat) a + S16.size a ≤ S1600.size a
  inb_S8x400_S1x16_1_32 : ∀ a, (![1, 32] : Fin 2 → Nat) a + S1x16.size a ≤ S8x400.size a
  inb_S8x400_S1x16_1_232 : ∀ a, (![1, 232] : Fin 2 → Nat) a + S1x16.size a ≤ S8x400.size a
  inb_S1600_S16_232 : ∀ a, (![232] : Fin 1 → Nat) a + S16.size a ≤ S1600.size a
  inb_S8x400_S1x16_1_48 : ∀ a, (![1, 48] : Fin 2 → Nat) a + S1x16.size a ≤ S8x400.size a
  inb_S8x400_S1x16_1_248 : ∀ a, (![1, 248] : Fin 2 → Nat) a + S1x16.size a ≤ S8x400.size a
  inb_S1600_S16_248 : ∀ a, (![248] : Fin 1 → Nat) a + S16.size a ≤ S1600.size a
  inb_S8x400_S1x16_1_64 : ∀ a, (![1, 64] : Fin 2 → Nat) a + S1x16.size a ≤ S8x400.size a
  inb_S8x400_S1x16_1_264 : ∀ a, (![1, 264] : Fin 2 → Nat) a + S1x16.size a ≤ S8x400.size a
  inb_S1600_S16_264 : ∀ a, (![264] : Fin 1 → Nat) a + S16.size a ≤ S1600.size a
  inb_S8x400_S1x16_1_80 : ∀ a, (![1, 80] : Fin 2 → Nat) a + S1x16.size a ≤ S8x400.size a
  inb_S8x400_S1x16_1_280 : ∀ a, (![1, 280] : Fin 2 → Nat) a + S1x16.size a ≤ S8x400.size a
  inb_S1600_S16_280 : ∀ a, (![280] : Fin 1 → Nat) a + S16.size a ≤ S1600.size a
  inb_S8x400_S1x16_1_96 : ∀ a, (![1, 96] : Fin 2 → Nat) a + S1x16.size a ≤ S8x400.size a
  inb_S8x400_S1x16_1_296 : ∀ a, (![1, 296] : Fin 2 → Nat) a + S1x16.size a ≤ S8x400.size a
  inb_S1600_S16_296 : ∀ a, (![296] : Fin 1 → Nat) a + S16.size a ≤ S1600.size a
  inb_S8x400_S1x16_1_112 : ∀ a, (![1, 112] : Fin 2 → Nat) a + S1x16.size a ≤ S8x400.size a
  inb_S8x400_S1x16_1_312 : ∀ a, (![1, 312] : Fin 2 → Nat) a + S1x16.size a ≤ S8x400.size a
  inb_S1600_S16_312 : ∀ a, (![312] : Fin 1 → Nat) a + S16.size a ≤ S1600.size a
  inb_S8x400_S1x16_1_128 : ∀ a, (![1, 128] : Fin 2 → Nat) a + S1x16.size a ≤ S8x400.size a
  inb_S8x400_S1x16_1_328 : ∀ a, (![1, 328] : Fin 2 → Nat) a + S1x16.size a ≤ S8x400.size a
  inb_S1600_S16_328 : ∀ a, (![328] : Fin 1 → Nat) a + S16.size a ≤ S1600.size a
  inb_S8x400_S1x16_1_144 : ∀ a, (![1, 144] : Fin 2 → Nat) a + S1x16.size a ≤ S8x400.size a
  inb_S8x400_S1x16_1_344 : ∀ a, (![1, 344] : Fin 2 → Nat) a + S1x16.size a ≤ S8x400.size a
  inb_S1600_S16_344 : ∀ a, (![344] : Fin 1 → Nat) a + S16.size a ≤ S1600.size a
  inb_S8x400_S1x16_1_160 : ∀ a, (![1, 160] : Fin 2 → Nat) a + S1x16.size a ≤ S8x400.size a
  inb_S8x400_S1x16_1_360 : ∀ a, (![1, 360] : Fin 2 → Nat) a + S1x16.size a ≤ S8x400.size a
  inb_S1600_S16_360 : ∀ a, (![360] : Fin 1 → Nat) a + S16.size a ≤ S1600.size a
  inb_S8x400_S1x16_1_168 : ∀ a, (![1, 168] : Fin 2 → Nat) a + S1x16.size a ≤ S8x400.size a
  inb_S8x400_S1x16_1_368 : ∀ a, (![1, 368] : Fin 2 → Nat) a + S1x16.size a ≤ S8x400.size a
  inb_S1600_S16_368 : ∀ a, (![368] : Fin 1 → Nat) a + S16.size a ≤ S1600.size a
  inb_S8x400_S1x16_1_184 : ∀ a, (![1, 184] : Fin 2 → Nat) a + S1x16.size a ≤ S8x400.size a
  inb_S8x400_S1x16_1_384 : ∀ a, (![1, 384] : Fin 2 → Nat) a + S1x16.size a ≤ S8x400.size a
  inb_S1600_S16_384 : ∀ a, (![384] : Fin 1 → Nat) a + S16.size a ≤ S1600.size a
  inb_S8x400_S1x16_2_0 : ∀ a, (![2, 0] : Fin 2 → Nat) a + S1x16.size a ≤ S8x400.size a
  inb_S8x400_S1x16_2_200 : ∀ a, (![2, 200] : Fin 2 → Nat) a + S1x16.size a ≤ S8x400.size a
  inb_S1600_S16_400 : ∀ a, (![400] : Fin 1 → Nat) a + S16.size a ≤ S1600.size a
  inb_S8x400_S1x16_2_16 : ∀ a, (![2, 16] : Fin 2 → Nat) a + S1x16.size a ≤ S8x400.size a
  inb_S8x400_S1x16_2_216 : ∀ a, (![2, 216] : Fin 2 → Nat) a + S1x16.size a ≤ S8x400.size a
  inb_S1600_S16_416 : ∀ a, (![416] : Fin 1 → Nat) a + S16.size a ≤ S1600.size a
  inb_S8x400_S1x16_2_32 : ∀ a, (![2, 32] : Fin 2 → Nat) a + S1x16.size a ≤ S8x400.size a
  inb_S8x400_S1x16_2_232 : ∀ a, (![2, 232] : Fin 2 → Nat) a + S1x16.size a ≤ S8x400.size a
  inb_S1600_S16_432 : ∀ a, (![432] : Fin 1 → Nat) a + S16.size a ≤ S1600.size a
  inb_S8x400_S1x16_2_48 : ∀ a, (![2, 48] : Fin 2 → Nat) a + S1x16.size a ≤ S8x400.size a
  inb_S8x400_S1x16_2_248 : ∀ a, (![2, 248] : Fin 2 → Nat) a + S1x16.size a ≤ S8x400.size a
  inb_S1600_S16_448 : ∀ a, (![448] : Fin 1 → Nat) a + S16.size a ≤ S1600.size a
  inb_S8x400_S1x16_2_64 : ∀ a, (![2, 64] : Fin 2 → Nat) a + S1x16.size a ≤ S8x400.size a
  inb_S8x400_S1x16_2_264 : ∀ a, (![2, 264] : Fin 2 → Nat) a + S1x16.size a ≤ S8x400.size a
  inb_S1600_S16_464 : ∀ a, (![464] : Fin 1 → Nat) a + S16.size a ≤ S1600.size a
  inb_S8x400_S1x16_2_80 : ∀ a, (![2, 80] : Fin 2 → Nat) a + S1x16.size a ≤ S8x400.size a
  inb_S8x400_S1x16_2_280 : ∀ a, (![2, 280] : Fin 2 → Nat) a + S1x16.size a ≤ S8x400.size a
  inb_S1600_S16_480 : ∀ a, (![480] : Fin 1 → Nat) a + S16.size a ≤ S1600.size a
  inb_S8x400_S1x16_2_96 : ∀ a, (![2, 96] : Fin 2 → Nat) a + S1x16.size a ≤ S8x400.size a
  inb_S8x400_S1x16_2_296 : ∀ a, (![2, 296] : Fin 2 → Nat) a + S1x16.size a ≤ S8x400.size a
  inb_S1600_S16_496 : ∀ a, (![496] : Fin 1 → Nat) a + S16.size a ≤ S1600.size a
  inb_S8x400_S1x16_2_112 : ∀ a, (![2, 112] : Fin 2 → Nat) a + S1x16.size a ≤ S8x400.size a
  inb_S8x400_S1x16_2_312 : ∀ a, (![2, 312] : Fin 2 → Nat) a + S1x16.size a ≤ S8x400.size a
  inb_S1600_S16_512 : ∀ a, (![512] : Fin 1 → Nat) a + S16.size a ≤ S1600.size a
  inb_S8x400_S1x16_2_128 : ∀ a, (![2, 128] : Fin 2 → Nat) a + S1x16.size a ≤ S8x400.size a
  inb_S8x400_S1x16_2_328 : ∀ a, (![2, 328] : Fin 2 → Nat) a + S1x16.size a ≤ S8x400.size a
  inb_S1600_S16_528 : ∀ a, (![528] : Fin 1 → Nat) a + S16.size a ≤ S1600.size a
  inb_S8x400_S1x16_2_144 : ∀ a, (![2, 144] : Fin 2 → Nat) a + S1x16.size a ≤ S8x400.size a
  inb_S8x400_S1x16_2_344 : ∀ a, (![2, 344] : Fin 2 → Nat) a + S1x16.size a ≤ S8x400.size a
  inb_S1600_S16_544 : ∀ a, (![544] : Fin 1 → Nat) a + S16.size a ≤ S1600.size a
  inb_S8x400_S1x16_2_160 : ∀ a, (![2, 160] : Fin 2 → Nat) a + S1x16.size a ≤ S8x400.size a
  inb_S8x400_S1x16_2_360 : ∀ a, (![2, 360] : Fin 2 → Nat) a + S1x16.size a ≤ S8x400.size a
  inb_S1600_S16_560 : ∀ a, (![560] : Fin 1 → Nat) a + S16.size a ≤ S1600.size a
  inb_S8x400_S1x16_2_168 : ∀ a, (![2, 168] : Fin 2 → Nat) a + S1x16.size a ≤ S8x400.size a
  inb_S8x400_S1x16_2_368 : ∀ a, (![2, 368] : Fin 2 → Nat) a + S1x16.size a ≤ S8x400.size a
  inb_S1600_S16_568 : ∀ a, (![568] : Fin 1 → Nat) a + S16.size a ≤ S1600.size a
  inb_S8x400_S1x16_2_184 : ∀ a, (![2, 184] : Fin 2 → Nat) a + S1x16.size a ≤ S8x400.size a
  inb_S8x400_S1x16_2_384 : ∀ a, (![2, 384] : Fin 2 → Nat) a + S1x16.size a ≤ S8x400.size a
  inb_S1600_S16_584 : ∀ a, (![584] : Fin 1 → Nat) a + S16.size a ≤ S1600.size a
  inb_S8x400_S1x16_3_0 : ∀ a, (![3, 0] : Fin 2 → Nat) a + S1x16.size a ≤ S8x400.size a
  inb_S8x400_S1x16_3_200 : ∀ a, (![3, 200] : Fin 2 → Nat) a + S1x16.size a ≤ S8x400.size a
  inb_S1600_S16_600 : ∀ a, (![600] : Fin 1 → Nat) a + S16.size a ≤ S1600.size a
  inb_S8x400_S1x16_3_16 : ∀ a, (![3, 16] : Fin 2 → Nat) a + S1x16.size a ≤ S8x400.size a
  inb_S8x400_S1x16_3_216 : ∀ a, (![3, 216] : Fin 2 → Nat) a + S1x16.size a ≤ S8x400.size a
  inb_S1600_S16_616 : ∀ a, (![616] : Fin 1 → Nat) a + S16.size a ≤ S1600.size a
  inb_S8x400_S1x16_3_32 : ∀ a, (![3, 32] : Fin 2 → Nat) a + S1x16.size a ≤ S8x400.size a
  inb_S8x400_S1x16_3_232 : ∀ a, (![3, 232] : Fin 2 → Nat) a + S1x16.size a ≤ S8x400.size a
  inb_S1600_S16_632 : ∀ a, (![632] : Fin 1 → Nat) a + S16.size a ≤ S1600.size a
  inb_S8x400_S1x16_3_48 : ∀ a, (![3, 48] : Fin 2 → Nat) a + S1x16.size a ≤ S8x400.size a
  inb_S8x400_S1x16_3_248 : ∀ a, (![3, 248] : Fin 2 → Nat) a + S1x16.size a ≤ S8x400.size a
  inb_S1600_S16_648 : ∀ a, (![648] : Fin 1 → Nat) a + S16.size a ≤ S1600.size a
  inb_S8x400_S1x16_3_64 : ∀ a, (![3, 64] : Fin 2 → Nat) a + S1x16.size a ≤ S8x400.size a
  inb_S8x400_S1x16_3_264 : ∀ a, (![3, 264] : Fin 2 → Nat) a + S1x16.size a ≤ S8x400.size a
  inb_S1600_S16_664 : ∀ a, (![664] : Fin 1 → Nat) a + S16.size a ≤ S1600.size a
  inb_S8x400_S1x16_3_80 : ∀ a, (![3, 80] : Fin 2 → Nat) a + S1x16.size a ≤ S8x400.size a
  inb_S8x400_S1x16_3_280 : ∀ a, (![3, 280] : Fin 2 → Nat) a + S1x16.size a ≤ S8x400.size a
  inb_S1600_S16_680 : ∀ a, (![680] : Fin 1 → Nat) a + S16.size a ≤ S1600.size a
  inb_S8x400_S1x16_3_96 : ∀ a, (![3, 96] : Fin 2 → Nat) a + S1x16.size a ≤ S8x400.size a
  inb_S8x400_S1x16_3_296 : ∀ a, (![3, 296] : Fin 2 → Nat) a + S1x16.size a ≤ S8x400.size a
  inb_S1600_S16_696 : ∀ a, (![696] : Fin 1 → Nat) a + S16.size a ≤ S1600.size a
  inb_S8x400_S1x16_3_112 : ∀ a, (![3, 112] : Fin 2 → Nat) a + S1x16.size a ≤ S8x400.size a
  inb_S8x400_S1x16_3_312 : ∀ a, (![3, 312] : Fin 2 → Nat) a + S1x16.size a ≤ S8x400.size a
  inb_S1600_S16_712 : ∀ a, (![712] : Fin 1 → Nat) a + S16.size a ≤ S1600.size a
  inb_S8x400_S1x16_3_128 : ∀ a, (![3, 128] : Fin 2 → Nat) a + S1x16.size a ≤ S8x400.size a
  inb_S8x400_S1x16_3_328 : ∀ a, (![3, 328] : Fin 2 → Nat) a + S1x16.size a ≤ S8x400.size a
  inb_S1600_S16_728 : ∀ a, (![728] : Fin 1 → Nat) a + S16.size a ≤ S1600.size a
  inb_S8x400_S1x16_3_144 : ∀ a, (![3, 144] : Fin 2 → Nat) a + S1x16.size a ≤ S8x400.size a
  inb_S8x400_S1x16_3_344 : ∀ a, (![3, 344] : Fin 2 → Nat) a + S1x16.size a ≤ S8x400.size a
  inb_S1600_S16_744 : ∀ a, (![744] : Fin 1 → Nat) a + S16.size a ≤ S1600.size a
  inb_S8x400_S1x16_3_160 : ∀ a, (![3, 160] : Fin 2 → Nat) a + S1x16.size a ≤ S8x400.size a
  inb_S8x400_S1x16_3_360 : ∀ a, (![3, 360] : Fin 2 → Nat) a + S1x16.size a ≤ S8x400.size a
  inb_S1600_S16_760 : ∀ a, (![760] : Fin 1 → Nat) a + S16.size a ≤ S1600.size a
  inb_S8x400_S1x16_3_168 : ∀ a, (![3, 168] : Fin 2 → Nat) a + S1x16.size a ≤ S8x400.size a
  inb_S8x400_S1x16_3_368 : ∀ a, (![3, 368] : Fin 2 → Nat) a + S1x16.size a ≤ S8x400.size a
  inb_S1600_S16_768 : ∀ a, (![768] : Fin 1 → Nat) a + S16.size a ≤ S1600.size a
  inb_S8x400_S1x16_3_184 : ∀ a, (![3, 184] : Fin 2 → Nat) a + S1x16.size a ≤ S8x400.size a
  inb_S8x400_S1x16_3_384 : ∀ a, (![3, 384] : Fin 2 → Nat) a + S1x16.size a ≤ S8x400.size a
  inb_S1600_S16_784 : ∀ a, (![784] : Fin 1 → Nat) a + S16.size a ≤ S1600.size a
  inb_S8x400_S1x16_4_0 : ∀ a, (![4, 0] : Fin 2 → Nat) a + S1x16.size a ≤ S8x400.size a
  inb_S8x400_S1x16_4_200 : ∀ a, (![4, 200] : Fin 2 → Nat) a + S1x16.size a ≤ S8x400.size a
  inb_S1600_S16_800 : ∀ a, (![800] : Fin 1 → Nat) a + S16.size a ≤ S1600.size a
  inb_S8x400_S1x16_4_16 : ∀ a, (![4, 16] : Fin 2 → Nat) a + S1x16.size a ≤ S8x400.size a
  inb_S8x400_S1x16_4_216 : ∀ a, (![4, 216] : Fin 2 → Nat) a + S1x16.size a ≤ S8x400.size a
  inb_S1600_S16_816 : ∀ a, (![816] : Fin 1 → Nat) a + S16.size a ≤ S1600.size a
  inb_S8x400_S1x16_4_32 : ∀ a, (![4, 32] : Fin 2 → Nat) a + S1x16.size a ≤ S8x400.size a
  inb_S8x400_S1x16_4_232 : ∀ a, (![4, 232] : Fin 2 → Nat) a + S1x16.size a ≤ S8x400.size a
  inb_S1600_S16_832 : ∀ a, (![832] : Fin 1 → Nat) a + S16.size a ≤ S1600.size a
  inb_S8x400_S1x16_4_48 : ∀ a, (![4, 48] : Fin 2 → Nat) a + S1x16.size a ≤ S8x400.size a
  inb_S8x400_S1x16_4_248 : ∀ a, (![4, 248] : Fin 2 → Nat) a + S1x16.size a ≤ S8x400.size a
  inb_S1600_S16_848 : ∀ a, (![848] : Fin 1 → Nat) a + S16.size a ≤ S1600.size a
  inb_S8x400_S1x16_4_64 : ∀ a, (![4, 64] : Fin 2 → Nat) a + S1x16.size a ≤ S8x400.size a
  inb_S8x400_S1x16_4_264 : ∀ a, (![4, 264] : Fin 2 → Nat) a + S1x16.size a ≤ S8x400.size a
  inb_S1600_S16_864 : ∀ a, (![864] : Fin 1 → Nat) a + S16.size a ≤ S1600.size a
  inb_S8x400_S1x16_4_80 : ∀ a, (![4, 80] : Fin 2 → Nat) a + S1x16.size a ≤ S8x400.size a
  inb_S8x400_S1x16_4_280 : ∀ a, (![4, 280] : Fin 2 → Nat) a + S1x16.size a ≤ S8x400.size a
  inb_S1600_S16_880 : ∀ a, (![880] : Fin 1 → Nat) a + S16.size a ≤ S1600.size a
  inb_S8x400_S1x16_4_96 : ∀ a, (![4, 96] : Fin 2 → Nat) a + S1x16.size a ≤ S8x400.size a
  inb_S8x400_S1x16_4_296 : ∀ a, (![4, 296] : Fin 2 → Nat) a + S1x16.size a ≤ S8x400.size a
  inb_S1600_S16_896 : ∀ a, (![896] : Fin 1 → Nat) a + S16.size a ≤ S1600.size a
  inb_S8x400_S1x16_4_112 : ∀ a, (![4, 112] : Fin 2 → Nat) a + S1x16.size a ≤ S8x400.size a
  inb_S8x400_S1x16_4_312 : ∀ a, (![4, 312] : Fin 2 → Nat) a + S1x16.size a ≤ S8x400.size a
  inb_S1600_S16_912 : ∀ a, (![912] : Fin 1 → Nat) a + S16.size a ≤ S1600.size a
  inb_S8x400_S1x16_4_128 : ∀ a, (![4, 128] : Fin 2 → Nat) a + S1x16.size a ≤ S8x400.size a
  inb_S8x400_S1x16_4_328 : ∀ a, (![4, 328] : Fin 2 → Nat) a + S1x16.size a ≤ S8x400.size a
  inb_S1600_S16_928 : ∀ a, (![928] : Fin 1 → Nat) a + S16.size a ≤ S1600.size a
  inb_S8x400_S1x16_4_144 : ∀ a, (![4, 144] : Fin 2 → Nat) a + S1x16.size a ≤ S8x400.size a
  inb_S8x400_S1x16_4_344 : ∀ a, (![4, 344] : Fin 2 → Nat) a + S1x16.size a ≤ S8x400.size a
  inb_S1600_S16_944 : ∀ a, (![944] : Fin 1 → Nat) a + S16.size a ≤ S1600.size a
  inb_S8x400_S1x16_4_160 : ∀ a, (![4, 160] : Fin 2 → Nat) a + S1x16.size a ≤ S8x400.size a
  inb_S8x400_S1x16_4_360 : ∀ a, (![4, 360] : Fin 2 → Nat) a + S1x16.size a ≤ S8x400.size a
  inb_S1600_S16_960 : ∀ a, (![960] : Fin 1 → Nat) a + S16.size a ≤ S1600.size a
  inb_S8x400_S1x16_4_168 : ∀ a, (![4, 168] : Fin 2 → Nat) a + S1x16.size a ≤ S8x400.size a
  inb_S8x400_S1x16_4_368 : ∀ a, (![4, 368] : Fin 2 → Nat) a + S1x16.size a ≤ S8x400.size a
  inb_S1600_S16_968 : ∀ a, (![968] : Fin 1 → Nat) a + S16.size a ≤ S1600.size a
  inb_S8x400_S1x16_4_184 : ∀ a, (![4, 184] : Fin 2 → Nat) a + S1x16.size a ≤ S8x400.size a
  inb_S8x400_S1x16_4_384 : ∀ a, (![4, 384] : Fin 2 → Nat) a + S1x16.size a ≤ S8x400.size a
  inb_S1600_S16_984 : ∀ a, (![984] : Fin 1 → Nat) a + S16.size a ≤ S1600.size a
  inb_S8x400_S1x16_5_0 : ∀ a, (![5, 0] : Fin 2 → Nat) a + S1x16.size a ≤ S8x400.size a
  inb_S8x400_S1x16_5_200 : ∀ a, (![5, 200] : Fin 2 → Nat) a + S1x16.size a ≤ S8x400.size a
  inb_S1600_S16_1000 : ∀ a, (![1000] : Fin 1 → Nat) a + S16.size a ≤ S1600.size a
  inb_S8x400_S1x16_5_16 : ∀ a, (![5, 16] : Fin 2 → Nat) a + S1x16.size a ≤ S8x400.size a
  inb_S8x400_S1x16_5_216 : ∀ a, (![5, 216] : Fin 2 → Nat) a + S1x16.size a ≤ S8x400.size a
  inb_S1600_S16_1016 : ∀ a, (![1016] : Fin 1 → Nat) a + S16.size a ≤ S1600.size a
  inb_S8x400_S1x16_5_32 : ∀ a, (![5, 32] : Fin 2 → Nat) a + S1x16.size a ≤ S8x400.size a
  inb_S8x400_S1x16_5_232 : ∀ a, (![5, 232] : Fin 2 → Nat) a + S1x16.size a ≤ S8x400.size a
  inb_S1600_S16_1032 : ∀ a, (![1032] : Fin 1 → Nat) a + S16.size a ≤ S1600.size a
  inb_S8x400_S1x16_5_48 : ∀ a, (![5, 48] : Fin 2 → Nat) a + S1x16.size a ≤ S8x400.size a
  inb_S8x400_S1x16_5_248 : ∀ a, (![5, 248] : Fin 2 → Nat) a + S1x16.size a ≤ S8x400.size a
  inb_S1600_S16_1048 : ∀ a, (![1048] : Fin 1 → Nat) a + S16.size a ≤ S1600.size a
  inb_S8x400_S1x16_5_64 : ∀ a, (![5, 64] : Fin 2 → Nat) a + S1x16.size a ≤ S8x400.size a
  inb_S8x400_S1x16_5_264 : ∀ a, (![5, 264] : Fin 2 → Nat) a + S1x16.size a ≤ S8x400.size a
  inb_S1600_S16_1064 : ∀ a, (![1064] : Fin 1 → Nat) a + S16.size a ≤ S1600.size a
  inb_S8x400_S1x16_5_80 : ∀ a, (![5, 80] : Fin 2 → Nat) a + S1x16.size a ≤ S8x400.size a
  inb_S8x400_S1x16_5_280 : ∀ a, (![5, 280] : Fin 2 → Nat) a + S1x16.size a ≤ S8x400.size a
  inb_S1600_S16_1080 : ∀ a, (![1080] : Fin 1 → Nat) a + S16.size a ≤ S1600.size a
  inb_S8x400_S1x16_5_96 : ∀ a, (![5, 96] : Fin 2 → Nat) a + S1x16.size a ≤ S8x400.size a
  inb_S8x400_S1x16_5_296 : ∀ a, (![5, 296] : Fin 2 → Nat) a + S1x16.size a ≤ S8x400.size a
  inb_S1600_S16_1096 : ∀ a, (![1096] : Fin 1 → Nat) a + S16.size a ≤ S1600.size a
  inb_S8x400_S1x16_5_112 : ∀ a, (![5, 112] : Fin 2 → Nat) a + S1x16.size a ≤ S8x400.size a
  inb_S8x400_S1x16_5_312 : ∀ a, (![5, 312] : Fin 2 → Nat) a + S1x16.size a ≤ S8x400.size a
  inb_S1600_S16_1112 : ∀ a, (![1112] : Fin 1 → Nat) a + S16.size a ≤ S1600.size a
  inb_S8x400_S1x16_5_128 : ∀ a, (![5, 128] : Fin 2 → Nat) a + S1x16.size a ≤ S8x400.size a
  inb_S8x400_S1x16_5_328 : ∀ a, (![5, 328] : Fin 2 → Nat) a + S1x16.size a ≤ S8x400.size a
  inb_S1600_S16_1128 : ∀ a, (![1128] : Fin 1 → Nat) a + S16.size a ≤ S1600.size a
  inb_S8x400_S1x16_5_144 : ∀ a, (![5, 144] : Fin 2 → Nat) a + S1x16.size a ≤ S8x400.size a
  inb_S8x400_S1x16_5_344 : ∀ a, (![5, 344] : Fin 2 → Nat) a + S1x16.size a ≤ S8x400.size a
  inb_S1600_S16_1144 : ∀ a, (![1144] : Fin 1 → Nat) a + S16.size a ≤ S1600.size a
  inb_S8x400_S1x16_5_160 : ∀ a, (![5, 160] : Fin 2 → Nat) a + S1x16.size a ≤ S8x400.size a
  inb_S8x400_S1x16_5_360 : ∀ a, (![5, 360] : Fin 2 → Nat) a + S1x16.size a ≤ S8x400.size a
  inb_S1600_S16_1160 : ∀ a, (![1160] : Fin 1 → Nat) a + S16.size a ≤ S1600.size a
  inb_S8x400_S1x16_5_168 : ∀ a, (![5, 168] : Fin 2 → Nat) a + S1x16.size a ≤ S8x400.size a
  inb_S8x400_S1x16_5_368 : ∀ a, (![5, 368] : Fin 2 → Nat) a + S1x16.size a ≤ S8x400.size a
  inb_S1600_S16_1168 : ∀ a, (![1168] : Fin 1 → Nat) a + S16.size a ≤ S1600.size a
  inb_S8x400_S1x16_5_184 : ∀ a, (![5, 184] : Fin 2 → Nat) a + S1x16.size a ≤ S8x400.size a
  inb_S8x400_S1x16_5_384 : ∀ a, (![5, 384] : Fin 2 → Nat) a + S1x16.size a ≤ S8x400.size a
  inb_S1600_S16_1184 : ∀ a, (![1184] : Fin 1 → Nat) a + S16.size a ≤ S1600.size a
  inb_S8x400_S1x16_6_0 : ∀ a, (![6, 0] : Fin 2 → Nat) a + S1x16.size a ≤ S8x400.size a
  inb_S8x400_S1x16_6_200 : ∀ a, (![6, 200] : Fin 2 → Nat) a + S1x16.size a ≤ S8x400.size a
  inb_S1600_S16_1200 : ∀ a, (![1200] : Fin 1 → Nat) a + S16.size a ≤ S1600.size a
  inb_S8x400_S1x16_6_16 : ∀ a, (![6, 16] : Fin 2 → Nat) a + S1x16.size a ≤ S8x400.size a
  inb_S8x400_S1x16_6_216 : ∀ a, (![6, 216] : Fin 2 → Nat) a + S1x16.size a ≤ S8x400.size a
  inb_S1600_S16_1216 : ∀ a, (![1216] : Fin 1 → Nat) a + S16.size a ≤ S1600.size a
  inb_S8x400_S1x16_6_32 : ∀ a, (![6, 32] : Fin 2 → Nat) a + S1x16.size a ≤ S8x400.size a
  inb_S8x400_S1x16_6_232 : ∀ a, (![6, 232] : Fin 2 → Nat) a + S1x16.size a ≤ S8x400.size a
  inb_S1600_S16_1232 : ∀ a, (![1232] : Fin 1 → Nat) a + S16.size a ≤ S1600.size a
  inb_S8x400_S1x16_6_48 : ∀ a, (![6, 48] : Fin 2 → Nat) a + S1x16.size a ≤ S8x400.size a
  inb_S8x400_S1x16_6_248 : ∀ a, (![6, 248] : Fin 2 → Nat) a + S1x16.size a ≤ S8x400.size a
  inb_S1600_S16_1248 : ∀ a, (![1248] : Fin 1 → Nat) a + S16.size a ≤ S1600.size a
  inb_S8x400_S1x16_6_64 : ∀ a, (![6, 64] : Fin 2 → Nat) a + S1x16.size a ≤ S8x400.size a
  inb_S8x400_S1x16_6_264 : ∀ a, (![6, 264] : Fin 2 → Nat) a + S1x16.size a ≤ S8x400.size a
  inb_S1600_S16_1264 : ∀ a, (![1264] : Fin 1 → Nat) a + S16.size a ≤ S1600.size a
  inb_S8x400_S1x16_6_80 : ∀ a, (![6, 80] : Fin 2 → Nat) a + S1x16.size a ≤ S8x400.size a
  inb_S8x400_S1x16_6_280 : ∀ a, (![6, 280] : Fin 2 → Nat) a + S1x16.size a ≤ S8x400.size a
  inb_S1600_S16_1280 : ∀ a, (![1280] : Fin 1 → Nat) a + S16.size a ≤ S1600.size a
  inb_S8x400_S1x16_6_96 : ∀ a, (![6, 96] : Fin 2 → Nat) a + S1x16.size a ≤ S8x400.size a
  inb_S8x400_S1x16_6_296 : ∀ a, (![6, 296] : Fin 2 → Nat) a + S1x16.size a ≤ S8x400.size a
  inb_S1600_S16_1296 : ∀ a, (![1296] : Fin 1 → Nat) a + S16.size a ≤ S1600.size a
  inb_S8x400_S1x16_6_112 : ∀ a, (![6, 112] : Fin 2 → Nat) a + S1x16.size a ≤ S8x400.size a
  inb_S8x400_S1x16_6_312 : ∀ a, (![6, 312] : Fin 2 → Nat) a + S1x16.size a ≤ S8x400.size a
  inb_S1600_S16_1312 : ∀ a, (![1312] : Fin 1 → Nat) a + S16.size a ≤ S1600.size a
  inb_S8x400_S1x16_6_128 : ∀ a, (![6, 128] : Fin 2 → Nat) a + S1x16.size a ≤ S8x400.size a
  inb_S8x400_S1x16_6_328 : ∀ a, (![6, 328] : Fin 2 → Nat) a + S1x16.size a ≤ S8x400.size a
  inb_S1600_S16_1328 : ∀ a, (![1328] : Fin 1 → Nat) a + S16.size a ≤ S1600.size a
  inb_S8x400_S1x16_6_144 : ∀ a, (![6, 144] : Fin 2 → Nat) a + S1x16.size a ≤ S8x400.size a
  inb_S8x400_S1x16_6_344 : ∀ a, (![6, 344] : Fin 2 → Nat) a + S1x16.size a ≤ S8x400.size a
  inb_S1600_S16_1344 : ∀ a, (![1344] : Fin 1 → Nat) a + S16.size a ≤ S1600.size a
  inb_S8x400_S1x16_6_160 : ∀ a, (![6, 160] : Fin 2 → Nat) a + S1x16.size a ≤ S8x400.size a
  inb_S8x400_S1x16_6_360 : ∀ a, (![6, 360] : Fin 2 → Nat) a + S1x16.size a ≤ S8x400.size a
  inb_S1600_S16_1360 : ∀ a, (![1360] : Fin 1 → Nat) a + S16.size a ≤ S1600.size a
  inb_S8x400_S1x16_6_168 : ∀ a, (![6, 168] : Fin 2 → Nat) a + S1x16.size a ≤ S8x400.size a
  inb_S8x400_S1x16_6_368 : ∀ a, (![6, 368] : Fin 2 → Nat) a + S1x16.size a ≤ S8x400.size a
  inb_S1600_S16_1368 : ∀ a, (![1368] : Fin 1 → Nat) a + S16.size a ≤ S1600.size a
  inb_S8x400_S1x16_6_184 : ∀ a, (![6, 184] : Fin 2 → Nat) a + S1x16.size a ≤ S8x400.size a
  inb_S8x400_S1x16_6_384 : ∀ a, (![6, 384] : Fin 2 → Nat) a + S1x16.size a ≤ S8x400.size a
  inb_S1600_S16_1384 : ∀ a, (![1384] : Fin 1 → Nat) a + S16.size a ≤ S1600.size a
  inb_S8x400_S1x16_7_0 : ∀ a, (![7, 0] : Fin 2 → Nat) a + S1x16.size a ≤ S8x400.size a
  inb_S8x400_S1x16_7_200 : ∀ a, (![7, 200] : Fin 2 → Nat) a + S1x16.size a ≤ S8x400.size a
  inb_S1600_S16_1400 : ∀ a, (![1400] : Fin 1 → Nat) a + S16.size a ≤ S1600.size a
  inb_S8x400_S1x16_7_16 : ∀ a, (![7, 16] : Fin 2 → Nat) a + S1x16.size a ≤ S8x400.size a
  inb_S8x400_S1x16_7_216 : ∀ a, (![7, 216] : Fin 2 → Nat) a + S1x16.size a ≤ S8x400.size a
  inb_S1600_S16_1416 : ∀ a, (![1416] : Fin 1 → Nat) a + S16.size a ≤ S1600.size a
  inb_S8x400_S1x16_7_32 : ∀ a, (![7, 32] : Fin 2 → Nat) a + S1x16.size a ≤ S8x400.size a
  inb_S8x400_S1x16_7_232 : ∀ a, (![7, 232] : Fin 2 → Nat) a + S1x16.size a ≤ S8x400.size a
  inb_S1600_S16_1432 : ∀ a, (![1432] : Fin 1 → Nat) a + S16.size a ≤ S1600.size a
  inb_S8x400_S1x16_7_48 : ∀ a, (![7, 48] : Fin 2 → Nat) a + S1x16.size a ≤ S8x400.size a
  inb_S8x400_S1x16_7_248 : ∀ a, (![7, 248] : Fin 2 → Nat) a + S1x16.size a ≤ S8x400.size a
  inb_S1600_S16_1448 : ∀ a, (![1448] : Fin 1 → Nat) a + S16.size a ≤ S1600.size a
  inb_S8x400_S1x16_7_64 : ∀ a, (![7, 64] : Fin 2 → Nat) a + S1x16.size a ≤ S8x400.size a
  inb_S8x400_S1x16_7_264 : ∀ a, (![7, 264] : Fin 2 → Nat) a + S1x16.size a ≤ S8x400.size a
  inb_S1600_S16_1464 : ∀ a, (![1464] : Fin 1 → Nat) a + S16.size a ≤ S1600.size a
  inb_S8x400_S1x16_7_80 : ∀ a, (![7, 80] : Fin 2 → Nat) a + S1x16.size a ≤ S8x400.size a
  inb_S8x400_S1x16_7_280 : ∀ a, (![7, 280] : Fin 2 → Nat) a + S1x16.size a ≤ S8x400.size a
  inb_S1600_S16_1480 : ∀ a, (![1480] : Fin 1 → Nat) a + S16.size a ≤ S1600.size a
  inb_S8x400_S1x16_7_96 : ∀ a, (![7, 96] : Fin 2 → Nat) a + S1x16.size a ≤ S8x400.size a
  inb_S8x400_S1x16_7_296 : ∀ a, (![7, 296] : Fin 2 → Nat) a + S1x16.size a ≤ S8x400.size a
  inb_S1600_S16_1496 : ∀ a, (![1496] : Fin 1 → Nat) a + S16.size a ≤ S1600.size a
  inb_S8x400_S1x16_7_112 : ∀ a, (![7, 112] : Fin 2 → Nat) a + S1x16.size a ≤ S8x400.size a
  inb_S8x400_S1x16_7_312 : ∀ a, (![7, 312] : Fin 2 → Nat) a + S1x16.size a ≤ S8x400.size a
  inb_S1600_S16_1512 : ∀ a, (![1512] : Fin 1 → Nat) a + S16.size a ≤ S1600.size a
  inb_S8x400_S1x16_7_128 : ∀ a, (![7, 128] : Fin 2 → Nat) a + S1x16.size a ≤ S8x400.size a
  inb_S8x400_S1x16_7_328 : ∀ a, (![7, 328] : Fin 2 → Nat) a + S1x16.size a ≤ S8x400.size a
  inb_S1600_S16_1528 : ∀ a, (![1528] : Fin 1 → Nat) a + S16.size a ≤ S1600.size a
  inb_S8x400_S1x16_7_144 : ∀ a, (![7, 144] : Fin 2 → Nat) a + S1x16.size a ≤ S8x400.size a
  inb_S8x400_S1x16_7_344 : ∀ a, (![7, 344] : Fin 2 → Nat) a + S1x16.size a ≤ S8x400.size a
  inb_S1600_S16_1544 : ∀ a, (![1544] : Fin 1 → Nat) a + S16.size a ≤ S1600.size a
  inb_S8x400_S1x16_7_160 : ∀ a, (![7, 160] : Fin 2 → Nat) a + S1x16.size a ≤ S8x400.size a
  inb_S8x400_S1x16_7_360 : ∀ a, (![7, 360] : Fin 2 → Nat) a + S1x16.size a ≤ S8x400.size a
  inb_S1600_S16_1560 : ∀ a, (![1560] : Fin 1 → Nat) a + S16.size a ≤ S1600.size a
  inb_S8x400_S1x16_7_168 : ∀ a, (![7, 168] : Fin 2 → Nat) a + S1x16.size a ≤ S8x400.size a
  inb_S8x400_S1x16_7_368 : ∀ a, (![7, 368] : Fin 2 → Nat) a + S1x16.size a ≤ S8x400.size a
  inb_S1600_S16_1568 : ∀ a, (![1568] : Fin 1 → Nat) a + S16.size a ≤ S1600.size a
  inb_S8x400_S1x16_7_184 : ∀ a, (![7, 184] : Fin 2 → Nat) a + S1x16.size a ≤ S8x400.size a
  inb_S8x400_S1x16_7_384 : ∀ a, (![7, 384] : Fin 2 → Nat) a + S1x16.size a ≤ S8x400.size a
  inb_S1600_S16_1584 : ∀ a, (![1584] : Fin 1 → Nat) a + S16.size a ≤ S1600.size a
  inb_S4096x200x64_S2x200x64_0_0_0 : ∀ a, (![0, 0, 0] : Fin 3 → Nat) a + S2x200x64.size a ≤ S4096x200x64.size a
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  shapeCasts_S16_S1x1x16 : S16.ShapeCasts S1x1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc0_scratch3 : 0 + S_.numel ≤ 5
  hcc0_scratch4 : 1 + S_.numel ≤ 5
  hcc0_scratch8 : 2 + S_.numel ≤ 5
  hcc0_scratch9 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (8 * r.val))) a + S8x400.size a ≤ S4096x400.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S8x400.size a ≤ S4096x400.size a
  k0_t2_ok : k0_t2_loop.OK
  k0_off3_inb : ∀ k0_t2 : Fin k0_t2_loop.trips, ∀ a, (k0_off3 k0_t2) a + S16.size a ≤ S1600.size a
  k0_off4_inb : ∀ k0_t2 : Fin k0_t2_loop.trips, ∀ (r : Fin 16), ∀ a, (k0_off4 k0_t2 (BitVec.ofNat 32 r.val)) a + S1x1x16.size a ≤ S2x200x64.size a
  k0_off5_inb : ∀ k0_t2 : Fin k0_t2_loop.trips, ∀ (r : Fin 16), ∀ a, (k0_off5 k0_t2 (BitVec.ofNat 32 r.val)) a + S1x1x16.size a ≤ S2x200x64.size a
  k0_off6_inb : ∀ k0_t2 : Fin k0_t2_loop.trips, ∀ (r : Fin 16), ∀ a, (k0_off6 k0_t2 (BitVec.ofNat 32 r.val)) a + S1x1x16.size a ≤ S2x200x64.size a
  k0_off7_inb : ∀ k0_t2 : Fin k0_t2_loop.trips, ∀ (r : Fin 16), ∀ a, (k0_off7 k0_t2 (BitVec.ofNat 32 r.val)) a + S1x1x16.size a ≤ S2x200x64.size a
  k0_t3_ok : k0_t3_loop.OK
  k0_off8_inb : ∀ k0_t3 : Fin k0_t3_loop.trips, ∀ a, (k0_off8 k0_t3) a + S16.size a ≤ S1600.size a
  k0_off9_inb : ∀ k0_t3 : Fin k0_t3_loop.trips, ∀ (r : Fin 16), ∀ a, (k0_off9 k0_t3 (BitVec.ofNat 32 r.val)) a + S1x1x16.size a ≤ S2x200x64.size a
  k0_off10_inb : ∀ k0_t3 : Fin k0_t3_loop.trips, ∀ (r : Fin 16), ∀ a, (k0_off10 k0_t3 (BitVec.ofNat 32 r.val)) a + S1x1x16.size a ≤ S2x200x64.size a
  k0_off11_inb : ∀ k0_t3 : Fin k0_t3_loop.trips, ∀ (r : Fin 16), ∀ a, (k0_off11 k0_t3 (BitVec.ofNat 32 r.val)) a + S1x1x16.size a ≤ S2x200x64.size a
  k0_off12_inb : ∀ k0_t3 : Fin k0_t3_loop.trips, ∀ (r : Fin 16), ∀ a, (k0_off12 k0_t3 (BitVec.ofNat 32 r.val)) a + S1x1x16.size a ≤ S2x200x64.size a
  k0_off13_inb : ∀ (i : grid0.Coords) (k0_t1 : Fin k0_t1_loop.trips), ∀ (r₁ : Fin 2) (r₂ : Fin 4), ∀ a, (k0_off13 i k0_t1 (BitVec.ofNat 32 r₁.val) (BitVec.ofNat 32 (2 * r₂.val))) a + S2x200x64.size a ≤ S4096x200x64.size a
  k0_t4_ok : k0_t4_loop.OK
  k0_off14_inb : ∀ k0_t4 : Fin k0_t4_loop.trips, ∀ a, (k0_off14 k0_t4) a + S16.size a ≤ S1600.size a
  k0_off15_inb : ∀ k0_t4 : Fin k0_t4_loop.trips, ∀ (r : Fin 16), ∀ a, (k0_off15 k0_t4 (BitVec.ofNat 32 r.val)) a + S1x1x16.size a ≤ S2x200x64.size a
  k0_off16_inb : ∀ k0_t4 : Fin k0_t4_loop.trips, ∀ (r : Fin 16), ∀ a, (k0_off16 k0_t4 (BitVec.ofNat 32 r.val)) a + S1x1x16.size a ≤ S2x200x64.size a
  k0_off17_inb : ∀ k0_t4 : Fin k0_t4_loop.trips, ∀ (r : Fin 16), ∀ a, (k0_off17 k0_t4 (BitVec.ofNat 32 r.val)) a + S1x1x16.size a ≤ S2x200x64.size a
  k0_off18_inb : ∀ k0_t4 : Fin k0_t4_loop.trips, ∀ (r : Fin 16), ∀ a, (k0_off18 k0_t4 (BitVec.ofNat 32 r.val)) a + S1x1x16.size a ≤ S2x200x64.size a
  k0_t5_ok : k0_t5_loop.OK
  k0_off19_inb : ∀ k0_t5 : Fin k0_t5_loop.trips, ∀ a, (k0_off19 k0_t5) a + S16.size a ≤ S1600.size a
  k0_off20_inb : ∀ k0_t5 : Fin k0_t5_loop.trips, ∀ (r : Fin 16), ∀ a, (k0_off20 k0_t5 (BitVec.ofNat 32 r.val)) a + S1x1x16.size a ≤ S2x200x64.size a
  k0_off21_inb : ∀ k0_t5 : Fin k0_t5_loop.trips, ∀ (r : Fin 16), ∀ a, (k0_off21 k0_t5 (BitVec.ofNat 32 r.val)) a + S1x1x16.size a ≤ S2x200x64.size a
  k0_off22_inb : ∀ k0_t5 : Fin k0_t5_loop.trips, ∀ (r : Fin 16), ∀ a, (k0_off22 k0_t5 (BitVec.ofNat 32 r.val)) a + S1x1x16.size a ≤ S2x200x64.size a
  k0_off23_inb : ∀ k0_t5 : Fin k0_t5_loop.trips, ∀ (r : Fin 16), ∀ a, (k0_off23 k0_t5 (BitVec.ofNat 32 r.val)) a + S1x1x16.size a ≤ S2x200x64.size a
  k0_t6_ok : k0_t6_loop.OK
  k0_off24_inb : ∀ k0_t6 : Fin k0_t6_loop.trips, ∀ a, (k0_off24 k0_t6) a + S16.size a ≤ S1600.size a
  k0_off25_inb : ∀ k0_t6 : Fin k0_t6_loop.trips, ∀ (r : Fin 16), ∀ a, (k0_off25 k0_t6 (BitVec.ofNat 32 r.val)) a + S1x1x16.size a ≤ S2x200x64.size a
  k0_off26_inb : ∀ k0_t6 : Fin k0_t6_loop.trips, ∀ (r : Fin 16), ∀ a, (k0_off26 k0_t6 (BitVec.ofNat 32 r.val)) a + S1x1x16.size a ≤ S2x200x64.size a
  k0_off27_inb : ∀ k0_t6 : Fin k0_t6_loop.trips, ∀ (r : Fin 16), ∀ a, (k0_off27 k0_t6 (BitVec.ofNat 32 r.val)) a + S1x1x16.size a ≤ S2x200x64.size a
  k0_off28_inb : ∀ k0_t6 : Fin k0_t6_loop.trips, ∀ (r : Fin 16), ∀ a, (k0_off28 k0_t6 (BitVec.ofNat 32 r.val)) a + S1x1x16.size a ≤ S2x200x64.size a
  k0_t7_ok : k0_t7_loop.OK
  k0_off29_inb : ∀ k0_t7 : Fin k0_t7_loop.trips, ∀ a, (k0_off29 k0_t7) a + S16.size a ≤ S1600.size a
  k0_off30_inb : ∀ k0_t7 : Fin k0_t7_loop.trips, ∀ (r : Fin 16), ∀ a, (k0_off30 k0_t7 (BitVec.ofNat 32 r.val)) a + S1x1x16.size a ≤ S2x200x64.size a
  k0_off31_inb : ∀ k0_t7 : Fin k0_t7_loop.trips, ∀ (r : Fin 16), ∀ a, (k0_off31 k0_t7 (BitVec.ofNat 32 r.val)) a + S1x1x16.size a ≤ S2x200x64.size a
  k0_off32_inb : ∀ k0_t7 : Fin k0_t7_loop.trips, ∀ (r : Fin 16), ∀ a, (k0_off32 k0_t7 (BitVec.ofNat 32 r.val)) a + S1x1x16.size a ≤ S2x200x64.size a
  k0_off33_inb : ∀ k0_t7 : Fin k0_t7_loop.trips, ∀ (r : Fin 16), ∀ a, (k0_off33 k0_t7 (BitVec.ofNat 32 r.val)) a + S1x1x16.size a ≤ S2x200x64.size a
  k0_t8_ok : k0_t8_loop.OK
  k0_off34_inb : ∀ k0_t8 : Fin k0_t8_loop.trips, ∀ a, (k0_off34 k0_t8) a + S16.size a ≤ S1600.size a
  k0_off35_inb : ∀ k0_t8 : Fin k0_t8_loop.trips, ∀ (r : Fin 16), ∀ a, (k0_off35 k0_t8 (BitVec.ofNat 32 r.val)) a + S1x1x16.size a ≤ S2x200x64.size a
  k0_off36_inb : ∀ k0_t8 : Fin k0_t8_loop.trips, ∀ (r : Fin 16), ∀ a, (k0_off36 k0_t8 (BitVec.ofNat 32 r.val)) a + S1x1x16.size a ≤ S2x200x64.size a
  k0_off37_inb : ∀ k0_t8 : Fin k0_t8_loop.trips, ∀ (r : Fin 16), ∀ a, (k0_off37 k0_t8 (BitVec.ofNat 32 r.val)) a + S1x1x16.size a ≤ S2x200x64.size a
  k0_off38_inb : ∀ k0_t8 : Fin k0_t8_loop.trips, ∀ (r : Fin 16), ∀ a, (k0_off38 k0_t8 (BitVec.ofNat 32 r.val)) a + S1x1x16.size a ≤ S2x200x64.size a
  k0_t9_ok : k0_t9_loop.OK
  k0_off39_inb : ∀ k0_t9 : Fin k0_t9_loop.trips, ∀ a, (k0_off39 k0_t9) a + S16.size a ≤ S1600.size a
  k0_off40_inb : ∀ k0_t9 : Fin k0_t9_loop.trips, ∀ (r : Fin 16), ∀ a, (k0_off40 k0_t9 (BitVec.ofNat 32 r.val)) a + S1x1x16.size a ≤ S2x200x64.size a
  k0_off41_inb : ∀ k0_t9 : Fin k0_t9_loop.trips, ∀ (r : Fin 16), ∀ a, (k0_off41 k0_t9 (BitVec.ofNat 32 r.val)) a + S1x1x16.size a ≤ S2x200x64.size a
  k0_off42_inb : ∀ k0_t9 : Fin k0_t9_loop.trips, ∀ (r : Fin 16), ∀ a, (k0_off42 k0_t9 (BitVec.ofNat 32 r.val)) a + S1x1x16.size a ≤ S2x200x64.size a
  k0_off43_inb : ∀ k0_t9 : Fin k0_t9_loop.trips, ∀ (r : Fin 16), ∀ a, (k0_off43 k0_t9 (BitVec.ofNat 32 r.val)) a + S1x1x16.size a ≤ S2x200x64.size a
  k0_off44_inb : ∀ (i : grid0.Coords) (k0_t1 : Fin k0_t1_loop.trips), ∀ (k0_h4 : k0_cond4 k0_t1 = 1#1), ∀ a, (k0_off44 i k0_t1) a + S8x400.size a ≤ S4096x400.size a
  k0_t10_ok : k0_t10_loop.OK
  k0_off45_inb : ∀ k0_t10 : Fin k0_t10_loop.trips, ∀ a, (k0_off45 k0_t10) a + S16.size a ≤ S1600.size a
  k0_off46_inb : ∀ k0_t10 : Fin k0_t10_loop.trips, ∀ (r : Fin 16), ∀ a, (k0_off46 k0_t10 (BitVec.ofNat 32 r.val)) a + S1x1x16.size a ≤ S2x200x64.size a
  k0_off47_inb : ∀ k0_t10 : Fin k0_t10_loop.trips, ∀ (r : Fin 16), ∀ a, (k0_off47 k0_t10 (BitVec.ofNat 32 r.val)) a + S1x1x16.size a ≤ S2x200x64.size a
  k0_off48_inb : ∀ k0_t10 : Fin k0_t10_loop.trips, ∀ (r : Fin 16), ∀ a, (k0_off48 k0_t10 (BitVec.ofNat 32 r.val)) a + S1x1x16.size a ≤ S2x200x64.size a
  k0_off49_inb : ∀ k0_t10 : Fin k0_t10_loop.trips, ∀ (r : Fin 16), ∀ a, (k0_off49 k0_t10 (BitVec.ofNat 32 r.val)) a + S1x1x16.size a ≤ S2x200x64.size a
  k0_t11_ok : k0_t11_loop.OK
  k0_off50_inb : ∀ k0_t11 : Fin k0_t11_loop.trips, ∀ a, (k0_off50 k0_t11) a + S16.size a ≤ S1600.size a
  k0_off51_inb : ∀ k0_t11 : Fin k0_t11_loop.trips, ∀ (r : Fin 16), ∀ a, (k0_off51 k0_t11 (BitVec.ofNat 32 r.val)) a + S1x1x16.size a ≤ S2x200x64.size a
  k0_off52_inb : ∀ k0_t11 : Fin k0_t11_loop.trips, ∀ (r : Fin 16), ∀ a, (k0_off52 k0_t11 (BitVec.ofNat 32 r.val)) a + S1x1x16.size a ≤ S2x200x64.size a
  k0_off53_inb : ∀ k0_t11 : Fin k0_t11_loop.trips, ∀ (r : Fin 16), ∀ a, (k0_off53 k0_t11 (BitVec.ofNat 32 r.val)) a + S1x1x16.size a ≤ S2x200x64.size a
  k0_off54_inb : ∀ k0_t11 : Fin k0_t11_loop.trips, ∀ (r : Fin 16), ∀ a, (k0_off54 k0_t11 (BitVec.ofNat 32 r.val)) a + S1x1x16.size a ≤ S2x200x64.size a
  k0_t12_ok : k0_t12_loop.OK
  k0_off55_inb : ∀ k0_t12 : Fin k0_t12_loop.trips, ∀ a, (k0_off55 k0_t12) a + S16.size a ≤ S1600.size a
  k0_off56_inb : ∀ k0_t12 : Fin k0_t12_loop.trips, ∀ (r : Fin 16), ∀ a, (k0_off56 k0_t12 (BitVec.ofNat 32 r.val)) a + S1x1x16.size a ≤ S2x200x64.size a
  k0_off57_inb : ∀ k0_t12 : Fin k0_t12_loop.trips, ∀ (r : Fin 16), ∀ a, (k0_off57 k0_t12 (BitVec.ofNat 32 r.val)) a + S1x1x16.size a ≤ S2x200x64.size a
  k0_off58_inb : ∀ k0_t12 : Fin k0_t12_loop.trips, ∀ (r : Fin 16), ∀ a, (k0_off58 k0_t12 (BitVec.ofNat 32 r.val)) a + S1x1x16.size a ≤ S2x200x64.size a
  k0_off59_inb : ∀ k0_t12 : Fin k0_t12_loop.trips, ∀ (r : Fin 16), ∀ a, (k0_off59 k0_t12 (BitVec.ofNat 32 r.val)) a + S1x1x16.size a ≤ S2x200x64.size a
  k0_t13_ok : k0_t13_loop.OK
  k0_off60_inb : ∀ k0_t13 : Fin k0_t13_loop.trips, ∀ a, (k0_off60 k0_t13) a + S16.size a ≤ S1600.size a
  k0_off61_inb : ∀ k0_t13 : Fin k0_t13_loop.trips, ∀ (r : Fin 16), ∀ a, (k0_off61 k0_t13 (BitVec.ofNat 32 r.val)) a + S1x1x16.size a ≤ S2x200x64.size a
  k0_off62_inb : ∀ k0_t13 : Fin k0_t13_loop.trips, ∀ (r : Fin 16), ∀ a, (k0_off62 k0_t13 (BitVec.ofNat 32 r.val)) a + S1x1x16.size a ≤ S2x200x64.size a
  k0_off63_inb : ∀ k0_t13 : Fin k0_t13_loop.trips, ∀ (r : Fin 16), ∀ a, (k0_off63 k0_t13 (BitVec.ofNat 32 r.val)) a + S1x1x16.size a ≤ S2x200x64.size a
  k0_off64_inb : ∀ k0_t13 : Fin k0_t13_loop.trips, ∀ (r : Fin 16), ∀ a, (k0_off64 k0_t13 (BitVec.ofNat 32 r.val)) a + S1x1x16.size a ≤ S2x200x64.size a
  k0_t14_ok : k0_t14_loop.OK
  k0_off65_inb : ∀ k0_t14 : Fin k0_t14_loop.trips, ∀ a, (k0_off65 k0_t14) a + S16.size a ≤ S1600.size a
  k0_off66_inb : ∀ k0_t14 : Fin k0_t14_loop.trips, ∀ (r : Fin 16), ∀ a, (k0_off66 k0_t14 (BitVec.ofNat 32 r.val)) a + S1x1x16.size a ≤ S2x200x64.size a
  k0_off67_inb : ∀ k0_t14 : Fin k0_t14_loop.trips, ∀ (r : Fin 16), ∀ a, (k0_off67 k0_t14 (BitVec.ofNat 32 r.val)) a + S1x1x16.size a ≤ S2x200x64.size a
  k0_off68_inb : ∀ k0_t14 : Fin k0_t14_loop.trips, ∀ (r : Fin 16), ∀ a, (k0_off68 k0_t14 (BitVec.ofNat 32 r.val)) a + S1x1x16.size a ≤ S2x200x64.size a
  k0_off69_inb : ∀ k0_t14 : Fin k0_t14_loop.trips, ∀ (r : Fin 16), ∀ a, (k0_off69 k0_t14 (BitVec.ofNat 32 r.val)) a + S1x1x16.size a ≤ S2x200x64.size a
  k0_t15_ok : k0_t15_loop.OK
  k0_off70_inb : ∀ k0_t15 : Fin k0_t15_loop.trips, ∀ a, (k0_off70 k0_t15) a + S16.size a ≤ S1600.size a
  k0_off71_inb : ∀ k0_t15 : Fin k0_t15_loop.trips, ∀ (r : Fin 16), ∀ a, (k0_off71 k0_t15 (BitVec.ofNat 32 r.val)) a + S1x1x16.size a ≤ S2x200x64.size a
  k0_off72_inb : ∀ k0_t15 : Fin k0_t15_loop.trips, ∀ (r : Fin 16), ∀ a, (k0_off72 k0_t15 (BitVec.ofNat 32 r.val)) a + S1x1x16.size a ≤ S2x200x64.size a
  k0_off73_inb : ∀ k0_t15 : Fin k0_t15_loop.trips, ∀ (r : Fin 16), ∀ a, (k0_off73 k0_t15 (BitVec.ofNat 32 r.val)) a + S1x1x16.size a ≤ S2x200x64.size a
  k0_off74_inb : ∀ k0_t15 : Fin k0_t15_loop.trips, ∀ (r : Fin 16), ∀ a, (k0_off74 k0_t15 (BitVec.ofNat 32 r.val)) a + S1x1x16.size a ≤ S2x200x64.size a
  k0_t16_ok : k0_t16_loop.OK
  k0_off75_inb : ∀ k0_t16 : Fin k0_t16_loop.trips, ∀ a, (k0_off75 k0_t16) a + S16.size a ≤ S1600.size a
  k0_off76_inb : ∀ k0_t16 : Fin k0_t16_loop.trips, ∀ (r : Fin 16), ∀ a, (k0_off76 k0_t16 (BitVec.ofNat 32 r.val)) a + S1x1x16.size a ≤ S2x200x64.size a
  k0_off77_inb : ∀ k0_t16 : Fin k0_t16_loop.trips, ∀ (r : Fin 16), ∀ a, (k0_off77 k0_t16 (BitVec.ofNat 32 r.val)) a + S1x1x16.size a ≤ S2x200x64.size a
  k0_off78_inb : ∀ k0_t16 : Fin k0_t16_loop.trips, ∀ (r : Fin 16), ∀ a, (k0_off78 k0_t16 (BitVec.ofNat 32 r.val)) a + S1x1x16.size a ≤ S2x200x64.size a
  k0_off79_inb : ∀ k0_t16 : Fin k0_t16_loop.trips, ∀ (r : Fin 16), ∀ a, (k0_off79 k0_t16 (BitVec.ofNat 32 r.val)) a + S1x1x16.size a ≤ S2x200x64.size a
  k0_t17_ok : k0_t17_loop.OK
  k0_off80_inb : ∀ k0_t17 : Fin k0_t17_loop.trips, ∀ a, (k0_off80 k0_t17) a + S16.size a ≤ S1600.size a
  k0_off81_inb : ∀ k0_t17 : Fin k0_t17_loop.trips, ∀ (r : Fin 16), ∀ a, (k0_off81 k0_t17 (BitVec.ofNat 32 r.val)) a + S1x1x16.size a ≤ S2x200x64.size a
  k0_off82_inb : ∀ k0_t17 : Fin k0_t17_loop.trips, ∀ (r : Fin 16), ∀ a, (k0_off82 k0_t17 (BitVec.ofNat 32 r.val)) a + S1x1x16.size a ≤ S2x200x64.size a
  k0_off83_inb : ∀ k0_t17 : Fin k0_t17_loop.trips, ∀ (r : Fin 16), ∀ a, (k0_off83 k0_t17 (BitVec.ofNat 32 r.val)) a + S1x1x16.size a ≤ S2x200x64.size a
  k0_off84_inb : ∀ k0_t17 : Fin k0_t17_loop.trips, ∀ (r : Fin 16), ∀ a, (k0_off84 k0_t17 (BitVec.ofNat 32 r.val)) a + S1x1x16.size a ≤ S2x200x64.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0

class Facts : Prop extends Facts₀ where

variable [Facts]
-- ==== ReferenceIdeal.lean ====
abbrev S4096x400 : Shape := ⟨2, ![4096, 400]⟩
abbrev S4x64 : Shape := ⟨2, ![4, 64]⟩
abbrev S4096x200 : Shape := ⟨2, ![4096, 200]⟩
abbrev S4096x200x1 : Shape := ⟨3, ![4096, 200, 1]⟩
abbrev S4096x200x2 : Shape := ⟨3, ![4096, 200, 2]⟩
abbrev S2 : Shape := ⟨1, ![2]⟩
abbrev S_ : Shape := ⟨0, ![]⟩
abbrev S1x1x2 : Shape := ⟨3, ![1, 1, 2]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 130
  | .vmem => 0
  | .smem => 0
  | _ => 0

abbrev hbmTy0_0 (i : Nat) : BufTy := match i % 128 with
  | 0 => ⟨S4096x400, .i32⟩
  | 1 => ⟨S4x64, .f32⟩
  | 2 => ⟨S4096x200, .i32⟩
  | 3 => ⟨S4096x200, .i32⟩
  | 4 => ⟨S4096x200x1, .i32⟩
  | 5 => ⟨S4096x200x1, .i32⟩
  | 6 => ⟨S4096x200x2, .i32⟩
  | 7 => ⟨S2, .i32⟩
  | 8 => ⟨S_, .i32⟩
  | 9 => ⟨S_, .i32⟩
  | 10 => ⟨S_, .i1⟩
  | 11 => ⟨S_, .i32⟩
  | 12 => ⟨S2, .i32⟩
  | 13 => ⟨S2, .i1⟩
  | 14 => ⟨S2, .i1⟩
  | 15 => ⟨S2, .i1⟩
  | 16 => ⟨S_, .i32⟩
  | 17 => ⟨S_, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i1⟩
  | 30 => ⟨S2, .i32⟩
  | 31 => ⟨S_, .i32⟩
  | 32 => ⟨S_, .i32⟩
  | 33 => ⟨S_, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i1⟩
  | 45 => ⟨S2, .i32⟩
  | 46 => ⟨S_, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i1⟩
  | 58 => ⟨S2, .i32⟩
  | 59 => ⟨S_, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i1⟩
  | 71 => ⟨S2, .i32⟩
  | 72 => ⟨S_, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i1⟩
  | 84 => ⟨S2, .i32⟩
  | 85 => ⟨S_, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i1⟩
  | 97 => ⟨S2, .i32⟩
  | 98 => ⟨S_, .i32⟩
  | 99 => ⟨S_, .i32⟩
  | 100 => ⟨S2, .i32⟩
  | 101 => ⟨S2, .i32⟩
  | 102 => ⟨S1x1x2, .i32⟩
  | 103 => ⟨S4096x200x2, .i32⟩
  | 104 => ⟨S4096x200x2, .i32⟩
  | 105 => ⟨S_, .i32⟩
  | 106 => ⟨S4096x200, .i32⟩
  | 107 => ⟨S_, .i32⟩
  | 108 => ⟨S4096x200, .i32⟩
  | 109 => ⟨S4096x200, .i1⟩
  | 110 => ⟨S_, .i32⟩
  | 111 => ⟨S4096x200, .i32⟩
  | 112 => ⟨S4096x200, .i32⟩
  | 113 => ⟨S4096x200, .i32⟩
  | 114 => ⟨S4096x200x1, .i32⟩
  | 115 => ⟨S1, .i32⟩
  | 116 => ⟨S_, .i32⟩
  | 117 => ⟨S4096x200x1, .i32⟩
  | 118 => ⟨S4096x200x1, .i1⟩
  | 119 => ⟨S1x1x1, .i32⟩
  | 120 => ⟨S4096x200x1, .i32⟩
  | 121 => ⟨S4096x200x1, .i1⟩
  | 122 => ⟨S4096x200x1, .i1⟩
  | 123 => ⟨S_, .i1⟩
  | 124 => ⟨S4096x200, .i1⟩
  | 125 => ⟨S4096x200x64, .f32⟩
  | 126 => ⟨S4096x200x64, .i1⟩
  | 127 => ⟨S_, .f32⟩
  | _ => ⟨S4096x400, .i32⟩

abbrev hbmTy0_1 (i : Nat) : BufTy := match i % 128 with
  | 0 => ⟨S4096x200x64, .f32⟩
  | 1 => ⟨S4096x200x64, .f32⟩
  | _ => ⟨S4096x400, .i32⟩

abbrev hbmTy (i : Nat) : BufTy := match i / 128 with
  | 0 => hbmTy0_0 i
  | 1 => hbmTy0_1 i
  | _ => ⟨S4096x400, .i32⟩

abbrev bufTy : (tb : Table) → Fin (tcTables nBuf tb) → BufTy
  | .hbm, ⟨i, _⟩ => hbmTy i
  | _, _ => ⟨S4096x400, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_c_3 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_c_6 : Ref sig .tc := ⟨.hbm, 31, rfl⟩
abbrev main_c_7 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_v24 : Ref sig .tc := ⟨.hbm, 45, rfl⟩
abbrev main_v25 : Ref sig .tc := ⟨.hbm, 46, rfl⟩
abbrev main_c_10 : Ref sig .tc := ⟨.hbm, 47, rfl⟩
abbrev main_v26 : Ref sig .tc := ⟨.hbm, 48, rfl⟩
abbrev main_v27 : Ref sig .tc := ⟨.hbm, 49, rfl⟩
abbrev main_c_11 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_v40 : Ref sig .tc := ⟨.hbm, 71, rfl⟩
abbrev main_v41 : Ref sig .tc := ⟨.hbm, 72, rfl⟩
abbrev main_c_14 : Ref sig .tc := ⟨.hbm, 73, rfl⟩
abbrev main_v42 : Ref sig .tc := ⟨.hbm, 74, rfl⟩
abbrev main_v43 : Ref sig .tc := ⟨.hbm, 75, rfl⟩
abbrev main_c_15 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_v48 : Ref sig .tc := ⟨.hbm, 84, rfl⟩
abbrev main_v49 : Ref sig .tc := ⟨.hbm, 85, rfl⟩
abbrev main_c_16 : Ref sig .tc := ⟨.hbm, 86, rfl⟩
abbrev main_v50 : Ref sig .tc := ⟨.hbm, 87, rfl⟩
abbrev main_v51 : Ref sig .tc := ⟨.hbm, 88, rfl⟩
abbrev main_c_17 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_v56 : Ref sig .tc := ⟨.hbm, 97, rfl⟩
abbrev main_v57 : Ref sig .tc := ⟨.hbm, 98, rfl⟩
abbrev main_c_18 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_19 : Ref sig .tc := ⟨.hbm, 105, rfl⟩
abbrev main_v63 : Ref sig .tc := ⟨.hbm, 106, rfl⟩
abbrev main_call7_c : Ref sig .tc := ⟨.hbm, 107, rfl⟩
abbrev main_call7_v0 : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_v5 : Ref sig .tc := ⟨.hbm, 114, rfl⟩
abbrev main_call7_c_1 : Ref sig .tc := ⟨.hbm, 115, rfl⟩
abbrev main_call7_c_2 : Ref sig .tc := ⟨.hbm, 116, rfl⟩
abbrev main_call7_v6 : Ref sig .tc := ⟨.hbm, 117, rfl⟩
abbrev main_call7_v7 : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_3 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_call7_cst : Ref sig .tc := ⟨.hbm, 127, rfl⟩
abbrev main_call7_v15 : Ref sig .tc := ⟨.hbm, 128, rfl⟩
abbrev main_v64 : Ref sig .tc := ⟨.hbm, 129, rfl⟩

abbrev nD : Nat := 1
abbrev τ : Topo := Topo.v7x

variable {F : FTy → Type} [FloatOps F]

class Facts₀ : Prop where
  slices_S4096x400_S4096x200_0_0 : S4096x400.Slices ![0, 0] S4096x200
  slices_S4096x400_S4096x200_0_200 : S4096x400.Slices ![0, 200] S4096x200
  bcast_S4096x200_S4096x200x1_0_1 : S4096x200.BroadcastsInDim S4096x200x1 (![0, 1] : Fin 2 → Fin S4096x200x1.rank)
  concatenates_S4096x200x1_S4096x200x1_S4096x200x2_d2 : Shape.Concatenates [S4096x200x1, S4096x200x1] S4096x200x2 2
  bcast_S_S2 : S_.BroadcastsInDim S2 (![] : Fin 0 → Fin S2.rank)
  bcast_S2_S1x1x2_2 : S2.BroadcastsInDim S1x1x2 (![2] : Fin 1 → Fin S1x1x2.rank)
  bcast_S1x1x2_S4096x200x2_0_1_2 : S1x1x2.BroadcastsInDim S4096x200x2 (![0, 1, 2] : Fin 3 → Fin S4096x200x2.rank)
  reducesTo_S4096x200x2_S4096x200_d2 : S4096x200x2.ReducesTo [2] S4096x200
  h_S_ : 0 < S_.numel
  bcast_S_S4096x200 : S_.BroadcastsInDim S4096x200 (![] : Fin 0 → Fin S4096x200.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S4x64_S4096x200x1_S4096x200x64_2_0_n_n_0_2_164_wf : GatherDims.WF S4x64 S4096x200x1 S4096x200x64 [2] [0] [] [0] [] 2 ![1, 64]

variable [Facts₀]

def gather_S4x64_S4096x200x1_S4096x200x64_2_0_n_n_0_2_164 : GatherDims S4x64 S4096x200x1 S4096x200x64 where
  offsetDims := [2]
  collapsedSliceDims := [0]
  operandBatchingDims := []
  startIndicesBatchingDims := []
  startIndexMap := [0]
  indexVectorDim := 2
  sliceSizes := ![1, 64]
  wf := gather_S4x64_S4096x200x1_S4096x200x64_2_0_n_n_0_2_164_wf

class Facts : Prop extends Facts₀ where

variable [Facts]
-- ==== Proof.KIProto.lean ====
/-
  The kernel as its launch sees it, and what one vector subcore's task is handed and hands back.

  Thirty-two tasks run at once, task (core c, subcore s) numbered  w = 2·s + c.  Task w reads rows 128·w … 128·w + 127
  of the occupation bits and writes the same rows of the result; every task reads the whole flattened table (256
  entries, row r of the 4 × 64 table at 64·r … 64·r + 63).  So a task is handed one read share of the bits and one of the table (both whole arrays, only read), and its
  128-row block of the result; it hands them back, the result's block at the function
  `kout` below.  The copies a task makes are its own (each semaphore carries one copy at a time), so the ghost state
  is the handshakes' beside the transfer counters, and the tasks owe nothing of their own.

  The result function is stated for any float instance, entry by entry: with  t_r = table(r, k),  w = up + down + down,
  uf = float(w and 1),  df = float((w shift-right 1) and 1):
      ((t0 + uf·(t1 − t0)) + df·(t2 − t0)) + (uf·df)·(((t3 − t2) − t1) + t0).
-/
import proofs.«206263_g65532611002545_cont_9to1c4b_62_29_alg».proof.KernelIdeal
import proofs.«206263_g65532611002545_cont_9to1c4b_62_29_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The occupation bits, the table as given, the table flattened (what the kernel reads), the result: as locations of
    device `d`. -/
abbrev nLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-! ## The result, entry by entry, at any float instance -/

section Result

variable [FloatOps F]

/-- One entry from the four table entries of its column and the site's token word. -/
def lane (t0 t1 t2 t3 : F .f32) (w : BitVec 32) : F .f32 :=
  let uf : F .f32 := Scalar.sitofp .f32 (Scalar.andi w 1#32)
  let df : F .f32 := Scalar.sitofp .f32 (Scalar.andi (Scalar.shrsi w 1#32) 1#32)
  FloatOps.addf (FloatOps.addf (FloatOps.addf t0 (FloatOps.mulf uf (FloatOps.subf t1 t0))) (FloatOps.mulf df (FloatOps.subf t2 t0)))
    (FloatOps.mulf (Scalar.mulf uf df) (FloatOps.addf (FloatOps.subf (FloatOps.subf t3 t2) t1) t0))

/-- Entry `64·r + k` of the flattened table. -/
def flatIx (r : Fin 4) (k : Fin 64) : S256.Idx := ix1 (n := 256) ⟨64 * r.val + k.val, by omega⟩

/-- The token word of site `s` of row `b`: the up word plus the down word twice. -/
def tokWord (n : IVec S4096x400 32) (b : Fin 4096) (s : Fin 200) : BitVec 32 :=
  Scalar.addi (Scalar.addi (n (ix2 (n0 := 4096) (n1 := 400) b ⟨200 + s.val, by omega⟩)) (n (ix2 (n0 := 4096) (n1 := 400) b ⟨s.val, by omega⟩)))
    (n (ix2 (n0 := 4096) (n1 := 400) b ⟨s.val, by omega⟩))

/-- What the kernel leaves in the result, as one function of the bits and the flattened table. -/
def kout (n : IVec S4096x400 32) (t : FVec F S256 .f32) : FVec F S4096x200x64 .f32 :=
  fun i => lane (t (flatIx 0 (i 2))) (t (flatIx 1 (i 2))) (t (flatIx 2 (i 2))) (t (flatIx 3 (i 2))) (tokWord n (i 0) (i 1))

/-- The flattened table, from the table as given (the host's reshape before the call). -/
def flatTab (a : FVec F S4x64 .f32) : FVec F S256 .f32 := shapeCast S256 a shapeCasts_S4x64_S256

end Result

/-! ## The thirty-two row blocks -/

theorem hdivN : 32 ∣ S4096x400.size 0 := ⟨128, rfl⟩
theorem hdivO : 32 ∣ S4096x200x64.size 0 := ⟨128, rfl⟩
/-- Rows 128·w … 128·w + 127 of the bits, of the result. -/
abbrev nRect (w : Fin 32) : Rect S4096x400 := Rect.part (s := S4096x400) (a₀ := 0) hdivN w
abbrev oRect (w : Fin 32) : Rect S4096x200x64 := Rect.part (s := S4096x200x64) (a₀ := 0) hdivO w
abbrev nBlk (w : Fin 32) : Finset S4096x400.Idx := (nRect w).set
abbrev oBlk (w : Fin 32) : Finset S4096x200x64.Idx := (oRect w).set

/-- The number of the task on core `c`, subcore `s`. -/
def wid (c : Fin 2) (s : Fin 16) : Fin 32 := ⟨2 * s.val + c.val, by omega⟩

/-! ## What the handshakes carry -/

section Pay

variable [FloatOps F]

/-- The flattened table's contents during the call. -/
abbrev tabV (d : Dev nD) : Buf (Elt F) (tLoc d) := flatTab (F := F) (m (aLoc d))
/-- The result's contents after the call. -/
abbrev outV (d : Dev nD) : Buf (Elt F) (oLoc d) := kout (F := F) (m (nLoc d)) (tabV m d)

/-- Task `w` is handed its block of the bits and of the result, and read share `w` of the flattened table; -/
def goOf (d : Dev nD) (w : Fin 32) : sProp 𝕄 :=
  iprop((nLoc d ↦[Finset.univ]{Transfers.shareTok fullShare 32 w} m (nLoc d)) ∗ (tLoc d ↦[Finset.univ]{Transfers.shareTok fullShare 32 w} tabV m d)
    ∗ (oLoc d ↦[oBlk w]{fullShare} m (oLoc d)))
/-- and hands them back, the result's block at the result function. -/
def tdOf (d : Dev nD) (w : Fin 32) : sProp 𝕄 :=
  iprop((nLoc d ↦[Finset.univ]{Transfers.shareTok fullShare 32 w} m (nLoc d)) ∗ (tLoc d ↦[Finset.univ]{Transfers.shareTok fullShare 32 w} tabV m d)
    ∗ (oLoc d ↦[oBlk w]{fullShare} outV m d))

def P : (K (F := F)).Pay (nD := nD) (Val := Elt F) (Name := ℕ) (U := UU) where
  st := fun q d c => match q with
    | 0 => bigSep Finset.univ fun s : Fin 16 => goOf m d (wid (Fin.cast nCore_zero c) s)
  dn := fun q d c => match q with
    | 0 => bigSep Finset.univ fun s : Fin 16 => tdOf m d (wid (Fin.cast nCore_zero c) s)
  go := fun q d c i => match q with
    | 0 => goOf m d (wid (Fin.cast nCore_zero c) (Fin.cast nSub_zero i))
  td := fun q d c i => match q with
    | 0 => tdOf m d (wid (Fin.cast nCore_zero c) (Fin.cast nSub_zero i))
  x := fun _ _ => iprop(emp)

end Pay

/-! ## One task's obligation -/

section Tile

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the task at grid coordinates `L`. -/
abbrev widL (L : grid0.Coords) : Fin 32 := wid (Fin.cast bound_zero (L 0)) (Fin.cast bound_one (L 1))

/-- The kernel function on the vector subcore at `L`, on the whole arrays and the subcore's own scratch, as the body
    table calls it. -/
abbrev kernelAt (L : grid0.Coords) :=
  cc0_k (F := F) L (Memref.whole main_arg0_scv) (Memref.isWhole_whole _) (Memref.whole main_v0_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _) cc0_scratch3 cc0_scratch4
    (Memref.whole cc0_scratch5) (Memref.isWhole_whole _) (Memref.whole cc0_scratch6) (Memref.isWhole_whole _)
    (Memref.whole cc0_scratch7) (Memref.isWhole_whole _) cc0_scratch8 cc0_scratch9 (Memref.whole cc0_scratch10) (Memref.isWhole_whole _) cc0_scoped0

/-- One task, from what it is handed to what it hands back: every weakly fair run of the kernel function on the subcore
    ends, faulting nowhere, with the subcore's scratch and semaphores back and the result's block at the result function.
    (What the thread owes the launch is carried through unchanged; its own waits sit at index `none`.) -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goOf m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tdOf m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KI

end
-- ==== Proof.KILaunch.lean ====
/-
  The launch of the kernel: from one task's obligation to the run of all thirty-five threads.

  The thirty-two tasks are each handed a 128-row block of the result, and one read share of the occupation bits and of
  the flattened table; the call's operands for a core are its sixteen tasks' side by side, so splitting a core's operands
  among its tasks moves nothing.  On the TensorCore the host first flattens the 4 × 64 table to 256 entries; then the
  result is cut into its thirty-two row blocks, the bits and the flattened table each into thirty-two read shares and a
  remainder, the blocks and shares regrouped by core and subcore (task w = 2·s + c) and handed to the call; what comes
  back is joined the same way, the result's blocks all at the one result function, so the whole result is at it.
-/
import proofs.«206263_g65532611002545_cont_9to1c4b_62_29_alg».proof.Proof.KIProto

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)
open Idealize.ShloMosaic.Tactic

variable [FloatOps F]

/-! ## The payloads, as equations -/

theorem P_st (d : Dev nD) (c : Fin ((K (F := F)).nCore 0)) :
    (P m).st 0 d c = bigSep Finset.univ fun s : Fin 16 => goOf m d (wid (Fin.cast nCore_zero c) s) := rfl
theorem P_dn (d : Dev nD) (c : Fin ((K (F := F)).nCore 0)) :
    (P m).dn 0 d c = bigSep Finset.univ fun s : Fin 16 => tdOf m d (wid (Fin.cast nCore_zero c) s) := rfl
theorem P_go (d : Dev nD) (c : Fin ((K (F := F)).nCore 0)) (i : Fin ((K (F := F)).nSub 0)) :
    (P m).go 0 d c i = goOf m d (wid (Fin.cast nCore_zero c) (Fin.cast nSub_zero i)) := rfl
theorem P_td (d : Dev nD) (c : Fin ((K (F := F)).nCore 0)) (i : Fin ((K (F := F)).nSub 0)) :
    (P m).td 0 d c i = tdOf m d (wid (Fin.cast nCore_zero c) (Fin.cast nSub_zero i)) := rfl
theorem P_x (q : Fin 1) (thr : Thread nD τ) : (P (F := F) m).x q thr = iprop(emp) := rfl

instance goOf_storable (d : Dev nD) (w : Fin 32) : BI.Storable (upEmb : UEmb _ 𝕄) (goOf m d w) := by
  unfold goOf; infer_instance
instance tdOf_storable (d : Dev nD) (w : Fin 32) : BI.Storable (upEmb : UEmb _ 𝕄) (tdOf m d w) := by
  unfold tdOf; infer_instance

instance P_storable : (P (F := F) m).IsStorable where
  st q d c := match q with
    | 0 => (inferInstance : BI.Storable (upEmb : UEmb _ 𝕄) (bigSep Finset.univ fun s : Fin 16 => goOf m d (wid (Fin.cast nCore_zero c) s)))
  dn q d c := match q with
    | 0 => (inferInstance : BI.Storable (upEmb : UEmb _ 𝕄) (bigSep Finset.univ fun s : Fin 16 => tdOf m d (wid (Fin.cast nCore_zero c) s)))
  go q d c i := match q with
    | 0 => (inferInstance : BI.Storable (upEmb : UEmb _ 𝕄) (goOf m d (wid (Fin.cast nCore_zero c) (Fin.cast nSub_zero i))))
  td q d c i := match q with
    | 0 => (inferInstance : BI.Storable (upEmb : UEmb _ 𝕄) (tdOf m d (wid (Fin.cast nCore_zero c) (Fin.cast nSub_zero i))))

/-! ## The launch theorem's obligations -/

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One task's obligation is the launch theorem's, at every core and subcore of the call's grid: the task there is
    number 2·s + c. -/
theorem tileObl (h : TileBody (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wid (Fin.cast nCore_zero c) (Fin.cast nSub_zero i) = widL (coordsV ⟨_, hc.1⟩ ⟨_, hc.2⟩) := Fin.ext rfl
  rw [P_go, P_td, P_x, hw]
  exact (h d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's operands are its sixteen tasks' side by side, and so are its results: nothing moves. -/
theorem vecSplit : (K (F := F)).VecSplit' (P m) 0 := by
  intro d c
  simp only [P_st, P_dn, P_go, P_td]
  rw [bigSep_tasks (F := F) (fun s => goOf m d (wid (Fin.cast nCore_zero c) s)),
    bigSep_tasks (F := F) (fun s => tdOf m d (wid (Fin.cast nCore_zero c) s))]
  iintro H; imodintro
  isplitl [H]; · iexact H
  iintro H; iexact H

/-! ## The launch element: the handshakes' rounds; the transfer counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim -/

/-- The bits and the table as given, unchanged, and the result whole at the result function. -/
abbrev FIN (d : Dev nD) : sProp 𝕄 :=
  iprop((nLoc d ↦{fullShare} m (nLoc d)) ∗ (aLoc d ↦{fullShare} m (aLoc d)) ∗ (oLoc d ↦{fullShare} outV m d))

def fq (d : Dev nD) (s' : Phys nD τ sig (Elt F)) : Prop :=
  s'.mem.mem (oLoc d) = outV m d ∧ s'.mem.mem (nLoc d) = m (nLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hn, Ha, Ho⟩, HSI⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := outV m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## Regrouping the thirty-two tasks by core and subcore -/

omit [FloatOps F] in
theorem wid_image :
    ((Finset.univ : Finset (Fin 2)) ×ˢ (Finset.univ : Finset (Fin 16))).image (fun p : Fin 2 × Fin 16 => wid p.1 p.2) = Finset.univ := by
  ext w
  simp only [Finset.mem_image, Finset.mem_product, Finset.mem_univ, and_self, true_and, iff_true]
  exact ⟨(⟨w.val % 2, Nat.mod_lt _ (by decide)⟩, ⟨w.val / 2, by have := w.isLt; omega⟩), Fin.ext (by simp only [wid]; omega)⟩

omit [FloatOps F] in
theorem wid_inj :
    Set.InjOn (fun p : Fin 2 × Fin 16 => wid p.1 p.2) (((Finset.univ : Finset (Fin 2)) ×ˢ (Finset.univ : Finset (Fin 16)) : Finset (Fin 2 × Fin 16)) : Set (Fin 2 × Fin 16)) := by
  rintro ⟨c, s⟩ - ⟨c', s'⟩ - e
  have e' : 2 * s.val + c.val = 2 * s'.val + c'.val := congrArg Fin.val e
  have h2 := c.isLt; have h2' := c'.isLt
  have hc : c = c' := Fin.ext (by omega)
  have hs : s = s' := Fin.ext (by omega)
  rw [hc, hs]

omit [FloatOps F] in
/-- Every task number is 2·s + c for exactly one core c and subcore s. -/
theorem bigSep_wid (Φ : Fin 32 → sProp 𝕄) :
    (bigSep Finset.univ fun c : Fin 2 => bigSep Finset.univ fun s : Fin 16 => Φ (wid c s)) = bigSep Finset.univ Φ := by
  rw [← SparseCore.bigSep_product Finset.univ Finset.univ (fun p : Fin 2 × Fin 16 => Φ (wid p.1 p.2)),
    ← SparseCore.bigSep_image_of_injOn wid_inj Φ, wid_image]

/-- What the call takes for the two cores is the thirty-two tasks' operands, and what it hands back their results. -/
theorem st0_eq (d : Dev nD) :
    (bigSep Finset.univ fun c : Fin ((K (F := F)).nCore 0) => (P m).st 0 d c) = bigSep Finset.univ fun w : Fin 32 => goOf m d w :=
  (bigSep_cores (F := F) (fun c => bigSep Finset.univ fun s : Fin 16 => goOf m d (wid c s))).trans (bigSep_wid (fun w => goOf m d w))
theorem dn0_eq (d : Dev nD) :
    (bigSep Finset.univ fun c : Fin ((K (F := F)).nCore 0) => (P m).dn 0 d c) = bigSep Finset.univ fun w : Fin 32 => tdOf m d w :=
  (bigSep_cores (F := F) (fun c => bigSep Finset.univ fun s : Fin 16 => tdOf m d (wid c s))).trans (bigSep_wid (fun w => tdOf m d w))

/-! ## The result whole, and in its thirty-two row blocks -/

omit [FloatOps F] in
theorem oBlk_disjoint : ∀ i ∈ (Finset.univ : Finset (Fin 32)), ∀ j ∈ (Finset.univ : Finset (Fin 32)), i ≠ j → Disjoint (oBlk i) (oBlk j) :=
  fun _ _ _ _ h => Rect.part_disjoint hdivO h
omit [FloatOps F] in
theorem oBlk_cover : (Finset.univ : Finset (Fin 32)).biUnion oBlk = Finset.univ := Rect.biUnion_part hdivO

omit [FloatOps F] in
theorem oPts_blocks (d : Dev nD) (f : Buf (Elt F) (oLoc d)) :
    (oLoc d ↦{fullShare} f : sProp 𝕄) = bigSep Finset.univ fun w : Fin 32 => oLoc d ↦[oBlk w]{fullShare} f := by
  rw [← pointsTo_biUnion Finset.univ (ℓ := oLoc d) oBlk oBlk_disjoint, oBlk_cover]; try rfl

/-- The thirty-two tasks' operands together: thirty-two read shares of the bits and of the flattened table, the result
    whole; -/
theorem goAll_eq (d : Dev nD) :
    (bigSep Finset.univ fun w : Fin 32 => goOf m d w)
      = iprop((bigSep Finset.univ fun w : Fin 32 => nLoc d ↦[Finset.univ]{Transfers.shareTok fullShare 32 w} m (nLoc d))
          ∗ (bigSep Finset.univ fun w : Fin 32 => tLoc d ↦[Finset.univ]{Transfers.shareTok fullShare 32 w} tabV m d)
          ∗ (oLoc d ↦{fullShare} m (oLoc d))) := by
  unfold goOf
  rw [bigSep_sep', bigSep_sep', ← oPts_blocks]
/-- and their results: the same, the result whole at the result function (every block is at that one function). -/
theorem tdAll_eq (d : Dev nD) :
    (bigSep Finset.univ fun w : Fin 32 => tdOf m d w)
      = iprop((bigSep Finset.univ fun w : Fin 32 => nLoc d ↦[Finset.univ]{Transfers.shareTok fullShare 32 w} m (nLoc d))
          ∗ (bigSep Finset.univ fun w : Fin 32 => tLoc d ↦[Finset.univ]{Transfers.shareTok fullShare 32 w} tabV m d)
          ∗ (oLoc d ↦{fullShare} outV m d)) := by
  unfold tdOf
  rw [bigSep_sep', bigSep_sep', ← oPts_blocks]

/-! ## @main on the TensorCore -/

abbrev n' : DevRef τ sig := Proc.devRef .tc (main_arg0 : Ref sig .tc)
abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The host's flattening of the table. -/
abbrev opR : HloOp τ sig (Elt F) := StableHlo.reshape main_arg1 main_v0 rfl shapeCasts_S4x64_S256

/-- The TensorCore's arrays, all unscoped: the bits, the table, the flattened table, the result. -/
abbrev S4 : Finset (DevRef τ sig) := {n', a', t', o'}

omit [FloatOps F] in
theorem held_S4 (d : Dev nD) (W : Valuation τ sig (Elt F)) :
    (held (T d) S4 W : sProp 𝕄)
      = iprop((nLoc d ↦{fullShare} W n') ∗ (aLoc d ↦{fullShare} W a') ∗ (tLoc d ↦{fullShare} W t') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((nLoc d ↦{fullShare} W main_arg0) ∗ (aLoc d ↦{fullShare} W main_arg1) ∗ (tLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
theorem hR : (opR (F := F)).bufs ⊆ S4 := show ({a', t'} : Finset (DevRef τ sig)) ⊆ S4 by decide

omit [FloatOps F] in
theorem R_n (d : Dev nD) : (opR (F := F)).result (V0 m d) n' = m (nLoc d) :=
  StableHlo.reshape_result_ne' _ _ _ _ (V0 m d) (r := main_arg0) (by decide)
omit [FloatOps F] in
theorem R_a (d : Dev nD) : (opR (F := F)).result (V0 m d) a' = m (aLoc d) :=
  StableHlo.reshape_result_ne' _ _ _ _ (V0 m d) (r := main_arg1) (by decide)
omit [FloatOps F] in
theorem R_o (d : Dev nD) : (opR (F := F)).result (V0 m d) o' = m (oLoc d) :=
  StableHlo.reshape_result_ne' _ _ _ _ (V0 m d) (r := main_v1) (by decide)
/-- After the host's reshape the flattened table holds the table's entries in row-major order. -/
theorem R_t (d : Dev nD) : (opR (F := F)).result (V0 m d) t' = tabV m d :=
  (StableHlo.reshape_result' _ _ _ _ (V0 m d)).trans rfl

theorem held_R (d : Dev nD) :
    (held (T d) S4 ((opR (F := F)).result (V0 m d)) : sProp 𝕄)
      = iprop((nLoc d ↦{fullShare} m (nLoc d)) ∗ (aLoc d ↦{fullShare} m (aLoc d)) ∗ (tLoc d ↦{fullShare} tabV m d) ∗ (oLoc d ↦{fullShare} m (oLoc d))) := by
  rw [held_S4, R_n, R_a, R_t, R_o]

/-- @main on device `d`'s TensorCore: the host's reshape, then the one call, from thirty-two read shares of the bits and
    of the flattened table and the result in its thirty-two row blocks; the bits and the table as given kept, the
    result whole at the result function. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_R (F := F) m d)) $$ Hheld
  icases Hh with ⟨Hn, Ha, Ht, Ho⟩
  rw [wp_ret]; imodintro
  -- the bits and the flattened table, each in thirty-two read shares and a remainder
  ihave Hnn := (Transfers.pointsTo_toks_split fullShare 32) $$ Hn
  icases Hnn with ⟨Hnrem, Hns⟩
  ihave Htt := (Transfers.pointsTo_toks_split fullShare 32) $$ Ht
  icases Htt with ⟨Hrem, Hts⟩
  -- the call
  iapply ((K (F := F)).wp_run (D (F := F)) 𝒱 (EH := EH) (P := P m) κ d 0) $$ [Hst Hns Hts Ho Ha Hnrem Hrem]
  isplitr; · iexact Hctx
  isplitl [Hst]; · iexact Hst
  isplitl [Hns Hts Ho]
  · rw [st0_eq, goAll_eq]
    isplitl [Hns]; · iexact Hns
    isplitl [Hts]; · iexact Hts
    iexact Ho
  iintro ⟨Hst, Hdn⟩
  ihave Hdn' := (Entails.of_eq ((dn0_eq m d).trans (tdAll_eq m d))) $$ Hdn
  icases Hdn' with ⟨Hns, -, Ho⟩
  -- the bits' shares joined back to the whole array
  ihave Hn := (Transfers.pointsTo_toks_join fullShare 32) $$ [Hnrem Hns]
  · isplitl [Hnrem] <;> iassumption
  imodintro
  isplitl [Hst]; · iexact Hst
  isplitl [Hn]; · iexact Hn
  isplitl [Ha]; · iexact Ha
  iexact Ho

/-! ## The program's run -/

/-- Every weakly fair run of the thirty-five threads ends, faulting nowhere, with the result at the result function
    of the bits and the flattened table, and the bits and the table as given. -/
theorem run_main [∀ e, Nonempty (Elt F e)] (h : TileBody (F := F) m) :
    θ_run (Cert.KernelIdeal.defs (F := F)) (Cert.KernelIdeal.threads (F := F)) ⟨m, fun _ => 0, ρ⟩
      (fun r => ∀ c : Dev nD, r.2.mem (oLoc c) = outV m c ∧ r.2.mem (nLoc c) = m (nLoc c) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.KBProto.lean ====
/-
  The kernel as its launch sees it, and what one vector subcore's task is handed and hands back.

  Thirty-two tasks run at once, task (core c, subcore s) numbered  w = 2·s + c.  Task w reads rows 128·w … 128·w + 127
  of the occupation bits and writes the same rows of the result; every task reads the whole flattened table (256
  entries, row r of the 4 × 64 table at 64·r … 64·r + 63).  So a task is handed one read share of the bits and one of the table (both whole arrays, only read), and its
  128-row block of the result; it hands them back, the result's block at the function
  `kout` below.  The copies a task makes are its own (each semaphore carries one copy at a time), so the ghost state
  is the handshakes' beside the transfer counters, and the tasks owe nothing of their own.

  The result function is stated for any float instance, entry by entry: with  t_r = table(r, k),  w = up + down + down,
  uf = float(w and 1),  df = float((w shift-right 1) and 1):
      ((t0 + uf·(t1 − t0)) + df·(t2 − t0)) + (uf·df)·(((t3 − t2) − t1) + t0).
-/
import proofs.«206263_g65532611002545_cont_9to1c4b_62_29_alg».proof.Kernel
import proofs.«206263_g65532611002545_cont_9to1c4b_62_29_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The occupation bits, the table as given, the table flattened (what the kernel reads), the result: as locations of
    device `d`. -/
abbrev nLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-! ## The result, entry by entry, at any float instance -/

section Result

variable [FloatOps F]

/-- One entry from the four table entries of its column and the site's token word. -/
def lane (t0 t1 t2 t3 : F .f32) (w : BitVec 32) : F .f32 :=
  let uf : F .f32 := Scalar.sitofp .f32 (Scalar.andi w 1#32)
  let df : F .f32 := Scalar.sitofp .f32 (Scalar.andi (Scalar.shrsi w 1#32) 1#32)
  FloatOps.addf (FloatOps.addf (FloatOps.addf t0 (FloatOps.mulf uf (FloatOps.subf t1 t0))) (FloatOps.mulf df (FloatOps.subf t2 t0)))
    (FloatOps.mulf (Scalar.mulf uf df) (FloatOps.addf (FloatOps.subf (FloatOps.subf t3 t2) t1) t0))

/-- Entry `64·r + k` of the flattened table. -/
def flatIx (r : Fin 4) (k : Fin 64) : S256.Idx := ix1 (n := 256) ⟨64 * r.val + k.val, by omega⟩

/-- The token word of site `s` of row `b`: the up word plus the down word twice. -/
def tokWord (n : IVec S4096x400 32) (b : Fin 4096) (s : Fin 200) : BitVec 32 :=
  Scalar.addi (Scalar.addi (n (ix2 (n0 := 4096) (n1 := 400) b ⟨200 + s.val, by omega⟩)) (n (ix2 (n0 := 4096) (n1 := 400) b ⟨s.val, by omega⟩)))
    (n (ix2 (n0 := 4096) (n1 := 400) b ⟨s.val, by omega⟩))

/-- What the kernel leaves in the result, as one function of the bits and the flattened table. -/
def kout (n : IVec S4096x400 32) (t : FVec F S256 .f32) : FVec F S4096x200x64 .f32 :=
  fun i => lane (t (flatIx 0 (i 2))) (t (flatIx 1 (i 2))) (t (flatIx 2 (i 2))) (t (flatIx 3 (i 2))) (tokWord n (i 0) (i 1))

/-- The flattened table, from the table as given (the host's reshape before the call). -/
def flatTab (a : FVec F S4x64 .f32) : FVec F S256 .f32 := shapeCast S256 a shapeCasts_S4x64_S256

end Result

/-! ## The thirty-two row blocks -/

theorem hdivN : 32 ∣ S4096x400.size 0 := ⟨128, rfl⟩
theorem hdivO : 32 ∣ S4096x200x64.size 0 := ⟨128, rfl⟩
/-- Rows 128·w … 128·w + 127 of the bits, of the result. -/
abbrev nRect (w : Fin 32) : Rect S4096x400 := Rect.part (s := S4096x400) (a₀ := 0) hdivN w
abbrev oRect (w : Fin 32) : Rect S4096x200x64 := Rect.part (s := S4096x200x64) (a₀ := 0) hdivO w
abbrev nBlk (w : Fin 32) : Finset S4096x400.Idx := (nRect w).set
abbrev oBlk (w : Fin 32) : Finset S4096x200x64.Idx := (oRect w).set

/-- The number of the task on core `c`, subcore `s`. -/
def wid (c : Fin 2) (s : Fin 16) : Fin 32 := ⟨2 * s.val + c.val, by omega⟩

/-! ## What the handshakes carry -/

section Pay

variable [FloatOps F]

/-- The flattened table's contents during the call. -/
abbrev tabV (d : Dev nD) : Buf (Elt F) (tLoc d) := flatTab (F := F) (m (aLoc d))
/-- The result's contents after the call. -/
abbrev outV (d : Dev nD) : Buf (Elt F) (oLoc d) := kout (F := F) (m (nLoc d)) (tabV m d)

/-- Task `w` is handed its block of the bits and of the result, and read share `w` of the flattened table; -/
def goOf (d : Dev nD) (w : Fin 32) : sProp 𝕄 :=
  iprop((nLoc d ↦[Finset.univ]{Transfers.shareTok fullShare 32 w} m (nLoc d)) ∗ (tLoc d ↦[Finset.univ]{Transfers.shareTok fullShare 32 w} tabV m d)
    ∗ (oLoc d ↦[oBlk w]{fullShare} m (oLoc d)))
/-- and hands them back, the result's block at the result function. -/
def tdOf (d : Dev nD) (w : Fin 32) : sProp 𝕄 :=
  iprop((nLoc d ↦[Finset.univ]{Transfers.shareTok fullShare 32 w} m (nLoc d)) ∗ (tLoc d ↦[Finset.univ]{Transfers.shareTok fullShare 32 w} tabV m d)
    ∗ (oLoc d ↦[oBlk w]{fullShare} outV m d))

def P : (K (F := F)).Pay (nD := nD) (Val := Elt F) (Name := ℕ) (U := UU) where
  st := fun q d c => match q with
    | 0 => bigSep Finset.univ fun s : Fin 16 => goOf m d (wid (Fin.cast nCore_zero c) s)
  dn := fun q d c => match q with
    | 0 => bigSep Finset.univ fun s : Fin 16 => tdOf m d (wid (Fin.cast nCore_zero c) s)
  go := fun q d c i => match q with
    | 0 => goOf m d (wid (Fin.cast nCore_zero c) (Fin.cast nSub_zero i))
  td := fun q d c i => match q with
    | 0 => tdOf m d (wid (Fin.cast nCore_zero c) (Fin.cast nSub_zero i))
  x := fun _ _ => iprop(emp)

end Pay

/-! ## One task's obligation -/

section Tile

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the task at grid coordinates `L`. -/
abbrev widL (L : grid0.Coords) : Fin 32 := wid (Fin.cast bound_zero (L 0)) (Fin.cast bound_one (L 1))

/-- The kernel function on the vector subcore at `L`, on the whole arrays and the subcore's own scratch, as the body
    table calls it. -/
abbrev kernelAt (L : grid0.Coords) :=
  cc0_k (F := F) L (Memref.whole main_arg0_scv) (Memref.isWhole_whole _) (Memref.whole main_v0_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _) cc0_scratch3 cc0_scratch4
    (Memref.whole cc0_scratch5) (Memref.isWhole_whole _) (Memref.whole cc0_scratch6) (Memref.isWhole_whole _)
    (Memref.whole cc0_scratch7) (Memref.isWhole_whole _) cc0_scratch8 cc0_scratch9 (Memref.whole cc0_scratch10) (Memref.isWhole_whole _) cc0_scoped0

/-- One task, from what it is handed to what it hands back: every weakly fair run of the kernel function on the subcore
    ends, faulting nowhere, with the subcore's scratch and semaphores back and the result's block at the result function.
    (What the thread owes the launch is carried through unchanged; its own waits sit at index `none`.) -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ goOf m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (kernelAt (F := F) L)
          fun _ => iprop(tdOf m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KB

end
-- ==== Proof.KBLaunch.lean ====
/-
  The launch of the kernel: from one task's obligation to the run of all thirty-five threads.

  The thirty-two tasks are each handed a 128-row block of the result, and one read share of the occupation bits and of
  the flattened table; the call's operands for a core are its sixteen tasks' side by side, so splitting a core's operands
  among its tasks moves nothing.  On the TensorCore the host first flattens the 4 × 64 table to 256 entries; then the
  result is cut into its thirty-two row blocks, the bits and the flattened table each into thirty-two read shares and a
  remainder, the blocks and shares regrouped by core and subcore (task w = 2·s + c) and handed to the call; what comes
  back is joined the same way, the result's blocks all at the one result function, so the whole result is at it.
-/
import proofs.«206263_g65532611002545_cont_9to1c4b_62_29_alg».proof.Proof.KBProto

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)
open Idealize.ShloMosaic.Tactic

variable [FloatOps F]

/-! ## The payloads, as equations -/

theorem P_st (d : Dev nD) (c : Fin ((K (F := F)).nCore 0)) :
    (P m).st 0 d c = bigSep Finset.univ fun s : Fin 16 => goOf m d (wid (Fin.cast nCore_zero c) s) := rfl
theorem P_dn (d : Dev nD) (c : Fin ((K (F := F)).nCore 0)) :
    (P m).dn 0 d c = bigSep Finset.univ fun s : Fin 16 => tdOf m d (wid (Fin.cast nCore_zero c) s) := rfl
theorem P_go (d : Dev nD) (c : Fin ((K (F := F)).nCore 0)) (i : Fin ((K (F := F)).nSub 0)) :
    (P m).go 0 d c i = goOf m d (wid (Fin.cast nCore_zero c) (Fin.cast nSub_zero i)) := rfl
theorem P_td (d : Dev nD) (c : Fin ((K (F := F)).nCore 0)) (i : Fin ((K (F := F)).nSub 0)) :
    (P m).td 0 d c i = tdOf m d (wid (Fin.cast nCore_zero c) (Fin.cast nSub_zero i)) := rfl
theorem P_x (q : Fin 1) (thr : Thread nD τ) : (P (F := F) m).x q thr = iprop(emp) := rfl

instance goOf_storable (d : Dev nD) (w : Fin 32) : BI.Storable (upEmb : UEmb _ 𝕄) (goOf m d w) := by
  unfold goOf; infer_instance
instance tdOf_storable (d : Dev nD) (w : Fin 32) : BI.Storable (upEmb : UEmb _ 𝕄) (tdOf m d w) := by
  unfold tdOf; infer_instance

instance P_storable : (P (F := F) m).IsStorable where
  st q d c := match q with
    | 0 => (inferInstance : BI.Storable (upEmb : UEmb _ 𝕄) (bigSep Finset.univ fun s : Fin 16 => goOf m d (wid (Fin.cast nCore_zero c) s)))
  dn q d c := match q with
    | 0 => (inferInstance : BI.Storable (upEmb : UEmb _ 𝕄) (bigSep Finset.univ fun s : Fin 16 => tdOf m d (wid (Fin.cast nCore_zero c) s)))
  go q d c i := match q with
    | 0 => (inferInstance : BI.Storable (upEmb : UEmb _ 𝕄) (goOf m d (wid (Fin.cast nCore_zero c) (Fin.cast nSub_zero i))))
  td q d c i := match q with
    | 0 => (inferInstance : BI.Storable (upEmb : UEmb _ 𝕄) (tdOf m d (wid (Fin.cast nCore_zero c) (Fin.cast nSub_zero i))))

/-! ## The launch theorem's obligations -/

theorem defs₀_vector (c : Fin τ.nSC) (s : Fin τ.nSub) :
    defs₀ (F := F) (.scVector c s) 0 ()
      = SparseCore.onTile hcore0 hsub0 (fun c s => kernelAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One task's obligation is the launch theorem's, at every core and subcore of the call's grid: the task there is
    number 2·s + c. -/
theorem tileObl (h : TileBody (F := F) m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wid (Fin.cast nCore_zero c) (Fin.cast nSub_zero i) = widL (coordsV ⟨_, hc.1⟩ ⟨_, hc.2⟩) := Fin.ext rfl
  rw [P_go, P_td, P_x, hw]
  exact (h d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's operands are its sixteen tasks' side by side, and so are its results: nothing moves. -/
theorem vecSplit : (K (F := F)).VecSplit' (P m) 0 := by
  intro d c
  simp only [P_st, P_dn, P_go, P_td]
  rw [bigSep_tasks (F := F) (fun s => goOf m d (wid (Fin.cast nCore_zero c) s)),
    bigSep_tasks (F := F) (fun s => tdOf m d (wid (Fin.cast nCore_zero c) s))]
  iintro H; imodintro
  isplitl [H]; · iexact H
  iintro H; iexact H

/-! ## The launch element: the handshakes' rounds; the transfer counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim -/

/-- The bits and the table as given, unchanged, and the result whole at the result function. -/
abbrev FIN (d : Dev nD) : sProp 𝕄 :=
  iprop((nLoc d ↦{fullShare} m (nLoc d)) ∗ (aLoc d ↦{fullShare} m (aLoc d)) ∗ (oLoc d ↦{fullShare} outV m d))

def fq (d : Dev nD) (s' : Phys nD τ sig (Elt F)) : Prop :=
  s'.mem.mem (oLoc d) = outV m d ∧ s'.mem.mem (nLoc d) = m (nLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hn, Ha, Ho⟩, HSI⟩
  ihave H := (persistent_entails_right (SI_pointsTo_agree (st := s') (ℓ := nLoc d) (I := Finset.univ) (q := fullShare) (f := m (nLoc d)))) $$ [HSI Hn]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := outV m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## Regrouping the thirty-two tasks by core and subcore -/

omit [FloatOps F] in
theorem wid_image :
    ((Finset.univ : Finset (Fin 2)) ×ˢ (Finset.univ : Finset (Fin 16))).image (fun p : Fin 2 × Fin 16 => wid p.1 p.2) = Finset.univ := by
  ext w
  simp only [Finset.mem_image, Finset.mem_product, Finset.mem_univ, and_self, true_and, iff_true]
  exact ⟨(⟨w.val % 2, Nat.mod_lt _ (by decide)⟩, ⟨w.val / 2, by have := w.isLt; omega⟩), Fin.ext (by simp only [wid]; omega)⟩

omit [FloatOps F] in
theorem wid_inj :
    Set.InjOn (fun p : Fin 2 × Fin 16 => wid p.1 p.2) (((Finset.univ : Finset (Fin 2)) ×ˢ (Finset.univ : Finset (Fin 16)) : Finset (Fin 2 × Fin 16)) : Set (Fin 2 × Fin 16)) := by
  rintro ⟨c, s⟩ - ⟨c', s'⟩ - e
  have e' : 2 * s.val + c.val = 2 * s'.val + c'.val := congrArg Fin.val e
  have h2 := c.isLt; have h2' := c'.isLt
  have hc : c = c' := Fin.ext (by omega)
  have hs : s = s' := Fin.ext (by omega)
  rw [hc, hs]

omit [FloatOps F] in
/-- Every task number is 2·s + c for exactly one core c and subcore s. -/
theorem bigSep_wid (Φ : Fin 32 → sProp 𝕄) :
    (bigSep Finset.univ fun c : Fin 2 => bigSep Finset.univ fun s : Fin 16 => Φ (wid c s)) = bigSep Finset.univ Φ := by
  rw [← SparseCore.bigSep_product Finset.univ Finset.univ (fun p : Fin 2 × Fin 16 => Φ (wid p.1 p.2)),
    ← SparseCore.bigSep_image_of_injOn wid_inj Φ, wid_image]

/-- What the call takes for the two cores is the thirty-two tasks' operands, and what it hands back their results. -/
theorem st0_eq (d : Dev nD) :
    (bigSep Finset.univ fun c : Fin ((K (F := F)).nCore 0) => (P m).st 0 d c) = bigSep Finset.univ fun w : Fin 32 => goOf m d w :=
  (bigSep_cores (F := F) (fun c => bigSep Finset.univ fun s : Fin 16 => goOf m d (wid c s))).trans (bigSep_wid (fun w => goOf m d w))
theorem dn0_eq (d : Dev nD) :
    (bigSep Finset.univ fun c : Fin ((K (F := F)).nCore 0) => (P m).dn 0 d c) = bigSep Finset.univ fun w : Fin 32 => tdOf m d w :=
  (bigSep_cores (F := F) (fun c => bigSep Finset.univ fun s : Fin 16 => tdOf m d (wid c s))).trans (bigSep_wid (fun w => tdOf m d w))

/-! ## The result whole, and in its thirty-two row blocks -/

omit [FloatOps F] in
theorem oBlk_disjoint : ∀ i ∈ (Finset.univ : Finset (Fin 32)), ∀ j ∈ (Finset.univ : Finset (Fin 32)), i ≠ j → Disjoint (oBlk i) (oBlk j) :=
  fun _ _ _ _ h => Rect.part_disjoint hdivO h
omit [FloatOps F] in
theorem oBlk_cover : (Finset.univ : Finset (Fin 32)).biUnion oBlk = Finset.univ := Rect.biUnion_part hdivO

omit [FloatOps F] in
theorem oPts_blocks (d : Dev nD) (f : Buf (Elt F) (oLoc d)) :
    (oLoc d ↦{fullShare} f : sProp 𝕄) = bigSep Finset.univ fun w : Fin 32 => oLoc d ↦[oBlk w]{fullShare} f := by
  rw [← pointsTo_biUnion Finset.univ (ℓ := oLoc d) oBlk oBlk_disjoint, oBlk_cover]; try rfl

/-- The thirty-two tasks' operands together: thirty-two read shares of the bits and of the flattened table, the result
    whole; -/
theorem goAll_eq (d : Dev nD) :
    (bigSep Finset.univ fun w : Fin 32 => goOf m d w)
      = iprop((bigSep Finset.univ fun w : Fin 32 => nLoc d ↦[Finset.univ]{Transfers.shareTok fullShare 32 w} m (nLoc d))
          ∗ (bigSep Finset.univ fun w : Fin 32 => tLoc d ↦[Finset.univ]{Transfers.shareTok fullShare 32 w} tabV m d)
          ∗ (oLoc d ↦{fullShare} m (oLoc d))) := by
  unfold goOf
  rw [bigSep_sep', bigSep_sep', ← oPts_blocks]
/-- and their results: the same, the result whole at the result function (every block is at that one function). -/
theorem tdAll_eq (d : Dev nD) :
    (bigSep Finset.univ fun w : Fin 32 => tdOf m d w)
      = iprop((bigSep Finset.univ fun w : Fin 32 => nLoc d ↦[Finset.univ]{Transfers.shareTok fullShare 32 w} m (nLoc d))
          ∗ (bigSep Finset.univ fun w : Fin 32 => tLoc d ↦[Finset.univ]{Transfers.shareTok fullShare 32 w} tabV m d)
          ∗ (oLoc d ↦{fullShare} outV m d)) := by
  unfold tdOf
  rw [bigSep_sep', bigSep_sep', ← oPts_blocks]

/-! ## @main on the TensorCore -/

abbrev n' : DevRef τ sig := Proc.devRef .tc (main_arg0 : Ref sig .tc)
abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The host's flattening of the table. -/
abbrev opR : HloOp τ sig (Elt F) := StableHlo.reshape main_arg1 main_v0 rfl shapeCasts_S4x64_S256

/-- The TensorCore's arrays, all unscoped: the bits, the table, the flattened table, the result. -/
abbrev S4 : Finset (DevRef τ sig) := {n', a', t', o'}

omit [FloatOps F] in
theorem held_S4 (d : Dev nD) (W : Valuation τ sig (Elt F)) :
    (held (T d) S4 W : sProp 𝕄)
      = iprop((nLoc d ↦{fullShare} W n') ∗ (aLoc d ↦{fullShare} W a') ∗ (tLoc d ↦{fullShare} W t') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((nLoc d ↦{fullShare} W main_arg0) ∗ (aLoc d ↦{fullShare} W main_arg1) ∗ (tLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

omit [FloatOps F] in
theorem hR : (opR (F := F)).bufs ⊆ S4 := show ({a', t'} : Finset (DevRef τ sig)) ⊆ S4 by decide

omit [FloatOps F] in
theorem R_n (d : Dev nD) : (opR (F := F)).result (V0 m d) n' = m (nLoc d) :=
  StableHlo.reshape_result_ne' _ _ _ _ (V0 m d) (r := main_arg0) (by decide)
omit [FloatOps F] in
theorem R_a (d : Dev nD) : (opR (F := F)).result (V0 m d) a' = m (aLoc d) :=
  StableHlo.reshape_result_ne' _ _ _ _ (V0 m d) (r := main_arg1) (by decide)
omit [FloatOps F] in
theorem R_o (d : Dev nD) : (opR (F := F)).result (V0 m d) o' = m (oLoc d) :=
  StableHlo.reshape_result_ne' _ _ _ _ (V0 m d) (r := main_v1) (by decide)
/-- After the host's reshape the flattened table holds the table's entries in row-major order. -/
theorem R_t (d : Dev nD) : (opR (F := F)).result (V0 m d) t' = tabV m d :=
  (StableHlo.reshape_result' _ _ _ _ (V0 m d)).trans rfl

theorem held_R (d : Dev nD) :
    (held (T d) S4 ((opR (F := F)).result (V0 m d)) : sProp 𝕄)
      = iprop((nLoc d ↦{fullShare} m (nLoc d)) ∗ (aLoc d ↦{fullShare} m (aLoc d)) ∗ (tLoc d ↦{fullShare} tabV m d) ∗ (oLoc d ↦{fullShare} m (oLoc d))) := by
  rw [held_S4, R_n, R_a, R_t, R_o]

/-- @main on device `d`'s TensorCore: the host's reshape, then the one call, from thirty-two read shares of the bits and
    of the flattened table and the result in its thirty-two row blocks; the bits and the table as given kept, the
    result whole at the result function. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_R (F := F) m d)) $$ Hheld
  icases Hh with ⟨Hn, Ha, Ht, Ho⟩
  rw [wp_ret]; imodintro
  -- the bits and the flattened table, each in thirty-two read shares and a remainder
  ihave Hnn := (Transfers.pointsTo_toks_split fullShare 32) $$ Hn
  icases Hnn with ⟨Hnrem, Hns⟩
  ihave Htt := (Transfers.pointsTo_toks_split fullShare 32) $$ Ht
  icases Htt with ⟨Hrem, Hts⟩
  -- the call
  iapply ((K (F := F)).wp_run (D (F := F)) 𝒱 (EH := EH) (P := P m) κ d 0) $$ [Hst Hns Hts Ho Ha Hnrem Hrem]
  isplitr; · iexact Hctx
  isplitl [Hst]; · iexact Hst
  isplitl [Hns Hts Ho]
  · rw [st0_eq, goAll_eq]
    isplitl [Hns]; · iexact Hns
    isplitl [Hts]; · iexact Hts
    iexact Ho
  iintro ⟨Hst, Hdn⟩
  ihave Hdn' := (Entails.of_eq ((dn0_eq m d).trans (tdAll_eq m d))) $$ Hdn
  icases Hdn' with ⟨Hns, -, Ho⟩
  -- the bits' shares joined back to the whole array
  ihave Hn := (Transfers.pointsTo_toks_join fullShare 32) $$ [Hnrem Hns]
  · isplitl [Hnrem] <;> iassumption
  imodintro
  isplitl [Hst]; · iexact Hst
  isplitl [Hn]; · iexact Hn
  isplitl [Ha]; · iexact Ha
  iexact Ho

/-! ## The program's run -/

/-- Every weakly fair run of the thirty-five threads ends, faulting nowhere, with the result at the result function
    of the bits and the flattened table, and the bits and the table as given. -/
theorem run_main [∀ e, Nonempty (Elt F e)] (h : TileBody (F := F) m) :
    θ_run (Cert.Kernel.defs (F := F)) (Cert.Kernel.threads (F := F)) ⟨m, fun _ => 0, ρ⟩
      (fun r => ∀ c : Dev nD, r.2.mem (oLoc c) = outV m c ∧ r.2.mem (nLoc c) = m (nLoc c) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.Spec.lean ====
/-
  The specification both programs are proved against.

  Every row of the integer input holds, for each of 200 sites, a "down" occupation bit (columns 0 … 199) and an "up"
  occupation bit (columns 200 … 399).  A site's token is  up + 2 · down  ∈ {0, 1, 2, 3}, and the result holds, at
  (row, site, ·), the token's row of the 4 × 64 table.  Stated index by index, over literal shapes, with no program
  in sight: the reference reaches it by a gather, the kernel by a bilinear interpolation between the four rows.
-/
import Idealize.ShloMosaic.PureOps.Ideal
import Idealize.ShloMosaic.Lib.ValueIdx

noncomputable section

namespace BandEmbed

open Idealize.ShloMosaic Idealize.ShloMosaic.ValueIdx

/-- The occupation bits: 4096 rows of 400 columns. -/
abbrev SBits : Shape := ⟨2, ![4096, 400]⟩
/-- The table: one row of 64 entries per token. -/
abbrev STab : Shape := ⟨2, ![4, 64]⟩
/-- The result: per row and site, a row of the table. -/
abbrev SOut : Shape := ⟨3, ![4096, 200, 64]⟩

/-- A site's token from its two occupation words: the up bit plus twice the down bit (each word read modulo 2, so that
    the function is total; on words that ARE bits it is  up + 2 · down). -/
def tok (u d : BitVec 32) : Fin 4 := ⟨u.toNat % 2 + 2 * (d.toNat % 2), by omega⟩

/-- The column of site `s`'s down bit. -/
def downCol (s : Fin 200) : Fin 400 := ⟨s.val, by omega⟩
/-- The column of site `s`'s up bit. -/
def upCol (s : Fin 200) : Fin 400 := ⟨200 + s.val, by omega⟩

/-- The token of site `s` of row `b`. -/
def tokAt (n : IVec SBits 32) (b : Fin 4096) (s : Fin 200) : Fin 4 :=
  tok (n (ix2 (n0 := 4096) (n1 := 400) b (upCol s))) (n (ix2 (n0 := 4096) (n1 := 400) b (downCol s)))

/-- The embedding: entry (b, s, k) of the result is entry (token of (b, s), k) of the table. -/
def G (n : IVec SBits 32) (tab : FVec Ideal STab .f32) : FVec Ideal SOut .f32 :=
  fun i => tab (ix2 (n0 := 4) (n1 := 64) (tokAt n (i 0) (i 1)) (i 2))

theorem G_apply (n : IVec SBits 32) (tab : FVec Ideal STab .f32) (b : Fin 4096) (s : Fin 200) (k : Fin 64) :
    G n tab (ix3 (n0 := 4096) (n1 := 200) (n2 := 64) b s k) = tab (ix2 (n0 := 4) (n1 := 64) (tokAt n b s) k) := rfl

theorem tok_zero_zero : tok 0#32 0#32 = 0 := rfl
theorem tok_one_zero : tok 1#32 0#32 = 1 := rfl
theorem tok_zero_one : tok 0#32 1#32 = 2 := rfl
theorem tok_one_one : tok 1#32 1#32 = 3 := rfl

end BandEmbed

end
-- ==== Proof.Law.lean ====
/-
  The bilinear interpolation between the four rows of the table picks out one row.

  For occupation bits u, d ∈ {0, 1} and real numbers t0, t1, t2, t3,

      t0 + u · (t1 − t0) + d · (t2 − t0) + (u · d) · (t3 − t2 − t1 + t0)

  is t0, t1, t2 or t3 according as (u, d) is (0, 0), (1, 0), (0, 1) or (1, 1): the entry of (t0, t1, t2, t3) at the
  token u + 2 · d.  The token word is w = u + d + d, from which the two bits are recovered as w AND 1 and
  (w shifted right by one) AND 1.  The identity needs the four numbers to be real: with an infinite entry a product
  0 · ∞ or a difference ∞ − ∞ would not cancel.
-/
import Idealize.ShloMosaic.PureOps.Ideal
import proofs.«206263_g65532611002545_cont_9to1c4b_62_29_alg».proof.Proof.Spec

noncomputable section

namespace BandEmbed

open Idealize.ShloMosaic

/-! ## The bits of the token word -/

/-- The low bit of the token word u + d + d is the up bit. -/
theorem up_bit_of_word (u d : BitVec 32) (hu : u = 0#32 ∨ u = 1#32) (hd : d = 0#32 ∨ d = 1#32) :
    Scalar.andi (u + d + d) 1#32 = u := by
  rcases hu with rfl | rfl <;> rcases hd with rfl | rfl <;> decide

/-- The next bit of the token word u + d + d (shift right by one, then the low bit) is the down bit. -/
theorem down_bit_of_word (u d : BitVec 32) (hu : u = 0#32 ∨ u = 1#32) (hd : d = 0#32 ∨ d = 1#32) :
    Scalar.andi (Scalar.shrsi (u + d + d) 1#32) 1#32 = d := by
  rcases hu with rfl | rfl <;> rcases hd with rfl | rfl <;> decide

/-- A bit, converted to a float, is the real number 0 or 1: the conversion of the low bit of the token word. -/
theorem up_factor (u d : BitVec 32) (hu : u = 0#32 ∨ u = 1#32) (hd : d = 0#32 ∨ d = 1#32) :
    Scalar.sitofp (F := Ideal) .f32 (Scalar.andi (u + d + d) 1#32) = ((u.toInt : ℝ) : EReal) := by
  rw [up_bit_of_word u d hu hd]; rfl

/-- The conversion of the second bit of the token word. -/
theorem down_factor (u d : BitVec 32) (hu : u = 0#32 ∨ u = 1#32) (hd : d = 0#32 ∨ d = 1#32) :
    Scalar.sitofp (F := Ideal) .f32 (Scalar.andi (Scalar.shrsi (u + d + d) 1#32) 1#32) = ((d.toInt : ℝ) : EReal) := by
  rw [down_bit_of_word u d hu hd]; rfl

/-! ## The interpolation, number by number -/

theorem toInt_zero32 : (0#32 : BitVec 32).toInt = 0 := by decide
theorem toInt_one32 : (1#32 : BitVec 32).toInt = 1 := by decide

/-- The interpolation formula on real entries, in the association the kernel computes it in, is the entry at the token. -/
theorem interp_entry (t0 t1 t2 t3 : EReal) (h0 : ∃ r : ℝ, t0 = (r : EReal)) (h1 : ∃ r : ℝ, t1 = (r : EReal))
    (h2 : ∃ r : ℝ, t2 = (r : EReal)) (h3 : ∃ r : ℝ, t3 = (r : EReal))
    (u d : BitVec 32) (hu : u = 0#32 ∨ u = 1#32) (hd : d = 0#32 ∨ d = 1#32) :
    ((t0 + ((u.toInt : ℝ) : EReal) * (t1 - t0)) + ((d.toInt : ℝ) : EReal) * (t2 - t0))
        + (((u.toInt : ℝ) : EReal) * ((d.toInt : ℝ) : EReal)) * (((t3 - t2) - t1) + t0)
      = ![t0, t1, t2, t3] (tok u d) := by
  obtain ⟨a0, rfl⟩ := h0
  obtain ⟨a1, rfl⟩ := h1
  obtain ⟨a2, rfl⟩ := h2
  obtain ⟨a3, rfl⟩ := h3
  rcases hu with rfl | rfl <;> rcases hd with rfl | rfl
  · rw [tok_zero_zero, toInt_zero32]
    show _ = (a0 : EReal)
    norm_cast
    ring
  · rw [tok_zero_one, toInt_zero32, toInt_one32]
    show _ = (a2 : EReal)
    norm_cast
    ring
  · rw [tok_one_zero, toInt_zero32, toInt_one32]
    show _ = (a1 : EReal)
    norm_cast
    ring
  · rw [tok_one_one, toInt_one32]
    show _ = (a3 : EReal)
    norm_cast
    ring

/-- The interpolation of one entry in the kernel's spelling, from the token word w = u + d + d. -/
theorem interp_word_entry (t0 t1 t2 t3 : Ideal .f32) (h0 : ∃ r : ℝ, t0 = (r : EReal)) (h1 : ∃ r : ℝ, t1 = (r : EReal))
    (h2 : ∃ r : ℝ, t2 = (r : EReal)) (h3 : ∃ r : ℝ, t3 = (r : EReal))
    (u d : BitVec 32) (hu : u = 0#32 ∨ u = 1#32) (hd : d = 0#32 ∨ d = 1#32) (w : BitVec 32) (hw : w = u + d + d) :
    FloatOps.addf
        (FloatOps.addf
          (FloatOps.addf t0 (FloatOps.mulf (Scalar.sitofp (F := Ideal) .f32 (Scalar.andi w 1#32)) (FloatOps.subf t1 t0)))
          (FloatOps.mulf (Scalar.sitofp (F := Ideal) .f32 (Scalar.andi (Scalar.shrsi w 1#32) 1#32)) (FloatOps.subf t2 t0)))
        (FloatOps.mulf
          (Scalar.mulf (Scalar.sitofp (F := Ideal) .f32 (Scalar.andi w 1#32))
            (Scalar.sitofp (F := Ideal) .f32 (Scalar.andi (Scalar.shrsi w 1#32) 1#32)))
          (FloatOps.addf (FloatOps.subf (FloatOps.subf t3 t2) t1) t0))
      = ![t0, t1, t2, t3] (tok u d) := by
  subst hw
  rw [up_factor u d hu hd, down_factor u d hu hd]
  exact interp_entry t0 t1 t2 t3 h0 h1 h2 h3 u d hu hd

/-! ## The interpolation on vectors

Every operation is lane by lane, so the vector statement is the scalar one at each lane.  The shape `s` is arbitrary
(the kernel's is the 16-lane vector). -/

variable {s : Shape}

/-- The interpolation with the three factors given as vectors whose every lane is the bit u, the bit d, and their product. -/
theorem interp_lanes (t0 t1 t2 t3 : FVec Ideal s .f32)
    (h0 : ∀ l, ∃ r : ℝ, t0 l = (r : EReal)) (h1 : ∀ l, ∃ r : ℝ, t1 l = (r : EReal))
    (h2 : ∀ l, ∃ r : ℝ, t2 l = (r : EReal)) (h3 : ∀ l, ∃ r : ℝ, t3 l = (r : EReal))
    (u d : BitVec 32) (hu : u = 0#32 ∨ u = 1#32) (hd : d = 0#32 ∨ d = 1#32)
    (U D UD : FVec Ideal s .f32) (hU : ∀ l, U l = ((u.toInt : ℝ) : EReal)) (hD : ∀ l, D l = ((d.toInt : ℝ) : EReal))
    (hUD : ∀ l, UD l = U l * D l) :
    addf (addf (addf t0 (mulf U (subf t1 t0))) (mulf D (subf t2 t0))) (mulf UD (addf (subf (subf t3 t2) t1) t0))
      = fun l => ![t0 l, t1 l, t2 l, t3 l] (tok u d) := by
  funext l
  show ((t0 l + U l * (t1 l - t0 l)) + D l * (t2 l - t0 l)) + UD l * (((t3 l - t2 l) - t1 l) + t0 l) = _
  rw [hUD l, hU l, hD l]
  exact interp_entry (t0 l) (t1 l) (t2 l) (t3 l) (h0 l) (h1 l) (h2 l) (h3 l) u d hu hd

/-- The interpolation with the factors broadcast from scalars: uf the bit u, df the bit d, and the scalar product uf · df. -/
theorem interp_broadcast (t0 t1 t2 t3 : FVec Ideal s .f32)
    (h0 : ∀ l, ∃ r : ℝ, t0 l = (r : EReal)) (h1 : ∀ l, ∃ r : ℝ, t1 l = (r : EReal))
    (h2 : ∀ l, ∃ r : ℝ, t2 l = (r : EReal)) (h3 : ∀ l, ∃ r : ℝ, t3 l = (r : EReal))
    (u d : BitVec 32) (hu : u = 0#32 ∨ u = 1#32) (hd : d = 0#32 ∨ d = 1#32)
    (uf df : Ideal .f32) (huf : uf = ((u.toInt : ℝ) : EReal)) (hdf : df = ((d.toInt : ℝ) : EReal)) :
    addf (addf (addf t0 (mulf (broadcast s uf) (subf t1 t0))) (mulf (broadcast s df) (subf t2 t0)))
        (mulf (broadcast s (Scalar.mulf uf df)) (addf (subf (subf t3 t2) t1) t0))
      = fun l => ![t0 l, t1 l, t2 l, t3 l] (tok u d) :=
  interp_lanes t0 t1 t2 t3 h0 h1 h2 h3 u d hu hd _ _ _ (fun _ => huf) (fun _ => hdf) (fun _ => rfl)

/-- The interpolation as the kernel spells it, from the token word w = u + d + d: the factors are the conversions of
    w AND 1 and of (w shifted right by one) AND 1. -/
theorem interp_word (t0 t1 t2 t3 : FVec Ideal s .f32)
    (h0 : ∀ l, ∃ r : ℝ, t0 l = (r : EReal)) (h1 : ∀ l, ∃ r : ℝ, t1 l = (r : EReal))
    (h2 : ∀ l, ∃ r : ℝ, t2 l = (r : EReal)) (h3 : ∀ l, ∃ r : ℝ, t3 l = (r : EReal))
    (u d : BitVec 32) (hu : u = 0#32 ∨ u = 1#32) (hd : d = 0#32 ∨ d = 1#32) (w : BitVec 32) (hw : w = u + d + d) :
    addf (addf (addf t0 (mulf (broadcast s (Scalar.sitofp (F := Ideal) .f32 (Scalar.andi w 1#32))) (subf t1 t0)))
          (mulf (broadcast s (Scalar.sitofp (F := Ideal) .f32 (Scalar.andi (Scalar.shrsi w 1#32) 1#32))) (subf t2 t0)))
        (mulf (broadcast s (Scalar.mulf (Scalar.sitofp (F := Ideal) .f32 (Scalar.andi w 1#32))
            (Scalar.sitofp (F := Ideal) .f32 (Scalar.andi (Scalar.shrsi w 1#32) 1#32)))) (addf (subf (subf t3 t2) t1) t0))
      = fun l => ![t0 l, t1 l, t2 l, t3 l] (tok u d) := by
  subst hw
  exact interp_broadcast t0 t1 t2 t3 h0 h1 h2 h3 u d hu hd _ _ (up_factor u d hu hd) (down_factor u d hu hd)

/-! ## The result as a row of the table -/

open Idealize.ShloMosaic.ValueIdx in
/-- When lane l of the four vectors holds column `col l` of rows 0, 1, 2, 3 of the table, the entry picked out at
    lane l is column `col l` of the token's row. -/
theorem row_at_token (tab : FVec Ideal STab .f32) (col : s.Idx → Fin 64) (t0 t1 t2 t3 : FVec Ideal s .f32)
    (e0 : ∀ l, t0 l = tab (ix2 (n0 := 4) (n1 := 64) 0 (col l))) (e1 : ∀ l, t1 l = tab (ix2 (n0 := 4) (n1 := 64) 1 (col l)))
    (e2 : ∀ l, t2 l = tab (ix2 (n0 := 4) (n1 := 64) 2 (col l))) (e3 : ∀ l, t3 l = tab (ix2 (n0 := 4) (n1 := 64) 3 (col l)))
    (k : Fin 4) :
    (fun l => ![t0 l, t1 l, t2 l, t3 l] k) = fun l => tab (ix2 (n0 := 4) (n1 := 64) k (col l)) := by
  funext l
  fin_cases k
  · exact e0 l
  · exact e1 l
  · exact e2 l
  · exact e3 l

end BandEmbed

end
-- ==== Proof.PreFacts.lean ====
/-
  What the precondition says, entry by entry.

  The precondition is the conjunction of two universally quantified statements: every entry x of the table satisfies
  |x| < +∞ (so it is a real number, neither infinity nor junk), and every occupation word w satisfies 0 ≤ w and w ≤ 1
  as signed 32-bit integers (so it is the word 0 or the word 1).  Both are printed as a reduction by "and" over all
  indices of an array of truth values; a reduction that came out true met only true entries.
-/
import proofs.«206263_g65532611002545_cont_9to1c4b_62_29_alg».proof.Pre_input_domain
import proofs.«206263_g65532611002545_cont_9to1c4b_62_29_alg».proof.Proof.Gen.Pre_input_domain
import Idealize.ShloMosaic.Lib.ReduceAll
import Idealize.ShloMosaic.PureOps.Ideal
import Idealize.ShloMosaic.Lib.ValueIdx

noncomputable section

namespace BandEmbed

open Idealize.ShloMosaic Cert.Pre_input_domain Cert.Pre_input_domain.Gen

/-- A rank-0 array has exactly one index. -/
instance subsingleton_scalar_idx : Subsingleton S_.Idx := ⟨fun a b => funext fun d => d.elim0⟩

/-- A truth value printed as a 1-bit word is the word 1 exactly when it is true. -/
theorem ofBool_eq_one {b : Bool} : BitVec.ofBool b = 1#1 ↔ b = true := by cases b <;> decide

/-- A signed 32-bit word between 0 and 1 is the word 0 or the word 1. -/
theorem word_zero_or_one (x : BitVec 32) (h0 : (0#32 : BitVec 32).toInt ≤ x.toInt) (h1 : x.toInt ≤ (1#32 : BitVec 32).toInt) :
    x = 0#32 ∨ x = 1#32 := by
  have e0 : (0#32 : BitVec 32).toInt = 0 := by decide
  have e1 : (1#32 : BitVec 32).toInt = 1 := by decide
  rw [e0] at h0
  rw [e1] at h1
  rcases (by omega : x.toInt = 0 ∨ x.toInt = 1) with h | h
  · exact Or.inl (BitVec.eq_of_toInt_eq (by rw [h, e0]))
  · exact Or.inr (BitVec.eq_of_toInt_eq (by rw [h, e1]))

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The precondition, read at every index: each table entry has absolute value below the pattern of +∞, and each
    occupation word passes both signed comparisons. -/
theorem pre_elements (n : IVec S4096x400 32) (tab : FVec Ideal S4x64 .f32)
    (h : Cert.Pre_input_domain.fn (F := Ideal) n tab = (fun _ => 1#1)) :
    (∀ j : S4x64.Idx, Ideal.cmp .olt (max (tab j) (-(tab j))) (Ideal.ofBits .f32 0x7F800000#32) = 1#1) ∧
    (∀ i : S4096x400.Idx, IntOp.cmpi .sge (n i) 0#32 = 1#1 ∧ IntOp.cmpi .sle (n i) 1#32 = 1#1) := by
  have e := congrFun h ValueIdx.ix0
  dsimp only [Cert.Pre_input_domain.fn] at e
  obtain ⟨ef, ei⟩ := IntOp.andi_eq_one.1 e
  refine ⟨fun j => ?_, fun i => ?_⟩
  · exact Host.reduce_andi_all _ _ _ _ _ ef j
  · exact IntOp.andi_eq_one.1 (Host.reduce_andi_all _ _ _ _ _ ei i)

/-- (i) Under the precondition every occupation word is 0 or 1. -/
theorem bits_of_pre (n : IVec S4096x400 32) (tab : FVec Ideal S4x64 .f32)
    (h : Cert.Pre_input_domain.fn (F := Ideal) n tab = (fun _ => 1#1)) :
    ∀ i : S4096x400.Idx, n i = 0#32 ∨ n i = 1#32 := fun i =>
  word_zero_or_one (n i) (IntOp.cmpi_sge.1 ((pre_elements n tab h).2 i).1) (IntOp.cmpi_sle.1 ((pre_elements n tab h).2 i).2)

/-- (ii) Under the precondition every table entry is a real number. -/
theorem real_of_pre (n : IVec S4096x400 32) (tab : FVec Ideal S4x64 .f32)
    (h : Cert.Pre_input_domain.fn (F := Ideal) n tab = (fun _ => 1#1)) :
    ∀ j : S4x64.Idx, ∃ r : ℝ, tab j = (r : EReal) := fun j => by
  have hj := (pre_elements n tab h).1 j
  have htop : Ideal.ofBits .f32 0x7F800000#32 = (⊤ : EReal) := by simp [Ideal.ofBits, Ideal.ieee]
  rw [htop] at hj
  exact real_of_abs_lt_top _ (of_decide_eq_true (ofBool_eq_one.1 hj))

end BandEmbed

end
-- ==== Proof.KIValue.lean ====
/-
  The kernel's result function is the embedding.

  Entry (b, s, k) of the kernel's result is the interpolation formula at the four entries of column k of the flattened
  table and the token word of site (b, s).  The flattened table at 64·r + k is the table at (r, k) (a reshape keeps
  row-major positions); under the precondition the four entries are real numbers and the two occupation words of the
  site are bits, so the interpolation is the entry of column k at the site's token: the embedding's entry.
-/
import proofs.«206263_g65532611002545_cont_9to1c4b_62_29_alg».proof.Proof.KIProto
import proofs.«206263_g65532611002545_cont_9to1c4b_62_29_alg».proof.Proof.Law
import proofs.«206263_g65532611002545_cont_9to1c4b_62_29_alg».proof.Proof.PreFacts
import proofs.«206263_g65532611002545_cont_9to1c4b_62_29_alg».proof.Proof.Spec
import Idealize.ShloMosaic.Lib.Pipeline.Value

noncomputable section

namespace Cert.Proof.KI

open Cert.KernelIdeal Cert.KernelIdeal.Gen
open Idealize.ShloMosaic Idealize.ShloMosaic.ValueIdx

/-- Entry 64·r + k of a reshape of a 4 × 64 array to 256 entries is entry (r, k) of the array: the reshape keeps
    row-major positions. -/
theorem flat_read {α : Type} (a : S4x64.Idx → α) (hc : S4x64.ShapeCasts S256) (r : Fin 4) (k : Fin 64) :
    shapeCast S256 a hc (ix1 (n := 256) ⟨64 * r.val + k.val, by omega⟩) = a (ix2 (n0 := 4) (n1 := 64) r k) :=
  shapeCast_apply a hc _ (ix2 (n0 := 4) (n1 := 64) r k) (by
    rw [Shape.rowMajor_val_two, Shape.rowMajor_val_one]
    show r.val * 64 + k.val = 64 * r.val + k.val
    omega)

/-- The flattened table at 64·r + k is the table at (r, k). -/
theorem flatTab_read (tab : FVec Ideal S4x64 .f32) (r : Fin 4) (k : Fin 64) :
    flatTab (F := Ideal) tab (flatIx r k) = tab (ix2 (n0 := 4) (n1 := 64) r k) :=
  flat_read tab _ r k

/-- Under the precondition the kernel's result function, on the bits and the flattened table, is the embedding. -/
theorem kout_eq_G (n : IVec S4096x400 32) (tab : FVec Ideal S4x64 .f32)
    (h : Cert.Pre_input_domain.fn (F := Ideal) n tab = (fun _ => 1#1)) :
    kout (F := Ideal) n (flatTab tab) = BandEmbed.G n tab := by
  have hbits := BandEmbed.bits_of_pre n tab h
  have hreal := BandEmbed.real_of_pre n tab h
  funext i
  show lane (flatTab (F := Ideal) tab (flatIx 0 (i 2))) (flatTab (F := Ideal) tab (flatIx 1 (i 2)))
      (flatTab (F := Ideal) tab (flatIx 2 (i 2))) (flatTab (F := Ideal) tab (flatIx 3 (i 2))) (tokWord n (i 0) (i 1))
    = tab (ix2 (n0 := 4) (n1 := 64) (BandEmbed.tokAt n (i 0) (i 1)) (i 2))
  rw [flatTab_read tab 0 (i 2), flatTab_read tab 1 (i 2), flatTab_read tab 2 (i 2), flatTab_read tab 3 (i 2)]
  refine (BandEmbed.interp_word_entry _ _ _ _ (hreal _) (hreal _) (hreal _) (hreal _)
    (n (ix2 (n0 := 4096) (n1 := 400) (i 0) (BandEmbed.upCol (i 1)))) (n (ix2 (n0 := 4096) (n1 := 400) (i 0) (BandEmbed.downCol (i 1))))
    (hbits _) (hbits _) (tokWord n (i 0) (i 1)) rfl).trans ?_
  show ![tab (ix2 (n0 := 4) (n1 := 64) 0 (i 2)), tab (ix2 (n0 := 4) (n1 := 64) 1 (i 2)), tab (ix2 (n0 := 4) (n1 := 64) 2 (i 2)),
      tab (ix2 (n0 := 4) (n1 := 64) 3 (i 2))] (BandEmbed.tokAt n (i 0) (i 1)) = _
  generalize BandEmbed.tokAt n (i 0) (i 1) = k
  fin_cases k <;> rfl

end Cert.Proof.KI

end
-- ==== Proof.RefRun.lean ====
/-
  The reference as a straight line.  Its entry function is host operations only: it cuts the occupation
  words into the "down" half (columns 0 … 199) and the "up" half (columns 200 … 399), pairs them site by site,
  builds the weight vector (2⁰, 2¹) by repeated squaring over a two-entry integer vector, sums the weighted
  pair, and looks the resulting token up in the table.  Here every function it calls is written out at its call
  site over that call's own buffers, so that the whole program is ONE list of operations; the run of such a
  list ends with every buffer at the fold of the operations' results over the launch contents.
-/
import proofs.«206263_g65532611002545_cont_9to1c4b_62_29_alg».proof.ReferenceIdeal
import proofs.«206263_g65532611002545_cont_9to1c4b_62_29_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first stretch: the two halves, their pairing, and the squaring chain down to its fourth shift. -/
abbrev opsA : List (HloOp τ sig (Elt F)) :=
  [ StableHlo.unary main_arg0 main_v0 ((extractStridedSlice S4096x200 ![0, 0] · slices_S4096x400_S4096x200_0_0) : (⟨S4096x400, .i32⟩ : BufTy).Contents (Elt F) → (⟨S4096x200, .i32⟩ : BufTy).Contents (Elt F)),
    StableHlo.unary main_arg0 main_v1 ((extractStridedSlice S4096x200 ![0, 200] · slices_S4096x400_S4096x200_0_200) : (⟨S4096x400, .i32⟩ : BufTy).Contents (Elt F) → (⟨S4096x200, .i32⟩ : BufTy).Contents (Elt F)),
    StableHlo.unary main_v1 main_v2 (broadcastInDim S4096x200x1 ![0, 1] bcast_S4096x200_S4096x200x1_0_1 : (⟨S4096x200, .i32⟩ : BufTy).Contents (Elt F) → (⟨S4096x200x1, .i32⟩ : BufTy).Contents (Elt F)),
    StableHlo.unary main_v0 main_v3 (broadcastInDim S4096x200x1 ![0, 1] bcast_S4096x200_S4096x200x1_0_1 : (⟨S4096x200, .i32⟩ : BufTy).Contents (Elt F) → (⟨S4096x200x1, .i32⟩ : BufTy).Contents (Elt F)),
    StableHlo.binary main_v2 main_v3 main_v4 ((fun a b => concatenate S4096x200x2 2 [⟨S4096x200x1, a⟩, ⟨S4096x200x1, b⟩] concatenates_S4096x200x1_S4096x200x1_S4096x200x2_d2) : (⟨S4096x200x1, .i32⟩ : BufTy).Contents (Elt F) → (⟨S4096x200x1, .i32⟩ : BufTy).Contents (Elt F) → (⟨S4096x200x2, .i32⟩ : BufTy).Contents (Elt F)),
    StableHlo.nullary main_v5 (iotaInDim S2 32 0),
    StableHlo.nullary main_c (constantI S_ 32 2#32),
    StableHlo.nullary main_c_0 (constantI S_ 32 0#32),
    StableHlo.binary main_c main_c_0 main_v6 (cmpi .eq : (⟨S_, .i32⟩ : BufTy).Contents (Elt F) → (⟨S_, .i32⟩ : BufTy).Contents (Elt F) → (⟨S_, .i1⟩ : BufTy).Contents (Elt F)),
    StableHlo.nullary main_c_1 (constantI S_ 32 0#32),
    StableHlo.unary main_c_1 main_v7 (broadcastInDim S2 ![] bcast_S_S2 : (⟨S_, .i32⟩ : BufTy).Contents (Elt F) → (⟨S2, .i32⟩ : BufTy).Contents (Elt F)),
    StableHlo.binary main_v5 main_v7 main_v8 (cmpi .ne : (⟨S2, .i32⟩ : BufTy).Contents (Elt F) → (⟨S2, .i32⟩ : BufTy).Contents (Elt F) → (⟨S2, .i1⟩ : BufTy).Contents (Elt F)),
    StableHlo.unary main_v6 main_v9 (broadcastInDim S2 ![] bcast_S_S2 : (⟨S_, .i1⟩ : BufTy).Contents (Elt F) → (⟨S2, .i1⟩ : BufTy).Contents (Elt F)),
    StableHlo.binary main_v9 main_v8 main_v10 (andi : (⟨S2, .i1⟩ : BufTy).Contents (Elt F) → (⟨S2, .i1⟩ : BufTy).Contents (Elt F) → (⟨S2, .i1⟩ : BufTy).Contents (Elt F)),
    StableHlo.nullary main_c_2 (constantI S_ 32 0#32),
    StableHlo.nullary main_c_3 (constantI S_ 32 1#32),
    StableHlo.TRef.unary (.of main_c_2 : StableHlo.TRef sig ⟨S_, .i32⟩) main_call0.v0 (broadcastInDim S2 ![] bcast_S_S2),
    StableHlo.TRef.unary (.of main_c_3 : StableHlo.TRef sig ⟨S_, .i32⟩) main_call0.v1 (broadcastInDim S2 ![] bcast_S_S2),
    StableHlo.TRef.ternary (.of main_v10 : StableHlo.TRef sig ⟨S2, .i1⟩) main_call0.v0 main_call0.v1 main_call0.v2 select,
    StableHlo.nullary main_c_4 (constantI S_ 32 1#32),
    StableHlo.unary main_c_4 main_v12 (broadcastInDim S2 ![] bcast_S_S2 : (⟨S_, .i32⟩ : BufTy).Contents (Elt F) → (⟨S2, .i32⟩ : BufTy).Contents (Elt F)),
    StableHlo.binary main_v5 main_v12 main_v13 (andi : (⟨S2, .i32⟩ : BufTy).Contents (Elt F) → (⟨S2, .i32⟩ : BufTy).Contents (Elt F) → (⟨S2, .i32⟩ : BufTy).Contents (Elt F)),
    StableHlo.nullary main_c_5 (constantI S_ 32 2#32),
    StableHlo.unary main_c_5 main_v14 (broadcastInDim S2 ![] bcast_S_S2 : (⟨S_, .i32⟩ : BufTy).Contents (Elt F) → (⟨S2, .i32⟩ : BufTy).Contents (Elt F)),
    StableHlo.binary main_v11 main_v14 main_v15 (muli : (⟨S2, .i32⟩ : BufTy).Contents (Elt F) → (⟨S2, .i32⟩ : BufTy).Contents (Elt F) → (⟨S2, .i32⟩ : BufTy).Contents (Elt F)),
    StableHlo.TRef.nullary main_call1.c (constantI S_ 32 0#32),
    StableHlo.TRef.unary main_call1.c main_call1.v0 (broadcastInDim S2 ![] bcast_S_S2),
    StableHlo.TRef.binary (.of main_v13 : StableHlo.TRef sig ⟨S2, .i32⟩) main_call1.v0 main_call1.v1 (cmpi .ne),
    StableHlo.TRef.ternary main_call1.v1 (.of main_v15 : StableHlo.TRef sig ⟨S2, .i32⟩) (.of main_v11 : StableHlo.TRef sig ⟨S2, .i32⟩) main_call1.v2 select,
    StableHlo.nullary main_c_6 (constantI S_ 32 2#32),
    StableHlo.nullary main_c_7 (constantI S_ 32 2#32),
    StableHlo.binary main_c_6 main_c_7 main_v17 (muli : (⟨S_, .i32⟩ : BufTy).Contents (Elt F) → (⟨S_, .i32⟩ : BufTy).Contents (Elt F) → (⟨S_, .i32⟩ : BufTy).Contents (Elt F)),
    StableHlo.nullary main_c_8 (constantI S_ 32 1#32),
    StableHlo.unary main_c_8 main_v18 (broadcastInDim S2 ![] bcast_S_S2 : (⟨S_, .i32⟩ : BufTy).Contents (Elt F) → (⟨S2, .i32⟩ : BufTy).Contents (Elt F)),
    StableHlo.binary main_v5 main_v18 main_v19 (Host.shrui : (⟨S2, .i32⟩ : BufTy).Contents (Elt F) → (⟨S2, .i32⟩ : BufTy).Contents (Elt F) → (⟨S2, .i32⟩ : BufTy).Contents (Elt F)),
    StableHlo.nullary main_c_9 (constantI S_ 32 1#32),
    StableHlo.unary main_c_9 main_v20 (broadcastInDim S2 ![] bcast_S_S2 : (⟨S_, .i32⟩ : BufTy).Contents (Elt F) → (⟨S2, .i32⟩ : BufTy).Contents (Elt F)),
    StableHlo.binary main_v19 main_v20 main_v21 (andi : (⟨S2, .i32⟩ : BufTy).Contents (Elt F) → (⟨S2, .i32⟩ : BufTy).Contents (Elt F) → (⟨S2, .i32⟩ : BufTy).Contents (Elt F)),
    StableHlo.unary main_v17 main_v22 (broadcastInDim S2 ![] bcast_S_S2 : (⟨S_, .i32⟩ : BufTy).Contents (Elt F) → (⟨S2, .i32⟩ : BufTy).Contents (Elt F)),
    StableHlo.binary main_v16 main_v22 main_v23 (muli : (⟨S2, .i32⟩ : BufTy).Contents (Elt F) → (⟨S2, .i32⟩ : BufTy).Contents (Elt F) → (⟨S2, .i32⟩ : BufTy).Contents (Elt F)),
    StableHlo.TRef.nullary main_call2.c (constantI S_ 32 0#32),
    StableHlo.TRef.unary main_call2.c main_call2.v0 (broadcastInDim S2 ![] bcast_S_S2),
    StableHlo.TRef.binary (.of main_v21 : StableHlo.TRef sig ⟨S2, .i32⟩) main_call2.v0 main_call2.v1 (cmpi .ne),
    StableHlo.TRef.ternary main_call2.v1 (.of main_v23 : StableHlo.TRef sig ⟨S2, .i32⟩) (.of main_v16 : StableHlo.TRef sig ⟨S2, .i32⟩) main_call2.v2 select,
    StableHlo.binary main_v17 main_v17 main_v25 (muli : (⟨S_, .i32⟩ : BufTy).Contents (Elt F) → (⟨S_, .i32⟩ : BufTy).Contents (Elt F) → (⟨S_, .i32⟩ : BufTy).Contents (Elt F)),
    StableHlo.nullary main_c_10 (constantI S_ 32 1#32),
    StableHlo.unary main_c_10 main_v26 (broadcastInDim S2 ![] bcast_S_S2 : (⟨S_, .i32⟩ : BufTy).Contents (Elt F) → (⟨S2, .i32⟩ : BufTy).Contents (Elt F)),
    StableHlo.binary main_v19 main_v26 main_v27 (Host.shrui : (⟨S2, .i32⟩ : BufTy).Contents (Elt F) → (⟨S2, .i32⟩ : BufTy).Contents (Elt F) → (⟨S2, .i32⟩ : BufTy).Contents (Elt F)),
    StableHlo.nullary main_c_11 (constantI S_ 32 1#32),
    StableHlo.unary main_c_11 main_v28 (broadcastInDim S2 ![] bcast_S_S2 : (⟨S_, .i32⟩ : BufTy).Contents (Elt F) → (⟨S2, .i32⟩ : BufTy).Contents (Elt F)),
    StableHlo.binary main_v27 main_v28 main_v29 (andi : (⟨S2, .i32⟩ : BufTy).Contents (Elt F) → (⟨S2, .i32⟩ : BufTy).Contents (Elt F) → (⟨S2, .i32⟩ : BufTy).Contents (Elt F)),
    StableHlo.unary main_v25 main_v30 (broadcastInDim S2 ![] bcast_S_S2 : (⟨S_, .i32⟩ : BufTy).Contents (Elt F) → (⟨S2, .i32⟩ : BufTy).Contents (Elt F)),
    StableHlo.binary main_v24 main_v30 main_v31 (muli : (⟨S2, .i32⟩ : BufTy).Contents (Elt F) → (⟨S2, .i32⟩ : BufTy).Contents (Elt F) → (⟨S2, .i32⟩ : BufTy).Contents (Elt F)),
    StableHlo.TRef.nullary main_call3.c (constantI S_ 32 0#32),
    StableHlo.TRef.unary main_call3.c main_call3.v0 (broadcastInDim S2 ![] bcast_S_S2),
    StableHlo.TRef.binary (.of main_v29 : StableHlo.TRef sig ⟨S2, .i32⟩) main_call3.v0 main_call3.v1 (cmpi .ne),
    StableHlo.TRef.ternary main_call3.v1 (.of main_v31 : StableHlo.TRef sig ⟨S2, .i32⟩) (.of main_v24 : StableHlo.TRef sig ⟨S2, .i32⟩) main_call3.v2 select,
    StableHlo.binary main_v25 main_v25 main_v33 (muli : (⟨S_, .i32⟩ : BufTy).Contents (Elt F) → (⟨S_, .i32⟩ : BufTy).Contents (Elt F) → (⟨S_, .i32⟩ : BufTy).Contents (Elt F)),
    StableHlo.nullary main_c_12 (constantI S_ 32 1#32),
    StableHlo.unary main_c_12 main_v34 (broadcastInDim S2 ![] bcast_S_S2 : (⟨S_, .i32⟩ : BufTy).Contents (Elt F) → (⟨S2, .i32⟩ : BufTy).Contents (Elt F)),
    StableHlo.binary main_v27 main_v34 main_v35 (Host.shrui : (⟨S2, .i32⟩ : BufTy).Contents (Elt F) → (⟨S2, .i32⟩ : BufTy).Contents (Elt F) → (⟨S2, .i32⟩ : BufTy).Contents (Elt F)),
    StableHlo.nullary main_c_13 (constantI S_ 32 1#32),
    StableHlo.unary main_c_13 main_v36 (broadcastInDim S2 ![] bcast_S_S2 : (⟨S_, .i32⟩ : BufTy).Contents (Elt F) → (⟨S2, .i32⟩ : BufTy).Contents (Elt F)),
    StableHlo.binary main_v35 main_v36 main_v37 (andi : (⟨S2, .i32⟩ : BufTy).Contents (Elt F) → (⟨S2, .i32⟩ : BufTy).Contents (Elt F) → (⟨S2, .i32⟩ : BufTy).Contents (Elt F)),
    StableHlo.unary main_v33 main_v38 (broadcastInDim S2 ![] bcast_S_S2 : (⟨S_, .i32⟩ : BufTy).Contents (Elt F) → (⟨S2, .i32⟩ : BufTy).Contents (Elt F)),
    StableHlo.binary main_v32 main_v38 main_v39 (muli : (⟨S2, .i32⟩ : BufTy).Contents (Elt F) → (⟨S2, .i32⟩ : BufTy).Contents (Elt F) → (⟨S2, .i32⟩ : BufTy).Contents (Elt F)),
    StableHlo.TRef.nullary main_call4.c (constantI S_ 32 0#32),
    StableHlo.TRef.unary main_call4.c main_call4.v0 (broadcastInDim S2 ![] bcast_S_S2),
    StableHlo.TRef.binary (.of main_v37 : StableHlo.TRef sig ⟨S2, .i32⟩) main_call4.v0 main_call4.v1 (cmpi .ne),
    StableHlo.TRef.ternary main_call4.v1 (.of main_v39 : StableHlo.TRef sig ⟨S2, .i32⟩) (.of main_v32 : StableHlo.TRef sig ⟨S2, .i32⟩) main_call4.v2 select,
    StableHlo.binary main_v33 main_v33 main_v41 (muli : (⟨S_, .i32⟩ : BufTy).Contents (Elt F) → (⟨S_, .i32⟩ : BufTy).Contents (Elt F) → (⟨S_, .i32⟩ : BufTy).Contents (Elt F)),
    StableHlo.nullary main_c_14 (constantI S_ 32 1#32),
    StableHlo.unary main_c_14 main_v42 (broadcastInDim S2 ![] bcast_S_S2 : (⟨S_, .i32⟩ : BufTy).Contents (Elt F) → (⟨S2, .i32⟩ : BufTy).Contents (Elt F)),
    StableHlo.binary main_v35 main_v42 main_v43 (Host.shrui : (⟨S2, .i32⟩ : BufTy).Contents (Elt F) → (⟨S2, .i32⟩ : BufTy).Contents (Elt F) → (⟨S2, .i32⟩ : BufTy).Contents (Elt F)) ]

/-- The second stretch: the rest of the squaring chain, the weighted sum over the pair, and the table look-up. -/
abbrev opsB : List (HloOp τ sig (Elt F)) :=
  [ StableHlo.nullary main_c_15 (constantI S_ 32 1#32),
    StableHlo.unary main_c_15 main_v44 (broadcastInDim S2 ![] bcast_S_S2 : (⟨S_, .i32⟩ : BufTy).Contents (Elt F) → (⟨S2, .i32⟩ : BufTy).Contents (Elt F)),
    StableHlo.binary main_v43 main_v44 main_v45 (andi : (⟨S2, .i32⟩ : BufTy).Contents (Elt F) → (⟨S2, .i32⟩ : BufTy).Contents (Elt F) → (⟨S2, .i32⟩ : BufTy).Contents (Elt F)),
    StableHlo.unary main_v41 main_v46 (broadcastInDim S2 ![] bcast_S_S2 : (⟨S_, .i32⟩ : BufTy).Contents (Elt F) → (⟨S2, .i32⟩ : BufTy).Contents (Elt F)),
    StableHlo.binary main_v40 main_v46 main_v47 (muli : (⟨S2, .i32⟩ : BufTy).Contents (Elt F) → (⟨S2, .i32⟩ : BufTy).Contents (Elt F) → (⟨S2, .i32⟩ : BufTy).Contents (Elt F)),
    StableHlo.TRef.nullary main_call5.c (constantI S_ 32 0#32),
    StableHlo.TRef.unary main_call5.c main_call5.v0 (broadcastInDim S2 ![] bcast_S_S2),
    StableHlo.TRef.binary (.of main_v45 : StableHlo.TRef sig ⟨S2, .i32⟩) main_call5.v0 main_call5.v1 (cmpi .ne),
    StableHlo.TRef.ternary main_call5.v1 (.of main_v47 : StableHlo.TRef sig ⟨S2, .i32⟩) (.of main_v40 : StableHlo.TRef sig ⟨S2, .i32⟩) main_call5.v2 select,
    StableHlo.binary main_v41 main_v41 main_v49 (muli : (⟨S_, .i32⟩ : BufTy).Contents (Elt F) → (⟨S_, .i32⟩ : BufTy).Contents (Elt F) → (⟨S_, .i32⟩ : BufTy).Contents (Elt F)),
    StableHlo.nullary main_c_16 (constantI S_ 32 1#32),
    StableHlo.unary main_c_16 main_v50 (broadcastInDim S2 ![] bcast_S_S2 : (⟨S_, .i32⟩ : BufTy).Contents (Elt F) → (⟨S2, .i32⟩ : BufTy).Contents (Elt F)),
    StableHlo.binary main_v43 main_v50 main_v51 (Host.shrui : (⟨S2, .i32⟩ : BufTy).Contents (Elt F) → (⟨S2, .i32⟩ : BufTy).Contents (Elt F) → (⟨S2, .i32⟩ : BufTy).Contents (Elt F)),
    StableHlo.nullary main_c_17 (constantI S_ 32 1#32),
    StableHlo.unary main_c_17 main_v52 (broadcastInDim S2 ![] bcast_S_S2 : (⟨S_, .i32⟩ : BufTy).Contents (Elt F) → (⟨S2, .i32⟩ : BufTy).Contents (Elt F)),
    StableHlo.binary main_v51 main_v52 main_v53 (andi : (⟨S2, .i32⟩ : BufTy).Contents (Elt F) → (⟨S2, .i32⟩ : BufTy).Contents (Elt F) → (⟨S2, .i32⟩ : BufTy).Contents (Elt F)),
    StableHlo.unary main_v49 main_v54 (broadcastInDim S2 ![] bcast_S_S2 : (⟨S_, .i32⟩ : BufTy).Contents (Elt F) → (⟨S2, .i32⟩ : BufTy).Contents (Elt F)),
    StableHlo.binary main_v48 main_v54 main_v55 (muli : (⟨S2, .i32⟩ : BufTy).Contents (Elt F) → (⟨S2, .i32⟩ : BufTy).Contents (Elt F) → (⟨S2, .i32⟩ : BufTy).Contents (Elt F)),
    StableHlo.TRef.nullary main_call6.c (constantI S_ 32 0#32),
    StableHlo.TRef.unary main_call6.c main_call6.v0 (broadcastInDim S2 ![] bcast_S_S2),
    StableHlo.TRef.binary (.of main_v53 : StableHlo.TRef sig ⟨S2, .i32⟩) main_call6.v0 main_call6.v1 (cmpi .ne),
    StableHlo.TRef.ternary main_call6.v1 (.of main_v55 : StableHlo.TRef sig ⟨S2, .i32⟩) (.of main_v48 : StableHlo.TRef sig ⟨S2, .i32⟩) main_call6.v2 select,
    StableHlo.binary main_v49 main_v49 main_v57 (muli : (⟨S_, .i32⟩ : BufTy).Contents (Elt F) → (⟨S_, .i32⟩ : BufTy).Contents (Elt F) → (⟨S_, .i32⟩ : BufTy).Contents (Elt F)),
    StableHlo.nullary main_c_18 (constantI S_ 32 1#32),
    StableHlo.unary main_c_18 main_v58 (broadcastInDim S2 ![] bcast_S_S2 : (⟨S_, .i32⟩ : BufTy).Contents (Elt F) → (⟨S2, .i32⟩ : BufTy).Contents (Elt F)),
    StableHlo.binary main_v51 main_v58 main_v59 (Host.shrui : (⟨S2, .i32⟩ : BufTy).Contents (Elt F) → (⟨S2, .i32⟩ : BufTy).Contents (Elt F) → (⟨S2, .i32⟩ : BufTy).Contents (Elt F)),
    StableHlo.unary main_v56 main_v60 (broadcastInDim S1x1x2 ![2] bcast_S2_S1x1x2_2 : (⟨S2, .i32⟩ : BufTy).Contents (Elt F) → (⟨S1x1x2, .i32⟩ : BufTy).Contents (Elt F)),
    StableHlo.unary main_v60 main_v61 (broadcastInDim S4096x200x2 ![0, 1, 2] bcast_S1x1x2_S4096x200x2_0_1_2 : (⟨S1x1x2, .i32⟩ : BufTy).Contents (Elt F) → (⟨S4096x200x2, .i32⟩ : BufTy).Contents (Elt F)),
    StableHlo.binary main_v4 main_v61 main_v62 (muli : (⟨S4096x200x2, .i32⟩ : BufTy).Contents (Elt F) → (⟨S4096x200x2, .i32⟩ : BufTy).Contents (Elt F) → (⟨S4096x200x2, .i32⟩ : BufTy).Contents (Elt F)),
    StableHlo.nullary main_c_19 (constantI S_ 32 0#32),
    StableHlo.binary main_v62 main_c_19 main_v63 ((fun x v => Host.reduce IntOp.addi x v reducesTo_S4096x200x2_S4096x200_d2 h_S_) : (⟨S4096x200x2, .i32⟩ : BufTy).Contents (Elt F) → (⟨S_, .i32⟩ : BufTy).Contents (Elt F) → (⟨S4096x200, .i32⟩ : BufTy).Contents (Elt F)),
    StableHlo.TRef.nullary main_call7.c (constantI S_ 32 0#32),
    StableHlo.TRef.unary main_call7.c main_call7.v0 (broadcastInDim S4096x200 ![] bcast_S_S4096x200),
    StableHlo.TRef.binary (.of main_v63 : StableHlo.TRef sig ⟨S4096x200, .i32⟩) main_call7.v0 main_call7.v1 (cmpi .slt),
    StableHlo.TRef.nullary main_call7.c_0 (constantI S_ 32 4#32),
    StableHlo.TRef.unary main_call7.c_0 main_call7.v2 (broadcastInDim S4096x200 ![] bcast_S_S4096x200),
    StableHlo.TRef.binary (.of main_v63 : StableHlo.TRef sig ⟨S4096x200, .i32⟩) main_call7.v2 main_call7.v3 addi,
    StableHlo.TRef.ternary main_call7.v1 main_call7.v3 (.of main_v63 : StableHlo.TRef sig ⟨S4096x200, .i32⟩) main_call7.call0.v0 select,
    StableHlo.TRef.unary main_call7.call0.v0 main_call7.v5 (broadcastInDim S4096x200x1 ![0, 1] bcast_S4096x200_S4096x200x1_0_1),
    StableHlo.TRef.nullary main_call7.c_1 (constantI S1 32 3#32),
    StableHlo.TRef.nullary main_call7.c_2 (constantI S_ 32 0#32),
    StableHlo.TRef.unary main_call7.c_2 main_call7.v6 (broadcastInDim S4096x200x1 ![] bcast_S_S4096x200x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S4096x200x1 ![0, 1, 2] bcast_S1x1x1_S4096x200x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S4096x200x1_S4096x200_d2 h_S_),
    StableHlo.TRef.binary (.of main_arg1 : StableHlo.TRef sig ⟨S4x64, .f32⟩) main_call7.v5 main_call7.v13 (fun x i => Host.gather gather_S4x64_S4096x200x1_S4096x200x64_2_0_n_n_0_2_164 x i),
    StableHlo.TRef.unary main_call7.v12 main_call7.v14 (broadcastInDim S4096x200x64 ![0, 1] bcast_S4096x200_S4096x200x64_0_1),
    StableHlo.TRef.nullary main_call7.cst (constant S_ .f32 0x7FC00000#32),
    StableHlo.TRef.unary main_call7.cst main_call7.v15 (broadcastInDim S4096x200x64 ![] bcast_S_S4096x200x64),
    StableHlo.TRef.ternary main_call7.v14 main_call7.v13 main_call7.v15 main_call7.v16 select ]

set_option maxRecDepth 8192 in
set_option maxHeartbeats 4000000 in
/-- The first stretch of the entry function is that line: the called functions unfolded where they are called,
    and sequencing re-associated. -/
theorem partA_eq (c : Dev nD) : main_part0 (F := F) c = seq opsA := by
  simp only [main_part0, fn_where.body, fn_where_0.body, seq, bind_assoc, pure_bind]
  rfl

set_option maxRecDepth 8192 in
set_option maxHeartbeats 4000000 in
/-- The second stretch likewise. -/
theorem partB_eq (c : Dev nD) : main_part1 (F := F) c = seq opsB := by
  simp only [main_part1, fn_where_0.body, fn_where_1.body, fn_take.body, seq, bind_assoc, pure_bind]

/-- All the operations, in order. -/
abbrev ops : List (HloOp τ sig (Elt F)) := opsA ++ opsB

/-- The entry function is the whole line. -/
theorem main_eq (c : Dev nD) : main (F := F) c = seq ops := by
  rw [seq_append, ← partA_eq c, ← partB_eq c]; rfl

theorem scopedRefs_eq : (Finset.univ.filter fun b : Ref sig .tc => b.isScoped) = ∅ := by decide
theorem scopedSems_eq : (Finset.univ.filter fun sm : SemLoc sig => sm.isScoped .tc) = ∅ := by decide

/-- Every operation of the first stretch touches buffers of the device only. -/
theorem opsA_sub : (opsA : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub .., nullary_bufs_sub .., binary_bufs_sub .., nullary_bufs_sub .., unary_bufs_sub .., binary_bufs_sub ..,
    unary_bufs_sub .., binary_bufs_sub .., nullary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., nullary_bufs_sub ..,
    nullary_bufs_sub .., binary_bufs_sub .., nullary_bufs_sub .., unary_bufs_sub .., binary_bufs_sub .., nullary_bufs_sub ..,
    unary_bufs_sub .., binary_bufs_sub .., unary_bufs_sub .., binary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., unary_bufs_sub .., binary_bufs_sub .., nullary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., unary_bufs_sub .., binary_bufs_sub ..,
    nullary_bufs_sub .., unary_bufs_sub .., binary_bufs_sub .., ternary_bufs_sub .., binary_bufs_sub .., nullary_bufs_sub ..,
    unary_bufs_sub .., binary_bufs_sub ..⟩

/-- Every operation of the second stretch touches buffers of the device only. -/
theorem opsB_sub : (opsB : List (HloOp τ sig (Elt F))).Forall fun op => op.bufs ⊆ tcRefs τ sig :=
  ⟨nullary_bufs_sub .., unary_bufs_sub .., binary_bufs_sub .., unary_bufs_sub .., binary_bufs_sub .., nullary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., unary_bufs_sub .., binary_bufs_sub ..,
    nullary_bufs_sub .., unary_bufs_sub .., binary_bufs_sub .., ternary_bufs_sub .., binary_bufs_sub .., nullary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

theorem ops_sub : (ops : List (HloOp τ sig (Elt F))).Forall fun op => op.bufs ⊆ tcRefs τ sig :=
  List.forall_append.2 ⟨opsA_sub, opsB_sub⟩

/-- The buffers after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- No operation of the line allocates: each determines its results. -/
theorem ops_fresh : ∀ op ∈ (ops : List (HloOp τ sig (Elt F))), op.fresh = ∅ := by
  intro op h
  rcases List.mem_append.1 h with h | h
  · (repeat (cases h with | head => rfl | tail _ h => ?_)); exact nomatch h
  · (repeat (cases h with | head => rfl | tail _ h => ?_)); exact nomatch h

/-- On every device, for any float values, from any memory with zero counters: every weakly fair execution of
    the entry function terminates, and every buffer of the device ends at the fold of the operations' results
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStages.lean ====
/-
  The reference's arithmetic, stage by stage, as pure functions of its two arguments.

  Stage one builds the weight vector (2⁰, 2¹) with no reference to the arguments: starting from the vector of
  ones it walks the bits of the exponents (0, 1), multiplying entry k by the current square of 2 whenever the
  current bit of k is set; only the lowest bit of the exponent 1 ever is, so the result is (1, 2).  Stage two
  pairs, site by site, the "up" word with the "down" word of a row, multiplies the pair by the weights and sums
  it: the site's token up + 2 · down.  Stage three looks the token up in the table, after shifting a negative
  token up by the number of rows and masking a token outside 0 … 3 by a junk value; on tokens that ARE in
  0 … 3 neither correction does anything, and the look-up returns the token's row.
-/
import proofs.«206263_g65532611002545_cont_9to1c4b_62_29_alg».proof.ReferenceIdeal
import proofs.«206263_g65532611002545_cont_9to1c4b_62_29_alg».proof.Proof.Gen.ReferenceIdeal
import Idealize.ShloMosaic.Lib.Pipeline.Value
import Idealize.ShloMosaic.Lib.ValueIdx
import Idealize.ShloMosaic.PureOps.Reduce

noncomputable section

namespace Cert.ReferenceIdeal.RefStages

open Cert.ReferenceIdeal Cert.ReferenceIdeal.Facts₀ Idealize.ShloMosaic Idealize.ShloMosaic.ValueIdx

variable {F : FTy → Type} [FloatOps F]

/-! ## The stages -/

/-! Stage one, step by step.  The exponents are (0, 1); at each step the lowest bit of the (shifted) exponents decides,
entry by entry, whether the running product is multiplied by the current square of the base 2, then the exponents are
shifted right and the square is squared.  Only the first step finds a bit set (in the exponent 1). -/

/-- One step of the squaring chain — the exponents (0, 1) —, from the values the step starts with. -/
def step_v5 : IVec S2 32 :=
  let main_v5 : IVec S2 32 := (iotaInDim S2 32 0)
  main_v5

/-- One step of the squaring chain — the running product after the lowest bit of the exponents: (1, 2) —, from the values the step starts with. -/
def step_v16 : IVec S2 32 :=
  let main_v5 : IVec S2 32 := (iotaInDim S2 32 0)
  let main_c : IVec S_ 32 := (constantI S_ 32 2#32)
  let main_c_0 : IVec S_ 32 := (constantI S_ 32 0#32)
  let main_v6 : IVec S_ 1 := (cmpi .eq : IVec S_ 32 → IVec S_ 32 → IVec S_ 1) main_c main_c_0
  let main_c_1 : IVec S_ 32 := (constantI S_ 32 0#32)
  let main_v7 : IVec S2 32 := (broadcastInDim S2 ![] bcast_S_S2 : IVec S_ 32 → IVec S2 32) main_c_1
  let main_v8 : IVec S2 1 := (cmpi .ne : IVec S2 32 → IVec S2 32 → IVec S2 1) main_v5 main_v7
  let main_v9 : IVec S2 1 := (broadcastInDim S2 ![] bcast_S_S2 : IVec S_ 1 → IVec S2 1) main_v6
  let main_v10 : IVec S2 1 := (andi : IVec S2 1 → IVec S2 1 → IVec S2 1) main_v9 main_v8
  let main_c_2 : IVec S_ 32 := (constantI S_ 32 0#32)
  let main_c_3 : IVec S_ 32 := (constantI S_ 32 1#32)
  let main_call0_v0 : IVec S2 32 := (broadcastInDim S2 ![] bcast_S_S2) main_c_2
  let main_call0_v1 : IVec S2 32 := (broadcastInDim S2 ![] bcast_S_S2) main_c_3
  let main_v11 : IVec S2 32 := select main_v10 main_call0_v0 main_call0_v1
  let main_c_4 : IVec S_ 32 := (constantI S_ 32 1#32)
  let main_v12 : IVec S2 32 := (broadcastInDim S2 ![] bcast_S_S2 : IVec S_ 32 → IVec S2 32) main_c_4
  let main_v13 : IVec S2 32 := (andi : IVec S2 32 → IVec S2 32 → IVec S2 32) main_v5 main_v12
  let main_c_5 : IVec S_ 32 := (constantI S_ 32 2#32)
  let main_v14 : IVec S2 32 := (broadcastInDim S2 ![] bcast_S_S2 : IVec S_ 32 → IVec S2 32) main_c_5
  let main_v15 : IVec S2 32 := (muli : IVec S2 32 → IVec S2 32 → IVec S2 32) main_v11 main_v14
  let main_call1_c : IVec S_ 32 := (constantI S_ 32 0#32)
  let main_call1_v0 : IVec S2 32 := (broadcastInDim S2 ![] bcast_S_S2) main_call1_c
  let main_call1_v1 : IVec S2 1 := (cmpi .ne) main_v13 main_call1_v0
  let main_v16 : IVec S2 32 := select main_call1_v1 main_v15 main_v11
  main_v16

/-- One step of the squaring chain — the base squared once —, from the values the step starts with. -/
def step_v17 : IVec S_ 32 :=
  let main_c_6 : IVec S_ 32 := (constantI S_ 32 2#32)
  let main_c_7 : IVec S_ 32 := (constantI S_ 32 2#32)
  let main_v17 : IVec S_ 32 := (muli : IVec S_ 32 → IVec S_ 32 → IVec S_ 32) main_c_6 main_c_7
  main_v17

/-- One step of the squaring chain — the exponents shifted right once —, from the values the step starts with. -/
def step_v19 (main_v5 : IVec S2 32) : IVec S2 32 :=
  let main_c_8 : IVec S_ 32 := (constantI S_ 32 1#32)
  let main_v18 : IVec S2 32 := (broadcastInDim S2 ![] bcast_S_S2 : IVec S_ 32 → IVec S2 32) main_c_8
  let main_v19 : IVec S2 32 := (Host.shrui : IVec S2 32 → IVec S2 32 → IVec S2 32) main_v5 main_v18
  main_v19

/-- One step of the squaring chain — the running product after the second bit —, from the values the step starts with. -/
def step_v24 (main_v5 : IVec S2 32) (main_v16 : IVec S2 32) : IVec S2 32 :=
  let main_c_6 : IVec S_ 32 := (constantI S_ 32 2#32)
  let main_c_7 : IVec S_ 32 := (constantI S_ 32 2#32)
  let main_v17 : IVec S_ 32 := (muli : IVec S_ 32 → IVec S_ 32 → IVec S_ 32) main_c_6 main_c_7
  let main_c_8 : IVec S_ 32 := (constantI S_ 32 1#32)
  let main_v18 : IVec S2 32 := (broadcastInDim S2 ![] bcast_S_S2 : IVec S_ 32 → IVec S2 32) main_c_8
  let main_v19 : IVec S2 32 := (Host.shrui : IVec S2 32 → IVec S2 32 → IVec S2 32) main_v5 main_v18
  let main_c_9 : IVec S_ 32 := (constantI S_ 32 1#32)
  let main_v20 : IVec S2 32 := (broadcastInDim S2 ![] bcast_S_S2 : IVec S_ 32 → IVec S2 32) main_c_9
  let main_v21 : IVec S2 32 := (andi : IVec S2 32 → IVec S2 32 → IVec S2 32) main_v19 main_v20
  let main_v22 : IVec S2 32 := (broadcastInDim S2 ![] bcast_S_S2 : IVec S_ 32 → IVec S2 32) main_v17
  let main_v23 : IVec S2 32 := (muli : IVec S2 32 → IVec S2 32 → IVec S2 32) main_v16 main_v22
  let main_call2_c : IVec S_ 32 := (constantI S_ 32 0#32)
  let main_call2_v0 : IVec S2 32 := (broadcastInDim S2 ![] bcast_S_S2) main_call2_c
  let main_call2_v1 : IVec S2 1 := (cmpi .ne) main_v21 main_call2_v0
  let main_v24 : IVec S2 32 := select main_call2_v1 main_v23 main_v16
  main_v24

/-- One step of the squaring chain — the base squared twice —, from the values the step starts with. -/
def step_v25 (main_v17 : IVec S_ 32) : IVec S_ 32 :=
  let main_v25 : IVec S_ 32 := (muli : IVec S_ 32 → IVec S_ 32 → IVec S_ 32) main_v17 main_v17
  main_v25

/-- One step of the squaring chain — the exponents shifted right twice —, from the values the step starts with. -/
def step_v27 (main_v19 : IVec S2 32) : IVec S2 32 :=
  let main_c_10 : IVec S_ 32 := (constantI S_ 32 1#32)
  let main_v26 : IVec S2 32 := (broadcastInDim S2 ![] bcast_S_S2 : IVec S_ 32 → IVec S2 32) main_c_10
  let main_v27 : IVec S2 32 := (Host.shrui : IVec S2 32 → IVec S2 32 → IVec S2 32) main_v19 main_v26
  main_v27

/-- One step of the squaring chain — the running product after the third bit —, from the values the step starts with. -/
def step_v32 (main_v17 : IVec S_ 32) (main_v19 : IVec S2 32) (main_v24 : IVec S2 32) : IVec S2 32 :=
  let main_v25 : IVec S_ 32 := (muli : IVec S_ 32 → IVec S_ 32 → IVec S_ 32) main_v17 main_v17
  let main_c_10 : IVec S_ 32 := (constantI S_ 32 1#32)
  let main_v26 : IVec S2 32 := (broadcastInDim S2 ![] bcast_S_S2 : IVec S_ 32 → IVec S2 32) main_c_10
  let main_v27 : IVec S2 32 := (Host.shrui : IVec S2 32 → IVec S2 32 → IVec S2 32) main_v19 main_v26
  let main_c_11 : IVec S_ 32 := (constantI S_ 32 1#32)
  let main_v28 : IVec S2 32 := (broadcastInDim S2 ![] bcast_S_S2 : IVec S_ 32 → IVec S2 32) main_c_11
  let main_v29 : IVec S2 32 := (andi : IVec S2 32 → IVec S2 32 → IVec S2 32) main_v27 main_v28
  let main_v30 : IVec S2 32 := (broadcastInDim S2 ![] bcast_S_S2 : IVec S_ 32 → IVec S2 32) main_v25
  let main_v31 : IVec S2 32 := (muli : IVec S2 32 → IVec S2 32 → IVec S2 32) main_v24 main_v30
  let main_call3_c : IVec S_ 32 := (constantI S_ 32 0#32)
  let main_call3_v0 : IVec S2 32 := (broadcastInDim S2 ![] bcast_S_S2) main_call3_c
  let main_call3_v1 : IVec S2 1 := (cmpi .ne) main_v29 main_call3_v0
  let main_v32 : IVec S2 32 := select main_call3_v1 main_v31 main_v24
  main_v32

/-- One step of the squaring chain — the base squared three times —, from the values the step starts with. -/
def step_v33 (main_v25 : IVec S_ 32) : IVec S_ 32 :=
  let main_v33 : IVec S_ 32 := (muli : IVec S_ 32 → IVec S_ 32 → IVec S_ 32) main_v25 main_v25
  main_v33

/-- One step of the squaring chain — the exponents shifted right three times —, from the values the step starts with. -/
def step_v35 (main_v27 : IVec S2 32) : IVec S2 32 :=
  let main_c_12 : IVec S_ 32 := (constantI S_ 32 1#32)
  let main_v34 : IVec S2 32 := (broadcastInDim S2 ![] bcast_S_S2 : IVec S_ 32 → IVec S2 32) main_c_12
  let main_v35 : IVec S2 32 := (Host.shrui : IVec S2 32 → IVec S2 32 → IVec S2 32) main_v27 main_v34
  main_v35

/-- One step of the squaring chain — the running product after the fourth bit —, from the values the step starts with. -/
def step_v40 (main_v25 : IVec S_ 32) (main_v27 : IVec S2 32) (main_v32 : IVec S2 32) : IVec S2 32 :=
  let main_v33 : IVec S_ 32 := (muli : IVec S_ 32 → IVec S_ 32 → IVec S_ 32) main_v25 main_v25
  let main_c_12 : IVec S_ 32 := (constantI S_ 32 1#32)
  let main_v34 : IVec S2 32 := (broadcastInDim S2 ![] bcast_S_S2 : IVec S_ 32 → IVec S2 32) main_c_12
  let main_v35 : IVec S2 32 := (Host.shrui : IVec S2 32 → IVec S2 32 → IVec S2 32) main_v27 main_v34
  let main_c_13 : IVec S_ 32 := (constantI S_ 32 1#32)
  let main_v36 : IVec S2 32 := (broadcastInDim S2 ![] bcast_S_S2 : IVec S_ 32 → IVec S2 32) main_c_13
  let main_v37 : IVec S2 32 := (andi : IVec S2 32 → IVec S2 32 → IVec S2 32) main_v35 main_v36
  let main_v38 : IVec S2 32 := (broadcastInDim S2 ![] bcast_S_S2 : IVec S_ 32 → IVec S2 32) main_v33
  let main_v39 : IVec S2 32 := (muli : IVec S2 32 → IVec S2 32 → IVec S2 32) main_v32 main_v38
  let main_call4_c : IVec S_ 32 := (constantI S_ 32 0#32)
  let main_call4_v0 : IVec S2 32 := (broadcastInDim S2 ![] bcast_S_S2) main_call4_c
  let main_call4_v1 : IVec S2 1 := (cmpi .ne) main_v37 main_call4_v0
  let main_v40 : IVec S2 32 := select main_call4_v1 main_v39 main_v32
  main_v40

/-- One step of the squaring chain — the base squared four times —, from the values the step starts with. -/
def step_v41 (main_v33 : IVec S_ 32) : IVec S_ 32 :=
  let main_v41 : IVec S_ 32 := (muli : IVec S_ 32 → IVec S_ 32 → IVec S_ 32) main_v33 main_v33
  main_v41

/-- One step of the squaring chain — the exponents shifted right four times —, from the values the step starts with. -/
def step_v43 (main_v35 : IVec S2 32) : IVec S2 32 :=
  let main_c_14 : IVec S_ 32 := (constantI S_ 32 1#32)
  let main_v42 : IVec S2 32 := (broadcastInDim S2 ![] bcast_S_S2 : IVec S_ 32 → IVec S2 32) main_c_14
  let main_v43 : IVec S2 32 := (Host.shrui : IVec S2 32 → IVec S2 32 → IVec S2 32) main_v35 main_v42
  main_v43

/-- One step of the squaring chain — the running product after the fifth bit —, from the values the step starts with. -/
def step_v48 (main_v33 : IVec S_ 32) (main_v35 : IVec S2 32) (main_v40 : IVec S2 32) : IVec S2 32 :=
  let main_v41 : IVec S_ 32 := (muli : IVec S_ 32 → IVec S_ 32 → IVec S_ 32) main_v33 main_v33
  let main_c_14 : IVec S_ 32 := (constantI S_ 32 1#32)
  let main_v42 : IVec S2 32 := (broadcastInDim S2 ![] bcast_S_S2 : IVec S_ 32 → IVec S2 32) main_c_14
  let main_v43 : IVec S2 32 := (Host.shrui : IVec S2 32 → IVec S2 32 → IVec S2 32) main_v35 main_v42
  let main_c_15 : IVec S_ 32 := (constantI S_ 32 1#32)
  let main_v44 : IVec S2 32 := (broadcastInDim S2 ![] bcast_S_S2 : IVec S_ 32 → IVec S2 32) main_c_15
  let main_v45 : IVec S2 32 := (andi : IVec S2 32 → IVec S2 32 → IVec S2 32) main_v43 main_v44
  let main_v46 : IVec S2 32 := (broadcastInDim S2 ![] bcast_S_S2 : IVec S_ 32 → IVec S2 32) main_v41
  let main_v47 : IVec S2 32 := (muli : IVec S2 32 → IVec S2 32 → IVec S2 32) main_v40 main_v46
  let main_call5_c : IVec S_ 32 := (constantI S_ 32 0#32)
  let main_call5_v0 : IVec S2 32 := (broadcastInDim S2 ![] bcast_S_S2) main_call5_c
  let main_call5_v1 : IVec S2 1 := (cmpi .ne) main_v45 main_call5_v0
  let main_v48 : IVec S2 32 := select main_call5_v1 main_v47 main_v40
  main_v48

/-- One step of the squaring chain — the running product after the sixth bit: the weights —, from the values the step starts with. -/
def step_v56 (main_v41 : IVec S_ 32) (main_v43 : IVec S2 32) (main_v48 : IVec S2 32) : IVec S2 32 :=
  let main_v49 : IVec S_ 32 := (muli : IVec S_ 32 → IVec S_ 32 → IVec S_ 32) main_v41 main_v41
  let main_c_16 : IVec S_ 32 := (constantI S_ 32 1#32)
  let main_v50 : IVec S2 32 := (broadcastInDim S2 ![] bcast_S_S2 : IVec S_ 32 → IVec S2 32) main_c_16
  let main_v51 : IVec S2 32 := (Host.shrui : IVec S2 32 → IVec S2 32 → IVec S2 32) main_v43 main_v50
  let main_c_17 : IVec S_ 32 := (constantI S_ 32 1#32)
  let main_v52 : IVec S2 32 := (broadcastInDim S2 ![] bcast_S_S2 : IVec S_ 32 → IVec S2 32) main_c_17
  let main_v53 : IVec S2 32 := (andi : IVec S2 32 → IVec S2 32 → IVec S2 32) main_v51 main_v52
  let main_v54 : IVec S2 32 := (broadcastInDim S2 ![] bcast_S_S2 : IVec S_ 32 → IVec S2 32) main_v49
  let main_v55 : IVec S2 32 := (muli : IVec S2 32 → IVec S2 32 → IVec S2 32) main_v48 main_v54
  let main_call6_c : IVec S_ 32 := (constantI S_ 32 0#32)
  let main_call6_v0 : IVec S2 32 := (broadcastInDim S2 ![] bcast_S_S2) main_call6_c
  let main_call6_v1 : IVec S2 1 := (cmpi .ne) main_v53 main_call6_v0
  let main_v56 : IVec S2 32 := select main_call6_v1 main_v55 main_v48
  main_v56

/-- The exponents (0, 1), as a closed vector. -/
def at_v5 : IVec S2 32 := step_v5
/-- The running product after the lowest bit of the exponents: (1, 2), as a closed vector. -/
def at_v16 : IVec S2 32 := step_v16
/-- The base squared once, as a closed vector. -/
def at_v17 : IVec S_ 32 := step_v17
/-- The exponents shifted right once, as a closed vector. -/
def at_v19 : IVec S2 32 := step_v19 at_v5
/-- The running product after the second bit, as a closed vector. -/
def at_v24 : IVec S2 32 := step_v24 at_v5 at_v16
/-- The base squared twice, as a closed vector. -/
def at_v25 : IVec S_ 32 := step_v25 at_v17
/-- The exponents shifted right twice, as a closed vector. -/
def at_v27 : IVec S2 32 := step_v27 at_v19
/-- The running product after the third bit, as a closed vector. -/
def at_v32 : IVec S2 32 := step_v32 at_v17 at_v19 at_v24
/-- The base squared three times, as a closed vector. -/
def at_v33 : IVec S_ 32 := step_v33 at_v25
/-- The exponents shifted right three times, as a closed vector. -/
def at_v35 : IVec S2 32 := step_v35 at_v27
/-- The running product after the fourth bit, as a closed vector. -/
def at_v40 : IVec S2 32 := step_v40 at_v25 at_v27 at_v32
/-- The base squared four times, as a closed vector. -/
def at_v41 : IVec S_ 32 := step_v41 at_v33
/-- The exponents shifted right four times, as a closed vector. -/
def at_v43 : IVec S2 32 := step_v43 at_v35
/-- The running product after the fifth bit, as a closed vector. -/
def at_v48 : IVec S2 32 := step_v48 at_v33 at_v35 at_v40
/-- The running product after the sixth bit: the weights, as a closed vector. -/
def at_v56 : IVec S2 32 := step_v56 at_v41 at_v43 at_v48

/-- Stage one: the weight vector. -/
def weights : IVec S2 32 := at_v56

/-- The occupation words paired site by site: entry (b, s, 0) is the "up" word of site s of row b (column 200 + s),
    entry (b, s, 1) its "down" word (column s). -/
def pairs (main_arg0 : IVec S4096x400 32) : IVec S4096x200x2 32 :=
  let main_v0 : IVec S4096x200 32 := ((extractStridedSlice S4096x200 ![0, 0] · slices_S4096x400_S4096x200_0_0) : IVec S4096x400 32 → IVec S4096x200 32) main_arg0
  let main_v1 : IVec S4096x200 32 := ((extractStridedSlice S4096x200 ![0, 200] · slices_S4096x400_S4096x200_0_200) : IVec S4096x400 32 → IVec S4096x200 32) main_arg0
  let main_v2 : IVec S4096x200x1 32 := (broadcastInDim S4096x200x1 ![0, 1] bcast_S4096x200_S4096x200x1_0_1 : IVec S4096x200 32 → IVec S4096x200x1 32) main_v1
  let main_v3 : IVec S4096x200x1 32 := (broadcastInDim S4096x200x1 ![0, 1] bcast_S4096x200_S4096x200x1_0_1 : IVec S4096x200 32 → IVec S4096x200x1 32) main_v0
  let main_v4 : IVec S4096x200x2 32 := ((fun a b => concatenate S4096x200x2 2 [⟨S4096x200x1, a⟩, ⟨S4096x200x1, b⟩] concatenates_S4096x200x1_S4096x200x1_S4096x200x2_d2) : IVec S4096x200x1 32 → IVec S4096x200x1 32 → IVec S4096x200x2 32) main_v2 main_v3
  main_v4

/-- The weight vector repeated at every row and site. -/
def wide (main_v56 : IVec S2 32) : IVec S4096x200x2 32 :=
  let main_v60 : IVec S1x1x2 32 := (broadcastInDim S1x1x2 ![2] bcast_S2_S1x1x2_2 : IVec S2 32 → IVec S1x1x2 32) main_v56
  let main_v61 : IVec S4096x200x2 32 := (broadcastInDim S4096x200x2 ![0, 1, 2] bcast_S1x1x2_S4096x200x2_0_1_2 : IVec S1x1x2 32 → IVec S4096x200x2 32) main_v60
  main_v61

/-- Stage two: per row and site, the sum over the pair of word times weight. -/
def toks (main_v4 main_v61 : IVec S4096x200x2 32) : IVec S4096x200 32 :=
  let main_v62 : IVec S4096x200x2 32 := (muli : IVec S4096x200x2 32 → IVec S4096x200x2 32 → IVec S4096x200x2 32) main_v4 main_v61
  let main_c_19 : IVec S_ 32 := (constantI S_ 32 0#32)
  let main_v63 : IVec S4096x200 32 := ((fun x v => Host.reduce IntOp.addi x v reducesTo_S4096x200x2_S4096x200_d2 h_S_) : IVec S4096x200x2 32 → IVec S_ 32 → IVec S4096x200 32) main_v62 main_c_19
  main_v63

/-- A token below zero is shifted up by the number of rows of the table; the result gets a trailing unit axis. -/
def normIdx (main_v63 : IVec S4096x200 32) : IVec S4096x200x1 32 :=
  let main_call7_c : IVec S_ 32 := (constantI S_ 32 0#32)
  let main_call7_v0 : IVec S4096x200 32 := (broadcastInDim S4096x200 ![] bcast_S_S4096x200) main_call7_c
  let main_call7_v1 : IVec S4096x200 1 := (cmpi .slt) main_v63 main_call7_v0
  let main_call7_c_0 : IVec S_ 32 := (constantI S_ 32 4#32)
  let main_call7_v2 : IVec S4096x200 32 := (broadcastInDim S4096x200 ![] bcast_S_S4096x200) main_call7_c_0
  let main_call7_v3 : IVec S4096x200 32 := addi main_v63 main_call7_v2
  let main_call7_v4 : IVec S4096x200 32 := select main_call7_v1 main_call7_v3 main_v63
  let main_call7_v5 : IVec S4096x200x1 32 := (broadcastInDim S4096x200x1 ![0, 1] bcast_S4096x200_S4096x200x1_0_1) main_call7_v4
  main_call7_v5

/-- Whether the shifted token lies in 0 … 3. -/
def inRange (main_call7_v5 : IVec S4096x200x1 32) : IVec S4096x200 1 :=
  let main_call7_c_1 : IVec S1 32 := (constantI S1 32 3#32)
  let main_call7_c_2 : IVec S_ 32 := (constantI S_ 32 0#32)
  let main_call7_v6 : IVec S4096x200x1 32 := (broadcastInDim S4096x200x1 ![] bcast_S_S4096x200x1) main_call7_c_2
  let main_call7_v7 : IVec S4096x200x1 1 := (cmpi .sge) main_call7_v5 main_call7_v6
  let main_call7_v8 : IVec S1x1x1 32 := (broadcastInDim S1x1x1 ![2] bcast_S1_S1x1x1_2) main_call7_c_1
  let main_call7_v9 : IVec S4096x200x1 32 := (broadcastInDim S4096x200x1 ![0, 1, 2] bcast_S1x1x1_S4096x200x1_0_1_2) main_call7_v8
  let main_call7_v10 : IVec S4096x200x1 1 := (cmpi .sle) main_call7_v5 main_call7_v9
  let main_call7_v11 : IVec S4096x200x1 1 := andi main_call7_v7 main_call7_v10
  let main_call7_c_3 : IVec S_ 1 := (constantI S_ 1 1#1)
  let main_call7_v12 : IVec S4096x200 1 := (fun x v => Host.reduce IntOp.andi x v reducesTo_S4096x200x1_S4096x200_d2 h_S_) main_call7_v11 main_call7_c_3
  main_call7_v12

/-- Stage three: the table's row at each shifted token where it lies in 0 … 3, a junk value elsewhere. -/
def takeOut (main_arg1 : FVec F S4x64 .f32) (main_call7_v5 : IVec S4096x200x1 32) (main_call7_v12 : IVec S4096x200 1) :
    FVec F S4096x200x64 .f32 :=
  let main_call7_v13 : FVec F S4096x200x64 .f32 := (fun x i => Host.gather gather_S4x64_S4096x200x1_S4096x200x64_2_0_n_n_0_2_164 x i) main_arg1 main_call7_v5
  let main_call7_v14 : IVec S4096x200x64 1 := (broadcastInDim S4096x200x64 ![0, 1] bcast_S4096x200_S4096x200x64_0_1) main_call7_v12
  let main_call7_cst : FVec F S_ .f32 := (constant (F := F) S_ .f32 0x7FC00000#32)
  let main_call7_v15 : FVec F S4096x200x64 .f32 := (broadcastInDim S4096x200x64 ![] bcast_S_S4096x200x64) main_call7_cst
  let main_v64 : FVec F S4096x200x64 .f32 := select main_call7_v14 main_call7_v13 main_call7_v15
  main_v64

/-- The whole reference as one function of its two arguments. -/
def refOut (n : IVec S4096x400 32) (tab : FVec F S4x64 .f32) : FVec F S4096x200x64 .f32 :=
  takeOut tab (normIdx (toks (pairs n) (wide weights))) (inRange (normIdx (toks (pairs n) (wide weights))))

/-! ## The look-up read at an index -/

section Gather
variable {α : Type}

local notation "GD" => gather_S4x64_S4096x200x1_S4096x200x64_2_0_n_n_0_2_164

/-- The look-up read at (b, s, k): the table at row (the start index at (b, s), read signed and clamped into
    0 … 3) and column k. -/
theorem gather_apply (x : S4x64.Idx → α) (idx : IVec S4096x200x1 32) (b : Fin 4096) (s : Fin 200) (k : Fin 64) :
    Host.gather GD x idx (ix3 b s k)
      = x (ix2 (n0 := 4) (n1 := 64) ⟨min (idx (ix3 b s (0 : Fin 1))).toInt.toNat 3, by omega⟩ k) := by
  unfold Host.gather
  congr 1
  funext a
  refine Fin.ext ?_
  match a with
  | ⟨0, _⟩ =>
    show GatherDims.start GD (ix3 b s k) idx 0 + GatherDims.batchCoord GD (ix3 b s k) 0 + GatherDims.offCoord GD (ix3 b s k) 0 = _
    rw [GatherDims.batchCoord_eq_zero _ _ _ (by decide), GatherDims.offCoord_eq_zero _ _ _ (by decide)]
    simp only [Nat.add_zero]
    unfold GatherDims.start
    rw [dif_pos (by decide)]
    have hsi : GatherDims.siIdx GD (ix3 b s k) ⟨List.idxOf (0 : Fin 2) (GatherDims.startIndexMap GD),
        List.idxOf_lt_length_iff.2 (by decide)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start GD (ix3 b s k) idx 1 + GatherDims.batchCoord GD (ix3 b s k) 1 + GatherDims.offCoord GD (ix3 b s k) 1 = _
    rw [GatherDims.batchCoord_eq_zero _ _ _ (by decide)]
    unfold GatherDims.start
    rw [dif_neg (by decide)]
    unfold GatherDims.offCoord
    rw [dif_pos (by decide)]
    have e : ∃ h, (GatherDims.offsetDims GD)[List.idxOf (1 : Fin S4x64.rank) (GatherDims.sKept GD)]'h
        = (⟨2, by decide⟩ : Fin S4096x200x64.rank) := by decide
    obtain ⟨h, e⟩ := e
    rw [e]
    show 0 + 0 + k.val = k.val
    omega

end Gather

/-! ## Reading the stages at an index -/

/-- A fold over the two coordinates of an axis of extent two. -/
theorem fold_fin_two {α : Type} (op : α → α → α) [Std.Commutative op] [Std.Associative op] (init : α) (g : Fin 2 → α) :
    (Finset.univ : Finset (Fin 2)).fold op init g = op (g 0) (op (g 1) init) := by
  rw [show (Finset.univ : Finset (Fin 2)) = insert 0 {1} from by decide, Finset.fold_insert (by decide), Finset.fold_singleton]

/-- A fold over the one coordinate of an axis of extent one. -/
theorem fold_fin_one {α : Type} (op : α → α → α) [Std.Commutative op] [Std.Associative op] (init : α) (g : Fin 1 → α) :
    (Finset.univ : Finset (Fin 1)).fold op init g = op (g 0) init := by
  rw [show (Finset.univ : Finset (Fin 1)) = {0} from by decide, Finset.fold_singleton]

/-- The first entry of a site's pair is its "up" word: column 200 + s of the row. -/
theorem pairs_up (n : IVec S4096x400 32) (b : Fin 4096) (s : Fin 200) :
    pairs n (ix3 b s (0 : Fin 2)) = n (ix2 b (⟨200 + s.val, by omega⟩ : Fin 400)) := by
  unfold pairs
  dsimp only
  refine (concatenate_pair_apply_left (s₁ := S4096x200x1) (s₂ := S4096x200x1) _ _ _ _ (ix3 b s (0 : Fin 2)) rfl (ix3 b s (0 : Fin 1)) ?_).trans ?_
  · intro c; match c with | ⟨0, _⟩ => rfl | ⟨1, _⟩ => rfl | ⟨2, _⟩ => rfl
  refine (broadcastInDim_apply _ _ _ _ (ix2 b s) ?_).trans ?_
  · intro c; match c with | ⟨0, _⟩ => rfl | ⟨1, _⟩ => rfl
  refine extractStridedSlice_apply _ _ _ _ _ ?_
  intro c; match c with | ⟨0, _⟩ => (show b.val = 0 + b.val; omega) | ⟨1, _⟩ => rfl

/-- The second entry of a site's pair is its "down" word: column s of the row. -/
theorem pairs_down (n : IVec S4096x400 32) (b : Fin 4096) (s : Fin 200) :
    pairs n (ix3 b s (1 : Fin 2)) = n (ix2 b (⟨s.val, by omega⟩ : Fin 400)) := by
  unfold pairs
  dsimp only
  refine (concatenate_pair_apply_right (s₁ := S4096x200x1) (s₂ := S4096x200x1) _ _ _ _ (ix3 b s (1 : Fin 2)) rfl rfl (ix3 b s (0 : Fin 1)) ?_ ?_).trans ?_
  · intro c hc; match c, hc with | ⟨0, _⟩, _ => rfl | ⟨1, _⟩, _ => rfl | ⟨2, _⟩, hc => exact absurd rfl hc
  · rfl
  refine (broadcastInDim_apply _ _ _ _ (ix2 b s) ?_).trans ?_
  · intro c; match c with | ⟨0, _⟩ => rfl | ⟨1, _⟩ => rfl
  refine extractStridedSlice_apply _ _ _ _ _ ?_
  intro c; match c with | ⟨0, _⟩ => (show b.val = 0 + b.val; omega) | ⟨1, _⟩ => (show s.val = 0 + s.val; omega)

/-- The repeated weight vector at (b, s, k) is weight k. -/
theorem wide_apply (w : IVec S2 32) (b : Fin 4096) (s : Fin 200) (k : Fin 2) : wide w (ix3 b s k) = w (ix1 k) := by
  unfold wide
  dsimp only
  refine (broadcastInDim_apply _ _ _ _ (ix3 (0 : Fin 1) (0 : Fin 1) k) ?_).trans ?_
  · intro c; match c with | ⟨0, _⟩ => rfl | ⟨1, _⟩ => rfl | ⟨2, _⟩ => rfl
  refine broadcastInDim_apply _ _ _ _ (ix1 k) ?_
  intro c; match c with | ⟨0, _⟩ => rfl

/-- The index over (b, s) with k inserted on the last axis, for an array of pairs. -/
theorem lift_pair (h : S4096x200x2.Reduces [2] S4096x200) (b : Fin 4096) (s : Fin 200) (k : Fin 2) :
    h.lift (ix2 b s) k = ix3 b s k := by
  funext c; refine Fin.ext ?_
  match c with | ⟨0, _⟩ => rfl | ⟨1, _⟩ => rfl | ⟨2, _⟩ => rfl

/-- The index over (b, s) with 0 inserted on a trailing unit axis. -/
theorem lift_unit (h : S4096x200x1.Reduces [2] S4096x200) (b : Fin 4096) (s : Fin 200) (k : Fin 1) :
    h.lift (ix2 b s) k = ix3 b s k := by
  funext c; refine Fin.ext ?_
  match c with | ⟨0, _⟩ => rfl | ⟨1, _⟩ => rfl | ⟨2, _⟩ => rfl

/-- The weighted sum at (b, s): first entry times first weight, plus second entry times second weight, plus zero. -/
theorem toks_apply (p q : IVec S4096x200x2 32) (b : Fin 4096) (s : Fin 200) :
    toks p q (ix2 b s)
      = IntOp.addi (IntOp.muli (p (ix3 b s (0 : Fin 2))) (q (ix3 b s (0 : Fin 2))))
          (IntOp.addi (IntOp.muli (p (ix3 b s (1 : Fin 2))) (q (ix3 b s (1 : Fin 2)))) 0#32) := by
  unfold toks
  dsimp only
  rw [Host.reduce_eq_fold_single IntOp.addi _ _ reducesTo_S4096x200x2_S4096x200_d2
    (by decide : S4096x200x2.Reduces [2] S4096x200) h_S_]
  refine (fold_fin_two IntOp.addi _ _).trans ?_
  simp only [Function.comp, lift_pair]
  rfl

/-- The shifted token at (b, s, 0): the token plus four if it is below zero, else the token. -/
theorem normIdx_apply (t : IVec S4096x200 32) (b : Fin 4096) (s : Fin 200) :
    normIdx t (ix3 b s (0 : Fin 1))
      = Scalar.select (IntOp.cmpi .slt (t (ix2 b s)) 0#32) (IntOp.addi (t (ix2 b s)) 4#32) (t (ix2 b s)) := by
  unfold normIdx
  dsimp only
  refine (broadcastInDim_apply _ _ _ _ (ix2 b s) ?_).trans rfl
  intro c; match c with | ⟨0, _⟩ => rfl | ⟨1, _⟩ => rfl

/-- The range test at (b, s): 0 ≤ shifted token, and shifted token ≤ 3. -/
theorem inRange_apply (i5 : IVec S4096x200x1 32) (b : Fin 4096) (s : Fin 200) :
    inRange i5 (ix2 b s)
      = IntOp.andi (IntOp.andi (IntOp.cmpi .sge (i5 (ix3 b s (0 : Fin 1))) 0#32) (IntOp.cmpi .sle (i5 (ix3 b s (0 : Fin 1))) 3#32)) 1#1 := by
  unfold inRange
  dsimp only
  rw [Host.reduce_eq_fold_single IntOp.andi _ _ reducesTo_S4096x200x1_S4096x200_d2
    (by decide : S4096x200x1.Reduces [2] S4096x200) h_S_]
  refine (fold_fin_one IntOp.andi _ _).trans ?_
  simp only [Function.comp, lift_unit]
  rfl

/-- Where the range test passes, the look-up at (b, s, k) is the table at row (shifted token, read signed and clamped
    into 0 … 3) and column k. -/
theorem takeOut_apply (tab : FVec F S4x64 .f32) (i5 : IVec S4096x200x1 32) (r : IVec S4096x200 1)
    (b : Fin 4096) (s : Fin 200) (k : Fin 64) (hr : r (ix2 b s) = 1#1) :
    takeOut tab i5 r (ix3 b s k)
      = tab (ix2 (n0 := 4) (n1 := 64) ⟨min (i5 (ix3 b s (0 : Fin 1))).toInt.toNat 3, by omega⟩ k) := by
  unfold takeOut
  dsimp only
  rw [select_apply, broadcastInDim_apply _ _ _ (ix3 b s k) (ix2 b s)
    (by intro c; match c with | ⟨0, _⟩ => rfl | ⟨1, _⟩ => rfl), hr, select_one]
  exact gather_apply _ _ b s k

/-! ## The weights, the token of two bits, and the whole reference at an index -/

set_option maxRecDepth 100000 in
/-- The first weight is 2⁰. -/
theorem weights_zero : weights (ix1 (0 : Fin 2)) = 1#32 := by decide +kernel
set_option maxRecDepth 100000 in
/-- The second weight is 2¹. -/
theorem weights_one : weights (ix1 (1 : Fin 2)) = 2#32 := by decide +kernel

/-- For occupation words that are bits the weighted sum t = up · 1 + (down · 2 + 0) is not below zero (so it is not
    shifted), lies in 0 … 3 (so it is not masked), and read signed and clamped into 0 … 3 it is up + 2 · down. -/
theorem token_of_bits (u d : BitVec 32) (hu : u = 0#32 ∨ u = 1#32) (hd : d = 0#32 ∨ d = 1#32) :
    Scalar.select (IntOp.cmpi .slt (IntOp.addi (IntOp.muli u 1#32) (IntOp.addi (IntOp.muli d 2#32) 0#32)) 0#32)
        (IntOp.addi (IntOp.addi (IntOp.muli u 1#32) (IntOp.addi (IntOp.muli d 2#32) 0#32)) 4#32)
        (IntOp.addi (IntOp.muli u 1#32) (IntOp.addi (IntOp.muli d 2#32) 0#32))
      = IntOp.addi (IntOp.muli u 1#32) (IntOp.addi (IntOp.muli d 2#32) 0#32) ∧
    IntOp.andi (IntOp.andi (IntOp.cmpi .sge (IntOp.addi (IntOp.muli u 1#32) (IntOp.addi (IntOp.muli d 2#32) 0#32)) 0#32)
        (IntOp.cmpi .sle (IntOp.addi (IntOp.muli u 1#32) (IntOp.addi (IntOp.muli d 2#32) 0#32)) 3#32)) 1#1 = 1#1 ∧
    min (IntOp.addi (IntOp.muli u 1#32) (IntOp.addi (IntOp.muli d 2#32) 0#32)).toInt.toNat 3
      = u.toNat % 2 + 2 * (d.toNat % 2) := by
  rcases hu with rfl | rfl <;> rcases hd with rfl | rfl <;> decide

/-- THE REFERENCE AT AN INDEX: when every occupation word is a bit, entry (b, s, k) of the result is the table's
    entry at row up + 2 · down of site s of row b, column k. -/
theorem refOut_apply (n : IVec S4096x400 32) (tab : FVec F S4x64 .f32) (hbits : ∀ i, n i = 0#32 ∨ n i = 1#32)
    (b : Fin 4096) (s : Fin 200) (k : Fin 64) :
    refOut n tab (ix3 b s k)
      = tab (ix2 (n0 := 4) (n1 := 64)
          ⟨(n (ix2 b (⟨200 + s.val, by omega⟩ : Fin 400))).toNat % 2 + 2 * ((n (ix2 b (⟨s.val, by omega⟩ : Fin 400))).toNat % 2), by omega⟩ k) := by
  obtain ⟨h1, h2, h3⟩ := token_of_bits _ _ (hbits (ix2 b (⟨200 + s.val, by omega⟩ : Fin 400))) (hbits (ix2 b (⟨s.val, by omega⟩ : Fin 400)))
  have ht : toks (pairs n) (wide weights) (ix2 b s)
      = IntOp.addi (IntOp.muli (n (ix2 b (⟨200 + s.val, by omega⟩ : Fin 400))) 1#32)
          (IntOp.addi (IntOp.muli (n (ix2 b (⟨s.val, by omega⟩ : Fin 400))) 2#32) 0#32) := by
    rw [toks_apply, pairs_up, pairs_down, wide_apply, wide_apply, weights_zero, weights_one]
  have h5 : normIdx (toks (pairs n) (wide weights)) (ix3 b s (0 : Fin 1))
      = IntOp.addi (IntOp.muli (n (ix2 b (⟨200 + s.val, by omega⟩ : Fin 400))) 1#32)
          (IntOp.addi (IntOp.muli (n (ix2 b (⟨s.val, by omega⟩ : Fin 400))) 2#32) 0#32) := by
    rw [normIdx_apply, ht]; exact h1
  unfold refOut
  rw [takeOut_apply _ _ _ b s k (by rw [inRange_apply, h5]; exact h2)]
  exact congrArg (fun q : Fin 4 => tab (ix2 (n0 := 4) (n1 := 64) q k)) (Fin.ext (by
    show min (normIdx (toks (pairs n) (wide weights)) (ix3 b s (0 : Fin 1))).toInt.toNat 3 = _
    rw [h5]; exact h3))

end Cert.ReferenceIdeal.RefStages

end
-- ==== Proof.RefValue.lean ====
/-
  The reference computes the embedding.

  Run from any memory, the reference ends with its result buffer at the composition of its three stages applied to
  its two arguments, and with the arguments untouched.  Under the precondition every occupation word is a bit, so
  the stages, read at an index, give the table's row at the token  up + 2 · down : the specification.
-/
import proofs.«206263_g65532611002545_cont_9to1c4b_62_29_alg».proof.Defs
import proofs.«206263_g65532611002545_cont_9to1c4b_62_29_alg».proof.Proof.RefRun
import proofs.«206263_g65532611002545_cont_9to1c4b_62_29_alg».proof.Proof.RefStages
import proofs.«206263_g65532611002545_cont_9to1c4b_62_29_alg».proof.Proof.Spec
import proofs.«206263_g65532611002545_cont_9to1c4b_62_29_alg».proof.Proof.PreFacts
import proofs.«206263_g65532611002545_cont_9to1c4b_62_29_alg».proof.Proof.Gen.Pre_input_domain

noncomputable section

namespace Cert.ReferenceIdeal.RefValue

open Cert.ReferenceIdeal Cert.ReferenceIdeal.Facts₀ Cert.ReferenceIdeal.RefRun Cert.ReferenceIdeal.RefStages
open Idealize.ShloMosaic Idealize.ShloMosaic.TcCoe Idealize.SL.Sem Idealize.ShloMosaic.StableHlo Idealize.ShloMosaic.ValueIdx

variable {F : FTy → Type} [FloatOps F]

/-! ## The line in eleven stretches

The same operations, in the same order, cut where the arithmetic has its joints: each stretch reads a few buffers
written before it and writes a few that are read after it.  What a buffer holds after a stretch is either a stage's
function of what the stretch found (when the stretch writes it) or what it held before (when it does not). -/

/-- Operations 1 … 5: the two halves of the occupation words and their pairing. -/
def chunk0 : List (HloOp τ sig (Elt F)) :=
  [ StableHlo.unary main_arg0 main_v0 ((extractStridedSlice S4096x200 ![0, 0] · slices_S4096x400_S4096x200_0_0) : (⟨S4096x400, .i32⟩ : BufTy).Contents (Elt F) → (⟨S4096x200, .i32⟩ : BufTy).Contents (Elt F)),
    StableHlo.unary main_arg0 main_v1 ((extractStridedSlice S4096x200 ![0, 200] · slices_S4096x400_S4096x200_0_200) : (⟨S4096x400, .i32⟩ : BufTy).Contents (Elt F) → (⟨S4096x200, .i32⟩ : BufTy).Contents (Elt F)),
    StableHlo.unary main_v1 main_v2 (broadcastInDim S4096x200x1 ![0, 1] bcast_S4096x200_S4096x200x1_0_1 : (⟨S4096x200, .i32⟩ : BufTy).Contents (Elt F) → (⟨S4096x200x1, .i32⟩ : BufTy).Contents (Elt F)),
    StableHlo.unary main_v0 main_v3 (broadcastInDim S4096x200x1 ![0, 1] bcast_S4096x200_S4096x200x1_0_1 : (⟨S4096x200, .i32⟩ : BufTy).Contents (Elt F) → (⟨S4096x200x1, .i32⟩ : BufTy).Contents (Elt F)),
    StableHlo.binary main_v2 main_v3 main_v4 ((fun a b => concatenate S4096x200x2 2 [⟨S4096x200x1, a⟩, ⟨S4096x200x1, b⟩] concatenates_S4096x200x1_S4096x200x1_S4096x200x2_d2) : (⟨S4096x200x1, .i32⟩ : BufTy).Contents (Elt F) → (⟨S4096x200x1, .i32⟩ : BufTy).Contents (Elt F) → (⟨S4096x200x2, .i32⟩ : BufTy).Contents (Elt F)) ]

/-- Operations 6 … 29: the exponents, the vector of ones, and the first step of the squaring chain. -/
def chunk1 : List (HloOp τ sig (Elt F)) :=
  [ StableHlo.nullary main_v5 (iotaInDim S2 32 0),
    StableHlo.nullary main_c (constantI S_ 32 2#32),
    StableHlo.nullary main_c_0 (constantI S_ 32 0#32),
    StableHlo.binary main_c main_c_0 main_v6 (cmpi .eq : (⟨S_, .i32⟩ : BufTy).Contents (Elt F) → (⟨S_, .i32⟩ : BufTy).Contents (Elt F) → (⟨S_, .i1⟩ : BufTy).Contents (Elt F)),
    StableHlo.nullary main_c_1 (constantI S_ 32 0#32),
    StableHlo.unary main_c_1 main_v7 (broadcastInDim S2 ![] bcast_S_S2 : (⟨S_, .i32⟩ : BufTy).Contents (Elt F) → (⟨S2, .i32⟩ : BufTy).Contents (Elt F)),
    StableHlo.binary main_v5 main_v7 main_v8 (cmpi .ne : (⟨S2, .i32⟩ : BufTy).Contents (Elt F) → (⟨S2, .i32⟩ : BufTy).Contents (Elt F) → (⟨S2, .i1⟩ : BufTy).Contents (Elt F)),
    StableHlo.unary main_v6 main_v9 (broadcastInDim S2 ![] bcast_S_S2 : (⟨S_, .i1⟩ : BufTy).Contents (Elt F) → (⟨S2, .i1⟩ : BufTy).Contents (Elt F)),
    StableHlo.binary main_v9 main_v8 main_v10 (andi : (⟨S2, .i1⟩ : BufTy).Contents (Elt F) → (⟨S2, .i1⟩ : BufTy).Contents (Elt F) → (⟨S2, .i1⟩ : BufTy).Contents (Elt F)),
    StableHlo.nullary main_c_2 (constantI S_ 32 0#32),
    StableHlo.nullary main_c_3 (constantI S_ 32 1#32),
    StableHlo.TRef.unary (.of main_c_2 : StableHlo.TRef sig ⟨S_, .i32⟩) main_call0.v0 (broadcastInDim S2 ![] bcast_S_S2),
    StableHlo.TRef.unary (.of main_c_3 : StableHlo.TRef sig ⟨S_, .i32⟩) main_call0.v1 (broadcastInDim S2 ![] bcast_S_S2),
    StableHlo.TRef.ternary (.of main_v10 : StableHlo.TRef sig ⟨S2, .i1⟩) main_call0.v0 main_call0.v1 main_call0.v2 select,
    StableHlo.nullary main_c_4 (constantI S_ 32 1#32),
    StableHlo.unary main_c_4 main_v12 (broadcastInDim S2 ![] bcast_S_S2 : (⟨S_, .i32⟩ : BufTy).Contents (Elt F) → (⟨S2, .i32⟩ : BufTy).Contents (Elt F)),
    StableHlo.binary main_v5 main_v12 main_v13 (andi : (⟨S2, .i32⟩ : BufTy).Contents (Elt F) → (⟨S2, .i32⟩ : BufTy).Contents (Elt F) → (⟨S2, .i32⟩ : BufTy).Contents (Elt F)),
    StableHlo.nullary main_c_5 (constantI S_ 32 2#32),
    StableHlo.unary main_c_5 main_v14 (broadcastInDim S2 ![] bcast_S_S2 : (⟨S_, .i32⟩ : BufTy).Contents (Elt F) → (⟨S2, .i32⟩ : BufTy).Contents (Elt F)),
    StableHlo.binary main_v11 main_v14 main_v15 (muli : (⟨S2, .i32⟩ : BufTy).Contents (Elt F) → (⟨S2, .i32⟩ : BufTy).Contents (Elt F) → (⟨S2, .i32⟩ : BufTy).Contents (Elt F)),
    StableHlo.TRef.nullary main_call1.c (constantI S_ 32 0#32),
    StableHlo.TRef.unary main_call1.c main_call1.v0 (broadcastInDim S2 ![] bcast_S_S2),
    StableHlo.TRef.binary (.of main_v13 : StableHlo.TRef sig ⟨S2, .i32⟩) main_call1.v0 main_call1.v1 (cmpi .ne),
    StableHlo.TRef.ternary main_call1.v1 (.of main_v15 : StableHlo.TRef sig ⟨S2, .i32⟩) (.of main_v11 : StableHlo.TRef sig ⟨S2, .i32⟩) main_call1.v2 select ]

/-- Operations 30 … 44: the second step of the squaring chain. -/
def chunk2 : List (HloOp τ sig (Elt F)) :=
  [ StableHlo.nullary main_c_6 (constantI S_ 32 2#32),
    StableHlo.nullary main_c_7 (constantI S_ 32 2#32),
    StableHlo.binary main_c_6 main_c_7 main_v17 (muli : (⟨S_, .i32⟩ : BufTy).Contents (Elt F) → (⟨S_, .i32⟩ : BufTy).Contents (Elt F) → (⟨S_, .i32⟩ : BufTy).Contents (Elt F)),
    StableHlo.nullary main_c_8 (constantI S_ 32 1#32),
    StableHlo.unary main_c_8 main_v18 (broadcastInDim S2 ![] bcast_S_S2 : (⟨S_, .i32⟩ : BufTy).Contents (Elt F) → (⟨S2, .i32⟩ : BufTy).Contents (Elt F)),
    StableHlo.binary main_v5 main_v18 main_v19 (Host.shrui : (⟨S2, .i32⟩ : BufTy).Contents (Elt F) → (⟨S2, .i32⟩ : BufTy).Contents (Elt F) → (⟨S2, .i32⟩ : BufTy).Contents (Elt F)),
    StableHlo.nullary main_c_9 (constantI S_ 32 1#32),
    StableHlo.unary main_c_9 main_v20 (broadcastInDim S2 ![] bcast_S_S2 : (⟨S_, .i32⟩ : BufTy).Contents (Elt F) → (⟨S2, .i32⟩ : BufTy).Contents (Elt F)),
    StableHlo.binary main_v19 main_v20 main_v21 (andi : (⟨S2, .i32⟩ : BufTy).Contents (Elt F) → (⟨S2, .i32⟩ : BufTy).Contents (Elt F) → (⟨S2, .i32⟩ : BufTy).Contents (Elt F)),
    StableHlo.unary main_v17 main_v22 (broadcastInDim S2 ![] bcast_S_S2 : (⟨S_, .i32⟩ : BufTy).Contents (Elt F) → (⟨S2, .i32⟩ : BufTy).Contents (Elt F)),
    StableHlo.binary main_v16 main_v22 main_v23 (muli : (⟨S2, .i32⟩ : BufTy).Contents (Elt F) → (⟨S2, .i32⟩ : BufTy).Contents (Elt F) → (⟨S2, .i32⟩ : BufTy).Contents (Elt F)),
    StableHlo.TRef.nullary main_call2.c (constantI S_ 32 0#32),
    StableHlo.TRef.unary main_call2.c main_call2.v0 (broadcastInDim S2 ![] bcast_S_S2),
    StableHlo.TRef.binary (.of main_v21 : StableHlo.TRef sig ⟨S2, .i32⟩) main_call2.v0 main_call2.v1 (cmpi .ne),
    StableHlo.TRef.ternary main_call2.v1 (.of main_v23 : StableHlo.TRef sig ⟨S2, .i32⟩) (.of main_v16 : StableHlo.TRef sig ⟨S2, .i32⟩) main_call2.v2 select ]

/-- Operations 45 … 57: the third step. -/
def chunk3 : List (HloOp τ sig (Elt F)) :=
  [ StableHlo.binary main_v17 main_v17 main_v25 (muli : (⟨S_, .i32⟩ : BufTy).Contents (Elt F) → (⟨S_, .i32⟩ : BufTy).Contents (Elt F) → (⟨S_, .i32⟩ : BufTy).Contents (Elt F)),
    StableHlo.nullary main_c_10 (constantI S_ 32 1#32),
    StableHlo.unary main_c_10 main_v26 (broadcastInDim S2 ![] bcast_S_S2 : (⟨S_, .i32⟩ : BufTy).Contents (Elt F) → (⟨S2, .i32⟩ : BufTy).Contents (Elt F)),
    StableHlo.binary main_v19 main_v26 main_v27 (Host.shrui : (⟨S2, .i32⟩ : BufTy).Contents (Elt F) → (⟨S2, .i32⟩ : BufTy).Contents (Elt F) → (⟨S2, .i32⟩ : BufTy).Contents (Elt F)),
    StableHlo.nullary main_c_11 (constantI S_ 32 1#32),
    StableHlo.unary main_c_11 main_v28 (broadcastInDim S2 ![] bcast_S_S2 : (⟨S_, .i32⟩ : BufTy).Contents (Elt F) → (⟨S2, .i32⟩ : BufTy).Contents (Elt F)),
    StableHlo.binary main_v27 main_v28 main_v29 (andi : (⟨S2, .i32⟩ : BufTy).Contents (Elt F) → (⟨S2, .i32⟩ : BufTy).Contents (Elt F) → (⟨S2, .i32⟩ : BufTy).Contents (Elt F)),
    StableHlo.unary main_v25 main_v30 (broadcastInDim S2 ![] bcast_S_S2 : (⟨S_, .i32⟩ : BufTy).Contents (Elt F) → (⟨S2, .i32⟩ : BufTy).Contents (Elt F)),
    StableHlo.binary main_v24 main_v30 main_v31 (muli : (⟨S2, .i32⟩ : BufTy).Contents (Elt F) → (⟨S2, .i32⟩ : BufTy).Contents (Elt F) → (⟨S2, .i32⟩ : BufTy).Contents (Elt F)),
    StableHlo.TRef.nullary main_call3.c (constantI S_ 32 0#32),
    StableHlo.TRef.unary main_call3.c main_call3.v0 (broadcastInDim S2 ![] bcast_S_S2),
    StableHlo.TRef.binary (.of main_v29 : StableHlo.TRef sig ⟨S2, .i32⟩) main_call3.v0 main_call3.v1 (cmpi .ne),
    StableHlo.TRef.ternary main_call3.v1 (.of main_v31 : StableHlo.TRef sig ⟨S2, .i32⟩) (.of main_v24 : StableHlo.TRef sig ⟨S2, .i32⟩) main_call3.v2 select ]

/-- Operations 58 … 70: the fourth step. -/
def chunk4 : List (HloOp τ sig (Elt F)) :=
  [ StableHlo.binary main_v25 main_v25 main_v33 (muli : (⟨S_, .i32⟩ : BufTy).Contents (Elt F) → (⟨S_, .i32⟩ : BufTy).Contents (Elt F) → (⟨S_, .i32⟩ : BufTy).Contents (Elt F)),
    StableHlo.nullary main_c_12 (constantI S_ 32 1#32),
    StableHlo.unary main_c_12 main_v34 (broadcastInDim S2 ![] bcast_S_S2 : (⟨S_, .i32⟩ : BufTy).Contents (Elt F) → (⟨S2, .i32⟩ : BufTy).Contents (Elt F)),
    StableHlo.binary main_v27 main_v34 main_v35 (Host.shrui : (⟨S2, .i32⟩ : BufTy).Contents (Elt F) → (⟨S2, .i32⟩ : BufTy).Contents (Elt F) → (⟨S2, .i32⟩ : BufTy).Contents (Elt F)),
    StableHlo.nullary main_c_13 (constantI S_ 32 1#32),
    StableHlo.unary main_c_13 main_v36 (broadcastInDim S2 ![] bcast_S_S2 : (⟨S_, .i32⟩ : BufTy).Contents (Elt F) → (⟨S2, .i32⟩ : BufTy).Contents (Elt F)),
    StableHlo.binary main_v35 main_v36 main_v37 (andi : (⟨S2, .i32⟩ : BufTy).Contents (Elt F) → (⟨S2, .i32⟩ : BufTy).Contents (Elt F) → (⟨S2, .i32⟩ : BufTy).Contents (Elt F)),
    StableHlo.unary main_v33 main_v38 (broadcastInDim S2 ![] bcast_S_S2 : (⟨S_, .i32⟩ : BufTy).Contents (Elt F) → (⟨S2, .i32⟩ : BufTy).Contents (Elt F)),
    StableHlo.binary main_v32 main_v38 main_v39 (muli : (⟨S2, .i32⟩ : BufTy).Contents (Elt F) → (⟨S2, .i32⟩ : BufTy).Contents (Elt F) → (⟨S2, .i32⟩ : BufTy).Contents (Elt F)),
    StableHlo.TRef.nullary main_call4.c (constantI S_ 32 0#32),
    StableHlo.TRef.unary main_call4.c main_call4.v0 (broadcastInDim S2 ![] bcast_S_S2),
    StableHlo.TRef.binary (.of main_v37 : StableHlo.TRef sig ⟨S2, .i32⟩) main_call4.v0 main_call4.v1 (cmpi .ne),
    StableHlo.TRef.ternary main_call4.v1 (.of main_v39 : StableHlo.TRef sig ⟨S2, .i32⟩) (.of main_v32 : StableHlo.TRef sig ⟨S2, .i32⟩) main_call4.v2 select ]

/-- Operations 71 … 83: the fifth step. -/
def chunk5 : List (HloOp τ sig (Elt F)) :=
  [ StableHlo.binary main_v33 main_v33 main_v41 (muli : (⟨S_, .i32⟩ : BufTy).Contents (Elt F) → (⟨S_, .i32⟩ : BufTy).Contents (Elt F) → (⟨S_, .i32⟩ : BufTy).Contents (Elt F)),
    StableHlo.nullary main_c_14 (constantI S_ 32 1#32),
    StableHlo.unary main_c_14 main_v42 (broadcastInDim S2 ![] bcast_S_S2 : (⟨S_, .i32⟩ : BufTy).Contents (Elt F) → (⟨S2, .i32⟩ : BufTy).Contents (Elt F)),
    StableHlo.binary main_v35 main_v42 main_v43 (Host.shrui : (⟨S2, .i32⟩ : BufTy).Contents (Elt F) → (⟨S2, .i32⟩ : BufTy).Contents (Elt F) → (⟨S2, .i32⟩ : BufTy).Contents (Elt F)),
    StableHlo.nullary main_c_15 (constantI S_ 32 1#32),
    StableHlo.unary main_c_15 main_v44 (broadcastInDim S2 ![] bcast_S_S2 : (⟨S_, .i32⟩ : BufTy).Contents (Elt F) → (⟨S2, .i32⟩ : BufTy).Contents (Elt F)),
    StableHlo.binary main_v43 main_v44 main_v45 (andi : (⟨S2, .i32⟩ : BufTy).Contents (Elt F) → (⟨S2, .i32⟩ : BufTy).Contents (Elt F) → (⟨S2, .i32⟩ : BufTy).Contents (Elt F)),
    StableHlo.unary main_v41 main_v46 (broadcastInDim S2 ![] bcast_S_S2 : (⟨S_, .i32⟩ : BufTy).Contents (Elt F) → (⟨S2, .i32⟩ : BufTy).Contents (Elt F)),
    StableHlo.binary main_v40 main_v46 main_v47 (muli : (⟨S2, .i32⟩ : BufTy).Contents (Elt F) → (⟨S2, .i32⟩ : BufTy).Contents (Elt F) → (⟨S2, .i32⟩ : BufTy).Contents (Elt F)),
    StableHlo.TRef.nullary main_call5.c (constantI S_ 32 0#32),
    StableHlo.TRef.unary main_call5.c main_call5.v0 (broadcastInDim S2 ![] bcast_S_S2),
    StableHlo.TRef.binary (.of main_v45 : StableHlo.TRef sig ⟨S2, .i32⟩) main_call5.v0 main_call5.v1 (cmpi .ne),
    StableHlo.TRef.ternary main_call5.v1 (.of main_v47 : StableHlo.TRef sig ⟨S2, .i32⟩) (.of main_v40 : StableHlo.TRef sig ⟨S2, .i32⟩) main_call5.v2 select ]

/-- Operations 84 … 96: the sixth step. -/
def chunk6 : List (HloOp τ sig (Elt F)) :=
  [ StableHlo.binary main_v41 main_v41 main_v49 (muli : (⟨S_, .i32⟩ : BufTy).Contents (Elt F) → (⟨S_, .i32⟩ : BufTy).Contents (Elt F) → (⟨S_, .i32⟩ : BufTy).Contents (Elt F)),
    StableHlo.nullary main_c_16 (constantI S_ 32 1#32),
    StableHlo.unary main_c_16 main_v50 (broadcastInDim S2 ![] bcast_S_S2 : (⟨S_, .i32⟩ : BufTy).Contents (Elt F) → (⟨S2, .i32⟩ : BufTy).Contents (Elt F)),
    StableHlo.binary main_v43 main_v50 main_v51 (Host.shrui : (⟨S2, .i32⟩ : BufTy).Contents (Elt F) → (⟨S2, .i32⟩ : BufTy).Contents (Elt F) → (⟨S2, .i32⟩ : BufTy).Contents (Elt F)),
    StableHlo.nullary main_c_17 (constantI S_ 32 1#32),
    StableHlo.unary main_c_17 main_v52 (broadcastInDim S2 ![] bcast_S_S2 : (⟨S_, .i32⟩ : BufTy).Contents (Elt F) → (⟨S2, .i32⟩ : BufTy).Contents (Elt F)),
    StableHlo.binary main_v51 main_v52 main_v53 (andi : (⟨S2, .i32⟩ : BufTy).Contents (Elt F) → (⟨S2, .i32⟩ : BufTy).Contents (Elt F) → (⟨S2, .i32⟩ : BufTy).Contents (Elt F)),
    StableHlo.unary main_v49 main_v54 (broadcastInDim S2 ![] bcast_S_S2 : (⟨S_, .i32⟩ : BufTy).Contents (Elt F) → (⟨S2, .i32⟩ : BufTy).Contents (Elt F)),
    StableHlo.binary main_v48 main_v54 main_v55 (muli : (⟨S2, .i32⟩ : BufTy).Contents (Elt F) → (⟨S2, .i32⟩ : BufTy).Contents (Elt F) → (⟨S2, .i32⟩ : BufTy).Contents (Elt F)),
    StableHlo.TRef.nullary main_call6.c (constantI S_ 32 0#32),
    StableHlo.TRef.unary main_call6.c main_call6.v0 (broadcastInDim S2 ![] bcast_S_S2),
    StableHlo.TRef.binary (.of main_v53 : StableHlo.TRef sig ⟨S2, .i32⟩) main_call6.v0 main_call6.v1 (cmpi .ne),
    StableHlo.TRef.ternary main_call6.v1 (.of main_v55 : StableHlo.TRef sig ⟨S2, .i32⟩) (.of main_v48 : StableHlo.TRef sig ⟨S2, .i32⟩) main_call6.v2 select ]

/-- Operations 97 … 105: the weights repeated over rows and sites, the products and their sum over the pair. -/
def chunk7 : List (HloOp τ sig (Elt F)) :=
  [ StableHlo.binary main_v49 main_v49 main_v57 (muli : (⟨S_, .i32⟩ : BufTy).Contents (Elt F) → (⟨S_, .i32⟩ : BufTy).Contents (Elt F) → (⟨S_, .i32⟩ : BufTy).Contents (Elt F)),
    StableHlo.nullary main_c_18 (constantI S_ 32 1#32),
    StableHlo.unary main_c_18 main_v58 (broadcastInDim S2 ![] bcast_S_S2 : (⟨S_, .i32⟩ : BufTy).Contents (Elt F) → (⟨S2, .i32⟩ : BufTy).Contents (Elt F)),
    StableHlo.binary main_v51 main_v58 main_v59 (Host.shrui : (⟨S2, .i32⟩ : BufTy).Contents (Elt F) → (⟨S2, .i32⟩ : BufTy).Contents (Elt F) → (⟨S2, .i32⟩ : BufTy).Contents (Elt F)),
    StableHlo.unary main_v56 main_v60 (broadcastInDim S1x1x2 ![2] bcast_S2_S1x1x2_2 : (⟨S2, .i32⟩ : BufTy).Contents (Elt F) → (⟨S1x1x2, .i32⟩ : BufTy).Contents (Elt F)),
    StableHlo.unary main_v60 main_v61 (broadcastInDim S4096x200x2 ![0, 1, 2] bcast_S1x1x2_S4096x200x2_0_1_2 : (⟨S1x1x2, .i32⟩ : BufTy).Contents (Elt F) → (⟨S4096x200x2, .i32⟩ : BufTy).Contents (Elt F)),
    StableHlo.binary main_v4 main_v61 main_v62 (muli : (⟨S4096x200x2, .i32⟩ : BufTy).Contents (Elt F) → (⟨S4096x200x2, .i32⟩ : BufTy).Contents (Elt F) → (⟨S4096x200x2, .i32⟩ : BufTy).Contents (Elt F)),
    StableHlo.nullary main_c_19 (constantI S_ 32 0#32),
    StableHlo.binary main_v62 main_c_19 main_v63 ((fun x v => Host.reduce IntOp.addi x v reducesTo_S4096x200x2_S4096x200_d2 h_S_) : (⟨S4096x200x2, .i32⟩ : BufTy).Contents (Elt F) → (⟨S_, .i32⟩ : BufTy).Contents (Elt F) → (⟨S4096x200, .i32⟩ : BufTy).Contents (Elt F)) ]

/-- Operations 106 … 113: the token shifted up by four where it is below zero. -/
def chunk8 : List (HloOp τ sig (Elt F)) :=
  [ StableHlo.TRef.nullary main_call7.c (constantI S_ 32 0#32),
    StableHlo.TRef.unary main_call7.c main_call7.v0 (broadcastInDim S4096x200 ![] bcast_S_S4096x200),
    StableHlo.TRef.binary (.of main_v63 : StableHlo.TRef sig ⟨S4096x200, .i32⟩) main_call7.v0 main_call7.v1 (cmpi .slt),
    StableHlo.TRef.nullary main_call7.c_0 (constantI S_ 32 4#32),
    StableHlo.TRef.unary main_call7.c_0 main_call7.v2 (broadcastInDim S4096x200 ![] bcast_S_S4096x200),
    StableHlo.TRef.binary (.of main_v63 : StableHlo.TRef sig ⟨S4096x200, .i32⟩) main_call7.v2 main_call7.v3 addi,
    StableHlo.TRef.ternary main_call7.v1 main_call7.v3 (.of main_v63 : StableHlo.TRef sig ⟨S4096x200, .i32⟩) main_call7.call0.v0 select,
    StableHlo.TRef.unary main_call7.call0.v0 main_call7.v5 (broadcastInDim S4096x200x1 ![0, 1] bcast_S4096x200_S4096x200x1_0_1) ]

/-- Operations 114 … 123: the test that the shifted token lies in 0 … 3. -/
def chunk9 : List (HloOp τ sig (Elt F)) :=
  [ StableHlo.TRef.nullary main_call7.c_1 (constantI S1 32 3#32),
    StableHlo.TRef.nullary main_call7.c_2 (constantI S_ 32 0#32),
    StableHlo.TRef.unary main_call7.c_2 main_call7.v6 (broadcastInDim S4096x200x1 ![] bcast_S_S4096x200x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S4096x200x1 ![0, 1, 2] bcast_S1x1x1_S4096x200x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S4096x200x1_S4096x200_d2 h_S_) ]

/-- Operations 124 … 128: the table look-up, masked by the test. -/
def chunk10 : List (HloOp τ sig (Elt F)) :=
  [ StableHlo.TRef.binary (.of main_arg1 : StableHlo.TRef sig ⟨S4x64, .f32⟩) main_call7.v5 main_call7.v13 (fun x i => Host.gather gather_S4x64_S4096x200x1_S4096x200x64_2_0_n_n_0_2_164 x i),
    StableHlo.TRef.unary main_call7.v12 main_call7.v14 (broadcastInDim S4096x200x64 ![0, 1] bcast_S4096x200_S4096x200x64_0_1),
    StableHlo.TRef.nullary main_call7.cst (constant S_ .f32 0x7FC00000#32),
    StableHlo.TRef.unary main_call7.cst main_call7.v15 (broadcastInDim S4096x200x64 ![] bcast_S_S4096x200x64),
    StableHlo.TRef.ternary main_call7.v14 main_call7.v13 main_call7.v15 main_call7.v16 select ]

/-- The stretches, one after the other, are the whole line. -/
theorem ops_eq : (ops : List (HloOp τ sig (Elt F))) = chunk0 ++ chunk1 ++ chunk2 ++ chunk3 ++ chunk4 ++ chunk5 ++ chunk6 ++ chunk7 ++ chunk8 ++ chunk9 ++ chunk10 := rfl

/-! ### Operations 1 … 5 -/

set_option maxRecDepth 16384 in
theorem c0_v4 (V : Valuation τ sig (Elt F)) :
    after chunk0 V (main_v4 : DevRef τ sig) = pairs (V (main_arg0 : DevRef τ sig)) := by
  unfold chunk0
  after_results_simp
  rfl

set_option maxRecDepth 16384 in
theorem keep0_arg0 (V : Valuation τ sig (Elt F)) :
    after chunk0 V (main_arg0 : DevRef τ sig) = V (main_arg0 : DevRef τ sig) := by
  unfold chunk0
  after_results_simp

set_option maxRecDepth 16384 in
theorem keep0_arg1 (V : Valuation τ sig (Elt F)) :
    after chunk0 V (main_arg1 : DevRef τ sig) = V (main_arg1 : DevRef τ sig) := by
  unfold chunk0
  after_results_simp

/-! ### Operations 6 … 29 -/

set_option maxRecDepth 16384 in
theorem c1_v5 (V : Valuation τ sig (Elt F)) :
    after chunk1 V (main_v5 : DevRef τ sig) = step_v5 := by
  unfold chunk1
  after_results_simp
  rfl

set_option maxRecDepth 16384 in
theorem c1_v16 (V : Valuation τ sig (Elt F)) :
    after chunk1 V (main_v16 : DevRef τ sig) = step_v16 := by
  unfold chunk1
  after_results_simp
  rfl

set_option maxRecDepth 16384 in
theorem keep1_arg0 (V : Valuation τ sig (Elt F)) :
    after chunk1 V (main_arg0 : DevRef τ sig) = V (main_arg0 : DevRef τ sig) := by
  unfold chunk1
  after_results_simp

set_option maxRecDepth 16384 in
theorem keep1_arg1 (V : Valuation τ sig (Elt F)) :
    after chunk1 V (main_arg1 : DevRef τ sig) = V (main_arg1 : DevRef τ sig) := by
  unfold chunk1
  after_results_simp

set_option maxRecDepth 16384 in
theorem keep1_v4 (V : Valuation τ sig (Elt F)) :
    after chunk1 V (main_v4 : DevRef τ sig) = V (main_v4 : DevRef τ sig) := by
  unfold chunk1
  after_results_simp

/-! ### Operations 30 … 44 -/

set_option maxRecDepth 16384 in
theorem c2_v17 (V : Valuation τ sig (Elt F)) :
    after chunk2 V (main_v17 : DevRef τ sig) = step_v17 := by
  unfold chunk2
  after_results_simp
  rfl

set_option maxRecDepth 16384 in
theorem c2_v19 (V : Valuation τ sig (Elt F)) :
    after chunk2 V (main_v19 : DevRef τ sig) = step_v19 (V (main_v5 : DevRef τ sig)) := by
  unfold chunk2
  after_results_simp
  rfl

set_option maxRecDepth 16384 in
theorem c2_v24 (V : Valuation τ sig (Elt F)) :
    after chunk2 V (main_v24 : DevRef τ sig) = step_v24 (V (main_v5 : DevRef τ sig)) (V (main_v16 : DevRef τ sig)) := by
  unfold chunk2
  after_results_simp
  rfl

set_option maxRecDepth 16384 in
theorem keep2_arg0 (V : Valuation τ sig (Elt F)) :
    after chunk2 V (main_arg0 : DevRef τ sig) = V (main_arg0 : DevRef τ sig) := by
  unfold chunk2
  after_results_simp

set_option maxRecDepth 16384 in
theorem keep2_arg1 (V : Valuation τ sig (Elt F)) :
    after chunk2 V (main_arg1 : DevRef τ sig) = V (main_arg1 : DevRef τ sig) := by
  unfold chunk2
  after_results_simp

set_option maxRecDepth 16384 in
theorem keep2_v4 (V : Valuation τ sig (Elt F)) :
    after chunk2 V (main_v4 : DevRef τ sig) = V (main_v4 : DevRef τ sig) := by
  unfold chunk2
  after_results_simp

/-! ### Operations 45 … 57 -/

set_option maxRecDepth 16384 in
theorem c3_v25 (V : Valuation τ sig (Elt F)) :
    after chunk3 V (main_v25 : DevRef τ sig) = step_v25 (V (main_v17 : DevRef τ sig)) := by
  unfold chunk3
  after_results_simp
  rfl

set_option maxRecDepth 16384 in
theorem c3_v27 (V : Valuation τ sig (Elt F)) :
    after chunk3 V (main_v27 : DevRef τ sig) = step_v27 (V (main_v19 : DevRef τ sig)) := by
  unfold chunk3
  after_results_simp
  rfl

set_option maxRecDepth 16384 in
theorem c3_v32 (V : Valuation τ sig (Elt F)) :
    after chunk3 V (main_v32 : DevRef τ sig) = step_v32 (V (main_v17 : DevRef τ sig)) (V (main_v19 : DevRef τ sig)) (V (main_v24 : DevRef τ sig)) := by
  unfold chunk3
  after_results_simp
  rfl

set_option maxRecDepth 16384 in
theorem keep3_arg0 (V : Valuation τ sig (Elt F)) :
    after chunk3 V (main_arg0 : DevRef τ sig) = V (main_arg0 : DevRef τ sig) := by
  unfold chunk3
  after_results_simp

set_option maxRecDepth 16384 in
theorem keep3_arg1 (V : Valuation τ sig (Elt F)) :
    after chunk3 V (main_arg1 : DevRef τ sig) = V (main_arg1 : DevRef τ sig) := by
  unfold chunk3
  after_results_simp

set_option maxRecDepth 16384 in
theorem keep3_v4 (V : Valuation τ sig (Elt F)) :
    after chunk3 V (main_v4 : DevRef τ sig) = V (main_v4 : DevRef τ sig) := by
  unfold chunk3
  after_results_simp

/-! ### Operations 58 … 70 -/

set_option maxRecDepth 16384 in
theorem c4_v33 (V : Valuation τ sig (Elt F)) :
    after chunk4 V (main_v33 : DevRef τ sig) = step_v33 (V (main_v25 : DevRef τ sig)) := by
  unfold chunk4
  after_results_simp
  rfl

set_option maxRecDepth 16384 in
theorem c4_v35 (V : Valuation τ sig (Elt F)) :
    after chunk4 V (main_v35 : DevRef τ sig) = step_v35 (V (main_v27 : DevRef τ sig)) := by
  unfold chunk4
  after_results_simp
  rfl

set_option maxRecDepth 16384 in
theorem c4_v40 (V : Valuation τ sig (Elt F)) :
    after chunk4 V (main_v40 : DevRef τ sig) = step_v40 (V (main_v25 : DevRef τ sig)) (V (main_v27 : DevRef τ sig)) (V (main_v32 : DevRef τ sig)) := by
  unfold chunk4
  after_results_simp
  rfl

set_option maxRecDepth 16384 in
theorem keep4_arg0 (V : Valuation τ sig (Elt F)) :
    after chunk4 V (main_arg0 : DevRef τ sig) = V (main_arg0 : DevRef τ sig) := by
  unfold chunk4
  after_results_simp

set_option maxRecDepth 16384 in
theorem keep4_arg1 (V : Valuation τ sig (Elt F)) :
    after chunk4 V (main_arg1 : DevRef τ sig) = V (main_arg1 : DevRef τ sig) := by
  unfold chunk4
  after_results_simp

set_option maxRecDepth 16384 in
theorem keep4_v4 (V : Valuation τ sig (Elt F)) :
    after chunk4 V (main_v4 : DevRef τ sig) = V (main_v4 : DevRef τ sig) := by
  unfold chunk4
  after_results_simp

/-! ### Operations 71 … 83 -/

set_option maxRecDepth 16384 in
theorem c5_v41 (V : Valuation τ sig (Elt F)) :
    after chunk5 V (main_v41 : DevRef τ sig) = step_v41 (V (main_v33 : DevRef τ sig)) := by
  unfold chunk5
  after_results_simp
  rfl

set_option maxRecDepth 16384 in
theorem c5_v43 (V : Valuation τ sig (Elt F)) :
    after chunk5 V (main_v43 : DevRef τ sig) = step_v43 (V (main_v35 : DevRef τ sig)) := by
  unfold chunk5
  after_results_simp
  rfl

set_option maxRecDepth 16384 in
theorem c5_v48 (V : Valuation τ sig (Elt F)) :
    after chunk5 V (main_v48 : DevRef τ sig) = step_v48 (V (main_v33 : DevRef τ sig)) (V (main_v35 : DevRef τ sig)) (V (main_v40 : DevRef τ sig)) := by
  unfold chunk5
  after_results_simp
  rfl

set_option maxRecDepth 16384 in
theorem keep5_arg0 (V : Valuation τ sig (Elt F)) :
    after chunk5 V (main_arg0 : DevRef τ sig) = V (main_arg0 : DevRef τ sig) := by
  unfold chunk5
  after_results_simp

set_option maxRecDepth 16384 in
theorem keep5_arg1 (V : Valuation τ sig (Elt F)) :
    after chunk5 V (main_arg1 : DevRef τ sig) = V (main_arg1 : DevRef τ sig) := by
  unfold chunk5
  after_results_simp

set_option maxRecDepth 16384 in
theorem keep5_v4 (V : Valuation τ sig (Elt F)) :
    after chunk5 V (main_v4 : DevRef τ sig) = V (main_v4 : DevRef τ sig) := by
  unfold chunk5
  after_results_simp

/-! ### Operations 84 … 96 -/

set_option maxRecDepth 16384 in
theorem c6_v56 (V : Valuation τ sig (Elt F)) :
    after chunk6 V (main_v56 : DevRef τ sig) = step_v56 (V (main_v41 : DevRef τ sig)) (V (main_v43 : DevRef τ sig)) (V (main_v48 : DevRef τ sig)) := by
  unfold chunk6
  after_results_simp
  rfl

set_option maxRecDepth 16384 in
theorem keep6_arg0 (V : Valuation τ sig (Elt F)) :
    after chunk6 V (main_arg0 : DevRef τ sig) = V (main_arg0 : DevRef τ sig) := by
  unfold chunk6
  after_results_simp

set_option maxRecDepth 16384 in
theorem keep6_arg1 (V : Valuation τ sig (Elt F)) :
    after chunk6 V (main_arg1 : DevRef τ sig) = V (main_arg1 : DevRef τ sig) := by
  unfold chunk6
  after_results_simp

set_option maxRecDepth 16384 in
theorem keep6_v4 (V : Valuation τ sig (Elt F)) :
    after chunk6 V (main_v4 : DevRef τ sig) = V (main_v4 : DevRef τ sig) := by
  unfold chunk6
  after_results_simp

/-! ### Operations 97 … 105 -/

attribute [local irreducible] Host.reduce Host.gather in
set_option maxRecDepth 16384 in
theorem c7_v63 (V : Valuation τ sig (Elt F)) :
    after chunk7 V (main_v63 : DevRef τ sig) = toks (V (main_v4 : DevRef τ sig)) (wide (V (main_v56 : DevRef τ sig))) := by
  unfold chunk7
  after_results_simp
  rfl

set_option maxRecDepth 16384 in
theorem keep7_arg0 (V : Valuation τ sig (Elt F)) :
    after chunk7 V (main_arg0 : DevRef τ sig) = V (main_arg0 : DevRef τ sig) := by
  unfold chunk7
  after_results_simp

set_option maxRecDepth 16384 in
theorem keep7_arg1 (V : Valuation τ sig (Elt F)) :
    after chunk7 V (main_arg1 : DevRef τ sig) = V (main_arg1 : DevRef τ sig) := by
  unfold chunk7
  after_results_simp

/-! ### Operations 106 … 113 -/

attribute [local irreducible] Host.reduce Host.gather in
set_option maxRecDepth 16384 in
theorem c8_call7_v5 (V : Valuation τ sig (Elt F)) :
    after chunk8 V (main_call7_v5 : DevRef τ sig) = normIdx (V (main_v63 : DevRef τ sig)) := by
  unfold chunk8
  after_results_simp
  rfl

set_option maxRecDepth 16384 in
theorem keep8_arg0 (V : Valuation τ sig (Elt F)) :
    after chunk8 V (main_arg0 : DevRef τ sig) = V (main_arg0 : DevRef τ sig) := by
  unfold chunk8
  after_results_simp

set_option maxRecDepth 16384 in
theorem keep8_arg1 (V : Valuation τ sig (Elt F)) :
    after chunk8 V (main_arg1 : DevRef τ sig) = V (main_arg1 : DevRef τ sig) := by
  unfold chunk8
  after_results_simp

/-! ### Operations 114 … 123 -/

attribute [local irreducible] Host.reduce Host.gather in
set_option maxRecDepth 16384 in
theorem c9_call7_v12 (V : Valuation τ sig (Elt F)) :
    after chunk9 V (main_call7_v12 : DevRef τ sig) = inRange (V (main_call7_v5 : DevRef τ sig)) := by
  unfold chunk9
  after_results_simp
  rfl

set_option maxRecDepth 16384 in
theorem keep9_arg0 (V : Valuation τ sig (Elt F)) :
    after chunk9 V (main_arg0 : DevRef τ sig) = V (main_arg0 : DevRef τ sig) := by
  unfold chunk9
  after_results_simp

set_option maxRecDepth 16384 in
theorem keep9_arg1 (V : Valuation τ sig (Elt F)) :
    after chunk9 V (main_arg1 : DevRef τ sig) = V (main_arg1 : DevRef τ sig) := by
  unfold chunk9
  after_results_simp

set_option maxRecDepth 16384 in
theorem keep9_call7_v5 (V : Valuation τ sig (Elt F)) :
    after chunk9 V (main_call7_v5 : DevRef τ sig) = V (main_call7_v5 : DevRef τ sig) := by
  unfold chunk9
  after_results_simp

/-! ### Operations 124 … 128 -/

attribute [local irreducible] Host.reduce Host.gather in
set_option maxRecDepth 16384 in
theorem c10_v64 (V : Valuation τ sig (Elt F)) :
    after chunk10 V (main_v64 : DevRef τ sig) = takeOut (V (main_arg1 : DevRef τ sig)) (V (main_call7_v5 : DevRef τ sig)) (V (main_call7_v12 : DevRef τ sig)) := by
  unfold chunk10
  after_results_simp
  rfl

set_option maxRecDepth 16384 in
theorem keep10_arg0 (V : Valuation τ sig (Elt F)) :
    after chunk10 V (main_arg0 : DevRef τ sig) = V (main_arg0 : DevRef τ sig) := by
  unfold chunk10
  after_results_simp

set_option maxRecDepth 16384 in
theorem keep10_arg1 (V : Valuation τ sig (Elt F)) :
    after chunk10 V (main_arg1 : DevRef τ sig) = V (main_arg1 : DevRef τ sig) := by
  unfold chunk10
  after_results_simp

/-! ## What the buffers hold after the whole line -/

set_option maxRecDepth 100000 in
/-- After all the operations the result buffer holds the three stages composed, applied to the two argument
    buffers' contents: stretch by stretch from the last, each buffer read is either the stretch's own result or what
    the stretch found. -/
theorem out_eq (V : Valuation τ sig (Elt F)) :
    after ops V (main_v64 : DevRef τ sig) = refOut (V (main_arg0 : DevRef τ sig)) (V (main_arg1 : DevRef τ sig)) := by
  rw [ops_eq]
  simp only [after_append]
  rw [c10_v64, keep9_arg1, keep9_call7_v5, c9_call7_v12, keep8_arg1, c8_call7_v5, keep7_arg1,
    c7_v63, keep6_arg1, keep6_v4, c6_v56, keep5_arg1, keep5_v4, c5_v41,
    c5_v43, c5_v48, keep4_arg1, keep4_v4, c4_v33, c4_v35, c4_v40,
    keep3_arg1, keep3_v4, c3_v25, c3_v27, c3_v32, keep2_arg1, keep2_v4,
    c2_v17, c2_v19, c2_v24, keep1_arg1, keep1_v4, c1_v5, c1_v16,
    keep0_arg1, c0_v4]
  rfl

/-- No operation writes the first argument. -/
theorem arg0_eq (V : Valuation τ sig (Elt F)) :
    after ops V (main_arg0 : DevRef τ sig) = V (main_arg0 : DevRef τ sig) := by
  rw [ops_eq]
  simp only [after_append]
  rw [keep10_arg0, keep9_arg0, keep8_arg0, keep7_arg0, keep6_arg0, keep5_arg0, keep4_arg0,
    keep3_arg0, keep2_arg0, keep1_arg0, keep0_arg0]

/-- No operation writes the second argument. -/
theorem arg1_eq (V : Valuation τ sig (Elt F)) :
    after ops V (main_arg1 : DevRef τ sig) = V (main_arg1 : DevRef τ sig) := by
  rw [ops_eq]
  simp only [after_append]
  rw [keep10_arg1, keep9_arg1, keep8_arg1, keep7_arg1, keep6_arg1, keep5_arg1, keep4_arg1,
    keep3_arg1, keep2_arg1, keep1_arg1, keep0_arg1]

/-! ## The stages are the specification -/

/-- Under the precondition the three stages composed are the embedding: index by index, the table's row at the
    site's token. -/
theorem refOut_eq_G (n : IVec S4096x400 32) (tab : FVec Ideal S4x64 .f32)
    (h : Cert.Pre_input_domain.fn (F := Ideal) n tab = (fun _ => 1#1)) :
    refOut (F := Ideal) n tab = BandEmbed.G n tab := by
  funext i
  obtain ⟨b, s, k, rfl⟩ : ∃ (b : Fin 4096) (s : Fin 200) (k : Fin 64), i = ix3 b s k := ⟨i 0, i 1, i 2, eq_ix3 i⟩
  rw [refOut_apply n tab (BandEmbed.bits_of_pre n tab h) b s k]
  rfl

/-! ## The run -/

/-- Under the precondition every weakly fair execution of the reference terminates, with the result buffer at the
    embedding of the two argument arrays and the arguments unchanged. -/
theorem run (m : (l : Loc Cert.ReferenceIdeal.nD Cert.ReferenceIdeal.τ Cert.ReferenceIdeal.sig) → Buf (Elt Ideal) l)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v64)
            = BandEmbed.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v64).trans ((out_eq (launchContents m c)).trans (refOut_eq_G _ _ (hpre c))),
      (h c main_arg0).trans (arg0_eq (launchContents m c)),
      (h c main_arg1).trans (arg1_eq (launchContents m c))⟩)
    (run_main (F := Ideal) m g)

/-- The reference's frame: the run with the value dropped. -/
theorem frame : Cert.frame_ReferenceIdeal := fun m g hpre =>
  (θ_run (Cert.ReferenceIdeal.defs (F := Ideal)) _ _).mono (fun _ h c => (h c).2) (run m g hpre)

end Cert.ReferenceIdeal.RefValue

end
-- ==== Proof.Assemble.lean ====
/-
  The claim, assembled from the three runs.

  Each program's run is a statement "every weakly fair execution from the launch memory ends, nothing faulting, in a
  state where …".  The kernel's run (at either float instance) leaves the result at the kernel's result function of the
  bits and the table and both arguments unchanged, provided every vector subcore's task meets its obligation; the
  reference's run leaves the embedding of its own arguments and both unchanged.  A frame claim forgets the result.  The
  algebraic claim takes the embedding of the kernel's arguments as the common value: the kernel's result function is
  the embedding under the precondition, and the reference's arguments are the kernel's by hypothesis, so its
  precondition holds and its embedding is the same array.
-/
import proofs.«206263_g65532611002545_cont_9to1c4b_62_29_alg».proof.Defs
import proofs.«206263_g65532611002545_cont_9to1c4b_62_29_alg».proof.Proof.Gen.Kernel
import proofs.«206263_g65532611002545_cont_9to1c4b_62_29_alg».proof.Proof.Gen.KernelIdeal
import proofs.«206263_g65532611002545_cont_9to1c4b_62_29_alg».proof.Proof.Gen.ReferenceIdeal
import proofs.«206263_g65532611002545_cont_9to1c4b_62_29_alg».proof.Proof.Gen.Pre_input_domain
import proofs.«206263_g65532611002545_cont_9to1c4b_62_29_alg».proof.Proof.KILaunch
import proofs.«206263_g65532611002545_cont_9to1c4b_62_29_alg».proof.Proof.KBLaunch
import proofs.«206263_g65532611002545_cont_9to1c4b_62_29_alg».proof.Proof.KIValue
import proofs.«206263_g65532611002545_cont_9to1c4b_62_29_alg».proof.Proof.RefValue

noncomputable section

namespace Cert.Proof

open Idealize.ShloMosaic Idealize.SL.Sem

/-- The printed kernel runs and leaves its arguments unchanged, when every task meets its obligation: its run with the
    result forgotten. -/
theorem frame_K (hB : ∀ m, KB.TileBody (F := Bits) m) : Cert.frame_Kernel := fun m ρ _ =>
  (θ_run Cert.Kernel.defs _ _).mono (fun _ h c => ⟨(h c).2.1, (h c).2.2⟩) (KB.run_main (F := Bits) m ρ (hB m))

/-- The idealized kernel runs and leaves its arguments unchanged, when every task meets its obligation. -/
theorem frame_KI (hI : ∀ m, KI.TileBody (F := Ideal) m) : Cert.frame_KernelIdeal := fun m ρ _ =>
  (θ_run Cert.KernelIdeal.defs _ _).mono (fun _ h c => ⟨(h c).2.1, (h c).2.2⟩) (KI.run_main (F := Ideal) m ρ (hI m))

/-- The idealized kernel and the idealized reference, from memories agreeing on the arguments, both end at the
    embedding of the kernel's arguments. -/
theorem algebraic (hI : ∀ m, KI.TileBody (F := Ideal) m) : Cert.algebraic_KernelIdeal_ReferenceIdeal := by
  intro m ρ m' ρ' hpre hagree
  refine ⟨fun c => BandEmbed.G (m (KI.nLoc c)) (m (KI.aLoc c)), ?_, ?_⟩
  · exact (θ_run Cert.KernelIdeal.defs _ _).mono
      (fun _ h c => ⟨(h c).1.trans (KI.kout_eq_G _ _ (hpre c)), (h c).2.1, (h c).2.2⟩) (KI.run_main (F := Ideal) m ρ (hI m))
  · have hpre' : Cert.Pre_ReferenceIdeal m' := fun c => by
      rw [(hagree c).1, (hagree c).2]; exact hpre c
    refine (θ_run Cert.ReferenceIdeal.defs _ _).mono (fun _ h c => ⟨(h c).1.trans ?_, (h c).2.1, (h c).2.2⟩)
      (Cert.ReferenceIdeal.RefValue.run m' ρ' hpre')
    rw [(hagree c).1, (hagree c).2]

/-- The whole claim, from the two families of task obligations. -/
theorem claim_of_tiles (hB : ∀ m, KB.TileBody (F := Bits) m) (hI : ∀ m, KI.TileBody (F := Ideal) m) : Cert.Claim :=
  ⟨Cert.Kernel.Gen.facts, Cert.KernelIdeal.Gen.facts, Cert.ReferenceIdeal.Gen.facts, Cert.Pre_input_domain.Gen.facts,
    frame_K hB, frame_KI hI, Cert.ReferenceIdeal.RefValue.frame, trivial, algebraic hI⟩

end Cert.Proof

end
-- ==== Proof.KIRes.lean ====
/-
  A vector subcore's own storage, named: the seven scratch buffers and five DMA semaphores the kernel function is
  called on are among the subcore's scoped buffers and cells; the rest (there is none the kernel touches) is carried
  along as one remainder and handed back untouched.
-/
import proofs.«206263_g65532611002545_cont_9to1c4b_62_29_alg».proof.Proof.KIProto

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The scratch references, and the semaphores, are pairwise distinct -/
theorem rne0 : ¬(cc0_scratch0 : Ref sig .scVector) = cc0_scratch1 ∧ ¬(cc0_scratch0 : Ref sig .scVector) = cc0_scratch2 ∧ ¬(cc0_scratch0 : Ref sig .scVector) = cc0_scratch5 ∧ ¬(cc0_scratch0 : Ref sig .scVector) = cc0_scratch6 ∧ ¬(cc0_scratch0 : Ref sig .scVector) = cc0_scratch7 ∧ ¬(cc0_scratch0 : Ref sig .scVector) = cc0_scratch10 := by decide
theorem rne1 : ¬(cc0_scratch1 : Ref sig .scVector) = cc0_scratch2 ∧ ¬(cc0_scratch1 : Ref sig .scVector) = cc0_scratch5 ∧ ¬(cc0_scratch1 : Ref sig .scVector) = cc0_scratch6 ∧ ¬(cc0_scratch1 : Ref sig .scVector) = cc0_scratch7 ∧ ¬(cc0_scratch1 : Ref sig .scVector) = cc0_scratch10 := by decide
theorem rne2 : ¬(cc0_scratch2 : Ref sig .scVector) = cc0_scratch5 ∧ ¬(cc0_scratch2 : Ref sig .scVector) = cc0_scratch6 ∧ ¬(cc0_scratch2 : Ref sig .scVector) = cc0_scratch7 ∧ ¬(cc0_scratch2 : Ref sig .scVector) = cc0_scratch10 := by decide
theorem rne3 : ¬(cc0_scratch5 : Ref sig .scVector) = cc0_scratch6 ∧ ¬(cc0_scratch5 : Ref sig .scVector) = cc0_scratch7 ∧ ¬(cc0_scratch5 : Ref sig .scVector) = cc0_scratch10 := by decide
theorem rne4 : ¬(cc0_scratch6 : Ref sig .scVector) = cc0_scratch7 ∧ ¬(cc0_scratch6 : Ref sig .scVector) = cc0_scratch10 := by decide
theorem rne5 : ¬(cc0_scratch7 : Ref sig .scVector) = cc0_scratch10 := by decide
theorem sne0 : ¬(SemLoc.dma cc0_scratch3.sem : SemLoc sig) = SemLoc.dma cc0_scratch4.sem ∧ ¬(SemLoc.dma cc0_scratch3.sem : SemLoc sig) = SemLoc.dma cc0_scratch8.sem ∧ ¬(SemLoc.dma cc0_scratch3.sem : SemLoc sig) = SemLoc.dma cc0_scratch9.sem ∧ ¬(SemLoc.dma cc0_scratch3.sem : SemLoc sig) = SemLoc.dma cc0_scoped0.sem := by decide
theorem sne1 : ¬(SemLoc.dma cc0_scratch4.sem : SemLoc sig) = SemLoc.dma cc0_scratch8.sem ∧ ¬(SemLoc.dma cc0_scratch4.sem : SemLoc sig) = SemLoc.dma cc0_scratch9.sem ∧ ¬(SemLoc.dma cc0_scratch4.sem : SemLoc sig) = SemLoc.dma cc0_scoped0.sem := by decide
theorem sne2 : ¬(SemLoc.dma cc0_scratch8.sem : SemLoc sig) = SemLoc.dma cc0_scratch9.sem ∧ ¬(SemLoc.dma cc0_scratch8.sem : SemLoc sig) = SemLoc.dma cc0_scoped0.sem := by decide
theorem sne3 : ¬(SemLoc.dma cc0_scratch9.sem : SemLoc sig) = SemLoc.dma cc0_scoped0.sem := by decide
theorem scoped_cc0_scratch3 : (SemLoc.dma cc0_scratch3.sem : SemLoc sig).isScoped .scVector = true := by decide
theorem scoped_cc0_scratch4 : (SemLoc.dma cc0_scratch4.sem : SemLoc sig).isScoped .scVector = true := by decide
theorem scoped_cc0_scratch8 : (SemLoc.dma cc0_scratch8.sem : SemLoc sig).isScoped .scVector = true := by decide
theorem scoped_cc0_scratch9 : (SemLoc.dma cc0_scratch9.sem : SemLoc sig).isScoped .scVector = true := by decide
theorem scoped_cc0_scoped0 : (SemLoc.dma cc0_scoped0.sem : SemLoc sig).isScoped .scVector = true := by decide

variable {F : FTy → Type}

local notation "𝕄" => MT nD τ sig (HIx 1) (Elt F) ℕ UU ℕ

variable (d : Dev nD) (c : Fin τ.nSC) (i : Fin τ.nSub)

/-- The five semaphores of the kernel on the subcore: the two input slots', the two output slots', the table copy's. -/
abbrev gIn0 : GSem nD τ sig := (V d c i, SemLoc.dma cc0_scratch3.sem)
abbrev gOut0 : GSem nD τ sig := (V d c i, SemLoc.dma cc0_scratch4.sem)
abbrev gIn1 : GSem nD τ sig := (V d c i, SemLoc.dma cc0_scratch8.sem)
abbrev gOut1 : GSem nD τ sig := (V d c i, SemLoc.dma cc0_scratch9.sem)
abbrev gTab : GSem nD τ sig := (V d c i, SemLoc.dma cc0_scoped0.sem)

def kCells : Finset (GSem nD τ sig) := {gIn0 d c i, gOut0 d c i, gIn1 d c i, gOut1 d c i, gTab d c i}

theorem kCells_sub : kCells d c i ⊆ ownCells (V d c i) := by
  intro g hg
  simp only [kCells, Finset.mem_insert, Finset.mem_singleton] at hg
  rcases hg with rfl | rfl | rfl | rfl | rfl
  · exact mem_ownCells.mpr ⟨rfl, scoped_cc0_scratch3⟩
  · exact mem_ownCells.mpr ⟨rfl, scoped_cc0_scratch4⟩
  · exact mem_ownCells.mpr ⟨rfl, scoped_cc0_scratch8⟩
  · exact mem_ownCells.mpr ⟨rfl, scoped_cc0_scratch9⟩
  · exact mem_ownCells.mpr ⟨rfl, scoped_cc0_scoped0⟩

theorem ownSems0_V :
    (ownSems0 (V d c i) : sProp 𝕄)
      = iprop((semVal (gIn0 d c i) 0 ∗ semVal (gOut0 d c i) 0 ∗ semVal (gIn1 d c i) 0 ∗ semVal (gOut1 d c i) 0 ∗ semVal (gTab d c i) 0)
          ∗ bigSep (ownCells (V d c i) \ kCells d c i) fun g => semVal g 0) := by
  unfold SparseCore.Cfg.ownSems0
  rw [SparseCore.bigSep_sdiff_split' (kCells_sub d c i)]
  unfold kCells
  rw [SparseCore.bigSep_insert' (by simp only [Finset.mem_insert, Finset.mem_singleton, Prod.mk.injEq, true_and, not_or]; exact sne0),
    SparseCore.bigSep_insert' (by simp only [Finset.mem_insert, Finset.mem_singleton, Prod.mk.injEq, true_and, not_or]; exact sne1),
    SparseCore.bigSep_insert' (by simp only [Finset.mem_insert, Finset.mem_singleton, Prod.mk.injEq, true_and, not_or]; exact sne2),
    SparseCore.bigSep_insert' (by simp only [Finset.mem_singleton, Prod.mk.injEq, true_and]; exact sne3), bigSep_singleton]

/-- The seven scratch buffers: per slot the fetched bits, the tokens, the rows to write out; and the table. -/
abbrev rN0 : DevRef τ sig := (Proc.scVector c i).devRef cc0_scratch0
abbrev rK0 : DevRef τ sig := (Proc.scVector c i).devRef cc0_scratch1
abbrev rO0 : DevRef τ sig := (Proc.scVector c i).devRef cc0_scratch2
abbrev rN1 : DevRef τ sig := (Proc.scVector c i).devRef cc0_scratch5
abbrev rK1 : DevRef τ sig := (Proc.scVector c i).devRef cc0_scratch6
abbrev rO1 : DevRef τ sig := (Proc.scVector c i).devRef cc0_scratch7
abbrev rT : DevRef τ sig := (Proc.scVector c i).devRef cc0_scratch10

def kRefs : Finset (DevRef τ sig) := {rN0 c i, rK0 c i, rO0 c i, rN1 c i, rK1 c i, rO1 c i, rT c i}

theorem kRefs_sub : kRefs c i ⊆ ownRefs (τ := τ) (.scVector c i) := by
  intro b hb
  simp only [kRefs, Finset.mem_insert, Finset.mem_singleton] at hb
  rcases hb with rfl | rfl | rfl | rfl | rfl | rfl | rfl <;> exact SparseCore.Cfg.mem_ownRefs_of_owner rfl

theorem ownBufs_V :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch10 ↦{fullShare} f))
          ∗ bigSep (ownRefs (τ := τ) (.scVector c i) \ kRefs c i) fun b => iprop(∃ f, ((d, b) : Loc nD τ sig) ↦{fullShare} f)) := by
  unfold SparseCore.Cfg.ownBufs
  rw [show ((V d c i : Thread nD τ).2) = Proc.scVector c i from rfl, SparseCore.bigSep_sdiff_split' (kRefs_sub c i)]
  unfold kRefs
  have hinj := Proc.devRef_injective (τ := τ) (sig := sig) (Proc.scVector c i)
  rw [SparseCore.bigSep_insert' (by simp only [Finset.mem_insert, Finset.mem_singleton, hinj.eq_iff, not_or]; exact rne0),
    SparseCore.bigSep_insert' (by simp only [Finset.mem_insert, Finset.mem_singleton, hinj.eq_iff, not_or]; exact rne1),
    SparseCore.bigSep_insert' (by simp only [Finset.mem_insert, Finset.mem_singleton, hinj.eq_iff, not_or]; exact rne2),
    SparseCore.bigSep_insert' (by simp only [Finset.mem_insert, Finset.mem_singleton, hinj.eq_iff, not_or]; exact rne3),
    SparseCore.bigSep_insert' (by simp only [Finset.mem_insert, Finset.mem_singleton, hinj.eq_iff, not_or]; exact rne4),
    SparseCore.bigSep_insert' (by simp only [Finset.mem_singleton, hinj.eq_iff]; exact rne5), bigSep_singleton]

/-! ## The arrays and the scratch as the kernel function's memrefs address them

A buffer is spoken of through the memref the program names it by; each of these is the same assertion as the one over
the location, by unfolding. -/

section Views

variable (d : Dev nD) (L : grid0.Coords)

theorem pts_N0 (f : Buf (Elt F) ((V d (cV L) (jV L)).loc cc0_scratch0)) :
    (((Memref.whole cc0_scratch0 : Memref sig .scVector .vmem S8x400 .i32)).view.loc (V d (cV L) (jV L)) ↦{fullShare} f : sProp 𝕄)
      = (V d (cV L) (jV L)).loc cc0_scratch0 ↦{fullShare} f := rfl
theorem pts_K0 (f : Buf (Elt F) ((V d (cV L) (jV L)).loc cc0_scratch1)) :
    (((Memref.whole cc0_scratch1 : Memref sig .scVector .vmem S1600 .i32)).view.loc (V d (cV L) (jV L)) ↦{fullShare} f : sProp 𝕄)
      = (V d (cV L) (jV L)).loc cc0_scratch1 ↦{fullShare} f := rfl
theorem pts_O0 (f : Buf (Elt F) ((V d (cV L) (jV L)).loc cc0_scratch2)) :
    (((Memref.whole cc0_scratch2 : Memref sig .scVector .vmem S2x200x64 .f32)).view.loc (V d (cV L) (jV L)) ↦{fullShare} f : sProp 𝕄)
      = (V d (cV L) (jV L)).loc cc0_scratch2 ↦{fullShare} f := rfl
theorem pts_N1 (f : Buf (Elt F) ((V d (cV L) (jV L)).loc cc0_scratch5)) :
    (((Memref.whole cc0_scratch5 : Memref sig .scVector .vmem S8x400 .i32)).view.loc (V d (cV L) (jV L)) ↦{fullShare} f : sProp 𝕄)
      = (V d (cV L) (jV L)).loc cc0_scratch5 ↦{fullShare} f := rfl
theorem pts_K1 (f : Buf (Elt F) ((V d (cV L) (jV L)).loc cc0_scratch6)) :
    (((Memref.whole cc0_scratch6 : Memref sig .scVector .vmem S1600 .i32)).view.loc (V d (cV L) (jV L)) ↦{fullShare} f : sProp 𝕄)
      = (V d (cV L) (jV L)).loc cc0_scratch6 ↦{fullShare} f := rfl
theorem pts_O1 (f : Buf (Elt F) ((V d (cV L) (jV L)).loc cc0_scratch7)) :
    (((Memref.whole cc0_scratch7 : Memref sig .scVector .vmem S2x200x64 .f32)).view.loc (V d (cV L) (jV L)) ↦{fullShare} f : sProp 𝕄)
      = (V d (cV L) (jV L)).loc cc0_scratch7 ↦{fullShare} f := rfl
theorem pts_Tv (f : Buf (Elt F) ((V d (cV L) (jV L)).loc cc0_scratch10)) :
    (((Memref.whole cc0_scratch10 : Memref sig .scVector .vmem S256 .f32)).view.loc (V d (cV L) (jV L)) ↦{fullShare} f : sProp 𝕄)
      = (V d (cV L) (jV L)).loc cc0_scratch10 ↦{fullShare} f := rfl
theorem pts_N (q : PosShare TreeShare) (f : Buf (Elt F) (nLoc d)) :
    (((Memref.whole main_arg0_scv : Memref sig .scVector .hbm S4096x400 .i32)).view.loc (V d (cV L) (jV L)) ↦[Finset.univ]{q} f : sProp 𝕄)
      = nLoc d ↦[Finset.univ]{q} f := rfl
theorem pts_T (q : PosShare TreeShare) (f : Buf (Elt F) (tLoc d)) :
    (((Memref.whole main_v0_scv : Memref sig .scVector .hbm S256 .f32)).view.loc (V d (cV L) (jV L)) ↦[Finset.univ]{q} f : sProp 𝕄)
      = tLoc d ↦[Finset.univ]{q} f := rfl
theorem pts_O (I : Finset S4096x200x64.Idx) (f : Buf (Elt F) (oLoc d)) :
    (((Memref.whole main_v1_scv : Memref sig .scVector .hbm S4096x200x64 .f32)).view.loc (V d (cV L) (jV L)) ↦[I]{fullShare} f : sProp 𝕄)
      = oLoc d ↦[I]{fullShare} f := rfl

end Views

end Cert.Proof.KI

end
-- ==== Proof.KIChunks.lean ====
/-
  The sixty-four two-row chunks of a task's block of the result.

  Task w writes rows 128·w … 128·w + 127 of the result.  It does so in eight trips; trip k fills two slots b = 0, 1 of
  eight rows each and copies each slot out in four chunks oc = 0 … 3 of two rows: chunk (k, b, oc) is rows
  128·w + 16·k + 8·b + 2·oc  and the next.  The sixty-four chunks are pairwise disjoint and together are the block, so
  the block held whole is the sixty-four chunks held side by side, each as the two-row slice of the result its copy writes.
-/
import proofs.«206263_g65532611002545_cont_9to1c4b_62_29_alg».proof.Proof.KIRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The trips -/

theorem trips_eq : k0_t1_loop.trips = 8 := by decide

/-! ## A chunk, as a slice of the result and as a set of rows -/

section Chunks

variable (d : Dev nD) (L : grid0.Coords)

/-- Rows 128·w + 16·k + 8·b + 2·oc and the next, as a rectangle of the result. -/
abbrev chunkRect (k : Fin k0_t1_loop.trips) (b : Fin 2) (oc : Fin 4) : Rect S4096x200x64 :=
  Rect.unit (s := S4096x200x64) (k0_off13 L k (BitVec.ofNat 32 b.val) (BitVec.ofNat 32 (2 * oc.val))) S2x200x64.size (k0_off13_inb L k b oc)

/-- The slice of the result the copy of chunk (k, b, oc) is issued to. -/
abbrev oChunk (k : Fin k0_t1_loop.trips) (b : Fin 2) (oc : Fin 4) : Memref sig .scVector .hbm S2x200x64 .f32 :=
  (Memref.whole main_v1_scv : Memref sig .scVector .hbm S4096x200x64 .f32).slice
    (Rect.unit (s := S4096x200x64) (k0_off13 L k (BitVec.ofNat 32 b.val) (BitVec.ofNat 32 (2 * oc.val))) S2x200x64.size (k0_off13_inb L k b oc)) (fun _ => rfl)

/-- The chunk held through that slice, at contents `f` of the whole result. -/
abbrev chunkPts (f : Buf (Elt F) (oLoc d)) (k : Fin k0_t1_loop.trips) (b : Fin 2) (oc : Fin 4) : sProp 𝕄 :=
  (oChunk L k b oc).view.loc (V d (cV L) (jV L)) ↦[(oChunk L k b oc).view.set]{fullShare} f

theorem set_oChunk (k : Fin k0_t1_loop.trips) (b : Fin 2) (oc : Fin 4) : (oChunk L k b oc).view.set = (chunkRect L k b oc).set := by
  show ((View.whole (main_v1_scv : Ref sig .scVector)).slice (chunkRect L k b oc)).set = _
  rw [View.set_slice_whole]

theorem chunkPts_eq (f : Buf (Elt F) (oLoc d)) (k : Fin k0_t1_loop.trips) (b : Fin 2) (oc : Fin 4) :
    (chunkPts d L f k b oc : sProp 𝕄) = oLoc d ↦[(chunkRect L k b oc).set]{fullShare} f := by
  show ((oChunk L k b oc).view.loc (V d (cV L) (jV L)) ↦[(oChunk L k b oc).view.set]{fullShare} f : sProp 𝕄) = _
  rw [set_oChunk]

theorem widL_val : (widL L).val = 2 * (L 1).val + (L 0).val := rfl

/-- A chunk is its two rows, whole. -/
theorem mem_chunk (k : Fin k0_t1_loop.trips) (b : Fin 2) (oc : Fin 4) (i : S4096x200x64.Idx) :
    i ∈ (chunkRect L k b oc).set
      ↔ 128 * (widL L).val + 16 * k.val + 8 * b.val + 2 * oc.val ≤ (i 0).val
        ∧ (i 0).val < 128 * (widL L).val + 16 * k.val + 8 * b.val + 2 * oc.val + 2 := by
  rw [Rect.mem_set_unit, k0_off13_eq, widL_val]
  constructor
  · intro h
    have h0 := h 0
    simp only [Matrix.cons_val_zero, Shape.size] at h0
    omega
  · intro h a
    match a with
    | 0 => simp only [Matrix.cons_val_zero, Shape.size]; omega
    | 1 => exact ⟨Nat.zero_le _, by have := (i 1).isLt; simpa using this⟩
    | 2 => exact ⟨Nat.zero_le _, by have := (i 2).isLt; simpa using this⟩

/-- A task's block is its 128 rows, whole. -/
theorem mem_oBlk (w : Fin 32) (i : S4096x200x64.Idx) :
    i ∈ oBlk w ↔ 128 * w.val ≤ (i 0).val ∧ (i 0).val < 128 * w.val + 128 := by
  show i ∈ (Rect.unit (s := S4096x200x64) _ _ _).set ↔ _
  rw [Rect.mem_set_unit]
  constructor
  · intro h
    have h0 := h 0
    simp only [Shape.partIx, Shape.partSize, ↓reduceIte, Shape.size, Matrix.cons_val_zero] at h0
    omega
  · intro h a
    match a with
    | 0 => simp only [Shape.partIx, Shape.partSize, ↓reduceIte, Shape.size, Matrix.cons_val_zero]; omega
    | 1 => exact ⟨by simp [Shape.partIx], by have := (i 1).isLt; simpa [Shape.partIx, Shape.partSize] using this⟩
    | 2 => exact ⟨by simp [Shape.partIx], by have := (i 2).isLt; simpa [Shape.partIx, Shape.partSize] using this⟩

/-- The chunk of a triple (trip, slot, chunk of the slot). -/
abbrev chunkSet (p : Fin k0_t1_loop.trips × Fin 2 × Fin 4) : Finset S4096x200x64.Idx := (chunkRect L p.1 p.2.1 p.2.2).set

theorem chunk_disjoint : ∀ p ∈ (Finset.univ : Finset (Fin k0_t1_loop.trips × Fin 2 × Fin 4)), ∀ p' ∈ (Finset.univ : Finset (Fin k0_t1_loop.trips × Fin 2 × Fin 4)),
    p ≠ p' → Disjoint (chunkSet L p) (chunkSet L p') := by
  rintro ⟨k, b, oc⟩ - ⟨k', b', oc'⟩ - hne
  refine Finset.disjoint_left.mpr fun i h h' => hne ?_
  have h1 := (mem_chunk L k b oc i).mp h
  have h2 := (mem_chunk L k' b' oc' i).mp h'
  have hb := b.isLt; have hb' := b'.isLt; have hoc := oc.isLt; have hoc' := oc'.isLt
  have hk : k = k' := Fin.ext (by omega)
  have hbb : b = b' := Fin.ext (by omega)
  have hoo : oc = oc' := Fin.ext (by omega)
  rw [hk, hbb, hoo]

theorem chunk_cover : (Finset.univ : Finset (Fin k0_t1_loop.trips × Fin 2 × Fin 4)).biUnion (chunkSet L) = oBlk (widL L) := by
  ext i
  simp only [Finset.mem_biUnion, Finset.mem_univ, true_and, mem_oBlk]
  constructor
  · rintro ⟨⟨k, b, oc⟩, h⟩
    have h1 := (mem_chunk L k b oc i).mp h
    have hk : k.val < 8 := lt_of_lt_of_eq k.isLt trips_eq
    have hb := b.isLt; have hoc := oc.isLt
    constructor <;> omega
  · rintro ⟨h1, h2⟩
    refine ⟨(⟨((i 0).val - 128 * (widL L).val) / 16, by rw [trips_eq]; omega⟩, ⟨((i 0).val - 128 * (widL L).val) % 16 / 8, by omega⟩,
      ⟨((i 0).val - 128 * (widL L).val) % 8 / 2, by omega⟩), (mem_chunk L _ _ _ i).mpr ?_⟩
    constructor <;> simp only <;> omega

/-! ## The block, as its sixty-four chunks -/

omit d L in
theorem bigSep_triple {A B C : Type} [Fintype A] [Fintype B] [Fintype C] [DecidableEq A] [DecidableEq B] [DecidableEq C] (Φ : A × B × C → sProp 𝕄) :
    bigSep Finset.univ Φ = bigSep Finset.univ fun a => bigSep Finset.univ fun b => bigSep Finset.univ fun c => Φ (a, b, c) := by
  rw [← Finset.univ_product_univ, SparseCore.bigSep_product]
  refine bigSep_congr fun a _ => ?_
  rw [← Finset.univ_product_univ, SparseCore.bigSep_product]

/-- A task's block of the result, at any contents, is its sixty-four chunks, each held as the two-row slice of the
    result its copy writes. -/
theorem oBlk_chunks (f : Buf (Elt F) (oLoc d)) :
    (oLoc d ↦[oBlk (widL L)]{fullShare} f : sProp 𝕄)
      = bigSep Finset.univ fun k : Fin k0_t1_loop.trips => bigSep Finset.univ fun b : Fin 2 => bigSep Finset.univ fun oc : Fin 4 => chunkPts d L f k b oc := by
  rw [← chunk_cover L, pointsTo_biUnion Finset.univ (ℓ := oLoc d) (chunkSet L) (chunk_disjoint L),
    bigSep_triple (F := F) (fun p => oLoc d ↦[chunkSet L p]{fullShare} f)]
  exact bigSep_congr fun k _ => bigSep_congr fun b _ => bigSep_congr fun oc _ => (chunkPts_eq d L f k b oc).symm

/-! ## One trip's eight chunks, one by one -/

omit d L in
theorem univ_2x4 : ((Finset.univ : Finset (Fin 2)) ×ˢ (Finset.univ : Finset (Fin 4)))
    = {((0 : Fin 2), (0 : Fin 4)), (0, 1), (0, 2), (0, 3), (1, 0), (1, 1), (1, 2), (1, 3)} := by decide

/-- The eight chunks of trip `k`, listed: slot 0's four chunks, then slot 1's; chunk `oc` of a slot starts 2·oc rows
    into it, slot 1 eight rows after slot 0. -/
theorem trip_chunks (f : Buf (Elt F) (oLoc d)) (k : Fin k0_t1_loop.trips) :
    (bigSep Finset.univ fun b : Fin 2 => bigSep Finset.univ fun oc : Fin 4 => chunkPts d L f k b oc)
      = iprop(
        (((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} f)
        ∗ (((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} f)
        ∗ (((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} f)
        ∗ (((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} f)
        ∗ (((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} f)
        ∗ (((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} f)
        ∗ (((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} f)
        ∗ (((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} f)) := by
  rw [← SparseCore.bigSep_product Finset.univ Finset.univ (fun p : Fin 2 × Fin 4 => chunkPts d L f k p.1 p.2), univ_2x4,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

end Chunks

/-! ## The trips done and the trips to come -/

section Trips

/-- The trips from `k` on are trip `k` and the trips after it; -/
theorem chunks_from (Φ : Fin k0_t1_loop.trips → sProp 𝕄) (k : Fin k0_t1_loop.trips) :
    bigSep (Finset.univ.filter fun j : Fin k0_t1_loop.trips => k.val ≤ j.val) Φ
      = iprop(Φ k ∗ bigSep (Finset.univ.filter fun j : Fin k0_t1_loop.trips => k.val + 1 ≤ j.val) Φ) := by
  rw [show (Finset.univ.filter fun j : Fin k0_t1_loop.trips => k.val ≤ j.val)
      = insert k (Finset.univ.filter fun j : Fin k0_t1_loop.trips => k.val + 1 ≤ j.val) from by
    ext j
    simp only [Finset.mem_filter, Finset.mem_univ, true_and, Finset.mem_insert, Fin.ext_iff]
    omega]
  exact SparseCore.bigSep_insert' (by simp only [Finset.mem_filter, Finset.mem_univ, true_and]; omega)

/-- the trips up to and with `k` are the trips before it and trip `k`. -/
theorem chunks_upto (Φ : Fin k0_t1_loop.trips → sProp 𝕄) (k : Fin k0_t1_loop.trips) :
    bigSep (Finset.univ.filter fun j : Fin k0_t1_loop.trips => j.val < k.val + 1) Φ
      = iprop(bigSep (Finset.univ.filter fun j : Fin k0_t1_loop.trips => j.val < k.val) Φ ∗ Φ k) := by
  rw [show (Finset.univ.filter fun j : Fin k0_t1_loop.trips => j.val < k.val + 1)
      = insert k (Finset.univ.filter fun j : Fin k0_t1_loop.trips => j.val < k.val) from by
    ext j
    simp only [Finset.mem_filter, Finset.mem_univ, true_and, Finset.mem_insert, Fin.ext_iff]
    omega,
    SparseCore.bigSep_insert' (by simp only [Finset.mem_filter, Finset.mem_univ, true_and]; omega)]
  have h1 : iprop(Φ k ∗ bigSep (Finset.univ.filter fun j : Fin k0_t1_loop.trips => j.val < k.val) Φ)
      ⊢ iprop(bigSep (Finset.univ.filter fun j : Fin k0_t1_loop.trips => j.val < k.val) Φ ∗ Φ k) := by
    iintro ⟨A, B⟩; isplitl [B] <;> iassumption
  have h2 : iprop(bigSep (Finset.univ.filter fun j : Fin k0_t1_loop.trips => j.val < k.val) Φ ∗ Φ k)
      ⊢ iprop(Φ k ∗ bigSep (Finset.univ.filter fun j : Fin k0_t1_loop.trips => j.val < k.val) Φ) := by
    iintro ⟨B, A⟩; isplitl [A] <;> iassumption
  exact Entails.antisymm h1 h2

/-- The ends: every trip is from 0 on, none before 0; none from 8 on, every one before 8. -/
theorem from_zero : (Finset.univ.filter fun j : Fin k0_t1_loop.trips => 0 ≤ j.val) = Finset.univ :=
  Finset.filter_true_of_mem fun _ _ => Nat.zero_le _
theorem upto_zero : (Finset.univ.filter fun j : Fin k0_t1_loop.trips => j.val < 0) = ∅ :=
  Finset.filter_false_of_mem fun _ _ => Nat.not_lt_zero _
theorem from_ge {n : ℕ} (h : 8 ≤ n) : (Finset.univ.filter fun j : Fin k0_t1_loop.trips => n ≤ j.val) = ∅ :=
  Finset.filter_false_of_mem fun j _ => by have := lt_of_lt_of_eq j.isLt trips_eq; omega
theorem upto_ge {n : ℕ} (h : 8 ≤ n) : (Finset.univ.filter fun j : Fin k0_t1_loop.trips => j.val < n) = Finset.univ :=
  Finset.filter_true_of_mem fun j _ => by have := lt_of_lt_of_eq j.isLt trips_eq; omega
theorem from_end : (Finset.univ.filter fun j : Fin k0_t1_loop.trips => 8 ≤ j.val) = ∅ := from_ge (le_refl 8)
theorem upto_end : (Finset.univ.filter fun j : Fin k0_t1_loop.trips => j.val < 8) = Finset.univ := upto_ge (le_refl 8)

end Trips

end Cert.Proof.KI

end
-- ==== Proof.KIRows.lean ====
/-
  Rows of the result, by ranges.

  A task's block of the result is 128 consecutive rows, and everything the task does with it is by row ranges: a
  two-row chunk is a range, the rows still to be written and the rows already copied out are ranges, and holding a
  range whole is holding two adjacent sub-ranges side by side.  Here a range [a, b) of rows is a set of indices of the
  result; adjacent ranges are disjoint and join; and the splittings and joinings the task's loop needs are stated
  once, each as an equation between what is held.
-/
import proofs.«206263_g65532611002545_cont_9to1c4b_62_29_alg».proof.Proof.KIChunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Ranges of rows -/

/-- The indices of the result whose row lies in [a, b). -/
def rowsSet (a b : ℕ) : Finset S4096x200x64.Idx := Finset.univ.filter fun i => a ≤ (i 0).val ∧ (i 0).val < b

theorem mem_rowsSet (a b : ℕ) (i : S4096x200x64.Idx) : i ∈ rowsSet a b ↔ a ≤ (i 0).val ∧ (i 0).val < b := by
  simp only [rowsSet, Finset.mem_filter, Finset.mem_univ, true_and]

/-- A range is named by its ends. -/
theorem rowsSet_congr {a b a' b' : ℕ} (ha : a = a') (hb : b = b') : rowsSet a b = rowsSet a' b' := by rw [ha, hb]

/-- Adjacent ranges join. -/
theorem rowsSet_union {a b c : ℕ} (hab : a ≤ b) (hbc : b ≤ c) : rowsSet a b ∪ rowsSet b c = rowsSet a c := by
  ext i
  simp only [Finset.mem_union, mem_rowsSet]
  omega

/-- Adjacent ranges are disjoint. -/
theorem rowsSet_disjoint (a b c : ℕ) : Disjoint (rowsSet a b) (rowsSet b c) :=
  Finset.disjoint_left.mpr fun i h1 h2 => by
    have h1 := (mem_rowsSet a b i).mp h1
    have h2 := (mem_rowsSet b c i).mp h2
    omega

/-- A range that ends no later than it starts is empty. -/
theorem rowsSet_eq_empty {a b : ℕ} (h : b ≤ a) : rowsSet a b = ∅ := by
  ext i
  simp only [mem_rowsSet, Finset.notMem_empty, iff_false]
  omega

theorem rowsSet_self (a : ℕ) : rowsSet a a = ∅ := rowsSet_eq_empty (le_refl a)

/-- The first row of the block of the task at grid coordinates L. -/
abbrev B0 (L : grid0.Coords) : ℕ := 128 * (widL L).val

section Rows

variable (d : Dev nD) (L : grid0.Coords)

/-- A two-row chunk is a range of two rows. -/
theorem chunk_set_eq (k : Fin k0_t1_loop.trips) (b : Fin 2) (oc : Fin 4) :
    (chunkRect L k b oc).set
      = rowsSet (B0 L + 16 * k.val + 8 * b.val + 2 * oc.val) (B0 L + 16 * k.val + 8 * b.val + 2 * oc.val + 2) := by
  ext i
  rw [mem_chunk, mem_rowsSet]

/-- A task's block is a range of 128 rows. -/
theorem oBlk_eq : oBlk (widL L) = rowsSet (B0 L) (B0 L + 128) := by
  ext i
  rw [mem_oBlk, mem_rowsSet]

/-- (W1) The block held whole is its range of rows held whole. -/
theorem rows_ofBlk (f : Buf (Elt F) (oLoc d)) :
    (oLoc d ↦[oBlk (widL L)]{fullShare} f : sProp 𝕄) = oLoc d ↦[rowsSet (B0 L) (B0 L + 128)]{fullShare} f := by
  rw [oBlk_eq]

/-! ## Splitting and joining -/

/-- A range held whole is two adjacent sub-ranges held side by side. -/
theorem rows_split (f : Buf (Elt F) (oLoc d)) {a b c : ℕ} (hab : a ≤ b) (hbc : b ≤ c) :
    (oLoc d ↦[rowsSet a c]{fullShare} f : sProp 𝕄)
      = iprop((oLoc d ↦[rowsSet a b]{fullShare} f) ∗ oLoc d ↦[rowsSet b c]{fullShare} f) := by
  rw [← rowsSet_union hab hbc]
  exact Entails.antisymm (pointsTo_union (rowsSet_disjoint a b c)).mp (pointsTo_union (rowsSet_disjoint a b c)).mpr

/-- An empty range held is nothing held. -/
theorem rows_empty (f : Buf (Elt F) (oLoc d)) {a b : ℕ} (h : b ≤ a) :
    (oLoc d ↦[rowsSet a b]{fullShare} f : sProp 𝕄) = iprop(emp) := by
  rw [rowsSet_eq_empty h]
  exact pointsTo_empty

/-- Sixteen rows are eight adjacent pairs of rows. -/
theorem eight_join (f : Buf (Elt F) (oLoc d)) (a : ℕ) :
    (oLoc d ↦[rowsSet a (a + 16)]{fullShare} f : sProp 𝕄)
      = iprop((oLoc d ↦[rowsSet (a) (a + 2)]{fullShare} f)
        ∗ (oLoc d ↦[rowsSet (a + 2) (a + 4)]{fullShare} f)
        ∗ (oLoc d ↦[rowsSet (a + 4) (a + 6)]{fullShare} f)
        ∗ (oLoc d ↦[rowsSet (a + 6) (a + 8)]{fullShare} f)
        ∗ (oLoc d ↦[rowsSet (a + 8) (a + 10)]{fullShare} f)
        ∗ (oLoc d ↦[rowsSet (a + 10) (a + 12)]{fullShare} f)
        ∗ (oLoc d ↦[rowsSet (a + 12) (a + 14)]{fullShare} f)
        ∗ (oLoc d ↦[rowsSet (a + 14) (a + 16)]{fullShare} f)) := by
  rw [rows_split d f (show a ≤ a + 2 by omega) (show a + 2 ≤ a + 16 by omega),
    rows_split d f (show a + 2 ≤ a + 4 by omega) (show a + 4 ≤ a + 16 by omega),
    rows_split d f (show a + 4 ≤ a + 6 by omega) (show a + 6 ≤ a + 16 by omega),
    rows_split d f (show a + 6 ≤ a + 8 by omega) (show a + 8 ≤ a + 16 by omega),
    rows_split d f (show a + 8 ≤ a + 10 by omega) (show a + 10 ≤ a + 16 by omega),
    rows_split d f (show a + 10 ≤ a + 12 by omega) (show a + 12 ≤ a + 16 by omega),
    rows_split d f (show a + 12 ≤ a + 14 by omega) (show a + 14 ≤ a + 16 by omega)]

/-- Twelve rows are six adjacent pairs of rows. -/
theorem six_join_at (f : Buf (Elt F) (oLoc d)) (a : ℕ) :
    (iprop((oLoc d ↦[rowsSet (a) (a + 2)]{fullShare} f)
        ∗ (oLoc d ↦[rowsSet (a + 2) (a + 4)]{fullShare} f)
        ∗ (oLoc d ↦[rowsSet (a + 4) (a + 6)]{fullShare} f)
        ∗ (oLoc d ↦[rowsSet (a + 6) (a + 8)]{fullShare} f)
        ∗ (oLoc d ↦[rowsSet (a + 8) (a + 10)]{fullShare} f)
        ∗ (oLoc d ↦[rowsSet (a + 10) (a + 12)]{fullShare} f)) : sProp 𝕄)
      = oLoc d ↦[rowsSet a (a + 12)]{fullShare} f := by
  rw [rows_split d f (show a ≤ a + 2 by omega) (show a + 2 ≤ a + 12 by omega),
    rows_split d f (show a + 2 ≤ a + 4 by omega) (show a + 4 ≤ a + 12 by omega),
    rows_split d f (show a + 4 ≤ a + 6 by omega) (show a + 6 ≤ a + 12 by omega),
    rows_split d f (show a + 6 ≤ a + 8 by omega) (show a + 8 ≤ a + 12 by omega),
    rows_split d f (show a + 8 ≤ a + 10 by omega) (show a + 10 ≤ a + 12 by omega)]

/-! ## A chunk, from the spelling of its copy to a range of rows -/

/-- (W3) Chunk (k, b, oc), held through the slice its copy names at any contents, is its two rows held. -/
theorem chunk_rows (g : Buf (Elt F) (oLoc d)) (k : Fin k0_t1_loop.trips) (b : Fin 2) (oc : Fin 4) :
    (chunkPts d L g k b oc : sProp 𝕄)
      = oLoc d ↦[rowsSet (B0 L + 16 * k.val + 8 * b.val + 2 * oc.val) (B0 L + 16 * k.val + 8 * b.val + 2 * oc.val + 2)]{fullShare} g := by
  rw [chunkPts_eq, chunk_set_eq]

/-- Chunk (0, 0) of trip k, in the spelling of its copy, is rows 0 and 1 of the trip's sixteen. -/
theorem chunk_rows_00 (g : Buf (Elt F) (oLoc d)) (k : Fin k0_t1_loop.trips) :
    ((((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} g) : sProp 𝕄)
      = (oLoc d ↦[rowsSet (B0 L + 16 * k.val) (B0 L + 16 * k.val + 2)]{fullShare} g) := by
  refine (chunk_rows d L g k 0 0).trans ?_
  rw [rowsSet_congr (a' := B0 L + 16 * k.val) (b' := B0 L + 16 * k.val + 2) (by simp) (by simp)]

/-- Chunk (0, 1) of trip k, in the spelling of its copy, is rows 2 and 3 of the trip's sixteen. -/
theorem chunk_rows_01 (g : Buf (Elt F) (oLoc d)) (k : Fin k0_t1_loop.trips) :
    ((((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} g) : sProp 𝕄)
      = (oLoc d ↦[rowsSet (B0 L + 16 * k.val + 2) (B0 L + 16 * k.val + 4)]{fullShare} g) := by
  refine (chunk_rows d L g k 0 1).trans ?_
  rw [rowsSet_congr (a' := B0 L + 16 * k.val + 2) (b' := B0 L + 16 * k.val + 4) (by simp) (by simp)]

/-- Chunk (0, 2) of trip k, in the spelling of its copy, is rows 4 and 5 of the trip's sixteen. -/
theorem chunk_rows_02 (g : Buf (Elt F) (oLoc d)) (k : Fin k0_t1_loop.trips) :
    ((((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} g) : sProp 𝕄)
      = (oLoc d ↦[rowsSet (B0 L + 16 * k.val + 4) (B0 L + 16 * k.val + 6)]{fullShare} g) := by
  refine (chunk_rows d L g k 0 2).trans ?_
  rw [rowsSet_congr (a' := B0 L + 16 * k.val + 4) (b' := B0 L + 16 * k.val + 6) (by simp) (by simp)]

/-- Chunk (0, 3) of trip k, in the spelling of its copy, is rows 6 and 7 of the trip's sixteen. -/
theorem chunk_rows_03 (g : Buf (Elt F) (oLoc d)) (k : Fin k0_t1_loop.trips) :
    ((((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} g) : sProp 𝕄)
      = (oLoc d ↦[rowsSet (B0 L + 16 * k.val + 6) (B0 L + 16 * k.val + 8)]{fullShare} g) := by
  refine (chunk_rows d L g k 0 3).trans ?_
  rw [rowsSet_congr (a' := B0 L + 16 * k.val + 6) (b' := B0 L + 16 * k.val + 8) (by simp) (by simp)]

/-- Chunk (1, 0) of trip k, in the spelling of its copy, is rows 8 and 9 of the trip's sixteen. -/
theorem chunk_rows_10 (g : Buf (Elt F) (oLoc d)) (k : Fin k0_t1_loop.trips) :
    ((((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} g) : sProp 𝕄)
      = (oLoc d ↦[rowsSet (B0 L + 16 * k.val + 8) (B0 L + 16 * k.val + 10)]{fullShare} g) := by
  refine (chunk_rows d L g k 1 0).trans ?_
  rw [rowsSet_congr (a' := B0 L + 16 * k.val + 8) (b' := B0 L + 16 * k.val + 10) (by simp) (by simp)]

/-- Chunk (1, 1) of trip k, in the spelling of its copy, is rows 10 and 11 of the trip's sixteen. -/
theorem chunk_rows_11 (g : Buf (Elt F) (oLoc d)) (k : Fin k0_t1_loop.trips) :
    ((((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} g) : sProp 𝕄)
      = (oLoc d ↦[rowsSet (B0 L + 16 * k.val + 10) (B0 L + 16 * k.val + 12)]{fullShare} g) := by
  refine (chunk_rows d L g k 1 1).trans ?_
  rw [rowsSet_congr (a' := B0 L + 16 * k.val + 10) (b' := B0 L + 16 * k.val + 12) (by simp) (by simp)]

/-- Chunk (1, 2) of trip k, in the spelling of its copy, is rows 12 and 13 of the trip's sixteen. -/
theorem chunk_rows_12 (g : Buf (Elt F) (oLoc d)) (k : Fin k0_t1_loop.trips) :
    ((((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} g) : sProp 𝕄)
      = (oLoc d ↦[rowsSet (B0 L + 16 * k.val + 12) (B0 L + 16 * k.val + 14)]{fullShare} g) := by
  refine (chunk_rows d L g k 1 2).trans ?_
  rw [rowsSet_congr (a' := B0 L + 16 * k.val + 12) (b' := B0 L + 16 * k.val + 14) (by simp) (by simp)]

/-- Chunk (1, 3) of trip k, in the spelling of its copy, is rows 14 and 15 of the trip's sixteen. -/
theorem chunk_rows_13 (g : Buf (Elt F) (oLoc d)) (k : Fin k0_t1_loop.trips) :
    ((((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} g) : sProp 𝕄)
      = (oLoc d ↦[rowsSet (B0 L + 16 * k.val + 14) (B0 L + 16 * k.val + 16)]{fullShare} g) := by
  refine (chunk_rows d L g k 1 3).trans ?_
  rw [rowsSet_congr (a' := B0 L + 16 * k.val + 14) (b' := B0 L + 16 * k.val + 16) (by simp) (by simp)]

/-! ## The rows still to be written -/

/-- (W2) The rows from trip k on are trip k's eight chunks, in the spelling of their copies, and the rows from trip
    k + 1 on. -/
theorem todo_split (f : Buf (Elt F) (oLoc d)) (k : Fin k0_t1_loop.trips) :
    (oLoc d ↦[rowsSet (B0 L + 16 * k.val) (B0 L + 128)]{fullShare} f : sProp 𝕄)
      ⊣⊢ iprop((
        (((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} f)
        ∗ (((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} f)
        ∗ (((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} f)
        ∗ (((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} f)
        ∗ (((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} f)
        ∗ (((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} f)
        ∗ (((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} f)
        ∗ (((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} f))
        ∗ oLoc d ↦[rowsSet (B0 L + 16 * (k.val + 1)) (B0 L + 128)]{fullShare} f) := by
  have hk : k.val < 8 := lt_of_lt_of_eq k.isLt trips_eq
  refine BiEntails.of_eq ?_
  rw [chunk_rows_00 d L f k, chunk_rows_01 d L f k, chunk_rows_02 d L f k, chunk_rows_03 d L f k, chunk_rows_10 d L f k, chunk_rows_11 d L f k, chunk_rows_12 d L f k, chunk_rows_13 d L f k,
    ← eight_join d f (B0 L + 16 * k.val),
    rowsSet_congr (a := B0 L + 16 * (k.val + 1)) (a' := B0 L + 16 * k.val + 16) (b' := B0 L + 128) (by omega) rfl]
  exact rows_split d f (by omega) (by omega)

/-! ## The rows already copied out -/

/-- (W4) After trip k ≥ 1 has issued its first six chunks: the rows done before, the two chunks of the previous trip
    just waited for, and the six new chunks' rows are the rows done now. -/
theorem done_join (f : Buf (Elt F) (oLoc d)) (k : ℕ) (hk : 1 ≤ k) (hk8 : k < 8) :
    iprop((oLoc d ↦[rowsSet (B0 L) (B0 L + 16 * k - 4)]{fullShare} f)
        ∗ (oLoc d ↦[rowsSet (B0 L + 16 * k - 4) (B0 L + 16 * k - 2)]{fullShare} f)
        ∗ (oLoc d ↦[rowsSet (B0 L + 16 * k - 2) (B0 L + 16 * k)]{fullShare} f)
        ∗ (oLoc d ↦[rowsSet (B0 L + 16 * k) (B0 L + 16 * k + 12)]{fullShare} f))
      ⊣⊢ (oLoc d ↦[rowsSet (B0 L) (B0 L + 16 * (k + 1) - 4)]{fullShare} f : sProp 𝕄) := by
  refine BiEntails.of_eq ?_
  rw [rowsSet_congr (a := B0 L) (b := B0 L + 16 * (k + 1) - 4) (a' := B0 L) (b' := B0 L + 16 * k + 12) rfl (by omega),
    rows_split d f (a := B0 L) (b := B0 L + 16 * k - 4) (c := B0 L + 16 * k + 12) (by omega) (by omega),
    rows_split d f (a := B0 L + 16 * k - 4) (b := B0 L + 16 * k - 2) (c := B0 L + 16 * k + 12) (by omega) (by omega),
    rows_split d f (a := B0 L + 16 * k - 2) (b := B0 L + 16 * k) (c := B0 L + 16 * k + 12) (by omega) (by omega)]

/-- Before the first trip nothing is done: the range of rows done is empty. -/
theorem done_zero (f : Buf (Elt F) (oLoc d)) :
    (oLoc d ↦[rowsSet (B0 L) (B0 L + 16 * 0 - 4)]{fullShare} f : sProp 𝕄) = iprop(emp) :=
  rows_empty d f (by omega)

/-- The same, of the set. -/
theorem done_zero_set : rowsSet (B0 L) (B0 L + 16 * 0 - 4) = ∅ := rowsSet_eq_empty (by omega)

/-- (W5) Before the first trip the rows still to be written are the whole block. -/
theorem first_start (f : Buf (Elt F) (oLoc d)) :
    (oLoc d ↦[rowsSet (B0 L + 16 * 0) (B0 L + 128)]{fullShare} f : sProp 𝕄) = oLoc d ↦[oBlk (widL L)]{fullShare} f := by
  rw [rows_ofBlk, rowsSet_congr (a := B0 L + 16 * 0) (a' := B0 L) (b' := B0 L + 128) (by omega) rfl]

/-- (W4) for trip k' + 1, with no side condition on k'. -/
theorem done_join_succ (f : Buf (Elt F) (oLoc d)) (k' : ℕ) (hk8 : k' + 1 < 8) :
    iprop((oLoc d ↦[rowsSet (B0 L) (B0 L + 16 * (k' + 1) - 4)]{fullShare} f)
        ∗ (oLoc d ↦[rowsSet (B0 L + 16 * (k' + 1) - 4) (B0 L + 16 * (k' + 1) - 2)]{fullShare} f)
        ∗ (oLoc d ↦[rowsSet (B0 L + 16 * (k' + 1) - 2) (B0 L + 16 * (k' + 1))]{fullShare} f)
        ∗ (oLoc d ↦[rowsSet (B0 L + 16 * (k' + 1)) (B0 L + 16 * (k' + 1) + 12)]{fullShare} f))
      ⊣⊢ (oLoc d ↦[rowsSet (B0 L) (B0 L + 16 * (k' + 1 + 1) - 4)]{fullShare} f : sProp 𝕄) :=
  done_join d L f (k' + 1) (by omega) hk8

/-- The first six chunks of trip k, as ranges of rows, are the first twelve rows of the trip's sixteen. -/
theorem six_join (f : Buf (Elt F) (oLoc d)) (k : Fin 8) :
    (iprop((oLoc d ↦[rowsSet (B0 L + 16 * k.val) (B0 L + 16 * k.val + 2)]{fullShare} f)
        ∗ (oLoc d ↦[rowsSet (B0 L + 16 * k.val + 2) (B0 L + 16 * k.val + 4)]{fullShare} f)
        ∗ (oLoc d ↦[rowsSet (B0 L + 16 * k.val + 4) (B0 L + 16 * k.val + 6)]{fullShare} f)
        ∗ (oLoc d ↦[rowsSet (B0 L + 16 * k.val + 6) (B0 L + 16 * k.val + 8)]{fullShare} f)
        ∗ (oLoc d ↦[rowsSet (B0 L + 16 * k.val + 8) (B0 L + 16 * k.val + 10)]{fullShare} f)
        ∗ (oLoc d ↦[rowsSet (B0 L + 16 * k.val + 10) (B0 L + 16 * k.val + 12)]{fullShare} f)) : sProp 𝕄)
      ⊣⊢ oLoc d ↦[rowsSet (B0 L + 16 * k.val) (B0 L + 16 * k.val + 12)]{fullShare} f :=
  BiEntails.of_eq (six_join_at d f (B0 L + 16 * k.val))

/-- At the end: the rows done, and the last trip's last two chunks, are the whole block. -/
theorem end_join (f : Buf (Elt F) (oLoc d)) :
    iprop((oLoc d ↦[rowsSet (B0 L) (B0 L + 128 - 4)]{fullShare} f)
        ∗ (oLoc d ↦[rowsSet (B0 L + 124) (B0 L + 126)]{fullShare} f)
        ∗ (oLoc d ↦[rowsSet (B0 L + 126) (B0 L + 128)]{fullShare} f))
      ⊣⊢ (oLoc d ↦[rowsSet (B0 L) (B0 L + 128)]{fullShare} f : sProp 𝕄) := by
  refine BiEntails.of_eq ?_
  rw [rows_split d f (a := B0 L) (b := B0 L + 128 - 4) (c := B0 L + 128) (by omega) (by omega),
    rowsSet_congr (a := B0 L + 128 - 4) (b := B0 L + 128) (a' := B0 L + 124) (b' := B0 L + 128) (by omega) rfl,
    rows_split d f (a := B0 L + 124) (b := B0 L + 126) (c := B0 L + 128) (by omega) (by omega)]

end Rows

end Cert.Proof.KI

end
-- ==== Proof.KIFacts.lean ====
/-
  The two value facts a task's invariant carries about data in motion: an input scratch holds eight rows of the bits,
  and two rows of the result array agree with the result function.
-/
import proofs.«206263_g65532611002545_cont_9to1c4b_62_29_alg».proof.Proof.KIProto

noncomputable section

namespace Cert.Proof.KI

open Cert.KernelIdeal Cert.KernelIdeal.Gen
open Idealize.ShloMosaic Idealize.ShloMosaic.ValueIdx

variable {F : FTy → Type}

/-- The input scratch `fd` holds rows `row … row + 7` of the bits `n`. -/
def NvOK (n : IVec S4096x400 32) (row : ℕ) (fd : IVec S8x400 32) : Prop :=
  ∃ hrow : row + 8 ≤ 4096, ∀ (r : Fin 8) (c : Fin 400),
    fd (ix2 (n0 := 8) (n1 := 400) r c) = n (ix2 (n0 := 4096) (n1 := 400) ⟨row + r.val, by have := r.isLt; omega⟩ c)

/-- The output scratch `f` holds rows `a, a + 1` of the result function `R`. -/
def OutvOK (R : FVec F S4096x200x64 .f32) (a : ℕ) (f : FVec F S2x200x64 .f32) : Prop :=
  ∃ ha : a + 2 ≤ 4096, ∀ (r2 : Fin 2) (s : Fin 200) (c : Fin 64),
    f (ix3 (n0 := 2) (n1 := 200) (n2 := 64) r2 s c) = R (ix3 (n0 := 4096) (n1 := 200) (n2 := 64) ⟨a + r2.val, by have := r2.isLt; omega⟩ s c)

/-- The array contents `g` agree with `R` on rows `a … b − 1`. -/
def RowsOK (R g : FVec F S4096x200x64 .f32) (a b : ℕ) : Prop :=
  ∀ i : S4096x200x64.Idx, a ≤ (i 0).val → (i 0).val < b → g i = R i

end Cert.Proof.KI

end
-- ==== Proof.KIInv.lean ====
/-
  What a task holds before trip k of its pair loop, and the small facts the trips share.

  Two input slots (each: a scratch for eight rows of the bits, a semaphore) and two output slots (each: a scratch for
  two rows of the result, a semaphore).  Before trip k < 8 both input slots have their copy outstanding (rows 16k … of
  the task's block for slot 0, 16k + 8 … for slot 1); after the last trip they rest.  Before the first trip the output
  slots rest; before a later trip each still has the previous trip's last write-out outstanding (rows 16k − 4, 16k − 3
  for slot 0 and 16k − 2, 16k − 1 for slot 1).  Of the task's 128 rows of the result, rows 16k … are untouched (at the
  launch contents) and rows … 16k − 5 are done (at the result function R).
-/
import proofs.«206263_g65532611002545_cont_9to1c4b_62_29_alg».proof.Proof.KIRes
import proofs.«206263_g65532611002545_cont_9to1c4b_62_29_alg».proof.Proof.KIRows
import proofs.«206263_g65532611002545_cont_9to1c4b_62_29_alg».proof.Proof.KIFacts
import proofs.«206263_g65532611002545_cont_9to1c4b_62_29_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

variable (d : Dev nD) (L : grid0.Coords)

/-- An inner loop touches one token scratch (read) and one output scratch (written); frame only. -/
def invGF (bK : Memref sig .scVector .vmem S1600 .i32) (bO : Memref sig .scVector .vmem S2x200x64 .f32) (_ : Nat) (_ : BitVec 32) : sProp 𝕄 :=
  iprop((∃ Y, bK.view.loc (V d (cV L) (jV L)) ↦{fullShare} Y) ∗ ∃ f, bO.view.loc (V d (cV L) (jV L)) ↦{fullShare} f)

/-- The prefetch guards: a slot is refilled in every trip but the last. -/
theorem cond1_lt : ∀ k : Fin k0_t1_loop.trips, k.val < 7 → k0_cond1 k = 1#1 := by decide
theorem cond1_ge : ∀ k : Fin k0_t1_loop.trips, ¬ k.val < 7 → ¬ k0_cond1 k = 1#1 := by decide
theorem cond4_lt : ∀ k : Fin k0_t1_loop.trips, k.val < 7 → k0_cond4 k = 1#1 := by decide
theorem cond4_ge : ∀ k : Fin k0_t1_loop.trips, ¬ k.val < 7 → ¬ k0_cond4 k = 1#1 := by decide

/-- Input slot 0 with its copy outstanding: the flight carries the slot's scratch (at what lands: rows `row …` of
    the bits) and the rows of the bits lent to it; the rest of that share of the bits is beside it. -/
def InFl0 (q : PosShare TreeShare) (sm : SemLoc sig) (row : ℕ) : sProp 𝕄 :=
  iprop(∃ (I : Finset (Idx ((Memref.whole main_arg0_scv : Memref sig .scVector .hbm S4096x400 .i32).view.loc (V d (cV L) (jV L))))) (fd : Buf (Elt F) ((Memref.whole cc0_scratch0 : Memref sig .scVector .vmem S8x400 .i32).view.loc (V d (cV L) (jV L)))),
    ⌜NvOK (m (nLoc d)) row fd⌝ ∗ Transfers.Flight countersEmb (V d (cV L) (jV L)) sm (default : HIx 1) 102400
      iprop(((Memref.whole cc0_scratch0 : Memref sig .scVector .vmem S8x400 .i32).view.loc (V d (cV L) (jV L)) ↦{fullShare} fd) ∗ ((Memref.whole main_arg0_scv : Memref sig .scVector .hbm S4096x400 .i32).view.loc (V d (cV L) (jV L)) ↦[I]{q} m (nLoc d)))
    ∗ ((Memref.whole main_arg0_scv : Memref sig .scVector .hbm S4096x400 .i32).view.loc (V d (cV L) (jV L)) ↦[Finset.univ \ I]{q} m (nLoc d)))
/-- Input slot 0 at rest (after the last trip): scratch, semaphore at zero, the share of the bits whole. -/
def InHeld0 (q : PosShare TreeShare) (sm : SemLoc sig) : sProp 𝕄 :=
  iprop((∃ fd, (Memref.whole cc0_scratch0 : Memref sig .scVector .vmem S8x400 .i32).view.loc (V d (cV L) (jV L)) ↦{fullShare} fd) ∗ semVal ((V d (cV L) (jV L)), sm) 0 ∗ ((Memref.whole main_arg0_scv : Memref sig .scVector .hbm S4096x400 .i32).view.loc (V d (cV L) (jV L)) ↦[Finset.univ]{q} m (nLoc d)))
def InSt0 (q : PosShare TreeShare) (sm : SemLoc sig) (row : ℕ) (k : ℕ) : sProp 𝕄 :=
  if k < 8 then InFl0 m d L q sm row else InHeld0 m d L q sm

/-- Input slot 1 with its copy outstanding: the flight carries the slot's scratch (at what lands: rows `row …` of
    the bits) and the rows of the bits lent to it; the rest of that share of the bits is beside it. -/
def InFl1 (q : PosShare TreeShare) (sm : SemLoc sig) (row : ℕ) : sProp 𝕄 :=
  iprop(∃ (I : Finset (Idx ((Memref.whole main_arg0_scv : Memref sig .scVector .hbm S4096x400 .i32).view.loc (V d (cV L) (jV L))))) (fd : Buf (Elt F) ((Memref.whole cc0_scratch5 : Memref sig .scVector .vmem S8x400 .i32).view.loc (V d (cV L) (jV L)))),
    ⌜NvOK (m (nLoc d)) row fd⌝ ∗ Transfers.Flight countersEmb (V d (cV L) (jV L)) sm (default : HIx 1) 102400
      iprop(((Memref.whole cc0_scratch5 : Memref sig .scVector .vmem S8x400 .i32).view.loc (V d (cV L) (jV L)) ↦{fullShare} fd) ∗ ((Memref.whole main_arg0_scv : Memref sig .scVector .hbm S4096x400 .i32).view.loc (V d (cV L) (jV L)) ↦[I]{q} m (nLoc d)))
    ∗ ((Memref.whole main_arg0_scv : Memref sig .scVector .hbm S4096x400 .i32).view.loc (V d (cV L) (jV L)) ↦[Finset.univ \ I]{q} m (nLoc d)))
/-- Input slot 1 at rest (after the last trip): scratch, semaphore at zero, the share of the bits whole. -/
def InHeld1 (q : PosShare TreeShare) (sm : SemLoc sig) : sProp 𝕄 :=
  iprop((∃ fd, (Memref.whole cc0_scratch5 : Memref sig .scVector .vmem S8x400 .i32).view.loc (V d (cV L) (jV L)) ↦{fullShare} fd) ∗ semVal ((V d (cV L) (jV L)), sm) 0 ∗ ((Memref.whole main_arg0_scv : Memref sig .scVector .hbm S4096x400 .i32).view.loc (V d (cV L) (jV L)) ↦[Finset.univ]{q} m (nLoc d)))
def InSt1 (q : PosShare TreeShare) (sm : SemLoc sig) (row : ℕ) (k : ℕ) : sProp 𝕄 :=
  if k < 8 then InFl1 m d L q sm row else InHeld1 m d L q sm

/-- An output slot with its write-out outstanding: the flight carries two rows of the result (at what lands) and the
    slot's scratch. -/
def OutFl (R : Buf (Elt F) (oLoc d)) (sm : SemLoc sig) (bO : Memref sig .scVector .vmem S2x200x64 .f32) (a b : ℕ) : sProp 𝕄 :=
  iprop(∃ (gC : Buf (Elt F) (oLoc d)) (fo : Buf (Elt F) (bO.view.loc (V d (cV L) (jV L)))),
    ⌜RowsOK R gC a b⌝ ∗ Transfers.Flight countersEmb (V d (cV L) (jV L)) sm (default : HIx 1) 819200
      iprop((oLoc d ↦[rowsSet a b]{fullShare} gC) ∗ (bO.view.loc (V d (cV L) (jV L)) ↦[bO.view.set]{fullShare} fo))
    ∗ (bO.view.loc (V d (cV L) (jV L)) ↦[Finset.univ \ bO.view.set]{fullShare} fo))
/-- The two output slots: at rest before the first trip, in flight with the previous trip's last four rows after. -/
def OutSt (R : Buf (Elt F) (oLoc d)) : ℕ → sProp 𝕄
  | 0 => iprop((∃ f, (Memref.whole cc0_scratch2 : Memref sig .scVector .vmem S2x200x64 .f32).view.loc (V d (cV L) (jV L)) ↦{fullShare} f) ∗ (∃ f, (Memref.whole cc0_scratch7 : Memref sig .scVector .vmem S2x200x64 .f32).view.loc (V d (cV L) (jV L)) ↦{fullShare} f)
      ∗ semVal (gOut0 d (cV L) (jV L)) 0 ∗ semVal (gOut1 d (cV L) (jV L)) 0)
  | k + 1 => iprop(OutFl d L R (SemLoc.dma cc0_scratch4.sem) (Memref.whole cc0_scratch2 : Memref sig .scVector .vmem S2x200x64 .f32) (B0 L + 16 * k + 12) (B0 L + 16 * k + 14)
      ∗ OutFl d L R (SemLoc.dma cc0_scratch9.sem) (Memref.whole cc0_scratch7 : Memref sig .scVector .vmem S2x200x64 .f32) (B0 L + 16 * k + 14) (B0 L + 16 * k + 16))

/-- Where the done rows end before trip `k`: nothing before the first trip; after trip `k` all of its rows but the last four. -/
def doneEnd (L : grid0.Coords) : ℕ → ℕ
  | 0 => B0 L
  | k + 1 => B0 L + 16 * k + 12

/-- Two adjacent row ranges at one function are their union; -/
theorem rows_join (R : Buf (Elt F) (oLoc d)) {a b c : ℕ} (hab : a ≤ b) (hbc : b ≤ c) :
    iprop((oLoc d ↦[rowsSet a b]{fullShare} R) ∗ (oLoc d ↦[rowsSet b c]{fullShare} R)) ⊢ (oLoc d ↦[rowsSet a c]{fullShare} R : sProp 𝕄) :=
  Entails.of_eq (rows_split d R hab hbc).symm
/-- and a row range may be spelt by any equal ends. -/
theorem rows_respell (R : Buf (Elt F) (oLoc d)) {a b a' b' : ℕ} (ha : a = a') (hb : b = b') :
    (oLoc d ↦[rowsSet a b]{fullShare} R : sProp 𝕄) ⊢ oLoc d ↦[rowsSet a' b']{fullShare} R := by
  subst ha; subst hb; exact Entails.refl _

/-- Before trip `k` of the pair loop. -/
def invP (O : CellTallies nD τ sig (HIx 1)) (W : Waits sig (HIx 1)) (X : Buf (Elt F) ((V d (cV L) (jV L)).loc cc0_scratch10)) (R : Buf (Elt F) (oLoc d)) (k : Nat) (_ : BitVec 32) : sProp 𝕄 :=
  iprop(Transfers.MayWaits (V d (cV L) (jV L)) (none : HIx 1) O
    ∗ InSt0 m d L (Transfers.shareTok fullShare 32 (widL L)).left (SemLoc.dma cc0_scratch3.sem) (B0 L + 16 * k) k
    ∗ InSt1 m d L (Transfers.shareTok fullShare 32 (widL L)).right (SemLoc.dma cc0_scratch8.sem) (B0 L + 16 * k + 8) k
    ∗ (∃ f, (Memref.whole cc0_scratch1 : Memref sig .scVector .vmem S1600 .i32).view.loc (V d (cV L) (jV L)) ↦{fullShare} f)
    ∗ (∃ f, (Memref.whole cc0_scratch6 : Memref sig .scVector .vmem S1600 .i32).view.loc (V d (cV L) (jV L)) ↦{fullShare} f)
    ∗ ((Memref.whole cc0_scratch10 : Memref sig .scVector .vmem S256 .f32).view.loc (V d (cV L) (jV L)) ↦{fullShare} X)
    ∗ OutSt d L R k
    ∗ (oLoc d ↦[rowsSet (B0 L + 16 * k) (B0 L + 128)]{fullShare} m (oLoc d))
    ∗ (oLoc d ↦[rowsSet (B0 L) (doneEnd L k)]{fullShare} R)
    ∗ ∃ W', ⌜∀ p ∈ W', p ∈ W ∨ p.2 = none⌝ ∗ owes (V d (cV L) (jV L)) O W')

/-- A flight's delivery may be restated by an equal assertion. -/
theorem flight_congr {sm : SemLoc sig} {N : ℕ} {D D' E : sProp 𝕄} (h : D = D') :
    Transfers.Flight countersEmb (V d (cV L) (jV L)) sm (default : HIx 1) N iprop(D ∗ E) ⊢ Transfers.Flight countersEmb (V d (cV L) (jV L)) sm (default : HIx 1) N iprop(D' ∗ E) := by
  subst h; exact Entails.refl _

/-- Rows that agree with the result function may be held at it. -/
theorem rows_to_R (R g : Buf (Elt F) (oLoc d)) {a b : ℕ} (h : RowsOK R g a b) :
    (oLoc d ↦[rowsSet a b]{fullShare} g : sProp 𝕄) ⊢ oLoc d ↦[rowsSet a b]{fullShare} R :=
  Entails.of_eq (pointsTo_congr fun i hi => h i ((mem_rowsSet a b i).mp hi).1 ((mem_rowsSet a b i).mp hi).2)

theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.Proof.KI

end
-- ==== Proof.KIMoves.lean ====
/-
  Three facts of pure data movement inside a task.

  The token words.  A task's input scratch holds eight rows of the occupation bits, per row the 200 "down" words then
  the 200 "up" words.  The token scratch is written sixteen words at a time: the piece at  200·r + o  holds, lane by
  lane, the up word plus the down word twice of row r at sites o … o + 15.  Whatever order the pieces are written in,
  and although two of a row's pieces overlap, every piece is a block of ONE function of the scratch's index — word
  200·r + s is  up(r, s) + down(r, s) + down(r, s)  — so the scratch reads back as that function wherever a piece
  covers, and the pieces cover it.

  The copies.  A copy of eight rows of the bits into an input scratch leaves the scratch at those rows; the write-out
  of an output scratch into a two-row chunk of the result leaves the chunk at the scratch's contents.
-/
import proofs.«206263_g65532611002545_cont_9to1c4b_62_29_alg».proof.Proof.KIChunks
import proofs.«206263_g65532611002545_cont_9to1c4b_62_29_alg».proof.Proof.KIFacts
import Idealize.ShloMosaic.Lib.ValueLayout
import Idealize.ShloMosaic.Lib.Pipeline.Value
import Idealize.ShloMosaic.Lib.Writes
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.ValueIdx

variable {F : FTy → Type}

/-! ## The token words -/

/-- The token word of site `s` of row `r` of an input scratch: the up word plus the down word twice. -/
def tokAt (fd : IVec S8x400 32) (r : Fin 8) (s : Fin 200) : BitVec 32 :=
  Scalar.addi (Scalar.addi (fd (ix2 (n0 := 8) (n1 := 400) r ⟨200 + s.val, by have := s.isLt; omega⟩))
      (fd (ix2 (n0 := 8) (n1 := 400) r ⟨s.val, by have := s.isLt; omega⟩)))
    (fd (ix2 (n0 := 8) (n1 := 400) r ⟨s.val, by have := s.isLt; omega⟩))

/-- The token scratch as one function of its index: word 200·r + s is the token word of site s of row r. -/
def tokOf (fd : IVec S8x400 32) : IVec S1600 32 := fun y =>
  tokAt fd ⟨(y 0).val / 200, by have h : (y 0).val < 1600 := (y 0).isLt; omega⟩ ⟨(y 0).val % 200, Nat.mod_lt _ (by decide)⟩

theorem tokOf_of (fd : IVec S8x400 32) (y : S1600.Idx) (r : Fin 8) (s : Fin 200) (h : (y 0).val = 200 * r.val + s.val) :
    tokOf fd y = tokAt fd r s := by
  have hs := s.isLt
  unfold tokOf
  congr 1 <;> apply Fin.ext <;> simp only <;> omega

theorem tokOf_ix (fd : IVec S8x400 32) (r : Fin 8) (s : Fin 200) (h : 200 * r.val + s.val < 1600) :
    tokOf fd (ix1 (n := 1600) ⟨200 * r.val + s.val, h⟩) = tokAt fd r s :=
  tokOf_of fd _ r s rfl

/-- Where a sixteen-word load of row `r` from column `o` reads its lane `j`. -/
theorem idx_row (r o : ℕ) (inb : ∀ a, (![r, o] : Fin 2 → ℕ) a + S1x16.size a ≤ S8x400.size a) (j : Fin 16) (a : Fin 8) (b : Fin 400)
    (ha : a.val = r) (hb : b.val = o + j.val) :
    (Rect.unit (s := S8x400) ![r, o] S1x16.size inb).toLoadRect.idx (ix2 (n0 := 1) (n1 := 16) 0 j) = ix2 (n0 := 8) (n1 := 400) a b := by
  funext c
  match c with
  | ⟨0, _⟩ => exact Fin.ext (by show r + 1 * 0 = a.val; omega)
  | ⟨1, _⟩ => exact Fin.ext (by show o + 1 * j.val = b.val; omega)

/-- A sixteen-word load of row `r` from column `o` lies in the input scratch; a sixteen-word piece at `o` in the token scratch. -/
theorem inb_row (r o : ℕ) (hr : r < 8) (ho : o + 16 ≤ 400) : ∀ a, (![r, o] : Fin 2 → ℕ) a + S1x16.size a ≤ S8x400.size a := by
  intro a
  match a with
  | ⟨0, _⟩ => show r + 1 ≤ 8; omega
  | ⟨1, _⟩ => show o + 16 ≤ 400; omega
theorem inb_tok (o : ℕ) (ho : o + 16 ≤ 1600) : ∀ a, (![o] : Fin 1 → ℕ) a + S16.size a ≤ S1600.size a := by
  intro a
  match a with
  | ⟨0, _⟩ => show o + 16 ≤ 1600; omega

/-- One piece of the token scratch, as the kernel computes it from two sixteen-word loads of an input scratch (the
    first input scratch here), is a block of `tokOf`. -/
theorem tok_piece0 (fd : IVec S8x400 32) (r oU oD oP : ℕ)
    (hU : oU = oD + 200) (hP : oP = 200 * r + oD) (hD : oD + 16 ≤ 200) (hr : r < 8) (x : S16.Idx) :
    shapeCast S16
        (addi (addi
            (shapeCast S16 (View.readAt (Elt F) (Memref.whole cc0_scratch0 : Memref sig .scVector .vmem S8x400 .i32).view
              (Rect.unit (s := S8x400) ![r, oU] S1x16.size (inb_row r oU hr (by omega))).toLoadRect fd) shapeCasts_S1x16_S16)
            (shapeCast S16 (View.readAt (Elt F) (Memref.whole cc0_scratch0 : Memref sig .scVector .vmem S8x400 .i32).view
              (Rect.unit (s := S8x400) ![r, oD] S1x16.size (inb_row r oD hr (by omega))).toLoadRect fd) shapeCasts_S1x16_S16))
          (shapeCast S16 (View.readAt (Elt F) (Memref.whole cc0_scratch0 : Memref sig .scVector .vmem S8x400 .i32).view
            (Rect.unit (s := S8x400) ![r, oD] S1x16.size (inb_row r oD hr (by omega))).toLoadRect fd) shapeCasts_S1x16_S16))
        shapeCasts_S16_S16 x
      = tokOf fd ((Rect.unit (s := S1600) ![oP] S16.size (inb_tok oP (by omega))).emb x) := by
  subst hU hP
  obtain ⟨j, rfl⟩ : ∃ j : Fin 16, x = ix1 (n := 16) j := ⟨x 0, eq_ix1 x⟩
  have hj := j.isLt
  rw [shapeCast_self,
    tokOf_of fd _ ⟨r, hr⟩ ⟨oD + j.val, by omega⟩ (show 200 * r + oD + 1 * j.val = 200 * r + (oD + j.val) by omega)]
  show IntOp.addi (IntOp.addi (shapeCast S16 _ shapeCasts_S1x16_S16 (ix1 (n := 16) j)) (shapeCast S16 _ shapeCasts_S1x16_S16 (ix1 (n := 16) j)))
      (shapeCast S16 _ shapeCasts_S1x16_S16 (ix1 (n := 16) j)) = _
  rw [shapeCast_1a_a_apply, shapeCast_1a_a_apply]
  simp only [View.readAt_apply]
  rw [idx_row r (oD + 200) _ j ⟨r, hr⟩ ⟨200 + (oD + j.val), by omega⟩ rfl (by show 200 + (oD + j.val) = oD + 200 + j.val; omega),
    idx_row r oD _ j ⟨r, hr⟩ ⟨oD + j.val, by omega⟩ rfl rfl]
  rfl

/-- One piece of the token scratch, as the kernel computes it from two sixteen-word loads of an input scratch (the
    second input scratch here), is a block of `tokOf`. -/
theorem tok_piece5 (fd : IVec S8x400 32) (r oU oD oP : ℕ)
    (hU : oU = oD + 200) (hP : oP = 200 * r + oD) (hD : oD + 16 ≤ 200) (hr : r < 8) (x : S16.Idx) :
    shapeCast S16
        (addi (addi
            (shapeCast S16 (View.readAt (Elt F) (Memref.whole cc0_scratch5 : Memref sig .scVector .vmem S8x400 .i32).view
              (Rect.unit (s := S8x400) ![r, oU] S1x16.size (inb_row r oU hr (by omega))).toLoadRect fd) shapeCasts_S1x16_S16)
            (shapeCast S16 (View.readAt (Elt F) (Memref.whole cc0_scratch5 : Memref sig .scVector .vmem S8x400 .i32).view
              (Rect.unit (s := S8x400) ![r, oD] S1x16.size (inb_row r oD hr (by omega))).toLoadRect fd) shapeCasts_S1x16_S16))
          (shapeCast S16 (View.readAt (Elt F) (Memref.whole cc0_scratch5 : Memref sig .scVector .vmem S8x400 .i32).view
            (Rect.unit (s := S8x400) ![r, oD] S1x16.size (inb_row r oD hr (by omega))).toLoadRect fd) shapeCasts_S1x16_S16))
        shapeCasts_S16_S16 x
      = tokOf fd ((Rect.unit (s := S1600) ![oP] S16.size (inb_tok oP (by omega))).emb x) := by
  subst hU hP
  obtain ⟨j, rfl⟩ : ∃ j : Fin 16, x = ix1 (n := 16) j := ⟨x 0, eq_ix1 x⟩
  have hj := j.isLt
  rw [shapeCast_self,
    tokOf_of fd _ ⟨r, hr⟩ ⟨oD + j.val, by omega⟩ (show 200 * r + oD + 1 * j.val = 200 * r + (oD + j.val) by omega)]
  show IntOp.addi (IntOp.addi (shapeCast S16 _ shapeCasts_S1x16_S16 (ix1 (n := 16) j)) (shapeCast S16 _ shapeCasts_S1x16_S16 (ix1 (n := 16) j)))
      (shapeCast S16 _ shapeCasts_S1x16_S16 (ix1 (n := 16) j)) = _
  rw [shapeCast_1a_a_apply, shapeCast_1a_a_apply]
  simp only [View.readAt_apply]
  rw [idx_row r (oD + 200) _ j ⟨r, hr⟩ ⟨200 + (oD + j.val), by omega⟩ rfl (by show 200 + (oD + j.val) = oD + 200 + j.val; omega),
    idx_row r oD _ j ⟨r, hr⟩ ⟨oD + j.val, by omega⟩ rfl rfl]
  rfl

/-- A token scratch written by pieces each a block of `tokOf`, the pieces covering it, reads the token word of site
    `s` of row `r` at word 200·r + s, whatever it held before (the first token scratch; then the second). -/
theorem tokY1 (fd : IVec S8x400 32) (f0 : (Memref.whole cc0_scratch1 : Memref sig .scVector .vmem S1600 .i32).view.ty.Contents (Elt F))
    (Lst : List (View.Piece (Elt F) S1600 .i32))
    (hp : ∀ p ∈ Lst, ∀ x : p.1.shape.Idx, p.2 x = tokOf fd (p.1.emb x))
    (hc : ∀ y : S1600.Idx, ∃ p ∈ Lst, y ∈ p.1.set) (r : Fin 8) (s : Fin 200) (h : 200 * r.val + s.val < 1600) :
    ((Memref.whole cc0_scratch1 : Memref sig .scVector .vmem S1600 .i32).view.writes (Elt F) f0 Lst) (ix1 (n := 1600) ⟨200 * r.val + s.val, h⟩)
      = tokAt fd r s :=
  (View.read_writes_apply_of_pieces (Memref.whole cc0_scratch1 : Memref sig .scVector .vmem S1600 .i32).view f0 (tokOf fd) Lst hp _ (hc _)).trans
    (tokOf_ix fd r s h)
theorem tokY6 (fd : IVec S8x400 32) (f0 : (Memref.whole cc0_scratch6 : Memref sig .scVector .vmem S1600 .i32).view.ty.Contents (Elt F))
    (Lst : List (View.Piece (Elt F) S1600 .i32))
    (hp : ∀ p ∈ Lst, ∀ x : p.1.shape.Idx, p.2 x = tokOf fd (p.1.emb x))
    (hc : ∀ y : S1600.Idx, ∃ p ∈ Lst, y ∈ p.1.set) (r : Fin 8) (s : Fin 200) (h : 200 * r.val + s.val < 1600) :
    ((Memref.whole cc0_scratch6 : Memref sig .scVector .vmem S1600 .i32).view.writes (Elt F) f0 Lst) (ix1 (n := 1600) ⟨200 * r.val + s.val, h⟩)
      = tokAt fd r s :=
  (View.read_writes_apply_of_pieces (Memref.whole cc0_scratch6 : Memref sig .scVector .vmem S1600 .i32).view f0 (tokOf fd) Lst hp _ (hc _)).trans
    (tokOf_ix fd r s h)

/-! ## A copy of eight rows of the bits into an input scratch -/

/-- After the copy the scratch holds, at (r, c), the bits at (first row + r, first column + c) — whatever it held before
    (the first input scratch; then the second). -/
theorem copyIn0 (off : Fin 2 → ℕ) (h : ∀ a, off a + S8x400.size a ≤ S4096x400.size a) (g : IVec S4096x400 32) (f0 : IVec S8x400 32)
    (r : Fin 8) (c : Fin 400) :
    (View.write (Elt F) (Memref.whole cc0_scratch0 : Memref sig .scVector .vmem S8x400 .i32).view f0
        (((Memref.whole main_arg0_scv : Memref sig .scVector .hbm S4096x400 .i32).slice (Rect.unit (s := S4096x400) off S8x400.size h) (fun _ => rfl)).view.read (Elt F) g)
        Finset.univ) (ix2 (n0 := 8) (n1 := 400) r c)
      = g (ix2 (n0 := 4096) (n1 := 400) ⟨off 0 + r.val, by have h0 : off 0 + 8 ≤ 4096 := h 0; have := r.isLt; omega⟩
          ⟨off 1 + c.val, by have h1 : off 1 + 400 ≤ 400 := h 1; have := c.isLt; omega⟩) := by
  refine (congrFun (View.write_whole_univ (Val := Elt F) (cc0_scratch0 : Ref sig .scVector) f0 _) (ix2 (n0 := 8) (n1 := 400) r c)).trans ?_
  refine ((View.read_apply _ _).trans (cast_eq _ _)).trans (congrArg g (funext fun a => ?_))
  match a with
  | ⟨0, _⟩ => exact Fin.ext (by show off 0 + 1 * r.val = off 0 + r.val; omega)
  | ⟨1, _⟩ => exact Fin.ext (by show off 1 + 1 * c.val = off 1 + c.val; omega)
theorem copyIn5 (off : Fin 2 → ℕ) (h : ∀ a, off a + S8x400.size a ≤ S4096x400.size a) (g : IVec S4096x400 32) (f0 : IVec S8x400 32)
    (r : Fin 8) (c : Fin 400) :
    (View.write (Elt F) (Memref.whole cc0_scratch5 : Memref sig .scVector .vmem S8x400 .i32).view f0
        (((Memref.whole main_arg0_scv : Memref sig .scVector .hbm S4096x400 .i32).slice (Rect.unit (s := S4096x400) off S8x400.size h) (fun _ => rfl)).view.read (Elt F) g)
        Finset.univ) (ix2 (n0 := 8) (n1 := 400) r c)
      = g (ix2 (n0 := 4096) (n1 := 400) ⟨off 0 + r.val, by have h0 : off 0 + 8 ≤ 4096 := h 0; have := r.isLt; omega⟩
          ⟨off 1 + c.val, by have h1 : off 1 + 400 ≤ 400 := h 1; have := c.isLt; omega⟩) := by
  refine (congrFun (View.write_whole_univ (Val := Elt F) (cc0_scratch5 : Ref sig .scVector) f0 _) (ix2 (n0 := 8) (n1 := 400) r c)).trans ?_
  refine ((View.read_apply _ _).trans (cast_eq _ _)).trans (congrArg g (funext fun a => ?_))
  match a with
  | ⟨0, _⟩ => exact Fin.ext (by show off 0 + 1 * r.val = off 0 + r.val; omega)
  | ⟨1, _⟩ => exact Fin.ext (by show off 1 + 1 * c.val = off 1 + c.val; omega)

/-! ## The write-out of an output scratch into a chunk of the result -/

section WriteOut

variable (L : grid0.Coords)

/-- Where entry (r2, s, c) of chunk (k, b, oc) lies in the result: row 128·w + 16·k + 8·b + 2·oc + r2. -/
theorem oChunk_emb (k : Fin k0_t1_loop.trips) (b : Fin 2) (oc : Fin 4) (r2 : Fin 2) (s : Fin 200) (c : Fin 64) :
    (oChunk L k b oc).view.emb (ix3 (n0 := 2) (n1 := 200) (n2 := 64) r2 s c)
      = ix3 (n0 := 4096) (n1 := 200) (n2 := 64)
          ⟨128 * (widL L).val + 16 * k.val + 8 * b.val + 2 * oc.val + r2.val, by
            have hk : k.val < 8 := lt_of_lt_of_eq k.isLt trips_eq
            have := (widL L).isLt; have := b.isLt; have := oc.isLt; have := r2.isLt; omega⟩ s c := by
  funext a
  apply Fin.ext
  show (k0_off13 L k (BitVec.ofNat 32 b.val) (BitVec.ofNat 32 (2 * oc.val))) a + 1 * ((ix3 (n0 := 2) (n1 := 200) (n2 := 64) r2 s c) a).val = _
  rw [k0_off13_eq]
  have hw := widL_val L
  match a with
  | ⟨0, _⟩ =>
    show 256 * (L 1).val + 128 * (L 0).val + 16 * k.val + 8 * b.val + 2 * oc.val + 1 * r2.val
      = 128 * (widL L).val + 16 * k.val + 8 * b.val + 2 * oc.val + r2.val
    omega
  | ⟨1, _⟩ => show 0 + 1 * s.val = s.val; omega
  | ⟨2, _⟩ => show 0 + 1 * c.val = c.val; omega

/-- After the write-out the chunk holds the scratch's contents, entry by entry — whatever the result held there before
    (the first output scratch; then the second). -/
theorem writeOut2 (k : Fin k0_t1_loop.trips) (b : Fin 2) (oc : Fin 4) (gOld : FVec F S4096x200x64 .f32) (f : FVec F S2x200x64 .f32)
    (r2 : Fin 2) (s : Fin 200) (c : Fin 64) :
    ((oChunk L k b oc).view.write (Elt F) gOld ((Memref.whole cc0_scratch2 : Memref sig .scVector .vmem S2x200x64 .f32).view.read (Elt F) f) Finset.univ)
        ((oChunk L k b oc).view.emb (ix3 (n0 := 2) (n1 := 200) (n2 := 64) r2 s c))
      = f (ix3 (n0 := 2) (n1 := 200) (n2 := 64) r2 s c) := by
  refine (View.write_emb_of_mem (Val := Elt F) (v := (oChunk L k b oc).view) gOld _ (Finset.mem_univ _)).trans ?_
  exact (cast_eq _ _).trans rfl
theorem writeOut7 (k : Fin k0_t1_loop.trips) (b : Fin 2) (oc : Fin 4) (gOld : FVec F S4096x200x64 .f32) (f : FVec F S2x200x64 .f32)
    (r2 : Fin 2) (s : Fin 200) (c : Fin 64) :
    ((oChunk L k b oc).view.write (Elt F) gOld ((Memref.whole cc0_scratch7 : Memref sig .scVector .vmem S2x200x64 .f32).view.read (Elt F) f) Finset.univ)
        ((oChunk L k b oc).view.emb (ix3 (n0 := 2) (n1 := 200) (n2 := 64) r2 s c))
      = f (ix3 (n0 := 2) (n1 := 200) (n2 := 64) r2 s c) := by
  refine (View.write_emb_of_mem (Val := Elt F) (v := (oChunk L k b oc).view) gOld _ (Finset.mem_univ _)).trans ?_
  exact (cast_eq _ _).trans rfl

/-- The same read at a row of the result: for a row inside the chunk, the chunk holds the scratch's entry at that row
    less the chunk's first. -/
theorem writeOut2_at (k : Fin k0_t1_loop.trips) (b : Fin 2) (oc : Fin 4) (gOld : FVec F S4096x200x64 .f32) (f : FVec F S2x200x64 .f32)
    (i : S4096x200x64.Idx) (hi : i ∈ (chunkRect L k b oc).set) :
    ((oChunk L k b oc).view.write (Elt F) gOld ((Memref.whole cc0_scratch2 : Memref sig .scVector .vmem S2x200x64 .f32).view.read (Elt F) f) Finset.univ) i
      = f (ix3 (n0 := 2) (n1 := 200) (n2 := 64)
          ⟨(i 0).val - (128 * (widL L).val + 16 * k.val + 8 * b.val + 2 * oc.val), by have := (mem_chunk L k b oc i).mp hi; omega⟩ (i 1) (i 2)) := by
  have hm := (mem_chunk L k b oc i).mp hi
  have e : (oChunk L k b oc).view.emb (ix3 (n0 := 2) (n1 := 200) (n2 := 64)
      ⟨(i 0).val - (128 * (widL L).val + 16 * k.val + 8 * b.val + 2 * oc.val), by omega⟩ (i 1) (i 2)) = i := by
    refine (oChunk_emb L k b oc _ _ _).trans ?_
    funext a
    match a with
    | ⟨0, _⟩ =>
      exact Fin.ext (by
        show 128 * (widL L).val + 16 * k.val + 8 * b.val + 2 * oc.val + ((i 0).val - (128 * (widL L).val + 16 * k.val + 8 * b.val + 2 * oc.val)) = (i 0).val
        omega)
    | ⟨1, _⟩ => rfl
    | ⟨2, _⟩ => rfl
  exact (congrArg ((oChunk L k b oc).view.write (Elt F) gOld ((Memref.whole cc0_scratch2 : Memref sig .scVector .vmem S2x200x64 .f32).view.read (Elt F) f) Finset.univ) e.symm).trans
    (writeOut2 L k b oc gOld f _ _ _)
theorem writeOut7_at (k : Fin k0_t1_loop.trips) (b : Fin 2) (oc : Fin 4) (gOld : FVec F S4096x200x64 .f32) (f : FVec F S2x200x64 .f32)
    (i : S4096x200x64.Idx) (hi : i ∈ (chunkRect L k b oc).set) :
    ((oChunk L k b oc).view.write (Elt F) gOld ((Memref.whole cc0_scratch7 : Memref sig .scVector .vmem S2x200x64 .f32).view.read (Elt F) f) Finset.univ) i
      = f (ix3 (n0 := 2) (n1 := 200) (n2 := 64)
          ⟨(i 0).val - (128 * (widL L).val + 16 * k.val + 8 * b.val + 2 * oc.val), by have := (mem_chunk L k b oc i).mp hi; omega⟩ (i 1) (i 2)) := by
  have hm := (mem_chunk L k b oc i).mp hi
  have e : (oChunk L k b oc).view.emb (ix3 (n0 := 2) (n1 := 200) (n2 := 64)
      ⟨(i 0).val - (128 * (widL L).val + 16 * k.val + 8 * b.val + 2 * oc.val), by omega⟩ (i 1) (i 2)) = i := by
    refine (oChunk_emb L k b oc _ _ _).trans ?_
    funext a
    match a with
    | ⟨0, _⟩ =>
      exact Fin.ext (by
        show 128 * (widL L).val + 16 * k.val + 8 * b.val + 2 * oc.val + ((i 0).val - (128 * (widL L).val + 16 * k.val + 8 * b.val + 2 * oc.val)) = (i 0).val
        omega)
    | ⟨1, _⟩ => rfl
    | ⟨2, _⟩ => rfl
  exact (congrArg ((oChunk L k b oc).view.write (Elt F) gOld ((Memref.whole cc0_scratch7 : Memref sig .scVector .vmem S2x200x64 .f32).view.read (Elt F) f) Finset.univ) e.symm).trans
    (writeOut7 L k b oc gOld f _ _ _)

end WriteOut

/-! ## The same facts, in the form a task's invariant carries them -/

/-- The landed copy holds eight rows of the bits from the copy's first row on (the first input scratch; then the second). -/
theorem land_ok0 (off : Fin 2 → ℕ) (h : ∀ a, off a + S8x400.size a ≤ S4096x400.size a) (g : IVec S4096x400 32) (f0 : IVec S8x400 32)
    (row : ℕ) (h0 : off 0 = row) (h1 : off 1 = 0) :
    NvOK g row (View.write (Elt F) (Memref.whole cc0_scratch0 : Memref sig .scVector .vmem S8x400 .i32).view f0
      (((Memref.whole main_arg0_scv : Memref sig .scVector .hbm S4096x400 .i32).slice (Rect.unit (s := S4096x400) off S8x400.size h) (fun _ => rfl)).view.read (Elt F) g)
      Finset.univ) := by
  have hrow : row + 8 ≤ 4096 := h0 ▸ (h 0)
  refine ⟨hrow, fun r c => (copyIn0 off h g f0 r c).trans (congrArg g (funext fun a => ?_))⟩
  match a with
  | ⟨0, _⟩ => exact Fin.ext (by show off 0 + r.val = row + r.val; omega)
  | ⟨1, _⟩ => exact Fin.ext (by show off 1 + c.val = c.val; omega)
theorem land_ok5 (off : Fin 2 → ℕ) (h : ∀ a, off a + S8x400.size a ≤ S4096x400.size a) (g : IVec S4096x400 32) (f0 : IVec S8x400 32)
    (row : ℕ) (h0 : off 0 = row) (h1 : off 1 = 0) :
    NvOK g row (View.write (Elt F) (Memref.whole cc0_scratch5 : Memref sig .scVector .vmem S8x400 .i32).view f0
      (((Memref.whole main_arg0_scv : Memref sig .scVector .hbm S4096x400 .i32).slice (Rect.unit (s := S4096x400) off S8x400.size h) (fun _ => rfl)).view.read (Elt F) g)
      Finset.univ) := by
  have hrow : row + 8 ≤ 4096 := h0 ▸ (h 0)
  refine ⟨hrow, fun r c => (copyIn5 off h g f0 r c).trans (congrArg g (funext fun a => ?_))⟩
  match a with
  | ⟨0, _⟩ => exact Fin.ext (by show off 0 + r.val = row + r.val; omega)
  | ⟨1, _⟩ => exact Fin.ext (by show off 1 + c.val = c.val; omega)

/-- The flattened table, copied whole onto the table scratch, is there as it was. -/
theorem tab_lands (T : FVec F S256 .f32) (f10 : FVec F S256 .f32) :
    View.write (Elt F) (Memref.whole cc0_scratch10 : Memref sig .scVector .vmem S256 .f32).view f10
      ((Memref.whole main_v0_scv : Memref sig .scVector .hbm S256 .f32).view.read (Elt F) T) Finset.univ = T :=
  (View.write_whole_univ (Val := Elt F) (cc0_scratch10 : Ref sig .scVector) f10 _).trans rfl

section Deliver

variable (L : grid0.Coords)

/-- A row of the result inside chunk (k, b, oc) is the chunk's entry at that row less the chunk's first. -/
theorem oChunk_emb_pre (k : Fin k0_t1_loop.trips) (b : Fin 2) (oc : Fin 4) (i : S4096x200x64.Idx)
    (h1 : 128 * (widL L).val + 16 * k.val + 8 * b.val + 2 * oc.val ≤ (i 0).val)
    (h2 : (i 0).val < 128 * (widL L).val + 16 * k.val + 8 * b.val + 2 * oc.val + 2) :
    (oChunk L k b oc).view.emb (ix3 (n0 := 2) (n1 := 200) (n2 := 64)
      ⟨(i 0).val - (128 * (widL L).val + 16 * k.val + 8 * b.val + 2 * oc.val), by omega⟩ (i 1) (i 2)) = i := by
  refine (oChunk_emb L k b oc _ _ _).trans ?_
  funext a
  match a with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl

/-- What one whole-chunk write through the chunk's slice leaves at the chunk's entry `x`: the payload there. -/
theorem deliver_at (k : Fin k0_t1_loop.trips) (b : Fin 2) (oc : Fin 4) (g₀ : FVec F S4096x200x64 .f32) (w : S2x200x64.Idx → Elt F .f32)
    (x : S2x200x64.Idx) :
    ((oChunk L k b oc).view.writes (Elt F) g₀ [⟨Rect.whole (chunkRect L k b oc).shape, w⟩]) ((oChunk L k b oc).view.emb x) = w x := by
  have h := View.read_writes_cons_emb (Val := Elt F) (oChunk L k b oc).view g₀ (Rect.whole (chunkRect L k b oc).shape) w [] x
  have hx : (Rect.whole (chunkRect L k b oc).shape).emb x = x := by
    funext a; apply Fin.ext; show 0 + 1 * (x a).val = (x a).val; omega
  exact ((View.read_apply _ _).trans (cast_eq _ _)).symm.trans ((congrArg _ hx.symm).trans h)

/-- The delivered chunk agrees with the result function on its two rows, if the output scratch held them (the first
    output scratch; then the second). -/
theorem deliver_ok2 (k : Fin k0_t1_loop.trips) (b : Fin 2) (oc : Fin 4) (g₀ : FVec F S4096x200x64 .f32) (f : FVec F S2x200x64 .f32)
    (R : FVec F S4096x200x64 .f32) (a : ℕ) (ha : a = 128 * (widL L).val + 16 * k.val + 8 * b.val + 2 * oc.val) (hf : OutvOK R a f) :
    RowsOK R ((oChunk L k b oc).view.writes (Elt F) g₀
      [⟨Rect.whole (chunkRect L k b oc).shape, (Memref.whole cc0_scratch2 : Memref sig .scVector .vmem S2x200x64 .f32).view.read (Elt F) f⟩]) a (a + 2) := by
  obtain ⟨_, hf⟩ := hf
  intro i h1 h2
  subst ha
  have e := oChunk_emb_pre L k b oc i h1 h2
  refine (congrArg _ e.symm).trans ((deliver_at L k b oc g₀ _ _).trans ?_)
  refine (hf ⟨(i 0).val - (128 * (widL L).val + 16 * k.val + 8 * b.val + 2 * oc.val), by omega⟩ (i 1) (i 2)).trans (congrArg R ?_)
  funext c
  match c with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl
theorem deliver_ok7 (k : Fin k0_t1_loop.trips) (b : Fin 2) (oc : Fin 4) (g₀ : FVec F S4096x200x64 .f32) (f : FVec F S2x200x64 .f32)
    (R : FVec F S4096x200x64 .f32) (a : ℕ) (ha : a = 128 * (widL L).val + 16 * k.val + 8 * b.val + 2 * oc.val) (hf : OutvOK R a f) :
    RowsOK R ((oChunk L k b oc).view.writes (Elt F) g₀
      [⟨Rect.whole (chunkRect L k b oc).shape, (Memref.whole cc0_scratch7 : Memref sig .scVector .vmem S2x200x64 .f32).view.read (Elt F) f⟩]) a (a + 2) := by
  obtain ⟨_, hf⟩ := hf
  intro i h1 h2
  subst ha
  have e := oChunk_emb_pre L k b oc i h1 h2
  refine (congrArg _ e.symm).trans ((deliver_at L k b oc g₀ _ _).trans ?_)
  refine (hf ⟨(i 0).val - (128 * (widL L).val + 16 * k.val + 8 * b.val + 2 * oc.val), by omega⟩ (i 1) (i 2)).trans (congrArg R ?_)
  funext c
  match c with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl

end Deliver

end Cert.Proof.KI

end
-- ==== Proof.KITripLemmas.lean ====
/-
  Small facts the three trip cases share: what a write-out delivers, and which rows the two prefetches fetch.
-/
import proofs.«206263_g65532611002545_cont_9to1c4b_62_29_alg».proof.Proof.KIInv
import proofs.«206263_g65532611002545_cont_9to1c4b_62_29_alg».proof.Proof.KIMoves

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

/-- What a write-out of the first (second) output scratch delivers, held at the result function once the scratch is known
    to hold the right rows. -/
theorem chunk_land2 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    (oLoc d ↦[rowsSet a e]{fullShare} ((oChunk L k b oc).view.writes (Elt F) g₀ [⟨Rect.whole (chunkRect L k b oc).shape, (Memref.whole cc0_scratch2 : Memref sig .scVector .vmem S2x200x64 .f32).view.read (Elt F) f⟩]) : sProp 𝕄)
      ⊢ oLoc d ↦[rowsSet a e]{fullShare} R := by
  subst he
  exact rows_to_R (F := F) d R _ (deliver_ok2 (F := F) L k b oc g₀ f R a ha (hrow ▸ hf))
theorem chunk_land7 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    (oLoc d ↦[rowsSet a e]{fullShare} ((oChunk L k b oc).view.writes (Elt F) g₀ [⟨Rect.whole (chunkRect L k b oc).shape, (Memref.whole cc0_scratch7 : Memref sig .scVector .vmem S2x200x64 .f32).view.read (Elt F) f⟩]) : sProp 𝕄)
      ⊢ oLoc d ↦[rowsSet a e]{fullShare} R := by
  subst he
  exact rows_to_R (F := F) d R _ (deliver_ok7 (F := F) L k b oc g₀ f R a ha (hrow ▸ hf))

/-- The same fact as a statement about the delivered contents (for a write-out still in flight). -/
theorem rows_ok2 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    RowsOK R ((oChunk L k b oc).view.writes (Elt F) g₀ [⟨Rect.whole (chunkRect L k b oc).shape, (Memref.whole cc0_scratch2 : Memref sig .scVector .vmem S2x200x64 .f32).view.read (Elt F) f⟩]) a e := by
  subst he
  exact deliver_ok2 (F := F) L k b oc g₀ f R a ha (hrow ▸ hf)
theorem rows_ok7 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    RowsOK R ((oChunk L k b oc).view.writes (Elt F) g₀ [⟨Rect.whole (chunkRect L k b oc).shape, (Memref.whole cc0_scratch7 : Memref sig .scVector .vmem S2x200x64 .f32).view.read (Elt F) f⟩]) a e := by
  subst he
  exact deliver_ok7 (F := F) L k b oc g₀ f R a ha (hrow ▸ hf)

/-- The rows the two prefetches fetch. -/
theorem off2_row (k : Fin k0_t1_loop.trips) : k0_off2 L k 0 = B0 L + 16 * (k.val + 1) ∧ k0_off2 L k 1 = 0 := by
  rw [k0_off2_eq]
  refine ⟨?_, rfl⟩
  show 256 * (L 1).val + 128 * (L 0).val + 16 * k.val + 16 = 128 * (2 * (L 1).val + (L 0).val) + 16 * (k.val + 1)
  omega
theorem off44_row (k : Fin k0_t1_loop.trips) : k0_off44 L k 0 = B0 L + 16 * (k.val + 1) + 8 ∧ k0_off44 L k 1 = 0 := by
  rw [k0_off44_eq]
  refine ⟨?_, rfl⟩
  show 256 * (L 1).val + 128 * (L 0).val + 16 * k.val + 24 = 128 * (2 * (L 1).val + (L 0).val) + 16 * (k.val + 1) + 8
  omega

end Cert.Proof.KI

end
-- ==== Proof.KIOutv.lean ====
/-
  The kernel's arithmetic, entry by entry.

  The kernel reads the flattened table once, as sixteen vectors of sixteen lanes: row r of the table, lanes
  16·kk … 16·kk + 15, for r, kk = 0 … 3.  From them it forms, per kk, the four coefficient vectors of the
  interpolation:  t0 = row 0,  xa = row 1 − row 0,  xb = row 2 − row 0,  xc = ((row 3 − row 2) − row 1) + row 0.
  A site's sixteen results for lane block kk are  ((t0 + uf·xa) + df·xb) + (uf·df)·xc  with uf, df the two bits of
  the site's token word as floats.  Lane by lane this is the result function's entry; row by row of the eight rows a
  task holds at a time, with the token words taken from the landed rows of occupation words, it is the result
  function on the rows  row … row + 7.
-/
import proofs.«206263_g65532611002545_cont_9to1c4b_62_29_alg».proof.Proof.KIProto

noncomputable section

namespace Cert.Proof.KI

open Cert.KernelIdeal
open Idealize.ShloMosaic Idealize.ShloMosaic.ValueIdx

variable {F : FTy → Type} [FloatOps F]

/-- One entry from the four coefficients of its lane and the site's token word:
    ((t + uf·xa) + df·xb) + (uf·df)·xc. -/
def lane' (t xa xb xc : F .f32) (w : BitVec 32) : F .f32 :=
  let uf : F .f32 := Scalar.sitofp .f32 (Scalar.andi w 1#32)
  let df : F .f32 := Scalar.sitofp .f32 (Scalar.andi (Scalar.shrsi w 1#32) 1#32)
  FloatOps.addf (FloatOps.addf (FloatOps.addf t (FloatOps.mulf uf xa)) (FloatOps.mulf df xb)) (FloatOps.mulf (Scalar.mulf uf df) xc)

/-! ## The table vectors -/

/-- Row r of the flattened table, lanes 16·kk … 16·kk + 15, as a vector of sixteen. -/
def tabRow (X : FVec F S256 .f32) (r : Fin 4) (kk : Fin 4) : FVec F S16 .f32 :=
  fun l => X (flatIx r ⟨16 * kk.val + (l 0).val, by
    have h : (l 0).val < 16 := (l 0).isLt
    have := kk.isLt
    omega⟩)

/-- The four coefficient vectors of lane block kk: the row 0 itself, row 1 − row 0, row 2 − row 0, and
    ((row 3 − row 2) − row 1) + row 0, in the association the kernel computes them in. -/
def tvOf (X : FVec F S256 .f32) : Fin 4 → Fin 4 → FVec F S16 .f32
  | ⟨0, _⟩, kk => tabRow X 0 kk
  | ⟨1, _⟩, kk => subf (tabRow X 1 kk) (tabRow X 0 kk)
  | ⟨2, _⟩, kk => subf (tabRow X 2 kk) (tabRow X 0 kk)
  | ⟨3, _⟩, kk => addf (subf (subf (tabRow X 3 kk) (tabRow X 2 kk)) (tabRow X 1 kk)) (tabRow X 0 kk)
  | ⟨_ + 4, h⟩, _ => absurd h (by omega)

/-- (O1) Lane l of block kk: the interpolation over the coefficient vectors is the result function's entry over the
    four table entries of column 16·kk + l. -/
theorem lane'_tvOf (X : FVec F S256 .f32) (kk : Fin 4) (l : Fin 16) (w : BitVec 32) :
    lane' (tvOf X 0 kk (ix1 (n := 16) l)) (tvOf X 1 kk (ix1 (n := 16) l)) (tvOf X 2 kk (ix1 (n := 16) l))
        (tvOf X 3 kk (ix1 (n := 16) l)) w
      = lane (X (flatIx 0 ⟨16 * kk.val + l.val, by omega⟩)) (X (flatIx 1 ⟨16 * kk.val + l.val, by omega⟩))
          (X (flatIx 2 ⟨16 * kk.val + l.val, by omega⟩)) (X (flatIx 3 ⟨16 * kk.val + l.val, by omega⟩)) w := rfl

/-! ## The rows -/

/-- (O2) Two rows of results from eight rows of token words: if the token buffer holds the token words of rows
    row … row + 7 and the output buffer holds, at (r2, s, k), the interpolation at the token word of row 2·oc + r2 of
    the eight, then the output buffer holds the result function's rows row + 2·oc and row + 2·oc + 1. -/
theorem out_rows (n : IVec S4096x400 32) (X : FVec F S256 .f32) (Y : IVec S1600 32) (f : FVec F S2x200x64 .f32)
    (row : ℕ) (hrow : row + 8 ≤ 4096) (oc : Fin 4)
    (hY : ∀ (r : Fin 8) (s : Fin 200),
      Y (ix1 (n := 1600) ⟨200 * r.val + s.val, by omega⟩) = tokWord n ⟨row + r.val, by omega⟩ s)
    (hf : ∀ (r2 : Fin 2) (s : Fin 200) (k : Fin 64),
      f (ix3 (n0 := 2) (n1 := 200) (n2 := 64) r2 s k)
        = lane' (tvOf X 0 ⟨k.val / 16, by omega⟩ (ix1 (n := 16) ⟨k.val % 16, by omega⟩))
            (tvOf X 1 ⟨k.val / 16, by omega⟩ (ix1 (n := 16) ⟨k.val % 16, by omega⟩))
            (tvOf X 2 ⟨k.val / 16, by omega⟩ (ix1 (n := 16) ⟨k.val % 16, by omega⟩))
            (tvOf X 3 ⟨k.val / 16, by omega⟩ (ix1 (n := 16) ⟨k.val % 16, by omega⟩))
            (Y (ix1 (n := 1600) ⟨400 * oc.val + 200 * r2.val + s.val, by omega⟩))) :
    ∀ (r2 : Fin 2) (s : Fin 200) (k : Fin 64),
      f (ix3 (n0 := 2) (n1 := 200) (n2 := 64) r2 s k)
        = kout n X (ix3 (n0 := 4096) (n1 := 200) (n2 := 64) ⟨row + 2 * oc.val + r2.val, by omega⟩ s k) := by
  intro r2 s k
  have hi : (⟨400 * oc.val + 200 * r2.val + s.val, by omega⟩ : Fin 1600)
      = ⟨200 * (⟨2 * oc.val + r2.val, by omega⟩ : Fin 8).val + s.val, by omega⟩ := Fin.ext (by show 400 * oc.val + 200 * r2.val + s.val = 200 * (2 * oc.val + r2.val) + s.val; omega)
  have key : ∀ (k' : Fin 64) (b b' : Fin 4096), k' = k → b = b' →
      lane (X (flatIx 0 k')) (X (flatIx 1 k')) (X (flatIx 2 k')) (X (flatIx 3 k')) (tokWord n b s)
        = kout n X (ix3 (n0 := 4096) (n1 := 200) (n2 := 64) b' s k) := by
    intro k' b b' hk hb
    subst hk; subst hb; rfl
  rw [hf r2 s k, lane'_tvOf, hi, hY ⟨2 * oc.val + r2.val, by omega⟩ s]
  exact key _ _ _ (Fin.ext (Nat.div_add_mod k.val 16)) (Fin.ext (by show row + (2 * oc.val + r2.val) = row + 2 * oc.val + r2.val; omega))

/-- (O3) The token words from landed rows of occupation words: if the input buffer holds rows row … row + 7 of the
    occupation words, then up + down + down over it is the token word of the same row and site. -/
theorem tokWord_of_landed (n : IVec S4096x400 32) (fd : IVec S8x400 32) (row : ℕ) (hrow : row + 8 ≤ 4096)
    (hfd : ∀ (r : Fin 8) (c : Fin 400),
      fd (ix2 (n0 := 8) (n1 := 400) r c) = n (ix2 (n0 := 4096) (n1 := 400) ⟨row + r.val, by omega⟩ c)) :
    ∀ (r : Fin 8) (s : Fin 200),
      Scalar.addi (Scalar.addi (fd (ix2 (n0 := 8) (n1 := 400) r ⟨200 + s.val, by omega⟩)) (fd (ix2 (n0 := 8) (n1 := 400) r ⟨s.val, by omega⟩)))
          (fd (ix2 (n0 := 8) (n1 := 400) r ⟨s.val, by omega⟩))
        = tokWord n ⟨row + r.val, by omega⟩ s := by
  intro r s
  rw [hfd, hfd]
  rfl

end Cert.Proof.KI

end
-- ==== Proof.KIGrp.lean ====
/-
  The sixteen inner loops of the kernel's body, with their values.

  Each inner loop fills one row (200 sites × 64 columns) of a row scratch buffer in thirteen trips.  Trip g takes the
  sixteen sites o … o + 15, o = min (16·g) 184 (the last trip overlaps the one before: it rewrites sites 184 … 191
  with the same values), loads their sixteen token words from the token scratch, and for every site and every one of
  the four lane blocks stores the sixteen lanes  ((t + uf·xa) + df·xb) + (uf·df)·xc  of the block's coefficient vectors,
  uf and df the site's two bits as floats.  So before trip g the sites below min (16·g) 200 of the row hold their
  interpolation, and the other row of the buffer is untouched: that is the invariant, and one trip moves it on because
  its sixty-four stores are exactly the sixty-four blocks (site, lane block), each holding the interpolation at every
  index it covers, and no other index is written.
-/
import proofs.«206263_g65532611002545_cont_9to1c4b_62_29_alg».proof.Proof.KIRes
import proofs.«206263_g65532611002545_cont_9to1c4b_62_29_alg».proof.Proof.Gen.KernelIdeal.Skeleton
import proofs.«206263_g65532611002545_cont_9to1c4b_62_29_alg».proof.Proof.KIOutv
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

set_option maxHeartbeats 400000

variable (d : Dev nD) (L : grid0.Coords)

/-! ## The arithmetic of one site and one lane block -/

section Pure

variable {F : FTy → Type} [FloatOps F]

/-- The sixteen lanes of one site in one lane block: the interpolation over the block's four coefficient vectors, the
    site's two bits broadcast. -/
def laneVec (t xa xb xc : FVec F S16 .f32) (w : BitVec 32) : FVec F S16 .f32 :=
  addf (addf (addf t (mulf (broadcast S16 (Scalar.sitofp (F := F) .f32 (Scalar.andi w 1#32))) xa))
      (mulf (broadcast S16 (Scalar.sitofp (F := F) .f32 (Scalar.andi (Scalar.shrsi w 1#32) 1#32))) xb))
    (mulf (broadcast S16 (Scalar.mulf (Scalar.sitofp (F := F) .f32 (Scalar.andi w 1#32))
      (Scalar.sitofp (F := F) .f32 (Scalar.andi (Scalar.shrsi w 1#32) 1#32)))) xc)

theorem laneVec_apply (t xa xb xc : FVec F S16 .f32) (w : BitVec 32) (l : S16.Idx) :
    laneVec t xa xb xc w l = lane' (t l) (xa l) (xb l) (xc l) w := rfl

/-- Word i of a vector of sixteen is a block of one at offset i. -/
theorem slices16 (i : Fin 16) : S16.Slices (![i.val] : Fin 1 → Nat) S1 :=
  ⟨rfl, fun a => match a with | ⟨0, _⟩ => (by show i.val + 1 ≤ 16; omega)⟩

theorem inpos1 : ∀ a, (![0] : Fin 1 → Nat) a < S1.size a := fun a => match a with | ⟨0, _⟩ => Nat.one_pos

/-- Word i of the token vector, as the kernel extracts it. -/
def wordAt (toks : IVec S16 32) (i : Fin 16) : BitVec 32 :=
  extractAt (![0] : Fin 1 → Nat) (extractStridedSlice S1 (![i.val] : Fin 1 → Nat) toks (slices16 i)) inpos1

theorem wordAt_eq (toks : IVec S16 32) (i : Fin 16) : wordAt toks i = toks (ix1 (n := 16) i) := by
  unfold wordAt extractAt extractStridedSlice
  exact congrArg toks (funext fun a => match a with | ⟨0, _⟩ => Fin.ext (by show i.val + 0 = i.val; rfl))

theorem casts16 : S16.ShapeCasts S1x1x16 := by decide

/-- What one store writes: the sixteen lanes of site i's block kk, as a 1 × 1 × 16 block. -/
def canonPay (tv : Fin 4 → Fin 4 → FVec F S16 .f32) (toks : IVec S16 32) (i : Fin 16) (kk : Fin 4) : FVec F S1x1x16 .f32 :=
  shapeCast S1x1x16 (laneVec (tv 0 kk) (tv 1 kk) (tv 2 kk) (tv 3 kk) (wordAt toks i)) casts16

theorem canonPay_apply (tv : Fin 4 → Fin 4 → FVec F S16 .f32) (toks : IVec S16 32) (i : Fin 16) (kk : Fin 4) (x : S1x1x16.Idx)
    (l : Fin 16) (hl : l.val = (x 2).val) :
    canonPay tv toks i kk x
      = lane' (tv 0 kk (ix1 (n := 16) l)) (tv 1 kk (ix1 (n := 16) l)) (tv 2 kk (ix1 (n := 16) l)) (tv 3 kk (ix1 (n := 16) l))
          (toks (ix1 (n := 16) i)) := by
  unfold canonPay
  rw [shapeCast_apply _ casts16 x (ix1 (n := 16) l) (by
    rw [Shape.rowMajor_val_one, Shape.rowMajor_val_three]
    have h0 : (x 0).val < 1 := (x 0).isLt
    have h1 : (x 1).val < 1 := (x 1).isLt
    show l.val = ((x 0).val * 1 + (x 1).val) * 16 + (x 2).val
    omega), laneVec_apply, wordAt_eq]

/-- The order the sixty-four stores of a trip are made in, last first: sites 15 … 0, and per site blocks 3 … 0. -/
@[reducible] def idxList : List (Fin 16 × Fin 4) :=
  [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

theorem idxList_complete : ∀ (i : Fin 16) (kk : Fin 4), (i, kk) ∈ idxList := by decide

/-- What the output scratch holds once the first g trips are done: in row r2, every site below min (16·g) 200 holds the
    interpolation at its token word; the other row is as it was. -/
def GrpUpTo (oc : Fin 4) (r2 : Fin 2) (tv : Fin 4 → Fin 4 → FVec F S16 .f32) (Y : IVec S1600 32) (f₀ f : FVec F S2x200x64 .f32) (g : ℕ) : Prop :=
  (∀ (s : Fin 200) (k : Fin 64), s.val < min (16 * g) 200 →
    f (ix3 (n0 := 2) (n1 := 200) (n2 := 64) r2 s k)
      = lane' (tv 0 ⟨k.val / 16, by omega⟩ (ix1 (n := 16) ⟨k.val % 16, by omega⟩))
          (tv 1 ⟨k.val / 16, by omega⟩ (ix1 (n := 16) ⟨k.val % 16, by omega⟩))
          (tv 2 ⟨k.val / 16, by omega⟩ (ix1 (n := 16) ⟨k.val % 16, by omega⟩))
          (tv 3 ⟨k.val / 16, by omega⟩ (ix1 (n := 16) ⟨k.val % 16, by omega⟩))
          (Y (ix1 (n := 1600) ⟨400 * oc.val + 200 * r2.val + s.val, by omega⟩)))
  ∧ (∀ i : S2x200x64.Idx, i 0 ≠ r2 → f i = f₀ i)

theorem grpUpTo_zero (oc : Fin 4) (r2 : Fin 2) (tv : Fin 4 → Fin 4 → FVec F S16 .f32) (Y : IVec S1600 32) (f₀ : FVec F S2x200x64 .f32) :
    GrpUpTo oc r2 tv Y f₀ f₀ 0 :=
  ⟨fun s k h => absurd h (by simp), fun _ _ => rfl⟩

/-- After the thirteen trips every site of row r2 is done. -/
theorem grpUpTo_exit (oc : Fin 4) (r2 : Fin 2) (tv : Fin 4 → Fin 4 → FVec F S16 .f32) (Y : IVec S1600 32) (f₀ f : FVec F S2x200x64 .f32)
    (h : GrpUpTo oc r2 tv Y f₀ f 13) :
    (∀ (s : Fin 200) (k : Fin 64),
      f (ix3 (n0 := 2) (n1 := 200) (n2 := 64) r2 s k)
        = lane' (tv 0 ⟨k.val / 16, by omega⟩ (ix1 (n := 16) ⟨k.val % 16, by omega⟩))
            (tv 1 ⟨k.val / 16, by omega⟩ (ix1 (n := 16) ⟨k.val % 16, by omega⟩))
            (tv 2 ⟨k.val / 16, by omega⟩ (ix1 (n := 16) ⟨k.val % 16, by omega⟩))
            (tv 3 ⟨k.val / 16, by omega⟩ (ix1 (n := 16) ⟨k.val % 16, by omega⟩))
            (Y (ix1 (n := 1600) ⟨400 * oc.val + 200 * r2.val + s.val, by omega⟩)))
    ∧ (∀ i : S2x200x64.Idx, i 0 ≠ r2 → f i = f₀ i) :=
  ⟨fun s k => h.1 s k (by have := s.isLt; omega), h.2⟩

end Pure

/-! ## One trip, on the contents -/

section Step

variable {F : FTy → Type} [FloatOps F]

/-- A piece of a trip's list is the store of site i's block kk: its rectangle is the 1 × 1 × 16 block at
    (r2, o + i, 16·kk) and its payload the block's sixteen lanes. -/
def IsCanon (r2 : Fin 2) (o : ℕ) (tv : Fin 4 → Fin 4 → FVec F S16 .f32) (toks : IVec S16 32)
    (p : View.Piece (Elt F) S2x200x64 .f32) (ik : Fin 16 × Fin 4) : Prop :=
  ∃ (off : Fin 3 → Nat) (inb : ∀ a, off a + S1x1x16.size a ≤ S2x200x64.size a),
    off = ![r2.val, o + ik.1.val, 16 * ik.2.val]
      ∧ p = ⟨Rect.unit (s := S2x200x64) off S1x1x16.size inb, canonPay tv toks ik.1 ik.2⟩

theorem forall2_left {α β : Type} {R : α → β → Prop} {l₁ : List α} {l₂ : List β} (h : List.Forall₂ R l₁ l₂) :
    ∀ a ∈ l₁, ∃ b ∈ l₂, R a b := by
  induction h with
  | nil => intro a ha; exact absurd ha List.not_mem_nil
  | cons hab _ ih =>
    intro a ha
    rcases List.mem_cons.1 ha with rfl | ha
    · exact ⟨_, List.mem_cons_self, hab⟩
    · obtain ⟨b, hb, hr⟩ := ih a ha
      exact ⟨b, List.mem_cons_of_mem _ hb, hr⟩

theorem forall2_right {α β : Type} {R : α → β → Prop} {l₁ : List α} {l₂ : List β} (h : List.Forall₂ R l₁ l₂) :
    ∀ b ∈ l₂, ∃ a ∈ l₁, R a b := by
  induction h with
  | nil => intro b hb; exact absurd hb List.not_mem_nil
  | cons hab _ ih =>
    intro b hb
    rcases List.mem_cons.1 hb with rfl | hb
    · exact ⟨_, List.mem_cons_self, hab⟩
    · obtain ⟨a, ha, hr⟩ := ih b hb
      exact ⟨a, List.mem_cons_of_mem _ ha, hr⟩

/-- The interpolation every site of row r2 is to hold, as one function of the index. -/
def Gt (oc : Fin 4) (r2 : Fin 2) (tv : Fin 4 → Fin 4 → FVec F S16 .f32) (Y : IVec S1600 32) : S2x200x64.Idx → F .f32 := fun y =>
  lane' (tv 0 ⟨(y 2).val / 16, by have h : (y 2).val < 64 := (y 2).isLt; omega⟩ (ix1 (n := 16) ⟨(y 2).val % 16, by omega⟩))
    (tv 1 ⟨(y 2).val / 16, by have h : (y 2).val < 64 := (y 2).isLt; omega⟩ (ix1 (n := 16) ⟨(y 2).val % 16, by omega⟩))
    (tv 2 ⟨(y 2).val / 16, by have h : (y 2).val < 64 := (y 2).isLt; omega⟩ (ix1 (n := 16) ⟨(y 2).val % 16, by omega⟩))
    (tv 3 ⟨(y 2).val / 16, by have h : (y 2).val < 64 := (y 2).isLt; omega⟩ (ix1 (n := 16) ⟨(y 2).val % 16, by omega⟩))
    (Y (ix1 (n := 1600) ⟨400 * oc.val + 200 * r2.val + (y 1).val, by have h : (y 1).val < 200 := (y 1).isLt; omega⟩))

theorem Gt_eq (oc : Fin 4) (r2 : Fin 2) (tv : Fin 4 → Fin 4 → FVec F S16 .f32) (Y : IVec S1600 32) (y : S2x200x64.Idx)
    (kk : Fin 4) (l : Fin 16) (n : Fin 1600) (h2 : (y 2).val = 16 * kk.val + l.val) (hn : n.val = 400 * oc.val + 200 * r2.val + (y 1).val) :
    Gt oc r2 tv Y y = lane' (tv 0 kk (ix1 (n := 16) l)) (tv 1 kk (ix1 (n := 16) l)) (tv 2 kk (ix1 (n := 16) l)) (tv 3 kk (ix1 (n := 16) l))
      (Y (ix1 (n := 1600) n)) := by
  have key : ∀ (a : Fin 4) (b : Fin 16) (c : Fin 1600), a = kk → b = l → c = n →
      lane' (tv 0 a (ix1 (n := 16) b)) (tv 1 a (ix1 (n := 16) b)) (tv 2 a (ix1 (n := 16) b)) (tv 3 a (ix1 (n := 16) b)) (Y (ix1 (n := 1600) c))
        = lane' (tv 0 kk (ix1 (n := 16) l)) (tv 1 kk (ix1 (n := 16) l)) (tv 2 kk (ix1 (n := 16) l)) (tv 3 kk (ix1 (n := 16) l))
            (Y (ix1 (n := 1600) n)) := by
    rintro _ _ _ rfl rfl rfl; rfl
  have hl := l.isLt
  exact key _ _ _ (Fin.ext (by show (y 2).val / 16 = kk.val; omega)) (Fin.ext (by show (y 2).val % 16 = l.val; omega))
    (Fin.ext (by show 400 * oc.val + 200 * r2.val + (y 1).val = n.val; omega))

/-- Which indices a site's block covers. -/
theorem mem_block_iff (r2 : Fin 2) (o : ℕ) (i : Fin 16) (kk : Fin 4)
    (inb : ∀ a, (![r2.val, o + i.val, 16 * kk.val] : Fin 3 → Nat) a + S1x1x16.size a ≤ S2x200x64.size a) (y : S2x200x64.Idx) :
    y ∈ (Rect.unit (s := S2x200x64) ![r2.val, o + i.val, 16 * kk.val] S1x1x16.size inb).set
      ↔ (y 0).val = r2.val ∧ (y 1).val = o + i.val ∧ 16 * kk.val ≤ (y 2).val ∧ (y 2).val < 16 * kk.val + 16 := by
  rw [Rect.mem_set_unit]
  constructor
  · intro h
    have h0 := h 0
    have h1 := h 1
    have h2 := h 2
    change r2.val ≤ (y 0).val ∧ (y 0).val < r2.val + 1 at h0
    change o + i.val ≤ (y 1).val ∧ (y 1).val < o + i.val + 1 at h1
    change 16 * kk.val ≤ (y 2).val ∧ (y 2).val < 16 * kk.val + 16 at h2
    omega
  · rintro ⟨e0, e1, e2, e3⟩ a
    match a with
    | ⟨0, _⟩ => show r2.val ≤ (y 0).val ∧ (y 0).val < r2.val + 1; omega
    | ⟨1, _⟩ => show o + i.val ≤ (y 1).val ∧ (y 1).val < o + i.val + 1; omega
    | ⟨2, _⟩ => show 16 * kk.val ≤ (y 2).val ∧ (y 2).val < 16 * kk.val + 16; omega

/-- What a site's block holds, index by index: the interpolation at the index it lands on. -/
theorem block_pay (oc : Fin 4) (r2 : Fin 2) (o : ℕ) (ho : o + 16 ≤ 200) (tv : Fin 4 → Fin 4 → FVec F S16 .f32) (Y : IVec S1600 32) (toks : IVec S16 32)
    (i : Fin 16) (kk : Fin 4) (base : ℕ) (hbase : base = 400 * oc.val + 200 * r2.val)
    (htok : toks (ix1 (n := 16) i) = Y (ix1 (n := 1600) ⟨base + (o + i.val), by omega⟩))
    (inb : ∀ a, (![r2.val, o + i.val, 16 * kk.val] : Fin 3 → Nat) a + S1x1x16.size a ≤ S2x200x64.size a) (x : S1x1x16.Idx) :
    canonPay tv toks i kk x = Gt oc r2 tv Y ((Rect.unit (s := S2x200x64) ![r2.val, o + i.val, 16 * kk.val] S1x1x16.size inb).emb x) := by
  have hx2 : (x 2).val < 16 := (x 2).isLt
  have hx1 : (x 1).val < 1 := (x 1).isLt
  rw [canonPay_apply tv toks i kk x ⟨(x 2).val, hx2⟩ rfl, htok]
  refine (Gt_eq oc r2 tv Y _ kk ⟨(x 2).val, hx2⟩ _ ?_ ?_).symm
  · show 16 * kk.val + 1 * (x 2).val = 16 * kk.val + (x 2).val; omega
  · show base + (o + i.val) = 400 * oc.val + 200 * r2.val + (o + i.val + 1 * (x 1).val); omega

/-- ONE TRIP: if the trip's stores are the sixty-four blocks of sites o … o + 15 (o = min (16·g) 184) in the order
    `idxList`, the token vector holds those sites' token words, and the first g trips are done, then after the
    stores the first g + 1 trips are done. -/
theorem grpUpTo_step {sig' : RefSig} {κ : Kind} {sp : Space} (v : View sig' κ sp S2x200x64 .f32)
    (oc : Fin 4) (r2 : Fin 2) (tv : Fin 4 → Fin 4 → FVec F S16 .f32) (Y : IVec S1600 32)
    (f₀ : FVec F S2x200x64 .f32) (f : v.ty.Contents (Elt F)) (g : ℕ) (hg : g < 13) (toks : IVec S16 32)
    (base : ℕ) (hbase : base = 400 * oc.val + 200 * r2.val)
    (htoks : ∀ i : Fin 16, toks (ix1 (n := 16) i) = Y (ix1 (n := 1600) ⟨base + (min (16 * g) 184 + i.val), by omega⟩))
    (Lst : List (View.Piece (Elt F) S2x200x64 .f32))
    (hL : List.Forall₂ (IsCanon r2 (min (16 * g) 184) tv toks) Lst idxList)
    (h : GrpUpTo oc r2 tv Y f₀ (v.read (Elt F) f) g) :
    GrpUpTo oc r2 tv Y f₀ (v.read (Elt F) (v.writes (Elt F) f Lst)) (g + 1) := by
  obtain ⟨h1, h2⟩ := h
  have ho : min (16 * g) 184 + 16 ≤ 200 := by omega
  -- every piece is a block, and holds the interpolation where it lands
  have hpay : ∀ p ∈ Lst, ∀ x : p.1.shape.Idx, p.2 x = Gt oc r2 tv Y (p.1.emb x) := by
    intro p hp
    obtain ⟨⟨i, kk⟩, -, off, inb, rfl, rfl⟩ := forall2_left hL p hp
    exact fun x => block_pay oc r2 _ ho tv Y toks i kk base hbase (htoks i) inb x
  have hcov : ∀ p ∈ Lst, ∀ y : S2x200x64.Idx, y ∈ p.1.set →
      (y 0).val = r2.val ∧ min (16 * g) 184 ≤ (y 1).val ∧ (y 1).val < min (16 * g) 184 + 16 := by
    intro p hp y hy
    obtain ⟨⟨i, kk⟩, -, off, inb, rfl, rfl⟩ := forall2_left hL p hp
    have := (mem_block_iff r2 _ i kk inb y).1 hy
    have hi := i.isLt
    omega
  refine ⟨fun s k hs => ?_, fun y hy => ?_⟩
  · by_cases hc : min (16 * g) 184 ≤ s.val ∧ s.val < min (16 * g) 184 + 16
    · -- the site is one of this trip's
      have hk : k.val < 64 := k.isLt
      obtain ⟨p, hp, off, inb, rfl, rfl⟩ := forall2_right hL
        ((⟨s.val - min (16 * g) 184, by omega⟩ : Fin 16), (⟨k.val / 16, by omega⟩ : Fin 4)) (idxList_complete _ _)
      have hy : ix3 (n0 := 2) (n1 := 200) (n2 := 64) r2 s k ∈ (Rect.unit (s := S2x200x64)
          ![r2.val, min (16 * g) 184 + (s.val - min (16 * g) 184), 16 * (k.val / 16)] S1x1x16.size inb).set :=
        (mem_block_iff r2 _ _ _ inb _).2 ⟨rfl, by show s.val = min (16 * g) 184 + (s.val - min (16 * g) 184); omega, by show 16 * (k.val / 16) ≤ k.val; omega,
          by show k.val < 16 * (k.val / 16) + 16; omega⟩
      exact View.read_writes_apply_of_pieces v f (Gt oc r2 tv Y) Lst hpay _ ⟨_, hp, hy⟩
    · -- an earlier trip's: untouched by this one
      have hn : ∀ p ∈ Lst, ix3 (n0 := 2) (n1 := 200) (n2 := 64) r2 s k ∉ p.1.set := fun p hp hy => by
        have := hcov p hp _ hy
        exact hc ⟨this.2.1, this.2.2⟩
      refine (View.read_writes_apply_of_forall_not_mem v f _ Lst hn).trans (h1 s k ?_)
      have := s.isLt
      omega
  · have hn : ∀ p ∈ Lst, y ∉ p.1.set := fun p hp hm => hy (Fin.ext (hcov p hp y hm).1)
    exact (View.read_writes_apply_of_forall_not_mem v f y Lst hn).trans (h2 y hy)

end Step

/-! ## The token vector a trip loads -/

section Tokens

variable {F : FTy → Type} [FloatOps F]

/-- Word i of the sixteen token words loaded from offset b of the token scratch is word b + i of the scratch. -/
theorem tokVec_at (Y : IVec S1600 32) (off : Fin 1 → Nat) (inb : ∀ a, off a + S16.size a ≤ S1600.size a) (b : ℕ) (hoff : off = ![b])
    (x : Vec F S16 .i32) (hx : ∀ j : S16.Idx, x j = Y ((Rect.unit (s := S1600) off S16.size inb).emb j))
    (i : Fin 16) (n : Fin 1600) (hn : n.val = b + i.val) :
    k0_pay10 (F := F) x (ix1 (n := 16) i) = Y (ix1 (n := 1600) n) := by
  subst hoff
  unfold k0_pay10
  rw [shapeCast_apply x _ (ix1 (n := 16) i) (ix1 (n := 16) i) rfl, hx]
  exact congrArg Y (funext fun a => match a with | ⟨0, _⟩ => Fin.ext (by show b + 1 * i.val = n.val; omega))

end Tokens

/-- The sixteen coefficient vectors a region is handed, by coefficient and lane block. -/
def tvLoc (v4 v6 v8 v10 v35 v36 v37 v38 v39 v40 v41 v42 v45 v48 v51 v54 : FVec F S16 .f32) : Fin 4 → Fin 4 → FVec F S16 .f32 :=
  ![![v4, v6, v8, v10], ![v35, v36, v37, v38], ![v39, v40, v41, v42], ![v45, v48, v51, v54]]

/-! ### Loop 2: row 0 of output pair 0; tokens from `cc0_scratch1` at 0, rows into `cc0_scratch2` -/

/-- Before trip g: the token scratch at its contents; in the row scratch, row 0's sites below min (16·g) 200 hold
    their interpolation and the other row is as at the loop's start. -/
def invG_2 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 0 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_2_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (v1184 : IVec S16 32) (v1188 : IVec S16 32)
    (g : Fin k0_t2_loop.trips) (acc : BitVec 32) :
    invG_2 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t2_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 v1184 v1188 g acc) (invG_2 (F := F) d L Y f₀ (tvLoc v4 v6 v8 v10 v35 v36 v37 v38 v39 v40 v41 v42 v45 v48 v51 v54) (g.val + 1)) := by
  unfold invG_2
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 0
        (tvLoc v4 v6 v8 v10 v35 v36 v37 v38 v39 v40 v41 v42 v45 v48 v51 v54) Y f₀ f g.val (lt_of_lt_of_le g.isLt k0_t2_abs.2.1)
        (k0_pay10 (F := F) (View.readAt (Elt F) (Memref.whole cc0_scratch1 : Memref sig .scVector .vmem S1600 .i32).view
          (Rect.unit (s := S1600) (k0_off3 g) S16.size (k0_off3_inb g)).toLoadRect Y))
        0 rfl
        (fun i => tokVec_at (F := F) Y (k0_off3 g) (k0_off3_inb g) _ (k0_off3_eq g) _ (fun j => rfl) i _
          (by show 0 + (min (16 * g.val) 184 + i.val) = min (16 * g.val) 184 + i.val; omega))
        _
        (List.Forall₂.cons ⟨_, k0_off7_inb g 15, k0_off7_eq g 15, rfl⟩ (
          List.Forall₂.cons ⟨_, k0_off6_inb g 15, k0_off6_eq g 15, rfl⟩ (
          List.Forall₂.cons ⟨_, k0_off5_inb g 15, k0_off5_eq g 15, rfl⟩ (
          List.Forall₂.cons ⟨_, k0_off4_inb g 15, k0_off4_eq g 15, rfl⟩ (
          List.Forall₂.cons ⟨_, k0_off7_inb g 14, k0_off7_eq g 14, rfl⟩ (
          List.Forall₂.cons ⟨_, k0_off6_inb g 14, k0_off6_eq g 14, rfl⟩ (
          List.Forall₂.cons ⟨_, k0_off5_inb g 14, k0_off5_eq g 14, rfl⟩ (
          List.Forall₂.cons ⟨_, k0_off4_inb g 14, k0_off4_eq g 14, rfl⟩ (
          List.Forall₂.cons ⟨_, k0_off7_inb g 13, k0_off7_eq g 13, rfl⟩ (
          List.Forall₂.cons ⟨_, k0_off6_inb g 13, k0_off6_eq g 13, rfl⟩ (
          List.Forall₂.cons ⟨_, k0_off5_inb g 13, k0_off5_eq g 13, rfl⟩ (
          List.Forall₂.cons ⟨_, k0_off4_inb g 13, k0_off4_eq g 13, rfl⟩ (
          List.Forall₂.cons ⟨_, k0_off7_inb g 12, k0_off7_eq g 12, rfl⟩ (
          List.Forall₂.cons ⟨_, k0_off6_inb g 12, k0_off6_eq g 12, rfl⟩ (
          List.Forall₂.cons ⟨_, k0_off5_inb g 12, k0_off5_eq g 12, rfl⟩ (
          List.Forall₂.cons ⟨_, k0_off4_inb g 12, k0_off4_eq g 12, rfl⟩ (
          List.Forall₂.cons ⟨_, k0_off7_inb g 11, k0_off7_eq g 11, rfl⟩ (
          List.Forall₂.cons ⟨_, k0_off6_inb g 11, k0_off6_eq g 11, rfl⟩ (
          List.Forall₂.cons ⟨_, k0_off5_inb g 11, k0_off5_eq g 11, rfl⟩ (
          List.Forall₂.cons ⟨_, k0_off4_inb g 11, k0_off4_eq g 11, rfl⟩ (
          List.Forall₂.cons ⟨_, k0_off7_inb g 10, k0_off7_eq g 10, rfl⟩ (
          List.Forall₂.cons ⟨_, k0_off6_inb g 10, k0_off6_eq g 10, rfl⟩ (
          List.Forall₂.cons ⟨_, k0_off5_inb g 10, k0_off5_eq g 10, rfl⟩ (
          List.Forall₂.cons ⟨_, k0_off4_inb g 10, k0_off4_eq g 10, rfl⟩ (
          List.Forall₂.cons ⟨_, k0_off7_inb g 9, k0_off7_eq g 9, rfl⟩ (
          List.Forall₂.cons ⟨_, k0_off6_inb g 9, k0_off6_eq g 9, rfl⟩ (
          List.Forall₂.cons ⟨_, k0_off5_inb g 9, k0_off5_eq g 9, rfl⟩ (
          List.Forall₂.cons ⟨_, k0_off4_inb g 9, k0_off4_eq g 9, rfl⟩ (
          List.Forall₂.cons ⟨_, k0_off7_inb g 8, k0_off7_eq g 8, rfl⟩ (
          List.Forall₂.cons ⟨_, k0_off6_inb g 8, k0_off6_eq g 8, rfl⟩ (
          List.Forall₂.cons ⟨_, k0_off5_inb g 8, k0_off5_eq g 8, rfl⟩ (
          List.Forall₂.cons ⟨_, k0_off4_inb g 8, k0_off4_eq g 8, rfl⟩ (
          List.Forall₂.cons ⟨_, k0_off7_inb g 7, k0_off7_eq g 7, rfl⟩ (
          List.Forall₂.cons ⟨_, k0_off6_inb g 7, k0_off6_eq g 7, rfl⟩ (
          List.Forall₂.cons ⟨_, k0_off5_inb g 7, k0_off5_eq g 7, rfl⟩ (
          List.Forall₂.cons ⟨_, k0_off4_inb g 7, k0_off4_eq g 7, rfl⟩ (
          List.Forall₂.cons ⟨_, k0_off7_inb g 6, k0_off7_eq g 6, rfl⟩ (
          List.Forall₂.cons ⟨_, k0_off6_inb g 6, k0_off6_eq g 6, rfl⟩ (
          List.Forall₂.cons ⟨_, k0_off5_inb g 6, k0_off5_eq g 6, rfl⟩ (
          List.Forall₂.cons ⟨_, k0_off4_inb g 6, k0_off4_eq g 6, rfl⟩ (
          List.Forall₂.cons ⟨_, k0_off7_inb g 5, k0_off7_eq g 5, rfl⟩ (
          List.Forall₂.cons ⟨_, k0_off6_inb g 5, k0_off6_eq g 5, rfl⟩ (
          List.Forall₂.cons ⟨_, k0_off5_inb g 5, k0_off5_eq g 5, rfl⟩ (
          List.Forall₂.cons ⟨_, k0_off4_inb g 5, k0_off4_eq g 5, rfl⟩ (
          List.Forall₂.cons ⟨_, k0_off7_inb g 4, k0_off7_eq g 4, rfl⟩ (
          List.Forall₂.cons ⟨_, k0_off6_inb g 4, k0_off6_eq g 4, rfl⟩ (
          List.Forall₂.cons ⟨_, k0_off5_inb g 4, k0_off5_eq g 4, rfl⟩ (
          List.Forall₂.cons ⟨_, k0_off4_inb g 4, k0_off4_eq g 4, rfl⟩ (
          List.Forall₂.cons ⟨_, k0_off7_inb g 3, k0_off7_eq g 3, rfl⟩ (
          List.Forall₂.cons ⟨_, k0_off6_inb g 3, k0_off6_eq g 3, rfl⟩ (
          List.Forall₂.cons ⟨_, k0_off5_inb g 3, k0_off5_eq g 3, rfl⟩ (
          List.Forall₂.cons ⟨_, k0_off4_inb g 3, k0_off4_eq g 3, rfl⟩ (
          List.Forall₂.cons ⟨_, k0_off7_inb g 2, k0_off7_eq g 2, rfl⟩ (
          List.Forall₂.cons ⟨_, k0_off6_inb g 2, k0_off6_eq g 2, rfl⟩ (
          List.Forall₂.cons ⟨_, k0_off5_inb g 2, k0_off5_eq g 2, rfl⟩ (
          List.Forall₂.cons ⟨_, k0_off4_inb g 2, k0_off4_eq g 2, rfl⟩ (
          List.Forall₂.cons ⟨_, k0_off7_inb g 1, k0_off7_eq g 1, rfl⟩ (
          List.Forall₂.cons ⟨_, k0_off6_inb g 1, k0_off6_eq g 1, rfl⟩ (
          List.Forall₂.cons ⟨_, k0_off5_inb g 1, k0_off5_eq g 1, rfl⟩ (
          List.Forall₂.cons ⟨_, k0_off4_inb g 1, k0_off4_eq g 1, rfl⟩ (
          List.Forall₂.cons ⟨_, k0_off7_inb g 0, k0_off7_eq g 0, rfl⟩ (
          List.Forall₂.cons ⟨_, k0_off6_inb g 0, k0_off6_eq g 0, rfl⟩ (
          List.Forall₂.cons ⟨_, k0_off5_inb g 0, k0_off5_eq g 0, rfl⟩ (
          List.Forall₂.cons ⟨_, k0_off4_inb g 0, k0_off4_eq g 0, rfl⟩ (List.Forall₂.nil)))))))))))))))))))))))))))))))))))))))))))))))))))))))))))))))))
        hf

theorem grp_2_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_2 (F := F) d L Y f₀ tv 0 acc := by
  unfold invG_2
  iintro ⟨Hk, Hout⟩
  isplitl [Hk]
  · iexact Hk
  · iexists _
    isplitr [Hout]
    swap
    · iexact Hout
    · ipureintro
      exact grpUpTo_zero 0 0 tv Y f₀

/-! ### Loop 3: row 1 of output pair 0; tokens from `cc0_scratch1` at 200, rows into `cc0_scratch2` -/

/-- Before trip g: the token scratch at its contents; in the row scratch, row 1's sites below min (16·g) 200 hold
    their interpolation and the other row is as at the loop's start. -/
def invG_3 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 0 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_3_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t3_loop.trips) (acc : BitVec 32) :
    invG_3 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t3_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_3 (F := F) d L Y f₀ (tvLoc v4 v6 v8 v10 v35 v36 v37 v38 v39 v40 v41 v42 v45 v48 v51 v54) (g.val + 1)) := by
  unfold invG_3
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 1
        (tvLoc v4 v6 v8 v10 v35 v36 v37 v38 v39 v40 v41 v42 v45 v48 v51 v54) Y f₀ f g.val (lt_of_lt_of_le g.isLt k0_t3_abs.2.1)
        (k0_pay10 (F := F) (View.readAt (Elt F) (Memref.whole cc0_scratch1 : Memref sig .scVector .vmem S1600 .i32).view
          (Rect.unit (s := S1600) (k0_off8 g) S16.size (k0_off8_inb g)).toLoadRect Y))
        200 rfl
        (fun i => tokVec_at (F := F) Y (k0_off8 g) (k0_off8_inb g) _ (k0_off8_eq g) _ (fun j => rfl) i _
          (by show 200 + (min (16 * g.val) 184 + i.val) = min (16 * g.val) 184 + 200 + i.val; omega))
        _
        (List.Forall₂.cons ⟨_, k0_off12_inb g 15, k0_off12_eq g 15, rfl⟩ (
          List.Forall₂.cons ⟨_, k0_off11_inb g 15, k0_off11_eq g 15, rfl⟩ (
          List.Forall₂.cons ⟨_, k0_off10_inb g 15, k0_off10_eq g 15, rfl⟩ (
          List.Forall₂.cons ⟨_, k0_off9_inb g 15, k0_off9_eq g 15, rfl⟩ (
          List.Forall₂.cons ⟨_, k0_off12_inb g 14, k0_off12_eq g 14, rfl⟩ (
          List.Forall₂.cons ⟨_, k0_off11_inb g 14, k0_off11_eq g 14, rfl⟩ (
          List.Forall₂.cons ⟨_, k0_off10_inb g 14, k0_off10_eq g 14, rfl⟩ (
          List.Forall₂.cons ⟨_, k0_off9_inb g 14, k0_off9_eq g 14, rfl⟩ (
          List.Forall₂.cons ⟨_, k0_off12_inb g 13, k0_off12_eq g 13, rfl⟩ (
          List.Forall₂.cons ⟨_, k0_off11_inb g 13, k0_off11_eq g 13, rfl⟩ (
          List.Forall₂.cons ⟨_, k0_off10_inb g 13, k0_off10_eq g 13, rfl⟩ (
          List.Forall₂.cons ⟨_, k0_off9_inb g 13, k0_off9_eq g 13, rfl⟩ (
          List.Forall₂.cons ⟨_, k0_off12_inb g 12, k0_off12_eq g 12, rfl⟩ (
          List.Forall₂.cons ⟨_, k0_off11_inb g 12, k0_off11_eq g 12, rfl⟩ (
          List.Forall₂.cons ⟨_, k0_off10_inb g 12, k0_off10_eq g 12, rfl⟩ (
          List.Forall₂.cons ⟨_, k0_off9_inb g 12, k0_off9_eq g 12, rfl⟩ (
          List.Forall₂.cons ⟨_, k0_off12_inb g 11, k0_off12_eq g 11, rfl⟩ (
          List.Forall₂.cons ⟨_, k0_off11_inb g 11, k0_off11_eq g 11, rfl⟩ (
          List.Forall₂.cons ⟨_, k0_off10_inb g 11, k0_off10_eq g 11, rfl⟩ (
          List.Forall₂.cons ⟨_, k0_off9_inb g 11, k0_off9_eq g 11, rfl⟩ (
          List.Forall₂.cons ⟨_, k0_off12_inb g 10, k0_off12_eq g 10, rfl⟩ (
          List.Forall₂.cons ⟨_, k0_off11_inb g 10, k0_off11_eq g 10, rfl⟩ (
          List.Forall₂.cons ⟨_, k0_off10_inb g 10, k0_off10_eq g 10, rfl⟩ (
          List.Forall₂.cons ⟨_, k0_off9_inb g 10, k0_off9_eq g 10, rfl⟩ (
          List.Forall₂.cons ⟨_, k0_off12_inb g 9, k0_off12_eq g 9, rfl⟩ (
          List.Forall₂.cons ⟨_, k0_off11_inb g 9, k0_off11_eq g 9, rfl⟩ (
          List.Forall₂.cons ⟨_, k0_off10_inb g 9, k0_off10_eq g 9, rfl⟩ (
          List.Forall₂.cons ⟨_, k0_off9_inb g 9, k0_off9_eq g 9, rfl⟩ (
          List.Forall₂.cons ⟨_, k0_off12_inb g 8, k0_off12_eq g 8, rfl⟩ (
          List.Forall₂.cons ⟨_, k0_off11_inb g 8, k0_off11_eq g 8, rfl⟩ (
          List.Forall₂.cons ⟨_, k0_off10_inb g 8, k0_off10_eq g 8, rfl⟩ (
          List.Forall₂.cons ⟨_, k0_off9_inb g 8, k0_off9_eq g 8, rfl⟩ (
          List.Forall₂.cons ⟨_, k0_off12_inb g 7, k0_off12_eq g 7, rfl⟩ (
          List.Forall₂.cons ⟨_, k0_off11_inb g 7, k0_off11_eq g 7, rfl⟩ (
          List.Forall₂.cons ⟨_, k0_off10_inb g 7, k0_off10_eq g 7, rfl⟩ (
          List.Forall₂.cons ⟨_, k0_off9_inb g 7, k0_off9_eq g 7, rfl⟩ (
          List.Forall₂.cons ⟨_, k0_off12_inb g 6, k0_off12_eq g 6, rfl⟩ (
          List.Forall₂.cons ⟨_, k0_off11_inb g 6, k0_off11_eq g 6, rfl⟩ (
          List.Forall₂.cons ⟨_, k0_off10_inb g 6, k0_off10_eq g 6, rfl⟩ (
          List.Forall₂.cons ⟨_, k0_off9_inb g 6, k0_off9_eq g 6, rfl⟩ (
          List.Forall₂.cons ⟨_, k0_off12_inb g 5, k0_off12_eq g 5, rfl⟩ (
          List.Forall₂.cons ⟨_, k0_off11_inb g 5, k0_off11_eq g 5, rfl⟩ (
          List.Forall₂.cons ⟨_, k0_off10_inb g 5, k0_off10_eq g 5, rfl⟩ (
          List.Forall₂.cons ⟨_, k0_off9_inb g 5, k0_off9_eq g 5, rfl⟩ (
          List.Forall₂.cons ⟨_, k0_off12_inb g 4, k0_off12_eq g 4, rfl⟩ (
          List.Forall₂.cons ⟨_, k0_off11_inb g 4, k0_off11_eq g 4, rfl⟩ (
          List.Forall₂.cons ⟨_, k0_off10_inb g 4, k0_off10_eq g 4, rfl⟩ (
          List.Forall₂.cons ⟨_, k0_off9_inb g 4, k0_off9_eq g 4, rfl⟩ (
          List.Forall₂.cons ⟨_, k0_off12_inb g 3, k0_off12_eq g 3, rfl⟩ (
          List.Forall₂.cons ⟨_, k0_off11_inb g 3, k0_off11_eq g 3, rfl⟩ (
          List.Forall₂.cons ⟨_, k0_off10_inb g 3, k0_off10_eq g 3, rfl⟩ (
          List.Forall₂.cons ⟨_, k0_off9_inb g 3, k0_off9_eq g 3, rfl⟩ (
          List.Forall₂.cons ⟨_, k0_off12_inb g 2, k0_off12_eq g 2, rfl⟩ (
          List.Forall₂.cons ⟨_, k0_off11_inb g 2, k0_off11_eq g 2, rfl⟩ (
          List.Forall₂.cons ⟨_, k0_off10_inb g 2, k0_off10_eq g 2, rfl⟩ (
          List.Forall₂.cons ⟨_, k0_off9_inb g 2, k0_off9_eq g 2, rfl⟩ (
          List.Forall₂.cons ⟨_, k0_off12_inb g 1, k0_off12_eq g 1, rfl⟩ (
          List.Forall₂.cons ⟨_, k0_off11_inb g 1, k0_off11_eq g 1, rfl⟩ (
          List.Forall₂.cons ⟨_, k0_off10_inb g 1, k0_off10_eq g 1, rfl⟩ (
          List.Forall₂.cons ⟨_, k0_off9_inb g 1, k0_off9_eq g 1, rfl⟩ (
          List.Forall₂.cons ⟨_, k0_off12_inb g 0, k0_off12_eq g 0, rfl⟩ (
          List.Forall₂.cons ⟨_, k0_off11_inb g 0, k0_off11_eq g 0, rfl⟩ (
          List.Forall₂.cons ⟨_, k0_off10_inb g 0, k0_off10_eq g 0, rfl⟩ (
          List.Forall₂.cons ⟨_, k0_off9_inb g 0, k0_off9_eq g 0, rfl⟩ (List.Forall₂.nil)))))))))))))))))))))))))))))))))))))))))))))))))))))))))))))))))
        hf

theorem grp_3_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_3 (F := F) d L Y f₀ tv 0 acc := by
  unfold invG_3
  iintro ⟨Hk, Hout⟩
  isplitl [Hk]
  · iexact Hk
  · iexists _
    isplitr [Hout]
    swap
    · iexact Hout
    · ipureintro
      exact grpUpTo_zero 0 1 tv Y f₀

/-! ### Loop 4: row 0 of output pair 1; tokens from `cc0_scratch1` at 400, rows into `cc0_scratch7` -/

/-- Before trip g: the token scratch at its contents; in the row scratch, row 0's sites below min (16·g) 200 hold
    their interpolation and the other row is as at the loop's start. -/
def invG_4 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 1 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_4_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t4_loop.trips) (acc : BitVec 32) :
    invG_4 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t4_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_4 (F := F) d L Y f₀ (tvLoc v4 v6 v8 v10 v35 v36 v37 v38 v39 v40 v41 v42 v45 v48 v51 v54) (g.val + 1)) := by
  unfold invG_4
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 0
        (tvLoc v4 v6 v8 v10 v35 v36 v37 v38 v39 v40 v41 v42 v45 v48 v51 v54) Y f₀ f g.val (lt_of_lt_of_le g.isLt k0_t4_abs.2.1)
        (k0_pay10 (F := F) (View.readAt (Elt F) (Memref.whole cc0_scratch1 : Memref sig .scVector .vmem S1600 .i32).view
          (Rect.unit (s := S1600) (k0_off14 g) S16.size (k0_off14_inb g)).toLoadRect Y))
        400 rfl
        (fun i => tokVec_at (F := F) Y (k0_off14 g) (k0_off14_inb g) _ (k0_off14_eq g) _ (fun j => rfl) i _
          (by show 400 + (min (16 * g.val) 184 + i.val) = min (16 * g.val) 184 + 400 + i.val; omega))
        _
        (List.Forall₂.cons ⟨_, k0_off18_inb g 15, k0_off18_eq g 15, rfl⟩ (
          List.Forall₂.cons ⟨_, k0_off17_inb g 15, k0_off17_eq g 15, rfl⟩ (
          List.Forall₂.cons ⟨_, k0_off16_inb g 15, k0_off16_eq g 15, rfl⟩ (
          List.Forall₂.cons ⟨_, k0_off15_inb g 15, k0_off15_eq g 15, rfl⟩ (
          List.Forall₂.cons ⟨_, k0_off18_inb g 14, k0_off18_eq g 14, rfl⟩ (
          List.Forall₂.cons ⟨_, k0_off17_inb g 14, k0_off17_eq g 14, rfl⟩ (
          List.Forall₂.cons ⟨_, k0_off16_inb g 14, k0_off16_eq g 14, rfl⟩ (
          List.Forall₂.cons ⟨_, k0_off15_inb g 14, k0_off15_eq g 14, rfl⟩ (
          List.Forall₂.cons ⟨_, k0_off18_inb g 13, k0_off18_eq g 13, rfl⟩ (
          List.Forall₂.cons ⟨_, k0_off17_inb g 13, k0_off17_eq g 13, rfl⟩ (
          List.Forall₂.cons ⟨_, k0_off16_inb g 13, k0_off16_eq g 13, rfl⟩ (
          List.Forall₂.cons ⟨_, k0_off15_inb g 13, k0_off15_eq g 13, rfl⟩ (
          List.Forall₂.cons ⟨_, k0_off18_inb g 12, k0_off18_eq g 12, rfl⟩ (
          List.Forall₂.cons ⟨_, k0_off17_inb g 12, k0_off17_eq g 12, rfl⟩ (
          List.Forall₂.cons ⟨_, k0_off16_inb g 12, k0_off16_eq g 12, rfl⟩ (
          List.Forall₂.cons ⟨_, k0_off15_inb g 12, k0_off15_eq g 12, rfl⟩ (
          List.Forall₂.cons ⟨_, k0_off18_inb g 11, k0_off18_eq g 11, rfl⟩ (
          List.Forall₂.cons ⟨_, k0_off17_inb g 11, k0_off17_eq g 11, rfl⟩ (
          List.Forall₂.cons ⟨_, k0_off16_inb g 11, k0_off16_eq g 11, rfl⟩ (
          List.Forall₂.cons ⟨_, k0_off15_inb g 11, k0_off15_eq g 11, rfl⟩ (
          List.Forall₂.cons ⟨_, k0_off18_inb g 10, k0_off18_eq g 10, rfl⟩ (
          List.Forall₂.cons ⟨_, k0_off17_inb g 10, k0_off17_eq g 10, rfl⟩ (
          List.Forall₂.cons ⟨_, k0_off16_inb g 10, k0_off16_eq g 10, rfl⟩ (
          List.Forall₂.cons ⟨_, k0_off15_inb g 10, k0_off15_eq g 10, rfl⟩ (
          List.Forall₂.cons ⟨_, k0_off18_inb g 9, k0_off18_eq g 9, rfl⟩ (
          List.Forall₂.cons ⟨_, k0_off17_inb g 9, k0_off17_eq g 9, rfl⟩ (
          List.Forall₂.cons ⟨_, k0_off16_inb g 9, k0_off16_eq g 9, rfl⟩ (
          List.Forall₂.cons ⟨_, k0_off15_inb g 9, k0_off15_eq g 9, rfl⟩ (
          List.Forall₂.cons ⟨_, k0_off18_inb g 8, k0_off18_eq g 8, rfl⟩ (
          List.Forall₂.cons ⟨_, k0_off17_inb g 8, k0_off17_eq g 8, rfl⟩ (
          List.Forall₂.cons ⟨_, k0_off16_inb g 8, k0_off16_eq g 8, rfl⟩ (
          List.Forall₂.cons ⟨_, k0_off15_inb g 8, k0_off15_eq g 8, rfl⟩ (
          List.Forall₂.cons ⟨_, k0_off18_inb g 7, k0_off18_eq g 7, rfl⟩ (
          List.Forall₂.cons ⟨_, k0_off17_inb g 7, k0_off17_eq g 7, rfl⟩ (
          List.Forall₂.cons ⟨_, k0_off16_inb g 7, k0_off16_eq g 7, rfl⟩ (
          List.Forall₂.cons ⟨_, k0_off15_inb g 7, k0_off15_eq g 7, rfl⟩ (
          List.Forall₂.cons ⟨_, k0_off18_inb g 6, k0_off18_eq g 6, rfl⟩ (
          List.Forall₂.cons ⟨_, k0_off17_inb g 6, k0_off17_eq g 6, rfl⟩ (
          List.Forall₂.cons ⟨_, k0_off16_inb g 6, k0_off16_eq g 6, rfl⟩ (
          List.Forall₂.cons ⟨_, k0_off15_inb g 6, k0_off15_eq g 6, rfl⟩ (
          List.Forall₂.cons ⟨_, k0_off18_inb g 5, k0_off18_eq g 5, rfl⟩ (
          List.Forall₂.cons ⟨_, k0_off17_inb g 5, k0_off17_eq g 5, rfl⟩ (
          List.Forall₂.cons ⟨_, k0_off16_inb g 5, k0_off16_eq g 5, rfl⟩ (
          List.Forall₂.cons ⟨_, k0_off15_inb g 5, k0_off15_eq g 5, rfl⟩ (
          List.Forall₂.cons ⟨_, k0_off18_inb g 4, k0_off18_eq g 4, rfl⟩ (
          List.Forall₂.cons ⟨_, k0_off17_inb g 4, k0_off17_eq g 4, rfl⟩ (
          List.Forall₂.cons ⟨_, k0_off16_inb g 4, k0_off16_eq g 4, rfl⟩ (
          List.Forall₂.cons ⟨_, k0_off15_inb g 4, k0_off15_eq g 4, rfl⟩ (
          List.Forall₂.cons ⟨_, k0_off18_inb g 3, k0_off18_eq g 3, rfl⟩ (
          List.Forall₂.cons ⟨_, k0_off17_inb g 3, k0_off17_eq g 3, rfl⟩ (
          List.Forall₂.cons ⟨_, k0_off16_inb g 3, k0_off16_eq g 3, rfl⟩ (
          List.Forall₂.cons ⟨_, k0_off15_inb g 3, k0_off15_eq g 3, rfl⟩ (
          List.Forall₂.cons ⟨_, k0_off18_inb g 2, k0_off18_eq g 2, rfl⟩ (
          List.Forall₂.cons ⟨_, k0_off17_inb g 2, k0_off17_eq g 2, rfl⟩ (
          List.Forall₂.cons ⟨_, k0_off16_inb g 2, k0_off16_eq g 2, rfl⟩ (
          List.Forall₂.cons ⟨_, k0_off15_inb g 2, k0_off15_eq g 2, rfl⟩ (
          List.Forall₂.cons ⟨_, k0_off18_inb g 1, k0_off18_eq g 1, rfl⟩ (
          List.Forall₂.cons ⟨_, k0_off17_inb g 1, k0_off17_eq g 1, rfl⟩ (
          List.Forall₂.cons ⟨_, k0_off16_inb g 1, k0_off16_eq g 1, rfl⟩ (
          List.Forall₂.cons ⟨_, k0_off15_inb g 1, k0_off15_eq g 1, rfl⟩ (
          List.Forall₂.cons ⟨_, k0_off18_inb g 0, k0_off18_eq g 0, rfl⟩ (
          List.Forall₂.cons ⟨_, k0_off17_inb g 0, k0_off17_eq g 0, rfl⟩ (
          List.Forall₂.cons ⟨_, k0_off16_inb g 0, k0_off16_eq g 0, rfl⟩ (
          List.Forall₂.cons ⟨_, k0_off15_inb g 0, k0_off15_eq g 0, rfl⟩ (List.Forall₂.nil)))))))))))))))))))))))))))))))))))))))))))))))))))))))))))))))))
        hf

theorem grp_4_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_4 (F := F) d L Y f₀ tv 0 acc := by
  unfold invG_4
  iintro ⟨Hk, Hout⟩
  isplitl [Hk]
  · iexact Hk
  · iexists _
    isplitr [Hout]
    swap
    · iexact Hout
    · ipureintro
      exact grpUpTo_zero 1 0 tv Y f₀

/-! ### Loop 5: row 1 of output pair 1; tokens from `cc0_scratch1` at 600, rows into `cc0_scratch7` -/

/-- Before trip g: the token scratch at its contents; in the row scratch, row 1's sites below min (16·g) 200 hold
    their interpolation and the other row is as at the loop's start. -/
def invG_5 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 1 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_5_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t5_loop.trips) (acc : BitVec 32) :
    invG_5 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t5_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_5 (F := F) d L Y f₀ (tvLoc v4 v6 v8 v10 v35 v36 v37 v38 v39 v40 v41 v42 v45 v48 v51 v54) (g.val + 1)) := by
  unfold invG_5
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 1
        (tvLoc v4 v6 v8 v10 v35 v36 v37 v38 v39 v40 v41 v42 v45 v48 v51 v54) Y f₀ f g.val (lt_of_lt_of_le g.isLt k0_t5_abs.2.1)
        (k0_pay10 (F := F) (View.readAt (Elt F) (Memref.whole cc0_scratch1 : Memref sig .scVector .vmem S1600 .i32).view
          (Rect.unit (s := S1600) (k0_off19 g) S16.size (k0_off19_inb g)).toLoadRect Y))
        600 rfl
        (fun i => tokVec_at (F := F) Y (k0_off19 g) (k0_off19_inb g) _ (k0_off19_eq g) _ (fun j => rfl) i _
          (by show 600 + (min (16 * g.val) 184 + i.val) = min (16 * g.val) 184 + 600 + i.val; omega))
        _
        (List.Forall₂.cons ⟨_, k0_off23_inb g 15, k0_off23_eq g 15, rfl⟩ (
          List.Forall₂.cons ⟨_, k0_off22_inb g 15, k0_off22_eq g 15, rfl⟩ (
          List.Forall₂.cons ⟨_, k0_off21_inb g 15, k0_off21_eq g 15, rfl⟩ (
          List.Forall₂.cons ⟨_, k0_off20_inb g 15, k0_off20_eq g 15, rfl⟩ (
          List.Forall₂.cons ⟨_, k0_off23_inb g 14, k0_off23_eq g 14, rfl⟩ (
          List.Forall₂.cons ⟨_, k0_off22_inb g 14, k0_off22_eq g 14, rfl⟩ (
          List.Forall₂.cons ⟨_, k0_off21_inb g 14, k0_off21_eq g 14, rfl⟩ (
          List.Forall₂.cons ⟨_, k0_off20_inb g 14, k0_off20_eq g 14, rfl⟩ (
          List.Forall₂.cons ⟨_, k0_off23_inb g 13, k0_off23_eq g 13, rfl⟩ (
          List.Forall₂.cons ⟨_, k0_off22_inb g 13, k0_off22_eq g 13, rfl⟩ (
          List.Forall₂.cons ⟨_, k0_off21_inb g 13, k0_off21_eq g 13, rfl⟩ (
          List.Forall₂.cons ⟨_, k0_off20_inb g 13, k0_off20_eq g 13, rfl⟩ (
          List.Forall₂.cons ⟨_, k0_off23_inb g 12, k0_off23_eq g 12, rfl⟩ (
          List.Forall₂.cons ⟨_, k0_off22_inb g 12, k0_off22_eq g 12, rfl⟩ (
          List.Forall₂.cons ⟨_, k0_off21_inb g 12, k0_off21_eq g 12, rfl⟩ (
          List.Forall₂.cons ⟨_, k0_off20_inb g 12, k0_off20_eq g 12, rfl⟩ (
          List.Forall₂.cons ⟨_, k0_off23_inb g 11, k0_off23_eq g 11, rfl⟩ (
          List.Forall₂.cons ⟨_, k0_off22_inb g 11, k0_off22_eq g 11, rfl⟩ (
          List.Forall₂.cons ⟨_, k0_off21_inb g 11, k0_off21_eq g 11, rfl⟩ (
          List.Forall₂.cons ⟨_, k0_off20_inb g 11, k0_off20_eq g 11, rfl⟩ (
          List.Forall₂.cons ⟨_, k0_off23_inb g 10, k0_off23_eq g 10, rfl⟩ (
          List.Forall₂.cons ⟨_, k0_off22_inb g 10, k0_off22_eq g 10, rfl⟩ (
          List.Forall₂.cons ⟨_, k0_off21_inb g 10, k0_off21_eq g 10, rfl⟩ (
          List.Forall₂.cons ⟨_, k0_off20_inb g 10, k0_off20_eq g 10, rfl⟩ (
          List.Forall₂.cons ⟨_, k0_off23_inb g 9, k0_off23_eq g 9, rfl⟩ (
          List.Forall₂.cons ⟨_, k0_off22_inb g 9, k0_off22_eq g 9, rfl⟩ (
          List.Forall₂.cons ⟨_, k0_off21_inb g 9, k0_off21_eq g 9, rfl⟩ (
          List.Forall₂.cons ⟨_, k0_off20_inb g 9, k0_off20_eq g 9, rfl⟩ (
          List.Forall₂.cons ⟨_, k0_off23_inb g 8, k0_off23_eq g 8, rfl⟩ (
          List.Forall₂.cons ⟨_, k0_off22_inb g 8, k0_off22_eq g 8, rfl⟩ (
          List.Forall₂.cons ⟨_, k0_off21_inb g 8, k0_off21_eq g 8, rfl⟩ (
          List.Forall₂.cons ⟨_, k0_off20_inb g 8, k0_off20_eq g 8, rfl⟩ (
          List.Forall₂.cons ⟨_, k0_off23_inb g 7, k0_off23_eq g 7, rfl⟩ (
          List.Forall₂.cons ⟨_, k0_off22_inb g 7, k0_off22_eq g 7, rfl⟩ (
          List.Forall₂.cons ⟨_, k0_off21_inb g 7, k0_off21_eq g 7, rfl⟩ (
          List.Forall₂.cons ⟨_, k0_off20_inb g 7, k0_off20_eq g 7, rfl⟩ (
          List.Forall₂.cons ⟨_, k0_off23_inb g 6, k0_off23_eq g 6, rfl⟩ (
          List.Forall₂.cons ⟨_, k0_off22_inb g 6, k0_off22_eq g 6, rfl⟩ (
          List.Forall₂.cons ⟨_, k0_off21_inb g 6, k0_off21_eq g 6, rfl⟩ (
          List.Forall₂.cons ⟨_, k0_off20_inb g 6, k0_off20_eq g 6, rfl⟩ (
          List.Forall₂.cons ⟨_, k0_off23_inb g 5, k0_off23_eq g 5, rfl⟩ (
          List.Forall₂.cons ⟨_, k0_off22_inb g 5, k0_off22_eq g 5, rfl⟩ (
          List.Forall₂.cons ⟨_, k0_off21_inb g 5, k0_off21_eq g 5, rfl⟩ (
          List.Forall₂.cons ⟨_, k0_off20_inb g 5, k0_off20_eq g 5, rfl⟩ (
          List.Forall₂.cons ⟨_, k0_off23_inb g 4, k0_off23_eq g 4, rfl⟩ (
          List.Forall₂.cons ⟨_, k0_off22_inb g 4, k0_off22_eq g 4, rfl⟩ (
          List.Forall₂.cons ⟨_, k0_off21_inb g 4, k0_off21_eq g 4, rfl⟩ (
          List.Forall₂.cons ⟨_, k0_off20_inb g 4, k0_off20_eq g 4, rfl⟩ (
          List.Forall₂.cons ⟨_, k0_off23_inb g 3, k0_off23_eq g 3, rfl⟩ (
          List.Forall₂.cons ⟨_, k0_off22_inb g 3, k0_off22_eq g 3, rfl⟩ (
          List.Forall₂.cons ⟨_, k0_off21_inb g 3, k0_off21_eq g 3, rfl⟩ (
          List.Forall₂.cons ⟨_, k0_off20_inb g 3, k0_off20_eq g 3, rfl⟩ (
          List.Forall₂.cons ⟨_, k0_off23_inb g 2, k0_off23_eq g 2, rfl⟩ (
          List.Forall₂.cons ⟨_, k0_off22_inb g 2, k0_off22_eq g 2, rfl⟩ (
          List.Forall₂.cons ⟨_, k0_off21_inb g 2, k0_off21_eq g 2, rfl⟩ (
          List.Forall₂.cons ⟨_, k0_off20_inb g 2, k0_off20_eq g 2, rfl⟩ (
          List.Forall₂.cons ⟨_, k0_off23_inb g 1, k0_off23_eq g 1, rfl⟩ (
          List.Forall₂.cons ⟨_, k0_off22_inb g 1, k0_off22_eq g 1, rfl⟩ (
          List.Forall₂.cons ⟨_, k0_off21_inb g 1, k0_off21_eq g 1, rfl⟩ (
          List.Forall₂.cons ⟨_, k0_off20_inb g 1, k0_off20_eq g 1, rfl⟩ (
          List.Forall₂.cons ⟨_, k0_off23_inb g 0, k0_off23_eq g 0, rfl⟩ (
          List.Forall₂.cons ⟨_, k0_off22_inb g 0, k0_off22_eq g 0, rfl⟩ (
          List.Forall₂.cons ⟨_, k0_off21_inb g 0, k0_off21_eq g 0, rfl⟩ (
          List.Forall₂.cons ⟨_, k0_off20_inb g 0, k0_off20_eq g 0, rfl⟩ (List.Forall₂.nil)))))))))))))))))))))))))))))))))))))))))))))))))))))))))))))))))
        hf

theorem grp_5_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_5 (F := F) d L Y f₀ tv 0 acc := by
  unfold invG_5
  iintro ⟨Hk, Hout⟩
  isplitl [Hk]
  · iexact Hk
  · iexists _
    isplitr [Hout]
    swap
    · iexact Hout
    · ipureintro
      exact grpUpTo_zero 1 1 tv Y f₀

/-! ### Loop 6: row 0 of output pair 2; tokens from `cc0_scratch1` at 800, rows into `cc0_scratch2` -/

/-- Before trip g: the token scratch at its contents; in the row scratch, row 0's sites below min (16·g) 200 hold
    their interpolation and the other row is as at the loop's start. -/
def invG_6 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 2 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_6_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t6_loop.trips) (acc : BitVec 32) :
    invG_6 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t6_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_6 (F := F) d L Y f₀ (tvLoc v4 v6 v8 v10 v35 v36 v37 v38 v39 v40 v41 v42 v45 v48 v51 v54) (g.val + 1)) := by
  unfold invG_6
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 0
        (tvLoc v4 v6 v8 v10 v35 v36 v37 v38 v39 v40 v41 v42 v45 v48 v51 v54) Y f₀ f g.val (lt_of_lt_of_le g.isLt k0_t6_abs.2.1)
        (k0_pay10 (F := F) (View.readAt (Elt F) (Memref.whole cc0_scratch1 : Memref sig .scVector .vmem S1600 .i32).view
          (Rect.unit (s := S1600) (k0_off24 g) S16.size (k0_off24_inb g)).toLoadRect Y))
        800 rfl
        (fun i => tokVec_at (F := F) Y (k0_off24 g) (k0_off24_inb g) _ (k0_off24_eq g) _ (fun j => rfl) i _
          (by show 800 + (min (16 * g.val) 184 + i.val) = min (16 * g.val) 184 + 800 + i.val; omega))
        _
        (List.Forall₂.cons ⟨_, k0_off28_inb g 15, k0_off28_eq g 15, rfl⟩ (
          List.Forall₂.cons ⟨_, k0_off27_inb g 15, k0_off27_eq g 15, rfl⟩ (
          List.Forall₂.cons ⟨_, k0_off26_inb g 15, k0_off26_eq g 15, rfl⟩ (
          List.Forall₂.cons ⟨_, k0_off25_inb g 15, k0_off25_eq g 15, rfl⟩ (
          List.Forall₂.cons ⟨_, k0_off28_inb g 14, k0_off28_eq g 14, rfl⟩ (
          List.Forall₂.cons ⟨_, k0_off27_inb g 14, k0_off27_eq g 14, rfl⟩ (
          List.Forall₂.cons ⟨_, k0_off26_inb g 14, k0_off26_eq g 14, rfl⟩ (
          List.Forall₂.cons ⟨_, k0_off25_inb g 14, k0_off25_eq g 14, rfl⟩ (
          List.Forall₂.cons ⟨_, k0_off28_inb g 13, k0_off28_eq g 13, rfl⟩ (
          List.Forall₂.cons ⟨_, k0_off27_inb g 13, k0_off27_eq g 13, rfl⟩ (
          List.Forall₂.cons ⟨_, k0_off26_inb g 13, k0_off26_eq g 13, rfl⟩ (
          List.Forall₂.cons ⟨_, k0_off25_inb g 13, k0_off25_eq g 13, rfl⟩ (
          List.Forall₂.cons ⟨_, k0_off28_inb g 12, k0_off28_eq g 12, rfl⟩ (
          List.Forall₂.cons ⟨_, k0_off27_inb g 12, k0_off27_eq g 12, rfl⟩ (
          List.Forall₂.cons ⟨_, k0_off26_inb g 12, k0_off26_eq g 12, rfl⟩ (
          List.Forall₂.cons ⟨_, k0_off25_inb g 12, k0_off25_eq g 12, rfl⟩ (
          List.Forall₂.cons ⟨_, k0_off28_inb g 11, k0_off28_eq g 11, rfl⟩ (
          List.Forall₂.cons ⟨_, k0_off27_inb g 11, k0_off27_eq g 11, rfl⟩ (
          List.Forall₂.cons ⟨_, k0_off26_inb g 11, k0_off26_eq g 11, rfl⟩ (
          List.Forall₂.cons ⟨_, k0_off25_inb g 11, k0_off25_eq g 11, rfl⟩ (
          List.Forall₂.cons ⟨_, k0_off28_inb g 10, k0_off28_eq g 10, rfl⟩ (
          List.Forall₂.cons ⟨_, k0_off27_inb g 10, k0_off27_eq g 10, rfl⟩ (
          List.Forall₂.cons ⟨_, k0_off26_inb g 10, k0_off26_eq g 10, rfl⟩ (
          List.Forall₂.cons ⟨_, k0_off25_inb g 10, k0_off25_eq g 10, rfl⟩ (
          List.Forall₂.cons ⟨_, k0_off28_inb g 9, k0_off28_eq g 9, rfl⟩ (
          List.Forall₂.cons ⟨_, k0_off27_inb g 9, k0_off27_eq g 9, rfl⟩ (
          List.Forall₂.cons ⟨_, k0_off26_inb g 9, k0_off26_eq g 9, rfl⟩ (
          List.Forall₂.cons ⟨_, k0_off25_inb g 9, k0_off25_eq g 9, rfl⟩ (
          List.Forall₂.cons ⟨_, k0_off28_inb g 8, k0_off28_eq g 8, rfl⟩ (
          List.Forall₂.cons ⟨_, k0_off27_inb g 8, k0_off27_eq g 8, rfl⟩ (
          List.Forall₂.cons ⟨_, k0_off26_inb g 8, k0_off26_eq g 8, rfl⟩ (
          List.Forall₂.cons ⟨_, k0_off25_inb g 8, k0_off25_eq g 8, rfl⟩ (
          List.Forall₂.cons ⟨_, k0_off28_inb g 7, k0_off28_eq g 7, rfl⟩ (
          List.Forall₂.cons ⟨_, k0_off27_inb g 7, k0_off27_eq g 7, rfl⟩ (
          List.Forall₂.cons ⟨_, k0_off26_inb g 7, k0_off26_eq g 7, rfl⟩ (
          List.Forall₂.cons ⟨_, k0_off25_inb g 7, k0_off25_eq g 7, rfl⟩ (
          List.Forall₂.cons ⟨_, k0_off28_inb g 6, k0_off28_eq g 6, rfl⟩ (
          List.Forall₂.cons ⟨_, k0_off27_inb g 6, k0_off27_eq g 6, rfl⟩ (
          List.Forall₂.cons ⟨_, k0_off26_inb g 6, k0_off26_eq g 6, rfl⟩ (
          List.Forall₂.cons ⟨_, k0_off25_inb g 6, k0_off25_eq g 6, rfl⟩ (
          List.Forall₂.cons ⟨_, k0_off28_inb g 5, k0_off28_eq g 5, rfl⟩ (
          List.Forall₂.cons ⟨_, k0_off27_inb g 5, k0_off27_eq g 5, rfl⟩ (
          List.Forall₂.cons ⟨_, k0_off26_inb g 5, k0_off26_eq g 5, rfl⟩ (
          List.Forall₂.cons ⟨_, k0_off25_inb g 5, k0_off25_eq g 5, rfl⟩ (
          List.Forall₂.cons ⟨_, k0_off28_inb g 4, k0_off28_eq g 4, rfl⟩ (
          List.Forall₂.cons ⟨_, k0_off27_inb g 4, k0_off27_eq g 4, rfl⟩ (
          List.Forall₂.cons ⟨_, k0_off26_inb g 4, k0_off26_eq g 4, rfl⟩ (
          List.Forall₂.cons ⟨_, k0_off25_inb g 4, k0_off25_eq g 4, rfl⟩ (
          List.Forall₂.cons ⟨_, k0_off28_inb g 3, k0_off28_eq g 3, rfl⟩ (
          List.Forall₂.cons ⟨_, k0_off27_inb g 3, k0_off27_eq g 3, rfl⟩ (
          List.Forall₂.cons ⟨_, k0_off26_inb g 3, k0_off26_eq g 3, rfl⟩ (
          List.Forall₂.cons ⟨_, k0_off25_inb g 3, k0_off25_eq g 3, rfl⟩ (
          List.Forall₂.cons ⟨_, k0_off28_inb g 2, k0_off28_eq g 2, rfl⟩ (
          List.Forall₂.cons ⟨_, k0_off27_inb g 2, k0_off27_eq g 2, rfl⟩ (
          List.Forall₂.cons ⟨_, k0_off26_inb g 2, k0_off26_eq g 2, rfl⟩ (
          List.Forall₂.cons ⟨_, k0_off25_inb g 2, k0_off25_eq g 2, rfl⟩ (
          List.Forall₂.cons ⟨_, k0_off28_inb g 1, k0_off28_eq g 1, rfl⟩ (
          List.Forall₂.cons ⟨_, k0_off27_inb g 1, k0_off27_eq g 1, rfl⟩ (
          List.Forall₂.cons ⟨_, k0_off26_inb g 1, k0_off26_eq g 1, rfl⟩ (
          List.Forall₂.cons ⟨_, k0_off25_inb g 1, k0_off25_eq g 1, rfl⟩ (
          List.Forall₂.cons ⟨_, k0_off28_inb g 0, k0_off28_eq g 0, rfl⟩ (
          List.Forall₂.cons ⟨_, k0_off27_inb g 0, k0_off27_eq g 0, rfl⟩ (
          List.Forall₂.cons ⟨_, k0_off26_inb g 0, k0_off26_eq g 0, rfl⟩ (
          List.Forall₂.cons ⟨_, k0_off25_inb g 0, k0_off25_eq g 0, rfl⟩ (List.Forall₂.nil)))))))))))))))))))))))))))))))))))))))))))))))))))))))))))))))))
        hf

theorem grp_6_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_6 (F := F) d L Y f₀ tv 0 acc := by
  unfold invG_6
  iintro ⟨Hk, Hout⟩
  isplitl [Hk]
  · iexact Hk
  · iexists _
    isplitr [Hout]
    swap
    · iexact Hout
    · ipureintro
      exact grpUpTo_zero 2 0 tv Y f₀

/-! ### Loop 7: row 1 of output pair 2; tokens from `cc0_scratch1` at 1000, rows into `cc0_scratch2` -/

/-- Before trip g: the token scratch at its contents; in the row scratch, row 1's sites below min (16·g) 200 hold
    their interpolation and the other row is as at the loop's start. -/
def invG_7 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 2 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_7_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t7_loop.trips) (acc : BitVec 32) :
    invG_7 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t7_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_7 (F := F) d L Y f₀ (tvLoc v4 v6 v8 v10 v35 v36 v37 v38 v39 v40 v41 v42 v45 v48 v51 v54) (g.val + 1)) := by
  unfold invG_7
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 1
        (tvLoc v4 v6 v8 v10 v35 v36 v37 v38 v39 v40 v41 v42 v45 v48 v51 v54) Y f₀ f g.val (lt_of_lt_of_le g.isLt k0_t7_abs.2.1)
        (k0_pay10 (F := F) (View.readAt (Elt F) (Memref.whole cc0_scratch1 : Memref sig .scVector .vmem S1600 .i32).view
          (Rect.unit (s := S1600) (k0_off29 g) S16.size (k0_off29_inb g)).toLoadRect Y))
        1000 rfl
        (fun i => tokVec_at (F := F) Y (k0_off29 g) (k0_off29_inb g) _ (k0_off29_eq g) _ (fun j => rfl) i _
          (by show 1000 + (min (16 * g.val) 184 + i.val) = min (16 * g.val) 184 + 1000 + i.val; omega))
        _
        (List.Forall₂.cons ⟨_, k0_off33_inb g 15, k0_off33_eq g 15, rfl⟩ (
          List.Forall₂.cons ⟨_, k0_off32_inb g 15, k0_off32_eq g 15, rfl⟩ (
          List.Forall₂.cons ⟨_, k0_off31_inb g 15, k0_off31_eq g 15, rfl⟩ (
          List.Forall₂.cons ⟨_, k0_off30_inb g 15, k0_off30_eq g 15, rfl⟩ (
          List.Forall₂.cons ⟨_, k0_off33_inb g 14, k0_off33_eq g 14, rfl⟩ (
          List.Forall₂.cons ⟨_, k0_off32_inb g 14, k0_off32_eq g 14, rfl⟩ (
          List.Forall₂.cons ⟨_, k0_off31_inb g 14, k0_off31_eq g 14, rfl⟩ (
          List.Forall₂.cons ⟨_, k0_off30_inb g 14, k0_off30_eq g 14, rfl⟩ (
          List.Forall₂.cons ⟨_, k0_off33_inb g 13, k0_off33_eq g 13, rfl⟩ (
          List.Forall₂.cons ⟨_, k0_off32_inb g 13, k0_off32_eq g 13, rfl⟩ (
          List.Forall₂.cons ⟨_, k0_off31_inb g 13, k0_off31_eq g 13, rfl⟩ (
          List.Forall₂.cons ⟨_, k0_off30_inb g 13, k0_off30_eq g 13, rfl⟩ (
          List.Forall₂.cons ⟨_, k0_off33_inb g 12, k0_off33_eq g 12, rfl⟩ (
          List.Forall₂.cons ⟨_, k0_off32_inb g 12, k0_off32_eq g 12, rfl⟩ (
          List.Forall₂.cons ⟨_, k0_off31_inb g 12, k0_off31_eq g 12, rfl⟩ (
          List.Forall₂.cons ⟨_, k0_off30_inb g 12, k0_off30_eq g 12, rfl⟩ (
          List.Forall₂.cons ⟨_, k0_off33_inb g 11, k0_off33_eq g 11, rfl⟩ (
          List.Forall₂.cons ⟨_, k0_off32_inb g 11, k0_off32_eq g 11, rfl⟩ (
          List.Forall₂.cons ⟨_, k0_off31_inb g 11, k0_off31_eq g 11, rfl⟩ (
          List.Forall₂.cons ⟨_, k0_off30_inb g 11, k0_off30_eq g 11, rfl⟩ (
          List.Forall₂.cons ⟨_, k0_off33_inb g 10, k0_off33_eq g 10, rfl⟩ (
          List.Forall₂.cons ⟨_, k0_off32_inb g 10, k0_off32_eq g 10, rfl⟩ (
          List.Forall₂.cons ⟨_, k0_off31_inb g 10, k0_off31_eq g 10, rfl⟩ (
          List.Forall₂.cons ⟨_, k0_off30_inb g 10, k0_off30_eq g 10, rfl⟩ (
          List.Forall₂.cons ⟨_, k0_off33_inb g 9, k0_off33_eq g 9, rfl⟩ (
          List.Forall₂.cons ⟨_, k0_off32_inb g 9, k0_off32_eq g 9, rfl⟩ (
          List.Forall₂.cons ⟨_, k0_off31_inb g 9, k0_off31_eq g 9, rfl⟩ (
          List.Forall₂.cons ⟨_, k0_off30_inb g 9, k0_off30_eq g 9, rfl⟩ (
          List.Forall₂.cons ⟨_, k0_off33_inb g 8, k0_off33_eq g 8, rfl⟩ (
          List.Forall₂.cons ⟨_, k0_off32_inb g 8, k0_off32_eq g 8, rfl⟩ (
          List.Forall₂.cons ⟨_, k0_off31_inb g 8, k0_off31_eq g 8, rfl⟩ (
          List.Forall₂.cons ⟨_, k0_off30_inb g 8, k0_off30_eq g 8, rfl⟩ (
          List.Forall₂.cons ⟨_, k0_off33_inb g 7, k0_off33_eq g 7, rfl⟩ (
          List.Forall₂.cons ⟨_, k0_off32_inb g 7, k0_off32_eq g 7, rfl⟩ (
          List.Forall₂.cons ⟨_, k0_off31_inb g 7, k0_off31_eq g 7, rfl⟩ (
          List.Forall₂.cons ⟨_, k0_off30_inb g 7, k0_off30_eq g 7, rfl⟩ (
          List.Forall₂.cons ⟨_, k0_off33_inb g 6, k0_off33_eq g 6, rfl⟩ (
          List.Forall₂.cons ⟨_, k0_off32_inb g 6, k0_off32_eq g 6, rfl⟩ (
          List.Forall₂.cons ⟨_, k0_off31_inb g 6, k0_off31_eq g 6, rfl⟩ (
          List.Forall₂.cons ⟨_, k0_off30_inb g 6, k0_off30_eq g 6, rfl⟩ (
          List.Forall₂.cons ⟨_, k0_off33_inb g 5, k0_off33_eq g 5, rfl⟩ (
          List.Forall₂.cons ⟨_, k0_off32_inb g 5, k0_off32_eq g 5, rfl⟩ (
          List.Forall₂.cons ⟨_, k0_off31_inb g 5, k0_off31_eq g 5, rfl⟩ (
          List.Forall₂.cons ⟨_, k0_off30_inb g 5, k0_off30_eq g 5, rfl⟩ (
          List.Forall₂.cons ⟨_, k0_off33_inb g 4, k0_off33_eq g 4, rfl⟩ (
          List.Forall₂.cons ⟨_, k0_off32_inb g 4, k0_off32_eq g 4, rfl⟩ (
          List.Forall₂.cons ⟨_, k0_off31_inb g 4, k0_off31_eq g 4, rfl⟩ (
          List.Forall₂.cons ⟨_, k0_off30_inb g 4, k0_off30_eq g 4, rfl⟩ (
          List.Forall₂.cons ⟨_, k0_off33_inb g 3, k0_off33_eq g 3, rfl⟩ (
          List.Forall₂.cons ⟨_, k0_off32_inb g 3, k0_off32_eq g 3, rfl⟩ (
          List.Forall₂.cons ⟨_, k0_off31_inb g 3, k0_off31_eq g 3, rfl⟩ (
          List.Forall₂.cons ⟨_, k0_off30_inb g 3, k0_off30_eq g 3, rfl⟩ (
          List.Forall₂.cons ⟨_, k0_off33_inb g 2, k0_off33_eq g 2, rfl⟩ (
          List.Forall₂.cons ⟨_, k0_off32_inb g 2, k0_off32_eq g 2, rfl⟩ (
          List.Forall₂.cons ⟨_, k0_off31_inb g 2, k0_off31_eq g 2, rfl⟩ (
          List.Forall₂.cons ⟨_, k0_off30_inb g 2, k0_off30_eq g 2, rfl⟩ (
          List.Forall₂.cons ⟨_, k0_off33_inb g 1, k0_off33_eq g 1, rfl⟩ (
          List.Forall₂.cons ⟨_, k0_off32_inb g 1, k0_off32_eq g 1, rfl⟩ (
          List.Forall₂.cons ⟨_, k0_off31_inb g 1, k0_off31_eq g 1, rfl⟩ (
          List.Forall₂.cons ⟨_, k0_off30_inb g 1, k0_off30_eq g 1, rfl⟩ (
          List.Forall₂.cons ⟨_, k0_off33_inb g 0, k0_off33_eq g 0, rfl⟩ (
          List.Forall₂.cons ⟨_, k0_off32_inb g 0, k0_off32_eq g 0, rfl⟩ (
          List.Forall₂.cons ⟨_, k0_off31_inb g 0, k0_off31_eq g 0, rfl⟩ (
          List.Forall₂.cons ⟨_, k0_off30_inb g 0, k0_off30_eq g 0, rfl⟩ (List.Forall₂.nil)))))))))))))))))))))))))))))))))))))))))))))))))))))))))))))))))
        hf

theorem grp_7_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_7 (F := F) d L Y f₀ tv 0 acc := by
  unfold invG_7
  iintro ⟨Hk, Hout⟩
  isplitl [Hk]
  · iexact Hk
  · iexists _
    isplitr [Hout]
    swap
    · iexact Hout
    · ipureintro
      exact grpUpTo_zero 2 1 tv Y f₀

/-! ### Loop 8: row 0 of output pair 3; tokens from `cc0_scratch1` at 1200, rows into `cc0_scratch7` -/

/-- Before trip g: the token scratch at its contents; in the row scratch, row 0's sites below min (16·g) 200 hold
    their interpolation and the other row is as at the loop's start. -/
def invG_8 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 3 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_8_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t8_loop.trips) (acc : BitVec 32) :
    invG_8 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t8_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_8 (F := F) d L Y f₀ (tvLoc v4 v6 v8 v10 v35 v36 v37 v38 v39 v40 v41 v42 v45 v48 v51 v54) (g.val + 1)) := by
  unfold invG_8
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 0
        (tvLoc v4 v6 v8 v10 v35 v36 v37 v38 v39 v40 v41 v42 v45 v48 v51 v54) Y f₀ f g.val (lt_of_lt_of_le g.isLt k0_t8_abs.2.1)
        (k0_pay10 (F := F) (View.readAt (Elt F) (Memref.whole cc0_scratch1 : Memref sig .scVector .vmem S1600 .i32).view
          (Rect.unit (s := S1600) (k0_off34 g) S16.size (k0_off34_inb g)).toLoadRect Y))
        1200 rfl
        (fun i => tokVec_at (F := F) Y (k0_off34 g) (k0_off34_inb g) _ (k0_off34_eq g) _ (fun j => rfl) i _
          (by show 1200 + (min (16 * g.val) 184 + i.val) = min (16 * g.val) 184 + 1200 + i.val; omega))
        _
        (List.Forall₂.cons ⟨_, k0_off38_inb g 15, k0_off38_eq g 15, rfl⟩ (
          List.Forall₂.cons ⟨_, k0_off37_inb g 15, k0_off37_eq g 15, rfl⟩ (
          List.Forall₂.cons ⟨_, k0_off36_inb g 15, k0_off36_eq g 15, rfl⟩ (
          List.Forall₂.cons ⟨_, k0_off35_inb g 15, k0_off35_eq g 15, rfl⟩ (
          List.Forall₂.cons ⟨_, k0_off38_inb g 14, k0_off38_eq g 14, rfl⟩ (
          List.Forall₂.cons ⟨_, k0_off37_inb g 14, k0_off37_eq g 14, rfl⟩ (
          List.Forall₂.cons ⟨_, k0_off36_inb g 14, k0_off36_eq g 14, rfl⟩ (
          List.Forall₂.cons ⟨_, k0_off35_inb g 14, k0_off35_eq g 14, rfl⟩ (
          List.Forall₂.cons ⟨_, k0_off38_inb g 13, k0_off38_eq g 13, rfl⟩ (
          List.Forall₂.cons ⟨_, k0_off37_inb g 13, k0_off37_eq g 13, rfl⟩ (
          List.Forall₂.cons ⟨_, k0_off36_inb g 13, k0_off36_eq g 13, rfl⟩ (
          List.Forall₂.cons ⟨_, k0_off35_inb g 13, k0_off35_eq g 13, rfl⟩ (
          List.Forall₂.cons ⟨_, k0_off38_inb g 12, k0_off38_eq g 12, rfl⟩ (
          List.Forall₂.cons ⟨_, k0_off37_inb g 12, k0_off37_eq g 12, rfl⟩ (
          List.Forall₂.cons ⟨_, k0_off36_inb g 12, k0_off36_eq g 12, rfl⟩ (
          List.Forall₂.cons ⟨_, k0_off35_inb g 12, k0_off35_eq g 12, rfl⟩ (
          List.Forall₂.cons ⟨_, k0_off38_inb g 11, k0_off38_eq g 11, rfl⟩ (
          List.Forall₂.cons ⟨_, k0_off37_inb g 11, k0_off37_eq g 11, rfl⟩ (
          List.Forall₂.cons ⟨_, k0_off36_inb g 11, k0_off36_eq g 11, rfl⟩ (
          List.Forall₂.cons ⟨_, k0_off35_inb g 11, k0_off35_eq g 11, rfl⟩ (
          List.Forall₂.cons ⟨_, k0_off38_inb g 10, k0_off38_eq g 10, rfl⟩ (
          List.Forall₂.cons ⟨_, k0_off37_inb g 10, k0_off37_eq g 10, rfl⟩ (
          List.Forall₂.cons ⟨_, k0_off36_inb g 10, k0_off36_eq g 10, rfl⟩ (
          List.Forall₂.cons ⟨_, k0_off35_inb g 10, k0_off35_eq g 10, rfl⟩ (
          List.Forall₂.cons ⟨_, k0_off38_inb g 9, k0_off38_eq g 9, rfl⟩ (
          List.Forall₂.cons ⟨_, k0_off37_inb g 9, k0_off37_eq g 9, rfl⟩ (
          List.Forall₂.cons ⟨_, k0_off36_inb g 9, k0_off36_eq g 9, rfl⟩ (
          List.Forall₂.cons ⟨_, k0_off35_inb g 9, k0_off35_eq g 9, rfl⟩ (
          List.Forall₂.cons ⟨_, k0_off38_inb g 8, k0_off38_eq g 8, rfl⟩ (
          List.Forall₂.cons ⟨_, k0_off37_inb g 8, k0_off37_eq g 8, rfl⟩ (
          List.Forall₂.cons ⟨_, k0_off36_inb g 8, k0_off36_eq g 8, rfl⟩ (
          List.Forall₂.cons ⟨_, k0_off35_inb g 8, k0_off35_eq g 8, rfl⟩ (
          List.Forall₂.cons ⟨_, k0_off38_inb g 7, k0_off38_eq g 7, rfl⟩ (
          List.Forall₂.cons ⟨_, k0_off37_inb g 7, k0_off37_eq g 7, rfl⟩ (
          List.Forall₂.cons ⟨_, k0_off36_inb g 7, k0_off36_eq g 7, rfl⟩ (
          List.Forall₂.cons ⟨_, k0_off35_inb g 7, k0_off35_eq g 7, rfl⟩ (
          List.Forall₂.cons ⟨_, k0_off38_inb g 6, k0_off38_eq g 6, rfl⟩ (
          List.Forall₂.cons ⟨_, k0_off37_inb g 6, k0_off37_eq g 6, rfl⟩ (
          List.Forall₂.cons ⟨_, k0_off36_inb g 6, k0_off36_eq g 6, rfl⟩ (
          List.Forall₂.cons ⟨_, k0_off35_inb g 6, k0_off35_eq g 6, rfl⟩ (
          List.Forall₂.cons ⟨_, k0_off38_inb g 5, k0_off38_eq g 5, rfl⟩ (
          List.Forall₂.cons ⟨_, k0_off37_inb g 5, k0_off37_eq g 5, rfl⟩ (
          List.Forall₂.cons ⟨_, k0_off36_inb g 5, k0_off36_eq g 5, rfl⟩ (
          List.Forall₂.cons ⟨_, k0_off35_inb g 5, k0_off35_eq g 5, rfl⟩ (
          List.Forall₂.cons ⟨_, k0_off38_inb g 4, k0_off38_eq g 4, rfl⟩ (
          List.Forall₂.cons ⟨_, k0_off37_inb g 4, k0_off37_eq g 4, rfl⟩ (
          List.Forall₂.cons ⟨_, k0_off36_inb g 4, k0_off36_eq g 4, rfl⟩ (
          List.Forall₂.cons ⟨_, k0_off35_inb g 4, k0_off35_eq g 4, rfl⟩ (
          List.Forall₂.cons ⟨_, k0_off38_inb g 3, k0_off38_eq g 3, rfl⟩ (
          List.Forall₂.cons ⟨_, k0_off37_inb g 3, k0_off37_eq g 3, rfl⟩ (
          List.Forall₂.cons ⟨_, k0_off36_inb g 3, k0_off36_eq g 3, rfl⟩ (
          List.Forall₂.cons ⟨_, k0_off35_inb g 3, k0_off35_eq g 3, rfl⟩ (
          List.Forall₂.cons ⟨_, k0_off38_inb g 2, k0_off38_eq g 2, rfl⟩ (
          List.Forall₂.cons ⟨_, k0_off37_inb g 2, k0_off37_eq g 2, rfl⟩ (
          List.Forall₂.cons ⟨_, k0_off36_inb g 2, k0_off36_eq g 2, rfl⟩ (
          List.Forall₂.cons ⟨_, k0_off35_inb g 2, k0_off35_eq g 2, rfl⟩ (
          List.Forall₂.cons ⟨_, k0_off38_inb g 1, k0_off38_eq g 1, rfl⟩ (
          List.Forall₂.cons ⟨_, k0_off37_inb g 1, k0_off37_eq g 1, rfl⟩ (
          List.Forall₂.cons ⟨_, k0_off36_inb g 1, k0_off36_eq g 1, rfl⟩ (
          List.Forall₂.cons ⟨_, k0_off35_inb g 1, k0_off35_eq g 1, rfl⟩ (
          List.Forall₂.cons ⟨_, k0_off38_inb g 0, k0_off38_eq g 0, rfl⟩ (
          List.Forall₂.cons ⟨_, k0_off37_inb g 0, k0_off37_eq g 0, rfl⟩ (
          List.Forall₂.cons ⟨_, k0_off36_inb g 0, k0_off36_eq g 0, rfl⟩ (
          List.Forall₂.cons ⟨_, k0_off35_inb g 0, k0_off35_eq g 0, rfl⟩ (List.Forall₂.nil)))))))))))))))))))))))))))))))))))))))))))))))))))))))))))))))))
        hf

theorem grp_8_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_8 (F := F) d L Y f₀ tv 0 acc := by
  unfold invG_8
  iintro ⟨Hk, Hout⟩
  isplitl [Hk]
  · iexact Hk
  · iexists _
    isplitr [Hout]
    swap
    · iexact Hout
    · ipureintro
      exact grpUpTo_zero 3 0 tv Y f₀

/-! ### Loop 9: row 1 of output pair 3; tokens from `cc0_scratch1` at 1400, rows into `cc0_scratch7` -/

/-- Before trip g: the token scratch at its contents; in the row scratch, row 1's sites below min (16·g) 200 hold
    their interpolation and the other row is as at the loop's start. -/
def invG_9 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 3 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_9_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t9_loop.trips) (acc : BitVec 32) :
    invG_9 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t9_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_9 (F := F) d L Y f₀ (tvLoc v4 v6 v8 v10 v35 v36 v37 v38 v39 v40 v41 v42 v45 v48 v51 v54) (g.val + 1)) := by
  unfold invG_9
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 1
        (tvLoc v4 v6 v8 v10 v35 v36 v37 v38 v39 v40 v41 v42 v45 v48 v51 v54) Y f₀ f g.val (lt_of_lt_of_le g.isLt k0_t9_abs.2.1)
        (k0_pay10 (F := F) (View.readAt (Elt F) (Memref.whole cc0_scratch1 : Memref sig .scVector .vmem S1600 .i32).view
          (Rect.unit (s := S1600) (k0_off39 g) S16.size (k0_off39_inb g)).toLoadRect Y))
        1400 rfl
        (fun i => tokVec_at (F := F) Y (k0_off39 g) (k0_off39_inb g) _ (k0_off39_eq g) _ (fun j => rfl) i _
          (by show 1400 + (min (16 * g.val) 184 + i.val) = min (16 * g.val) 184 + 1400 + i.val; omega))
        _
        (List.Forall₂.cons ⟨_, k0_off43_inb g 15, k0_off43_eq g 15, rfl⟩ (
          List.Forall₂.cons ⟨_, k0_off42_inb g 15, k0_off42_eq g 15, rfl⟩ (
          List.Forall₂.cons ⟨_, k0_off41_inb g 15, k0_off41_eq g 15, rfl⟩ (
          List.Forall₂.cons ⟨_, k0_off40_inb g 15, k0_off40_eq g 15, rfl⟩ (
          List.Forall₂.cons ⟨_, k0_off43_inb g 14, k0_off43_eq g 14, rfl⟩ (
          List.Forall₂.cons ⟨_, k0_off42_inb g 14, k0_off42_eq g 14, rfl⟩ (
          List.Forall₂.cons ⟨_, k0_off41_inb g 14, k0_off41_eq g 14, rfl⟩ (
          List.Forall₂.cons ⟨_, k0_off40_inb g 14, k0_off40_eq g 14, rfl⟩ (
          List.Forall₂.cons ⟨_, k0_off43_inb g 13, k0_off43_eq g 13, rfl⟩ (
          List.Forall₂.cons ⟨_, k0_off42_inb g 13, k0_off42_eq g 13, rfl⟩ (
          List.Forall₂.cons ⟨_, k0_off41_inb g 13, k0_off41_eq g 13, rfl⟩ (
          List.Forall₂.cons ⟨_, k0_off40_inb g 13, k0_off40_eq g 13, rfl⟩ (
          List.Forall₂.cons ⟨_, k0_off43_inb g 12, k0_off43_eq g 12, rfl⟩ (
          List.Forall₂.cons ⟨_, k0_off42_inb g 12, k0_off42_eq g 12, rfl⟩ (
          List.Forall₂.cons ⟨_, k0_off41_inb g 12, k0_off41_eq g 12, rfl⟩ (
          List.Forall₂.cons ⟨_, k0_off40_inb g 12, k0_off40_eq g 12, rfl⟩ (
          List.Forall₂.cons ⟨_, k0_off43_inb g 11, k0_off43_eq g 11, rfl⟩ (
          List.Forall₂.cons ⟨_, k0_off42_inb g 11, k0_off42_eq g 11, rfl⟩ (
          List.Forall₂.cons ⟨_, k0_off41_inb g 11, k0_off41_eq g 11, rfl⟩ (
          List.Forall₂.cons ⟨_, k0_off40_inb g 11, k0_off40_eq g 11, rfl⟩ (
          List.Forall₂.cons ⟨_, k0_off43_inb g 10, k0_off43_eq g 10, rfl⟩ (
          List.Forall₂.cons ⟨_, k0_off42_inb g 10, k0_off42_eq g 10, rfl⟩ (
          List.Forall₂.cons ⟨_, k0_off41_inb g 10, k0_off41_eq g 10, rfl⟩ (
          List.Forall₂.cons ⟨_, k0_off40_inb g 10, k0_off40_eq g 10, rfl⟩ (
          List.Forall₂.cons ⟨_, k0_off43_inb g 9, k0_off43_eq g 9, rfl⟩ (
          List.Forall₂.cons ⟨_, k0_off42_inb g 9, k0_off42_eq g 9, rfl⟩ (
          List.Forall₂.cons ⟨_, k0_off41_inb g 9, k0_off41_eq g 9, rfl⟩ (
          List.Forall₂.cons ⟨_, k0_off40_inb g 9, k0_off40_eq g 9, rfl⟩ (
          List.Forall₂.cons ⟨_, k0_off43_inb g 8, k0_off43_eq g 8, rfl⟩ (
          List.Forall₂.cons ⟨_, k0_off42_inb g 8, k0_off42_eq g 8, rfl⟩ (
          List.Forall₂.cons ⟨_, k0_off41_inb g 8, k0_off41_eq g 8, rfl⟩ (
          List.Forall₂.cons ⟨_, k0_off40_inb g 8, k0_off40_eq g 8, rfl⟩ (
          List.Forall₂.cons ⟨_, k0_off43_inb g 7, k0_off43_eq g 7, rfl⟩ (
          List.Forall₂.cons ⟨_, k0_off42_inb g 7, k0_off42_eq g 7, rfl⟩ (
          List.Forall₂.cons ⟨_, k0_off41_inb g 7, k0_off41_eq g 7, rfl⟩ (
          List.Forall₂.cons ⟨_, k0_off40_inb g 7, k0_off40_eq g 7, rfl⟩ (
          List.Forall₂.cons ⟨_, k0_off43_inb g 6, k0_off43_eq g 6, rfl⟩ (
          List.Forall₂.cons ⟨_, k0_off42_inb g 6, k0_off42_eq g 6, rfl⟩ (
          List.Forall₂.cons ⟨_, k0_off41_inb g 6, k0_off41_eq g 6, rfl⟩ (
          List.Forall₂.cons ⟨_, k0_off40_inb g 6, k0_off40_eq g 6, rfl⟩ (
          List.Forall₂.cons ⟨_, k0_off43_inb g 5, k0_off43_eq g 5, rfl⟩ (
          List.Forall₂.cons ⟨_, k0_off42_inb g 5, k0_off42_eq g 5, rfl⟩ (
          List.Forall₂.cons ⟨_, k0_off41_inb g 5, k0_off41_eq g 5, rfl⟩ (
          List.Forall₂.cons ⟨_, k0_off40_inb g 5, k0_off40_eq g 5, rfl⟩ (
          List.Forall₂.cons ⟨_, k0_off43_inb g 4, k0_off43_eq g 4, rfl⟩ (
          List.Forall₂.cons ⟨_, k0_off42_inb g 4, k0_off42_eq g 4, rfl⟩ (
          List.Forall₂.cons ⟨_, k0_off41_inb g 4, k0_off41_eq g 4, rfl⟩ (
          List.Forall₂.cons ⟨_, k0_off40_inb g 4, k0_off40_eq g 4, rfl⟩ (
          List.Forall₂.cons ⟨_, k0_off43_inb g 3, k0_off43_eq g 3, rfl⟩ (
          List.Forall₂.cons ⟨_, k0_off42_inb g 3, k0_off42_eq g 3, rfl⟩ (
          List.Forall₂.cons ⟨_, k0_off41_inb g 3, k0_off41_eq g 3, rfl⟩ (
          List.Forall₂.cons ⟨_, k0_off40_inb g 3, k0_off40_eq g 3, rfl⟩ (
          List.Forall₂.cons ⟨_, k0_off43_inb g 2, k0_off43_eq g 2, rfl⟩ (
          List.Forall₂.cons ⟨_, k0_off42_inb g 2, k0_off42_eq g 2, rfl⟩ (
          List.Forall₂.cons ⟨_, k0_off41_inb g 2, k0_off41_eq g 2, rfl⟩ (
          List.Forall₂.cons ⟨_, k0_off40_inb g 2, k0_off40_eq g 2, rfl⟩ (
          List.Forall₂.cons ⟨_, k0_off43_inb g 1, k0_off43_eq g 1, rfl⟩ (
          List.Forall₂.cons ⟨_, k0_off42_inb g 1, k0_off42_eq g 1, rfl⟩ (
          List.Forall₂.cons ⟨_, k0_off41_inb g 1, k0_off41_eq g 1, rfl⟩ (
          List.Forall₂.cons ⟨_, k0_off40_inb g 1, k0_off40_eq g 1, rfl⟩ (
          List.Forall₂.cons ⟨_, k0_off43_inb g 0, k0_off43_eq g 0, rfl⟩ (
          List.Forall₂.cons ⟨_, k0_off42_inb g 0, k0_off42_eq g 0, rfl⟩ (
          List.Forall₂.cons ⟨_, k0_off41_inb g 0, k0_off41_eq g 0, rfl⟩ (
          List.Forall₂.cons ⟨_, k0_off40_inb g 0, k0_off40_eq g 0, rfl⟩ (List.Forall₂.nil)))))))))))))))))))))))))))))))))))))))))))))))))))))))))))))))))
        hf

theorem grp_9_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_9 (F := F) d L Y f₀ tv 0 acc := by
  unfold invG_9
  iintro ⟨Hk, Hout⟩
  isplitl [Hk]
  · iexact Hk
  · iexists _
    isplitr [Hout]
    swap
    · iexact Hout
    · ipureintro
      exact grpUpTo_zero 3 1 tv Y f₀

/-! ### Loop 10: row 0 of output pair 0; tokens from `cc0_scratch6` at 0, rows into `cc0_scratch2` -/

/-- Before trip g: the token scratch at its contents; in the row scratch, row 0's sites below min (16·g) 200 hold
    their interpolation and the other row is as at the loop's start. -/
def invG_10 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 0 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_10_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (v2386 : IVec S16 32)
    (g : Fin k0_t10_loop.trips) (acc : BitVec 32) :
    invG_10 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t10_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 v2386 g acc) (invG_10 (F := F) d L Y f₀ (tvLoc v4 v6 v8 v10 v35 v36 v37 v38 v39 v40 v41 v42 v45 v48 v51 v54) (g.val + 1)) := by
  unfold invG_10
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 0
        (tvLoc v4 v6 v8 v10 v35 v36 v37 v38 v39 v40 v41 v42 v45 v48 v51 v54) Y f₀ f g.val (lt_of_lt_of_le g.isLt k0_t10_abs.2.1)
        (k0_pay10 (F := F) (View.readAt (Elt F) (Memref.whole cc0_scratch6 : Memref sig .scVector .vmem S1600 .i32).view
          (Rect.unit (s := S1600) (k0_off45 g) S16.size (k0_off45_inb g)).toLoadRect Y))
        0 rfl
        (fun i => tokVec_at (F := F) Y (k0_off45 g) (k0_off45_inb g) _ (k0_off45_eq g) _ (fun j => rfl) i _
          (by show 0 + (min (16 * g.val) 184 + i.val) = min (16 * g.val) 184 + i.val; omega))
        _
        (List.Forall₂.cons ⟨_, k0_off49_inb g 15, k0_off49_eq g 15, rfl⟩ (
          List.Forall₂.cons ⟨_, k0_off48_inb g 15, k0_off48_eq g 15, rfl⟩ (
          List.Forall₂.cons ⟨_, k0_off47_inb g 15, k0_off47_eq g 15, rfl⟩ (
          List.Forall₂.cons ⟨_, k0_off46_inb g 15, k0_off46_eq g 15, rfl⟩ (
          List.Forall₂.cons ⟨_, k0_off49_inb g 14, k0_off49_eq g 14, rfl⟩ (
          List.Forall₂.cons ⟨_, k0_off48_inb g 14, k0_off48_eq g 14, rfl⟩ (
          List.Forall₂.cons ⟨_, k0_off47_inb g 14, k0_off47_eq g 14, rfl⟩ (
          List.Forall₂.cons ⟨_, k0_off46_inb g 14, k0_off46_eq g 14, rfl⟩ (
          List.Forall₂.cons ⟨_, k0_off49_inb g 13, k0_off49_eq g 13, rfl⟩ (
          List.Forall₂.cons ⟨_, k0_off48_inb g 13, k0_off48_eq g 13, rfl⟩ (
          List.Forall₂.cons ⟨_, k0_off47_inb g 13, k0_off47_eq g 13, rfl⟩ (
          List.Forall₂.cons ⟨_, k0_off46_inb g 13, k0_off46_eq g 13, rfl⟩ (
          List.Forall₂.cons ⟨_, k0_off49_inb g 12, k0_off49_eq g 12, rfl⟩ (
          List.Forall₂.cons ⟨_, k0_off48_inb g 12, k0_off48_eq g 12, rfl⟩ (
          List.Forall₂.cons ⟨_, k0_off47_inb g 12, k0_off47_eq g 12, rfl⟩ (
          List.Forall₂.cons ⟨_, k0_off46_inb g 12, k0_off46_eq g 12, rfl⟩ (
          List.Forall₂.cons ⟨_, k0_off49_inb g 11, k0_off49_eq g 11, rfl⟩ (
          List.Forall₂.cons ⟨_, k0_off48_inb g 11, k0_off48_eq g 11, rfl⟩ (
          List.Forall₂.cons ⟨_, k0_off47_inb g 11, k0_off47_eq g 11, rfl⟩ (
          List.Forall₂.cons ⟨_, k0_off46_inb g 11, k0_off46_eq g 11, rfl⟩ (
          List.Forall₂.cons ⟨_, k0_off49_inb g 10, k0_off49_eq g 10, rfl⟩ (
          List.Forall₂.cons ⟨_, k0_off48_inb g 10, k0_off48_eq g 10, rfl⟩ (
          List.Forall₂.cons ⟨_, k0_off47_inb g 10, k0_off47_eq g 10, rfl⟩ (
          List.Forall₂.cons ⟨_, k0_off46_inb g 10, k0_off46_eq g 10, rfl⟩ (
          List.Forall₂.cons ⟨_, k0_off49_inb g 9, k0_off49_eq g 9, rfl⟩ (
          List.Forall₂.cons ⟨_, k0_off48_inb g 9, k0_off48_eq g 9, rfl⟩ (
          List.Forall₂.cons ⟨_, k0_off47_inb g 9, k0_off47_eq g 9, rfl⟩ (
          List.Forall₂.cons ⟨_, k0_off46_inb g 9, k0_off46_eq g 9, rfl⟩ (
          List.Forall₂.cons ⟨_, k0_off49_inb g 8, k0_off49_eq g 8, rfl⟩ (
          List.Forall₂.cons ⟨_, k0_off48_inb g 8, k0_off48_eq g 8, rfl⟩ (
          List.Forall₂.cons ⟨_, k0_off47_inb g 8, k0_off47_eq g 8, rfl⟩ (
          List.Forall₂.cons ⟨_, k0_off46_inb g 8, k0_off46_eq g 8, rfl⟩ (
          List.Forall₂.cons ⟨_, k0_off49_inb g 7, k0_off49_eq g 7, rfl⟩ (
          List.Forall₂.cons ⟨_, k0_off48_inb g 7, k0_off48_eq g 7, rfl⟩ (
          List.Forall₂.cons ⟨_, k0_off47_inb g 7, k0_off47_eq g 7, rfl⟩ (
          List.Forall₂.cons ⟨_, k0_off46_inb g 7, k0_off46_eq g 7, rfl⟩ (
          List.Forall₂.cons ⟨_, k0_off49_inb g 6, k0_off49_eq g 6, rfl⟩ (
          List.Forall₂.cons ⟨_, k0_off48_inb g 6, k0_off48_eq g 6, rfl⟩ (
          List.Forall₂.cons ⟨_, k0_off47_inb g 6, k0_off47_eq g 6, rfl⟩ (
          List.Forall₂.cons ⟨_, k0_off46_inb g 6, k0_off46_eq g 6, rfl⟩ (
          List.Forall₂.cons ⟨_, k0_off49_inb g 5, k0_off49_eq g 5, rfl⟩ (
          List.Forall₂.cons ⟨_, k0_off48_inb g 5, k0_off48_eq g 5, rfl⟩ (
          List.Forall₂.cons ⟨_, k0_off47_inb g 5, k0_off47_eq g 5, rfl⟩ (
          List.Forall₂.cons ⟨_, k0_off46_inb g 5, k0_off46_eq g 5, rfl⟩ (
          List.Forall₂.cons ⟨_, k0_off49_inb g 4, k0_off49_eq g 4, rfl⟩ (
          List.Forall₂.cons ⟨_, k0_off48_inb g 4, k0_off48_eq g 4, rfl⟩ (
          List.Forall₂.cons ⟨_, k0_off47_inb g 4, k0_off47_eq g 4, rfl⟩ (
          List.Forall₂.cons ⟨_, k0_off46_inb g 4, k0_off46_eq g 4, rfl⟩ (
          List.Forall₂.cons ⟨_, k0_off49_inb g 3, k0_off49_eq g 3, rfl⟩ (
          List.Forall₂.cons ⟨_, k0_off48_inb g 3, k0_off48_eq g 3, rfl⟩ (
          List.Forall₂.cons ⟨_, k0_off47_inb g 3, k0_off47_eq g 3, rfl⟩ (
          List.Forall₂.cons ⟨_, k0_off46_inb g 3, k0_off46_eq g 3, rfl⟩ (
          List.Forall₂.cons ⟨_, k0_off49_inb g 2, k0_off49_eq g 2, rfl⟩ (
          List.Forall₂.cons ⟨_, k0_off48_inb g 2, k0_off48_eq g 2, rfl⟩ (
          List.Forall₂.cons ⟨_, k0_off47_inb g 2, k0_off47_eq g 2, rfl⟩ (
          List.Forall₂.cons ⟨_, k0_off46_inb g 2, k0_off46_eq g 2, rfl⟩ (
          List.Forall₂.cons ⟨_, k0_off49_inb g 1, k0_off49_eq g 1, rfl⟩ (
          List.Forall₂.cons ⟨_, k0_off48_inb g 1, k0_off48_eq g 1, rfl⟩ (
          List.Forall₂.cons ⟨_, k0_off47_inb g 1, k0_off47_eq g 1, rfl⟩ (
          List.Forall₂.cons ⟨_, k0_off46_inb g 1, k0_off46_eq g 1, rfl⟩ (
          List.Forall₂.cons ⟨_, k0_off49_inb g 0, k0_off49_eq g 0, rfl⟩ (
          List.Forall₂.cons ⟨_, k0_off48_inb g 0, k0_off48_eq g 0, rfl⟩ (
          List.Forall₂.cons ⟨_, k0_off47_inb g 0, k0_off47_eq g 0, rfl⟩ (
          List.Forall₂.cons ⟨_, k0_off46_inb g 0, k0_off46_eq g 0, rfl⟩ (List.Forall₂.nil)))))))))))))))))))))))))))))))))))))))))))))))))))))))))))))))))
        hf

theorem grp_10_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_10 (F := F) d L Y f₀ tv 0 acc := by
  unfold invG_10
  iintro ⟨Hk, Hout⟩
  isplitl [Hk]
  · iexact Hk
  · iexists _
    isplitr [Hout]
    swap
    · iexact Hout
    · ipureintro
      exact grpUpTo_zero 0 0 tv Y f₀

/-! ### Loop 11: row 1 of output pair 0; tokens from `cc0_scratch6` at 200, rows into `cc0_scratch2` -/

/-- Before trip g: the token scratch at its contents; in the row scratch, row 1's sites below min (16·g) 200 hold
    their interpolation and the other row is as at the loop's start. -/
def invG_11 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 0 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_11_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t11_loop.trips) (acc : BitVec 32) :
    invG_11 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t11_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_11 (F := F) d L Y f₀ (tvLoc v4 v6 v8 v10 v35 v36 v37 v38 v39 v40 v41 v42 v45 v48 v51 v54) (g.val + 1)) := by
  unfold invG_11
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 1
        (tvLoc v4 v6 v8 v10 v35 v36 v37 v38 v39 v40 v41 v42 v45 v48 v51 v54) Y f₀ f g.val (lt_of_lt_of_le g.isLt k0_t11_abs.2.1)
        (k0_pay10 (F := F) (View.readAt (Elt F) (Memref.whole cc0_scratch6 : Memref sig .scVector .vmem S1600 .i32).view
          (Rect.unit (s := S1600) (k0_off50 g) S16.size (k0_off50_inb g)).toLoadRect Y))
        200 rfl
        (fun i => tokVec_at (F := F) Y (k0_off50 g) (k0_off50_inb g) _ (k0_off50_eq g) _ (fun j => rfl) i _
          (by show 200 + (min (16 * g.val) 184 + i.val) = min (16 * g.val) 184 + 200 + i.val; omega))
        _
        (List.Forall₂.cons ⟨_, k0_off54_inb g 15, k0_off54_eq g 15, rfl⟩ (
          List.Forall₂.cons ⟨_, k0_off53_inb g 15, k0_off53_eq g 15, rfl⟩ (
          List.Forall₂.cons ⟨_, k0_off52_inb g 15, k0_off52_eq g 15, rfl⟩ (
          List.Forall₂.cons ⟨_, k0_off51_inb g 15, k0_off51_eq g 15, rfl⟩ (
          List.Forall₂.cons ⟨_, k0_off54_inb g 14, k0_off54_eq g 14, rfl⟩ (
          List.Forall₂.cons ⟨_, k0_off53_inb g 14, k0_off53_eq g 14, rfl⟩ (
          List.Forall₂.cons ⟨_, k0_off52_inb g 14, k0_off52_eq g 14, rfl⟩ (
          List.Forall₂.cons ⟨_, k0_off51_inb g 14, k0_off51_eq g 14, rfl⟩ (
          List.Forall₂.cons ⟨_, k0_off54_inb g 13, k0_off54_eq g 13, rfl⟩ (
          List.Forall₂.cons ⟨_, k0_off53_inb g 13, k0_off53_eq g 13, rfl⟩ (
          List.Forall₂.cons ⟨_, k0_off52_inb g 13, k0_off52_eq g 13, rfl⟩ (
          List.Forall₂.cons ⟨_, k0_off51_inb g 13, k0_off51_eq g 13, rfl⟩ (
          List.Forall₂.cons ⟨_, k0_off54_inb g 12, k0_off54_eq g 12, rfl⟩ (
          List.Forall₂.cons ⟨_, k0_off53_inb g 12, k0_off53_eq g 12, rfl⟩ (
          List.Forall₂.cons ⟨_, k0_off52_inb g 12, k0_off52_eq g 12, rfl⟩ (
          List.Forall₂.cons ⟨_, k0_off51_inb g 12, k0_off51_eq g 12, rfl⟩ (
          List.Forall₂.cons ⟨_, k0_off54_inb g 11, k0_off54_eq g 11, rfl⟩ (
          List.Forall₂.cons ⟨_, k0_off53_inb g 11, k0_off53_eq g 11, rfl⟩ (
          List.Forall₂.cons ⟨_, k0_off52_inb g 11, k0_off52_eq g 11, rfl⟩ (
          List.Forall₂.cons ⟨_, k0_off51_inb g 11, k0_off51_eq g 11, rfl⟩ (
          List.Forall₂.cons ⟨_, k0_off54_inb g 10, k0_off54_eq g 10, rfl⟩ (
          List.Forall₂.cons ⟨_, k0_off53_inb g 10, k0_off53_eq g 10, rfl⟩ (
          List.Forall₂.cons ⟨_, k0_off52_inb g 10, k0_off52_eq g 10, rfl⟩ (
          List.Forall₂.cons ⟨_, k0_off51_inb g 10, k0_off51_eq g 10, rfl⟩ (
          List.Forall₂.cons ⟨_, k0_off54_inb g 9, k0_off54_eq g 9, rfl⟩ (
          List.Forall₂.cons ⟨_, k0_off53_inb g 9, k0_off53_eq g 9, rfl⟩ (
          List.Forall₂.cons ⟨_, k0_off52_inb g 9, k0_off52_eq g 9, rfl⟩ (
          List.Forall₂.cons ⟨_, k0_off51_inb g 9, k0_off51_eq g 9, rfl⟩ (
          List.Forall₂.cons ⟨_, k0_off54_inb g 8, k0_off54_eq g 8, rfl⟩ (
          List.Forall₂.cons ⟨_, k0_off53_inb g 8, k0_off53_eq g 8, rfl⟩ (
          List.Forall₂.cons ⟨_, k0_off52_inb g 8, k0_off52_eq g 8, rfl⟩ (
          List.Forall₂.cons ⟨_, k0_off51_inb g 8, k0_off51_eq g 8, rfl⟩ (
          List.Forall₂.cons ⟨_, k0_off54_inb g 7, k0_off54_eq g 7, rfl⟩ (
          List.Forall₂.cons ⟨_, k0_off53_inb g 7, k0_off53_eq g 7, rfl⟩ (
          List.Forall₂.cons ⟨_, k0_off52_inb g 7, k0_off52_eq g 7, rfl⟩ (
          List.Forall₂.cons ⟨_, k0_off51_inb g 7, k0_off51_eq g 7, rfl⟩ (
          List.Forall₂.cons ⟨_, k0_off54_inb g 6, k0_off54_eq g 6, rfl⟩ (
          List.Forall₂.cons ⟨_, k0_off53_inb g 6, k0_off53_eq g 6, rfl⟩ (
          List.Forall₂.cons ⟨_, k0_off52_inb g 6, k0_off52_eq g 6, rfl⟩ (
          List.Forall₂.cons ⟨_, k0_off51_inb g 6, k0_off51_eq g 6, rfl⟩ (
          List.Forall₂.cons ⟨_, k0_off54_inb g 5, k0_off54_eq g 5, rfl⟩ (
          List.Forall₂.cons ⟨_, k0_off53_inb g 5, k0_off53_eq g 5, rfl⟩ (
          List.Forall₂.cons ⟨_, k0_off52_inb g 5, k0_off52_eq g 5, rfl⟩ (
          List.Forall₂.cons ⟨_, k0_off51_inb g 5, k0_off51_eq g 5, rfl⟩ (
          List.Forall₂.cons ⟨_, k0_off54_inb g 4, k0_off54_eq g 4, rfl⟩ (
          List.Forall₂.cons ⟨_, k0_off53_inb g 4, k0_off53_eq g 4, rfl⟩ (
          List.Forall₂.cons ⟨_, k0_off52_inb g 4, k0_off52_eq g 4, rfl⟩ (
          List.Forall₂.cons ⟨_, k0_off51_inb g 4, k0_off51_eq g 4, rfl⟩ (
          List.Forall₂.cons ⟨_, k0_off54_inb g 3, k0_off54_eq g 3, rfl⟩ (
          List.Forall₂.cons ⟨_, k0_off53_inb g 3, k0_off53_eq g 3, rfl⟩ (
          List.Forall₂.cons ⟨_, k0_off52_inb g 3, k0_off52_eq g 3, rfl⟩ (
          List.Forall₂.cons ⟨_, k0_off51_inb g 3, k0_off51_eq g 3, rfl⟩ (
          List.Forall₂.cons ⟨_, k0_off54_inb g 2, k0_off54_eq g 2, rfl⟩ (
          List.Forall₂.cons ⟨_, k0_off53_inb g 2, k0_off53_eq g 2, rfl⟩ (
          List.Forall₂.cons ⟨_, k0_off52_inb g 2, k0_off52_eq g 2, rfl⟩ (
          List.Forall₂.cons ⟨_, k0_off51_inb g 2, k0_off51_eq g 2, rfl⟩ (
          List.Forall₂.cons ⟨_, k0_off54_inb g 1, k0_off54_eq g 1, rfl⟩ (
          List.Forall₂.cons ⟨_, k0_off53_inb g 1, k0_off53_eq g 1, rfl⟩ (
          List.Forall₂.cons ⟨_, k0_off52_inb g 1, k0_off52_eq g 1, rfl⟩ (
          List.Forall₂.cons ⟨_, k0_off51_inb g 1, k0_off51_eq g 1, rfl⟩ (
          List.Forall₂.cons ⟨_, k0_off54_inb g 0, k0_off54_eq g 0, rfl⟩ (
          List.Forall₂.cons ⟨_, k0_off53_inb g 0, k0_off53_eq g 0, rfl⟩ (
          List.Forall₂.cons ⟨_, k0_off52_inb g 0, k0_off52_eq g 0, rfl⟩ (
          List.Forall₂.cons ⟨_, k0_off51_inb g 0, k0_off51_eq g 0, rfl⟩ (List.Forall₂.nil)))))))))))))))))))))))))))))))))))))))))))))))))))))))))))))))))
        hf

theorem grp_11_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_11 (F := F) d L Y f₀ tv 0 acc := by
  unfold invG_11
  iintro ⟨Hk, Hout⟩
  isplitl [Hk]
  · iexact Hk
  · iexists _
    isplitr [Hout]
    swap
    · iexact Hout
    · ipureintro
      exact grpUpTo_zero 0 1 tv Y f₀

/-! ### Loop 12: row 0 of output pair 1; tokens from `cc0_scratch6` at 400, rows into `cc0_scratch7` -/

/-- Before trip g: the token scratch at its contents; in the row scratch, row 0's sites below min (16·g) 200 hold
    their interpolation and the other row is as at the loop's start. -/
def invG_12 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 1 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_12_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t12_loop.trips) (acc : BitVec 32) :
    invG_12 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t12_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_12 (F := F) d L Y f₀ (tvLoc v4 v6 v8 v10 v35 v36 v37 v38 v39 v40 v41 v42 v45 v48 v51 v54) (g.val + 1)) := by
  unfold invG_12
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 0
        (tvLoc v4 v6 v8 v10 v35 v36 v37 v38 v39 v40 v41 v42 v45 v48 v51 v54) Y f₀ f g.val (lt_of_lt_of_le g.isLt k0_t12_abs.2.1)
        (k0_pay10 (F := F) (View.readAt (Elt F) (Memref.whole cc0_scratch6 : Memref sig .scVector .vmem S1600 .i32).view
          (Rect.unit (s := S1600) (k0_off55 g) S16.size (k0_off55_inb g)).toLoadRect Y))
        400 rfl
        (fun i => tokVec_at (F := F) Y (k0_off55 g) (k0_off55_inb g) _ (k0_off55_eq g) _ (fun j => rfl) i _
          (by show 400 + (min (16 * g.val) 184 + i.val) = min (16 * g.val) 184 + 400 + i.val; omega))
        _
        (List.Forall₂.cons ⟨_, k0_off59_inb g 15, k0_off59_eq g 15, rfl⟩ (
          List.Forall₂.cons ⟨_, k0_off58_inb g 15, k0_off58_eq g 15, rfl⟩ (
          List.Forall₂.cons ⟨_, k0_off57_inb g 15, k0_off57_eq g 15, rfl⟩ (
          List.Forall₂.cons ⟨_, k0_off56_inb g 15, k0_off56_eq g 15, rfl⟩ (
          List.Forall₂.cons ⟨_, k0_off59_inb g 14, k0_off59_eq g 14, rfl⟩ (
          List.Forall₂.cons ⟨_, k0_off58_inb g 14, k0_off58_eq g 14, rfl⟩ (
          List.Forall₂.cons ⟨_, k0_off57_inb g 14, k0_off57_eq g 14, rfl⟩ (
          List.Forall₂.cons ⟨_, k0_off56_inb g 14, k0_off56_eq g 14, rfl⟩ (
          List.Forall₂.cons ⟨_, k0_off59_inb g 13, k0_off59_eq g 13, rfl⟩ (
          List.Forall₂.cons ⟨_, k0_off58_inb g 13, k0_off58_eq g 13, rfl⟩ (
          List.Forall₂.cons ⟨_, k0_off57_inb g 13, k0_off57_eq g 13, rfl⟩ (
          List.Forall₂.cons ⟨_, k0_off56_inb g 13, k0_off56_eq g 13, rfl⟩ (
          List.Forall₂.cons ⟨_, k0_off59_inb g 12, k0_off59_eq g 12, rfl⟩ (
          List.Forall₂.cons ⟨_, k0_off58_inb g 12, k0_off58_eq g 12, rfl⟩ (
          List.Forall₂.cons ⟨_, k0_off57_inb g 12, k0_off57_eq g 12, rfl⟩ (
          List.Forall₂.cons ⟨_, k0_off56_inb g 12, k0_off56_eq g 12, rfl⟩ (
          List.Forall₂.cons ⟨_, k0_off59_inb g 11, k0_off59_eq g 11, rfl⟩ (
          List.Forall₂.cons ⟨_, k0_off58_inb g 11, k0_off58_eq g 11, rfl⟩ (
          List.Forall₂.cons ⟨_, k0_off57_inb g 11, k0_off57_eq g 11, rfl⟩ (
          List.Forall₂.cons ⟨_, k0_off56_inb g 11, k0_off56_eq g 11, rfl⟩ (
          List.Forall₂.cons ⟨_, k0_off59_inb g 10, k0_off59_eq g 10, rfl⟩ (
          List.Forall₂.cons ⟨_, k0_off58_inb g 10, k0_off58_eq g 10, rfl⟩ (
          List.Forall₂.cons ⟨_, k0_off57_inb g 10, k0_off57_eq g 10, rfl⟩ (
          List.Forall₂.cons ⟨_, k0_off56_inb g 10, k0_off56_eq g 10, rfl⟩ (
          List.Forall₂.cons ⟨_, k0_off59_inb g 9, k0_off59_eq g 9, rfl⟩ (
          List.Forall₂.cons ⟨_, k0_off58_inb g 9, k0_off58_eq g 9, rfl⟩ (
          List.Forall₂.cons ⟨_, k0_off57_inb g 9, k0_off57_eq g 9, rfl⟩ (
          List.Forall₂.cons ⟨_, k0_off56_inb g 9, k0_off56_eq g 9, rfl⟩ (
          List.Forall₂.cons ⟨_, k0_off59_inb g 8, k0_off59_eq g 8, rfl⟩ (
          List.Forall₂.cons ⟨_, k0_off58_inb g 8, k0_off58_eq g 8, rfl⟩ (
          List.Forall₂.cons ⟨_, k0_off57_inb g 8, k0_off57_eq g 8, rfl⟩ (
          List.Forall₂.cons ⟨_, k0_off56_inb g 8, k0_off56_eq g 8, rfl⟩ (
          List.Forall₂.cons ⟨_, k0_off59_inb g 7, k0_off59_eq g 7, rfl⟩ (
          List.Forall₂.cons ⟨_, k0_off58_inb g 7, k0_off58_eq g 7, rfl⟩ (
          List.Forall₂.cons ⟨_, k0_off57_inb g 7, k0_off57_eq g 7, rfl⟩ (
          List.Forall₂.cons ⟨_, k0_off56_inb g 7, k0_off56_eq g 7, rfl⟩ (
          List.Forall₂.cons ⟨_, k0_off59_inb g 6, k0_off59_eq g 6, rfl⟩ (
          List.Forall₂.cons ⟨_, k0_off58_inb g 6, k0_off58_eq g 6, rfl⟩ (
          List.Forall₂.cons ⟨_, k0_off57_inb g 6, k0_off57_eq g 6, rfl⟩ (
          List.Forall₂.cons ⟨_, k0_off56_inb g 6, k0_off56_eq g 6, rfl⟩ (
          List.Forall₂.cons ⟨_, k0_off59_inb g 5, k0_off59_eq g 5, rfl⟩ (
          List.Forall₂.cons ⟨_, k0_off58_inb g 5, k0_off58_eq g 5, rfl⟩ (
          List.Forall₂.cons ⟨_, k0_off57_inb g 5, k0_off57_eq g 5, rfl⟩ (
          List.Forall₂.cons ⟨_, k0_off56_inb g 5, k0_off56_eq g 5, rfl⟩ (
          List.Forall₂.cons ⟨_, k0_off59_inb g 4, k0_off59_eq g 4, rfl⟩ (
          List.Forall₂.cons ⟨_, k0_off58_inb g 4, k0_off58_eq g 4, rfl⟩ (
          List.Forall₂.cons ⟨_, k0_off57_inb g 4, k0_off57_eq g 4, rfl⟩ (
          List.Forall₂.cons ⟨_, k0_off56_inb g 4, k0_off56_eq g 4, rfl⟩ (
          List.Forall₂.cons ⟨_, k0_off59_inb g 3, k0_off59_eq g 3, rfl⟩ (
          List.Forall₂.cons ⟨_, k0_off58_inb g 3, k0_off58_eq g 3, rfl⟩ (
          List.Forall₂.cons ⟨_, k0_off57_inb g 3, k0_off57_eq g 3, rfl⟩ (
          List.Forall₂.cons ⟨_, k0_off56_inb g 3, k0_off56_eq g 3, rfl⟩ (
          List.Forall₂.cons ⟨_, k0_off59_inb g 2, k0_off59_eq g 2, rfl⟩ (
          List.Forall₂.cons ⟨_, k0_off58_inb g 2, k0_off58_eq g 2, rfl⟩ (
          List.Forall₂.cons ⟨_, k0_off57_inb g 2, k0_off57_eq g 2, rfl⟩ (
          List.Forall₂.cons ⟨_, k0_off56_inb g 2, k0_off56_eq g 2, rfl⟩ (
          List.Forall₂.cons ⟨_, k0_off59_inb g 1, k0_off59_eq g 1, rfl⟩ (
          List.Forall₂.cons ⟨_, k0_off58_inb g 1, k0_off58_eq g 1, rfl⟩ (
          List.Forall₂.cons ⟨_, k0_off57_inb g 1, k0_off57_eq g 1, rfl⟩ (
          List.Forall₂.cons ⟨_, k0_off56_inb g 1, k0_off56_eq g 1, rfl⟩ (
          List.Forall₂.cons ⟨_, k0_off59_inb g 0, k0_off59_eq g 0, rfl⟩ (
          List.Forall₂.cons ⟨_, k0_off58_inb g 0, k0_off58_eq g 0, rfl⟩ (
          List.Forall₂.cons ⟨_, k0_off57_inb g 0, k0_off57_eq g 0, rfl⟩ (
          List.Forall₂.cons ⟨_, k0_off56_inb g 0, k0_off56_eq g 0, rfl⟩ (List.Forall₂.nil)))))))))))))))))))))))))))))))))))))))))))))))))))))))))))))))))
        hf

theorem grp_12_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_12 (F := F) d L Y f₀ tv 0 acc := by
  unfold invG_12
  iintro ⟨Hk, Hout⟩
  isplitl [Hk]
  · iexact Hk
  · iexists _
    isplitr [Hout]
    swap
    · iexact Hout
    · ipureintro
      exact grpUpTo_zero 1 0 tv Y f₀

/-! ### Loop 13: row 1 of output pair 1; tokens from `cc0_scratch6` at 600, rows into `cc0_scratch7` -/

/-- Before trip g: the token scratch at its contents; in the row scratch, row 1's sites below min (16·g) 200 hold
    their interpolation and the other row is as at the loop's start. -/
def invG_13 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 1 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_13_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t13_loop.trips) (acc : BitVec 32) :
    invG_13 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t13_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_13 (F := F) d L Y f₀ (tvLoc v4 v6 v8 v10 v35 v36 v37 v38 v39 v40 v41 v42 v45 v48 v51 v54) (g.val + 1)) := by
  unfold invG_13
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 1
        (tvLoc v4 v6 v8 v10 v35 v36 v37 v38 v39 v40 v41 v42 v45 v48 v51 v54) Y f₀ f g.val (lt_of_lt_of_le g.isLt k0_t13_abs.2.1)
        (k0_pay10 (F := F) (View.readAt (Elt F) (Memref.whole cc0_scratch6 : Memref sig .scVector .vmem S1600 .i32).view
          (Rect.unit (s := S1600) (k0_off60 g) S16.size (k0_off60_inb g)).toLoadRect Y))
        600 rfl
        (fun i => tokVec_at (F := F) Y (k0_off60 g) (k0_off60_inb g) _ (k0_off60_eq g) _ (fun j => rfl) i _
          (by show 600 + (min (16 * g.val) 184 + i.val) = min (16 * g.val) 184 + 600 + i.val; omega))
        _
        (List.Forall₂.cons ⟨_, k0_off64_inb g 15, k0_off64_eq g 15, rfl⟩ (
          List.Forall₂.cons ⟨_, k0_off63_inb g 15, k0_off63_eq g 15, rfl⟩ (
          List.Forall₂.cons ⟨_, k0_off62_inb g 15, k0_off62_eq g 15, rfl⟩ (
          List.Forall₂.cons ⟨_, k0_off61_inb g 15, k0_off61_eq g 15, rfl⟩ (
          List.Forall₂.cons ⟨_, k0_off64_inb g 14, k0_off64_eq g 14, rfl⟩ (
          List.Forall₂.cons ⟨_, k0_off63_inb g 14, k0_off63_eq g 14, rfl⟩ (
          List.Forall₂.cons ⟨_, k0_off62_inb g 14, k0_off62_eq g 14, rfl⟩ (
          List.Forall₂.cons ⟨_, k0_off61_inb g 14, k0_off61_eq g 14, rfl⟩ (
          List.Forall₂.cons ⟨_, k0_off64_inb g 13, k0_off64_eq g 13, rfl⟩ (
          List.Forall₂.cons ⟨_, k0_off63_inb g 13, k0_off63_eq g 13, rfl⟩ (
          List.Forall₂.cons ⟨_, k0_off62_inb g 13, k0_off62_eq g 13, rfl⟩ (
          List.Forall₂.cons ⟨_, k0_off61_inb g 13, k0_off61_eq g 13, rfl⟩ (
          List.Forall₂.cons ⟨_, k0_off64_inb g 12, k0_off64_eq g 12, rfl⟩ (
          List.Forall₂.cons ⟨_, k0_off63_inb g 12, k0_off63_eq g 12, rfl⟩ (
          List.Forall₂.cons ⟨_, k0_off62_inb g 12, k0_off62_eq g 12, rfl⟩ (
          List.Forall₂.cons ⟨_, k0_off61_inb g 12, k0_off61_eq g 12, rfl⟩ (
          List.Forall₂.cons ⟨_, k0_off64_inb g 11, k0_off64_eq g 11, rfl⟩ (
          List.Forall₂.cons ⟨_, k0_off63_inb g 11, k0_off63_eq g 11, rfl⟩ (
          List.Forall₂.cons ⟨_, k0_off62_inb g 11, k0_off62_eq g 11, rfl⟩ (
          List.Forall₂.cons ⟨_, k0_off61_inb g 11, k0_off61_eq g 11, rfl⟩ (
          List.Forall₂.cons ⟨_, k0_off64_inb g 10, k0_off64_eq g 10, rfl⟩ (
          List.Forall₂.cons ⟨_, k0_off63_inb g 10, k0_off63_eq g 10, rfl⟩ (
          List.Forall₂.cons ⟨_, k0_off62_inb g 10, k0_off62_eq g 10, rfl⟩ (
          List.Forall₂.cons ⟨_, k0_off61_inb g 10, k0_off61_eq g 10, rfl⟩ (
          List.Forall₂.cons ⟨_, k0_off64_inb g 9, k0_off64_eq g 9, rfl⟩ (
          List.Forall₂.cons ⟨_, k0_off63_inb g 9, k0_off63_eq g 9, rfl⟩ (
          List.Forall₂.cons ⟨_, k0_off62_inb g 9, k0_off62_eq g 9, rfl⟩ (
          List.Forall₂.cons ⟨_, k0_off61_inb g 9, k0_off61_eq g 9, rfl⟩ (
          List.Forall₂.cons ⟨_, k0_off64_inb g 8, k0_off64_eq g 8, rfl⟩ (
          List.Forall₂.cons ⟨_, k0_off63_inb g 8, k0_off63_eq g 8, rfl⟩ (
          List.Forall₂.cons ⟨_, k0_off62_inb g 8, k0_off62_eq g 8, rfl⟩ (
          List.Forall₂.cons ⟨_, k0_off61_inb g 8, k0_off61_eq g 8, rfl⟩ (
          List.Forall₂.cons ⟨_, k0_off64_inb g 7, k0_off64_eq g 7, rfl⟩ (
          List.Forall₂.cons ⟨_, k0_off63_inb g 7, k0_off63_eq g 7, rfl⟩ (
          List.Forall₂.cons ⟨_, k0_off62_inb g 7, k0_off62_eq g 7, rfl⟩ (
          List.Forall₂.cons ⟨_, k0_off61_inb g 7, k0_off61_eq g 7, rfl⟩ (
          List.Forall₂.cons ⟨_, k0_off64_inb g 6, k0_off64_eq g 6, rfl⟩ (
          List.Forall₂.cons ⟨_, k0_off63_inb g 6, k0_off63_eq g 6, rfl⟩ (
          List.Forall₂.cons ⟨_, k0_off62_inb g 6, k0_off62_eq g 6, rfl⟩ (
          List.Forall₂.cons ⟨_, k0_off61_inb g 6, k0_off61_eq g 6, rfl⟩ (
          List.Forall₂.cons ⟨_, k0_off64_inb g 5, k0_off64_eq g 5, rfl⟩ (
          List.Forall₂.cons ⟨_, k0_off63_inb g 5, k0_off63_eq g 5, rfl⟩ (
          List.Forall₂.cons ⟨_, k0_off62_inb g 5, k0_off62_eq g 5, rfl⟩ (
          List.Forall₂.cons ⟨_, k0_off61_inb g 5, k0_off61_eq g 5, rfl⟩ (
          List.Forall₂.cons ⟨_, k0_off64_inb g 4, k0_off64_eq g 4, rfl⟩ (
          List.Forall₂.cons ⟨_, k0_off63_inb g 4, k0_off63_eq g 4, rfl⟩ (
          List.Forall₂.cons ⟨_, k0_off62_inb g 4, k0_off62_eq g 4, rfl⟩ (
          List.Forall₂.cons ⟨_, k0_off61_inb g 4, k0_off61_eq g 4, rfl⟩ (
          List.Forall₂.cons ⟨_, k0_off64_inb g 3, k0_off64_eq g 3, rfl⟩ (
          List.Forall₂.cons ⟨_, k0_off63_inb g 3, k0_off63_eq g 3, rfl⟩ (
          List.Forall₂.cons ⟨_, k0_off62_inb g 3, k0_off62_eq g 3, rfl⟩ (
          List.Forall₂.cons ⟨_, k0_off61_inb g 3, k0_off61_eq g 3, rfl⟩ (
          List.Forall₂.cons ⟨_, k0_off64_inb g 2, k0_off64_eq g 2, rfl⟩ (
          List.Forall₂.cons ⟨_, k0_off63_inb g 2, k0_off63_eq g 2, rfl⟩ (
          List.Forall₂.cons ⟨_, k0_off62_inb g 2, k0_off62_eq g 2, rfl⟩ (
          List.Forall₂.cons ⟨_, k0_off61_inb g 2, k0_off61_eq g 2, rfl⟩ (
          List.Forall₂.cons ⟨_, k0_off64_inb g 1, k0_off64_eq g 1, rfl⟩ (
          List.Forall₂.cons ⟨_, k0_off63_inb g 1, k0_off63_eq g 1, rfl⟩ (
          List.Forall₂.cons ⟨_, k0_off62_inb g 1, k0_off62_eq g 1, rfl⟩ (
          List.Forall₂.cons ⟨_, k0_off61_inb g 1, k0_off61_eq g 1, rfl⟩ (
          List.Forall₂.cons ⟨_, k0_off64_inb g 0, k0_off64_eq g 0, rfl⟩ (
          List.Forall₂.cons ⟨_, k0_off63_inb g 0, k0_off63_eq g 0, rfl⟩ (
          List.Forall₂.cons ⟨_, k0_off62_inb g 0, k0_off62_eq g 0, rfl⟩ (
          List.Forall₂.cons ⟨_, k0_off61_inb g 0, k0_off61_eq g 0, rfl⟩ (List.Forall₂.nil)))))))))))))))))))))))))))))))))))))))))))))))))))))))))))))))))
        hf

theorem grp_13_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_13 (F := F) d L Y f₀ tv 0 acc := by
  unfold invG_13
  iintro ⟨Hk, Hout⟩
  isplitl [Hk]
  · iexact Hk
  · iexists _
    isplitr [Hout]
    swap
    · iexact Hout
    · ipureintro
      exact grpUpTo_zero 1 1 tv Y f₀

/-! ### Loop 14: row 0 of output pair 2; tokens from `cc0_scratch6` at 800, rows into `cc0_scratch2` -/

/-- Before trip g: the token scratch at its contents; in the row scratch, row 0's sites below min (16·g) 200 hold
    their interpolation and the other row is as at the loop's start. -/
def invG_14 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 2 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_14_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t14_loop.trips) (acc : BitVec 32) :
    invG_14 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t14_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_14 (F := F) d L Y f₀ (tvLoc v4 v6 v8 v10 v35 v36 v37 v38 v39 v40 v41 v42 v45 v48 v51 v54) (g.val + 1)) := by
  unfold invG_14
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 0
        (tvLoc v4 v6 v8 v10 v35 v36 v37 v38 v39 v40 v41 v42 v45 v48 v51 v54) Y f₀ f g.val (lt_of_lt_of_le g.isLt k0_t14_abs.2.1)
        (k0_pay10 (F := F) (View.readAt (Elt F) (Memref.whole cc0_scratch6 : Memref sig .scVector .vmem S1600 .i32).view
          (Rect.unit (s := S1600) (k0_off65 g) S16.size (k0_off65_inb g)).toLoadRect Y))
        800 rfl
        (fun i => tokVec_at (F := F) Y (k0_off65 g) (k0_off65_inb g) _ (k0_off65_eq g) _ (fun j => rfl) i _
          (by show 800 + (min (16 * g.val) 184 + i.val) = min (16 * g.val) 184 + 800 + i.val; omega))
        _
        (List.Forall₂.cons ⟨_, k0_off69_inb g 15, k0_off69_eq g 15, rfl⟩ (
          List.Forall₂.cons ⟨_, k0_off68_inb g 15, k0_off68_eq g 15, rfl⟩ (
          List.Forall₂.cons ⟨_, k0_off67_inb g 15, k0_off67_eq g 15, rfl⟩ (
          List.Forall₂.cons ⟨_, k0_off66_inb g 15, k0_off66_eq g 15, rfl⟩ (
          List.Forall₂.cons ⟨_, k0_off69_inb g 14, k0_off69_eq g 14, rfl⟩ (
          List.Forall₂.cons ⟨_, k0_off68_inb g 14, k0_off68_eq g 14, rfl⟩ (
          List.Forall₂.cons ⟨_, k0_off67_inb g 14, k0_off67_eq g 14, rfl⟩ (
          List.Forall₂.cons ⟨_, k0_off66_inb g 14, k0_off66_eq g 14, rfl⟩ (
          List.Forall₂.cons ⟨_, k0_off69_inb g 13, k0_off69_eq g 13, rfl⟩ (
          List.Forall₂.cons ⟨_, k0_off68_inb g 13, k0_off68_eq g 13, rfl⟩ (
          List.Forall₂.cons ⟨_, k0_off67_inb g 13, k0_off67_eq g 13, rfl⟩ (
          List.Forall₂.cons ⟨_, k0_off66_inb g 13, k0_off66_eq g 13, rfl⟩ (
          List.Forall₂.cons ⟨_, k0_off69_inb g 12, k0_off69_eq g 12, rfl⟩ (
          List.Forall₂.cons ⟨_, k0_off68_inb g 12, k0_off68_eq g 12, rfl⟩ (
          List.Forall₂.cons ⟨_, k0_off67_inb g 12, k0_off67_eq g 12, rfl⟩ (
          List.Forall₂.cons ⟨_, k0_off66_inb g 12, k0_off66_eq g 12, rfl⟩ (
          List.Forall₂.cons ⟨_, k0_off69_inb g 11, k0_off69_eq g 11, rfl⟩ (
          List.Forall₂.cons ⟨_, k0_off68_inb g 11, k0_off68_eq g 11, rfl⟩ (
          List.Forall₂.cons ⟨_, k0_off67_inb g 11, k0_off67_eq g 11, rfl⟩ (
          List.Forall₂.cons ⟨_, k0_off66_inb g 11, k0_off66_eq g 11, rfl⟩ (
          List.Forall₂.cons ⟨_, k0_off69_inb g 10, k0_off69_eq g 10, rfl⟩ (
          List.Forall₂.cons ⟨_, k0_off68_inb g 10, k0_off68_eq g 10, rfl⟩ (
          List.Forall₂.cons ⟨_, k0_off67_inb g 10, k0_off67_eq g 10, rfl⟩ (
          List.Forall₂.cons ⟨_, k0_off66_inb g 10, k0_off66_eq g 10, rfl⟩ (
          List.Forall₂.cons ⟨_, k0_off69_inb g 9, k0_off69_eq g 9, rfl⟩ (
          List.Forall₂.cons ⟨_, k0_off68_inb g 9, k0_off68_eq g 9, rfl⟩ (
          List.Forall₂.cons ⟨_, k0_off67_inb g 9, k0_off67_eq g 9, rfl⟩ (
          List.Forall₂.cons ⟨_, k0_off66_inb g 9, k0_off66_eq g 9, rfl⟩ (
          List.Forall₂.cons ⟨_, k0_off69_inb g 8, k0_off69_eq g 8, rfl⟩ (
          List.Forall₂.cons ⟨_, k0_off68_inb g 8, k0_off68_eq g 8, rfl⟩ (
          List.Forall₂.cons ⟨_, k0_off67_inb g 8, k0_off67_eq g 8, rfl⟩ (
          List.Forall₂.cons ⟨_, k0_off66_inb g 8, k0_off66_eq g 8, rfl⟩ (
          List.Forall₂.cons ⟨_, k0_off69_inb g 7, k0_off69_eq g 7, rfl⟩ (
          List.Forall₂.cons ⟨_, k0_off68_inb g 7, k0_off68_eq g 7, rfl⟩ (
          List.Forall₂.cons ⟨_, k0_off67_inb g 7, k0_off67_eq g 7, rfl⟩ (
          List.Forall₂.cons ⟨_, k0_off66_inb g 7, k0_off66_eq g 7, rfl⟩ (
          List.Forall₂.cons ⟨_, k0_off69_inb g 6, k0_off69_eq g 6, rfl⟩ (
          List.Forall₂.cons ⟨_, k0_off68_inb g 6, k0_off68_eq g 6, rfl⟩ (
          List.Forall₂.cons ⟨_, k0_off67_inb g 6, k0_off67_eq g 6, rfl⟩ (
          List.Forall₂.cons ⟨_, k0_off66_inb g 6, k0_off66_eq g 6, rfl⟩ (
          List.Forall₂.cons ⟨_, k0_off69_inb g 5, k0_off69_eq g 5, rfl⟩ (
          List.Forall₂.cons ⟨_, k0_off68_inb g 5, k0_off68_eq g 5, rfl⟩ (
          List.Forall₂.cons ⟨_, k0_off67_inb g 5, k0_off67_eq g 5, rfl⟩ (
          List.Forall₂.cons ⟨_, k0_off66_inb g 5, k0_off66_eq g 5, rfl⟩ (
          List.Forall₂.cons ⟨_, k0_off69_inb g 4, k0_off69_eq g 4, rfl⟩ (
          List.Forall₂.cons ⟨_, k0_off68_inb g 4, k0_off68_eq g 4, rfl⟩ (
          List.Forall₂.cons ⟨_, k0_off67_inb g 4, k0_off67_eq g 4, rfl⟩ (
          List.Forall₂.cons ⟨_, k0_off66_inb g 4, k0_off66_eq g 4, rfl⟩ (
          List.Forall₂.cons ⟨_, k0_off69_inb g 3, k0_off69_eq g 3, rfl⟩ (
          List.Forall₂.cons ⟨_, k0_off68_inb g 3, k0_off68_eq g 3, rfl⟩ (
          List.Forall₂.cons ⟨_, k0_off67_inb g 3, k0_off67_eq g 3, rfl⟩ (
          List.Forall₂.cons ⟨_, k0_off66_inb g 3, k0_off66_eq g 3, rfl⟩ (
          List.Forall₂.cons ⟨_, k0_off69_inb g 2, k0_off69_eq g 2, rfl⟩ (
          List.Forall₂.cons ⟨_, k0_off68_inb g 2, k0_off68_eq g 2, rfl⟩ (
          List.Forall₂.cons ⟨_, k0_off67_inb g 2, k0_off67_eq g 2, rfl⟩ (
          List.Forall₂.cons ⟨_, k0_off66_inb g 2, k0_off66_eq g 2, rfl⟩ (
          List.Forall₂.cons ⟨_, k0_off69_inb g 1, k0_off69_eq g 1, rfl⟩ (
          List.Forall₂.cons ⟨_, k0_off68_inb g 1, k0_off68_eq g 1, rfl⟩ (
          List.Forall₂.cons ⟨_, k0_off67_inb g 1, k0_off67_eq g 1, rfl⟩ (
          List.Forall₂.cons ⟨_, k0_off66_inb g 1, k0_off66_eq g 1, rfl⟩ (
          List.Forall₂.cons ⟨_, k0_off69_inb g 0, k0_off69_eq g 0, rfl⟩ (
          List.Forall₂.cons ⟨_, k0_off68_inb g 0, k0_off68_eq g 0, rfl⟩ (
          List.Forall₂.cons ⟨_, k0_off67_inb g 0, k0_off67_eq g 0, rfl⟩ (
          List.Forall₂.cons ⟨_, k0_off66_inb g 0, k0_off66_eq g 0, rfl⟩ (List.Forall₂.nil)))))))))))))))))))))))))))))))))))))))))))))))))))))))))))))))))
        hf

theorem grp_14_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_14 (F := F) d L Y f₀ tv 0 acc := by
  unfold invG_14
  iintro ⟨Hk, Hout⟩
  isplitl [Hk]
  · iexact Hk
  · iexists _
    isplitr [Hout]
    swap
    · iexact Hout
    · ipureintro
      exact grpUpTo_zero 2 0 tv Y f₀

/-! ### Loop 15: row 1 of output pair 2; tokens from `cc0_scratch6` at 1000, rows into `cc0_scratch2` -/

/-- Before trip g: the token scratch at its contents; in the row scratch, row 1's sites below min (16·g) 200 hold
    their interpolation and the other row is as at the loop's start. -/
def invG_15 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 2 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_15_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t15_loop.trips) (acc : BitVec 32) :
    invG_15 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t15_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_15 (F := F) d L Y f₀ (tvLoc v4 v6 v8 v10 v35 v36 v37 v38 v39 v40 v41 v42 v45 v48 v51 v54) (g.val + 1)) := by
  unfold invG_15
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 1
        (tvLoc v4 v6 v8 v10 v35 v36 v37 v38 v39 v40 v41 v42 v45 v48 v51 v54) Y f₀ f g.val (lt_of_lt_of_le g.isLt k0_t15_abs.2.1)
        (k0_pay10 (F := F) (View.readAt (Elt F) (Memref.whole cc0_scratch6 : Memref sig .scVector .vmem S1600 .i32).view
          (Rect.unit (s := S1600) (k0_off70 g) S16.size (k0_off70_inb g)).toLoadRect Y))
        1000 rfl
        (fun i => tokVec_at (F := F) Y (k0_off70 g) (k0_off70_inb g) _ (k0_off70_eq g) _ (fun j => rfl) i _
          (by show 1000 + (min (16 * g.val) 184 + i.val) = min (16 * g.val) 184 + 1000 + i.val; omega))
        _
        (List.Forall₂.cons ⟨_, k0_off74_inb g 15, k0_off74_eq g 15, rfl⟩ (
          List.Forall₂.cons ⟨_, k0_off73_inb g 15, k0_off73_eq g 15, rfl⟩ (
          List.Forall₂.cons ⟨_, k0_off72_inb g 15, k0_off72_eq g 15, rfl⟩ (
          List.Forall₂.cons ⟨_, k0_off71_inb g 15, k0_off71_eq g 15, rfl⟩ (
          List.Forall₂.cons ⟨_, k0_off74_inb g 14, k0_off74_eq g 14, rfl⟩ (
          List.Forall₂.cons ⟨_, k0_off73_inb g 14, k0_off73_eq g 14, rfl⟩ (
          List.Forall₂.cons ⟨_, k0_off72_inb g 14, k0_off72_eq g 14, rfl⟩ (
          List.Forall₂.cons ⟨_, k0_off71_inb g 14, k0_off71_eq g 14, rfl⟩ (
          List.Forall₂.cons ⟨_, k0_off74_inb g 13, k0_off74_eq g 13, rfl⟩ (
          List.Forall₂.cons ⟨_, k0_off73_inb g 13, k0_off73_eq g 13, rfl⟩ (
          List.Forall₂.cons ⟨_, k0_off72_inb g 13, k0_off72_eq g 13, rfl⟩ (
          List.Forall₂.cons ⟨_, k0_off71_inb g 13, k0_off71_eq g 13, rfl⟩ (
          List.Forall₂.cons ⟨_, k0_off74_inb g 12, k0_off74_eq g 12, rfl⟩ (
          List.Forall₂.cons ⟨_, k0_off73_inb g 12, k0_off73_eq g 12, rfl⟩ (
          List.Forall₂.cons ⟨_, k0_off72_inb g 12, k0_off72_eq g 12, rfl⟩ (
          List.Forall₂.cons ⟨_, k0_off71_inb g 12, k0_off71_eq g 12, rfl⟩ (
          List.Forall₂.cons ⟨_, k0_off74_inb g 11, k0_off74_eq g 11, rfl⟩ (
          List.Forall₂.cons ⟨_, k0_off73_inb g 11, k0_off73_eq g 11, rfl⟩ (
          List.Forall₂.cons ⟨_, k0_off72_inb g 11, k0_off72_eq g 11, rfl⟩ (
          List.Forall₂.cons ⟨_, k0_off71_inb g 11, k0_off71_eq g 11, rfl⟩ (
          List.Forall₂.cons ⟨_, k0_off74_inb g 10, k0_off74_eq g 10, rfl⟩ (
          List.Forall₂.cons ⟨_, k0_off73_inb g 10, k0_off73_eq g 10, rfl⟩ (
          List.Forall₂.cons ⟨_, k0_off72_inb g 10, k0_off72_eq g 10, rfl⟩ (
          List.Forall₂.cons ⟨_, k0_off71_inb g 10, k0_off71_eq g 10, rfl⟩ (
          List.Forall₂.cons ⟨_, k0_off74_inb g 9, k0_off74_eq g 9, rfl⟩ (
          List.Forall₂.cons ⟨_, k0_off73_inb g 9, k0_off73_eq g 9, rfl⟩ (
          List.Forall₂.cons ⟨_, k0_off72_inb g 9, k0_off72_eq g 9, rfl⟩ (
          List.Forall₂.cons ⟨_, k0_off71_inb g 9, k0_off71_eq g 9, rfl⟩ (
          List.Forall₂.cons ⟨_, k0_off74_inb g 8, k0_off74_eq g 8, rfl⟩ (
          List.Forall₂.cons ⟨_, k0_off73_inb g 8, k0_off73_eq g 8, rfl⟩ (
          List.Forall₂.cons ⟨_, k0_off72_inb g 8, k0_off72_eq g 8, rfl⟩ (
          List.Forall₂.cons ⟨_, k0_off71_inb g 8, k0_off71_eq g 8, rfl⟩ (
          List.Forall₂.cons ⟨_, k0_off74_inb g 7, k0_off74_eq g 7, rfl⟩ (
          List.Forall₂.cons ⟨_, k0_off73_inb g 7, k0_off73_eq g 7, rfl⟩ (
          List.Forall₂.cons ⟨_, k0_off72_inb g 7, k0_off72_eq g 7, rfl⟩ (
          List.Forall₂.cons ⟨_, k0_off71_inb g 7, k0_off71_eq g 7, rfl⟩ (
          List.Forall₂.cons ⟨_, k0_off74_inb g 6, k0_off74_eq g 6, rfl⟩ (
          List.Forall₂.cons ⟨_, k0_off73_inb g 6, k0_off73_eq g 6, rfl⟩ (
          List.Forall₂.cons ⟨_, k0_off72_inb g 6, k0_off72_eq g 6, rfl⟩ (
          List.Forall₂.cons ⟨_, k0_off71_inb g 6, k0_off71_eq g 6, rfl⟩ (
          List.Forall₂.cons ⟨_, k0_off74_inb g 5, k0_off74_eq g 5, rfl⟩ (
          List.Forall₂.cons ⟨_, k0_off73_inb g 5, k0_off73_eq g 5, rfl⟩ (
          List.Forall₂.cons ⟨_, k0_off72_inb g 5, k0_off72_eq g 5, rfl⟩ (
          List.Forall₂.cons ⟨_, k0_off71_inb g 5, k0_off71_eq g 5, rfl⟩ (
          List.Forall₂.cons ⟨_, k0_off74_inb g 4, k0_off74_eq g 4, rfl⟩ (
          List.Forall₂.cons ⟨_, k0_off73_inb g 4, k0_off73_eq g 4, rfl⟩ (
          List.Forall₂.cons ⟨_, k0_off72_inb g 4, k0_off72_eq g 4, rfl⟩ (
          List.Forall₂.cons ⟨_, k0_off71_inb g 4, k0_off71_eq g 4, rfl⟩ (
          List.Forall₂.cons ⟨_, k0_off74_inb g 3, k0_off74_eq g 3, rfl⟩ (
          List.Forall₂.cons ⟨_, k0_off73_inb g 3, k0_off73_eq g 3, rfl⟩ (
          List.Forall₂.cons ⟨_, k0_off72_inb g 3, k0_off72_eq g 3, rfl⟩ (
          List.Forall₂.cons ⟨_, k0_off71_inb g 3, k0_off71_eq g 3, rfl⟩ (
          List.Forall₂.cons ⟨_, k0_off74_inb g 2, k0_off74_eq g 2, rfl⟩ (
          List.Forall₂.cons ⟨_, k0_off73_inb g 2, k0_off73_eq g 2, rfl⟩ (
          List.Forall₂.cons ⟨_, k0_off72_inb g 2, k0_off72_eq g 2, rfl⟩ (
          List.Forall₂.cons ⟨_, k0_off71_inb g 2, k0_off71_eq g 2, rfl⟩ (
          List.Forall₂.cons ⟨_, k0_off74_inb g 1, k0_off74_eq g 1, rfl⟩ (
          List.Forall₂.cons ⟨_, k0_off73_inb g 1, k0_off73_eq g 1, rfl⟩ (
          List.Forall₂.cons ⟨_, k0_off72_inb g 1, k0_off72_eq g 1, rfl⟩ (
          List.Forall₂.cons ⟨_, k0_off71_inb g 1, k0_off71_eq g 1, rfl⟩ (
          List.Forall₂.cons ⟨_, k0_off74_inb g 0, k0_off74_eq g 0, rfl⟩ (
          List.Forall₂.cons ⟨_, k0_off73_inb g 0, k0_off73_eq g 0, rfl⟩ (
          List.Forall₂.cons ⟨_, k0_off72_inb g 0, k0_off72_eq g 0, rfl⟩ (
          List.Forall₂.cons ⟨_, k0_off71_inb g 0, k0_off71_eq g 0, rfl⟩ (List.Forall₂.nil)))))))))))))))))))))))))))))))))))))))))))))))))))))))))))))))))
        hf

theorem grp_15_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_15 (F := F) d L Y f₀ tv 0 acc := by
  unfold invG_15
  iintro ⟨Hk, Hout⟩
  isplitl [Hk]
  · iexact Hk
  · iexists _
    isplitr [Hout]
    swap
    · iexact Hout
    · ipureintro
      exact grpUpTo_zero 2 1 tv Y f₀

/-! ### Loop 16: row 0 of output pair 3; tokens from `cc0_scratch6` at 1200, rows into `cc0_scratch7` -/

/-- Before trip g: the token scratch at its contents; in the row scratch, row 0's sites below min (16·g) 200 hold
    their interpolation and the other row is as at the loop's start. -/
def invG_16 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 3 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_16_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t16_loop.trips) (acc : BitVec 32) :
    invG_16 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t16_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_16 (F := F) d L Y f₀ (tvLoc v4 v6 v8 v10 v35 v36 v37 v38 v39 v40 v41 v42 v45 v48 v51 v54) (g.val + 1)) := by
  unfold invG_16
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 0
        (tvLoc v4 v6 v8 v10 v35 v36 v37 v38 v39 v40 v41 v42 v45 v48 v51 v54) Y f₀ f g.val (lt_of_lt_of_le g.isLt k0_t16_abs.2.1)
        (k0_pay10 (F := F) (View.readAt (Elt F) (Memref.whole cc0_scratch6 : Memref sig .scVector .vmem S1600 .i32).view
          (Rect.unit (s := S1600) (k0_off75 g) S16.size (k0_off75_inb g)).toLoadRect Y))
        1200 rfl
        (fun i => tokVec_at (F := F) Y (k0_off75 g) (k0_off75_inb g) _ (k0_off75_eq g) _ (fun j => rfl) i _
          (by show 1200 + (min (16 * g.val) 184 + i.val) = min (16 * g.val) 184 + 1200 + i.val; omega))
        _
        (List.Forall₂.cons ⟨_, k0_off79_inb g 15, k0_off79_eq g 15, rfl⟩ (
          List.Forall₂.cons ⟨_, k0_off78_inb g 15, k0_off78_eq g 15, rfl⟩ (
          List.Forall₂.cons ⟨_, k0_off77_inb g 15, k0_off77_eq g 15, rfl⟩ (
          List.Forall₂.cons ⟨_, k0_off76_inb g 15, k0_off76_eq g 15, rfl⟩ (
          List.Forall₂.cons ⟨_, k0_off79_inb g 14, k0_off79_eq g 14, rfl⟩ (
          List.Forall₂.cons ⟨_, k0_off78_inb g 14, k0_off78_eq g 14, rfl⟩ (
          List.Forall₂.cons ⟨_, k0_off77_inb g 14, k0_off77_eq g 14, rfl⟩ (
          List.Forall₂.cons ⟨_, k0_off76_inb g 14, k0_off76_eq g 14, rfl⟩ (
          List.Forall₂.cons ⟨_, k0_off79_inb g 13, k0_off79_eq g 13, rfl⟩ (
          List.Forall₂.cons ⟨_, k0_off78_inb g 13, k0_off78_eq g 13, rfl⟩ (
          List.Forall₂.cons ⟨_, k0_off77_inb g 13, k0_off77_eq g 13, rfl⟩ (
          List.Forall₂.cons ⟨_, k0_off76_inb g 13, k0_off76_eq g 13, rfl⟩ (
          List.Forall₂.cons ⟨_, k0_off79_inb g 12, k0_off79_eq g 12, rfl⟩ (
          List.Forall₂.cons ⟨_, k0_off78_inb g 12, k0_off78_eq g 12, rfl⟩ (
          List.Forall₂.cons ⟨_, k0_off77_inb g 12, k0_off77_eq g 12, rfl⟩ (
          List.Forall₂.cons ⟨_, k0_off76_inb g 12, k0_off76_eq g 12, rfl⟩ (
          List.Forall₂.cons ⟨_, k0_off79_inb g 11, k0_off79_eq g 11, rfl⟩ (
          List.Forall₂.cons ⟨_, k0_off78_inb g 11, k0_off78_eq g 11, rfl⟩ (
          List.Forall₂.cons ⟨_, k0_off77_inb g 11, k0_off77_eq g 11, rfl⟩ (
          List.Forall₂.cons ⟨_, k0_off76_inb g 11, k0_off76_eq g 11, rfl⟩ (
          List.Forall₂.cons ⟨_, k0_off79_inb g 10, k0_off79_eq g 10, rfl⟩ (
          List.Forall₂.cons ⟨_, k0_off78_inb g 10, k0_off78_eq g 10, rfl⟩ (
          List.Forall₂.cons ⟨_, k0_off77_inb g 10, k0_off77_eq g 10, rfl⟩ (
          List.Forall₂.cons ⟨_, k0_off76_inb g 10, k0_off76_eq g 10, rfl⟩ (
          List.Forall₂.cons ⟨_, k0_off79_inb g 9, k0_off79_eq g 9, rfl⟩ (
          List.Forall₂.cons ⟨_, k0_off78_inb g 9, k0_off78_eq g 9, rfl⟩ (
          List.Forall₂.cons ⟨_, k0_off77_inb g 9, k0_off77_eq g 9, rfl⟩ (
          List.Forall₂.cons ⟨_, k0_off76_inb g 9, k0_off76_eq g 9, rfl⟩ (
          List.Forall₂.cons ⟨_, k0_off79_inb g 8, k0_off79_eq g 8, rfl⟩ (
          List.Forall₂.cons ⟨_, k0_off78_inb g 8, k0_off78_eq g 8, rfl⟩ (
          List.Forall₂.cons ⟨_, k0_off77_inb g 8, k0_off77_eq g 8, rfl⟩ (
          List.Forall₂.cons ⟨_, k0_off76_inb g 8, k0_off76_eq g 8, rfl⟩ (
          List.Forall₂.cons ⟨_, k0_off79_inb g 7, k0_off79_eq g 7, rfl⟩ (
          List.Forall₂.cons ⟨_, k0_off78_inb g 7, k0_off78_eq g 7, rfl⟩ (
          List.Forall₂.cons ⟨_, k0_off77_inb g 7, k0_off77_eq g 7, rfl⟩ (
          List.Forall₂.cons ⟨_, k0_off76_inb g 7, k0_off76_eq g 7, rfl⟩ (
          List.Forall₂.cons ⟨_, k0_off79_inb g 6, k0_off79_eq g 6, rfl⟩ (
          List.Forall₂.cons ⟨_, k0_off78_inb g 6, k0_off78_eq g 6, rfl⟩ (
          List.Forall₂.cons ⟨_, k0_off77_inb g 6, k0_off77_eq g 6, rfl⟩ (
          List.Forall₂.cons ⟨_, k0_off76_inb g 6, k0_off76_eq g 6, rfl⟩ (
          List.Forall₂.cons ⟨_, k0_off79_inb g 5, k0_off79_eq g 5, rfl⟩ (
          List.Forall₂.cons ⟨_, k0_off78_inb g 5, k0_off78_eq g 5, rfl⟩ (
          List.Forall₂.cons ⟨_, k0_off77_inb g 5, k0_off77_eq g 5, rfl⟩ (
          List.Forall₂.cons ⟨_, k0_off76_inb g 5, k0_off76_eq g 5, rfl⟩ (
          List.Forall₂.cons ⟨_, k0_off79_inb g 4, k0_off79_eq g 4, rfl⟩ (
          List.Forall₂.cons ⟨_, k0_off78_inb g 4, k0_off78_eq g 4, rfl⟩ (
          List.Forall₂.cons ⟨_, k0_off77_inb g 4, k0_off77_eq g 4, rfl⟩ (
          List.Forall₂.cons ⟨_, k0_off76_inb g 4, k0_off76_eq g 4, rfl⟩ (
          List.Forall₂.cons ⟨_, k0_off79_inb g 3, k0_off79_eq g 3, rfl⟩ (
          List.Forall₂.cons ⟨_, k0_off78_inb g 3, k0_off78_eq g 3, rfl⟩ (
          List.Forall₂.cons ⟨_, k0_off77_inb g 3, k0_off77_eq g 3, rfl⟩ (
          List.Forall₂.cons ⟨_, k0_off76_inb g 3, k0_off76_eq g 3, rfl⟩ (
          List.Forall₂.cons ⟨_, k0_off79_inb g 2, k0_off79_eq g 2, rfl⟩ (
          List.Forall₂.cons ⟨_, k0_off78_inb g 2, k0_off78_eq g 2, rfl⟩ (
          List.Forall₂.cons ⟨_, k0_off77_inb g 2, k0_off77_eq g 2, rfl⟩ (
          List.Forall₂.cons ⟨_, k0_off76_inb g 2, k0_off76_eq g 2, rfl⟩ (
          List.Forall₂.cons ⟨_, k0_off79_inb g 1, k0_off79_eq g 1, rfl⟩ (
          List.Forall₂.cons ⟨_, k0_off78_inb g 1, k0_off78_eq g 1, rfl⟩ (
          List.Forall₂.cons ⟨_, k0_off77_inb g 1, k0_off77_eq g 1, rfl⟩ (
          List.Forall₂.cons ⟨_, k0_off76_inb g 1, k0_off76_eq g 1, rfl⟩ (
          List.Forall₂.cons ⟨_, k0_off79_inb g 0, k0_off79_eq g 0, rfl⟩ (
          List.Forall₂.cons ⟨_, k0_off78_inb g 0, k0_off78_eq g 0, rfl⟩ (
          List.Forall₂.cons ⟨_, k0_off77_inb g 0, k0_off77_eq g 0, rfl⟩ (
          List.Forall₂.cons ⟨_, k0_off76_inb g 0, k0_off76_eq g 0, rfl⟩ (List.Forall₂.nil)))))))))))))))))))))))))))))))))))))))))))))))))))))))))))))))))
        hf

theorem grp_16_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_16 (F := F) d L Y f₀ tv 0 acc := by
  unfold invG_16
  iintro ⟨Hk, Hout⟩
  isplitl [Hk]
  · iexact Hk
  · iexists _
    isplitr [Hout]
    swap
    · iexact Hout
    · ipureintro
      exact grpUpTo_zero 3 0 tv Y f₀

/-! ### Loop 17: row 1 of output pair 3; tokens from `cc0_scratch6` at 1400, rows into `cc0_scratch7` -/

/-- Before trip g: the token scratch at its contents; in the row scratch, row 1's sites below min (16·g) 200 hold
    their interpolation and the other row is as at the loop's start. -/
def invG_17 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 3 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_17_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t17_loop.trips) (acc : BitVec 32) :
    invG_17 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t17_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_17 (F := F) d L Y f₀ (tvLoc v4 v6 v8 v10 v35 v36 v37 v38 v39 v40 v41 v42 v45 v48 v51 v54) (g.val + 1)) := by
  unfold invG_17
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 1
        (tvLoc v4 v6 v8 v10 v35 v36 v37 v38 v39 v40 v41 v42 v45 v48 v51 v54) Y f₀ f g.val (lt_of_lt_of_le g.isLt k0_t17_abs.2.1)
        (k0_pay10 (F := F) (View.readAt (Elt F) (Memref.whole cc0_scratch6 : Memref sig .scVector .vmem S1600 .i32).view
          (Rect.unit (s := S1600) (k0_off80 g) S16.size (k0_off80_inb g)).toLoadRect Y))
        1400 rfl
        (fun i => tokVec_at (F := F) Y (k0_off80 g) (k0_off80_inb g) _ (k0_off80_eq g) _ (fun j => rfl) i _
          (by show 1400 + (min (16 * g.val) 184 + i.val) = min (16 * g.val) 184 + 1400 + i.val; omega))
        _
        (List.Forall₂.cons ⟨_, k0_off84_inb g 15, k0_off84_eq g 15, rfl⟩ (
          List.Forall₂.cons ⟨_, k0_off83_inb g 15, k0_off83_eq g 15, rfl⟩ (
          List.Forall₂.cons ⟨_, k0_off82_inb g 15, k0_off82_eq g 15, rfl⟩ (
          List.Forall₂.cons ⟨_, k0_off81_inb g 15, k0_off81_eq g 15, rfl⟩ (
          List.Forall₂.cons ⟨_, k0_off84_inb g 14, k0_off84_eq g 14, rfl⟩ (
          List.Forall₂.cons ⟨_, k0_off83_inb g 14, k0_off83_eq g 14, rfl⟩ (
          List.Forall₂.cons ⟨_, k0_off82_inb g 14, k0_off82_eq g 14, rfl⟩ (
          List.Forall₂.cons ⟨_, k0_off81_inb g 14, k0_off81_eq g 14, rfl⟩ (
          List.Forall₂.cons ⟨_, k0_off84_inb g 13, k0_off84_eq g 13, rfl⟩ (
          List.Forall₂.cons ⟨_, k0_off83_inb g 13, k0_off83_eq g 13, rfl⟩ (
          List.Forall₂.cons ⟨_, k0_off82_inb g 13, k0_off82_eq g 13, rfl⟩ (
          List.Forall₂.cons ⟨_, k0_off81_inb g 13, k0_off81_eq g 13, rfl⟩ (
          List.Forall₂.cons ⟨_, k0_off84_inb g 12, k0_off84_eq g 12, rfl⟩ (
          List.Forall₂.cons ⟨_, k0_off83_inb g 12, k0_off83_eq g 12, rfl⟩ (
          List.Forall₂.cons ⟨_, k0_off82_inb g 12, k0_off82_eq g 12, rfl⟩ (
          List.Forall₂.cons ⟨_, k0_off81_inb g 12, k0_off81_eq g 12, rfl⟩ (
          List.Forall₂.cons ⟨_, k0_off84_inb g 11, k0_off84_eq g 11, rfl⟩ (
          List.Forall₂.cons ⟨_, k0_off83_inb g 11, k0_off83_eq g 11, rfl⟩ (
          List.Forall₂.cons ⟨_, k0_off82_inb g 11, k0_off82_eq g 11, rfl⟩ (
          List.Forall₂.cons ⟨_, k0_off81_inb g 11, k0_off81_eq g 11, rfl⟩ (
          List.Forall₂.cons ⟨_, k0_off84_inb g 10, k0_off84_eq g 10, rfl⟩ (
          List.Forall₂.cons ⟨_, k0_off83_inb g 10, k0_off83_eq g 10, rfl⟩ (
          List.Forall₂.cons ⟨_, k0_off82_inb g 10, k0_off82_eq g 10, rfl⟩ (
          List.Forall₂.cons ⟨_, k0_off81_inb g 10, k0_off81_eq g 10, rfl⟩ (
          List.Forall₂.cons ⟨_, k0_off84_inb g 9, k0_off84_eq g 9, rfl⟩ (
          List.Forall₂.cons ⟨_, k0_off83_inb g 9, k0_off83_eq g 9, rfl⟩ (
          List.Forall₂.cons ⟨_, k0_off82_inb g 9, k0_off82_eq g 9, rfl⟩ (
          List.Forall₂.cons ⟨_, k0_off81_inb g 9, k0_off81_eq g 9, rfl⟩ (
          List.Forall₂.cons ⟨_, k0_off84_inb g 8, k0_off84_eq g 8, rfl⟩ (
          List.Forall₂.cons ⟨_, k0_off83_inb g 8, k0_off83_eq g 8, rfl⟩ (
          List.Forall₂.cons ⟨_, k0_off82_inb g 8, k0_off82_eq g 8, rfl⟩ (
          List.Forall₂.cons ⟨_, k0_off81_inb g 8, k0_off81_eq g 8, rfl⟩ (
          List.Forall₂.cons ⟨_, k0_off84_inb g 7, k0_off84_eq g 7, rfl⟩ (
          List.Forall₂.cons ⟨_, k0_off83_inb g 7, k0_off83_eq g 7, rfl⟩ (
          List.Forall₂.cons ⟨_, k0_off82_inb g 7, k0_off82_eq g 7, rfl⟩ (
          List.Forall₂.cons ⟨_, k0_off81_inb g 7, k0_off81_eq g 7, rfl⟩ (
          List.Forall₂.cons ⟨_, k0_off84_inb g 6, k0_off84_eq g 6, rfl⟩ (
          List.Forall₂.cons ⟨_, k0_off83_inb g 6, k0_off83_eq g 6, rfl⟩ (
          List.Forall₂.cons ⟨_, k0_off82_inb g 6, k0_off82_eq g 6, rfl⟩ (
          List.Forall₂.cons ⟨_, k0_off81_inb g 6, k0_off81_eq g 6, rfl⟩ (
          List.Forall₂.cons ⟨_, k0_off84_inb g 5, k0_off84_eq g 5, rfl⟩ (
          List.Forall₂.cons ⟨_, k0_off83_inb g 5, k0_off83_eq g 5, rfl⟩ (
          List.Forall₂.cons ⟨_, k0_off82_inb g 5, k0_off82_eq g 5, rfl⟩ (
          List.Forall₂.cons ⟨_, k0_off81_inb g 5, k0_off81_eq g 5, rfl⟩ (
          List.Forall₂.cons ⟨_, k0_off84_inb g 4, k0_off84_eq g 4, rfl⟩ (
          List.Forall₂.cons ⟨_, k0_off83_inb g 4, k0_off83_eq g 4, rfl⟩ (
          List.Forall₂.cons ⟨_, k0_off82_inb g 4, k0_off82_eq g 4, rfl⟩ (
          List.Forall₂.cons ⟨_, k0_off81_inb g 4, k0_off81_eq g 4, rfl⟩ (
          List.Forall₂.cons ⟨_, k0_off84_inb g 3, k0_off84_eq g 3, rfl⟩ (
          List.Forall₂.cons ⟨_, k0_off83_inb g 3, k0_off83_eq g 3, rfl⟩ (
          List.Forall₂.cons ⟨_, k0_off82_inb g 3, k0_off82_eq g 3, rfl⟩ (
          List.Forall₂.cons ⟨_, k0_off81_inb g 3, k0_off81_eq g 3, rfl⟩ (
          List.Forall₂.cons ⟨_, k0_off84_inb g 2, k0_off84_eq g 2, rfl⟩ (
          List.Forall₂.cons ⟨_, k0_off83_inb g 2, k0_off83_eq g 2, rfl⟩ (
          List.Forall₂.cons ⟨_, k0_off82_inb g 2, k0_off82_eq g 2, rfl⟩ (
          List.Forall₂.cons ⟨_, k0_off81_inb g 2, k0_off81_eq g 2, rfl⟩ (
          List.Forall₂.cons ⟨_, k0_off84_inb g 1, k0_off84_eq g 1, rfl⟩ (
          List.Forall₂.cons ⟨_, k0_off83_inb g 1, k0_off83_eq g 1, rfl⟩ (
          List.Forall₂.cons ⟨_, k0_off82_inb g 1, k0_off82_eq g 1, rfl⟩ (
          List.Forall₂.cons ⟨_, k0_off81_inb g 1, k0_off81_eq g 1, rfl⟩ (
          List.Forall₂.cons ⟨_, k0_off84_inb g 0, k0_off84_eq g 0, rfl⟩ (
          List.Forall₂.cons ⟨_, k0_off83_inb g 0, k0_off83_eq g 0, rfl⟩ (
          List.Forall₂.cons ⟨_, k0_off82_inb g 0, k0_off82_eq g 0, rfl⟩ (
          List.Forall₂.cons ⟨_, k0_off81_inb g 0, k0_off81_eq g 0, rfl⟩ (List.Forall₂.nil)))))))))))))))))))))))))))))))))))))))))))))))))))))))))))))))))
        hf

theorem grp_17_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_17 (F := F) d L Y f₀ tv 0 acc := by
  unfold invG_17
  iintro ⟨Hk, Hout⟩
  isplitl [Hk]
  · iexact Hk
  · iexists _
    isplitr [Hout]
    swap
    · iexact Hout
    · ipureintro
      exact grpUpTo_zero 3 1 tv Y f₀

end Cert.Proof.KI

end
-- ==== Proof.KIGlue.lean ====
/-
  From the loops' invariants to the rows of the result.

  A pair of inner loops fills the two rows of a row scratch buffer; the token scratch holds the token words of the eight
  rows of bits in the input scratch; the coefficient vectors every trip is handed are formed, before the pair loop, from
  sixteen vectors loaded from the table scratch.  Put together: after a pair's two loops the row scratch holds two
  rows of the result function.
-/
import proofs.«206263_g65532611002545_cont_9to1c4b_62_29_alg».proof.Proof.KIGrp
import proofs.«206263_g65532611002545_cont_9to1c4b_62_29_alg».proof.Proof.KIOutv
import proofs.«206263_g65532611002545_cont_9to1c4b_62_29_alg».proof.Proof.KIFacts
import Idealize.ShloMosaic.Lib.Pipeline.Value

noncomputable section

namespace Cert.Proof.KI

open Cert.KernelIdeal Cert.KernelIdeal.Gen
open Idealize.ShloMosaic Idealize.ShloMosaic.ValueIdx

/-- The two loops of a pair: the first fills row 0 from the buffer as it was, the second fills row 1 from what the first
    left (and leaves row 0 as the first left it); together every site of both rows holds its interpolation. -/
theorem grpUpTo_pair {F : FTy → Type} [FloatOps F] (oc : Fin 4) (tv : Fin 4 → Fin 4 → FVec F S16 .f32) (Y : IVec S1600 32)
    (f₀ f f' : FVec F S2x200x64 .f32) (h0 : GrpUpTo oc 0 tv Y f₀ f 13) (h1 : GrpUpTo oc 1 tv Y f f' 13) :
    ∀ (r2 : Fin 2) (s : Fin 200) (k : Fin 64),
      f' (ix3 (n0 := 2) (n1 := 200) (n2 := 64) r2 s k)
        = lane' (tv 0 ⟨k.val / 16, by omega⟩ (ix1 (n := 16) ⟨k.val % 16, by omega⟩))
            (tv 1 ⟨k.val / 16, by omega⟩ (ix1 (n := 16) ⟨k.val % 16, by omega⟩))
            (tv 2 ⟨k.val / 16, by omega⟩ (ix1 (n := 16) ⟨k.val % 16, by omega⟩))
            (tv 3 ⟨k.val / 16, by omega⟩ (ix1 (n := 16) ⟨k.val % 16, by omega⟩))
            (Y (ix1 (n := 1600) ⟨400 * oc.val + 200 * r2.val + s.val, by omega⟩)) := by
  intro r2 s k
  match r2 with
  | ⟨0, _⟩ =>
    have e : f' (ix3 (n0 := 2) (n1 := 200) (n2 := 64) (0 : Fin 2) s k) = f (ix3 (n0 := 2) (n1 := 200) (n2 := 64) (0 : Fin 2) s k) :=
      h1.2 _ (by show (0 : Fin 2) ≠ 1; decide)
    exact e.trans ((grpUpTo_exit oc 0 tv Y f₀ f h0).1 s k)
  | ⟨1, _⟩ => exact (grpUpTo_exit oc 1 tv Y f f' h1).1 s k

/-- Two rows of results from a pair of loops: with the input scratch holding rows row … row + 7 of the bits and the
    token scratch their token words, the row scratch after the pair's two loops holds rows row + 2·oc and row + 2·oc + 1
    of the result function. -/
theorem pair_rows {F : FTy → Type} [FloatOps F] (n : IVec S4096x400 32) (X : FVec F S256 .f32) (R : FVec F S4096x200x64 .f32) (hR : R = kout n X)
    (row : ℕ) (fd : IVec S8x400 32) (hfd : NvOK n row fd) (Y : IVec S1600 32)
    (hY : ∀ (r : Fin 8) (s : Fin 200), Y (ix1 (n := 1600) ⟨200 * r.val + s.val, by omega⟩)
      = Scalar.addi (Scalar.addi (fd (ix2 (n0 := 8) (n1 := 400) r ⟨200 + s.val, by omega⟩)) (fd (ix2 (n0 := 8) (n1 := 400) r ⟨s.val, by omega⟩)))
          (fd (ix2 (n0 := 8) (n1 := 400) r ⟨s.val, by omega⟩)))
    (tv : Fin 4 → Fin 4 → FVec F S16 .f32) (htv : tv = tvOf X) (oc : Fin 4) (f₀ f₁ f₂ : FVec F S2x200x64 .f32)
    (ha : GrpUpTo oc 0 tv Y f₀ f₁ 13) (hb : GrpUpTo oc 1 tv Y f₁ f₂ 13) : OutvOK R (row + 2 * oc.val) f₂ := by
  obtain ⟨hrow, hfd'⟩ := hfd
  subst hR htv
  have hoc := oc.isLt
  refine ⟨by omega, fun r2 s c => ?_⟩
  exact out_rows n X Y f₂ row hrow oc (fun r s => (hY r s).trans (tokWord_of_landed n fd row hrow hfd' r s))
    (grpUpTo_pair oc (tvOf X) Y f₀ f₁ f₂ ha hb) r2 s c

/-! ## The coefficient vectors a trip is handed -/

section Trip

variable {F : FTy → Type} [FloatOps F]

/-- The sixteen coefficient vectors the pair loop's region hands an inner loop, from the sixteen table vectors (rows
    0 … 3 in lane blocks 0 … 3: v4 v6 v8 v10, v12 … v18, v20 … v26, v28 … v34) and the three differences formed before
    the loop (v35 v36 v37). -/
abbrev tvTrip (v4 v6 v8 v10 v12 v14 v16 v18 v20 v22 v24 v26 v28 v30 v32 v34 v35 v36 v37 : FVec F S16 .f32) : Fin 4 → Fin 4 → FVec F S16 .f32 :=
  tvLoc v4 v6 v8 v10 v35 v36 v37 (k0_pay1 v10 v18) (k0_pay2 v4 v20) (k0_pay3 v6 v22) (k0_pay4 v8 v24) (k0_pay5 v10 v26)
    (k0_pay6 v4 v12 v20 v28) (k0_pay7 v6 v14 v22 v30) (k0_pay8 v8 v16 v24 v32) (k0_pay9 v10 v18 v26 v34)

/-- The sixteen table vectors are the table's rows in lane blocks, and the three differences are row 1 − row 0 in
    blocks 0, 1, 2. -/
structure TabVecs (X : FVec F S256 .f32) (v4 v6 v8 v10 v12 v14 v16 v18 v20 v22 v24 v26 v28 v30 v32 v34 v35 v36 v37 : FVec F S16 .f32) : Prop where
  h4 : v4 = tabRow X 0 0
  h6 : v6 = tabRow X 0 1
  h8 : v8 = tabRow X 0 2
  h10 : v10 = tabRow X 0 3
  h12 : v12 = tabRow X 1 0
  h14 : v14 = tabRow X 1 1
  h16 : v16 = tabRow X 1 2
  h18 : v18 = tabRow X 1 3
  h20 : v20 = tabRow X 2 0
  h22 : v22 = tabRow X 2 1
  h24 : v24 = tabRow X 2 2
  h26 : v26 = tabRow X 2 3
  h28 : v28 = tabRow X 3 0
  h30 : v30 = tabRow X 3 1
  h32 : v32 = tabRow X 3 2
  h34 : v34 = tabRow X 3 3
  h35 : v35 = subf v12 v4
  h36 : v36 = subf v14 v6
  h37 : v37 = subf v16 v8

/-- With the table vectors the table's rows, the trip's coefficient vectors are the table's coefficient vectors. -/
theorem tvTrip_eq (X : FVec F S256 .f32) {v4 v6 v8 v10 v12 v14 v16 v18 v20 v22 v24 v26 v28 v30 v32 v34 v35 v36 v37 : FVec F S16 .f32}
    (h4 : v4 = tabRow X 0 0) (h6 : v6 = tabRow X 0 1) (h8 : v8 = tabRow X 0 2) (h10 : v10 = tabRow X 0 3) (h12 : v12 = tabRow X 1 0) (h14 : v14 = tabRow X 1 1) (h16 : v16 = tabRow X 1 2) (h18 : v18 = tabRow X 1 3) (h20 : v20 = tabRow X 2 0) (h22 : v22 = tabRow X 2 1) (h24 : v24 = tabRow X 2 2) (h26 : v26 = tabRow X 2 3) (h28 : v28 = tabRow X 3 0) (h30 : v30 = tabRow X 3 1) (h32 : v32 = tabRow X 3 2) (h34 : v34 = tabRow X 3 3)
    (h35 : v35 = subf v12 v4) (h36 : v36 = subf v14 v6) (h37 : v37 = subf v16 v8) :
    tvTrip v4 v6 v8 v10 v12 v14 v16 v18 v20 v22 v24 v26 v28 v30 v32 v34 v35 v36 v37 = tvOf X := by
  subst h35 h36 h37
  subst h4 h6 h8 h10 h12 h14 h16 h18 h20 h22 h24 h26 h28 h30 h32 h34
  funext r kk
  fin_cases r <;> fin_cases kk <;> rfl

theorem tvTrip_eq_of (X : FVec F S256 .f32) {v4 v6 v8 v10 v12 v14 v16 v18 v20 v22 v24 v26 v28 v30 v32 v34 v35 v36 v37 : FVec F S16 .f32}
    (h : TabVecs X v4 v6 v8 v10 v12 v14 v16 v18 v20 v22 v24 v26 v28 v30 v32 v34 v35 v36 v37) :
    tvTrip v4 v6 v8 v10 v12 v14 v16 v18 v20 v22 v24 v26 v28 v30 v32 v34 v35 v36 v37 = tvOf X :=
  tvTrip_eq X h.h4 h.h6 h.h8 h.h10 h.h12 h.h14 h.h16 h.h18 h.h20 h.h22 h.h24 h.h26 h.h28 h.h30 h.h32 h.h34 h.h35 h.h36 h.h37

/-- Sixteen words of the table scratch from offset 64·r + 16·kk are row r of the table in lane block kk. -/
theorem tabLoad_eq (X : FVec F S256 .f32) (b : ℕ) (inb : ∀ a, (![b] : Fin 1 → Nat) a + S16.size a ≤ S256.size a) (hc : S16.ShapeCasts S16)
    (r kk : Fin 4) (hb : b = 64 * r.val + 16 * kk.val) :
    shapeCast S16 (View.readAt (Elt F) (Memref.whole cc0_scratch10 : Memref sig .scVector .vmem S256 .f32).view
      (Rect.unit (s := S256) ![b] S16.size inb).toLoadRect X) hc = tabRow X r kk := by
  funext l
  rw [shapeCast_apply _ hc l l rfl]
  unfold tabRow flatIx
  exact congrArg X (funext fun a => match a with
    | ⟨0, _⟩ => Fin.ext (by show b + 1 * (l 0).val = 64 * r.val + (16 * kk.val + (l 0).val); omega))

/-- THE PROLOGUE: with the table scratch holding X, the sixteen vectors the kernel loads from it at offsets 0, 16, …, 240
    and the three differences it forms are the table's rows in lane blocks and their differences. -/
theorem prologue_rows (X : FVec F S256 .f32) :
    TabVecs X
      (k0_pay2871 (F := F) (View.readAt (Elt F) (Memref.whole cc0_scratch10 : Memref sig .scVector .vmem S256 .f32).view (Rect.unit (s := S256) ![0] S16.size inb_S256_S16_0).toLoadRect X))
      (k0_pay2872 (F := F) (View.readAt (Elt F) (Memref.whole cc0_scratch10 : Memref sig .scVector .vmem S256 .f32).view (Rect.unit (s := S256) ![16] S16.size inb_S256_S16_16).toLoadRect X))
      (k0_pay2873 (F := F) (View.readAt (Elt F) (Memref.whole cc0_scratch10 : Memref sig .scVector .vmem S256 .f32).view (Rect.unit (s := S256) ![32] S16.size inb_S256_S16_32).toLoadRect X))
      (k0_pay2874 (F := F) (View.readAt (Elt F) (Memref.whole cc0_scratch10 : Memref sig .scVector .vmem S256 .f32).view (Rect.unit (s := S256) ![48] S16.size inb_S256_S16_48).toLoadRect X))
      (k0_pay2875 (F := F) (View.readAt (Elt F) (Memref.whole cc0_scratch10 : Memref sig .scVector .vmem S256 .f32).view (Rect.unit (s := S256) ![64] S16.size inb_S256_S16_64).toLoadRect X))
      (k0_pay2876 (F := F) (View.readAt (Elt F) (Memref.whole cc0_scratch10 : Memref sig .scVector .vmem S256 .f32).view (Rect.unit (s := S256) ![80] S16.size inb_S256_S16_80).toLoadRect X))
      (k0_pay2877 (F := F) (View.readAt (Elt F) (Memref.whole cc0_scratch10 : Memref sig .scVector .vmem S256 .f32).view (Rect.unit (s := S256) ![96] S16.size inb_S256_S16_96).toLoadRect X))
      (k0_pay2878 (F := F) (View.readAt (Elt F) (Memref.whole cc0_scratch10 : Memref sig .scVector .vmem S256 .f32).view (Rect.unit (s := S256) ![112] S16.size inb_S256_S16_112).toLoadRect X))
      (k0_pay2879 (F := F) (View.readAt (Elt F) (Memref.whole cc0_scratch10 : Memref sig .scVector .vmem S256 .f32).view (Rect.unit (s := S256) ![128] S16.size inb_S256_S16_128).toLoadRect X))
      (k0_pay2880 (F := F) (View.readAt (Elt F) (Memref.whole cc0_scratch10 : Memref sig .scVector .vmem S256 .f32).view (Rect.unit (s := S256) ![144] S16.size inb_S256_S16_144).toLoadRect X))
      (k0_pay2881 (F := F) (View.readAt (Elt F) (Memref.whole cc0_scratch10 : Memref sig .scVector .vmem S256 .f32).view (Rect.unit (s := S256) ![160] S16.size inb_S256_S16_160).toLoadRect X))
      (k0_pay2882 (F := F) (View.readAt (Elt F) (Memref.whole cc0_scratch10 : Memref sig .scVector .vmem S256 .f32).view (Rect.unit (s := S256) ![176] S16.size inb_S256_S16_176).toLoadRect X))
      (k0_pay2883 (F := F) (View.readAt (Elt F) (Memref.whole cc0_scratch10 : Memref sig .scVector .vmem S256 .f32).view (Rect.unit (s := S256) ![192] S16.size inb_S256_S16_192).toLoadRect X))
      (k0_pay2884 (F := F) (View.readAt (Elt F) (Memref.whole cc0_scratch10 : Memref sig .scVector .vmem S256 .f32).view (Rect.unit (s := S256) ![208] S16.size inb_S256_S16_208).toLoadRect X))
      (k0_pay2885 (F := F) (View.readAt (Elt F) (Memref.whole cc0_scratch10 : Memref sig .scVector .vmem S256 .f32).view (Rect.unit (s := S256) ![224] S16.size inb_S256_S16_224).toLoadRect X))
      (k0_pay2886 (F := F) (View.readAt (Elt F) (Memref.whole cc0_scratch10 : Memref sig .scVector .vmem S256 .f32).view (Rect.unit (s := S256) ![240] S16.size inb_S256_S16_240).toLoadRect X))
      (k0_pay2887 (F := F) (View.readAt (Elt F) (Memref.whole cc0_scratch10 : Memref sig .scVector .vmem S256 .f32).view (Rect.unit (s := S256) ![0] S16.size inb_S256_S16_0).toLoadRect X) (View.readAt (Elt F) (Memref.whole cc0_scratch10 : Memref sig .scVector .vmem S256 .f32).view (Rect.unit (s := S256) ![64] S16.size inb_S256_S16_64).toLoadRect X))
      (k0_pay2888 (F := F) (View.readAt (Elt F) (Memref.whole cc0_scratch10 : Memref sig .scVector .vmem S256 .f32).view (Rect.unit (s := S256) ![16] S16.size inb_S256_S16_16).toLoadRect X) (View.readAt (Elt F) (Memref.whole cc0_scratch10 : Memref sig .scVector .vmem S256 .f32).view (Rect.unit (s := S256) ![80] S16.size inb_S256_S16_80).toLoadRect X))
      (k0_pay2889 (F := F) (View.readAt (Elt F) (Memref.whole cc0_scratch10 : Memref sig .scVector .vmem S256 .f32).view (Rect.unit (s := S256) ![32] S16.size inb_S256_S16_32).toLoadRect X) (View.readAt (Elt F) (Memref.whole cc0_scratch10 : Memref sig .scVector .vmem S256 .f32).view (Rect.unit (s := S256) ![96] S16.size inb_S256_S16_96).toLoadRect X)) where
  h4 := tabLoad_eq X 0 inb_S256_S16_0 shapeCasts_S16_S16 0 0 rfl
  h6 := tabLoad_eq X 16 inb_S256_S16_16 shapeCasts_S16_S16 0 1 rfl
  h8 := tabLoad_eq X 32 inb_S256_S16_32 shapeCasts_S16_S16 0 2 rfl
  h10 := tabLoad_eq X 48 inb_S256_S16_48 shapeCasts_S16_S16 0 3 rfl
  h12 := tabLoad_eq X 64 inb_S256_S16_64 shapeCasts_S16_S16 1 0 rfl
  h14 := tabLoad_eq X 80 inb_S256_S16_80 shapeCasts_S16_S16 1 1 rfl
  h16 := tabLoad_eq X 96 inb_S256_S16_96 shapeCasts_S16_S16 1 2 rfl
  h18 := tabLoad_eq X 112 inb_S256_S16_112 shapeCasts_S16_S16 1 3 rfl
  h20 := tabLoad_eq X 128 inb_S256_S16_128 shapeCasts_S16_S16 2 0 rfl
  h22 := tabLoad_eq X 144 inb_S256_S16_144 shapeCasts_S16_S16 2 1 rfl
  h24 := tabLoad_eq X 160 inb_S256_S16_160 shapeCasts_S16_S16 2 2 rfl
  h26 := tabLoad_eq X 176 inb_S256_S16_176 shapeCasts_S16_S16 2 3 rfl
  h28 := tabLoad_eq X 192 inb_S256_S16_192 shapeCasts_S16_S16 3 0 rfl
  h30 := tabLoad_eq X 208 inb_S256_S16_208 shapeCasts_S16_S16 3 1 rfl
  h32 := tabLoad_eq X 224 inb_S256_S16_224 shapeCasts_S16_S16 3 2 rfl
  h34 := tabLoad_eq X 240 inb_S256_S16_240 shapeCasts_S16_S16 3 3 rfl
  h35 := rfl
  h36 := rfl
  h37 := rfl

end Trip

end Cert.Proof.KI

end
-- ==== Proof.KITrip0.lean ====
/-
  One trip of the pair loop (the first: nothing to drain),
  from the invariant before it to the invariant after it.
-/
import proofs.«206263_g65532611002545_cont_9to1c4b_62_29_alg».proof.Proof.KITripLemmas
import proofs.«206263_g65532611002545_cont_9to1c4b_62_29_alg».proof.Proof.KIGlue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_first (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (hkv : 0 < k0_t1_loop.trips) (acc : BitVec 32) :
    invP m d L O W X R 0 acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 ⟨0, hkv⟩ acc) (invP m d L O W X R (0 + 1)) := by
  have k0_h1 : k0_cond1 ⟨0, hkv⟩ = 1#1 := cond1_lt ⟨0, hkv⟩ (show (0 : ℕ) < 7 from by decide)
  have k0_h4 : k0_cond4 ⟨0, hkv⟩ = 1#1 := cond4_lt ⟨0, hkv⟩ (show (0 : ℕ) < 7 from by decide)
  unfold invP InSt0 InSt1
  rw [if_pos (show (0 : ℕ) < 8 from by decide), if_pos (show (0 : ℕ) < 8 from by decide), if_pos (show (0 + 1 : ℕ) < 8 from by decide), if_pos (show (0 + 1 : ℕ) < 8 from by decide)]
  unfold OutSt InFl0 InFl1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%g2, Hb2⟩, ⟨%g7, Hb7⟩, Hs4, Hs9⟩, Htodo, Hdone, %W', %hW', HO⟩
  ihave Hsp := (todo_split (F := F) d L (m (oLoc d)) ⟨0, hkv⟩).1 $$ Htodo
  icases Hsp with ⟨⟨Hc00, Hc01, Hc02, Hc03, Hc10, Hc11, Hc12, Hc13⟩, Htodo⟩
  sl_exec_parts
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 g2 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts
  sl_for (invG_4 (F := F) d L Y0 g7 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * 0) + 2 * (0 : Fin 4).val) f3 :=
    pair_rows (F := F) (m (nLoc d)) X R hR (B0 L + 16 * 0) fd0 hfd0 Y0 hY0 _ htv (0 : Fin 4) _ _ f3 (by have h := hf2; rw [e13_2] at h; exact h) (by have h := hf3; rw [e13_3] at h; exact h)
  have hv01 : OutvOK R ((B0 L + 16 * 0) + 2 * (1 : Fin 4).val) f5 :=
    pair_rows (F := F) (m (nLoc d)) X R hR (B0 L + 16 * 0) fd0 hfd0 Y0 hY0 _ htv (1 : Fin 4) _ _ f5 (by have h := hf4; rw [e13_4] at h; exact h) (by have h := hf5; rw [e13_5] at h; exact h)
  have hv02 : OutvOK R ((B0 L + 16 * 0) + 2 * (2 : Fin 4).val) f7 :=
    pair_rows (F := F) (m (nLoc d)) X R hR (B0 L + 16 * 0) fd0 hfd0 Y0 hY0 _ htv (2 : Fin 4) _ _ f7 (by have h := hf6; rw [e13_6] at h; exact h) (by have h := hf7; rw [e13_7] at h; exact h)
  have hv03 : OutvOK R ((B0 L + 16 * 0) + 2 * (3 : Fin 4).val) f9 :=
    pair_rows (F := F) (m (nLoc d)) X R hR (B0 L + 16 * 0) fd0 hfd0 Y0 hY0 _ htv (3 : Fin 4) _ _ f9 (by have h := hf8; rw [e13_8] at h; exact h) (by have h := hf9; rw [e13_9] at h; exact h)
  have hv10 : OutvOK R ((B0 L + 16 * 0 + 8) + 2 * (0 : Fin 4).val) f11 :=
    pair_rows (F := F) (m (nLoc d)) X R hR (B0 L + 16 * 0 + 8) fd1 hfd1 Y1 hY1 _ htv (0 : Fin 4) _ _ f11 (by have h := hf10; rw [e13_10] at h; exact h) (by have h := hf11; rw [e13_11] at h; exact h)
  have hv11 : OutvOK R ((B0 L + 16 * 0 + 8) + 2 * (1 : Fin 4).val) f13 :=
    pair_rows (F := F) (m (nLoc d)) X R hR (B0 L + 16 * 0 + 8) fd1 hfd1 Y1 hY1 _ htv (1 : Fin 4) _ _ f13 (by have h := hf12; rw [e13_12] at h; exact h) (by have h := hf13; rw [e13_13] at h; exact h)
  have hv12 : OutvOK R ((B0 L + 16 * 0 + 8) + 2 * (2 : Fin 4).val) f15 :=
    pair_rows (F := F) (m (nLoc d)) X R hR (B0 L + 16 * 0 + 8) fd1 hfd1 Y1 hY1 _ htv (2 : Fin 4) _ _ f15 (by have h := hf14; rw [e13_14] at h; exact h) (by have h := hf15; rw [e13_15] at h; exact h)
  have hv13 : OutvOK R ((B0 L + 16 * 0 + 8) + 2 * (3 : Fin 4).val) f17 :=
    pair_rows (F := F) (m (nLoc d)) X R hR (B0 L + 16 * 0 + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ ⟨0, hkv⟩)) $$ Hc00
  ihave Hc00 := (chunk_land2 (F := F) d L ⟨0, hkv⟩ (⟨0, by decide⟩ : Fin 2) (⟨0, by decide⟩ : Fin 4) _ f3 R (B0 L + 16 * (⟨0, hkv⟩ : Fin k0_t1_loop.trips).val) (B0 L + 16 * (⟨0, hkv⟩ : Fin k0_t1_loop.trips).val + 2) (B0 L + 16 * 0) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ ⟨0, hkv⟩)) $$ Hc01
  ihave Hc01 := (chunk_land7 (F := F) d L ⟨0, hkv⟩ (⟨0, by decide⟩ : Fin 2) (⟨1, by decide⟩ : Fin 4) _ f5 R (B0 L + 16 * (⟨0, hkv⟩ : Fin k0_t1_loop.trips).val + 2) (B0 L + 16 * (⟨0, hkv⟩ : Fin k0_t1_loop.trips).val + 4) (B0 L + 16 * 0) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ ⟨0, hkv⟩)) $$ Hc02
  ihave Hc02 := (chunk_land2 (F := F) d L ⟨0, hkv⟩ (⟨0, by decide⟩ : Fin 2) (⟨2, by decide⟩ : Fin 4) _ f7 R (B0 L + 16 * (⟨0, hkv⟩ : Fin k0_t1_loop.trips).val + 4) (B0 L + 16 * (⟨0, hkv⟩ : Fin k0_t1_loop.trips).val + 6) (B0 L + 16 * 0) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ ⟨0, hkv⟩)) $$ Hc03
  ihave Hc03 := (chunk_land7 (F := F) d L ⟨0, hkv⟩ (⟨0, by decide⟩ : Fin 2) (⟨3, by decide⟩ : Fin 4) _ f9 R (B0 L + 16 * (⟨0, hkv⟩ : Fin k0_t1_loop.trips).val + 6) (B0 L + 16 * (⟨0, hkv⟩ : Fin k0_t1_loop.trips).val + 8) (B0 L + 16 * 0) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ ⟨0, hkv⟩)) $$ Hc10
  ihave Hc10 := (chunk_land2 (F := F) d L ⟨0, hkv⟩ (⟨1, by decide⟩ : Fin 2) (⟨0, by decide⟩ : Fin 4) _ f11 R (B0 L + 16 * (⟨0, hkv⟩ : Fin k0_t1_loop.trips).val + 8) (B0 L + 16 * (⟨0, hkv⟩ : Fin k0_t1_loop.trips).val + 10) (B0 L + 16 * 0 + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ ⟨0, hkv⟩)) $$ Hc11
  ihave Hc11 := (chunk_land7 (F := F) d L ⟨0, hkv⟩ (⟨1, by decide⟩ : Fin 2) (⟨1, by decide⟩ : Fin 4) _ f13 R (B0 L + 16 * (⟨0, hkv⟩ : Fin k0_t1_loop.trips).val + 10) (B0 L + 16 * (⟨0, hkv⟩ : Fin k0_t1_loop.trips).val + 12) (B0 L + 16 * 0 + 8) (by first | omega | (simp only [Fin.val_mk] <;> omega)) (by first | omega | (simp only [Fin.val_mk] <;> omega)) (by first | omega | (simp only [Fin.val_mk] <;> omega)) hv11) $$ Hc11
  ihave H6 := (six_join (F := F) d L R ⟨0, hkv⟩).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  icases Hdone with -
  ihave Hdone := (rows_respell (F := F) d R (a := (B0 L + 16 * (⟨0, hkv⟩ : Fin k0_t1_loop.trips).val)) (b := (B0 L + 16 * (⟨0, hkv⟩ : Fin k0_t1_loop.trips).val + 12)) (a' := B0 L) (b' := B0 L + 16 * 0 + 12) (by first | omega | (simp only [Fin.val_mk] <;> omega)) (by first | omega | (simp only [Fin.val_mk] <;> omega))) $$ H6
  ihave Hs4 := (flight_congr (F := F) d L (chunk_rows_12 (F := F) d L _ ⟨0, hkv⟩)) $$ Hs4
  ihave Hs9 := (flight_congr (F := F) d L (chunk_rows_13 (F := F) d L _ ⟨0, hkv⟩)) $$ Hs9
  isplitl [Hmw]; · iexact Hmw
  isplitl [Hf0 Hr0]
  · iexists _; iexists _
    isplitr
    · ipureintro
      exact land_ok0 (F := F) (k0_off2 L ⟨0, hkv⟩) (k0_off2_inb L ⟨0, hkv⟩ k0_h1) (m (nLoc d)) fd0 _ (off2_row L ⟨0, hkv⟩).1 (off2_row L ⟨0, hkv⟩).2
    isplitl [Hf0]; · iexact Hf0
    iexact Hr0
  isplitl [Hf1 Hr1]
  · iexists _; iexists _
    isplitr
    · ipureintro
      exact land_ok5 (F := F) (k0_off44 L ⟨0, hkv⟩) (k0_off44_inb L ⟨0, hkv⟩ k0_h4) (m (nLoc d)) fd1 _ (off44_row L ⟨0, hkv⟩).1 (off44_row L ⟨0, hkv⟩).2
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L ⟨0, hkv⟩ (⟨1, by decide⟩ : Fin 2) (⟨2, by decide⟩ : Fin 4) (m (oLoc d)) f15 R (B0 L + 16 * (⟨0, hkv⟩ : Fin k0_t1_loop.trips).val + 12) (B0 L + 16 * (⟨0, hkv⟩ : Fin k0_t1_loop.trips).val + 14) (B0 L + 16 * 0 + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L ⟨0, hkv⟩ (⟨1, by decide⟩ : Fin 2) (⟨3, by decide⟩ : Fin 4) (m (oLoc d)) f17 R (B0 L + 16 * (⟨0, hkv⟩ : Fin k0_t1_loop.trips).val + 14) (B0 L + 16 * (⟨0, hkv⟩ : Fin k0_t1_loop.trips).val + 16) (B0 L + 16 * 0 + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KI

end
-- ==== Proof.KITrip1.lean ====
/-
  One trip of the pair loop (a middle one: the previous trip's last two write-outs are drained, both input slots refilled),
  from the invariant before it to the invariant after it.
-/
import proofs.«206263_g65532611002545_cont_9to1c4b_62_29_alg».proof.Proof.KITripLemmas
import proofs.«206263_g65532611002545_cont_9to1c4b_62_29_alg».proof.Proof.KIGlue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_mid (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (k : Fin k0_t1_loop.trips) (k' : ℕ) (hk : k.val = k' + 1) (hk7 : k.val < 7) (acc : BitVec 32) :
    invP m d L O W X R k.val acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 k acc) (invP m d L O W X R (k.val + 1)) := by
  have k0_h1 : k0_cond1 k = 1#1 := cond1_lt k hk7
  have k0_h4 : k0_cond4 k = 1#1 := cond4_lt k hk7
  have hk0 : 0 < k.val := by omega
  unfold invP InSt0 InSt1
  rw [if_pos (show k.val < 8 from by omega), if_pos (show k.val < 8 from by omega), if_pos (show k.val + 1 < 8 from by omega), if_pos (show k.val + 1 < 8 from by omega)]
  rw [show OutSt (F := F) d L R k.val = OutSt (F := F) d L R (k' + 1) from by rw [hk]]
  rw [show doneEnd L k.val = B0 L + 16 * k' + 12 from by rw [hk]; rfl]
  unfold OutSt InFl0 InFl1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  ihave Hsp := (todo_split (F := F) d L (m (oLoc d)) k).1 $$ Htodo
  icases Hsp with ⟨⟨Hc00, Hc01, Hc02, Hc03, Hc10, Hc11, Hc12, Hc13⟩, Htodo⟩
  sl_exec_parts (disch := (sl_unfold_run_names; clear * - k hk0; revert hk0; revert k; decide +kernel))
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 fo0 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts (disch := (sl_unfold_run_names; clear * - k hk0; revert hk0; revert k; decide +kernel))
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts (disch := (sl_unfold_run_names; clear * - k hk0; revert hk0; revert k; decide +kernel))
  sl_for (invG_4 (F := F) d L Y0 fo1 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts (disch := (sl_unfold_run_names; clear * - k hk0; revert hk0; revert k; decide +kernel))
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts (disch := (sl_unfold_run_names; clear * - k hk0; revert hk0; revert k; decide +kernel))
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts (disch := (sl_unfold_run_names; clear * - k hk0; revert hk0; revert k; decide +kernel))
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts (disch := (sl_unfold_run_names; clear * - k hk0; revert hk0; revert k; decide +kernel))
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts (disch := (sl_unfold_run_names; clear * - k hk0; revert hk0; revert k; decide +kernel))
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts (disch := (sl_unfold_run_names; clear * - k hk0; revert hk0; revert k; decide +kernel))
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts (disch := (sl_unfold_run_names; clear * - k hk0; revert hk0; revert k; decide +kernel))
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts (disch := (sl_unfold_run_names; clear * - k hk0; revert hk0; revert k; decide +kernel))
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts (disch := (sl_unfold_run_names; clear * - k hk0; revert hk0; revert k; decide +kernel))
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts (disch := (sl_unfold_run_names; clear * - k hk0; revert hk0; revert k; decide +kernel))
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts (disch := (sl_unfold_run_names; clear * - k hk0; revert hk0; revert k; decide +kernel))
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts (disch := (sl_unfold_run_names; clear * - k hk0; revert hk0; revert k; decide +kernel))
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts (disch := (sl_unfold_run_names; clear * - k hk0; revert hk0; revert k; decide +kernel))
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts (disch := (sl_unfold_run_names; clear * - k hk0; revert hk0; revert k; decide +kernel))
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * k.val) + 2 * (0 : Fin 4).val) f3 :=
    pair_rows (F := F) (m (nLoc d)) X R hR (B0 L + 16 * k.val) fd0 hfd0 Y0 hY0 _ htv (0 : Fin 4) _ _ f3 (by have h := hf2; rw [e13_2] at h; exact h) (by have h := hf3; rw [e13_3] at h; exact h)
  have hv01 : OutvOK R ((B0 L + 16 * k.val) + 2 * (1 : Fin 4).val) f5 :=
    pair_rows (F := F) (m (nLoc d)) X R hR (B0 L + 16 * k.val) fd0 hfd0 Y0 hY0 _ htv (1 : Fin 4) _ _ f5 (by have h := hf4; rw [e13_4] at h; exact h) (by have h := hf5; rw [e13_5] at h; exact h)
  have hv02 : OutvOK R ((B0 L + 16 * k.val) + 2 * (2 : Fin 4).val) f7 :=
    pair_rows (F := F) (m (nLoc d)) X R hR (B0 L + 16 * k.val) fd0 hfd0 Y0 hY0 _ htv (2 : Fin 4) _ _ f7 (by have h := hf6; rw [e13_6] at h; exact h) (by have h := hf7; rw [e13_7] at h; exact h)
  have hv03 : OutvOK R ((B0 L + 16 * k.val) + 2 * (3 : Fin 4).val) f9 :=
    pair_rows (F := F) (m (nLoc d)) X R hR (B0 L + 16 * k.val) fd0 hfd0 Y0 hY0 _ htv (3 : Fin 4) _ _ f9 (by have h := hf8; rw [e13_8] at h; exact h) (by have h := hf9; rw [e13_9] at h; exact h)
  have hv10 : OutvOK R ((B0 L + 16 * k.val + 8) + 2 * (0 : Fin 4).val) f11 :=
    pair_rows (F := F) (m (nLoc d)) X R hR (B0 L + 16 * k.val + 8) fd1 hfd1 Y1 hY1 _ htv (0 : Fin 4) _ _ f11 (by have h := hf10; rw [e13_10] at h; exact h) (by have h := hf11; rw [e13_11] at h; exact h)
  have hv11 : OutvOK R ((B0 L + 16 * k.val + 8) + 2 * (1 : Fin 4).val) f13 :=
    pair_rows (F := F) (m (nLoc d)) X R hR (B0 L + 16 * k.val + 8) fd1 hfd1 Y1 hY1 _ htv (1 : Fin 4) _ _ f13 (by have h := hf12; rw [e13_12] at h; exact h) (by have h := hf13; rw [e13_13] at h; exact h)
  have hv12 : OutvOK R ((B0 L + 16 * k.val + 8) + 2 * (2 : Fin 4).val) f15 :=
    pair_rows (F := F) (m (nLoc d)) X R hR (B0 L + 16 * k.val + 8) fd1 hfd1 Y1 hY1 _ htv (2 : Fin 4) _ _ f15 (by have h := hf14; rw [e13_14] at h; exact h) (by have h := hf15; rw [e13_15] at h; exact h)
  have hv13 : OutvOK R ((B0 L + 16 * k.val + 8) + 2 * (3 : Fin 4).val) f17 :=
    pair_rows (F := F) (m (nLoc d)) X R hR (B0 L + 16 * k.val + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ k)) $$ Hc00
  ihave Hc00 := (chunk_land2 (F := F) d L k (⟨0, by decide⟩ : Fin 2) (⟨0, by decide⟩ : Fin 4) _ f3 R (B0 L + 16 * k.val) (B0 L + 16 * k.val + 2) (B0 L + 16 * k.val) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ k)) $$ Hc01
  ihave Hc01 := (chunk_land7 (F := F) d L k (⟨0, by decide⟩ : Fin 2) (⟨1, by decide⟩ : Fin 4) _ f5 R (B0 L + 16 * k.val + 2) (B0 L + 16 * k.val + 4) (B0 L + 16 * k.val) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ k)) $$ Hc02
  ihave Hc02 := (chunk_land2 (F := F) d L k (⟨0, by decide⟩ : Fin 2) (⟨2, by decide⟩ : Fin 4) _ f7 R (B0 L + 16 * k.val + 4) (B0 L + 16 * k.val + 6) (B0 L + 16 * k.val) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ k)) $$ Hc03
  ihave Hc03 := (chunk_land7 (F := F) d L k (⟨0, by decide⟩ : Fin 2) (⟨3, by decide⟩ : Fin 4) _ f9 R (B0 L + 16 * k.val + 6) (B0 L + 16 * k.val + 8) (B0 L + 16 * k.val) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ k)) $$ Hc10
  ihave Hc10 := (chunk_land2 (F := F) d L k (⟨1, by decide⟩ : Fin 2) (⟨0, by decide⟩ : Fin 4) _ f11 R (B0 L + 16 * k.val + 8) (B0 L + 16 * k.val + 10) (B0 L + 16 * k.val + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ k)) $$ Hc11
  ihave Hc11 := (chunk_land7 (F := F) d L k (⟨1, by decide⟩ : Fin 2) (⟨1, by decide⟩ : Fin 4) _ f13 R (B0 L + 16 * k.val + 10) (B0 L + 16 * k.val + 12) (B0 L + 16 * k.val + 8) (by first | omega | (simp only [Fin.val_mk] <;> omega)) (by first | omega | (simp only [Fin.val_mk] <;> omega)) (by first | omega | (simp only [Fin.val_mk] <;> omega)) hv11) $$ Hc11
  ihave H6 := (six_join (F := F) d L R k).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  ihave Hl0 := (rows_to_R (F := F) d R gC0 hgC0) $$ Hs4_dst
  ihave Hl1 := (rows_to_R (F := F) d R gC1 hgC1) $$ Hs9_dst
  ihave J1 := (rows_join (F := F) d R (a := B0 L) (b := B0 L + 16 * k' + 12) (c := B0 L + 16 * k' + 14) (by omega) (by omega)) $$ [Hdone Hl0]
  · isplitl [Hdone]; · iexact Hdone
    iexact Hl0
  ihave J2 := (rows_join (F := F) d R (a := B0 L) (b := B0 L + 16 * k' + 14) (c := B0 L + 16 * k' + 16) (by omega) (by omega)) $$ [J1 Hl1]
  · isplitl [J1]; · iexact J1
    iexact Hl1
  ihave J2 := (rows_respell (F := F) d R (a := B0 L) (b := B0 L + 16 * k' + 16) (a' := B0 L) (b' := B0 L + 16 * k.val) rfl (by omega)) $$ J2
  ihave Hdone := (rows_join (F := F) d R (a := B0 L) (b := B0 L + 16 * k.val) (c := B0 L + 16 * k.val + 12) (by omega) (by omega)) $$ [J2 H6]
  · isplitl [J2]; · iexact J2
    iexact H6
  ihave Hs4 := (flight_congr (F := F) d L (chunk_rows_12 (F := F) d L _ k)) $$ Hs4
  ihave Hs9 := (flight_congr (F := F) d L (chunk_rows_13 (F := F) d L _ k)) $$ Hs9
  isplitl [Hmw]; · iexact Hmw
  isplitl [Hf0 Hr0]
  · iexists _; iexists _
    isplitr
    · ipureintro
      exact land_ok0 (F := F) (k0_off2 L k) (k0_off2_inb L k k0_h1) (m (nLoc d)) fd0 _ (off2_row L k).1 (off2_row L k).2
    isplitl [Hf0]; · iexact Hf0
    iexact Hr0
  isplitl [Hf1 Hr1]
  · iexists _; iexists _
    isplitr
    · ipureintro
      exact land_ok5 (F := F) (k0_off44 L k) (k0_off44_inb L k k0_h4) (m (nLoc d)) fd1 _ (off44_row L k).1 (off44_row L k).2
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L k (⟨1, by decide⟩ : Fin 2) (⟨2, by decide⟩ : Fin 4) (m (oLoc d)) f15 R (B0 L + 16 * k.val + 12) (B0 L + 16 * k.val + 14) (B0 L + 16 * k.val + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L k (⟨1, by decide⟩ : Fin 2) (⟨3, by decide⟩ : Fin 4) (m (oLoc d)) f17 R (B0 L + 16 * k.val + 14) (B0 L + 16 * k.val + 16) (B0 L + 16 * k.val + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KI

end
-- ==== Proof.KITrip7.lean ====
/-
  One trip of the pair loop (the last: the previous trip's write-outs are drained, no input slot is refilled),
  from the invariant before it to the invariant after it.
-/
import proofs.«206263_g65532611002545_cont_9to1c4b_62_29_alg».proof.Proof.KITripLemmas
import proofs.«206263_g65532611002545_cont_9to1c4b_62_29_alg».proof.Proof.KIGlue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_last (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (k : Fin k0_t1_loop.trips) (k' : ℕ) (hk : k.val = k' + 1) (hk7 : ¬ k.val < 7) (acc : BitVec 32) :
    invP m d L O W X R k.val acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 k acc) (invP m d L O W X R (k.val + 1)) := by
  have k0_h1 : ¬ k0_cond1 k = 1#1 := cond1_ge k hk7
  have k0_h4 : ¬ k0_cond4 k = 1#1 := cond4_ge k hk7
  have hk0 : 0 < k.val := by omega
  have hk8 : k.val < 8 := k.isLt.trans_le (by decide)
  unfold invP InSt0 InSt1
  rw [if_pos hk8, if_pos hk8, if_neg (show ¬ k.val + 1 < 8 from by omega), if_neg (show ¬ k.val + 1 < 8 from by omega)]
  rw [show OutSt (F := F) d L R k.val = OutSt (F := F) d L R (k' + 1) from by rw [hk]]
  rw [show doneEnd L k.val = B0 L + 16 * k' + 12 from by rw [hk]; rfl]
  unfold OutSt InFl0 InFl1 InHeld0 InHeld1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  ihave Hsp := (todo_split (F := F) d L (m (oLoc d)) k).1 $$ Htodo
  icases Hsp with ⟨⟨Hc00, Hc01, Hc02, Hc03, Hc10, Hc11, Hc12, Hc13⟩, Htodo⟩
  sl_exec_parts (disch := (sl_unfold_run_names; clear * - k hk0; revert hk0; revert k; decide +kernel))
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 fo0 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts (disch := (sl_unfold_run_names; clear * - k hk0; revert hk0; revert k; decide +kernel))
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts (disch := (sl_unfold_run_names; clear * - k hk0; revert hk0; revert k; decide +kernel))
  sl_for (invG_4 (F := F) d L Y0 fo1 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts (disch := (sl_unfold_run_names; clear * - k hk0; revert hk0; revert k; decide +kernel))
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts (disch := (sl_unfold_run_names; clear * - k hk0; revert hk0; revert k; decide +kernel))
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts (disch := (sl_unfold_run_names; clear * - k hk0; revert hk0; revert k; decide +kernel))
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts (disch := (sl_unfold_run_names; clear * - k hk0; revert hk0; revert k; decide +kernel))
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts (disch := (sl_unfold_run_names; clear * - k hk0; revert hk0; revert k; decide +kernel))
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts (disch := (sl_unfold_run_names; clear * - k hk0; revert hk0; revert k; decide +kernel))
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts (disch := (sl_unfold_run_names; clear * - k hk0; revert hk0; revert k; decide +kernel))
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts (disch := (sl_unfold_run_names; clear * - k hk0; revert hk0; revert k; decide +kernel))
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts (disch := (sl_unfold_run_names; clear * - k hk0; revert hk0; revert k; decide +kernel))
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts (disch := (sl_unfold_run_names; clear * - k hk0; revert hk0; revert k; decide +kernel))
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts (disch := (sl_unfold_run_names; clear * - k hk0; revert hk0; revert k; decide +kernel))
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts (disch := (sl_unfold_run_names; clear * - k hk0; revert hk0; revert k; decide +kernel))
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts (disch := (sl_unfold_run_names; clear * - k hk0; revert hk0; revert k; decide +kernel))
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts (disch := (sl_unfold_run_names; clear * - k hk0; revert hk0; revert k; decide +kernel))
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * k.val) + 2 * (0 : Fin 4).val) f3 :=
    pair_rows (F := F) (m (nLoc d)) X R hR (B0 L + 16 * k.val) fd0 hfd0 Y0 hY0 _ htv (0 : Fin 4) _ _ f3 (by have h := hf2; rw [e13_2] at h; exact h) (by have h := hf3; rw [e13_3] at h; exact h)
  have hv01 : OutvOK R ((B0 L + 16 * k.val) + 2 * (1 : Fin 4).val) f5 :=
    pair_rows (F := F) (m (nLoc d)) X R hR (B0 L + 16 * k.val) fd0 hfd0 Y0 hY0 _ htv (1 : Fin 4) _ _ f5 (by have h := hf4; rw [e13_4] at h; exact h) (by have h := hf5; rw [e13_5] at h; exact h)
  have hv02 : OutvOK R ((B0 L + 16 * k.val) + 2 * (2 : Fin 4).val) f7 :=
    pair_rows (F := F) (m (nLoc d)) X R hR (B0 L + 16 * k.val) fd0 hfd0 Y0 hY0 _ htv (2 : Fin 4) _ _ f7 (by have h := hf6; rw [e13_6] at h; exact h) (by have h := hf7; rw [e13_7] at h; exact h)
  have hv03 : OutvOK R ((B0 L + 16 * k.val) + 2 * (3 : Fin 4).val) f9 :=
    pair_rows (F := F) (m (nLoc d)) X R hR (B0 L + 16 * k.val) fd0 hfd0 Y0 hY0 _ htv (3 : Fin 4) _ _ f9 (by have h := hf8; rw [e13_8] at h; exact h) (by have h := hf9; rw [e13_9] at h; exact h)
  have hv10 : OutvOK R ((B0 L + 16 * k.val + 8) + 2 * (0 : Fin 4).val) f11 :=
    pair_rows (F := F) (m (nLoc d)) X R hR (B0 L + 16 * k.val + 8) fd1 hfd1 Y1 hY1 _ htv (0 : Fin 4) _ _ f11 (by have h := hf10; rw [e13_10] at h; exact h) (by have h := hf11; rw [e13_11] at h; exact h)
  have hv11 : OutvOK R ((B0 L + 16 * k.val + 8) + 2 * (1 : Fin 4).val) f13 :=
    pair_rows (F := F) (m (nLoc d)) X R hR (B0 L + 16 * k.val + 8) fd1 hfd1 Y1 hY1 _ htv (1 : Fin 4) _ _ f13 (by have h := hf12; rw [e13_12] at h; exact h) (by have h := hf13; rw [e13_13] at h; exact h)
  have hv12 : OutvOK R ((B0 L + 16 * k.val + 8) + 2 * (2 : Fin 4).val) f15 :=
    pair_rows (F := F) (m (nLoc d)) X R hR (B0 L + 16 * k.val + 8) fd1 hfd1 Y1 hY1 _ htv (2 : Fin 4) _ _ f15 (by have h := hf14; rw [e13_14] at h; exact h) (by have h := hf15; rw [e13_15] at h; exact h)
  have hv13 : OutvOK R ((B0 L + 16 * k.val + 8) + 2 * (3 : Fin 4).val) f17 :=
    pair_rows (F := F) (m (nLoc d)) X R hR (B0 L + 16 * k.val + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ k)) $$ Hc00
  ihave Hc00 := (chunk_land2 (F := F) d L k (⟨0, by decide⟩ : Fin 2) (⟨0, by decide⟩ : Fin 4) _ f3 R (B0 L + 16 * k.val) (B0 L + 16 * k.val + 2) (B0 L + 16 * k.val) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ k)) $$ Hc01
  ihave Hc01 := (chunk_land7 (F := F) d L k (⟨0, by decide⟩ : Fin 2) (⟨1, by decide⟩ : Fin 4) _ f5 R (B0 L + 16 * k.val + 2) (B0 L + 16 * k.val + 4) (B0 L + 16 * k.val) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ k)) $$ Hc02
  ihave Hc02 := (chunk_land2 (F := F) d L k (⟨0, by decide⟩ : Fin 2) (⟨2, by decide⟩ : Fin 4) _ f7 R (B0 L + 16 * k.val + 4) (B0 L + 16 * k.val + 6) (B0 L + 16 * k.val) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ k)) $$ Hc03
  ihave Hc03 := (chunk_land7 (F := F) d L k (⟨0, by decide⟩ : Fin 2) (⟨3, by decide⟩ : Fin 4) _ f9 R (B0 L + 16 * k.val + 6) (B0 L + 16 * k.val + 8) (B0 L + 16 * k.val) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ k)) $$ Hc10
  ihave Hc10 := (chunk_land2 (F := F) d L k (⟨1, by decide⟩ : Fin 2) (⟨0, by decide⟩ : Fin 4) _ f11 R (B0 L + 16 * k.val + 8) (B0 L + 16 * k.val + 10) (B0 L + 16 * k.val + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ k)) $$ Hc11
  ihave Hc11 := (chunk_land7 (F := F) d L k (⟨1, by decide⟩ : Fin 2) (⟨1, by decide⟩ : Fin 4) _ f13 R (B0 L + 16 * k.val + 10) (B0 L + 16 * k.val + 12) (B0 L + 16 * k.val + 8) (by first | omega | (simp only [Fin.val_mk] <;> omega)) (by first | omega | (simp only [Fin.val_mk] <;> omega)) (by first | omega | (simp only [Fin.val_mk] <;> omega)) hv11) $$ Hc11
  ihave H6 := (six_join (F := F) d L R k).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  ihave Hl0 := (rows_to_R (F := F) d R gC0 hgC0) $$ Hs4_dst
  ihave Hl1 := (rows_to_R (F := F) d R gC1 hgC1) $$ Hs9_dst
  ihave J1 := (rows_join (F := F) d R (a := B0 L) (b := B0 L + 16 * k' + 12) (c := B0 L + 16 * k' + 14) (by omega) (by omega)) $$ [Hdone Hl0]
  · isplitl [Hdone]; · iexact Hdone
    iexact Hl0
  ihave J2 := (rows_join (F := F) d R (a := B0 L) (b := B0 L + 16 * k' + 14) (c := B0 L + 16 * k' + 16) (by omega) (by omega)) $$ [J1 Hl1]
  · isplitl [J1]; · iexact J1
    iexact Hl1
  ihave J2 := (rows_respell (F := F) d R (a := B0 L) (b := B0 L + 16 * k' + 16) (a' := B0 L) (b' := B0 L + 16 * k.val) rfl (by omega)) $$ J2
  ihave Hdone := (rows_join (F := F) d R (a := B0 L) (b := B0 L + 16 * k.val) (c := B0 L + 16 * k.val + 12) (by omega) (by omega)) $$ [J2 H6]
  · isplitl [J2]; · iexact J2
    iexact H6
  ihave Hs4 := (flight_congr (F := F) d L (chunk_rows_12 (F := F) d L _ k)) $$ Hs4
  ihave Hs9 := (flight_congr (F := F) d L (chunk_rows_13 (F := F) d L _ k)) $$ Hs9
  isplitl [Hmw]; · iexact Hmw
  isplitl [Hf0_dst Hf0 Hr0]
  · isplitl [Hf0_dst]; · iexists _; iexact Hf0_dst
    isplitl [Hf0]; · iexact Hf0
    iexact Hr0
  isplitl [Hf1_dst Hf1 Hr1]
  · isplitl [Hf1_dst]; · iexists _; iexact Hf1_dst
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L k (⟨1, by decide⟩ : Fin 2) (⟨2, by decide⟩ : Fin 4) (m (oLoc d)) f15 R (B0 L + 16 * k.val + 12) (B0 L + 16 * k.val + 14) (B0 L + 16 * k.val + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L k (⟨1, by decide⟩ : Fin 2) (⟨3, by decide⟩ : Fin 4) (m (oLoc d)) f17 R (B0 L + 16 * k.val + 14) (B0 L + 16 * k.val + 16) (B0 L + 16 * k.val + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KI

end
-- ==== Proof.KIBody.lean ====
/-
  One task, whole: the table is fetched and read, both input slots are started, the pair loop runs from its invariant
  at trip 0 to its invariant after trip 7, the last two write-outs are waited for, and the task hands back what it was
  handed, the result's block at the result function.
-/
import proofs.«206263_g65532611002545_cont_9to1c4b_62_29_alg».proof.Proof.KITrip0
import proofs.«206263_g65532611002545_cont_9to1c4b_62_29_alg».proof.Proof.KITrip1
import proofs.«206263_g65532611002545_cont_9to1c4b_62_29_alg».proof.Proof.KITrip7

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

/-- The invariant after the last trip, taken apart. -/
theorem inv_exit (O : CellTallies nD τ sig (HIx 1)) (W : Waits sig (HIx 1)) (X : Buf (Elt F) ((V d (cV L) (jV L)).loc cc0_scratch10)) (R : Buf (Elt F) (oLoc d)) (n : ℕ) (hn : n = 8) (acc : BitVec 32) :
    invP m d L O W X R n acc ⊢ iprop(Transfers.MayWaits (V d (cV L) (jV L)) (none : HIx 1) O
      ∗ ((∃ fd, (Memref.whole cc0_scratch0 : Memref sig .scVector .vmem S8x400 .i32).view.loc (V d (cV L) (jV L)) ↦{fullShare} fd) ∗ semVal ((V d (cV L) (jV L)), SemLoc.dma cc0_scratch3.sem) 0 ∗ ((Memref.whole main_arg0_scv : Memref sig .scVector .hbm S4096x400 .i32).view.loc (V d (cV L) (jV L)) ↦[Finset.univ]{(Transfers.shareTok fullShare 32 (widL L)).left} m (nLoc d)))
      ∗ ((∃ fd, (Memref.whole cc0_scratch5 : Memref sig .scVector .vmem S8x400 .i32).view.loc (V d (cV L) (jV L)) ↦{fullShare} fd) ∗ semVal ((V d (cV L) (jV L)), SemLoc.dma cc0_scratch8.sem) 0 ∗ ((Memref.whole main_arg0_scv : Memref sig .scVector .hbm S4096x400 .i32).view.loc (V d (cV L) (jV L)) ↦[Finset.univ]{(Transfers.shareTok fullShare 32 (widL L)).right} m (nLoc d)))
      ∗ (∃ f, (Memref.whole cc0_scratch1 : Memref sig .scVector .vmem S1600 .i32).view.loc (V d (cV L) (jV L)) ↦{fullShare} f)
      ∗ (∃ f, (Memref.whole cc0_scratch6 : Memref sig .scVector .vmem S1600 .i32).view.loc (V d (cV L) (jV L)) ↦{fullShare} f)
      ∗ ((Memref.whole cc0_scratch10 : Memref sig .scVector .vmem S256 .f32).view.loc (V d (cV L) (jV L)) ↦{fullShare} X)
      ∗ ((∃ (gC : Buf (Elt F) (oLoc d)) (fo : Buf (Elt F) ((Memref.whole cc0_scratch2 : Memref sig .scVector .vmem S2x200x64 .f32).view.loc (V d (cV L) (jV L)))),
        ⌜RowsOK R gC (B0 L + 16 * 7 + 12) (B0 L + 16 * 7 + 14)⌝ ∗ Transfers.Flight countersEmb (V d (cV L) (jV L)) (SemLoc.dma cc0_scratch4.sem) (default : HIx 1) 819200
          iprop((oLoc d ↦[rowsSet (B0 L + 16 * 7 + 12) (B0 L + 16 * 7 + 14)]{fullShare} gC) ∗ ((Memref.whole cc0_scratch2 : Memref sig .scVector .vmem S2x200x64 .f32).view.loc (V d (cV L) (jV L)) ↦[(Memref.whole cc0_scratch2 : Memref sig .scVector .vmem S2x200x64 .f32).view.set]{fullShare} fo))
        ∗ ((Memref.whole cc0_scratch2 : Memref sig .scVector .vmem S2x200x64 .f32).view.loc (V d (cV L) (jV L)) ↦[Finset.univ \ (Memref.whole cc0_scratch2 : Memref sig .scVector .vmem S2x200x64 .f32).view.set]{fullShare} fo))
          ∗ (∃ (gC : Buf (Elt F) (oLoc d)) (fo : Buf (Elt F) ((Memref.whole cc0_scratch7 : Memref sig .scVector .vmem S2x200x64 .f32).view.loc (V d (cV L) (jV L)))),
        ⌜RowsOK R gC (B0 L + 16 * 7 + 14) (B0 L + 16 * 7 + 16)⌝ ∗ Transfers.Flight countersEmb (V d (cV L) (jV L)) (SemLoc.dma cc0_scratch9.sem) (default : HIx 1) 819200
          iprop((oLoc d ↦[rowsSet (B0 L + 16 * 7 + 14) (B0 L + 16 * 7 + 16)]{fullShare} gC) ∗ ((Memref.whole cc0_scratch7 : Memref sig .scVector .vmem S2x200x64 .f32).view.loc (V d (cV L) (jV L)) ↦[(Memref.whole cc0_scratch7 : Memref sig .scVector .vmem S2x200x64 .f32).view.set]{fullShare} fo))
        ∗ ((Memref.whole cc0_scratch7 : Memref sig .scVector .vmem S2x200x64 .f32).view.loc (V d (cV L) (jV L)) ↦[Finset.univ \ (Memref.whole cc0_scratch7 : Memref sig .scVector .vmem S2x200x64 .f32).view.set]{fullShare} fo)))
      ∗ (oLoc d ↦[rowsSet (B0 L + 16 * 8) (B0 L + 128)]{fullShare} m (oLoc d))
      ∗ (oLoc d ↦[rowsSet (B0 L) (B0 L + 16 * 7 + 12)]{fullShare} R)
      ∗ ∃ W', ⌜∀ p ∈ W', p ∈ W ∨ p.2 = none⌝ ∗ owes (V d (cV L) (jV L)) O W') := by
  subst hn
  unfold invP InSt0 InSt1
  rw [if_neg (show ¬ (8 : ℕ) < 8 from by decide), if_neg (show ¬ (8 : ℕ) < 8 from by decide)]
  unfold InHeld0 InHeld1
  show _ ⊢ _
  exact Entails.refl _

/-- The invariant before the first trip, put together. -/
theorem inv_entry (O : CellTallies nD τ sig (HIx 1)) (W : Waits sig (HIx 1)) (X : Buf (Elt F) ((V d (cV L) (jV L)).loc cc0_scratch10)) (R : Buf (Elt F) (oLoc d)) (acc : BitVec 32) :
    iprop(Transfers.MayWaits (V d (cV L) (jV L)) (none : HIx 1) O
      ∗ InFl0 m d L (Transfers.shareTok fullShare 32 (widL L)).left (SemLoc.dma cc0_scratch3.sem) (B0 L + 16 * 0)
      ∗ InFl1 m d L (Transfers.shareTok fullShare 32 (widL L)).right (SemLoc.dma cc0_scratch8.sem) (B0 L + 16 * 0 + 8)
      ∗ (∃ f, (Memref.whole cc0_scratch1 : Memref sig .scVector .vmem S1600 .i32).view.loc (V d (cV L) (jV L)) ↦{fullShare} f)
      ∗ (∃ f, (Memref.whole cc0_scratch6 : Memref sig .scVector .vmem S1600 .i32).view.loc (V d (cV L) (jV L)) ↦{fullShare} f)
      ∗ ((Memref.whole cc0_scratch10 : Memref sig .scVector .vmem S256 .f32).view.loc (V d (cV L) (jV L)) ↦{fullShare} X)
      ∗ ((∃ f, (Memref.whole cc0_scratch2 : Memref sig .scVector .vmem S2x200x64 .f32).view.loc (V d (cV L) (jV L)) ↦{fullShare} f) ∗ (∃ f, (Memref.whole cc0_scratch7 : Memref sig .scVector .vmem S2x200x64 .f32).view.loc (V d (cV L) (jV L)) ↦{fullShare} f)
          ∗ semVal (gOut0 d (cV L) (jV L)) 0 ∗ semVal (gOut1 d (cV L) (jV L)) 0)
      ∗ (oLoc d ↦[rowsSet (B0 L + 16 * 0) (B0 L + 128)]{fullShare} m (oLoc d))
      ∗ (oLoc d ↦[rowsSet (B0 L) (B0 L)]{fullShare} R)
      ∗ ∃ W', ⌜∀ p ∈ W', p ∈ W ∨ p.2 = none⌝ ∗ owes (V d (cV L) (jV L)) O W') ⊢ invP m d L O W X R 0 acc := by
  unfold invP InSt0 InSt1
  rw [if_pos (show (0 : ℕ) < 8 from by decide), if_pos (show (0 : ℕ) < 8 from by decide)]
  exact Entails.refl _

/-- The rows the two initial fetches fetch. -/
theorem off1_row0 : k0_off1 L 0#32 0 = B0 L + 16 * 0 ∧ k0_off1 L 0#32 1 = 0 := by
  have h : k0_off1 L 0#32 = ![256 * (L 1).val + 128 * (L 0).val + 8 * 0, 0] := k0_off1_eq L ⟨0, by decide⟩
  rw [h]
  refine ⟨?_, rfl⟩
  show 256 * (L 1).val + 128 * (L 0).val + 8 * 0 = 128 * (2 * (L 1).val + (L 0).val) + 16 * 0
  omega
theorem off1_row1 : k0_off1 L 8#32 0 = B0 L + 16 * 0 + 8 ∧ k0_off1 L 8#32 1 = 0 := by
  have h : k0_off1 L 8#32 = ![256 * (L 1).val + 128 * (L 0).val + 8 * 1, 0] := k0_off1_eq L ⟨1, by decide⟩
  rw [h]
  refine ⟨?_, rfl⟩
  show 256 * (L 1).val + 128 * (L 0).val + 8 * 1 = 128 * (2 * (L 1).val + (L 0).val) + 16 * 0 + 8
  omega

set_option maxHeartbeats 16000000 in
theorem tile_body : TileBody (F := F) m := by
  intro d L O W hO
  have hF : (K (F := F)).Facts := facts
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold goOf tdOf
  iintro ⟨#Hlv, -, ⟨Hn, Ht, Ho⟩, ⟨⟨⟨%f0, Hb0⟩, ⟨%f1, Hb1⟩, ⟨%f2, Hb2⟩, ⟨%f5, Hb5⟩, ⟨%f6, Hb6⟩, ⟨%f7, Hb7⟩, ⟨%f10, Hb10⟩⟩, Hbufs⟩, ⟨⟨Hs3, Hs4, Hs8, Hs9, HsT⟩, Hsems⟩, HO⟩
  ihave Hmw := ((K (F := F)).mayWaits_none (thr := (V d (cV L) (jV L))) hO) $$ Hlv
  ihave Hn2 := (pointsTo_share (PosShare.mem_left_op_right _)).1 $$ Hn
  icases Hn2 with ⟨HnA, HnB⟩
  ihave HnA := (Entails.of_eq (pts_N (F := F) d L _ _).symm) $$ HnA
  ihave HnB := (Entails.of_eq (pts_N (F := F) d L _ _).symm) $$ HnB
  ihave Ht := (Entails.of_eq (pts_T (F := F) d L _ _).symm) $$ Ht
  ihave Hb0 := (Entails.of_eq (pts_N0 (F := F) d L _).symm) $$ Hb0
  ihave Hb1 := (Entails.of_eq (pts_K0 (F := F) d L _).symm) $$ Hb1
  ihave Hb2 := (Entails.of_eq (pts_O0 (F := F) d L _).symm) $$ Hb2
  ihave Hb5 := (Entails.of_eq (pts_N1 (F := F) d L _).symm) $$ Hb5
  ihave Hb6 := (Entails.of_eq (pts_K1 (F := F) d L _).symm) $$ Hb6
  ihave Hb7 := (Entails.of_eq (pts_O1 (F := F) d L _).symm) $$ Hb7
  ihave Hb10 := (Entails.of_eq (pts_Tv (F := F) d L _).symm) $$ Hb10
  ihave Ho := (Entails.of_eq (first_start (F := F) d L _).symm) $$ Ho
  sl_exec_parts
  -- the table has landed: the table scratch holds the flattened table
  generalize hXd : View.write (Elt F) (Memref.whole cc0_scratch10 : Memref sig .scVector .vmem S256 .f32).view f10 _ Finset.univ = X
  have hX : X = tabV m d := by
    rw [← hXd]; sl_unfold_run_names
    exact tab_lands (F := F) _ _
  subst hX
  -- the two input slots' copies carry rows B0 … B0 + 7 and B0 + 8 … B0 + 15 of the bits
  generalize hfdA : View.write (Elt F) (Memref.whole cc0_scratch0 : Memref sig .scVector .vmem S8x400 .i32).view f0 _ Finset.univ = fdA
  generalize hfdB : View.write (Elt F) (Memref.whole cc0_scratch5 : Memref sig .scVector .vmem S8x400 .i32).view f5 _ Finset.univ = fdB
  have hnvA : NvOK (m (nLoc d)) (B0 L + 16 * 0) fdA := by
    rw [← hfdA]; sl_unfold_run_names
    exact land_ok0 (F := F) (k0_off1 L 0#32) _ (m (nLoc d)) f0 _ (off1_row0 L).1 (off1_row0 L).2
  have hnvB : NvOK (m (nLoc d)) (B0 L + 16 * 0 + 8) fdB := by
    rw [← hfdB]; sl_unfold_run_names
    exact land_ok5 (F := F) (k0_off1 L 8#32) _ (m (nLoc d)) f5 _ (off1_row1 L).1 (off1_row1 L).2
  sl_for (invP m d L O W (tabV m d) (outV m d)) $$ [Hmw Hs3 HnA Hs8 HnB Hb1 Hb6 Hb10 Hb2 Hb7 Hs4 Hs9 Ho HO]
  case region =>
    intro k acc
    sl_unfold_run_names
    rcases Nat.eq_zero_or_pos k.val with h0 | hpos
    · obtain ⟨kv, hkv⟩ := k
      simp only at h0
      subst h0
      refine trip_first (F := F) m d L O W (tabV m d) (outV m d) _ _ _ _ _ _ _ _ _ _ _ _ _ _ _ _ _ _ _ _ ?_ ?_ hkv acc
      · rfl
      · first | rw [tab_lands (F := F) (tabV m d) f10] | simp only [tab_lands]
        exact tvTrip_eq_of (F := F) (tabV m d) (prologue_rows (F := F) (tabV m d))
    · obtain ⟨k', hk'⟩ := Nat.exists_eq_succ_of_ne_zero (Nat.pos_iff_ne_zero.mp hpos)
      by_cases h7 : k.val < 7
      · refine trip_mid (F := F) m d L O W (tabV m d) (outV m d) _ _ _ _ _ _ _ _ _ _ _ _ _ _ _ _ _ _ _ _ ?_ ?_ k k' hk' h7 acc
        · rfl
        · first | rw [tab_lands (F := F) (tabV m d) f10] | simp only [tab_lands]
          exact tvTrip_eq_of (F := F) (tabV m d) (prologue_rows (F := F) (tabV m d))
      · refine trip_last (F := F) m d L O W (tabV m d) (outV m d) _ _ _ _ _ _ _ _ _ _ _ _ _ _ _ _ _ _ _ _ ?_ ?_ k k' hk' h7 acc
        · rfl
        · first | rw [tab_lands (F := F) (tabV m d) f10] | simp only [tab_lands]
          exact tvTrip_eq_of (F := F) (tabV m d) (prologue_rows (F := F) (tabV m d))
  · iapply (inv_entry (F := F) m d L O W _ _ _)
    isplitl [Hmw]; · iexact Hmw
    isplitl [Hs3 HnA]
    · unfold InFl0
      iexists _; iexists _
      isplitr
      · ipureintro; exact hnvA
      isplitl [Hs3]; · iexact Hs3
      iexact HnA
    isplitl [Hs8 HnB]
    · unfold InFl1
      iexists _; iexists _
      isplitr
      · ipureintro; exact hnvB
      isplitl [Hs8]; · iexact Hs8
      iexact HnB
    isplitl [Hb1]; · iexists _; iexact Hb1
    isplitl [Hb6]; · iexists _; iexact Hb6
    isplitl [Hb10]; · iexact Hb10
    isplitl [Hb2 Hb7 Hs4 Hs9]
    · isplitl [Hb2]; · iexists _; iexact Hb2
      isplitl [Hb7]; · iexists _; iexact Hb7
      isplitl [Hs4]; · iexact Hs4
      iexact Hs9
    isplitl [Ho]; · iexact Ho
    isplitr
    · iapply (Entails.of_eq (rows_empty (F := F) d (outV m d) (le_refl (B0 L))).symm)
      iempintro
    iexists _
    isplitr
    rotate_left
    · iexact HO
    · ipureintro; exact ins_ok (fun p hp => Or.inl hp)
  iintro %acc' HI
  first
    | ihave HI := (inv_exit (F := F) m d L O W _ _ k0_t1_loop.trips trips_eq acc') $$ HI
    | ihave HI := (inv_exit (F := F) m d L O W _ _ (Scf.trips k0_t1_loop.lb k0_t1_loop.ub k0_t1_loop.st) (by decide) acc') $$ HI
  icases HI with ⟨Hmw, ⟨⟨%fdA', Hb0⟩, Hs3, HnA⟩, ⟨⟨%fdB', Hb5⟩, Hs8, HnB⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  sl_exec_parts
  sl_step
  -- the bits' two half-shares rejoin; the table's share as it came
  ihave HnA := (Entails.of_eq (pts_N (F := F) d L _ _)) $$ HnA
  ihave HnB := (Entails.of_eq (pts_N (F := F) d L _ _)) $$ HnB
  ihave Hn := (pointsTo_share (PosShare.mem_left_op_right (Transfers.shareTok fullShare 32 (widL L)))).2 $$ [HnA HnB]
  · isplitl [HnA]; · iexact HnA
    iexact HnB
  ihave Ht := (Entails.of_eq (pts_T (F := F) d L _ _)) $$ Ht
  -- the last four rows land; with the done rows they are the task's whole block at the result function
  ihave Hl0 := (rows_to_R (F := F) d (outV m d) gC0 hgC0) $$ Hs4_dst
  ihave Hl1 := (rows_to_R (F := F) d (outV m d) gC1 hgC1) $$ Hs9_dst
  ihave J1 := (rows_join (F := F) d (outV m d) (a := B0 L) (b := B0 L + 16 * 7 + 12) (c := B0 L + 16 * 7 + 14) (by omega) (by omega)) $$ [Hdone Hl0]
  · isplitl [Hdone]; · iexact Hdone
    iexact Hl0
  ihave J2 := (rows_join (F := F) d (outV m d) (a := B0 L) (b := B0 L + 16 * 7 + 14) (c := B0 L + 16 * 7 + 16) (by omega) (by omega)) $$ [J1 Hl1]
  · isplitl [J1]; · iexact J1
    iexact Hl1
  ihave J2 := (rows_respell (F := F) d (outV m d) (a := B0 L) (b := B0 L + 16 * 7 + 16) (a' := B0 L) (b' := B0 L + 128) rfl (by omega)) $$ J2
  ihave Hout := (Entails.of_eq (rows_ofBlk (F := F) d L (outV m d)).symm) $$ J2
  icases Htodo with -
  ihave Hb0 := (Entails.of_eq (pts_N0 (F := F) d L _)) $$ Hb0
  ihave Hb1 := (Entails.of_eq (pts_K0 (F := F) d L _)) $$ Hb1
  ihave Hb2 := (Entails.of_eq (pts_O0 (F := F) d L _)) $$ Hb2
  ihave Hb5 := (Entails.of_eq (pts_N1 (F := F) d L _)) $$ Hb5
  ihave Hb6 := (Entails.of_eq (pts_K1 (F := F) d L _)) $$ Hb6
  ihave Hb7 := (Entails.of_eq (pts_O1 (F := F) d L _)) $$ Hb7
  ihave Hb10 := (Entails.of_eq (pts_Tv (F := F) d L _)) $$ Hb10
  isplitl [Hn Ht Hout]
  · isplitl [Hn]; · iexact Hn
    isplitl [Ht]; · iexact Ht
    iexact Hout
  isplitl [Hb0 Hb1 Hb2 Hb5 Hb6 Hb7 Hb10 Hbufs]
  · isplitl [Hb0 Hb1 Hb2 Hb5 Hb6 Hb7 Hb10]
    · isplitl [Hb0]; · iexists _; iexact Hb0
      isplitl [Hb1]; · iexists _; iexact Hb1
      isplitl [Hb2]; · iexists _; iexact Hb2
      isplitl [Hb5]; · iexists _; iexact Hb5
      isplitl [Hb6]; · iexists _; iexact Hb6
      isplitl [Hb7]; · iexists _; iexact Hb7
      iexists _; iexact Hb10
    · iexact Hbufs
  isplitl [Hs3 Hs4 Hs8 Hs9 HsT Hsems]
  · isplitl [Hs3 Hs4 Hs8 Hs9 HsT]
    · isplitl [Hs3]; · iexact Hs3
      isplitl [Hs4]; · iexact Hs4
      isplitl [Hs8]; · iexact Hs8
      isplitl [Hs9]; · iexact Hs9
      iexact HsT
    · iexact Hsems
  iexists _
  isplitr
  rotate_left
  · iexact HO
  · ipureintro
    repeat (first | exact hW' | apply ins_ok)

end Cert.Proof.KI

end
-- ==== Proof.KBRes.lean ====
/-
  A vector subcore's own storage, named: the seven scratch buffers and five DMA semaphores the kernel function is
  called on are among the subcore's scoped buffers and cells; the rest (there is none the kernel touches) is carried
  along as one remainder and handed back untouched.
-/
import proofs.«206263_g65532611002545_cont_9to1c4b_62_29_alg».proof.Proof.KBProto

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The scratch references, and the semaphores, are pairwise distinct -/
theorem rne0 : ¬(cc0_scratch0 : Ref sig .scVector) = cc0_scratch1 ∧ ¬(cc0_scratch0 : Ref sig .scVector) = cc0_scratch2 ∧ ¬(cc0_scratch0 : Ref sig .scVector) = cc0_scratch5 ∧ ¬(cc0_scratch0 : Ref sig .scVector) = cc0_scratch6 ∧ ¬(cc0_scratch0 : Ref sig .scVector) = cc0_scratch7 ∧ ¬(cc0_scratch0 : Ref sig .scVector) = cc0_scratch10 := by decide
theorem rne1 : ¬(cc0_scratch1 : Ref sig .scVector) = cc0_scratch2 ∧ ¬(cc0_scratch1 : Ref sig .scVector) = cc0_scratch5 ∧ ¬(cc0_scratch1 : Ref sig .scVector) = cc0_scratch6 ∧ ¬(cc0_scratch1 : Ref sig .scVector) = cc0_scratch7 ∧ ¬(cc0_scratch1 : Ref sig .scVector) = cc0_scratch10 := by decide
theorem rne2 : ¬(cc0_scratch2 : Ref sig .scVector) = cc0_scratch5 ∧ ¬(cc0_scratch2 : Ref sig .scVector) = cc0_scratch6 ∧ ¬(cc0_scratch2 : Ref sig .scVector) = cc0_scratch7 ∧ ¬(cc0_scratch2 : Ref sig .scVector) = cc0_scratch10 := by decide
theorem rne3 : ¬(cc0_scratch5 : Ref sig .scVector) = cc0_scratch6 ∧ ¬(cc0_scratch5 : Ref sig .scVector) = cc0_scratch7 ∧ ¬(cc0_scratch5 : Ref sig .scVector) = cc0_scratch10 := by decide
theorem rne4 : ¬(cc0_scratch6 : Ref sig .scVector) = cc0_scratch7 ∧ ¬(cc0_scratch6 : Ref sig .scVector) = cc0_scratch10 := by decide
theorem rne5 : ¬(cc0_scratch7 : Ref sig .scVector) = cc0_scratch10 := by decide
theorem sne0 : ¬(SemLoc.dma cc0_scratch3.sem : SemLoc sig) = SemLoc.dma cc0_scratch4.sem ∧ ¬(SemLoc.dma cc0_scratch3.sem : SemLoc sig) = SemLoc.dma cc0_scratch8.sem ∧ ¬(SemLoc.dma cc0_scratch3.sem : SemLoc sig) = SemLoc.dma cc0_scratch9.sem ∧ ¬(SemLoc.dma cc0_scratch3.sem : SemLoc sig) = SemLoc.dma cc0_scoped0.sem := by decide
theorem sne1 : ¬(SemLoc.dma cc0_scratch4.sem : SemLoc sig) = SemLoc.dma cc0_scratch8.sem ∧ ¬(SemLoc.dma cc0_scratch4.sem : SemLoc sig) = SemLoc.dma cc0_scratch9.sem ∧ ¬(SemLoc.dma cc0_scratch4.sem : SemLoc sig) = SemLoc.dma cc0_scoped0.sem := by decide
theorem sne2 : ¬(SemLoc.dma cc0_scratch8.sem : SemLoc sig) = SemLoc.dma cc0_scratch9.sem ∧ ¬(SemLoc.dma cc0_scratch8.sem : SemLoc sig) = SemLoc.dma cc0_scoped0.sem := by decide
theorem sne3 : ¬(SemLoc.dma cc0_scratch9.sem : SemLoc sig) = SemLoc.dma cc0_scoped0.sem := by decide
theorem scoped_cc0_scratch3 : (SemLoc.dma cc0_scratch3.sem : SemLoc sig).isScoped .scVector = true := by decide
theorem scoped_cc0_scratch4 : (SemLoc.dma cc0_scratch4.sem : SemLoc sig).isScoped .scVector = true := by decide
theorem scoped_cc0_scratch8 : (SemLoc.dma cc0_scratch8.sem : SemLoc sig).isScoped .scVector = true := by decide
theorem scoped_cc0_scratch9 : (SemLoc.dma cc0_scratch9.sem : SemLoc sig).isScoped .scVector = true := by decide
theorem scoped_cc0_scoped0 : (SemLoc.dma cc0_scoped0.sem : SemLoc sig).isScoped .scVector = true := by decide

variable {F : FTy → Type}

local notation "𝕄" => MT nD τ sig (HIx 1) (Elt F) ℕ UU ℕ

variable (d : Dev nD) (c : Fin τ.nSC) (i : Fin τ.nSub)

/-- The five semaphores of the kernel on the subcore: the two input slots', the two output slots', the table copy's. -/
abbrev gIn0 : GSem nD τ sig := (V d c i, SemLoc.dma cc0_scratch3.sem)
abbrev gOut0 : GSem nD τ sig := (V d c i, SemLoc.dma cc0_scratch4.sem)
abbrev gIn1 : GSem nD τ sig := (V d c i, SemLoc.dma cc0_scratch8.sem)
abbrev gOut1 : GSem nD τ sig := (V d c i, SemLoc.dma cc0_scratch9.sem)
abbrev gTab : GSem nD τ sig := (V d c i, SemLoc.dma cc0_scoped0.sem)

def kCells : Finset (GSem nD τ sig) := {gIn0 d c i, gOut0 d c i, gIn1 d c i, gOut1 d c i, gTab d c i}

theorem kCells_sub : kCells d c i ⊆ ownCells (V d c i) := by
  intro g hg
  simp only [kCells, Finset.mem_insert, Finset.mem_singleton] at hg
  rcases hg with rfl | rfl | rfl | rfl | rfl
  · exact mem_ownCells.mpr ⟨rfl, scoped_cc0_scratch3⟩
  · exact mem_ownCells.mpr ⟨rfl, scoped_cc0_scratch4⟩
  · exact mem_ownCells.mpr ⟨rfl, scoped_cc0_scratch8⟩
  · exact mem_ownCells.mpr ⟨rfl, scoped_cc0_scratch9⟩
  · exact mem_ownCells.mpr ⟨rfl, scoped_cc0_scoped0⟩

theorem ownSems0_V :
    (ownSems0 (V d c i) : sProp 𝕄)
      = iprop((semVal (gIn0 d c i) 0 ∗ semVal (gOut0 d c i) 0 ∗ semVal (gIn1 d c i) 0 ∗ semVal (gOut1 d c i) 0 ∗ semVal (gTab d c i) 0)
          ∗ bigSep (ownCells (V d c i) \ kCells d c i) fun g => semVal g 0) := by
  unfold SparseCore.Cfg.ownSems0
  rw [SparseCore.bigSep_sdiff_split' (kCells_sub d c i)]
  unfold kCells
  rw [SparseCore.bigSep_insert' (by simp only [Finset.mem_insert, Finset.mem_singleton, Prod.mk.injEq, true_and, not_or]; exact sne0),
    SparseCore.bigSep_insert' (by simp only [Finset.mem_insert, Finset.mem_singleton, Prod.mk.injEq, true_and, not_or]; exact sne1),
    SparseCore.bigSep_insert' (by simp only [Finset.mem_insert, Finset.mem_singleton, Prod.mk.injEq, true_and, not_or]; exact sne2),
    SparseCore.bigSep_insert' (by simp only [Finset.mem_singleton, Prod.mk.injEq, true_and]; exact sne3), bigSep_singleton]

/-- The seven scratch buffers: per slot the fetched bits, the tokens, the rows to write out; and the table. -/
abbrev rN0 : DevRef τ sig := (Proc.scVector c i).devRef cc0_scratch0
abbrev rK0 : DevRef τ sig := (Proc.scVector c i).devRef cc0_scratch1
abbrev rO0 : DevRef τ sig := (Proc.scVector c i).devRef cc0_scratch2
abbrev rN1 : DevRef τ sig := (Proc.scVector c i).devRef cc0_scratch5
abbrev rK1 : DevRef τ sig := (Proc.scVector c i).devRef cc0_scratch6
abbrev rO1 : DevRef τ sig := (Proc.scVector c i).devRef cc0_scratch7
abbrev rT : DevRef τ sig := (Proc.scVector c i).devRef cc0_scratch10

def kRefs : Finset (DevRef τ sig) := {rN0 c i, rK0 c i, rO0 c i, rN1 c i, rK1 c i, rO1 c i, rT c i}

theorem kRefs_sub : kRefs c i ⊆ ownRefs (τ := τ) (.scVector c i) := by
  intro b hb
  simp only [kRefs, Finset.mem_insert, Finset.mem_singleton] at hb
  rcases hb with rfl | rfl | rfl | rfl | rfl | rfl | rfl <;> exact SparseCore.Cfg.mem_ownRefs_of_owner rfl

theorem ownBufs_V :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch10 ↦{fullShare} f))
          ∗ bigSep (ownRefs (τ := τ) (.scVector c i) \ kRefs c i) fun b => iprop(∃ f, ((d, b) : Loc nD τ sig) ↦{fullShare} f)) := by
  unfold SparseCore.Cfg.ownBufs
  rw [show ((V d c i : Thread nD τ).2) = Proc.scVector c i from rfl, SparseCore.bigSep_sdiff_split' (kRefs_sub c i)]
  unfold kRefs
  have hinj := Proc.devRef_injective (τ := τ) (sig := sig) (Proc.scVector c i)
  rw [SparseCore.bigSep_insert' (by simp only [Finset.mem_insert, Finset.mem_singleton, hinj.eq_iff, not_or]; exact rne0),
    SparseCore.bigSep_insert' (by simp only [Finset.mem_insert, Finset.mem_singleton, hinj.eq_iff, not_or]; exact rne1),
    SparseCore.bigSep_insert' (by simp only [Finset.mem_insert, Finset.mem_singleton, hinj.eq_iff, not_or]; exact rne2),
    SparseCore.bigSep_insert' (by simp only [Finset.mem_insert, Finset.mem_singleton, hinj.eq_iff, not_or]; exact rne3),
    SparseCore.bigSep_insert' (by simp only [Finset.mem_insert, Finset.mem_singleton, hinj.eq_iff, not_or]; exact rne4),
    SparseCore.bigSep_insert' (by simp only [Finset.mem_singleton, hinj.eq_iff]; exact rne5), bigSep_singleton]

/-! ## The arrays and the scratch as the kernel function's memrefs address them

A buffer is spoken of through the memref the program names it by; each of these is the same assertion as the one over
the location, by unfolding. -/

section Views

variable (d : Dev nD) (L : grid0.Coords)

theorem pts_N0 (f : Buf (Elt F) ((V d (cV L) (jV L)).loc cc0_scratch0)) :
    (((Memref.whole cc0_scratch0 : Memref sig .scVector .vmem S8x400 .i32)).view.loc (V d (cV L) (jV L)) ↦{fullShare} f : sProp 𝕄)
      = (V d (cV L) (jV L)).loc cc0_scratch0 ↦{fullShare} f := rfl
theorem pts_K0 (f : Buf (Elt F) ((V d (cV L) (jV L)).loc cc0_scratch1)) :
    (((Memref.whole cc0_scratch1 : Memref sig .scVector .vmem S1600 .i32)).view.loc (V d (cV L) (jV L)) ↦{fullShare} f : sProp 𝕄)
      = (V d (cV L) (jV L)).loc cc0_scratch1 ↦{fullShare} f := rfl
theorem pts_O0 (f : Buf (Elt F) ((V d (cV L) (jV L)).loc cc0_scratch2)) :
    (((Memref.whole cc0_scratch2 : Memref sig .scVector .vmem S2x200x64 .f32)).view.loc (V d (cV L) (jV L)) ↦{fullShare} f : sProp 𝕄)
      = (V d (cV L) (jV L)).loc cc0_scratch2 ↦{fullShare} f := rfl
theorem pts_N1 (f : Buf (Elt F) ((V d (cV L) (jV L)).loc cc0_scratch5)) :
    (((Memref.whole cc0_scratch5 : Memref sig .scVector .vmem S8x400 .i32)).view.loc (V d (cV L) (jV L)) ↦{fullShare} f : sProp 𝕄)
      = (V d (cV L) (jV L)).loc cc0_scratch5 ↦{fullShare} f := rfl
theorem pts_K1 (f : Buf (Elt F) ((V d (cV L) (jV L)).loc cc0_scratch6)) :
    (((Memref.whole cc0_scratch6 : Memref sig .scVector .vmem S1600 .i32)).view.loc (V d (cV L) (jV L)) ↦{fullShare} f : sProp 𝕄)
      = (V d (cV L) (jV L)).loc cc0_scratch6 ↦{fullShare} f := rfl
theorem pts_O1 (f : Buf (Elt F) ((V d (cV L) (jV L)).loc cc0_scratch7)) :
    (((Memref.whole cc0_scratch7 : Memref sig .scVector .vmem S2x200x64 .f32)).view.loc (V d (cV L) (jV L)) ↦{fullShare} f : sProp 𝕄)
      = (V d (cV L) (jV L)).loc cc0_scratch7 ↦{fullShare} f := rfl
theorem pts_Tv (f : Buf (Elt F) ((V d (cV L) (jV L)).loc cc0_scratch10)) :
    (((Memref.whole cc0_scratch10 : Memref sig .scVector .vmem S256 .f32)).view.loc (V d (cV L) (jV L)) ↦{fullShare} f : sProp 𝕄)
      = (V d (cV L) (jV L)).loc cc0_scratch10 ↦{fullShare} f := rfl
theorem pts_N (q : PosShare TreeShare) (f : Buf (Elt F) (nLoc d)) :
    (((Memref.whole main_arg0_scv : Memref sig .scVector .hbm S4096x400 .i32)).view.loc (V d (cV L) (jV L)) ↦[Finset.univ]{q} f : sProp 𝕄)
      = nLoc d ↦[Finset.univ]{q} f := rfl
theorem pts_T (q : PosShare TreeShare) (f : Buf (Elt F) (tLoc d)) :
    (((Memref.whole main_v0_scv : Memref sig .scVector .hbm S256 .f32)).view.loc (V d (cV L) (jV L)) ↦[Finset.univ]{q} f : sProp 𝕄)
      = tLoc d ↦[Finset.univ]{q} f := rfl
theorem pts_O (I : Finset S4096x200x64.Idx) (f : Buf (Elt F) (oLoc d)) :
    (((Memref.whole main_v1_scv : Memref sig .scVector .hbm S4096x200x64 .f32)).view.loc (V d (cV L) (jV L)) ↦[I]{fullShare} f : sProp 𝕄)
      = oLoc d ↦[I]{fullShare} f := rfl

end Views

end Cert.Proof.KB

end
-- ==== Proof.KBChunks.lean ====
/-
  The sixty-four two-row chunks of a task's block of the result.

  Task w writes rows 128·w … 128·w + 127 of the result.  It does so in eight trips; trip k fills two slots b = 0, 1 of
  eight rows each and copies each slot out in four chunks oc = 0 … 3 of two rows: chunk (k, b, oc) is rows
  128·w + 16·k + 8·b + 2·oc  and the next.  The sixty-four chunks are pairwise disjoint and together are the block, so
  the block held whole is the sixty-four chunks held side by side, each as the two-row slice of the result its copy writes.
-/
import proofs.«206263_g65532611002545_cont_9to1c4b_62_29_alg».proof.Proof.KBRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The trips -/

theorem trips_eq : k0_t1_loop.trips = 8 := by decide

/-! ## A chunk, as a slice of the result and as a set of rows -/

section Chunks

variable (d : Dev nD) (L : grid0.Coords)

/-- Rows 128·w + 16·k + 8·b + 2·oc and the next, as a rectangle of the result. -/
abbrev chunkRect (k : Fin k0_t1_loop.trips) (b : Fin 2) (oc : Fin 4) : Rect S4096x200x64 :=
  Rect.unit (s := S4096x200x64) (k0_off13 L k (BitVec.ofNat 32 b.val) (BitVec.ofNat 32 (2 * oc.val))) S2x200x64.size (k0_off13_inb L k b oc)

/-- The slice of the result the copy of chunk (k, b, oc) is issued to. -/
abbrev oChunk (k : Fin k0_t1_loop.trips) (b : Fin 2) (oc : Fin 4) : Memref sig .scVector .hbm S2x200x64 .f32 :=
  (Memref.whole main_v1_scv : Memref sig .scVector .hbm S4096x200x64 .f32).slice
    (Rect.unit (s := S4096x200x64) (k0_off13 L k (BitVec.ofNat 32 b.val) (BitVec.ofNat 32 (2 * oc.val))) S2x200x64.size (k0_off13_inb L k b oc)) (fun _ => rfl)

/-- The chunk held through that slice, at contents `f` of the whole result. -/
abbrev chunkPts (f : Buf (Elt F) (oLoc d)) (k : Fin k0_t1_loop.trips) (b : Fin 2) (oc : Fin 4) : sProp 𝕄 :=
  (oChunk L k b oc).view.loc (V d (cV L) (jV L)) ↦[(oChunk L k b oc).view.set]{fullShare} f

theorem set_oChunk (k : Fin k0_t1_loop.trips) (b : Fin 2) (oc : Fin 4) : (oChunk L k b oc).view.set = (chunkRect L k b oc).set := by
  show ((View.whole (main_v1_scv : Ref sig .scVector)).slice (chunkRect L k b oc)).set = _
  rw [View.set_slice_whole]

theorem chunkPts_eq (f : Buf (Elt F) (oLoc d)) (k : Fin k0_t1_loop.trips) (b : Fin 2) (oc : Fin 4) :
    (chunkPts d L f k b oc : sProp 𝕄) = oLoc d ↦[(chunkRect L k b oc).set]{fullShare} f := by
  show ((oChunk L k b oc).view.loc (V d (cV L) (jV L)) ↦[(oChunk L k b oc).view.set]{fullShare} f : sProp 𝕄) = _
  rw [set_oChunk]

theorem widL_val : (widL L).val = 2 * (L 1).val + (L 0).val := rfl

/-- A chunk is its two rows, whole. -/
theorem mem_chunk (k : Fin k0_t1_loop.trips) (b : Fin 2) (oc : Fin 4) (i : S4096x200x64.Idx) :
    i ∈ (chunkRect L k b oc).set
      ↔ 128 * (widL L).val + 16 * k.val + 8 * b.val + 2 * oc.val ≤ (i 0).val
        ∧ (i 0).val < 128 * (widL L).val + 16 * k.val + 8 * b.val + 2 * oc.val + 2 := by
  rw [Rect.mem_set_unit, k0_off13_eq, widL_val]
  constructor
  · intro h
    have h0 := h 0
    simp only [Matrix.cons_val_zero, Shape.size] at h0
    omega
  · intro h a
    match a with
    | 0 => simp only [Matrix.cons_val_zero, Shape.size]; omega
    | 1 => exact ⟨Nat.zero_le _, by have := (i 1).isLt; simpa using this⟩
    | 2 => exact ⟨Nat.zero_le _, by have := (i 2).isLt; simpa using this⟩

/-- A task's block is its 128 rows, whole. -/
theorem mem_oBlk (w : Fin 32) (i : S4096x200x64.Idx) :
    i ∈ oBlk w ↔ 128 * w.val ≤ (i 0).val ∧ (i 0).val < 128 * w.val + 128 := by
  show i ∈ (Rect.unit (s := S4096x200x64) _ _ _).set ↔ _
  rw [Rect.mem_set_unit]
  constructor
  · intro h
    have h0 := h 0
    simp only [Shape.partIx, Shape.partSize, ↓reduceIte, Shape.size, Matrix.cons_val_zero] at h0
    omega
  · intro h a
    match a with
    | 0 => simp only [Shape.partIx, Shape.partSize, ↓reduceIte, Shape.size, Matrix.cons_val_zero]; omega
    | 1 => exact ⟨by simp [Shape.partIx], by have := (i 1).isLt; simpa [Shape.partIx, Shape.partSize] using this⟩
    | 2 => exact ⟨by simp [Shape.partIx], by have := (i 2).isLt; simpa [Shape.partIx, Shape.partSize] using this⟩

/-- The chunk of a triple (trip, slot, chunk of the slot). -/
abbrev chunkSet (p : Fin k0_t1_loop.trips × Fin 2 × Fin 4) : Finset S4096x200x64.Idx := (chunkRect L p.1 p.2.1 p.2.2).set

theorem chunk_disjoint : ∀ p ∈ (Finset.univ : Finset (Fin k0_t1_loop.trips × Fin 2 × Fin 4)), ∀ p' ∈ (Finset.univ : Finset (Fin k0_t1_loop.trips × Fin 2 × Fin 4)),
    p ≠ p' → Disjoint (chunkSet L p) (chunkSet L p') := by
  rintro ⟨k, b, oc⟩ - ⟨k', b', oc'⟩ - hne
  refine Finset.disjoint_left.mpr fun i h h' => hne ?_
  have h1 := (mem_chunk L k b oc i).mp h
  have h2 := (mem_chunk L k' b' oc' i).mp h'
  have hb := b.isLt; have hb' := b'.isLt; have hoc := oc.isLt; have hoc' := oc'.isLt
  have hk : k = k' := Fin.ext (by omega)
  have hbb : b = b' := Fin.ext (by omega)
  have hoo : oc = oc' := Fin.ext (by omega)
  rw [hk, hbb, hoo]

theorem chunk_cover : (Finset.univ : Finset (Fin k0_t1_loop.trips × Fin 2 × Fin 4)).biUnion (chunkSet L) = oBlk (widL L) := by
  ext i
  simp only [Finset.mem_biUnion, Finset.mem_univ, true_and, mem_oBlk]
  constructor
  · rintro ⟨⟨k, b, oc⟩, h⟩
    have h1 := (mem_chunk L k b oc i).mp h
    have hk : k.val < 8 := lt_of_lt_of_eq k.isLt trips_eq
    have hb := b.isLt; have hoc := oc.isLt
    constructor <;> omega
  · rintro ⟨h1, h2⟩
    refine ⟨(⟨((i 0).val - 128 * (widL L).val) / 16, by rw [trips_eq]; omega⟩, ⟨((i 0).val - 128 * (widL L).val) % 16 / 8, by omega⟩,
      ⟨((i 0).val - 128 * (widL L).val) % 8 / 2, by omega⟩), (mem_chunk L _ _ _ i).mpr ?_⟩
    constructor <;> simp only <;> omega

/-! ## The block, as its sixty-four chunks -/

omit d L in
theorem bigSep_triple {A B C : Type} [Fintype A] [Fintype B] [Fintype C] [DecidableEq A] [DecidableEq B] [DecidableEq C] (Φ : A × B × C → sProp 𝕄) :
    bigSep Finset.univ Φ = bigSep Finset.univ fun a => bigSep Finset.univ fun b => bigSep Finset.univ fun c => Φ (a, b, c) := by
  rw [← Finset.univ_product_univ, SparseCore.bigSep_product]
  refine bigSep_congr fun a _ => ?_
  rw [← Finset.univ_product_univ, SparseCore.bigSep_product]

/-- A task's block of the result, at any contents, is its sixty-four chunks, each held as the two-row slice of the
    result its copy writes. -/
theorem oBlk_chunks (f : Buf (Elt F) (oLoc d)) :
    (oLoc d ↦[oBlk (widL L)]{fullShare} f : sProp 𝕄)
      = bigSep Finset.univ fun k : Fin k0_t1_loop.trips => bigSep Finset.univ fun b : Fin 2 => bigSep Finset.univ fun oc : Fin 4 => chunkPts d L f k b oc := by
  rw [← chunk_cover L, pointsTo_biUnion Finset.univ (ℓ := oLoc d) (chunkSet L) (chunk_disjoint L),
    bigSep_triple (F := F) (fun p => oLoc d ↦[chunkSet L p]{fullShare} f)]
  exact bigSep_congr fun k _ => bigSep_congr fun b _ => bigSep_congr fun oc _ => (chunkPts_eq d L f k b oc).symm

/-! ## One trip's eight chunks, one by one -/

omit d L in
theorem univ_2x4 : ((Finset.univ : Finset (Fin 2)) ×ˢ (Finset.univ : Finset (Fin 4)))
    = {((0 : Fin 2), (0 : Fin 4)), (0, 1), (0, 2), (0, 3), (1, 0), (1, 1), (1, 2), (1, 3)} := by decide

/-- The eight chunks of trip `k`, listed: slot 0's four chunks, then slot 1's; chunk `oc` of a slot starts 2·oc rows
    into it, slot 1 eight rows after slot 0. -/
theorem trip_chunks (f : Buf (Elt F) (oLoc d)) (k : Fin k0_t1_loop.trips) :
    (bigSep Finset.univ fun b : Fin 2 => bigSep Finset.univ fun oc : Fin 4 => chunkPts d L f k b oc)
      = iprop(
        (((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} f)
        ∗ (((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} f)
        ∗ (((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} f)
        ∗ (((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} f)
        ∗ (((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} f)
        ∗ (((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} f)
        ∗ (((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} f)
        ∗ (((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} f)) := by
  rw [← SparseCore.bigSep_product Finset.univ Finset.univ (fun p : Fin 2 × Fin 4 => chunkPts d L f k p.1 p.2), univ_2x4,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

end Chunks

/-! ## The trips done and the trips to come -/

section Trips

/-- The trips from `k` on are trip `k` and the trips after it; -/
theorem chunks_from (Φ : Fin k0_t1_loop.trips → sProp 𝕄) (k : Fin k0_t1_loop.trips) :
    bigSep (Finset.univ.filter fun j : Fin k0_t1_loop.trips => k.val ≤ j.val) Φ
      = iprop(Φ k ∗ bigSep (Finset.univ.filter fun j : Fin k0_t1_loop.trips => k.val + 1 ≤ j.val) Φ) := by
  rw [show (Finset.univ.filter fun j : Fin k0_t1_loop.trips => k.val ≤ j.val)
      = insert k (Finset.univ.filter fun j : Fin k0_t1_loop.trips => k.val + 1 ≤ j.val) from by
    ext j
    simp only [Finset.mem_filter, Finset.mem_univ, true_and, Finset.mem_insert, Fin.ext_iff]
    omega]
  exact SparseCore.bigSep_insert' (by simp only [Finset.mem_filter, Finset.mem_univ, true_and]; omega)

/-- the trips up to and with `k` are the trips before it and trip `k`. -/
theorem chunks_upto (Φ : Fin k0_t1_loop.trips → sProp 𝕄) (k : Fin k0_t1_loop.trips) :
    bigSep (Finset.univ.filter fun j : Fin k0_t1_loop.trips => j.val < k.val + 1) Φ
      = iprop(bigSep (Finset.univ.filter fun j : Fin k0_t1_loop.trips => j.val < k.val) Φ ∗ Φ k) := by
  rw [show (Finset.univ.filter fun j : Fin k0_t1_loop.trips => j.val < k.val + 1)
      = insert k (Finset.univ.filter fun j : Fin k0_t1_loop.trips => j.val < k.val) from by
    ext j
    simp only [Finset.mem_filter, Finset.mem_univ, true_and, Finset.mem_insert, Fin.ext_iff]
    omega,
    SparseCore.bigSep_insert' (by simp only [Finset.mem_filter, Finset.mem_univ, true_and]; omega)]
  have h1 : iprop(Φ k ∗ bigSep (Finset.univ.filter fun j : Fin k0_t1_loop.trips => j.val < k.val) Φ)
      ⊢ iprop(bigSep (Finset.univ.filter fun j : Fin k0_t1_loop.trips => j.val < k.val) Φ ∗ Φ k) := by
    iintro ⟨A, B⟩; isplitl [B] <;> iassumption
  have h2 : iprop(bigSep (Finset.univ.filter fun j : Fin k0_t1_loop.trips => j.val < k.val) Φ ∗ Φ k)
      ⊢ iprop(Φ k ∗ bigSep (Finset.univ.filter fun j : Fin k0_t1_loop.trips => j.val < k.val) Φ) := by
    iintro ⟨B, A⟩; isplitl [A] <;> iassumption
  exact Entails.antisymm h1 h2

/-- The ends: every trip is from 0 on, none before 0; none from 8 on, every one before 8. -/
theorem from_zero : (Finset.univ.filter fun j : Fin k0_t1_loop.trips => 0 ≤ j.val) = Finset.univ :=
  Finset.filter_true_of_mem fun _ _ => Nat.zero_le _
theorem upto_zero : (Finset.univ.filter fun j : Fin k0_t1_loop.trips => j.val < 0) = ∅ :=
  Finset.filter_false_of_mem fun _ _ => Nat.not_lt_zero _
theorem from_ge {n : ℕ} (h : 8 ≤ n) : (Finset.univ.filter fun j : Fin k0_t1_loop.trips => n ≤ j.val) = ∅ :=
  Finset.filter_false_of_mem fun j _ => by have := lt_of_lt_of_eq j.isLt trips_eq; omega
theorem upto_ge {n : ℕ} (h : 8 ≤ n) : (Finset.univ.filter fun j : Fin k0_t1_loop.trips => j.val < n) = Finset.univ :=
  Finset.filter_true_of_mem fun j _ => by have := lt_of_lt_of_eq j.isLt trips_eq; omega
theorem from_end : (Finset.univ.filter fun j : Fin k0_t1_loop.trips => 8 ≤ j.val) = ∅ := from_ge (le_refl 8)
theorem upto_end : (Finset.univ.filter fun j : Fin k0_t1_loop.trips => j.val < 8) = Finset.univ := upto_ge (le_refl 8)

end Trips

end Cert.Proof.KB

end
-- ==== Proof.KBRows.lean ====
/-
  Rows of the result, by ranges.

  A task's block of the result is 128 consecutive rows, and everything the task does with it is by row ranges: a
  two-row chunk is a range, the rows still to be written and the rows already copied out are ranges, and holding a
  range whole is holding two adjacent sub-ranges side by side.  Here a range [a, b) of rows is a set of indices of the
  result; adjacent ranges are disjoint and join; and the splittings and joinings the task's loop needs are stated
  once, each as an equation between what is held.
-/
import proofs.«206263_g65532611002545_cont_9to1c4b_62_29_alg».proof.Proof.KBChunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Ranges of rows -/

/-- The indices of the result whose row lies in [a, b). -/
def rowsSet (a b : ℕ) : Finset S4096x200x64.Idx := Finset.univ.filter fun i => a ≤ (i 0).val ∧ (i 0).val < b

theorem mem_rowsSet (a b : ℕ) (i : S4096x200x64.Idx) : i ∈ rowsSet a b ↔ a ≤ (i 0).val ∧ (i 0).val < b := by
  simp only [rowsSet, Finset.mem_filter, Finset.mem_univ, true_and]

/-- A range is named by its ends. -/
theorem rowsSet_congr {a b a' b' : ℕ} (ha : a = a') (hb : b = b') : rowsSet a b = rowsSet a' b' := by rw [ha, hb]

/-- Adjacent ranges join. -/
theorem rowsSet_union {a b c : ℕ} (hab : a ≤ b) (hbc : b ≤ c) : rowsSet a b ∪ rowsSet b c = rowsSet a c := by
  ext i
  simp only [Finset.mem_union, mem_rowsSet]
  omega

/-- Adjacent ranges are disjoint. -/
theorem rowsSet_disjoint (a b c : ℕ) : Disjoint (rowsSet a b) (rowsSet b c) :=
  Finset.disjoint_left.mpr fun i h1 h2 => by
    have h1 := (mem_rowsSet a b i).mp h1
    have h2 := (mem_rowsSet b c i).mp h2
    omega

/-- A range that ends no later than it starts is empty. -/
theorem rowsSet_eq_empty {a b : ℕ} (h : b ≤ a) : rowsSet a b = ∅ := by
  ext i
  simp only [mem_rowsSet, Finset.notMem_empty, iff_false]
  omega

theorem rowsSet_self (a : ℕ) : rowsSet a a = ∅ := rowsSet_eq_empty (le_refl a)

/-- The first row of the block of the task at grid coordinates L. -/
abbrev B0 (L : grid0.Coords) : ℕ := 128 * (widL L).val

section Rows

variable (d : Dev nD) (L : grid0.Coords)

/-- A two-row chunk is a range of two rows. -/
theorem chunk_set_eq (k : Fin k0_t1_loop.trips) (b : Fin 2) (oc : Fin 4) :
    (chunkRect L k b oc).set
      = rowsSet (B0 L + 16 * k.val + 8 * b.val + 2 * oc.val) (B0 L + 16 * k.val + 8 * b.val + 2 * oc.val + 2) := by
  ext i
  rw [mem_chunk, mem_rowsSet]

/-- A task's block is a range of 128 rows. -/
theorem oBlk_eq : oBlk (widL L) = rowsSet (B0 L) (B0 L + 128) := by
  ext i
  rw [mem_oBlk, mem_rowsSet]

/-- (W1) The block held whole is its range of rows held whole. -/
theorem rows_ofBlk (f : Buf (Elt F) (oLoc d)) :
    (oLoc d ↦[oBlk (widL L)]{fullShare} f : sProp 𝕄) = oLoc d ↦[rowsSet (B0 L) (B0 L + 128)]{fullShare} f := by
  rw [oBlk_eq]

/-! ## Splitting and joining -/

/-- A range held whole is two adjacent sub-ranges held side by side. -/
theorem rows_split (f : Buf (Elt F) (oLoc d)) {a b c : ℕ} (hab : a ≤ b) (hbc : b ≤ c) :
    (oLoc d ↦[rowsSet a c]{fullShare} f : sProp 𝕄)
      = iprop((oLoc d ↦[rowsSet a b]{fullShare} f) ∗ oLoc d ↦[rowsSet b c]{fullShare} f) := by
  rw [← rowsSet_union hab hbc]
  exact Entails.antisymm (pointsTo_union (rowsSet_disjoint a b c)).mp (pointsTo_union (rowsSet_disjoint a b c)).mpr

/-- An empty range held is nothing held. -/
theorem rows_empty (f : Buf (Elt F) (oLoc d)) {a b : ℕ} (h : b ≤ a) :
    (oLoc d ↦[rowsSet a b]{fullShare} f : sProp 𝕄) = iprop(emp) := by
  rw [rowsSet_eq_empty h]
  exact pointsTo_empty

/-- Sixteen rows are eight adjacent pairs of rows. -/
theorem eight_join (f : Buf (Elt F) (oLoc d)) (a : ℕ) :
    (oLoc d ↦[rowsSet a (a + 16)]{fullShare} f : sProp 𝕄)
      = iprop((oLoc d ↦[rowsSet (a) (a + 2)]{fullShare} f)
        ∗ (oLoc d ↦[rowsSet (a + 2) (a + 4)]{fullShare} f)
        ∗ (oLoc d ↦[rowsSet (a + 4) (a + 6)]{fullShare} f)
        ∗ (oLoc d ↦[rowsSet (a + 6) (a + 8)]{fullShare} f)
        ∗ (oLoc d ↦[rowsSet (a + 8) (a + 10)]{fullShare} f)
        ∗ (oLoc d ↦[rowsSet (a + 10) (a + 12)]{fullShare} f)
        ∗ (oLoc d ↦[rowsSet (a + 12) (a + 14)]{fullShare} f)
        ∗ (oLoc d ↦[rowsSet (a + 14) (a + 16)]{fullShare} f)) := by
  rw [rows_split d f (show a ≤ a + 2 by omega) (show a + 2 ≤ a + 16 by omega),
    rows_split d f (show a + 2 ≤ a + 4 by omega) (show a + 4 ≤ a + 16 by omega),
    rows_split d f (show a + 4 ≤ a + 6 by omega) (show a + 6 ≤ a + 16 by omega),
    rows_split d f (show a + 6 ≤ a + 8 by omega) (show a + 8 ≤ a + 16 by omega),
    rows_split d f (show a + 8 ≤ a + 10 by omega) (show a + 10 ≤ a + 16 by omega),
    rows_split d f (show a + 10 ≤ a + 12 by omega) (show a + 12 ≤ a + 16 by omega),
    rows_split d f (show a + 12 ≤ a + 14 by omega) (show a + 14 ≤ a + 16 by omega)]

/-- Twelve rows are six adjacent pairs of rows. -/
theorem six_join_at (f : Buf (Elt F) (oLoc d)) (a : ℕ) :
    (iprop((oLoc d ↦[rowsSet (a) (a + 2)]{fullShare} f)
        ∗ (oLoc d ↦[rowsSet (a + 2) (a + 4)]{fullShare} f)
        ∗ (oLoc d ↦[rowsSet (a + 4) (a + 6)]{fullShare} f)
        ∗ (oLoc d ↦[rowsSet (a + 6) (a + 8)]{fullShare} f)
        ∗ (oLoc d ↦[rowsSet (a + 8) (a + 10)]{fullShare} f)
        ∗ (oLoc d ↦[rowsSet (a + 10) (a + 12)]{fullShare} f)) : sProp 𝕄)
      = oLoc d ↦[rowsSet a (a + 12)]{fullShare} f := by
  rw [rows_split d f (show a ≤ a + 2 by omega) (show a + 2 ≤ a + 12 by omega),
    rows_split d f (show a + 2 ≤ a + 4 by omega) (show a + 4 ≤ a + 12 by omega),
    rows_split d f (show a + 4 ≤ a + 6 by omega) (show a + 6 ≤ a + 12 by omega),
    rows_split d f (show a + 6 ≤ a + 8 by omega) (show a + 8 ≤ a + 12 by omega),
    rows_split d f (show a + 8 ≤ a + 10 by omega) (show a + 10 ≤ a + 12 by omega)]

/-! ## A chunk, from the spelling of its copy to a range of rows -/

/-- (W3) Chunk (k, b, oc), held through the slice its copy names at any contents, is its two rows held. -/
theorem chunk_rows (g : Buf (Elt F) (oLoc d)) (k : Fin k0_t1_loop.trips) (b : Fin 2) (oc : Fin 4) :
    (chunkPts d L g k b oc : sProp 𝕄)
      = oLoc d ↦[rowsSet (B0 L + 16 * k.val + 8 * b.val + 2 * oc.val) (B0 L + 16 * k.val + 8 * b.val + 2 * oc.val + 2)]{fullShare} g := by
  rw [chunkPts_eq, chunk_set_eq]

/-- Chunk (0, 0) of trip k, in the spelling of its copy, is rows 0 and 1 of the trip's sixteen. -/
theorem chunk_rows_00 (g : Buf (Elt F) (oLoc d)) (k : Fin k0_t1_loop.trips) :
    ((((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} g) : sProp 𝕄)
      = (oLoc d ↦[rowsSet (B0 L + 16 * k.val) (B0 L + 16 * k.val + 2)]{fullShare} g) := by
  refine (chunk_rows d L g k 0 0).trans ?_
  rw [rowsSet_congr (a' := B0 L + 16 * k.val) (b' := B0 L + 16 * k.val + 2) (by simp) (by simp)]

/-- Chunk (0, 1) of trip k, in the spelling of its copy, is rows 2 and 3 of the trip's sixteen. -/
theorem chunk_rows_01 (g : Buf (Elt F) (oLoc d)) (k : Fin k0_t1_loop.trips) :
    ((((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} g) : sProp 𝕄)
      = (oLoc d ↦[rowsSet (B0 L + 16 * k.val + 2) (B0 L + 16 * k.val + 4)]{fullShare} g) := by
  refine (chunk_rows d L g k 0 1).trans ?_
  rw [rowsSet_congr (a' := B0 L + 16 * k.val + 2) (b' := B0 L + 16 * k.val + 4) (by simp) (by simp)]

/-- Chunk (0, 2) of trip k, in the spelling of its copy, is rows 4 and 5 of the trip's sixteen. -/
theorem chunk_rows_02 (g : Buf (Elt F) (oLoc d)) (k : Fin k0_t1_loop.trips) :
    ((((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} g) : sProp 𝕄)
      = (oLoc d ↦[rowsSet (B0 L + 16 * k.val + 4) (B0 L + 16 * k.val + 6)]{fullShare} g) := by
  refine (chunk_rows d L g k 0 2).trans ?_
  rw [rowsSet_congr (a' := B0 L + 16 * k.val + 4) (b' := B0 L + 16 * k.val + 6) (by simp) (by simp)]

/-- Chunk (0, 3) of trip k, in the spelling of its copy, is rows 6 and 7 of the trip's sixteen. -/
theorem chunk_rows_03 (g : Buf (Elt F) (oLoc d)) (k : Fin k0_t1_loop.trips) :
    ((((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} g) : sProp 𝕄)
      = (oLoc d ↦[rowsSet (B0 L + 16 * k.val + 6) (B0 L + 16 * k.val + 8)]{fullShare} g) := by
  refine (chunk_rows d L g k 0 3).trans ?_
  rw [rowsSet_congr (a' := B0 L + 16 * k.val + 6) (b' := B0 L + 16 * k.val + 8) (by simp) (by simp)]

/-- Chunk (1, 0) of trip k, in the spelling of its copy, is rows 8 and 9 of the trip's sixteen. -/
theorem chunk_rows_10 (g : Buf (Elt F) (oLoc d)) (k : Fin k0_t1_loop.trips) :
    ((((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} g) : sProp 𝕄)
      = (oLoc d ↦[rowsSet (B0 L + 16 * k.val + 8) (B0 L + 16 * k.val + 10)]{fullShare} g) := by
  refine (chunk_rows d L g k 1 0).trans ?_
  rw [rowsSet_congr (a' := B0 L + 16 * k.val + 8) (b' := B0 L + 16 * k.val + 10) (by simp) (by simp)]

/-- Chunk (1, 1) of trip k, in the spelling of its copy, is rows 10 and 11 of the trip's sixteen. -/
theorem chunk_rows_11 (g : Buf (Elt F) (oLoc d)) (k : Fin k0_t1_loop.trips) :
    ((((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} g) : sProp 𝕄)
      = (oLoc d ↦[rowsSet (B0 L + 16 * k.val + 10) (B0 L + 16 * k.val + 12)]{fullShare} g) := by
  refine (chunk_rows d L g k 1 1).trans ?_
  rw [rowsSet_congr (a' := B0 L + 16 * k.val + 10) (b' := B0 L + 16 * k.val + 12) (by simp) (by simp)]

/-- Chunk (1, 2) of trip k, in the spelling of its copy, is rows 12 and 13 of the trip's sixteen. -/
theorem chunk_rows_12 (g : Buf (Elt F) (oLoc d)) (k : Fin k0_t1_loop.trips) :
    ((((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} g) : sProp 𝕄)
      = (oLoc d ↦[rowsSet (B0 L + 16 * k.val + 12) (B0 L + 16 * k.val + 14)]{fullShare} g) := by
  refine (chunk_rows d L g k 1 2).trans ?_
  rw [rowsSet_congr (a' := B0 L + 16 * k.val + 12) (b' := B0 L + 16 * k.val + 14) (by simp) (by simp)]

/-- Chunk (1, 3) of trip k, in the spelling of its copy, is rows 14 and 15 of the trip's sixteen. -/
theorem chunk_rows_13 (g : Buf (Elt F) (oLoc d)) (k : Fin k0_t1_loop.trips) :
    ((((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} g) : sProp 𝕄)
      = (oLoc d ↦[rowsSet (B0 L + 16 * k.val + 14) (B0 L + 16 * k.val + 16)]{fullShare} g) := by
  refine (chunk_rows d L g k 1 3).trans ?_
  rw [rowsSet_congr (a' := B0 L + 16 * k.val + 14) (b' := B0 L + 16 * k.val + 16) (by simp) (by simp)]

/-! ## The rows still to be written -/

/-- (W2) The rows from trip k on are trip k's eight chunks, in the spelling of their copies, and the rows from trip
    k + 1 on. -/
theorem todo_split (f : Buf (Elt F) (oLoc d)) (k : Fin k0_t1_loop.trips) :
    (oLoc d ↦[rowsSet (B0 L + 16 * k.val) (B0 L + 128)]{fullShare} f : sProp 𝕄)
      ⊣⊢ iprop((
        (((Memref.whole main_v1_scv : Memref sig .scVector .hbm S4096x200x64 .f32).slice (Rect.unit (s := S4096x200x64) (k0_off13 L k 0#32 0#32) S2x200x64.size (k0_off13_inb L k 0 0)) (fun _ => rfl)).view.loc (V d (cV L) (jV L))
            ↦[((Memref.whole main_v1_scv : Memref sig .scVector .hbm S4096x200x64 .f32).slice (Rect.unit (s := S4096x200x64) (k0_off13 L k 0#32 0#32) S2x200x64.size (k0_off13_inb L k 0 0)) (fun _ => rfl)).view.set]{fullShare} f)
        ∗ (((Memref.whole main_v1_scv : Memref sig .scVector .hbm S4096x200x64 .f32).slice (Rect.unit (s := S4096x200x64) (k0_off13 L k 0#32 2#32) S2x200x64.size (k0_off13_inb L k 0 1)) (fun _ => rfl)).view.loc (V d (cV L) (jV L))
            ↦[((Memref.whole main_v1_scv : Memref sig .scVector .hbm S4096x200x64 .f32).slice (Rect.unit (s := S4096x200x64) (k0_off13 L k 0#32 2#32) S2x200x64.size (k0_off13_inb L k 0 1)) (fun _ => rfl)).view.set]{fullShare} f)
        ∗ (((Memref.whole main_v1_scv : Memref sig .scVector .hbm S4096x200x64 .f32).slice (Rect.unit (s := S4096x200x64) (k0_off13 L k 0#32 4#32) S2x200x64.size (k0_off13_inb L k 0 2)) (fun _ => rfl)).view.loc (V d (cV L) (jV L))
            ↦[((Memref.whole main_v1_scv : Memref sig .scVector .hbm S4096x200x64 .f32).slice (Rect.unit (s := S4096x200x64) (k0_off13 L k 0#32 4#32) S2x200x64.size (k0_off13_inb L k 0 2)) (fun _ => rfl)).view.set]{fullShare} f)
        ∗ (((Memref.whole main_v1_scv : Memref sig .scVector .hbm S4096x200x64 .f32).slice (Rect.unit (s := S4096x200x64) (k0_off13 L k 0#32 6#32) S2x200x64.size (k0_off13_inb L k 0 3)) (fun _ => rfl)).view.loc (V d (cV L) (jV L))
            ↦[((Memref.whole main_v1_scv : Memref sig .scVector .hbm S4096x200x64 .f32).slice (Rect.unit (s := S4096x200x64) (k0_off13 L k 0#32 6#32) S2x200x64.size (k0_off13_inb L k 0 3)) (fun _ => rfl)).view.set]{fullShare} f)
        ∗ (((Memref.whole main_v1_scv : Memref sig .scVector .hbm S4096x200x64 .f32).slice (Rect.unit (s := S4096x200x64) (k0_off13 L k 1#32 0#32) S2x200x64.size (k0_off13_inb L k 1 0)) (fun _ => rfl)).view.loc (V d (cV L) (jV L))
            ↦[((Memref.whole main_v1_scv : Memref sig .scVector .hbm S4096x200x64 .f32).slice (Rect.unit (s := S4096x200x64) (k0_off13 L k 1#32 0#32) S2x200x64.size (k0_off13_inb L k 1 0)) (fun _ => rfl)).view.set]{fullShare} f)
        ∗ (((Memref.whole main_v1_scv : Memref sig .scVector .hbm S4096x200x64 .f32).slice (Rect.unit (s := S4096x200x64) (k0_off13 L k 1#32 2#32) S2x200x64.size (k0_off13_inb L k 1 1)) (fun _ => rfl)).view.loc (V d (cV L) (jV L))
            ↦[((Memref.whole main_v1_scv : Memref sig .scVector .hbm S4096x200x64 .f32).slice (Rect.unit (s := S4096x200x64) (k0_off13 L k 1#32 2#32) S2x200x64.size (k0_off13_inb L k 1 1)) (fun _ => rfl)).view.set]{fullShare} f)
        ∗ (((Memref.whole main_v1_scv : Memref sig .scVector .hbm S4096x200x64 .f32).slice (Rect.unit (s := S4096x200x64) (k0_off13 L k 1#32 4#32) S2x200x64.size (k0_off13_inb L k 1 2)) (fun _ => rfl)).view.loc (V d (cV L) (jV L))
            ↦[((Memref.whole main_v1_scv : Memref sig .scVector .hbm S4096x200x64 .f32).slice (Rect.unit (s := S4096x200x64) (k0_off13 L k 1#32 4#32) S2x200x64.size (k0_off13_inb L k 1 2)) (fun _ => rfl)).view.set]{fullShare} f)
        ∗ (((Memref.whole main_v1_scv : Memref sig .scVector .hbm S4096x200x64 .f32).slice (Rect.unit (s := S4096x200x64) (k0_off13 L k 1#32 6#32) S2x200x64.size (k0_off13_inb L k 1 3)) (fun _ => rfl)).view.loc (V d (cV L) (jV L))
            ↦[((Memref.whole main_v1_scv : Memref sig .scVector .hbm S4096x200x64 .f32).slice (Rect.unit (s := S4096x200x64) (k0_off13 L k 1#32 6#32) S2x200x64.size (k0_off13_inb L k 1 3)) (fun _ => rfl)).view.set]{fullShare} f))
        ∗ oLoc d ↦[rowsSet (B0 L + 16 * (k.val + 1)) (B0 L + 128)]{fullShare} f) := by
  have hk : k.val < 8 := lt_of_lt_of_eq k.isLt trips_eq
  refine BiEntails.of_eq ?_
  rw [chunk_rows_00 d L f k, chunk_rows_01 d L f k, chunk_rows_02 d L f k, chunk_rows_03 d L f k, chunk_rows_10 d L f k, chunk_rows_11 d L f k, chunk_rows_12 d L f k, chunk_rows_13 d L f k,
    ← eight_join d f (B0 L + 16 * k.val),
    rowsSet_congr (a := B0 L + 16 * (k.val + 1)) (a' := B0 L + 16 * k.val + 16) (b' := B0 L + 128) (by omega) rfl]
  exact rows_split d f (by omega) (by omega)

/-! ## The rows already copied out -/

/-- (W4) After trip k ≥ 1 has issued its first six chunks: the rows done before, the two chunks of the previous trip
    just waited for, and the six new chunks' rows are the rows done now. -/
theorem done_join (f : Buf (Elt F) (oLoc d)) (k : ℕ) (hk : 1 ≤ k) (hk8 : k < 8) :
    iprop((oLoc d ↦[rowsSet (B0 L) (B0 L + 16 * k - 4)]{fullShare} f)
        ∗ (oLoc d ↦[rowsSet (B0 L + 16 * k - 4) (B0 L + 16 * k - 2)]{fullShare} f)
        ∗ (oLoc d ↦[rowsSet (B0 L + 16 * k - 2) (B0 L + 16 * k)]{fullShare} f)
        ∗ (oLoc d ↦[rowsSet (B0 L + 16 * k) (B0 L + 16 * k + 12)]{fullShare} f))
      ⊣⊢ (oLoc d ↦[rowsSet (B0 L) (B0 L + 16 * (k + 1) - 4)]{fullShare} f : sProp 𝕄) := by
  refine BiEntails.of_eq ?_
  rw [rowsSet_congr (a := B0 L) (b := B0 L + 16 * (k + 1) - 4) (a' := B0 L) (b' := B0 L + 16 * k + 12) rfl (by omega),
    rows_split d f (a := B0 L) (b := B0 L + 16 * k - 4) (c := B0 L + 16 * k + 12) (by omega) (by omega),
    rows_split d f (a := B0 L + 16 * k - 4) (b := B0 L + 16 * k - 2) (c := B0 L + 16 * k + 12) (by omega) (by omega),
    rows_split d f (a := B0 L + 16 * k - 2) (b := B0 L + 16 * k) (c := B0 L + 16 * k + 12) (by omega) (by omega)]

/-- Before the first trip nothing is done: the range of rows done is empty. -/
theorem done_zero (f : Buf (Elt F) (oLoc d)) :
    (oLoc d ↦[rowsSet (B0 L) (B0 L + 16 * 0 - 4)]{fullShare} f : sProp 𝕄) = iprop(emp) :=
  rows_empty d f (by omega)

/-- The same, of the set. -/
theorem done_zero_set : rowsSet (B0 L) (B0 L + 16 * 0 - 4) = ∅ := rowsSet_eq_empty (by omega)

/-- (W5) Before the first trip the rows still to be written are the whole block. -/
theorem first_start (f : Buf (Elt F) (oLoc d)) :
    (oLoc d ↦[rowsSet (B0 L + 16 * 0) (B0 L + 128)]{fullShare} f : sProp 𝕄) = oLoc d ↦[oBlk (widL L)]{fullShare} f := by
  rw [rows_ofBlk, rowsSet_congr (a := B0 L + 16 * 0) (a' := B0 L) (b' := B0 L + 128) (by omega) rfl]

/-- (W4) for trip k' + 1, with no side condition on k'. -/
theorem done_join_succ (f : Buf (Elt F) (oLoc d)) (k' : ℕ) (hk8 : k' + 1 < 8) :
    iprop((oLoc d ↦[rowsSet (B0 L) (B0 L + 16 * (k' + 1) - 4)]{fullShare} f)
        ∗ (oLoc d ↦[rowsSet (B0 L + 16 * (k' + 1) - 4) (B0 L + 16 * (k' + 1) - 2)]{fullShare} f)
        ∗ (oLoc d ↦[rowsSet (B0 L + 16 * (k' + 1) - 2) (B0 L + 16 * (k' + 1))]{fullShare} f)
        ∗ (oLoc d ↦[rowsSet (B0 L + 16 * (k' + 1)) (B0 L + 16 * (k' + 1) + 12)]{fullShare} f))
      ⊣⊢ (oLoc d ↦[rowsSet (B0 L) (B0 L + 16 * (k' + 1 + 1) - 4)]{fullShare} f : sProp 𝕄) :=
  done_join d L f (k' + 1) (by omega) hk8

/-- The first six chunks of trip k, as ranges of rows, are the first twelve rows of the trip's sixteen. -/
theorem six_join (f : Buf (Elt F) (oLoc d)) (k : Fin 8) :
    (iprop((oLoc d ↦[rowsSet (B0 L + 16 * k.val) (B0 L + 16 * k.val + 2)]{fullShare} f)
        ∗ (oLoc d ↦[rowsSet (B0 L + 16 * k.val + 2) (B0 L + 16 * k.val + 4)]{fullShare} f)
        ∗ (oLoc d ↦[rowsSet (B0 L + 16 * k.val + 4) (B0 L + 16 * k.val + 6)]{fullShare} f)
        ∗ (oLoc d ↦[rowsSet (B0 L + 16 * k.val + 6) (B0 L + 16 * k.val + 8)]{fullShare} f)
        ∗ (oLoc d ↦[rowsSet (B0 L + 16 * k.val + 8) (B0 L + 16 * k.val + 10)]{fullShare} f)
        ∗ (oLoc d ↦[rowsSet (B0 L + 16 * k.val + 10) (B0 L + 16 * k.val + 12)]{fullShare} f)) : sProp 𝕄)
      ⊣⊢ oLoc d ↦[rowsSet (B0 L + 16 * k.val) (B0 L + 16 * k.val + 12)]{fullShare} f :=
  BiEntails.of_eq (six_join_at d f (B0 L + 16 * k.val))

/-- At the end: the rows done, and the last trip's last two chunks, are the whole block. -/
theorem end_join (f : Buf (Elt F) (oLoc d)) :
    iprop((oLoc d ↦[rowsSet (B0 L) (B0 L + 128 - 4)]{fullShare} f)
        ∗ (oLoc d ↦[rowsSet (B0 L + 124) (B0 L + 126)]{fullShare} f)
        ∗ (oLoc d ↦[rowsSet (B0 L + 126) (B0 L + 128)]{fullShare} f))
      ⊣⊢ (oLoc d ↦[rowsSet (B0 L) (B0 L + 128)]{fullShare} f : sProp 𝕄) := by
  refine BiEntails.of_eq ?_
  rw [rows_split d f (a := B0 L) (b := B0 L + 128 - 4) (c := B0 L + 128) (by omega) (by omega),
    rowsSet_congr (a := B0 L + 128 - 4) (b := B0 L + 128) (a' := B0 L + 124) (b' := B0 L + 128) (by omega) rfl,
    rows_split d f (a := B0 L + 124) (b := B0 L + 126) (c := B0 L + 128) (by omega) (by omega)]

end Rows

end Cert.Proof.KB

end
-- ==== Proof.KBFacts.lean ====
/-
  The two value facts a task's invariant carries about data in motion: an input scratch holds eight rows of the bits,
  and two rows of the result array agree with the result function.
-/
import proofs.«206263_g65532611002545_cont_9to1c4b_62_29_alg».proof.Proof.KBProto

noncomputable section

namespace Cert.Proof.KB

open Cert.Kernel Cert.Kernel.Gen
open Idealize.ShloMosaic Idealize.ShloMosaic.ValueIdx

variable {F : FTy → Type}

/-- The input scratch `fd` holds rows `row … row + 7` of the bits `n`. -/
def NvOK (n : IVec S4096x400 32) (row : ℕ) (fd : IVec S8x400 32) : Prop :=
  ∃ hrow : row + 8 ≤ 4096, ∀ (r : Fin 8) (c : Fin 400),
    fd (ix2 (n0 := 8) (n1 := 400) r c) = n (ix2 (n0 := 4096) (n1 := 400) ⟨row + r.val, by have := r.isLt; omega⟩ c)

/-- The output scratch `f` holds rows `a, a + 1` of the result function `R`. -/
def OutvOK (R : FVec F S4096x200x64 .f32) (a : ℕ) (f : FVec F S2x200x64 .f32) : Prop :=
  ∃ ha : a + 2 ≤ 4096, ∀ (r2 : Fin 2) (s : Fin 200) (c : Fin 64),
    f (ix3 (n0 := 2) (n1 := 200) (n2 := 64) r2 s c) = R (ix3 (n0 := 4096) (n1 := 200) (n2 := 64) ⟨a + r2.val, by have := r2.isLt; omega⟩ s c)

/-- The array contents `g` agree with `R` on rows `a … b − 1`. -/
def RowsOK (R g : FVec F S4096x200x64 .f32) (a b : ℕ) : Prop :=
  ∀ i : S4096x200x64.Idx, a ≤ (i 0).val → (i 0).val < b → g i = R i

end Cert.Proof.KB

end
-- ==== Proof.KBInv.lean ====
/-
  What a task holds before trip k of its pair loop, and the small facts the trips share.

  Two input slots (each: a scratch for eight rows of the bits, a semaphore) and two output slots (each: a scratch for
  two rows of the result, a semaphore).  Before trip k < 8 both input slots have their copy outstanding (rows 16k … of
  the task's block for slot 0, 16k + 8 … for slot 1); after the last trip they rest.  Before the first trip the output
  slots rest; before a later trip each still has the previous trip's last write-out outstanding (rows 16k − 4, 16k − 3
  for slot 0 and 16k − 2, 16k − 1 for slot 1).  Of the task's 128 rows of the result, rows 16k … are untouched (at the
  launch contents) and rows … 16k − 5 are done (at the result function R).
-/
import proofs.«206263_g65532611002545_cont_9to1c4b_62_29_alg».proof.Proof.KBRes
import proofs.«206263_g65532611002545_cont_9to1c4b_62_29_alg».proof.Proof.KBRows
import proofs.«206263_g65532611002545_cont_9to1c4b_62_29_alg».proof.Proof.KBFacts
import proofs.«206263_g65532611002545_cont_9to1c4b_62_29_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

variable (d : Dev nD) (L : grid0.Coords)

/-- An inner loop touches one token scratch (read) and one output scratch (written); frame only. -/
def invGF (bK : Memref sig .scVector .vmem S1600 .i32) (bO : Memref sig .scVector .vmem S2x200x64 .f32) (_ : Nat) (_ : BitVec 32) : sProp 𝕄 :=
  iprop((∃ Y, bK.view.loc (V d (cV L) (jV L)) ↦{fullShare} Y) ∗ ∃ f, bO.view.loc (V d (cV L) (jV L)) ↦{fullShare} f)

/-- The prefetch guards: a slot is refilled in every trip but the last. -/
theorem cond1_lt : ∀ k : Fin k0_t1_loop.trips, k.val < 7 → k0_cond1 k = 1#1 := by decide
theorem cond1_ge : ∀ k : Fin k0_t1_loop.trips, ¬ k.val < 7 → ¬ k0_cond1 k = 1#1 := by decide
theorem cond4_lt : ∀ k : Fin k0_t1_loop.trips, k.val < 7 → k0_cond4 k = 1#1 := by decide
theorem cond4_ge : ∀ k : Fin k0_t1_loop.trips, ¬ k.val < 7 → ¬ k0_cond4 k = 1#1 := by decide

/-- Input slot 0 with its copy outstanding: the flight carries the slot's scratch (at what lands: rows `row …` of
    the bits) and the rows of the bits lent to it; the rest of that share of the bits is beside it. -/
def InFl0 (q : PosShare TreeShare) (sm : SemLoc sig) (row : ℕ) : sProp 𝕄 :=
  iprop(∃ (I : Finset (Idx ((Memref.whole main_arg0_scv : Memref sig .scVector .hbm S4096x400 .i32).view.loc (V d (cV L) (jV L))))) (fd : Buf (Elt F) ((Memref.whole cc0_scratch0 : Memref sig .scVector .vmem S8x400 .i32).view.loc (V d (cV L) (jV L)))),
    ⌜NvOK (m (nLoc d)) row fd⌝ ∗ Transfers.Flight countersEmb (V d (cV L) (jV L)) sm (default : HIx 1) 102400
      iprop(((Memref.whole cc0_scratch0 : Memref sig .scVector .vmem S8x400 .i32).view.loc (V d (cV L) (jV L)) ↦{fullShare} fd) ∗ ((Memref.whole main_arg0_scv : Memref sig .scVector .hbm S4096x400 .i32).view.loc (V d (cV L) (jV L)) ↦[I]{q} m (nLoc d)))
    ∗ ((Memref.whole main_arg0_scv : Memref sig .scVector .hbm S4096x400 .i32).view.loc (V d (cV L) (jV L)) ↦[Finset.univ \ I]{q} m (nLoc d)))
/-- Input slot 0 at rest (after the last trip): scratch, semaphore at zero, the share of the bits whole. -/
def InHeld0 (q : PosShare TreeShare) (sm : SemLoc sig) : sProp 𝕄 :=
  iprop((∃ fd, (Memref.whole cc0_scratch0 : Memref sig .scVector .vmem S8x400 .i32).view.loc (V d (cV L) (jV L)) ↦{fullShare} fd) ∗ semVal ((V d (cV L) (jV L)), sm) 0 ∗ ((Memref.whole main_arg0_scv : Memref sig .scVector .hbm S4096x400 .i32).view.loc (V d (cV L) (jV L)) ↦[Finset.univ]{q} m (nLoc d)))
def InSt0 (q : PosShare TreeShare) (sm : SemLoc sig) (row : ℕ) (k : ℕ) : sProp 𝕄 :=
  if k < 8 then InFl0 m d L q sm row else InHeld0 m d L q sm

/-- Input slot 1 with its copy outstanding: the flight carries the slot's scratch (at what lands: rows `row …` of
    the bits) and the rows of the bits lent to it; the rest of that share of the bits is beside it. -/
def InFl1 (q : PosShare TreeShare) (sm : SemLoc sig) (row : ℕ) : sProp 𝕄 :=
  iprop(∃ (I : Finset (Idx ((Memref.whole main_arg0_scv : Memref sig .scVector .hbm S4096x400 .i32).view.loc (V d (cV L) (jV L))))) (fd : Buf (Elt F) ((Memref.whole cc0_scratch5 : Memref sig .scVector .vmem S8x400 .i32).view.loc (V d (cV L) (jV L)))),
    ⌜NvOK (m (nLoc d)) row fd⌝ ∗ Transfers.Flight countersEmb (V d (cV L) (jV L)) sm (default : HIx 1) 102400
      iprop(((Memref.whole cc0_scratch5 : Memref sig .scVector .vmem S8x400 .i32).view.loc (V d (cV L) (jV L)) ↦{fullShare} fd) ∗ ((Memref.whole main_arg0_scv : Memref sig .scVector .hbm S4096x400 .i32).view.loc (V d (cV L) (jV L)) ↦[I]{q} m (nLoc d)))
    ∗ ((Memref.whole main_arg0_scv : Memref sig .scVector .hbm S4096x400 .i32).view.loc (V d (cV L) (jV L)) ↦[Finset.univ \ I]{q} m (nLoc d)))
/-- Input slot 1 at rest (after the last trip): scratch, semaphore at zero, the share of the bits whole. -/
def InHeld1 (q : PosShare TreeShare) (sm : SemLoc sig) : sProp 𝕄 :=
  iprop((∃ fd, (Memref.whole cc0_scratch5 : Memref sig .scVector .vmem S8x400 .i32).view.loc (V d (cV L) (jV L)) ↦{fullShare} fd) ∗ semVal ((V d (cV L) (jV L)), sm) 0 ∗ ((Memref.whole main_arg0_scv : Memref sig .scVector .hbm S4096x400 .i32).view.loc (V d (cV L) (jV L)) ↦[Finset.univ]{q} m (nLoc d)))
def InSt1 (q : PosShare TreeShare) (sm : SemLoc sig) (row : ℕ) (k : ℕ) : sProp 𝕄 :=
  if k < 8 then InFl1 m d L q sm row else InHeld1 m d L q sm

/-- An output slot with its write-out outstanding: the flight carries two rows of the result (at what lands) and the
    slot's scratch. -/
def OutFl (R : Buf (Elt F) (oLoc d)) (sm : SemLoc sig) (bO : Memref sig .scVector .vmem S2x200x64 .f32) (a b : ℕ) : sProp 𝕄 :=
  iprop(∃ (gC : Buf (Elt F) (oLoc d)) (fo : Buf (Elt F) (bO.view.loc (V d (cV L) (jV L)))),
    ⌜RowsOK R gC a b⌝ ∗ Transfers.Flight countersEmb (V d (cV L) (jV L)) sm (default : HIx 1) 819200
      iprop((oLoc d ↦[rowsSet a b]{fullShare} gC) ∗ (bO.view.loc (V d (cV L) (jV L)) ↦[bO.view.set]{fullShare} fo))
    ∗ (bO.view.loc (V d (cV L) (jV L)) ↦[Finset.univ \ bO.view.set]{fullShare} fo))
/-- The two output slots: at rest before the first trip, in flight with the previous trip's last four rows after. -/
def OutSt (R : Buf (Elt F) (oLoc d)) : ℕ → sProp 𝕄
  | 0 => iprop((∃ f, (Memref.whole cc0_scratch2 : Memref sig .scVector .vmem S2x200x64 .f32).view.loc (V d (cV L) (jV L)) ↦{fullShare} f) ∗ (∃ f, (Memref.whole cc0_scratch7 : Memref sig .scVector .vmem S2x200x64 .f32).view.loc (V d (cV L) (jV L)) ↦{fullShare} f)
      ∗ semVal (gOut0 d (cV L) (jV L)) 0 ∗ semVal (gOut1 d (cV L) (jV L)) 0)
  | k + 1 => iprop(OutFl d L R (SemLoc.dma cc0_scratch4.sem) (Memref.whole cc0_scratch2 : Memref sig .scVector .vmem S2x200x64 .f32) (B0 L + 16 * k + 12) (B0 L + 16 * k + 14)
      ∗ OutFl d L R (SemLoc.dma cc0_scratch9.sem) (Memref.whole cc0_scratch7 : Memref sig .scVector .vmem S2x200x64 .f32) (B0 L + 16 * k + 14) (B0 L + 16 * k + 16))

/-- Where the done rows end before trip `k`: nothing before the first trip; after trip `k` all of its rows but the last four. -/
def doneEnd (L : grid0.Coords) : ℕ → ℕ
  | 0 => B0 L
  | k + 1 => B0 L + 16 * k + 12

/-- Two adjacent row ranges at one function are their union; -/
theorem rows_join (R : Buf (Elt F) (oLoc d)) {a b c : ℕ} (hab : a ≤ b) (hbc : b ≤ c) :
    iprop((oLoc d ↦[rowsSet a b]{fullShare} R) ∗ (oLoc d ↦[rowsSet b c]{fullShare} R)) ⊢ (oLoc d ↦[rowsSet a c]{fullShare} R : sProp 𝕄) :=
  Entails.of_eq (rows_split d R hab hbc).symm
/-- and a row range may be spelt by any equal ends. -/
theorem rows_respell (R : Buf (Elt F) (oLoc d)) {a b a' b' : ℕ} (ha : a = a') (hb : b = b') :
    (oLoc d ↦[rowsSet a b]{fullShare} R : sProp 𝕄) ⊢ oLoc d ↦[rowsSet a' b']{fullShare} R := by
  subst ha; subst hb; exact Entails.refl _

/-- Before trip `k` of the pair loop. -/
def invP (O : CellTallies nD τ sig (HIx 1)) (W : Waits sig (HIx 1)) (X : Buf (Elt F) ((V d (cV L) (jV L)).loc cc0_scratch10)) (R : Buf (Elt F) (oLoc d)) (k : Nat) (_ : BitVec 32) : sProp 𝕄 :=
  iprop(Transfers.MayWaits (V d (cV L) (jV L)) (none : HIx 1) O
    ∗ InSt0 m d L (Transfers.shareTok fullShare 32 (widL L)).left (SemLoc.dma cc0_scratch3.sem) (B0 L + 16 * k) k
    ∗ InSt1 m d L (Transfers.shareTok fullShare 32 (widL L)).right (SemLoc.dma cc0_scratch8.sem) (B0 L + 16 * k + 8) k
    ∗ (∃ f, (Memref.whole cc0_scratch1 : Memref sig .scVector .vmem S1600 .i32).view.loc (V d (cV L) (jV L)) ↦{fullShare} f)
    ∗ (∃ f, (Memref.whole cc0_scratch6 : Memref sig .scVector .vmem S1600 .i32).view.loc (V d (cV L) (jV L)) ↦{fullShare} f)
    ∗ ((Memref.whole cc0_scratch10 : Memref sig .scVector .vmem S256 .f32).view.loc (V d (cV L) (jV L)) ↦{fullShare} X)
    ∗ OutSt d L R k
    ∗ (oLoc d ↦[rowsSet (B0 L + 16 * k) (B0 L + 128)]{fullShare} m (oLoc d))
    ∗ (oLoc d ↦[rowsSet (B0 L) (doneEnd L k)]{fullShare} R)
    ∗ ∃ W', ⌜∀ p ∈ W', p ∈ W ∨ p.2 = none⌝ ∗ owes (V d (cV L) (jV L)) O W')

/-- A flight's delivery may be restated by an equal assertion. -/
theorem flight_congr {sm : SemLoc sig} {N : ℕ} {D D' E : sProp 𝕄} (h : D = D') :
    Transfers.Flight countersEmb (V d (cV L) (jV L)) sm (default : HIx 1) N iprop(D ∗ E) ⊢ Transfers.Flight countersEmb (V d (cV L) (jV L)) sm (default : HIx 1) N iprop(D' ∗ E) := by
  subst h; exact Entails.refl _

/-- Rows that agree with the result function may be held at it. -/
theorem rows_to_R (R g : Buf (Elt F) (oLoc d)) {a b : ℕ} (h : RowsOK R g a b) :
    (oLoc d ↦[rowsSet a b]{fullShare} g : sProp 𝕄) ⊢ oLoc d ↦[rowsSet a b]{fullShare} R :=
  Entails.of_eq (pointsTo_congr fun i hi => h i ((mem_rowsSet a b i).mp hi).1 ((mem_rowsSet a b i).mp hi).2)

theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

end Cert.Proof.KB

end
-- ==== Proof.KBMoves.lean ====
/-
  Three facts of pure data movement inside a task.

  The token words.  A task's input scratch holds eight rows of the occupation bits, per row the 200 "down" words then
  the 200 "up" words.  The token scratch is written sixteen words at a time: the piece at  200·r + o  holds, lane by
  lane, the up word plus the down word twice of row r at sites o … o + 15.  Whatever order the pieces are written in,
  and although two of a row's pieces overlap, every piece is a block of ONE function of the scratch's index — word
  200·r + s is  up(r, s) + down(r, s) + down(r, s)  — so the scratch reads back as that function wherever a piece
  covers, and the pieces cover it.

  The copies.  A copy of eight rows of the bits into an input scratch leaves the scratch at those rows; the write-out
  of an output scratch into a two-row chunk of the result leaves the chunk at the scratch's contents.
-/
import proofs.«206263_g65532611002545_cont_9to1c4b_62_29_alg».proof.Proof.KBChunks
import proofs.«206263_g65532611002545_cont_9to1c4b_62_29_alg».proof.Proof.KBFacts
import Idealize.ShloMosaic.Lib.ValueLayout
import Idealize.ShloMosaic.Lib.Pipeline.Value
import Idealize.ShloMosaic.Lib.Writes
import Idealize.ShloMosaic.Lib.Ring

noncomputable section

namespace Cert.Proof.KB

open Cert.Kernel Cert.Kernel.Gen

open Idealize.ShloMosaic
open Idealize.ShloMosaic.SparseCore (S V T)
open Idealize.ShloMosaic.ValueIdx

variable {F : FTy → Type}

/-! ## The token words -/

/-- The token word of site `s` of row `r` of an input scratch: the up word plus the down word twice. -/
def tokAt (fd : IVec S8x400 32) (r : Fin 8) (s : Fin 200) : BitVec 32 :=
  Scalar.addi (Scalar.addi (fd (ix2 (n0 := 8) (n1 := 400) r ⟨200 + s.val, by have := s.isLt; omega⟩))
      (fd (ix2 (n0 := 8) (n1 := 400) r ⟨s.val, by have := s.isLt; omega⟩)))
    (fd (ix2 (n0 := 8) (n1 := 400) r ⟨s.val, by have := s.isLt; omega⟩))

/-- The token scratch as one function of its index: word 200·r + s is the token word of site s of row r. -/
def tokOf (fd : IVec S8x400 32) : IVec S1600 32 := fun y =>
  tokAt fd ⟨(y 0).val / 200, by have h : (y 0).val < 1600 := (y 0).isLt; omega⟩ ⟨(y 0).val % 200, Nat.mod_lt _ (by decide)⟩

theorem tokOf_of (fd : IVec S8x400 32) (y : S1600.Idx) (r : Fin 8) (s : Fin 200) (h : (y 0).val = 200 * r.val + s.val) :
    tokOf fd y = tokAt fd r s := by
  have hs := s.isLt
  unfold tokOf
  congr 1 <;> apply Fin.ext <;> simp only <;> omega

theorem tokOf_ix (fd : IVec S8x400 32) (r : Fin 8) (s : Fin 200) (h : 200 * r.val + s.val < 1600) :
    tokOf fd (ix1 (n := 1600) ⟨200 * r.val + s.val, h⟩) = tokAt fd r s :=
  tokOf_of fd _ r s rfl

/-- Where a sixteen-word load of row `r` from column `o` reads its lane `j`. -/
theorem idx_row (r o : ℕ) (inb : ∀ a, (![r, o] : Fin 2 → ℕ) a + S1x16.size a ≤ S8x400.size a) (j : Fin 16) (a : Fin 8) (b : Fin 400)
    (ha : a.val = r) (hb : b.val = o + j.val) :
    (Rect.unit (s := S8x400) ![r, o] S1x16.size inb).toLoadRect.idx (ix2 (n0 := 1) (n1 := 16) 0 j) = ix2 (n0 := 8) (n1 := 400) a b := by
  funext c
  match c with
  | ⟨0, _⟩ => exact Fin.ext (by show r + 1 * 0 = a.val; omega)
  | ⟨1, _⟩ => exact Fin.ext (by show o + 1 * j.val = b.val; omega)

/-- A sixteen-word load of row `r` from column `o` lies in the input scratch; a sixteen-word piece at `o` in the token scratch. -/
theorem inb_row (r o : ℕ) (hr : r < 8) (ho : o + 16 ≤ 400) : ∀ a, (![r, o] : Fin 2 → ℕ) a + S1x16.size a ≤ S8x400.size a := by
  intro a
  match a with
  | ⟨0, _⟩ => show r + 1 ≤ 8; omega
  | ⟨1, _⟩ => show o + 16 ≤ 400; omega
theorem inb_tok (o : ℕ) (ho : o + 16 ≤ 1600) : ∀ a, (![o] : Fin 1 → ℕ) a + S16.size a ≤ S1600.size a := by
  intro a
  match a with
  | ⟨0, _⟩ => show o + 16 ≤ 1600; omega

/-- One piece of the token scratch, as the kernel computes it from two sixteen-word loads of an input scratch (the
    first input scratch here), is a block of `tokOf`. -/
theorem tok_piece0 (fd : IVec S8x400 32) (r oU oD oP : ℕ)
    (hU : oU = oD + 200) (hP : oP = 200 * r + oD) (hD : oD + 16 ≤ 200) (hr : r < 8) (x : S16.Idx) :
    shapeCast S16
        (addi (addi
            (shapeCast S16 (View.readAt (Elt F) (Memref.whole cc0_scratch0 : Memref sig .scVector .vmem S8x400 .i32).view
              (Rect.unit (s := S8x400) ![r, oU] S1x16.size (inb_row r oU hr (by omega))).toLoadRect fd) shapeCasts_S1x16_S16)
            (shapeCast S16 (View.readAt (Elt F) (Memref.whole cc0_scratch0 : Memref sig .scVector .vmem S8x400 .i32).view
              (Rect.unit (s := S8x400) ![r, oD] S1x16.size (inb_row r oD hr (by omega))).toLoadRect fd) shapeCasts_S1x16_S16))
          (shapeCast S16 (View.readAt (Elt F) (Memref.whole cc0_scratch0 : Memref sig .scVector .vmem S8x400 .i32).view
            (Rect.unit (s := S8x400) ![r, oD] S1x16.size (inb_row r oD hr (by omega))).toLoadRect fd) shapeCasts_S1x16_S16))
        shapeCasts_S16_S16 x
      = tokOf fd ((Rect.unit (s := S1600) ![oP] S16.size (inb_tok oP (by omega))).emb x) := by
  subst hU hP
  obtain ⟨j, rfl⟩ : ∃ j : Fin 16, x = ix1 (n := 16) j := ⟨x 0, eq_ix1 x⟩
  have hj := j.isLt
  rw [shapeCast_self,
    tokOf_of fd _ ⟨r, hr⟩ ⟨oD + j.val, by omega⟩ (show 200 * r + oD + 1 * j.val = 200 * r + (oD + j.val) by omega)]
  show IntOp.addi (IntOp.addi (shapeCast S16 _ shapeCasts_S1x16_S16 (ix1 (n := 16) j)) (shapeCast S16 _ shapeCasts_S1x16_S16 (ix1 (n := 16) j)))
      (shapeCast S16 _ shapeCasts_S1x16_S16 (ix1 (n := 16) j)) = _
  rw [shapeCast_1a_a_apply, shapeCast_1a_a_apply]
  simp only [View.readAt_apply]
  rw [idx_row r (oD + 200) _ j ⟨r, hr⟩ ⟨200 + (oD + j.val), by omega⟩ rfl (by show 200 + (oD + j.val) = oD + 200 + j.val; omega),
    idx_row r oD _ j ⟨r, hr⟩ ⟨oD + j.val, by omega⟩ rfl rfl]
  rfl

/-- One piece of the token scratch, as the kernel computes it from two sixteen-word loads of an input scratch (the
    second input scratch here), is a block of `tokOf`. -/
theorem tok_piece5 (fd : IVec S8x400 32) (r oU oD oP : ℕ)
    (hU : oU = oD + 200) (hP : oP = 200 * r + oD) (hD : oD + 16 ≤ 200) (hr : r < 8) (x : S16.Idx) :
    shapeCast S16
        (addi (addi
            (shapeCast S16 (View.readAt (Elt F) (Memref.whole cc0_scratch5 : Memref sig .scVector .vmem S8x400 .i32).view
              (Rect.unit (s := S8x400) ![r, oU] S1x16.size (inb_row r oU hr (by omega))).toLoadRect fd) shapeCasts_S1x16_S16)
            (shapeCast S16 (View.readAt (Elt F) (Memref.whole cc0_scratch5 : Memref sig .scVector .vmem S8x400 .i32).view
              (Rect.unit (s := S8x400) ![r, oD] S1x16.size (inb_row r oD hr (by omega))).toLoadRect fd) shapeCasts_S1x16_S16))
          (shapeCast S16 (View.readAt (Elt F) (Memref.whole cc0_scratch5 : Memref sig .scVector .vmem S8x400 .i32).view
            (Rect.unit (s := S8x400) ![r, oD] S1x16.size (inb_row r oD hr (by omega))).toLoadRect fd) shapeCasts_S1x16_S16))
        shapeCasts_S16_S16 x
      = tokOf fd ((Rect.unit (s := S1600) ![oP] S16.size (inb_tok oP (by omega))).emb x) := by
  subst hU hP
  obtain ⟨j, rfl⟩ : ∃ j : Fin 16, x = ix1 (n := 16) j := ⟨x 0, eq_ix1 x⟩
  have hj := j.isLt
  rw [shapeCast_self,
    tokOf_of fd _ ⟨r, hr⟩ ⟨oD + j.val, by omega⟩ (show 200 * r + oD + 1 * j.val = 200 * r + (oD + j.val) by omega)]
  show IntOp.addi (IntOp.addi (shapeCast S16 _ shapeCasts_S1x16_S16 (ix1 (n := 16) j)) (shapeCast S16 _ shapeCasts_S1x16_S16 (ix1 (n := 16) j)))
      (shapeCast S16 _ shapeCasts_S1x16_S16 (ix1 (n := 16) j)) = _
  rw [shapeCast_1a_a_apply, shapeCast_1a_a_apply]
  simp only [View.readAt_apply]
  rw [idx_row r (oD + 200) _ j ⟨r, hr⟩ ⟨200 + (oD + j.val), by omega⟩ rfl (by show 200 + (oD + j.val) = oD + 200 + j.val; omega),
    idx_row r oD _ j ⟨r, hr⟩ ⟨oD + j.val, by omega⟩ rfl rfl]
  rfl

/-- A token scratch written by pieces each a block of `tokOf`, the pieces covering it, reads the token word of site
    `s` of row `r` at word 200·r + s, whatever it held before (the first token scratch; then the second). -/
theorem tokY1 (fd : IVec S8x400 32) (f0 : (Memref.whole cc0_scratch1 : Memref sig .scVector .vmem S1600 .i32).view.ty.Contents (Elt F))
    (Lst : List (View.Piece (Elt F) S1600 .i32))
    (hp : ∀ p ∈ Lst, ∀ x : p.1.shape.Idx, p.2 x = tokOf fd (p.1.emb x))
    (hc : ∀ y : S1600.Idx, ∃ p ∈ Lst, y ∈ p.1.set) (r : Fin 8) (s : Fin 200) (h : 200 * r.val + s.val < 1600) :
    ((Memref.whole cc0_scratch1 : Memref sig .scVector .vmem S1600 .i32).view.writes (Elt F) f0 Lst) (ix1 (n := 1600) ⟨200 * r.val + s.val, h⟩)
      = tokAt fd r s :=
  (View.read_writes_apply_of_pieces (Memref.whole cc0_scratch1 : Memref sig .scVector .vmem S1600 .i32).view f0 (tokOf fd) Lst hp _ (hc _)).trans
    (tokOf_ix fd r s h)
theorem tokY6 (fd : IVec S8x400 32) (f0 : (Memref.whole cc0_scratch6 : Memref sig .scVector .vmem S1600 .i32).view.ty.Contents (Elt F))
    (Lst : List (View.Piece (Elt F) S1600 .i32))
    (hp : ∀ p ∈ Lst, ∀ x : p.1.shape.Idx, p.2 x = tokOf fd (p.1.emb x))
    (hc : ∀ y : S1600.Idx, ∃ p ∈ Lst, y ∈ p.1.set) (r : Fin 8) (s : Fin 200) (h : 200 * r.val + s.val < 1600) :
    ((Memref.whole cc0_scratch6 : Memref sig .scVector .vmem S1600 .i32).view.writes (Elt F) f0 Lst) (ix1 (n := 1600) ⟨200 * r.val + s.val, h⟩)
      = tokAt fd r s :=
  (View.read_writes_apply_of_pieces (Memref.whole cc0_scratch6 : Memref sig .scVector .vmem S1600 .i32).view f0 (tokOf fd) Lst hp _ (hc _)).trans
    (tokOf_ix fd r s h)

/-! ## A copy of eight rows of the bits into an input scratch -/

/-- After the copy the scratch holds, at (r, c), the bits at (first row + r, first column + c) — whatever it held before
    (the first input scratch; then the second). -/
theorem copyIn0 (off : Fin 2 → ℕ) (h : ∀ a, off a + S8x400.size a ≤ S4096x400.size a) (g : IVec S4096x400 32) (f0 : IVec S8x400 32)
    (r : Fin 8) (c : Fin 400) :
    (View.write (Elt F) (Memref.whole cc0_scratch0 : Memref sig .scVector .vmem S8x400 .i32).view f0
        (((Memref.whole main_arg0_scv : Memref sig .scVector .hbm S4096x400 .i32).slice (Rect.unit (s := S4096x400) off S8x400.size h) (fun _ => rfl)).view.read (Elt F) g)
        Finset.univ) (ix2 (n0 := 8) (n1 := 400) r c)
      = g (ix2 (n0 := 4096) (n1 := 400) ⟨off 0 + r.val, by have h0 : off 0 + 8 ≤ 4096 := h 0; have := r.isLt; omega⟩
          ⟨off 1 + c.val, by have h1 : off 1 + 400 ≤ 400 := h 1; have := c.isLt; omega⟩) := by
  refine (congrFun (View.write_whole_univ (Val := Elt F) (cc0_scratch0 : Ref sig .scVector) f0 _) (ix2 (n0 := 8) (n1 := 400) r c)).trans ?_
  refine ((View.read_apply _ _).trans (cast_eq _ _)).trans (congrArg g (funext fun a => ?_))
  match a with
  | ⟨0, _⟩ => exact Fin.ext (by show off 0 + 1 * r.val = off 0 + r.val; omega)
  | ⟨1, _⟩ => exact Fin.ext (by show off 1 + 1 * c.val = off 1 + c.val; omega)
theorem copyIn5 (off : Fin 2 → ℕ) (h : ∀ a, off a + S8x400.size a ≤ S4096x400.size a) (g : IVec S4096x400 32) (f0 : IVec S8x400 32)
    (r : Fin 8) (c : Fin 400) :
    (View.write (Elt F) (Memref.whole cc0_scratch5 : Memref sig .scVector .vmem S8x400 .i32).view f0
        (((Memref.whole main_arg0_scv : Memref sig .scVector .hbm S4096x400 .i32).slice (Rect.unit (s := S4096x400) off S8x400.size h) (fun _ => rfl)).view.read (Elt F) g)
        Finset.univ) (ix2 (n0 := 8) (n1 := 400) r c)
      = g (ix2 (n0 := 4096) (n1 := 400) ⟨off 0 + r.val, by have h0 : off 0 + 8 ≤ 4096 := h 0; have := r.isLt; omega⟩
          ⟨off 1 + c.val, by have h1 : off 1 + 400 ≤ 400 := h 1; have := c.isLt; omega⟩) := by
  refine (congrFun (View.write_whole_univ (Val := Elt F) (cc0_scratch5 : Ref sig .scVector) f0 _) (ix2 (n0 := 8) (n1 := 400) r c)).trans ?_
  refine ((View.read_apply _ _).trans (cast_eq _ _)).trans (congrArg g (funext fun a => ?_))
  match a with
  | ⟨0, _⟩ => exact Fin.ext (by show off 0 + 1 * r.val = off 0 + r.val; omega)
  | ⟨1, _⟩ => exact Fin.ext (by show off 1 + 1 * c.val = off 1 + c.val; omega)

/-! ## The write-out of an output scratch into a chunk of the result -/

section WriteOut

variable (L : grid0.Coords)

/-- Where entry (r2, s, c) of chunk (k, b, oc) lies in the result: row 128·w + 16·k + 8·b + 2·oc + r2. -/
theorem oChunk_emb (k : Fin k0_t1_loop.trips) (b : Fin 2) (oc : Fin 4) (r2 : Fin 2) (s : Fin 200) (c : Fin 64) :
    (oChunk L k b oc).view.emb (ix3 (n0 := 2) (n1 := 200) (n2 := 64) r2 s c)
      = ix3 (n0 := 4096) (n1 := 200) (n2 := 64)
          ⟨128 * (widL L).val + 16 * k.val + 8 * b.val + 2 * oc.val + r2.val, by
            have hk : k.val < 8 := lt_of_lt_of_eq k.isLt trips_eq
            have := (widL L).isLt; have := b.isLt; have := oc.isLt; have := r2.isLt; omega⟩ s c := by
  funext a
  apply Fin.ext
  show (k0_off13 L k (BitVec.ofNat 32 b.val) (BitVec.ofNat 32 (2 * oc.val))) a + 1 * ((ix3 (n0 := 2) (n1 := 200) (n2 := 64) r2 s c) a).val = _
  rw [k0_off13_eq]
  have hw := widL_val L
  match a with
  | ⟨0, _⟩ =>
    show 256 * (L 1).val + 128 * (L 0).val + 16 * k.val + 8 * b.val + 2 * oc.val + 1 * r2.val
      = 128 * (widL L).val + 16 * k.val + 8 * b.val + 2 * oc.val + r2.val
    omega
  | ⟨1, _⟩ => show 0 + 1 * s.val = s.val; omega
  | ⟨2, _⟩ => show 0 + 1 * c.val = c.val; omega

/-- After the write-out the chunk holds the scratch's contents, entry by entry — whatever the result held there before
    (the first output scratch; then the second). -/
theorem writeOut2 (k : Fin k0_t1_loop.trips) (b : Fin 2) (oc : Fin 4) (gOld : FVec F S4096x200x64 .f32) (f : FVec F S2x200x64 .f32)
    (r2 : Fin 2) (s : Fin 200) (c : Fin 64) :
    ((oChunk L k b oc).view.write (Elt F) gOld ((Memref.whole cc0_scratch2 : Memref sig .scVector .vmem S2x200x64 .f32).view.read (Elt F) f) Finset.univ)
        ((oChunk L k b oc).view.emb (ix3 (n0 := 2) (n1 := 200) (n2 := 64) r2 s c))
      = f (ix3 (n0 := 2) (n1 := 200) (n2 := 64) r2 s c) := by
  refine (View.write_emb_of_mem (Val := Elt F) (v := (oChunk L k b oc).view) gOld _ (Finset.mem_univ _)).trans ?_
  exact (cast_eq _ _).trans rfl
theorem writeOut7 (k : Fin k0_t1_loop.trips) (b : Fin 2) (oc : Fin 4) (gOld : FVec F S4096x200x64 .f32) (f : FVec F S2x200x64 .f32)
    (r2 : Fin 2) (s : Fin 200) (c : Fin 64) :
    ((oChunk L k b oc).view.write (Elt F) gOld ((Memref.whole cc0_scratch7 : Memref sig .scVector .vmem S2x200x64 .f32).view.read (Elt F) f) Finset.univ)
        ((oChunk L k b oc).view.emb (ix3 (n0 := 2) (n1 := 200) (n2 := 64) r2 s c))
      = f (ix3 (n0 := 2) (n1 := 200) (n2 := 64) r2 s c) := by
  refine (View.write_emb_of_mem (Val := Elt F) (v := (oChunk L k b oc).view) gOld _ (Finset.mem_univ _)).trans ?_
  exact (cast_eq _ _).trans rfl

/-- The same read at a row of the result: for a row inside the chunk, the chunk holds the scratch's entry at that row
    less the chunk's first. -/
theorem writeOut2_at (k : Fin k0_t1_loop.trips) (b : Fin 2) (oc : Fin 4) (gOld : FVec F S4096x200x64 .f32) (f : FVec F S2x200x64 .f32)
    (i : S4096x200x64.Idx) (hi : i ∈ (chunkRect L k b oc).set) :
    ((oChunk L k b oc).view.write (Elt F) gOld ((Memref.whole cc0_scratch2 : Memref sig .scVector .vmem S2x200x64 .f32).view.read (Elt F) f) Finset.univ) i
      = f (ix3 (n0 := 2) (n1 := 200) (n2 := 64)
          ⟨(i 0).val - (128 * (widL L).val + 16 * k.val + 8 * b.val + 2 * oc.val), by have := (mem_chunk L k b oc i).mp hi; omega⟩ (i 1) (i 2)) := by
  have hm := (mem_chunk L k b oc i).mp hi
  have e : (oChunk L k b oc).view.emb (ix3 (n0 := 2) (n1 := 200) (n2 := 64)
      ⟨(i 0).val - (128 * (widL L).val + 16 * k.val + 8 * b.val + 2 * oc.val), by omega⟩ (i 1) (i 2)) = i := by
    refine (oChunk_emb L k b oc _ _ _).trans ?_
    funext a
    match a with
    | ⟨0, _⟩ =>
      exact Fin.ext (by
        show 128 * (widL L).val + 16 * k.val + 8 * b.val + 2 * oc.val + ((i 0).val - (128 * (widL L).val + 16 * k.val + 8 * b.val + 2 * oc.val)) = (i 0).val
        omega)
    | ⟨1, _⟩ => rfl
    | ⟨2, _⟩ => rfl
  exact (congrArg ((oChunk L k b oc).view.write (Elt F) gOld ((Memref.whole cc0_scratch2 : Memref sig .scVector .vmem S2x200x64 .f32).view.read (Elt F) f) Finset.univ) e.symm).trans
    (writeOut2 L k b oc gOld f _ _ _)
theorem writeOut7_at (k : Fin k0_t1_loop.trips) (b : Fin 2) (oc : Fin 4) (gOld : FVec F S4096x200x64 .f32) (f : FVec F S2x200x64 .f32)
    (i : S4096x200x64.Idx) (hi : i ∈ (chunkRect L k b oc).set) :
    ((oChunk L k b oc).view.write (Elt F) gOld ((Memref.whole cc0_scratch7 : Memref sig .scVector .vmem S2x200x64 .f32).view.read (Elt F) f) Finset.univ) i
      = f (ix3 (n0 := 2) (n1 := 200) (n2 := 64)
          ⟨(i 0).val - (128 * (widL L).val + 16 * k.val + 8 * b.val + 2 * oc.val), by have := (mem_chunk L k b oc i).mp hi; omega⟩ (i 1) (i 2)) := by
  have hm := (mem_chunk L k b oc i).mp hi
  have e : (oChunk L k b oc).view.emb (ix3 (n0 := 2) (n1 := 200) (n2 := 64)
      ⟨(i 0).val - (128 * (widL L).val + 16 * k.val + 8 * b.val + 2 * oc.val), by omega⟩ (i 1) (i 2)) = i := by
    refine (oChunk_emb L k b oc _ _ _).trans ?_
    funext a
    match a with
    | ⟨0, _⟩ =>
      exact Fin.ext (by
        show 128 * (widL L).val + 16 * k.val + 8 * b.val + 2 * oc.val + ((i 0).val - (128 * (widL L).val + 16 * k.val + 8 * b.val + 2 * oc.val)) = (i 0).val
        omega)
    | ⟨1, _⟩ => rfl
    | ⟨2, _⟩ => rfl
  exact (congrArg ((oChunk L k b oc).view.write (Elt F) gOld ((Memref.whole cc0_scratch7 : Memref sig .scVector .vmem S2x200x64 .f32).view.read (Elt F) f) Finset.univ) e.symm).trans
    (writeOut7 L k b oc gOld f _ _ _)

end WriteOut

/-! ## The same facts, in the form a task's invariant carries them -/

/-- The landed copy holds eight rows of the bits from the copy's first row on (the first input scratch; then the second). -/
theorem land_ok0 (off : Fin 2 → ℕ) (h : ∀ a, off a + S8x400.size a ≤ S4096x400.size a) (g : IVec S4096x400 32) (f0 : IVec S8x400 32)
    (row : ℕ) (h0 : off 0 = row) (h1 : off 1 = 0) :
    NvOK g row (View.write (Elt F) (Memref.whole cc0_scratch0 : Memref sig .scVector .vmem S8x400 .i32).view f0
      (((Memref.whole main_arg0_scv : Memref sig .scVector .hbm S4096x400 .i32).slice (Rect.unit (s := S4096x400) off S8x400.size h) (fun _ => rfl)).view.read (Elt F) g)
      Finset.univ) := by
  have hrow : row + 8 ≤ 4096 := h0 ▸ (h 0)
  refine ⟨hrow, fun r c => (copyIn0 off h g f0 r c).trans (congrArg g (funext fun a => ?_))⟩
  match a with
  | ⟨0, _⟩ => exact Fin.ext (by show off 0 + r.val = row + r.val; omega)
  | ⟨1, _⟩ => exact Fin.ext (by show off 1 + c.val = c.val; omega)
theorem land_ok5 (off : Fin 2 → ℕ) (h : ∀ a, off a + S8x400.size a ≤ S4096x400.size a) (g : IVec S4096x400 32) (f0 : IVec S8x400 32)
    (row : ℕ) (h0 : off 0 = row) (h1 : off 1 = 0) :
    NvOK g row (View.write (Elt F) (Memref.whole cc0_scratch5 : Memref sig .scVector .vmem S8x400 .i32).view f0
      (((Memref.whole main_arg0_scv : Memref sig .scVector .hbm S4096x400 .i32).slice (Rect.unit (s := S4096x400) off S8x400.size h) (fun _ => rfl)).view.read (Elt F) g)
      Finset.univ) := by
  have hrow : row + 8 ≤ 4096 := h0 ▸ (h 0)
  refine ⟨hrow, fun r c => (copyIn5 off h g f0 r c).trans (congrArg g (funext fun a => ?_))⟩
  match a with
  | ⟨0, _⟩ => exact Fin.ext (by show off 0 + r.val = row + r.val; omega)
  | ⟨1, _⟩ => exact Fin.ext (by show off 1 + c.val = c.val; omega)

/-- The flattened table, copied whole onto the table scratch, is there as it was. -/
theorem tab_lands (T : FVec F S256 .f32) (f10 : FVec F S256 .f32) :
    View.write (Elt F) (Memref.whole cc0_scratch10 : Memref sig .scVector .vmem S256 .f32).view f10
      ((Memref.whole main_v0_scv : Memref sig .scVector .hbm S256 .f32).view.read (Elt F) T) Finset.univ = T :=
  (View.write_whole_univ (Val := Elt F) (cc0_scratch10 : Ref sig .scVector) f10 _).trans rfl

section Deliver

variable (L : grid0.Coords)

/-- A row of the result inside chunk (k, b, oc) is the chunk's entry at that row less the chunk's first. -/
theorem oChunk_emb_pre (k : Fin k0_t1_loop.trips) (b : Fin 2) (oc : Fin 4) (i : S4096x200x64.Idx)
    (h1 : 128 * (widL L).val + 16 * k.val + 8 * b.val + 2 * oc.val ≤ (i 0).val)
    (h2 : (i 0).val < 128 * (widL L).val + 16 * k.val + 8 * b.val + 2 * oc.val + 2) :
    (oChunk L k b oc).view.emb (ix3 (n0 := 2) (n1 := 200) (n2 := 64)
      ⟨(i 0).val - (128 * (widL L).val + 16 * k.val + 8 * b.val + 2 * oc.val), by omega⟩ (i 1) (i 2)) = i := by
  refine (oChunk_emb L k b oc _ _ _).trans ?_
  funext a
  match a with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl

/-- What one whole-chunk write through the chunk's slice leaves at the chunk's entry `x`: the payload there. -/
theorem deliver_at (k : Fin k0_t1_loop.trips) (b : Fin 2) (oc : Fin 4) (g₀ : FVec F S4096x200x64 .f32) (w : S2x200x64.Idx → Elt F .f32)
    (x : S2x200x64.Idx) :
    ((oChunk L k b oc).view.writes (Elt F) g₀ [⟨Rect.whole (chunkRect L k b oc).shape, w⟩]) ((oChunk L k b oc).view.emb x) = w x := by
  have h := View.read_writes_cons_emb (Val := Elt F) (oChunk L k b oc).view g₀ (Rect.whole (chunkRect L k b oc).shape) w [] x
  have hx : (Rect.whole (chunkRect L k b oc).shape).emb x = x := by
    funext a; apply Fin.ext; show 0 + 1 * (x a).val = (x a).val; omega
  exact ((View.read_apply _ _).trans (cast_eq _ _)).symm.trans ((congrArg _ hx.symm).trans h)

/-- The delivered chunk agrees with the result function on its two rows, if the output scratch held them (the first
    output scratch; then the second). -/
theorem deliver_ok2 (k : Fin k0_t1_loop.trips) (b : Fin 2) (oc : Fin 4) (g₀ : FVec F S4096x200x64 .f32) (f : FVec F S2x200x64 .f32)
    (R : FVec F S4096x200x64 .f32) (a : ℕ) (ha : a = 128 * (widL L).val + 16 * k.val + 8 * b.val + 2 * oc.val) (hf : OutvOK R a f) :
    RowsOK R ((oChunk L k b oc).view.writes (Elt F) g₀
      [⟨Rect.whole (chunkRect L k b oc).shape, (Memref.whole cc0_scratch2 : Memref sig .scVector .vmem S2x200x64 .f32).view.read (Elt F) f⟩]) a (a + 2) := by
  obtain ⟨_, hf⟩ := hf
  intro i h1 h2
  subst ha
  have e := oChunk_emb_pre L k b oc i h1 h2
  refine (congrArg _ e.symm).trans ((deliver_at L k b oc g₀ _ _).trans ?_)
  refine (hf ⟨(i 0).val - (128 * (widL L).val + 16 * k.val + 8 * b.val + 2 * oc.val), by omega⟩ (i 1) (i 2)).trans (congrArg R ?_)
  funext c
  match c with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl
theorem deliver_ok7 (k : Fin k0_t1_loop.trips) (b : Fin 2) (oc : Fin 4) (g₀ : FVec F S4096x200x64 .f32) (f : FVec F S2x200x64 .f32)
    (R : FVec F S4096x200x64 .f32) (a : ℕ) (ha : a = 128 * (widL L).val + 16 * k.val + 8 * b.val + 2 * oc.val) (hf : OutvOK R a f) :
    RowsOK R ((oChunk L k b oc).view.writes (Elt F) g₀
      [⟨Rect.whole (chunkRect L k b oc).shape, (Memref.whole cc0_scratch7 : Memref sig .scVector .vmem S2x200x64 .f32).view.read (Elt F) f⟩]) a (a + 2) := by
  obtain ⟨_, hf⟩ := hf
  intro i h1 h2
  subst ha
  have e := oChunk_emb_pre L k b oc i h1 h2
  refine (congrArg _ e.symm).trans ((deliver_at L k b oc g₀ _ _).trans ?_)
  refine (hf ⟨(i 0).val - (128 * (widL L).val + 16 * k.val + 8 * b.val + 2 * oc.val), by omega⟩ (i 1) (i 2)).trans (congrArg R ?_)
  funext c
  match c with
  | ⟨0, _⟩ =>
    exact Fin.ext (by
      show 128 * (widL L).val + 16 * k.val + 8 * b.val + 2 * oc.val + ((i 0).val - (128 * (widL L).val + 16 * k.val + 8 * b.val + 2 * oc.val)) = (i 0).val
      omega)
  | ⟨1, _⟩ => rfl
  | ⟨2, _⟩ => rfl

end Deliver

end Cert.Proof.KB

end
-- ==== Proof.KBTripLemmas.lean ====
/-
  Small facts the three trip cases share: what a write-out delivers, and which rows the two prefetches fetch.
-/
import proofs.«206263_g65532611002545_cont_9to1c4b_62_29_alg».proof.Proof.KBInv
import proofs.«206263_g65532611002545_cont_9to1c4b_62_29_alg».proof.Proof.KBMoves

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

/-- What a write-out of the first (second) output scratch delivers, held at the result function once the scratch is known
    to hold the right rows. -/
theorem chunk_land2 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    (oLoc d ↦[rowsSet a e]{fullShare} ((oChunk L k b oc).view.writes (Elt F) g₀ [⟨Rect.whole (chunkRect L k b oc).shape, (Memref.whole cc0_scratch2 : Memref sig .scVector .vmem S2x200x64 .f32).view.read (Elt F) f⟩]) : sProp 𝕄)
      ⊢ oLoc d ↦[rowsSet a e]{fullShare} R := by
  subst he
  exact rows_to_R (F := F) d R _ (deliver_ok2 (F := F) L k b oc g₀ f R a ha (hrow ▸ hf))
theorem chunk_land7 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    (oLoc d ↦[rowsSet a e]{fullShare} ((oChunk L k b oc).view.writes (Elt F) g₀ [⟨Rect.whole (chunkRect L k b oc).shape, (Memref.whole cc0_scratch7 : Memref sig .scVector .vmem S2x200x64 .f32).view.read (Elt F) f⟩]) : sProp 𝕄)
      ⊢ oLoc d ↦[rowsSet a e]{fullShare} R := by
  subst he
  exact rows_to_R (F := F) d R _ (deliver_ok7 (F := F) L k b oc g₀ f R a ha (hrow ▸ hf))

/-- The same fact as a statement about the delivered contents (for a write-out still in flight). -/
theorem rows_ok2 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    RowsOK R ((oChunk L k b oc).view.writes (Elt F) g₀ [⟨Rect.whole (chunkRect L k b oc).shape, (Memref.whole cc0_scratch2 : Memref sig .scVector .vmem S2x200x64 .f32).view.read (Elt F) f⟩]) a e := by
  subst he
  exact deliver_ok2 (F := F) L k b oc g₀ f R a ha (hrow ▸ hf)
theorem rows_ok7 (k : Fin k0_t1_loop.trips) (b : Fin 2) (oc : Fin 4) (g₀ : Buf (Elt F) (oLoc d)) (f : FVec F S2x200x64 .f32) (R : Buf (Elt F) (oLoc d)) (a e row : ℕ)
    (ha : a = B0 L + 16 * k.val + 8 * b.val + 2 * oc.val) (he : e = a + 2) (hrow : row + 2 * oc.val = a) (hf : OutvOK R (row + 2 * oc.val) f) :
    RowsOK R ((oChunk L k b oc).view.writes (Elt F) g₀ [⟨Rect.whole (chunkRect L k b oc).shape, (Memref.whole cc0_scratch7 : Memref sig .scVector .vmem S2x200x64 .f32).view.read (Elt F) f⟩]) a e := by
  subst he
  exact deliver_ok7 (F := F) L k b oc g₀ f R a ha (hrow ▸ hf)

/-- The rows the two prefetches fetch. -/
theorem off2_row (k : Fin k0_t1_loop.trips) : k0_off2 L k 0 = B0 L + 16 * (k.val + 1) ∧ k0_off2 L k 1 = 0 := by
  rw [k0_off2_eq]
  refine ⟨?_, rfl⟩
  show 256 * (L 1).val + 128 * (L 0).val + 16 * k.val + 16 = 128 * (2 * (L 1).val + (L 0).val) + 16 * (k.val + 1)
  omega
theorem off44_row (k : Fin k0_t1_loop.trips) : k0_off44 L k 0 = B0 L + 16 * (k.val + 1) + 8 ∧ k0_off44 L k 1 = 0 := by
  rw [k0_off44_eq]
  refine ⟨?_, rfl⟩
  show 256 * (L 1).val + 128 * (L 0).val + 16 * k.val + 24 = 128 * (2 * (L 1).val + (L 0).val) + 16 * (k.val + 1) + 8
  omega

end Cert.Proof.KB

end
-- ==== Proof.KBOutv.lean ====
/-
  The kernel's arithmetic, entry by entry.

  The kernel reads the flattened table once, as sixteen vectors of sixteen lanes: row r of the table, lanes
  16·kk … 16·kk + 15, for r, kk = 0 … 3.  From them it forms, per kk, the four coefficient vectors of the
  interpolation:  t0 = row 0,  xa = row 1 − row 0,  xb = row 2 − row 0,  xc = ((row 3 − row 2) − row 1) + row 0.
  A site's sixteen results for lane block kk are  ((t0 + uf·xa) + df·xb) + (uf·df)·xc  with uf, df the two bits of
  the site's token word as floats.  Lane by lane this is the result function's entry; row by row of the eight rows a
  task holds at a time, with the token words taken from the landed rows of occupation words, it is the result
  function on the rows  row … row + 7.
-/
import proofs.«206263_g65532611002545_cont_9to1c4b_62_29_alg».proof.Proof.KBProto

noncomputable section

namespace Cert.Proof.KB

open Cert.Kernel
open Idealize.ShloMosaic Idealize.ShloMosaic.ValueIdx

variable {F : FTy → Type} [FloatOps F]

/-- One entry from the four coefficients of its lane and the site's token word:
    ((t + uf·xa) + df·xb) + (uf·df)·xc. -/
def lane' (t xa xb xc : F .f32) (w : BitVec 32) : F .f32 :=
  let uf : F .f32 := Scalar.sitofp .f32 (Scalar.andi w 1#32)
  let df : F .f32 := Scalar.sitofp .f32 (Scalar.andi (Scalar.shrsi w 1#32) 1#32)
  FloatOps.addf (FloatOps.addf (FloatOps.addf t (FloatOps.mulf uf xa)) (FloatOps.mulf df xb)) (FloatOps.mulf (Scalar.mulf uf df) xc)

/-! ## The table vectors -/

/-- Row r of the flattened table, lanes 16·kk … 16·kk + 15, as a vector of sixteen. -/
def tabRow (X : FVec F S256 .f32) (r : Fin 4) (kk : Fin 4) : FVec F S16 .f32 :=
  fun l => X (flatIx r ⟨16 * kk.val + (l 0).val, by
    have h : (l 0).val < 16 := (l 0).isLt
    have := kk.isLt
    omega⟩)

/-- The four coefficient vectors of lane block kk: the row 0 itself, row 1 − row 0, row 2 − row 0, and
    ((row 3 − row 2) − row 1) + row 0, in the association the kernel computes them in. -/
def tvOf (X : FVec F S256 .f32) : Fin 4 → Fin 4 → FVec F S16 .f32
  | ⟨0, _⟩, kk => tabRow X 0 kk
  | ⟨1, _⟩, kk => subf (tabRow X 1 kk) (tabRow X 0 kk)
  | ⟨2, _⟩, kk => subf (tabRow X 2 kk) (tabRow X 0 kk)
  | ⟨3, _⟩, kk => addf (subf (subf (tabRow X 3 kk) (tabRow X 2 kk)) (tabRow X 1 kk)) (tabRow X 0 kk)
  | ⟨_ + 4, h⟩, _ => absurd h (by omega)

/-- (O1) Lane l of block kk: the interpolation over the coefficient vectors is the result function's entry over the
    four table entries of column 16·kk + l. -/
theorem lane'_tvOf (X : FVec F S256 .f32) (kk : Fin 4) (l : Fin 16) (w : BitVec 32) :
    lane' (tvOf X 0 kk (ix1 (n := 16) l)) (tvOf X 1 kk (ix1 (n := 16) l)) (tvOf X 2 kk (ix1 (n := 16) l))
        (tvOf X 3 kk (ix1 (n := 16) l)) w
      = lane (X (flatIx 0 ⟨16 * kk.val + l.val, by omega⟩)) (X (flatIx 1 ⟨16 * kk.val + l.val, by omega⟩))
          (X (flatIx 2 ⟨16 * kk.val + l.val, by omega⟩)) (X (flatIx 3 ⟨16 * kk.val + l.val, by omega⟩)) w := rfl

/-! ## The rows -/

/-- (O2) Two rows of results from eight rows of token words: if the token buffer holds the token words of rows
    row … row + 7 and the output buffer holds, at (r2, s, k), the interpolation at the token word of row 2·oc + r2 of
    the eight, then the output buffer holds the result function's rows row + 2·oc and row + 2·oc + 1. -/
theorem out_rows (n : IVec S4096x400 32) (X : FVec F S256 .f32) (Y : IVec S1600 32) (f : FVec F S2x200x64 .f32)
    (row : ℕ) (hrow : row + 8 ≤ 4096) (oc : Fin 4)
    (hY : ∀ (r : Fin 8) (s : Fin 200),
      Y (ix1 (n := 1600) ⟨200 * r.val + s.val, by omega⟩) = tokWord n ⟨row + r.val, by omega⟩ s)
    (hf : ∀ (r2 : Fin 2) (s : Fin 200) (k : Fin 64),
      f (ix3 (n0 := 2) (n1 := 200) (n2 := 64) r2 s k)
        = lane' (tvOf X 0 ⟨k.val / 16, by omega⟩ (ix1 (n := 16) ⟨k.val % 16, by omega⟩))
            (tvOf X 1 ⟨k.val / 16, by omega⟩ (ix1 (n := 16) ⟨k.val % 16, by omega⟩))
            (tvOf X 2 ⟨k.val / 16, by omega⟩ (ix1 (n := 16) ⟨k.val % 16, by omega⟩))
            (tvOf X 3 ⟨k.val / 16, by omega⟩ (ix1 (n := 16) ⟨k.val % 16, by omega⟩))
            (Y (ix1 (n := 1600) ⟨400 * oc.val + 200 * r2.val + s.val, by omega⟩))) :
    ∀ (r2 : Fin 2) (s : Fin 200) (k : Fin 64),
      f (ix3 (n0 := 2) (n1 := 200) (n2 := 64) r2 s k)
        = kout n X (ix3 (n0 := 4096) (n1 := 200) (n2 := 64) ⟨row + 2 * oc.val + r2.val, by omega⟩ s k) := by
  intro r2 s k
  have hi : (⟨400 * oc.val + 200 * r2.val + s.val, by omega⟩ : Fin 1600)
      = ⟨200 * (⟨2 * oc.val + r2.val, by omega⟩ : Fin 8).val + s.val, by omega⟩ := Fin.ext (by show 400 * oc.val + 200 * r2.val + s.val = 200 * (2 * oc.val + r2.val) + s.val; omega)
  have key : ∀ (k' : Fin 64) (b b' : Fin 4096), k' = k → b = b' →
      lane (X (flatIx 0 k')) (X (flatIx 1 k')) (X (flatIx 2 k')) (X (flatIx 3 k')) (tokWord n b s)
        = kout n X (ix3 (n0 := 4096) (n1 := 200) (n2 := 64) b' s k) := by
    intro k' b b' hk hb
    subst hk; subst hb; rfl
  rw [hf r2 s k, lane'_tvOf, hi, hY ⟨2 * oc.val + r2.val, by omega⟩ s]
  exact key _ _ _ (Fin.ext (Nat.div_add_mod k.val 16)) (Fin.ext (by show row + (2 * oc.val + r2.val) = row + 2 * oc.val + r2.val; omega))

/-- (O3) The token words from landed rows of occupation words: if the input buffer holds rows row … row + 7 of the
    occupation words, then up + down + down over it is the token word of the same row and site. -/
theorem tokWord_of_landed (n : IVec S4096x400 32) (fd : IVec S8x400 32) (row : ℕ) (hrow : row + 8 ≤ 4096)
    (hfd : ∀ (r : Fin 8) (c : Fin 400),
      fd (ix2 (n0 := 8) (n1 := 400) r c) = n (ix2 (n0 := 4096) (n1 := 400) ⟨row + r.val, by omega⟩ c)) :
    ∀ (r : Fin 8) (s : Fin 200),
      Scalar.addi (Scalar.addi (fd (ix2 (n0 := 8) (n1 := 400) r ⟨200 + s.val, by omega⟩)) (fd (ix2 (n0 := 8) (n1 := 400) r ⟨s.val, by omega⟩)))
          (fd (ix2 (n0 := 8) (n1 := 400) r ⟨s.val, by omega⟩))
        = tokWord n ⟨row + r.val, by omega⟩ s := by
  intro r s
  rw [hfd, hfd]
  rfl

end Cert.Proof.KB

end
-- ==== Proof.KBGrp.lean ====
/-
  The sixteen inner loops of the kernel's body, with their values.

  Each inner loop fills one row (200 sites × 64 columns) of a row scratch buffer in thirteen trips.  Trip g takes the
  sixteen sites o … o + 15, o = min (16·g) 184 (the last trip overlaps the one before: it rewrites sites 184 … 191
  with the same values), loads their sixteen token words from the token scratch, and for every site and every one of
  the four lane blocks stores the sixteen lanes  ((t + uf·xa) + df·xb) + (uf·df)·xc  of the block's coefficient vectors,
  uf and df the site's two bits as floats.  So before trip g the sites below min (16·g) 200 of the row hold their
  interpolation, and the other row of the buffer is untouched: that is the invariant, and one trip moves it on because
  its sixty-four stores are exactly the sixty-four blocks (site, lane block), each holding the interpolation at every
  index it covers, and no other index is written.
-/
import proofs.«206263_g65532611002545_cont_9to1c4b_62_29_alg».proof.Proof.KBRes
import proofs.«206263_g65532611002545_cont_9to1c4b_62_29_alg».proof.Proof.Gen.Kernel.Skeleton
import proofs.«206263_g65532611002545_cont_9to1c4b_62_29_alg».proof.Proof.KBOutv
import Idealize.ShloMosaic.Lib.Writes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

set_option maxHeartbeats 400000

variable (d : Dev nD) (L : grid0.Coords)

/-! ## The arithmetic of one site and one lane block -/

section Pure

variable {F : FTy → Type} [FloatOps F]

/-- The sixteen lanes of one site in one lane block: the interpolation over the block's four coefficient vectors, the
    site's two bits broadcast. -/
def laneVec (t xa xb xc : FVec F S16 .f32) (w : BitVec 32) : FVec F S16 .f32 :=
  addf (addf (addf t (mulf (broadcast S16 (Scalar.sitofp (F := F) .f32 (Scalar.andi w 1#32))) xa))
      (mulf (broadcast S16 (Scalar.sitofp (F := F) .f32 (Scalar.andi (Scalar.shrsi w 1#32) 1#32))) xb))
    (mulf (broadcast S16 (Scalar.mulf (Scalar.sitofp (F := F) .f32 (Scalar.andi w 1#32))
      (Scalar.sitofp (F := F) .f32 (Scalar.andi (Scalar.shrsi w 1#32) 1#32)))) xc)

theorem laneVec_apply (t xa xb xc : FVec F S16 .f32) (w : BitVec 32) (l : S16.Idx) :
    laneVec t xa xb xc w l = lane' (t l) (xa l) (xb l) (xc l) w := rfl

/-- Word i of a vector of sixteen is a block of one at offset i. -/
theorem slices16 (i : Fin 16) : S16.Slices (![i.val] : Fin 1 → Nat) S1 :=
  ⟨rfl, fun a => match a with | ⟨0, _⟩ => (by show i.val + 1 ≤ 16; omega)⟩

theorem inpos1 : ∀ a, (![0] : Fin 1 → Nat) a < S1.size a := fun a => match a with | ⟨0, _⟩ => Nat.one_pos

/-- Word i of the token vector, as the kernel extracts it. -/
def wordAt (toks : IVec S16 32) (i : Fin 16) : BitVec 32 :=
  extractAt (![0] : Fin 1 → Nat) (extractStridedSlice S1 (![i.val] : Fin 1 → Nat) toks (slices16 i)) inpos1

theorem wordAt_eq (toks : IVec S16 32) (i : Fin 16) : wordAt toks i = toks (ix1 (n := 16) i) := by
  unfold wordAt extractAt extractStridedSlice
  exact congrArg toks (funext fun a => match a with | ⟨0, _⟩ => Fin.ext (by show i.val + 0 = i.val; rfl))

theorem casts16 : S16.ShapeCasts S1x1x16 := by decide

/-- What one store writes: the sixteen lanes of site i's block kk, as a 1 × 1 × 16 block. -/
def canonPay (tv : Fin 4 → Fin 4 → FVec F S16 .f32) (toks : IVec S16 32) (i : Fin 16) (kk : Fin 4) : FVec F S1x1x16 .f32 :=
  shapeCast S1x1x16 (laneVec (tv 0 kk) (tv 1 kk) (tv 2 kk) (tv 3 kk) (wordAt toks i)) casts16

theorem canonPay_apply (tv : Fin 4 → Fin 4 → FVec F S16 .f32) (toks : IVec S16 32) (i : Fin 16) (kk : Fin 4) (x : S1x1x16.Idx)
    (l : Fin 16) (hl : l.val = (x 2).val) :
    canonPay tv toks i kk x
      = lane' (tv 0 kk (ix1 (n := 16) l)) (tv 1 kk (ix1 (n := 16) l)) (tv 2 kk (ix1 (n := 16) l)) (tv 3 kk (ix1 (n := 16) l))
          (toks (ix1 (n := 16) i)) := by
  unfold canonPay
  rw [shapeCast_apply _ casts16 x (ix1 (n := 16) l) (by
    rw [Shape.rowMajor_val_one, Shape.rowMajor_val_three]
    have h0 : (x 0).val < 1 := (x 0).isLt
    have h1 : (x 1).val < 1 := (x 1).isLt
    show l.val = ((x 0).val * 1 + (x 1).val) * 16 + (x 2).val
    omega), laneVec_apply, wordAt_eq]

/-- The order the sixty-four stores of a trip are made in, last first: sites 15 … 0, and per site blocks 3 … 0. -/
@[reducible] def idxList : List (Fin 16 × Fin 4) :=
  [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

theorem idxList_complete : ∀ (i : Fin 16) (kk : Fin 4), (i, kk) ∈ idxList := by decide

/-- What the output scratch holds once the first g trips are done: in row r2, every site below min (16·g) 200 holds the
    interpolation at its token word; the other row is as it was. -/
def GrpUpTo (oc : Fin 4) (r2 : Fin 2) (tv : Fin 4 → Fin 4 → FVec F S16 .f32) (Y : IVec S1600 32) (f₀ f : FVec F S2x200x64 .f32) (g : ℕ) : Prop :=
  (∀ (s : Fin 200) (k : Fin 64), s.val < min (16 * g) 200 →
    f (ix3 (n0 := 2) (n1 := 200) (n2 := 64) r2 s k)
      = lane' (tv 0 ⟨k.val / 16, by omega⟩ (ix1 (n := 16) ⟨k.val % 16, by omega⟩))
          (tv 1 ⟨k.val / 16, by omega⟩ (ix1 (n := 16) ⟨k.val % 16, by omega⟩))
          (tv 2 ⟨k.val / 16, by omega⟩ (ix1 (n := 16) ⟨k.val % 16, by omega⟩))
          (tv 3 ⟨k.val / 16, by omega⟩ (ix1 (n := 16) ⟨k.val % 16, by omega⟩))
          (Y (ix1 (n := 1600) ⟨400 * oc.val + 200 * r2.val + s.val, by omega⟩)))
  ∧ (∀ i : S2x200x64.Idx, i 0 ≠ r2 → f i = f₀ i)

theorem grpUpTo_zero (oc : Fin 4) (r2 : Fin 2) (tv : Fin 4 → Fin 4 → FVec F S16 .f32) (Y : IVec S1600 32) (f₀ : FVec F S2x200x64 .f32) :
    GrpUpTo oc r2 tv Y f₀ f₀ 0 :=
  ⟨fun s k h => absurd h (by simp), fun _ _ => rfl⟩

/-- After the thirteen trips every site of row r2 is done. -/
theorem grpUpTo_exit (oc : Fin 4) (r2 : Fin 2) (tv : Fin 4 → Fin 4 → FVec F S16 .f32) (Y : IVec S1600 32) (f₀ f : FVec F S2x200x64 .f32)
    (h : GrpUpTo oc r2 tv Y f₀ f 13) :
    (∀ (s : Fin 200) (k : Fin 64),
      f (ix3 (n0 := 2) (n1 := 200) (n2 := 64) r2 s k)
        = lane' (tv 0 ⟨k.val / 16, by omega⟩ (ix1 (n := 16) ⟨k.val % 16, by omega⟩))
            (tv 1 ⟨k.val / 16, by omega⟩ (ix1 (n := 16) ⟨k.val % 16, by omega⟩))
            (tv 2 ⟨k.val / 16, by omega⟩ (ix1 (n := 16) ⟨k.val % 16, by omega⟩))
            (tv 3 ⟨k.val / 16, by omega⟩ (ix1 (n := 16) ⟨k.val % 16, by omega⟩))
            (Y (ix1 (n := 1600) ⟨400 * oc.val + 200 * r2.val + s.val, by omega⟩)))
    ∧ (∀ i : S2x200x64.Idx, i 0 ≠ r2 → f i = f₀ i) :=
  ⟨fun s k => h.1 s k (by have := s.isLt; omega), h.2⟩

end Pure

/-! ## One trip, on the contents -/

section Step

variable {F : FTy → Type} [FloatOps F]

/-- A piece of a trip's list is the store of site i's block kk: its rectangle is the 1 × 1 × 16 block at
    (r2, o + i, 16·kk) and its payload the block's sixteen lanes. -/
def IsCanon (r2 : Fin 2) (o : ℕ) (tv : Fin 4 → Fin 4 → FVec F S16 .f32) (toks : IVec S16 32)
    (p : View.Piece (Elt F) S2x200x64 .f32) (ik : Fin 16 × Fin 4) : Prop :=
  ∃ (off : Fin 3 → Nat) (inb : ∀ a, off a + S1x1x16.size a ≤ S2x200x64.size a),
    off = ![r2.val, o + ik.1.val, 16 * ik.2.val]
      ∧ p = ⟨Rect.unit (s := S2x200x64) off S1x1x16.size inb, canonPay tv toks ik.1 ik.2⟩

theorem forall2_left {α β : Type} {R : α → β → Prop} {l₁ : List α} {l₂ : List β} (h : List.Forall₂ R l₁ l₂) :
    ∀ a ∈ l₁, ∃ b ∈ l₂, R a b := by
  induction h with
  | nil => intro a ha; exact absurd ha List.not_mem_nil
  | cons hab _ ih =>
    intro a ha
    rcases List.mem_cons.1 ha with rfl | ha
    · exact ⟨_, List.mem_cons_self, hab⟩
    · obtain ⟨b, hb, hr⟩ := ih a ha
      exact ⟨b, List.mem_cons_of_mem _ hb, hr⟩

theorem forall2_right {α β : Type} {R : α → β → Prop} {l₁ : List α} {l₂ : List β} (h : List.Forall₂ R l₁ l₂) :
    ∀ b ∈ l₂, ∃ a ∈ l₁, R a b := by
  induction h with
  | nil => intro b hb; exact absurd hb List.not_mem_nil
  | cons hab _ ih =>
    intro b hb
    rcases List.mem_cons.1 hb with rfl | hb
    · exact ⟨_, List.mem_cons_self, hab⟩
    · obtain ⟨a, ha, hr⟩ := ih b hb
      exact ⟨a, List.mem_cons_of_mem _ ha, hr⟩

/-- The interpolation every site of row r2 is to hold, as one function of the index. -/
def Gt (oc : Fin 4) (r2 : Fin 2) (tv : Fin 4 → Fin 4 → FVec F S16 .f32) (Y : IVec S1600 32) : S2x200x64.Idx → F .f32 := fun y =>
  lane' (tv 0 ⟨(y 2).val / 16, by have h : (y 2).val < 64 := (y 2).isLt; omega⟩ (ix1 (n := 16) ⟨(y 2).val % 16, by omega⟩))
    (tv 1 ⟨(y 2).val / 16, by have h : (y 2).val < 64 := (y 2).isLt; omega⟩ (ix1 (n := 16) ⟨(y 2).val % 16, by omega⟩))
    (tv 2 ⟨(y 2).val / 16, by have h : (y 2).val < 64 := (y 2).isLt; omega⟩ (ix1 (n := 16) ⟨(y 2).val % 16, by omega⟩))
    (tv 3 ⟨(y 2).val / 16, by have h : (y 2).val < 64 := (y 2).isLt; omega⟩ (ix1 (n := 16) ⟨(y 2).val % 16, by omega⟩))
    (Y (ix1 (n := 1600) ⟨400 * oc.val + 200 * r2.val + (y 1).val, by have h : (y 1).val < 200 := (y 1).isLt; omega⟩))

theorem Gt_eq (oc : Fin 4) (r2 : Fin 2) (tv : Fin 4 → Fin 4 → FVec F S16 .f32) (Y : IVec S1600 32) (y : S2x200x64.Idx)
    (kk : Fin 4) (l : Fin 16) (n : Fin 1600) (h2 : (y 2).val = 16 * kk.val + l.val) (hn : n.val = 400 * oc.val + 200 * r2.val + (y 1).val) :
    Gt oc r2 tv Y y = lane' (tv 0 kk (ix1 (n := 16) l)) (tv 1 kk (ix1 (n := 16) l)) (tv 2 kk (ix1 (n := 16) l)) (tv 3 kk (ix1 (n := 16) l))
      (Y (ix1 (n := 1600) n)) := by
  have key : ∀ (a : Fin 4) (b : Fin 16) (c : Fin 1600), a = kk → b = l → c = n →
      lane' (tv 0 a (ix1 (n := 16) b)) (tv 1 a (ix1 (n := 16) b)) (tv 2 a (ix1 (n := 16) b)) (tv 3 a (ix1 (n := 16) b)) (Y (ix1 (n := 1600) c))
        = lane' (tv 0 kk (ix1 (n := 16) l)) (tv 1 kk (ix1 (n := 16) l)) (tv 2 kk (ix1 (n := 16) l)) (tv 3 kk (ix1 (n := 16) l))
            (Y (ix1 (n := 1600) n)) := by
    rintro _ _ _ rfl rfl rfl; rfl
  have hl := l.isLt
  exact key _ _ _ (Fin.ext (by show (y 2).val / 16 = kk.val; omega)) (Fin.ext (by show (y 2).val % 16 = l.val; omega))
    (Fin.ext (by show 400 * oc.val + 200 * r2.val + (y 1).val = n.val; omega))

/-- Which indices a site's block covers. -/
theorem mem_block_iff (r2 : Fin 2) (o : ℕ) (i : Fin 16) (kk : Fin 4)
    (inb : ∀ a, (![r2.val, o + i.val, 16 * kk.val] : Fin 3 → Nat) a + S1x1x16.size a ≤ S2x200x64.size a) (y : S2x200x64.Idx) :
    y ∈ (Rect.unit (s := S2x200x64) ![r2.val, o + i.val, 16 * kk.val] S1x1x16.size inb).set
      ↔ (y 0).val = r2.val ∧ (y 1).val = o + i.val ∧ 16 * kk.val ≤ (y 2).val ∧ (y 2).val < 16 * kk.val + 16 := by
  rw [Rect.mem_set_unit]
  constructor
  · intro h
    have h0 := h 0
    have h1 := h 1
    have h2 := h 2
    change r2.val ≤ (y 0).val ∧ (y 0).val < r2.val + 1 at h0
    change o + i.val ≤ (y 1).val ∧ (y 1).val < o + i.val + 1 at h1
    change 16 * kk.val ≤ (y 2).val ∧ (y 2).val < 16 * kk.val + 16 at h2
    omega
  · rintro ⟨e0, e1, e2, e3⟩ a
    match a with
    | ⟨0, _⟩ => show r2.val ≤ (y 0).val ∧ (y 0).val < r2.val + 1; omega
    | ⟨1, _⟩ => show o + i.val ≤ (y 1).val ∧ (y 1).val < o + i.val + 1; omega
    | ⟨2, _⟩ => show 16 * kk.val ≤ (y 2).val ∧ (y 2).val < 16 * kk.val + 16; omega

/-- What a site's block holds, index by index: the interpolation at the index it lands on. -/
theorem block_pay (oc : Fin 4) (r2 : Fin 2) (o : ℕ) (ho : o + 16 ≤ 200) (tv : Fin 4 → Fin 4 → FVec F S16 .f32) (Y : IVec S1600 32) (toks : IVec S16 32)
    (i : Fin 16) (kk : Fin 4) (base : ℕ) (hbase : base = 400 * oc.val + 200 * r2.val)
    (htok : toks (ix1 (n := 16) i) = Y (ix1 (n := 1600) ⟨base + (o + i.val), by omega⟩))
    (inb : ∀ a, (![r2.val, o + i.val, 16 * kk.val] : Fin 3 → Nat) a + S1x1x16.size a ≤ S2x200x64.size a) (x : S1x1x16.Idx) :
    canonPay tv toks i kk x = Gt oc r2 tv Y ((Rect.unit (s := S2x200x64) ![r2.val, o + i.val, 16 * kk.val] S1x1x16.size inb).emb x) := by
  have hx2 : (x 2).val < 16 := (x 2).isLt
  have hx1 : (x 1).val < 1 := (x 1).isLt
  rw [canonPay_apply tv toks i kk x ⟨(x 2).val, hx2⟩ rfl, htok]
  refine (Gt_eq oc r2 tv Y _ kk ⟨(x 2).val, hx2⟩ _ ?_ ?_).symm
  · show 16 * kk.val + 1 * (x 2).val = 16 * kk.val + (x 2).val; omega
  · show base + (o + i.val) = 400 * oc.val + 200 * r2.val + (o + i.val + 1 * (x 1).val); omega

/-- ONE TRIP: if the trip's stores are the sixty-four blocks of sites o … o + 15 (o = min (16·g) 184) in the order
    `idxList`, the token vector holds those sites' token words, and the first g trips are done, then after the
    stores the first g + 1 trips are done. -/
theorem grpUpTo_step {sig' : RefSig} {κ : Kind} {sp : Space} (v : View sig' κ sp S2x200x64 .f32)
    (oc : Fin 4) (r2 : Fin 2) (tv : Fin 4 → Fin 4 → FVec F S16 .f32) (Y : IVec S1600 32)
    (f₀ : FVec F S2x200x64 .f32) (f : v.ty.Contents (Elt F)) (g : ℕ) (hg : g < 13) (toks : IVec S16 32)
    (base : ℕ) (hbase : base = 400 * oc.val + 200 * r2.val)
    (htoks : ∀ i : Fin 16, toks (ix1 (n := 16) i) = Y (ix1 (n := 1600) ⟨base + (min (16 * g) 184 + i.val), by omega⟩))
    (Lst : List (View.Piece (Elt F) S2x200x64 .f32))
    (hL : List.Forall₂ (IsCanon r2 (min (16 * g) 184) tv toks) Lst idxList)
    (h : GrpUpTo oc r2 tv Y f₀ (v.read (Elt F) f) g) :
    GrpUpTo oc r2 tv Y f₀ (v.read (Elt F) (v.writes (Elt F) f Lst)) (g + 1) := by
  obtain ⟨h1, h2⟩ := h
  have ho : min (16 * g) 184 + 16 ≤ 200 := by omega
  -- every piece is a block, and holds the interpolation where it lands
  have hpay : ∀ p ∈ Lst, ∀ x : p.1.shape.Idx, p.2 x = Gt oc r2 tv Y (p.1.emb x) := by
    intro p hp
    obtain ⟨⟨i, kk⟩, -, off, inb, rfl, rfl⟩ := forall2_left hL p hp
    exact fun x => block_pay oc r2 _ ho tv Y toks i kk base hbase (htoks i) inb x
  have hcov : ∀ p ∈ Lst, ∀ y : S2x200x64.Idx, y ∈ p.1.set →
      (y 0).val = r2.val ∧ min (16 * g) 184 ≤ (y 1).val ∧ (y 1).val < min (16 * g) 184 + 16 := by
    intro p hp y hy
    obtain ⟨⟨i, kk⟩, -, off, inb, rfl, rfl⟩ := forall2_left hL p hp
    have := (mem_block_iff r2 _ i kk inb y).1 hy
    have hi := i.isLt
    omega
  refine ⟨fun s k hs => ?_, fun y hy => ?_⟩
  · by_cases hc : min (16 * g) 184 ≤ s.val ∧ s.val < min (16 * g) 184 + 16
    · -- the site is one of this trip's
      have hk : k.val < 64 := k.isLt
      obtain ⟨p, hp, off, inb, rfl, rfl⟩ := forall2_right hL
        ((⟨s.val - min (16 * g) 184, by omega⟩ : Fin 16), (⟨k.val / 16, by omega⟩ : Fin 4)) (idxList_complete _ _)
      have hy : ix3 (n0 := 2) (n1 := 200) (n2 := 64) r2 s k ∈ (Rect.unit (s := S2x200x64)
          ![r2.val, min (16 * g) 184 + (s.val - min (16 * g) 184), 16 * (k.val / 16)] S1x1x16.size inb).set :=
        (mem_block_iff r2 _ _ _ inb _).2 ⟨rfl, by show s.val = min (16 * g) 184 + (s.val - min (16 * g) 184); omega, by show 16 * (k.val / 16) ≤ k.val; omega,
          by show k.val < 16 * (k.val / 16) + 16; omega⟩
      exact View.read_writes_apply_of_pieces v f (Gt oc r2 tv Y) Lst hpay _ ⟨_, hp, hy⟩
    · -- an earlier trip's: untouched by this one
      have hn : ∀ p ∈ Lst, ix3 (n0 := 2) (n1 := 200) (n2 := 64) r2 s k ∉ p.1.set := fun p hp hy => by
        have := hcov p hp _ hy
        exact hc ⟨this.2.1, this.2.2⟩
      refine (View.read_writes_apply_of_forall_not_mem v f _ Lst hn).trans (h1 s k ?_)
      have := s.isLt
      omega
  · have hn : ∀ p ∈ Lst, y ∉ p.1.set := fun p hp hm => hy (Fin.ext (hcov p hp y hm).1)
    exact (View.read_writes_apply_of_forall_not_mem v f y Lst hn).trans (h2 y hy)

end Step

/-! ## The token vector a trip loads -/

section Tokens

variable {F : FTy → Type} [FloatOps F]

/-- Word i of the sixteen token words loaded from offset b of the token scratch is word b + i of the scratch. -/
theorem tokVec_at (Y : IVec S1600 32) (off : Fin 1 → Nat) (inb : ∀ a, off a + S16.size a ≤ S1600.size a) (b : ℕ) (hoff : off = ![b])
    (x : Vec F S16 .i32) (hx : ∀ j : S16.Idx, x j = Y ((Rect.unit (s := S1600) off S16.size inb).emb j))
    (i : Fin 16) (n : Fin 1600) (hn : n.val = b + i.val) :
    k0_pay10 (F := F) x (ix1 (n := 16) i) = Y (ix1 (n := 1600) n) := by
  subst hoff
  unfold k0_pay10
  rw [shapeCast_apply x _ (ix1 (n := 16) i) (ix1 (n := 16) i) rfl, hx]
  exact congrArg Y (funext fun a => match a with | ⟨0, _⟩ => Fin.ext (by show b + 1 * i.val = n.val; omega))

end Tokens

/-- The sixteen coefficient vectors a region is handed, by coefficient and lane block. -/
def tvLoc (v4 v6 v8 v10 v35 v36 v37 v38 v39 v40 v41 v42 v45 v48 v51 v54 : FVec F S16 .f32) : Fin 4 → Fin 4 → FVec F S16 .f32 :=
  ![![v4, v6, v8, v10], ![v35, v36, v37, v38], ![v39, v40, v41, v42], ![v45, v48, v51, v54]]

/-! ### Loop 2: row 0 of output pair 0; tokens from `cc0_scratch1` at 0, rows into `cc0_scratch2` -/

/-- Before trip g: the token scratch at its contents; in the row scratch, row 0's sites below min (16·g) 200 hold
    their interpolation and the other row is as at the loop's start. -/
def invG_2 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 0 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_2_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (v1184 : IVec S16 32) (v1188 : IVec S16 32)
    (g : Fin k0_t2_loop.trips) (acc : BitVec 32) :
    invG_2 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t2_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 v1184 v1188 g acc) (invG_2 (F := F) d L Y f₀ (tvLoc v4 v6 v8 v10 v35 v36 v37 v38 v39 v40 v41 v42 v45 v48 v51 v54) (g.val + 1)) := by
  unfold invG_2
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 0
        (tvLoc v4 v6 v8 v10 v35 v36 v37 v38 v39 v40 v41 v42 v45 v48 v51 v54) Y f₀ f g.val (lt_of_lt_of_le g.isLt k0_t2_abs.2.1)
        (k0_pay10 (F := F) (View.readAt (Elt F) (Memref.whole cc0_scratch1 : Memref sig .scVector .vmem S1600 .i32).view
          (Rect.unit (s := S1600) (k0_off3 g) S16.size (k0_off3_inb g)).toLoadRect Y))
        0 rfl
        (fun i => tokVec_at (F := F) Y (k0_off3 g) (k0_off3_inb g) _ (k0_off3_eq g) _ (fun j => rfl) i _
          (by show 0 + (min (16 * g.val) 184 + i.val) = min (16 * g.val) 184 + i.val; omega))
        _
        (List.Forall₂.cons ⟨_, k0_off7_inb g 15, k0_off7_eq g 15, rfl⟩ (
          List.Forall₂.cons ⟨_, k0_off6_inb g 15, k0_off6_eq g 15, rfl⟩ (
          List.Forall₂.cons ⟨_, k0_off5_inb g 15, k0_off5_eq g 15, rfl⟩ (
          List.Forall₂.cons ⟨_, k0_off4_inb g 15, k0_off4_eq g 15, rfl⟩ (
          List.Forall₂.cons ⟨_, k0_off7_inb g 14, k0_off7_eq g 14, rfl⟩ (
          List.Forall₂.cons ⟨_, k0_off6_inb g 14, k0_off6_eq g 14, rfl⟩ (
          List.Forall₂.cons ⟨_, k0_off5_inb g 14, k0_off5_eq g 14, rfl⟩ (
          List.Forall₂.cons ⟨_, k0_off4_inb g 14, k0_off4_eq g 14, rfl⟩ (
          List.Forall₂.cons ⟨_, k0_off7_inb g 13, k0_off7_eq g 13, rfl⟩ (
          List.Forall₂.cons ⟨_, k0_off6_inb g 13, k0_off6_eq g 13, rfl⟩ (
          List.Forall₂.cons ⟨_, k0_off5_inb g 13, k0_off5_eq g 13, rfl⟩ (
          List.Forall₂.cons ⟨_, k0_off4_inb g 13, k0_off4_eq g 13, rfl⟩ (
          List.Forall₂.cons ⟨_, k0_off7_inb g 12, k0_off7_eq g 12, rfl⟩ (
          List.Forall₂.cons ⟨_, k0_off6_inb g 12, k0_off6_eq g 12, rfl⟩ (
          List.Forall₂.cons ⟨_, k0_off5_inb g 12, k0_off5_eq g 12, rfl⟩ (
          List.Forall₂.cons ⟨_, k0_off4_inb g 12, k0_off4_eq g 12, rfl⟩ (
          List.Forall₂.cons ⟨_, k0_off7_inb g 11, k0_off7_eq g 11, rfl⟩ (
          List.Forall₂.cons ⟨_, k0_off6_inb g 11, k0_off6_eq g 11, rfl⟩ (
          List.Forall₂.cons ⟨_, k0_off5_inb g 11, k0_off5_eq g 11, rfl⟩ (
          List.Forall₂.cons ⟨_, k0_off4_inb g 11, k0_off4_eq g 11, rfl⟩ (
          List.Forall₂.cons ⟨_, k0_off7_inb g 10, k0_off7_eq g 10, rfl⟩ (
          List.Forall₂.cons ⟨_, k0_off6_inb g 10, k0_off6_eq g 10, rfl⟩ (
          List.Forall₂.cons ⟨_, k0_off5_inb g 10, k0_off5_eq g 10, rfl⟩ (
          List.Forall₂.cons ⟨_, k0_off4_inb g 10, k0_off4_eq g 10, rfl⟩ (
          List.Forall₂.cons ⟨_, k0_off7_inb g 9, k0_off7_eq g 9, rfl⟩ (
          List.Forall₂.cons ⟨_, k0_off6_inb g 9, k0_off6_eq g 9, rfl⟩ (
          List.Forall₂.cons ⟨_, k0_off5_inb g 9, k0_off5_eq g 9, rfl⟩ (
          List.Forall₂.cons ⟨_, k0_off4_inb g 9, k0_off4_eq g 9, rfl⟩ (
          List.Forall₂.cons ⟨_, k0_off7_inb g 8, k0_off7_eq g 8, rfl⟩ (
          List.Forall₂.cons ⟨_, k0_off6_inb g 8, k0_off6_eq g 8, rfl⟩ (
          List.Forall₂.cons ⟨_, k0_off5_inb g 8, k0_off5_eq g 8, rfl⟩ (
          List.Forall₂.cons ⟨_, k0_off4_inb g 8, k0_off4_eq g 8, rfl⟩ (
          List.Forall₂.cons ⟨_, k0_off7_inb g 7, k0_off7_eq g 7, rfl⟩ (
          List.Forall₂.cons ⟨_, k0_off6_inb g 7, k0_off6_eq g 7, rfl⟩ (
          List.Forall₂.cons ⟨_, k0_off5_inb g 7, k0_off5_eq g 7, rfl⟩ (
          List.Forall₂.cons ⟨_, k0_off4_inb g 7, k0_off4_eq g 7, rfl⟩ (
          List.Forall₂.cons ⟨_, k0_off7_inb g 6, k0_off7_eq g 6, rfl⟩ (
          List.Forall₂.cons ⟨_, k0_off6_inb g 6, k0_off6_eq g 6, rfl⟩ (
          List.Forall₂.cons ⟨_, k0_off5_inb g 6, k0_off5_eq g 6, rfl⟩ (
          List.Forall₂.cons ⟨_, k0_off4_inb g 6, k0_off4_eq g 6, rfl⟩ (
          List.Forall₂.cons ⟨_, k0_off7_inb g 5, k0_off7_eq g 5, rfl⟩ (
          List.Forall₂.cons ⟨_, k0_off6_inb g 5, k0_off6_eq g 5, rfl⟩ (
          List.Forall₂.cons ⟨_, k0_off5_inb g 5, k0_off5_eq g 5, rfl⟩ (
          List.Forall₂.cons ⟨_, k0_off4_inb g 5, k0_off4_eq g 5, rfl⟩ (
          List.Forall₂.cons ⟨_, k0_off7_inb g 4, k0_off7_eq g 4, rfl⟩ (
          List.Forall₂.cons ⟨_, k0_off6_inb g 4, k0_off6_eq g 4, rfl⟩ (
          List.Forall₂.cons ⟨_, k0_off5_inb g 4, k0_off5_eq g 4, rfl⟩ (
          List.Forall₂.cons ⟨_, k0_off4_inb g 4, k0_off4_eq g 4, rfl⟩ (
          List.Forall₂.cons ⟨_, k0_off7_inb g 3, k0_off7_eq g 3, rfl⟩ (
          List.Forall₂.cons ⟨_, k0_off6_inb g 3, k0_off6_eq g 3, rfl⟩ (
          List.Forall₂.cons ⟨_, k0_off5_inb g 3, k0_off5_eq g 3, rfl⟩ (
          List.Forall₂.cons ⟨_, k0_off4_inb g 3, k0_off4_eq g 3, rfl⟩ (
          List.Forall₂.cons ⟨_, k0_off7_inb g 2, k0_off7_eq g 2, rfl⟩ (
          List.Forall₂.cons ⟨_, k0_off6_inb g 2, k0_off6_eq g 2, rfl⟩ (
          List.Forall₂.cons ⟨_, k0_off5_inb g 2, k0_off5_eq g 2, rfl⟩ (
          List.Forall₂.cons ⟨_, k0_off4_inb g 2, k0_off4_eq g 2, rfl⟩ (
          List.Forall₂.cons ⟨_, k0_off7_inb g 1, k0_off7_eq g 1, rfl⟩ (
          List.Forall₂.cons ⟨_, k0_off6_inb g 1, k0_off6_eq g 1, rfl⟩ (
          List.Forall₂.cons ⟨_, k0_off5_inb g 1, k0_off5_eq g 1, rfl⟩ (
          List.Forall₂.cons ⟨_, k0_off4_inb g 1, k0_off4_eq g 1, rfl⟩ (
          List.Forall₂.cons ⟨_, k0_off7_inb g 0, k0_off7_eq g 0, rfl⟩ (
          List.Forall₂.cons ⟨_, k0_off6_inb g 0, k0_off6_eq g 0, rfl⟩ (
          List.Forall₂.cons ⟨_, k0_off5_inb g 0, k0_off5_eq g 0, rfl⟩ (
          List.Forall₂.cons ⟨_, k0_off4_inb g 0, k0_off4_eq g 0, rfl⟩ (List.Forall₂.nil)))))))))))))))))))))))))))))))))))))))))))))))))))))))))))))))))
        hf

theorem grp_2_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_2 (F := F) d L Y f₀ tv 0 acc := by
  unfold invG_2
  iintro ⟨Hk, Hout⟩
  isplitl [Hk]
  · iexact Hk
  · iexists _
    isplitr [Hout]
    swap
    · iexact Hout
    · ipureintro
      exact grpUpTo_zero 0 0 tv Y f₀

/-! ### Loop 3: row 1 of output pair 0; tokens from `cc0_scratch1` at 200, rows into `cc0_scratch2` -/

/-- Before trip g: the token scratch at its contents; in the row scratch, row 1's sites below min (16·g) 200 hold
    their interpolation and the other row is as at the loop's start. -/
def invG_3 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 0 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_3_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t3_loop.trips) (acc : BitVec 32) :
    invG_3 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t3_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_3 (F := F) d L Y f₀ (tvLoc v4 v6 v8 v10 v35 v36 v37 v38 v39 v40 v41 v42 v45 v48 v51 v54) (g.val + 1)) := by
  unfold invG_3
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 1
        (tvLoc v4 v6 v8 v10 v35 v36 v37 v38 v39 v40 v41 v42 v45 v48 v51 v54) Y f₀ f g.val (lt_of_lt_of_le g.isLt k0_t3_abs.2.1)
        (k0_pay10 (F := F) (View.readAt (Elt F) (Memref.whole cc0_scratch1 : Memref sig .scVector .vmem S1600 .i32).view
          (Rect.unit (s := S1600) (k0_off8 g) S16.size (k0_off8_inb g)).toLoadRect Y))
        200 rfl
        (fun i => tokVec_at (F := F) Y (k0_off8 g) (k0_off8_inb g) _ (k0_off8_eq g) _ (fun j => rfl) i _
          (by show 200 + (min (16 * g.val) 184 + i.val) = min (16 * g.val) 184 + 200 + i.val; omega))
        _
        (List.Forall₂.cons ⟨_, k0_off12_inb g 15, k0_off12_eq g 15, rfl⟩ (
          List.Forall₂.cons ⟨_, k0_off11_inb g 15, k0_off11_eq g 15, rfl⟩ (
          List.Forall₂.cons ⟨_, k0_off10_inb g 15, k0_off10_eq g 15, rfl⟩ (
          List.Forall₂.cons ⟨_, k0_off9_inb g 15, k0_off9_eq g 15, rfl⟩ (
          List.Forall₂.cons ⟨_, k0_off12_inb g 14, k0_off12_eq g 14, rfl⟩ (
          List.Forall₂.cons ⟨_, k0_off11_inb g 14, k0_off11_eq g 14, rfl⟩ (
          List.Forall₂.cons ⟨_, k0_off10_inb g 14, k0_off10_eq g 14, rfl⟩ (
          List.Forall₂.cons ⟨_, k0_off9_inb g 14, k0_off9_eq g 14, rfl⟩ (
          List.Forall₂.cons ⟨_, k0_off12_inb g 13, k0_off12_eq g 13, rfl⟩ (
          List.Forall₂.cons ⟨_, k0_off11_inb g 13, k0_off11_eq g 13, rfl⟩ (
          List.Forall₂.cons ⟨_, k0_off10_inb g 13, k0_off10_eq g 13, rfl⟩ (
          List.Forall₂.cons ⟨_, k0_off9_inb g 13, k0_off9_eq g 13, rfl⟩ (
          List.Forall₂.cons ⟨_, k0_off12_inb g 12, k0_off12_eq g 12, rfl⟩ (
          List.Forall₂.cons ⟨_, k0_off11_inb g 12, k0_off11_eq g 12, rfl⟩ (
          List.Forall₂.cons ⟨_, k0_off10_inb g 12, k0_off10_eq g 12, rfl⟩ (
          List.Forall₂.cons ⟨_, k0_off9_inb g 12, k0_off9_eq g 12, rfl⟩ (
          List.Forall₂.cons ⟨_, k0_off12_inb g 11, k0_off12_eq g 11, rfl⟩ (
          List.Forall₂.cons ⟨_, k0_off11_inb g 11, k0_off11_eq g 11, rfl⟩ (
          List.Forall₂.cons ⟨_, k0_off10_inb g 11, k0_off10_eq g 11, rfl⟩ (
          List.Forall₂.cons ⟨_, k0_off9_inb g 11, k0_off9_eq g 11, rfl⟩ (
          List.Forall₂.cons ⟨_, k0_off12_inb g 10, k0_off12_eq g 10, rfl⟩ (
          List.Forall₂.cons ⟨_, k0_off11_inb g 10, k0_off11_eq g 10, rfl⟩ (
          List.Forall₂.cons ⟨_, k0_off10_inb g 10, k0_off10_eq g 10, rfl⟩ (
          List.Forall₂.cons ⟨_, k0_off9_inb g 10, k0_off9_eq g 10, rfl⟩ (
          List.Forall₂.cons ⟨_, k0_off12_inb g 9, k0_off12_eq g 9, rfl⟩ (
          List.Forall₂.cons ⟨_, k0_off11_inb g 9, k0_off11_eq g 9, rfl⟩ (
          List.Forall₂.cons ⟨_, k0_off10_inb g 9, k0_off10_eq g 9, rfl⟩ (
          List.Forall₂.cons ⟨_, k0_off9_inb g 9, k0_off9_eq g 9, rfl⟩ (
          List.Forall₂.cons ⟨_, k0_off12_inb g 8, k0_off12_eq g 8, rfl⟩ (
          List.Forall₂.cons ⟨_, k0_off11_inb g 8, k0_off11_eq g 8, rfl⟩ (
          List.Forall₂.cons ⟨_, k0_off10_inb g 8, k0_off10_eq g 8, rfl⟩ (
          List.Forall₂.cons ⟨_, k0_off9_inb g 8, k0_off9_eq g 8, rfl⟩ (
          List.Forall₂.cons ⟨_, k0_off12_inb g 7, k0_off12_eq g 7, rfl⟩ (
          List.Forall₂.cons ⟨_, k0_off11_inb g 7, k0_off11_eq g 7, rfl⟩ (
          List.Forall₂.cons ⟨_, k0_off10_inb g 7, k0_off10_eq g 7, rfl⟩ (
          List.Forall₂.cons ⟨_, k0_off9_inb g 7, k0_off9_eq g 7, rfl⟩ (
          List.Forall₂.cons ⟨_, k0_off12_inb g 6, k0_off12_eq g 6, rfl⟩ (
          List.Forall₂.cons ⟨_, k0_off11_inb g 6, k0_off11_eq g 6, rfl⟩ (
          List.Forall₂.cons ⟨_, k0_off10_inb g 6, k0_off10_eq g 6, rfl⟩ (
          List.Forall₂.cons ⟨_, k0_off9_inb g 6, k0_off9_eq g 6, rfl⟩ (
          List.Forall₂.cons ⟨_, k0_off12_inb g 5, k0_off12_eq g 5, rfl⟩ (
          List.Forall₂.cons ⟨_, k0_off11_inb g 5, k0_off11_eq g 5, rfl⟩ (
          List.Forall₂.cons ⟨_, k0_off10_inb g 5, k0_off10_eq g 5, rfl⟩ (
          List.Forall₂.cons ⟨_, k0_off9_inb g 5, k0_off9_eq g 5, rfl⟩ (
          List.Forall₂.cons ⟨_, k0_off12_inb g 4, k0_off12_eq g 4, rfl⟩ (
          List.Forall₂.cons ⟨_, k0_off11_inb g 4, k0_off11_eq g 4, rfl⟩ (
          List.Forall₂.cons ⟨_, k0_off10_inb g 4, k0_off10_eq g 4, rfl⟩ (
          List.Forall₂.cons ⟨_, k0_off9_inb g 4, k0_off9_eq g 4, rfl⟩ (
          List.Forall₂.cons ⟨_, k0_off12_inb g 3, k0_off12_eq g 3, rfl⟩ (
          List.Forall₂.cons ⟨_, k0_off11_inb g 3, k0_off11_eq g 3, rfl⟩ (
          List.Forall₂.cons ⟨_, k0_off10_inb g 3, k0_off10_eq g 3, rfl⟩ (
          List.Forall₂.cons ⟨_, k0_off9_inb g 3, k0_off9_eq g 3, rfl⟩ (
          List.Forall₂.cons ⟨_, k0_off12_inb g 2, k0_off12_eq g 2, rfl⟩ (
          List.Forall₂.cons ⟨_, k0_off11_inb g 2, k0_off11_eq g 2, rfl⟩ (
          List.Forall₂.cons ⟨_, k0_off10_inb g 2, k0_off10_eq g 2, rfl⟩ (
          List.Forall₂.cons ⟨_, k0_off9_inb g 2, k0_off9_eq g 2, rfl⟩ (
          List.Forall₂.cons ⟨_, k0_off12_inb g 1, k0_off12_eq g 1, rfl⟩ (
          List.Forall₂.cons ⟨_, k0_off11_inb g 1, k0_off11_eq g 1, rfl⟩ (
          List.Forall₂.cons ⟨_, k0_off10_inb g 1, k0_off10_eq g 1, rfl⟩ (
          List.Forall₂.cons ⟨_, k0_off9_inb g 1, k0_off9_eq g 1, rfl⟩ (
          List.Forall₂.cons ⟨_, k0_off12_inb g 0, k0_off12_eq g 0, rfl⟩ (
          List.Forall₂.cons ⟨_, k0_off11_inb g 0, k0_off11_eq g 0, rfl⟩ (
          List.Forall₂.cons ⟨_, k0_off10_inb g 0, k0_off10_eq g 0, rfl⟩ (
          List.Forall₂.cons ⟨_, k0_off9_inb g 0, k0_off9_eq g 0, rfl⟩ (List.Forall₂.nil)))))))))))))))))))))))))))))))))))))))))))))))))))))))))))))))))
        hf

theorem grp_3_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_3 (F := F) d L Y f₀ tv 0 acc := by
  unfold invG_3
  iintro ⟨Hk, Hout⟩
  isplitl [Hk]
  · iexact Hk
  · iexists _
    isplitr [Hout]
    swap
    · iexact Hout
    · ipureintro
      exact grpUpTo_zero 0 1 tv Y f₀

/-! ### Loop 4: row 0 of output pair 1; tokens from `cc0_scratch1` at 400, rows into `cc0_scratch7` -/

/-- Before trip g: the token scratch at its contents; in the row scratch, row 0's sites below min (16·g) 200 hold
    their interpolation and the other row is as at the loop's start. -/
def invG_4 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 1 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_4_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t4_loop.trips) (acc : BitVec 32) :
    invG_4 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t4_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_4 (F := F) d L Y f₀ (tvLoc v4 v6 v8 v10 v35 v36 v37 v38 v39 v40 v41 v42 v45 v48 v51 v54) (g.val + 1)) := by
  unfold invG_4
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 0
        (tvLoc v4 v6 v8 v10 v35 v36 v37 v38 v39 v40 v41 v42 v45 v48 v51 v54) Y f₀ f g.val (lt_of_lt_of_le g.isLt k0_t4_abs.2.1)
        (k0_pay10 (F := F) (View.readAt (Elt F) (Memref.whole cc0_scratch1 : Memref sig .scVector .vmem S1600 .i32).view
          (Rect.unit (s := S1600) (k0_off14 g) S16.size (k0_off14_inb g)).toLoadRect Y))
        400 rfl
        (fun i => tokVec_at (F := F) Y (k0_off14 g) (k0_off14_inb g) _ (k0_off14_eq g) _ (fun j => rfl) i _
          (by show 400 + (min (16 * g.val) 184 + i.val) = min (16 * g.val) 184 + 400 + i.val; omega))
        _
        (List.Forall₂.cons ⟨_, k0_off18_inb g 15, k0_off18_eq g 15, rfl⟩ (
          List.Forall₂.cons ⟨_, k0_off17_inb g 15, k0_off17_eq g 15, rfl⟩ (
          List.Forall₂.cons ⟨_, k0_off16_inb g 15, k0_off16_eq g 15, rfl⟩ (
          List.Forall₂.cons ⟨_, k0_off15_inb g 15, k0_off15_eq g 15, rfl⟩ (
          List.Forall₂.cons ⟨_, k0_off18_inb g 14, k0_off18_eq g 14, rfl⟩ (
          List.Forall₂.cons ⟨_, k0_off17_inb g 14, k0_off17_eq g 14, rfl⟩ (
          List.Forall₂.cons ⟨_, k0_off16_inb g 14, k0_off16_eq g 14, rfl⟩ (
          List.Forall₂.cons ⟨_, k0_off15_inb g 14, k0_off15_eq g 14, rfl⟩ (
          List.Forall₂.cons ⟨_, k0_off18_inb g 13, k0_off18_eq g 13, rfl⟩ (
          List.Forall₂.cons ⟨_, k0_off17_inb g 13, k0_off17_eq g 13, rfl⟩ (
          List.Forall₂.cons ⟨_, k0_off16_inb g 13, k0_off16_eq g 13, rfl⟩ (
          List.Forall₂.cons ⟨_, k0_off15_inb g 13, k0_off15_eq g 13, rfl⟩ (
          List.Forall₂.cons ⟨_, k0_off18_inb g 12, k0_off18_eq g 12, rfl⟩ (
          List.Forall₂.cons ⟨_, k0_off17_inb g 12, k0_off17_eq g 12, rfl⟩ (
          List.Forall₂.cons ⟨_, k0_off16_inb g 12, k0_off16_eq g 12, rfl⟩ (
          List.Forall₂.cons ⟨_, k0_off15_inb g 12, k0_off15_eq g 12, rfl⟩ (
          List.Forall₂.cons ⟨_, k0_off18_inb g 11, k0_off18_eq g 11, rfl⟩ (
          List.Forall₂.cons ⟨_, k0_off17_inb g 11, k0_off17_eq g 11, rfl⟩ (
          List.Forall₂.cons ⟨_, k0_off16_inb g 11, k0_off16_eq g 11, rfl⟩ (
          List.Forall₂.cons ⟨_, k0_off15_inb g 11, k0_off15_eq g 11, rfl⟩ (
          List.Forall₂.cons ⟨_, k0_off18_inb g 10, k0_off18_eq g 10, rfl⟩ (
          List.Forall₂.cons ⟨_, k0_off17_inb g 10, k0_off17_eq g 10, rfl⟩ (
          List.Forall₂.cons ⟨_, k0_off16_inb g 10, k0_off16_eq g 10, rfl⟩ (
          List.Forall₂.cons ⟨_, k0_off15_inb g 10, k0_off15_eq g 10, rfl⟩ (
          List.Forall₂.cons ⟨_, k0_off18_inb g 9, k0_off18_eq g 9, rfl⟩ (
          List.Forall₂.cons ⟨_, k0_off17_inb g 9, k0_off17_eq g 9, rfl⟩ (
          List.Forall₂.cons ⟨_, k0_off16_inb g 9, k0_off16_eq g 9, rfl⟩ (
          List.Forall₂.cons ⟨_, k0_off15_inb g 9, k0_off15_eq g 9, rfl⟩ (
          List.Forall₂.cons ⟨_, k0_off18_inb g 8, k0_off18_eq g 8, rfl⟩ (
          List.Forall₂.cons ⟨_, k0_off17_inb g 8, k0_off17_eq g 8, rfl⟩ (
          List.Forall₂.cons ⟨_, k0_off16_inb g 8, k0_off16_eq g 8, rfl⟩ (
          List.Forall₂.cons ⟨_, k0_off15_inb g 8, k0_off15_eq g 8, rfl⟩ (
          List.Forall₂.cons ⟨_, k0_off18_inb g 7, k0_off18_eq g 7, rfl⟩ (
          List.Forall₂.cons ⟨_, k0_off17_inb g 7, k0_off17_eq g 7, rfl⟩ (
          List.Forall₂.cons ⟨_, k0_off16_inb g 7, k0_off16_eq g 7, rfl⟩ (
          List.Forall₂.cons ⟨_, k0_off15_inb g 7, k0_off15_eq g 7, rfl⟩ (
          List.Forall₂.cons ⟨_, k0_off18_inb g 6, k0_off18_eq g 6, rfl⟩ (
          List.Forall₂.cons ⟨_, k0_off17_inb g 6, k0_off17_eq g 6, rfl⟩ (
          List.Forall₂.cons ⟨_, k0_off16_inb g 6, k0_off16_eq g 6, rfl⟩ (
          List.Forall₂.cons ⟨_, k0_off15_inb g 6, k0_off15_eq g 6, rfl⟩ (
          List.Forall₂.cons ⟨_, k0_off18_inb g 5, k0_off18_eq g 5, rfl⟩ (
          List.Forall₂.cons ⟨_, k0_off17_inb g 5, k0_off17_eq g 5, rfl⟩ (
          List.Forall₂.cons ⟨_, k0_off16_inb g 5, k0_off16_eq g 5, rfl⟩ (
          List.Forall₂.cons ⟨_, k0_off15_inb g 5, k0_off15_eq g 5, rfl⟩ (
          List.Forall₂.cons ⟨_, k0_off18_inb g 4, k0_off18_eq g 4, rfl⟩ (
          List.Forall₂.cons ⟨_, k0_off17_inb g 4, k0_off17_eq g 4, rfl⟩ (
          List.Forall₂.cons ⟨_, k0_off16_inb g 4, k0_off16_eq g 4, rfl⟩ (
          List.Forall₂.cons ⟨_, k0_off15_inb g 4, k0_off15_eq g 4, rfl⟩ (
          List.Forall₂.cons ⟨_, k0_off18_inb g 3, k0_off18_eq g 3, rfl⟩ (
          List.Forall₂.cons ⟨_, k0_off17_inb g 3, k0_off17_eq g 3, rfl⟩ (
          List.Forall₂.cons ⟨_, k0_off16_inb g 3, k0_off16_eq g 3, rfl⟩ (
          List.Forall₂.cons ⟨_, k0_off15_inb g 3, k0_off15_eq g 3, rfl⟩ (
          List.Forall₂.cons ⟨_, k0_off18_inb g 2, k0_off18_eq g 2, rfl⟩ (
          List.Forall₂.cons ⟨_, k0_off17_inb g 2, k0_off17_eq g 2, rfl⟩ (
          List.Forall₂.cons ⟨_, k0_off16_inb g 2, k0_off16_eq g 2, rfl⟩ (
          List.Forall₂.cons ⟨_, k0_off15_inb g 2, k0_off15_eq g 2, rfl⟩ (
          List.Forall₂.cons ⟨_, k0_off18_inb g 1, k0_off18_eq g 1, rfl⟩ (
          List.Forall₂.cons ⟨_, k0_off17_inb g 1, k0_off17_eq g 1, rfl⟩ (
          List.Forall₂.cons ⟨_, k0_off16_inb g 1, k0_off16_eq g 1, rfl⟩ (
          List.Forall₂.cons ⟨_, k0_off15_inb g 1, k0_off15_eq g 1, rfl⟩ (
          List.Forall₂.cons ⟨_, k0_off18_inb g 0, k0_off18_eq g 0, rfl⟩ (
          List.Forall₂.cons ⟨_, k0_off17_inb g 0, k0_off17_eq g 0, rfl⟩ (
          List.Forall₂.cons ⟨_, k0_off16_inb g 0, k0_off16_eq g 0, rfl⟩ (
          List.Forall₂.cons ⟨_, k0_off15_inb g 0, k0_off15_eq g 0, rfl⟩ (List.Forall₂.nil)))))))))))))))))))))))))))))))))))))))))))))))))))))))))))))))))
        hf

theorem grp_4_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_4 (F := F) d L Y f₀ tv 0 acc := by
  unfold invG_4
  iintro ⟨Hk, Hout⟩
  isplitl [Hk]
  · iexact Hk
  · iexists _
    isplitr [Hout]
    swap
    · iexact Hout
    · ipureintro
      exact grpUpTo_zero 1 0 tv Y f₀

/-! ### Loop 5: row 1 of output pair 1; tokens from `cc0_scratch1` at 600, rows into `cc0_scratch7` -/

/-- Before trip g: the token scratch at its contents; in the row scratch, row 1's sites below min (16·g) 200 hold
    their interpolation and the other row is as at the loop's start. -/
def invG_5 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 1 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_5_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_455 : BitVec 32)
    (g : Fin k0_t5_loop.trips) (acc : BitVec 32) :
    invG_5 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t5_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_455 g acc) (invG_5 (F := F) d L Y f₀ (tvLoc v4 v6 v8 v10 v35 v36 v37 v38 v39 v40 v41 v42 v45 v48 v51 v54) (g.val + 1)) := by
  unfold invG_5
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 1
        (tvLoc v4 v6 v8 v10 v35 v36 v37 v38 v39 v40 v41 v42 v45 v48 v51 v54) Y f₀ f g.val (lt_of_lt_of_le g.isLt k0_t5_abs.2.1)
        (k0_pay10 (F := F) (View.readAt (Elt F) (Memref.whole cc0_scratch1 : Memref sig .scVector .vmem S1600 .i32).view
          (Rect.unit (s := S1600) (k0_off19 g) S16.size (k0_off19_inb g)).toLoadRect Y))
        600 rfl
        (fun i => tokVec_at (F := F) Y (k0_off19 g) (k0_off19_inb g) _ (k0_off19_eq g) _ (fun j => rfl) i _
          (by show 600 + (min (16 * g.val) 184 + i.val) = min (16 * g.val) 184 + 600 + i.val; omega))
        _
        (List.Forall₂.cons ⟨_, k0_off23_inb g 15, k0_off23_eq g 15, rfl⟩ (
          List.Forall₂.cons ⟨_, k0_off22_inb g 15, k0_off22_eq g 15, rfl⟩ (
          List.Forall₂.cons ⟨_, k0_off21_inb g 15, k0_off21_eq g 15, rfl⟩ (
          List.Forall₂.cons ⟨_, k0_off20_inb g 15, k0_off20_eq g 15, rfl⟩ (
          List.Forall₂.cons ⟨_, k0_off23_inb g 14, k0_off23_eq g 14, rfl⟩ (
          List.Forall₂.cons ⟨_, k0_off22_inb g 14, k0_off22_eq g 14, rfl⟩ (
          List.Forall₂.cons ⟨_, k0_off21_inb g 14, k0_off21_eq g 14, rfl⟩ (
          List.Forall₂.cons ⟨_, k0_off20_inb g 14, k0_off20_eq g 14, rfl⟩ (
          List.Forall₂.cons ⟨_, k0_off23_inb g 13, k0_off23_eq g 13, rfl⟩ (
          List.Forall₂.cons ⟨_, k0_off22_inb g 13, k0_off22_eq g 13, rfl⟩ (
          List.Forall₂.cons ⟨_, k0_off21_inb g 13, k0_off21_eq g 13, rfl⟩ (
          List.Forall₂.cons ⟨_, k0_off20_inb g 13, k0_off20_eq g 13, rfl⟩ (
          List.Forall₂.cons ⟨_, k0_off23_inb g 12, k0_off23_eq g 12, rfl⟩ (
          List.Forall₂.cons ⟨_, k0_off22_inb g 12, k0_off22_eq g 12, rfl⟩ (
          List.Forall₂.cons ⟨_, k0_off21_inb g 12, k0_off21_eq g 12, rfl⟩ (
          List.Forall₂.cons ⟨_, k0_off20_inb g 12, k0_off20_eq g 12, rfl⟩ (
          List.Forall₂.cons ⟨_, k0_off23_inb g 11, k0_off23_eq g 11, rfl⟩ (
          List.Forall₂.cons ⟨_, k0_off22_inb g 11, k0_off22_eq g 11, rfl⟩ (
          List.Forall₂.cons ⟨_, k0_off21_inb g 11, k0_off21_eq g 11, rfl⟩ (
          List.Forall₂.cons ⟨_, k0_off20_inb g 11, k0_off20_eq g 11, rfl⟩ (
          List.Forall₂.cons ⟨_, k0_off23_inb g 10, k0_off23_eq g 10, rfl⟩ (
          List.Forall₂.cons ⟨_, k0_off22_inb g 10, k0_off22_eq g 10, rfl⟩ (
          List.Forall₂.cons ⟨_, k0_off21_inb g 10, k0_off21_eq g 10, rfl⟩ (
          List.Forall₂.cons ⟨_, k0_off20_inb g 10, k0_off20_eq g 10, rfl⟩ (
          List.Forall₂.cons ⟨_, k0_off23_inb g 9, k0_off23_eq g 9, rfl⟩ (
          List.Forall₂.cons ⟨_, k0_off22_inb g 9, k0_off22_eq g 9, rfl⟩ (
          List.Forall₂.cons ⟨_, k0_off21_inb g 9, k0_off21_eq g 9, rfl⟩ (
          List.Forall₂.cons ⟨_, k0_off20_inb g 9, k0_off20_eq g 9, rfl⟩ (
          List.Forall₂.cons ⟨_, k0_off23_inb g 8, k0_off23_eq g 8, rfl⟩ (
          List.Forall₂.cons ⟨_, k0_off22_inb g 8, k0_off22_eq g 8, rfl⟩ (
          List.Forall₂.cons ⟨_, k0_off21_inb g 8, k0_off21_eq g 8, rfl⟩ (
          List.Forall₂.cons ⟨_, k0_off20_inb g 8, k0_off20_eq g 8, rfl⟩ (
          List.Forall₂.cons ⟨_, k0_off23_inb g 7, k0_off23_eq g 7, rfl⟩ (
          List.Forall₂.cons ⟨_, k0_off22_inb g 7, k0_off22_eq g 7, rfl⟩ (
          List.Forall₂.cons ⟨_, k0_off21_inb g 7, k0_off21_eq g 7, rfl⟩ (
          List.Forall₂.cons ⟨_, k0_off20_inb g 7, k0_off20_eq g 7, rfl⟩ (
          List.Forall₂.cons ⟨_, k0_off23_inb g 6, k0_off23_eq g 6, rfl⟩ (
          List.Forall₂.cons ⟨_, k0_off22_inb g 6, k0_off22_eq g 6, rfl⟩ (
          List.Forall₂.cons ⟨_, k0_off21_inb g 6, k0_off21_eq g 6, rfl⟩ (
          List.Forall₂.cons ⟨_, k0_off20_inb g 6, k0_off20_eq g 6, rfl⟩ (
          List.Forall₂.cons ⟨_, k0_off23_inb g 5, k0_off23_eq g 5, rfl⟩ (
          List.Forall₂.cons ⟨_, k0_off22_inb g 5, k0_off22_eq g 5, rfl⟩ (
          List.Forall₂.cons ⟨_, k0_off21_inb g 5, k0_off21_eq g 5, rfl⟩ (
          List.Forall₂.cons ⟨_, k0_off20_inb g 5, k0_off20_eq g 5, rfl⟩ (
          List.Forall₂.cons ⟨_, k0_off23_inb g 4, k0_off23_eq g 4, rfl⟩ (
          List.Forall₂.cons ⟨_, k0_off22_inb g 4, k0_off22_eq g 4, rfl⟩ (
          List.Forall₂.cons ⟨_, k0_off21_inb g 4, k0_off21_eq g 4, rfl⟩ (
          List.Forall₂.cons ⟨_, k0_off20_inb g 4, k0_off20_eq g 4, rfl⟩ (
          List.Forall₂.cons ⟨_, k0_off23_inb g 3, k0_off23_eq g 3, rfl⟩ (
          List.Forall₂.cons ⟨_, k0_off22_inb g 3, k0_off22_eq g 3, rfl⟩ (
          List.Forall₂.cons ⟨_, k0_off21_inb g 3, k0_off21_eq g 3, rfl⟩ (
          List.Forall₂.cons ⟨_, k0_off20_inb g 3, k0_off20_eq g 3, rfl⟩ (
          List.Forall₂.cons ⟨_, k0_off23_inb g 2, k0_off23_eq g 2, rfl⟩ (
          List.Forall₂.cons ⟨_, k0_off22_inb g 2, k0_off22_eq g 2, rfl⟩ (
          List.Forall₂.cons ⟨_, k0_off21_inb g 2, k0_off21_eq g 2, rfl⟩ (
          List.Forall₂.cons ⟨_, k0_off20_inb g 2, k0_off20_eq g 2, rfl⟩ (
          List.Forall₂.cons ⟨_, k0_off23_inb g 1, k0_off23_eq g 1, rfl⟩ (
          List.Forall₂.cons ⟨_, k0_off22_inb g 1, k0_off22_eq g 1, rfl⟩ (
          List.Forall₂.cons ⟨_, k0_off21_inb g 1, k0_off21_eq g 1, rfl⟩ (
          List.Forall₂.cons ⟨_, k0_off20_inb g 1, k0_off20_eq g 1, rfl⟩ (
          List.Forall₂.cons ⟨_, k0_off23_inb g 0, k0_off23_eq g 0, rfl⟩ (
          List.Forall₂.cons ⟨_, k0_off22_inb g 0, k0_off22_eq g 0, rfl⟩ (
          List.Forall₂.cons ⟨_, k0_off21_inb g 0, k0_off21_eq g 0, rfl⟩ (
          List.Forall₂.cons ⟨_, k0_off20_inb g 0, k0_off20_eq g 0, rfl⟩ (List.Forall₂.nil)))))))))))))))))))))))))))))))))))))))))))))))))))))))))))))))))
        hf

theorem grp_5_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_5 (F := F) d L Y f₀ tv 0 acc := by
  unfold invG_5
  iintro ⟨Hk, Hout⟩
  isplitl [Hk]
  · iexact Hk
  · iexists _
    isplitr [Hout]
    swap
    · iexact Hout
    · ipureintro
      exact grpUpTo_zero 1 1 tv Y f₀

/-! ### Loop 6: row 0 of output pair 2; tokens from `cc0_scratch1` at 800, rows into `cc0_scratch2` -/

/-- Before trip g: the token scratch at its contents; in the row scratch, row 0's sites below min (16·g) 200 hold
    their interpolation and the other row is as at the loop's start. -/
def invG_6 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 2 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_6_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t6_loop.trips) (acc : BitVec 32) :
    invG_6 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t6_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_6 (F := F) d L Y f₀ (tvLoc v4 v6 v8 v10 v35 v36 v37 v38 v39 v40 v41 v42 v45 v48 v51 v54) (g.val + 1)) := by
  unfold invG_6
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 0
        (tvLoc v4 v6 v8 v10 v35 v36 v37 v38 v39 v40 v41 v42 v45 v48 v51 v54) Y f₀ f g.val (lt_of_lt_of_le g.isLt k0_t6_abs.2.1)
        (k0_pay10 (F := F) (View.readAt (Elt F) (Memref.whole cc0_scratch1 : Memref sig .scVector .vmem S1600 .i32).view
          (Rect.unit (s := S1600) (k0_off24 g) S16.size (k0_off24_inb g)).toLoadRect Y))
        800 rfl
        (fun i => tokVec_at (F := F) Y (k0_off24 g) (k0_off24_inb g) _ (k0_off24_eq g) _ (fun j => rfl) i _
          (by show 800 + (min (16 * g.val) 184 + i.val) = min (16 * g.val) 184 + 800 + i.val; omega))
        _
        (List.Forall₂.cons ⟨_, k0_off28_inb g 15, k0_off28_eq g 15, rfl⟩ (
          List.Forall₂.cons ⟨_, k0_off27_inb g 15, k0_off27_eq g 15, rfl⟩ (
          List.Forall₂.cons ⟨_, k0_off26_inb g 15, k0_off26_eq g 15, rfl⟩ (
          List.Forall₂.cons ⟨_, k0_off25_inb g 15, k0_off25_eq g 15, rfl⟩ (
          List.Forall₂.cons ⟨_, k0_off28_inb g 14, k0_off28_eq g 14, rfl⟩ (
          List.Forall₂.cons ⟨_, k0_off27_inb g 14, k0_off27_eq g 14, rfl⟩ (
          List.Forall₂.cons ⟨_, k0_off26_inb g 14, k0_off26_eq g 14, rfl⟩ (
          List.Forall₂.cons ⟨_, k0_off25_inb g 14, k0_off25_eq g 14, rfl⟩ (
          List.Forall₂.cons ⟨_, k0_off28_inb g 13, k0_off28_eq g 13, rfl⟩ (
          List.Forall₂.cons ⟨_, k0_off27_inb g 13, k0_off27_eq g 13, rfl⟩ (
          List.Forall₂.cons ⟨_, k0_off26_inb g 13, k0_off26_eq g 13, rfl⟩ (
          List.Forall₂.cons ⟨_, k0_off25_inb g 13, k0_off25_eq g 13, rfl⟩ (
          List.Forall₂.cons ⟨_, k0_off28_inb g 12, k0_off28_eq g 12, rfl⟩ (
          List.Forall₂.cons ⟨_, k0_off27_inb g 12, k0_off27_eq g 12, rfl⟩ (
          List.Forall₂.cons ⟨_, k0_off26_inb g 12, k0_off26_eq g 12, rfl⟩ (
          List.Forall₂.cons ⟨_, k0_off25_inb g 12, k0_off25_eq g 12, rfl⟩ (
          List.Forall₂.cons ⟨_, k0_off28_inb g 11, k0_off28_eq g 11, rfl⟩ (
          List.Forall₂.cons ⟨_, k0_off27_inb g 11, k0_off27_eq g 11, rfl⟩ (
          List.Forall₂.cons ⟨_, k0_off26_inb g 11, k0_off26_eq g 11, rfl⟩ (
          List.Forall₂.cons ⟨_, k0_off25_inb g 11, k0_off25_eq g 11, rfl⟩ (
          List.Forall₂.cons ⟨_, k0_off28_inb g 10, k0_off28_eq g 10, rfl⟩ (
          List.Forall₂.cons ⟨_, k0_off27_inb g 10, k0_off27_eq g 10, rfl⟩ (
          List.Forall₂.cons ⟨_, k0_off26_inb g 10, k0_off26_eq g 10, rfl⟩ (
          List.Forall₂.cons ⟨_, k0_off25_inb g 10, k0_off25_eq g 10, rfl⟩ (
          List.Forall₂.cons ⟨_, k0_off28_inb g 9, k0_off28_eq g 9, rfl⟩ (
          List.Forall₂.cons ⟨_, k0_off27_inb g 9, k0_off27_eq g 9, rfl⟩ (
          List.Forall₂.cons ⟨_, k0_off26_inb g 9, k0_off26_eq g 9, rfl⟩ (
          List.Forall₂.cons ⟨_, k0_off25_inb g 9, k0_off25_eq g 9, rfl⟩ (
          List.Forall₂.cons ⟨_, k0_off28_inb g 8, k0_off28_eq g 8, rfl⟩ (
          List.Forall₂.cons ⟨_, k0_off27_inb g 8, k0_off27_eq g 8, rfl⟩ (
          List.Forall₂.cons ⟨_, k0_off26_inb g 8, k0_off26_eq g 8, rfl⟩ (
          List.Forall₂.cons ⟨_, k0_off25_inb g 8, k0_off25_eq g 8, rfl⟩ (
          List.Forall₂.cons ⟨_, k0_off28_inb g 7, k0_off28_eq g 7, rfl⟩ (
          List.Forall₂.cons ⟨_, k0_off27_inb g 7, k0_off27_eq g 7, rfl⟩ (
          List.Forall₂.cons ⟨_, k0_off26_inb g 7, k0_off26_eq g 7, rfl⟩ (
          List.Forall₂.cons ⟨_, k0_off25_inb g 7, k0_off25_eq g 7, rfl⟩ (
          List.Forall₂.cons ⟨_, k0_off28_inb g 6, k0_off28_eq g 6, rfl⟩ (
          List.Forall₂.cons ⟨_, k0_off27_inb g 6, k0_off27_eq g 6, rfl⟩ (
          List.Forall₂.cons ⟨_, k0_off26_inb g 6, k0_off26_eq g 6, rfl⟩ (
          List.Forall₂.cons ⟨_, k0_off25_inb g 6, k0_off25_eq g 6, rfl⟩ (
          List.Forall₂.cons ⟨_, k0_off28_inb g 5, k0_off28_eq g 5, rfl⟩ (
          List.Forall₂.cons ⟨_, k0_off27_inb g 5, k0_off27_eq g 5, rfl⟩ (
          List.Forall₂.cons ⟨_, k0_off26_inb g 5, k0_off26_eq g 5, rfl⟩ (
          List.Forall₂.cons ⟨_, k0_off25_inb g 5, k0_off25_eq g 5, rfl⟩ (
          List.Forall₂.cons ⟨_, k0_off28_inb g 4, k0_off28_eq g 4, rfl⟩ (
          List.Forall₂.cons ⟨_, k0_off27_inb g 4, k0_off27_eq g 4, rfl⟩ (
          List.Forall₂.cons ⟨_, k0_off26_inb g 4, k0_off26_eq g 4, rfl⟩ (
          List.Forall₂.cons ⟨_, k0_off25_inb g 4, k0_off25_eq g 4, rfl⟩ (
          List.Forall₂.cons ⟨_, k0_off28_inb g 3, k0_off28_eq g 3, rfl⟩ (
          List.Forall₂.cons ⟨_, k0_off27_inb g 3, k0_off27_eq g 3, rfl⟩ (
          List.Forall₂.cons ⟨_, k0_off26_inb g 3, k0_off26_eq g 3, rfl⟩ (
          List.Forall₂.cons ⟨_, k0_off25_inb g 3, k0_off25_eq g 3, rfl⟩ (
          List.Forall₂.cons ⟨_, k0_off28_inb g 2, k0_off28_eq g 2, rfl⟩ (
          List.Forall₂.cons ⟨_, k0_off27_inb g 2, k0_off27_eq g 2, rfl⟩ (
          List.Forall₂.cons ⟨_, k0_off26_inb g 2, k0_off26_eq g 2, rfl⟩ (
          List.Forall₂.cons ⟨_, k0_off25_inb g 2, k0_off25_eq g 2, rfl⟩ (
          List.Forall₂.cons ⟨_, k0_off28_inb g 1, k0_off28_eq g 1, rfl⟩ (
          List.Forall₂.cons ⟨_, k0_off27_inb g 1, k0_off27_eq g 1, rfl⟩ (
          List.Forall₂.cons ⟨_, k0_off26_inb g 1, k0_off26_eq g 1, rfl⟩ (
          List.Forall₂.cons ⟨_, k0_off25_inb g 1, k0_off25_eq g 1, rfl⟩ (
          List.Forall₂.cons ⟨_, k0_off28_inb g 0, k0_off28_eq g 0, rfl⟩ (
          List.Forall₂.cons ⟨_, k0_off27_inb g 0, k0_off27_eq g 0, rfl⟩ (
          List.Forall₂.cons ⟨_, k0_off26_inb g 0, k0_off26_eq g 0, rfl⟩ (
          List.Forall₂.cons ⟨_, k0_off25_inb g 0, k0_off25_eq g 0, rfl⟩ (List.Forall₂.nil)))))))))))))))))))))))))))))))))))))))))))))))))))))))))))))))))
        hf

theorem grp_6_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_6 (F := F) d L Y f₀ tv 0 acc := by
  unfold invG_6
  iintro ⟨Hk, Hout⟩
  isplitl [Hk]
  · iexact Hk
  · iexists _
    isplitr [Hout]
    swap
    · iexact Hout
    · ipureintro
      exact grpUpTo_zero 2 0 tv Y f₀

/-! ### Loop 7: row 1 of output pair 2; tokens from `cc0_scratch1` at 1000, rows into `cc0_scratch2` -/

/-- Before trip g: the token scratch at its contents; in the row scratch, row 1's sites below min (16·g) 200 hold
    their interpolation and the other row is as at the loop's start. -/
def invG_7 (Y : Buf (Elt F) ((V d (cV L) (jV L)).loc cc0_scratch1)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 2 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_7_region (Y : Buf (Elt F) ((V d (cV L) (jV L)).loc cc0_scratch1)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t7_loop.trips) (acc : BitVec 32) :
    invG_7 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t7_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_7 (F := F) d L Y f₀ (tvLoc v4 v6 v8 v10 v35 v36 v37 v38 v39 v40 v41 v42 v45 v48 v51 v54) (g.val + 1)) := by
  unfold invG_7
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 1
        (tvLoc v4 v6 v8 v10 v35 v36 v37 v38 v39 v40 v41 v42 v45 v48 v51 v54) Y f₀ f g.val (lt_of_lt_of_le g.isLt k0_t7_abs.2.1)
        (k0_pay10 (F := F) (View.readAt (Elt F) (Memref.whole cc0_scratch1 : Memref sig .scVector .vmem S1600 .i32).view
          (Rect.unit (s := S1600) (k0_off29 g) S16.size (k0_off29_inb g)).toLoadRect Y))
        1000 rfl
        (fun i => tokVec_at (F := F) Y (k0_off29 g) (k0_off29_inb g) _ (k0_off29_eq g) _ (fun j => rfl) i _
          (by show 1000 + (min (16 * g.val) 184 + i.val) = min (16 * g.val) 184 + 1000 + i.val; omega))
        _
        (List.Forall₂.cons ⟨_, k0_off33_inb g 15, k0_off33_eq g 15, rfl⟩ (
          List.Forall₂.cons ⟨_, k0_off32_inb g 15, k0_off32_eq g 15, rfl⟩ (
          List.Forall₂.cons ⟨_, k0_off31_inb g 15, k0_off31_eq g 15, rfl⟩ (
          List.Forall₂.cons ⟨_, k0_off30_inb g 15, k0_off30_eq g 15, rfl⟩ (
          List.Forall₂.cons ⟨_, k0_off33_inb g 14, k0_off33_eq g 14, rfl⟩ (
          List.Forall₂.cons ⟨_, k0_off32_inb g 14, k0_off32_eq g 14, rfl⟩ (
          List.Forall₂.cons ⟨_, k0_off31_inb g 14, k0_off31_eq g 14, rfl⟩ (
          List.Forall₂.cons ⟨_, k0_off30_inb g 14, k0_off30_eq g 14, rfl⟩ (
          List.Forall₂.cons ⟨_, k0_off33_inb g 13, k0_off33_eq g 13, rfl⟩ (
          List.Forall₂.cons ⟨_, k0_off32_inb g 13, k0_off32_eq g 13, rfl⟩ (
          List.Forall₂.cons ⟨_, k0_off31_inb g 13, k0_off31_eq g 13, rfl⟩ (
          List.Forall₂.cons ⟨_, k0_off30_inb g 13, k0_off30_eq g 13, rfl⟩ (
          List.Forall₂.cons ⟨_, k0_off33_inb g 12, k0_off33_eq g 12, rfl⟩ (
          List.Forall₂.cons ⟨_, k0_off32_inb g 12, k0_off32_eq g 12, rfl⟩ (
          List.Forall₂.cons ⟨_, k0_off31_inb g 12, k0_off31_eq g 12, rfl⟩ (
          List.Forall₂.cons ⟨_, k0_off30_inb g 12, k0_off30_eq g 12, rfl⟩ (
          List.Forall₂.cons ⟨_, k0_off33_inb g 11, k0_off33_eq g 11, rfl⟩ (
          List.Forall₂.cons ⟨_, k0_off32_inb g 11, k0_off32_eq g 11, rfl⟩ (
          List.Forall₂.cons ⟨_, k0_off31_inb g 11, k0_off31_eq g 11, rfl⟩ (
          List.Forall₂.cons ⟨_, k0_off30_inb g 11, k0_off30_eq g 11, rfl⟩ (
          List.Forall₂.cons ⟨_, k0_off33_inb g 10, k0_off33_eq g 10, rfl⟩ (
          List.Forall₂.cons ⟨_, k0_off32_inb g 10, k0_off32_eq g 10, rfl⟩ (
          List.Forall₂.cons ⟨_, k0_off31_inb g 10, k0_off31_eq g 10, rfl⟩ (
          List.Forall₂.cons ⟨_, k0_off30_inb g 10, k0_off30_eq g 10, rfl⟩ (
          List.Forall₂.cons ⟨_, k0_off33_inb g 9, k0_off33_eq g 9, rfl⟩ (
          List.Forall₂.cons ⟨_, k0_off32_inb g 9, k0_off32_eq g 9, rfl⟩ (
          List.Forall₂.cons ⟨_, k0_off31_inb g 9, k0_off31_eq g 9, rfl⟩ (
          List.Forall₂.cons ⟨_, k0_off30_inb g 9, k0_off30_eq g 9, rfl⟩ (
          List.Forall₂.cons ⟨_, k0_off33_inb g 8, k0_off33_eq g 8, rfl⟩ (
          List.Forall₂.cons ⟨_, k0_off32_inb g 8, k0_off32_eq g 8, rfl⟩ (
          List.Forall₂.cons ⟨_, k0_off31_inb g 8, k0_off31_eq g 8, rfl⟩ (
          List.Forall₂.cons ⟨_, k0_off30_inb g 8, k0_off30_eq g 8, rfl⟩ (
          List.Forall₂.cons ⟨_, k0_off33_inb g 7, k0_off33_eq g 7, rfl⟩ (
          List.Forall₂.cons ⟨_, k0_off32_inb g 7, k0_off32_eq g 7, rfl⟩ (
          List.Forall₂.cons ⟨_, k0_off31_inb g 7, k0_off31_eq g 7, rfl⟩ (
          List.Forall₂.cons ⟨_, k0_off30_inb g 7, k0_off30_eq g 7, rfl⟩ (
          List.Forall₂.cons ⟨_, k0_off33_inb g 6, k0_off33_eq g 6, rfl⟩ (
          List.Forall₂.cons ⟨_, k0_off32_inb g 6, k0_off32_eq g 6, rfl⟩ (
          List.Forall₂.cons ⟨_, k0_off31_inb g 6, k0_off31_eq g 6, rfl⟩ (
          List.Forall₂.cons ⟨_, k0_off30_inb g 6, k0_off30_eq g 6, rfl⟩ (
          List.Forall₂.cons ⟨_, k0_off33_inb g 5, k0_off33_eq g 5, rfl⟩ (
          List.Forall₂.cons ⟨_, k0_off32_inb g 5, k0_off32_eq g 5, rfl⟩ (
          List.Forall₂.cons ⟨_, k0_off31_inb g 5, k0_off31_eq g 5, rfl⟩ (
          List.Forall₂.cons ⟨_, k0_off30_inb g 5, k0_off30_eq g 5, rfl⟩ (
          List.Forall₂.cons ⟨_, k0_off33_inb g 4, k0_off33_eq g 4, rfl⟩ (
          List.Forall₂.cons ⟨_, k0_off32_inb g 4, k0_off32_eq g 4, rfl⟩ (
          List.Forall₂.cons ⟨_, k0_off31_inb g 4, k0_off31_eq g 4, rfl⟩ (
          List.Forall₂.cons ⟨_, k0_off30_inb g 4, k0_off30_eq g 4, rfl⟩ (
          List.Forall₂.cons ⟨_, k0_off33_inb g 3, k0_off33_eq g 3, rfl⟩ (
          List.Forall₂.cons ⟨_, k0_off32_inb g 3, k0_off32_eq g 3, rfl⟩ (
          List.Forall₂.cons ⟨_, k0_off31_inb g 3, k0_off31_eq g 3, rfl⟩ (
          List.Forall₂.cons ⟨_, k0_off30_inb g 3, k0_off30_eq g 3, rfl⟩ (
          List.Forall₂.cons ⟨_, k0_off33_inb g 2, k0_off33_eq g 2, rfl⟩ (
          List.Forall₂.cons ⟨_, k0_off32_inb g 2, k0_off32_eq g 2, rfl⟩ (
          List.Forall₂.cons ⟨_, k0_off31_inb g 2, k0_off31_eq g 2, rfl⟩ (
          List.Forall₂.cons ⟨_, k0_off30_inb g 2, k0_off30_eq g 2, rfl⟩ (
          List.Forall₂.cons ⟨_, k0_off33_inb g 1, k0_off33_eq g 1, rfl⟩ (
          List.Forall₂.cons ⟨_, k0_off32_inb g 1, k0_off32_eq g 1, rfl⟩ (
          List.Forall₂.cons ⟨_, k0_off31_inb g 1, k0_off31_eq g 1, rfl⟩ (
          List.Forall₂.cons ⟨_, k0_off30_inb g 1, k0_off30_eq g 1, rfl⟩ (
          List.Forall₂.cons ⟨_, k0_off33_inb g 0, k0_off33_eq g 0, rfl⟩ (
          List.Forall₂.cons ⟨_, k0_off32_inb g 0, k0_off32_eq g 0, rfl⟩ (
          List.Forall₂.cons ⟨_, k0_off31_inb g 0, k0_off31_eq g 0, rfl⟩ (
          List.Forall₂.cons ⟨_, k0_off30_inb g 0, k0_off30_eq g 0, rfl⟩ (List.Forall₂.nil)))))))))))))))))))))))))))))))))))))))))))))))))))))))))))))))))
        hf

theorem grp_7_init (Y : Buf (Elt F) ((V d (cV L) (jV L)).loc cc0_scratch1)) (f₀ : Buf (Elt F) ((V d (cV L) (jV L)).loc cc0_scratch2))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_7 (F := F) d L Y f₀ tv 0 acc := by
  unfold invG_7
  iintro ⟨Hk, Hout⟩
  isplitl [Hk]
  · iexact Hk
  · iexists _
    isplitr [Hout]
    swap
    · iexact Hout
    · ipureintro
      exact grpUpTo_zero 2 1 tv Y f₀

/-! ### Loop 8: row 0 of output pair 3; tokens from `cc0_scratch1` at 1200, rows into `cc0_scratch7` -/

/-- Before trip g: the token scratch at its contents; in the row scratch, row 0's sites below min (16·g) 200 hold
    their interpolation and the other row is as at the loop's start. -/
def invG_8 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 3 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_8_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t8_loop.trips) (acc : BitVec 32) :
    invG_8 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t8_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_8 (F := F) d L Y f₀ (tvLoc v4 v6 v8 v10 v35 v36 v37 v38 v39 v40 v41 v42 v45 v48 v51 v54) (g.val + 1)) := by
  unfold invG_8
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 0
        (tvLoc v4 v6 v8 v10 v35 v36 v37 v38 v39 v40 v41 v42 v45 v48 v51 v54) Y f₀ f g.val (lt_of_lt_of_le g.isLt k0_t8_abs.2.1)
        (k0_pay10 (F := F) (View.readAt (Elt F) (Memref.whole cc0_scratch1 : Memref sig .scVector .vmem S1600 .i32).view
          (Rect.unit (s := S1600) (k0_off34 g) S16.size (k0_off34_inb g)).toLoadRect Y))
        1200 rfl
        (fun i => tokVec_at (F := F) Y (k0_off34 g) (k0_off34_inb g) _ (k0_off34_eq g) _ (fun j => rfl) i _
          (by show 1200 + (min (16 * g.val) 184 + i.val) = min (16 * g.val) 184 + 1200 + i.val; omega))
        _
        (List.Forall₂.cons ⟨_, k0_off38_inb g 15, k0_off38_eq g 15, rfl⟩ (
          List.Forall₂.cons ⟨_, k0_off37_inb g 15, k0_off37_eq g 15, rfl⟩ (
          List.Forall₂.cons ⟨_, k0_off36_inb g 15, k0_off36_eq g 15, rfl⟩ (
          List.Forall₂.cons ⟨_, k0_off35_inb g 15, k0_off35_eq g 15, rfl⟩ (
          List.Forall₂.cons ⟨_, k0_off38_inb g 14, k0_off38_eq g 14, rfl⟩ (
          List.Forall₂.cons ⟨_, k0_off37_inb g 14, k0_off37_eq g 14, rfl⟩ (
          List.Forall₂.cons ⟨_, k0_off36_inb g 14, k0_off36_eq g 14, rfl⟩ (
          List.Forall₂.cons ⟨_, k0_off35_inb g 14, k0_off35_eq g 14, rfl⟩ (
          List.Forall₂.cons ⟨_, k0_off38_inb g 13, k0_off38_eq g 13, rfl⟩ (
          List.Forall₂.cons ⟨_, k0_off37_inb g 13, k0_off37_eq g 13, rfl⟩ (
          List.Forall₂.cons ⟨_, k0_off36_inb g 13, k0_off36_eq g 13, rfl⟩ (
          List.Forall₂.cons ⟨_, k0_off35_inb g 13, k0_off35_eq g 13, rfl⟩ (
          List.Forall₂.cons ⟨_, k0_off38_inb g 12, k0_off38_eq g 12, rfl⟩ (
          List.Forall₂.cons ⟨_, k0_off37_inb g 12, k0_off37_eq g 12, rfl⟩ (
          List.Forall₂.cons ⟨_, k0_off36_inb g 12, k0_off36_eq g 12, rfl⟩ (
          List.Forall₂.cons ⟨_, k0_off35_inb g 12, k0_off35_eq g 12, rfl⟩ (
          List.Forall₂.cons ⟨_, k0_off38_inb g 11, k0_off38_eq g 11, rfl⟩ (
          List.Forall₂.cons ⟨_, k0_off37_inb g 11, k0_off37_eq g 11, rfl⟩ (
          List.Forall₂.cons ⟨_, k0_off36_inb g 11, k0_off36_eq g 11, rfl⟩ (
          List.Forall₂.cons ⟨_, k0_off35_inb g 11, k0_off35_eq g 11, rfl⟩ (
          List.Forall₂.cons ⟨_, k0_off38_inb g 10, k0_off38_eq g 10, rfl⟩ (
          List.Forall₂.cons ⟨_, k0_off37_inb g 10, k0_off37_eq g 10, rfl⟩ (
          List.Forall₂.cons ⟨_, k0_off36_inb g 10, k0_off36_eq g 10, rfl⟩ (
          List.Forall₂.cons ⟨_, k0_off35_inb g 10, k0_off35_eq g 10, rfl⟩ (
          List.Forall₂.cons ⟨_, k0_off38_inb g 9, k0_off38_eq g 9, rfl⟩ (
          List.Forall₂.cons ⟨_, k0_off37_inb g 9, k0_off37_eq g 9, rfl⟩ (
          List.Forall₂.cons ⟨_, k0_off36_inb g 9, k0_off36_eq g 9, rfl⟩ (
          List.Forall₂.cons ⟨_, k0_off35_inb g 9, k0_off35_eq g 9, rfl⟩ (
          List.Forall₂.cons ⟨_, k0_off38_inb g 8, k0_off38_eq g 8, rfl⟩ (
          List.Forall₂.cons ⟨_, k0_off37_inb g 8, k0_off37_eq g 8, rfl⟩ (
          List.Forall₂.cons ⟨_, k0_off36_inb g 8, k0_off36_eq g 8, rfl⟩ (
          List.Forall₂.cons ⟨_, k0_off35_inb g 8, k0_off35_eq g 8, rfl⟩ (
          List.Forall₂.cons ⟨_, k0_off38_inb g 7, k0_off38_eq g 7, rfl⟩ (
          List.Forall₂.cons ⟨_, k0_off37_inb g 7, k0_off37_eq g 7, rfl⟩ (
          List.Forall₂.cons ⟨_, k0_off36_inb g 7, k0_off36_eq g 7, rfl⟩ (
          List.Forall₂.cons ⟨_, k0_off35_inb g 7, k0_off35_eq g 7, rfl⟩ (
          List.Forall₂.cons ⟨_, k0_off38_inb g 6, k0_off38_eq g 6, rfl⟩ (
          List.Forall₂.cons ⟨_, k0_off37_inb g 6, k0_off37_eq g 6, rfl⟩ (
          List.Forall₂.cons ⟨_, k0_off36_inb g 6, k0_off36_eq g 6, rfl⟩ (
          List.Forall₂.cons ⟨_, k0_off35_inb g 6, k0_off35_eq g 6, rfl⟩ (
          List.Forall₂.cons ⟨_, k0_off38_inb g 5, k0_off38_eq g 5, rfl⟩ (
          List.Forall₂.cons ⟨_, k0_off37_inb g 5, k0_off37_eq g 5, rfl⟩ (
          List.Forall₂.cons ⟨_, k0_off36_inb g 5, k0_off36_eq g 5, rfl⟩ (
          List.Forall₂.cons ⟨_, k0_off35_inb g 5, k0_off35_eq g 5, rfl⟩ (
          List.Forall₂.cons ⟨_, k0_off38_inb g 4, k0_off38_eq g 4, rfl⟩ (
          List.Forall₂.cons ⟨_, k0_off37_inb g 4, k0_off37_eq g 4, rfl⟩ (
          List.Forall₂.cons ⟨_, k0_off36_inb g 4, k0_off36_eq g 4, rfl⟩ (
          List.Forall₂.cons ⟨_, k0_off35_inb g 4, k0_off35_eq g 4, rfl⟩ (
          List.Forall₂.cons ⟨_, k0_off38_inb g 3, k0_off38_eq g 3, rfl⟩ (
          List.Forall₂.cons ⟨_, k0_off37_inb g 3, k0_off37_eq g 3, rfl⟩ (
          List.Forall₂.cons ⟨_, k0_off36_inb g 3, k0_off36_eq g 3, rfl⟩ (
          List.Forall₂.cons ⟨_, k0_off35_inb g 3, k0_off35_eq g 3, rfl⟩ (
          List.Forall₂.cons ⟨_, k0_off38_inb g 2, k0_off38_eq g 2, rfl⟩ (
          List.Forall₂.cons ⟨_, k0_off37_inb g 2, k0_off37_eq g 2, rfl⟩ (
          List.Forall₂.cons ⟨_, k0_off36_inb g 2, k0_off36_eq g 2, rfl⟩ (
          List.Forall₂.cons ⟨_, k0_off35_inb g 2, k0_off35_eq g 2, rfl⟩ (
          List.Forall₂.cons ⟨_, k0_off38_inb g 1, k0_off38_eq g 1, rfl⟩ (
          List.Forall₂.cons ⟨_, k0_off37_inb g 1, k0_off37_eq g 1, rfl⟩ (
          List.Forall₂.cons ⟨_, k0_off36_inb g 1, k0_off36_eq g 1, rfl⟩ (
          List.Forall₂.cons ⟨_, k0_off35_inb g 1, k0_off35_eq g 1, rfl⟩ (
          List.Forall₂.cons ⟨_, k0_off38_inb g 0, k0_off38_eq g 0, rfl⟩ (
          List.Forall₂.cons ⟨_, k0_off37_inb g 0, k0_off37_eq g 0, rfl⟩ (
          List.Forall₂.cons ⟨_, k0_off36_inb g 0, k0_off36_eq g 0, rfl⟩ (
          List.Forall₂.cons ⟨_, k0_off35_inb g 0, k0_off35_eq g 0, rfl⟩ (List.Forall₂.nil)))))))))))))))))))))))))))))))))))))))))))))))))))))))))))))))))
        hf

theorem grp_8_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_8 (F := F) d L Y f₀ tv 0 acc := by
  unfold invG_8
  iintro ⟨Hk, Hout⟩
  isplitl [Hk]
  · iexact Hk
  · iexists _
    isplitr [Hout]
    swap
    · iexact Hout
    · ipureintro
      exact grpUpTo_zero 3 0 tv Y f₀

/-! ### Loop 9: row 1 of output pair 3; tokens from `cc0_scratch1` at 1400, rows into `cc0_scratch7` -/

/-- Before trip g: the token scratch at its contents; in the row scratch, row 1's sites below min (16·g) 200 hold
    their interpolation and the other row is as at the loop's start. -/
def invG_9 (Y : Buf (Elt F) ((V d (cV L) (jV L)).loc cc0_scratch1)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch1 : Memref sig .scVector .vmem S1600 .i32).view.loc (V d (cV L) (jV L)) ↦{fullShare} Y)
    ∗ ∃ f, ⌜GrpUpTo (F := F) 3 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_9_region (Y : Buf (Elt F) ((V d (cV L) (jV L)).loc cc0_scratch1)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v68 : BitVec 32) (c0_i32_490 : BitVec 32)
    (g : Fin k0_t9_loop.trips) (acc : BitVec 32) :
    invG_9 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t9_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v68 c0_i32_490 g acc) (invG_9 (F := F) d L Y f₀ (tvLoc v4 v6 v8 v10 v35 v36 v37 v38 v39 v40 v41 v42 v45 v48 v51 v54) (g.val + 1)) := by
  unfold invG_9
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 1
        (tvLoc v4 v6 v8 v10 v35 v36 v37 v38 v39 v40 v41 v42 v45 v48 v51 v54) Y f₀ f g.val (lt_of_lt_of_le g.isLt k0_t9_abs.2.1)
        (k0_pay10 (F := F) (View.readAt (Elt F) (Memref.whole cc0_scratch1 : Memref sig .scVector .vmem S1600 .i32).view
          (Rect.unit (s := S1600) (k0_off39 g) S16.size (k0_off39_inb g)).toLoadRect Y))
        1400 rfl
        (fun i => tokVec_at (F := F) Y (k0_off39 g) (k0_off39_inb g) _ (k0_off39_eq g) _ (fun j => rfl) i _
          (by show 1400 + (min (16 * g.val) 184 + i.val) = min (16 * g.val) 184 + 1400 + i.val; omega))
        _
        (List.Forall₂.cons ⟨_, k0_off43_inb g 15, k0_off43_eq g 15, rfl⟩ (
          List.Forall₂.cons ⟨_, k0_off42_inb g 15, k0_off42_eq g 15, rfl⟩ (
          List.Forall₂.cons ⟨_, k0_off41_inb g 15, k0_off41_eq g 15, rfl⟩ (
          List.Forall₂.cons ⟨_, k0_off40_inb g 15, k0_off40_eq g 15, rfl⟩ (
          List.Forall₂.cons ⟨_, k0_off43_inb g 14, k0_off43_eq g 14, rfl⟩ (
          List.Forall₂.cons ⟨_, k0_off42_inb g 14, k0_off42_eq g 14, rfl⟩ (
          List.Forall₂.cons ⟨_, k0_off41_inb g 14, k0_off41_eq g 14, rfl⟩ (
          List.Forall₂.cons ⟨_, k0_off40_inb g 14, k0_off40_eq g 14, rfl⟩ (
          List.Forall₂.cons ⟨_, k0_off43_inb g 13, k0_off43_eq g 13, rfl⟩ (
          List.Forall₂.cons ⟨_, k0_off42_inb g 13, k0_off42_eq g 13, rfl⟩ (
          List.Forall₂.cons ⟨_, k0_off41_inb g 13, k0_off41_eq g 13, rfl⟩ (
          List.Forall₂.cons ⟨_, k0_off40_inb g 13, k0_off40_eq g 13, rfl⟩ (
          List.Forall₂.cons ⟨_, k0_off43_inb g 12, k0_off43_eq g 12, rfl⟩ (
          List.Forall₂.cons ⟨_, k0_off42_inb g 12, k0_off42_eq g 12, rfl⟩ (
          List.Forall₂.cons ⟨_, k0_off41_inb g 12, k0_off41_eq g 12, rfl⟩ (
          List.Forall₂.cons ⟨_, k0_off40_inb g 12, k0_off40_eq g 12, rfl⟩ (
          List.Forall₂.cons ⟨_, k0_off43_inb g 11, k0_off43_eq g 11, rfl⟩ (
          List.Forall₂.cons ⟨_, k0_off42_inb g 11, k0_off42_eq g 11, rfl⟩ (
          List.Forall₂.cons ⟨_, k0_off41_inb g 11, k0_off41_eq g 11, rfl⟩ (
          List.Forall₂.cons ⟨_, k0_off40_inb g 11, k0_off40_eq g 11, rfl⟩ (
          List.Forall₂.cons ⟨_, k0_off43_inb g 10, k0_off43_eq g 10, rfl⟩ (
          List.Forall₂.cons ⟨_, k0_off42_inb g 10, k0_off42_eq g 10, rfl⟩ (
          List.Forall₂.cons ⟨_, k0_off41_inb g 10, k0_off41_eq g 10, rfl⟩ (
          List.Forall₂.cons ⟨_, k0_off40_inb g 10, k0_off40_eq g 10, rfl⟩ (
          List.Forall₂.cons ⟨_, k0_off43_inb g 9, k0_off43_eq g 9, rfl⟩ (
          List.Forall₂.cons ⟨_, k0_off42_inb g 9, k0_off42_eq g 9, rfl⟩ (
          List.Forall₂.cons ⟨_, k0_off41_inb g 9, k0_off41_eq g 9, rfl⟩ (
          List.Forall₂.cons ⟨_, k0_off40_inb g 9, k0_off40_eq g 9, rfl⟩ (
          List.Forall₂.cons ⟨_, k0_off43_inb g 8, k0_off43_eq g 8, rfl⟩ (
          List.Forall₂.cons ⟨_, k0_off42_inb g 8, k0_off42_eq g 8, rfl⟩ (
          List.Forall₂.cons ⟨_, k0_off41_inb g 8, k0_off41_eq g 8, rfl⟩ (
          List.Forall₂.cons ⟨_, k0_off40_inb g 8, k0_off40_eq g 8, rfl⟩ (
          List.Forall₂.cons ⟨_, k0_off43_inb g 7, k0_off43_eq g 7, rfl⟩ (
          List.Forall₂.cons ⟨_, k0_off42_inb g 7, k0_off42_eq g 7, rfl⟩ (
          List.Forall₂.cons ⟨_, k0_off41_inb g 7, k0_off41_eq g 7, rfl⟩ (
          List.Forall₂.cons ⟨_, k0_off40_inb g 7, k0_off40_eq g 7, rfl⟩ (
          List.Forall₂.cons ⟨_, k0_off43_inb g 6, k0_off43_eq g 6, rfl⟩ (
          List.Forall₂.cons ⟨_, k0_off42_inb g 6, k0_off42_eq g 6, rfl⟩ (
          List.Forall₂.cons ⟨_, k0_off41_inb g 6, k0_off41_eq g 6, rfl⟩ (
          List.Forall₂.cons ⟨_, k0_off40_inb g 6, k0_off40_eq g 6, rfl⟩ (
          List.Forall₂.cons ⟨_, k0_off43_inb g 5, k0_off43_eq g 5, rfl⟩ (
          List.Forall₂.cons ⟨_, k0_off42_inb g 5, k0_off42_eq g 5, rfl⟩ (
          List.Forall₂.cons ⟨_, k0_off41_inb g 5, k0_off41_eq g 5, rfl⟩ (
          List.Forall₂.cons ⟨_, k0_off40_inb g 5, k0_off40_eq g 5, rfl⟩ (
          List.Forall₂.cons ⟨_, k0_off43_inb g 4, k0_off43_eq g 4, rfl⟩ (
          List.Forall₂.cons ⟨_, k0_off42_inb g 4, k0_off42_eq g 4, rfl⟩ (
          List.Forall₂.cons ⟨_, k0_off41_inb g 4, k0_off41_eq g 4, rfl⟩ (
          List.Forall₂.cons ⟨_, k0_off40_inb g 4, k0_off40_eq g 4, rfl⟩ (
          List.Forall₂.cons ⟨_, k0_off43_inb g 3, k0_off43_eq g 3, rfl⟩ (
          List.Forall₂.cons ⟨_, k0_off42_inb g 3, k0_off42_eq g 3, rfl⟩ (
          List.Forall₂.cons ⟨_, k0_off41_inb g 3, k0_off41_eq g 3, rfl⟩ (
          List.Forall₂.cons ⟨_, k0_off40_inb g 3, k0_off40_eq g 3, rfl⟩ (
          List.Forall₂.cons ⟨_, k0_off43_inb g 2, k0_off43_eq g 2, rfl⟩ (
          List.Forall₂.cons ⟨_, k0_off42_inb g 2, k0_off42_eq g 2, rfl⟩ (
          List.Forall₂.cons ⟨_, k0_off41_inb g 2, k0_off41_eq g 2, rfl⟩ (
          List.Forall₂.cons ⟨_, k0_off40_inb g 2, k0_off40_eq g 2, rfl⟩ (
          List.Forall₂.cons ⟨_, k0_off43_inb g 1, k0_off43_eq g 1, rfl⟩ (
          List.Forall₂.cons ⟨_, k0_off42_inb g 1, k0_off42_eq g 1, rfl⟩ (
          List.Forall₂.cons ⟨_, k0_off41_inb g 1, k0_off41_eq g 1, rfl⟩ (
          List.Forall₂.cons ⟨_, k0_off40_inb g 1, k0_off40_eq g 1, rfl⟩ (
          List.Forall₂.cons ⟨_, k0_off43_inb g 0, k0_off43_eq g 0, rfl⟩ (
          List.Forall₂.cons ⟨_, k0_off42_inb g 0, k0_off42_eq g 0, rfl⟩ (
          List.Forall₂.cons ⟨_, k0_off41_inb g 0, k0_off41_eq g 0, rfl⟩ (
          List.Forall₂.cons ⟨_, k0_off40_inb g 0, k0_off40_eq g 0, rfl⟩ (List.Forall₂.nil)))))))))))))))))))))))))))))))))))))))))))))))))))))))))))))))))
        hf

theorem grp_9_init (Y : Buf (Elt F) ((V d (cV L) (jV L)).loc cc0_scratch1)) (f₀ : Buf (Elt F) ((V d (cV L) (jV L)).loc cc0_scratch7))
    (tv : Fin 4 → Fin 4 → FVec F S16 .f32) (acc : BitVec 32) :
    (iprop(((Memref.whole cc0_scratch1 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_9 (F := F) d L Y f₀ tv 0 acc := by
  unfold invG_9
  iintro ⟨Hk, Hout⟩
  isplitl [Hk]
  · iexact Hk
  · iexists _
    isplitr [Hout]
    swap
    · iexact Hout
    · ipureintro
      exact grpUpTo_zero 3 1 tv Y f₀

/-! ### Loop 10: row 0 of output pair 0; tokens from `cc0_scratch6` at 0, rows into `cc0_scratch2` -/

/-- Before trip g: the token scratch at its contents; in the row scratch, row 0's sites below min (16·g) 200 hold
    their interpolation and the other row is as at the loop's start. -/
def invG_10 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 0 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_10_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (v2386 : IVec S16 32)
    (g : Fin k0_t10_loop.trips) (acc : BitVec 32) :
    invG_10 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t10_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 v2386 g acc) (invG_10 (F := F) d L Y f₀ (tvLoc v4 v6 v8 v10 v35 v36 v37 v38 v39 v40 v41 v42 v45 v48 v51 v54) (g.val + 1)) := by
  unfold invG_10
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 0
        (tvLoc v4 v6 v8 v10 v35 v36 v37 v38 v39 v40 v41 v42 v45 v48 v51 v54) Y f₀ f g.val (lt_of_lt_of_le g.isLt k0_t10_abs.2.1)
        (k0_pay10 (F := F) (View.readAt (Elt F) (Memref.whole cc0_scratch6 : Memref sig .scVector .vmem S1600 .i32).view
          (Rect.unit (s := S1600) (k0_off45 g) S16.size (k0_off45_inb g)).toLoadRect Y))
        0 rfl
        (fun i => tokVec_at (F := F) Y (k0_off45 g) (k0_off45_inb g) _ (k0_off45_eq g) _ (fun j => rfl) i _
          (by show 0 + (min (16 * g.val) 184 + i.val) = min (16 * g.val) 184 + i.val; omega))
        _
        (List.Forall₂.cons ⟨_, k0_off49_inb g 15, k0_off49_eq g 15, rfl⟩ (
          List.Forall₂.cons ⟨_, k0_off48_inb g 15, k0_off48_eq g 15, rfl⟩ (
          List.Forall₂.cons ⟨_, k0_off47_inb g 15, k0_off47_eq g 15, rfl⟩ (
          List.Forall₂.cons ⟨_, k0_off46_inb g 15, k0_off46_eq g 15, rfl⟩ (
          List.Forall₂.cons ⟨_, k0_off49_inb g 14, k0_off49_eq g 14, rfl⟩ (
          List.Forall₂.cons ⟨_, k0_off48_inb g 14, k0_off48_eq g 14, rfl⟩ (
          List.Forall₂.cons ⟨_, k0_off47_inb g 14, k0_off47_eq g 14, rfl⟩ (
          List.Forall₂.cons ⟨_, k0_off46_inb g 14, k0_off46_eq g 14, rfl⟩ (
          List.Forall₂.cons ⟨_, k0_off49_inb g 13, k0_off49_eq g 13, rfl⟩ (
          List.Forall₂.cons ⟨_, k0_off48_inb g 13, k0_off48_eq g 13, rfl⟩ (
          List.Forall₂.cons ⟨_, k0_off47_inb g 13, k0_off47_eq g 13, rfl⟩ (
          List.Forall₂.cons ⟨_, k0_off46_inb g 13, k0_off46_eq g 13, rfl⟩ (
          List.Forall₂.cons ⟨_, k0_off49_inb g 12, k0_off49_eq g 12, rfl⟩ (
          List.Forall₂.cons ⟨_, k0_off48_inb g 12, k0_off48_eq g 12, rfl⟩ (
          List.Forall₂.cons ⟨_, k0_off47_inb g 12, k0_off47_eq g 12, rfl⟩ (
          List.Forall₂.cons ⟨_, k0_off46_inb g 12, k0_off46_eq g 12, rfl⟩ (
          List.Forall₂.cons ⟨_, k0_off49_inb g 11, k0_off49_eq g 11, rfl⟩ (
          List.Forall₂.cons ⟨_, k0_off48_inb g 11, k0_off48_eq g 11, rfl⟩ (
          List.Forall₂.cons ⟨_, k0_off47_inb g 11, k0_off47_eq g 11, rfl⟩ (
          List.Forall₂.cons ⟨_, k0_off46_inb g 11, k0_off46_eq g 11, rfl⟩ (
          List.Forall₂.cons ⟨_, k0_off49_inb g 10, k0_off49_eq g 10, rfl⟩ (
          List.Forall₂.cons ⟨_, k0_off48_inb g 10, k0_off48_eq g 10, rfl⟩ (
          List.Forall₂.cons ⟨_, k0_off47_inb g 10, k0_off47_eq g 10, rfl⟩ (
          List.Forall₂.cons ⟨_, k0_off46_inb g 10, k0_off46_eq g 10, rfl⟩ (
          List.Forall₂.cons ⟨_, k0_off49_inb g 9, k0_off49_eq g 9, rfl⟩ (
          List.Forall₂.cons ⟨_, k0_off48_inb g 9, k0_off48_eq g 9, rfl⟩ (
          List.Forall₂.cons ⟨_, k0_off47_inb g 9, k0_off47_eq g 9, rfl⟩ (
          List.Forall₂.cons ⟨_, k0_off46_inb g 9, k0_off46_eq g 9, rfl⟩ (
          List.Forall₂.cons ⟨_, k0_off49_inb g 8, k0_off49_eq g 8, rfl⟩ (
          List.Forall₂.cons ⟨_, k0_off48_inb g 8, k0_off48_eq g 8, rfl⟩ (
          List.Forall₂.cons ⟨_, k0_off47_inb g 8, k0_off47_eq g 8, rfl⟩ (
          List.Forall₂.cons ⟨_, k0_off46_inb g 8, k0_off46_eq g 8, rfl⟩ (
          List.Forall₂.cons ⟨_, k0_off49_inb g 7, k0_off49_eq g 7, rfl⟩ (
          List.Forall₂.cons ⟨_, k0_off48_inb g 7, k0_off48_eq g 7, rfl⟩ (
          List.Forall₂.cons ⟨_, k0_off47_inb g 7, k0_off47_eq g 7, rfl⟩ (
          List.Forall₂.cons ⟨_, k0_off46_inb g 7, k0_off46_eq g 7, rfl⟩ (
          List.Forall₂.cons ⟨_, k0_off49_inb g 6, k0_off49_eq g 6, rfl⟩ (
          List.Forall₂.cons ⟨_, k0_off48_inb g 6, k0_off48_eq g 6, rfl⟩ (
          List.Forall₂.cons ⟨_, k0_off47_inb g 6, k0_off47_eq g 6, rfl⟩ (
          List.Forall₂.cons ⟨_, k0_off46_inb g 6, k0_off46_eq g 6, rfl⟩ (
          List.Forall₂.cons ⟨_, k0_off49_inb g 5, k0_off49_eq g 5, rfl⟩ (
          List.Forall₂.cons ⟨_, k0_off48_inb g 5, k0_off48_eq g 5, rfl⟩ (
          List.Forall₂.cons ⟨_, k0_off47_inb g 5, k0_off47_eq g 5, rfl⟩ (
          List.Forall₂.cons ⟨_, k0_off46_inb g 5, k0_off46_eq g 5, rfl⟩ (
          List.Forall₂.cons ⟨_, k0_off49_inb g 4, k0_off49_eq g 4, rfl⟩ (
          List.Forall₂.cons ⟨_, k0_off48_inb g 4, k0_off48_eq g 4, rfl⟩ (
          List.Forall₂.cons ⟨_, k0_off47_inb g 4, k0_off47_eq g 4, rfl⟩ (
          List.Forall₂.cons ⟨_, k0_off46_inb g 4, k0_off46_eq g 4, rfl⟩ (
          List.Forall₂.cons ⟨_, k0_off49_inb g 3, k0_off49_eq g 3, rfl⟩ (
          List.Forall₂.cons ⟨_, k0_off48_inb g 3, k0_off48_eq g 3, rfl⟩ (
          List.Forall₂.cons ⟨_, k0_off47_inb g 3, k0_off47_eq g 3, rfl⟩ (
          List.Forall₂.cons ⟨_, k0_off46_inb g 3, k0_off46_eq g 3, rfl⟩ (
          List.Forall₂.cons ⟨_, k0_off49_inb g 2, k0_off49_eq g 2, rfl⟩ (
          List.Forall₂.cons ⟨_, k0_off48_inb g 2, k0_off48_eq g 2, rfl⟩ (
          List.Forall₂.cons ⟨_, k0_off47_inb g 2, k0_off47_eq g 2, rfl⟩ (
          List.Forall₂.cons ⟨_, k0_off46_inb g 2, k0_off46_eq g 2, rfl⟩ (
          List.Forall₂.cons ⟨_, k0_off49_inb g 1, k0_off49_eq g 1, rfl⟩ (
          List.Forall₂.cons ⟨_, k0_off48_inb g 1, k0_off48_eq g 1, rfl⟩ (
          List.Forall₂.cons ⟨_, k0_off47_inb g 1, k0_off47_eq g 1, rfl⟩ (
          List.Forall₂.cons ⟨_, k0_off46_inb g 1, k0_off46_eq g 1, rfl⟩ (
          List.Forall₂.cons ⟨_, k0_off49_inb g 0, k0_off49_eq g 0, rfl⟩ (
          List.Forall₂.cons ⟨_, k0_off48_inb g 0, k0_off48_eq g 0, rfl⟩ (
          List.Forall₂.cons ⟨_, k0_off47_inb g 0, k0_off47_eq g 0, rfl⟩ (
          List.Forall₂.cons ⟨_, k0_off46_inb g 0, k0_off46_eq g 0, rfl⟩ (List.Forall₂.nil)))))))))))))))))))))))))))))))))))))))))))))))))))))))))))))))))
        hf

theorem grp_10_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_10 (F := F) d L Y f₀ tv 0 acc := by
  unfold invG_10
  iintro ⟨Hk, Hout⟩
  isplitl [Hk]
  · iexact Hk
  · iexists _
    isplitr [Hout]
    swap
    · iexact Hout
    · ipureintro
      exact grpUpTo_zero 0 0 tv Y f₀

/-! ### Loop 11: row 1 of output pair 0; tokens from `cc0_scratch6` at 200, rows into `cc0_scratch2` -/

/-- Before trip g: the token scratch at its contents; in the row scratch, row 1's sites below min (16·g) 200 hold
    their interpolation and the other row is as at the loop's start. -/
def invG_11 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 0 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_11_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t11_loop.trips) (acc : BitVec 32) :
    invG_11 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t11_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_11 (F := F) d L Y f₀ (tvLoc v4 v6 v8 v10 v35 v36 v37 v38 v39 v40 v41 v42 v45 v48 v51 v54) (g.val + 1)) := by
  unfold invG_11
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 0 1
        (tvLoc v4 v6 v8 v10 v35 v36 v37 v38 v39 v40 v41 v42 v45 v48 v51 v54) Y f₀ f g.val (lt_of_lt_of_le g.isLt k0_t11_abs.2.1)
        (k0_pay10 (F := F) (View.readAt (Elt F) (Memref.whole cc0_scratch6 : Memref sig .scVector .vmem S1600 .i32).view
          (Rect.unit (s := S1600) (k0_off50 g) S16.size (k0_off50_inb g)).toLoadRect Y))
        200 rfl
        (fun i => tokVec_at (F := F) Y (k0_off50 g) (k0_off50_inb g) _ (k0_off50_eq g) _ (fun j => rfl) i _
          (by show 200 + (min (16 * g.val) 184 + i.val) = min (16 * g.val) 184 + 200 + i.val; omega))
        _
        (List.Forall₂.cons ⟨_, k0_off54_inb g 15, k0_off54_eq g 15, rfl⟩ (
          List.Forall₂.cons ⟨_, k0_off53_inb g 15, k0_off53_eq g 15, rfl⟩ (
          List.Forall₂.cons ⟨_, k0_off52_inb g 15, k0_off52_eq g 15, rfl⟩ (
          List.Forall₂.cons ⟨_, k0_off51_inb g 15, k0_off51_eq g 15, rfl⟩ (
          List.Forall₂.cons ⟨_, k0_off54_inb g 14, k0_off54_eq g 14, rfl⟩ (
          List.Forall₂.cons ⟨_, k0_off53_inb g 14, k0_off53_eq g 14, rfl⟩ (
          List.Forall₂.cons ⟨_, k0_off52_inb g 14, k0_off52_eq g 14, rfl⟩ (
          List.Forall₂.cons ⟨_, k0_off51_inb g 14, k0_off51_eq g 14, rfl⟩ (
          List.Forall₂.cons ⟨_, k0_off54_inb g 13, k0_off54_eq g 13, rfl⟩ (
          List.Forall₂.cons ⟨_, k0_off53_inb g 13, k0_off53_eq g 13, rfl⟩ (
          List.Forall₂.cons ⟨_, k0_off52_inb g 13, k0_off52_eq g 13, rfl⟩ (
          List.Forall₂.cons ⟨_, k0_off51_inb g 13, k0_off51_eq g 13, rfl⟩ (
          List.Forall₂.cons ⟨_, k0_off54_inb g 12, k0_off54_eq g 12, rfl⟩ (
          List.Forall₂.cons ⟨_, k0_off53_inb g 12, k0_off53_eq g 12, rfl⟩ (
          List.Forall₂.cons ⟨_, k0_off52_inb g 12, k0_off52_eq g 12, rfl⟩ (
          List.Forall₂.cons ⟨_, k0_off51_inb g 12, k0_off51_eq g 12, rfl⟩ (
          List.Forall₂.cons ⟨_, k0_off54_inb g 11, k0_off54_eq g 11, rfl⟩ (
          List.Forall₂.cons ⟨_, k0_off53_inb g 11, k0_off53_eq g 11, rfl⟩ (
          List.Forall₂.cons ⟨_, k0_off52_inb g 11, k0_off52_eq g 11, rfl⟩ (
          List.Forall₂.cons ⟨_, k0_off51_inb g 11, k0_off51_eq g 11, rfl⟩ (
          List.Forall₂.cons ⟨_, k0_off54_inb g 10, k0_off54_eq g 10, rfl⟩ (
          List.Forall₂.cons ⟨_, k0_off53_inb g 10, k0_off53_eq g 10, rfl⟩ (
          List.Forall₂.cons ⟨_, k0_off52_inb g 10, k0_off52_eq g 10, rfl⟩ (
          List.Forall₂.cons ⟨_, k0_off51_inb g 10, k0_off51_eq g 10, rfl⟩ (
          List.Forall₂.cons ⟨_, k0_off54_inb g 9, k0_off54_eq g 9, rfl⟩ (
          List.Forall₂.cons ⟨_, k0_off53_inb g 9, k0_off53_eq g 9, rfl⟩ (
          List.Forall₂.cons ⟨_, k0_off52_inb g 9, k0_off52_eq g 9, rfl⟩ (
          List.Forall₂.cons ⟨_, k0_off51_inb g 9, k0_off51_eq g 9, rfl⟩ (
          List.Forall₂.cons ⟨_, k0_off54_inb g 8, k0_off54_eq g 8, rfl⟩ (
          List.Forall₂.cons ⟨_, k0_off53_inb g 8, k0_off53_eq g 8, rfl⟩ (
          List.Forall₂.cons ⟨_, k0_off52_inb g 8, k0_off52_eq g 8, rfl⟩ (
          List.Forall₂.cons ⟨_, k0_off51_inb g 8, k0_off51_eq g 8, rfl⟩ (
          List.Forall₂.cons ⟨_, k0_off54_inb g 7, k0_off54_eq g 7, rfl⟩ (
          List.Forall₂.cons ⟨_, k0_off53_inb g 7, k0_off53_eq g 7, rfl⟩ (
          List.Forall₂.cons ⟨_, k0_off52_inb g 7, k0_off52_eq g 7, rfl⟩ (
          List.Forall₂.cons ⟨_, k0_off51_inb g 7, k0_off51_eq g 7, rfl⟩ (
          List.Forall₂.cons ⟨_, k0_off54_inb g 6, k0_off54_eq g 6, rfl⟩ (
          List.Forall₂.cons ⟨_, k0_off53_inb g 6, k0_off53_eq g 6, rfl⟩ (
          List.Forall₂.cons ⟨_, k0_off52_inb g 6, k0_off52_eq g 6, rfl⟩ (
          List.Forall₂.cons ⟨_, k0_off51_inb g 6, k0_off51_eq g 6, rfl⟩ (
          List.Forall₂.cons ⟨_, k0_off54_inb g 5, k0_off54_eq g 5, rfl⟩ (
          List.Forall₂.cons ⟨_, k0_off53_inb g 5, k0_off53_eq g 5, rfl⟩ (
          List.Forall₂.cons ⟨_, k0_off52_inb g 5, k0_off52_eq g 5, rfl⟩ (
          List.Forall₂.cons ⟨_, k0_off51_inb g 5, k0_off51_eq g 5, rfl⟩ (
          List.Forall₂.cons ⟨_, k0_off54_inb g 4, k0_off54_eq g 4, rfl⟩ (
          List.Forall₂.cons ⟨_, k0_off53_inb g 4, k0_off53_eq g 4, rfl⟩ (
          List.Forall₂.cons ⟨_, k0_off52_inb g 4, k0_off52_eq g 4, rfl⟩ (
          List.Forall₂.cons ⟨_, k0_off51_inb g 4, k0_off51_eq g 4, rfl⟩ (
          List.Forall₂.cons ⟨_, k0_off54_inb g 3, k0_off54_eq g 3, rfl⟩ (
          List.Forall₂.cons ⟨_, k0_off53_inb g 3, k0_off53_eq g 3, rfl⟩ (
          List.Forall₂.cons ⟨_, k0_off52_inb g 3, k0_off52_eq g 3, rfl⟩ (
          List.Forall₂.cons ⟨_, k0_off51_inb g 3, k0_off51_eq g 3, rfl⟩ (
          List.Forall₂.cons ⟨_, k0_off54_inb g 2, k0_off54_eq g 2, rfl⟩ (
          List.Forall₂.cons ⟨_, k0_off53_inb g 2, k0_off53_eq g 2, rfl⟩ (
          List.Forall₂.cons ⟨_, k0_off52_inb g 2, k0_off52_eq g 2, rfl⟩ (
          List.Forall₂.cons ⟨_, k0_off51_inb g 2, k0_off51_eq g 2, rfl⟩ (
          List.Forall₂.cons ⟨_, k0_off54_inb g 1, k0_off54_eq g 1, rfl⟩ (
          List.Forall₂.cons ⟨_, k0_off53_inb g 1, k0_off53_eq g 1, rfl⟩ (
          List.Forall₂.cons ⟨_, k0_off52_inb g 1, k0_off52_eq g 1, rfl⟩ (
          List.Forall₂.cons ⟨_, k0_off51_inb g 1, k0_off51_eq g 1, rfl⟩ (
          List.Forall₂.cons ⟨_, k0_off54_inb g 0, k0_off54_eq g 0, rfl⟩ (
          List.Forall₂.cons ⟨_, k0_off53_inb g 0, k0_off53_eq g 0, rfl⟩ (
          List.Forall₂.cons ⟨_, k0_off52_inb g 0, k0_off52_eq g 0, rfl⟩ (
          List.Forall₂.cons ⟨_, k0_off51_inb g 0, k0_off51_eq g 0, rfl⟩ (List.Forall₂.nil)))))))))))))))))))))))))))))))))))))))))))))))))))))))))))))))))
        hf

theorem grp_11_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_11 (F := F) d L Y f₀ tv 0 acc := by
  unfold invG_11
  iintro ⟨Hk, Hout⟩
  isplitl [Hk]
  · iexact Hk
  · iexists _
    isplitr [Hout]
    swap
    · iexact Hout
    · ipureintro
      exact grpUpTo_zero 0 1 tv Y f₀

/-! ### Loop 12: row 0 of output pair 1; tokens from `cc0_scratch6` at 400, rows into `cc0_scratch7` -/

/-- Before trip g: the token scratch at its contents; in the row scratch, row 0's sites below min (16·g) 200 hold
    their interpolation and the other row is as at the loop's start. -/
def invG_12 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 1 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_12_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t12_loop.trips) (acc : BitVec 32) :
    invG_12 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t12_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_12 (F := F) d L Y f₀ (tvLoc v4 v6 v8 v10 v35 v36 v37 v38 v39 v40 v41 v42 v45 v48 v51 v54) (g.val + 1)) := by
  unfold invG_12
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 0
        (tvLoc v4 v6 v8 v10 v35 v36 v37 v38 v39 v40 v41 v42 v45 v48 v51 v54) Y f₀ f g.val (lt_of_lt_of_le g.isLt k0_t12_abs.2.1)
        (k0_pay10 (F := F) (View.readAt (Elt F) (Memref.whole cc0_scratch6 : Memref sig .scVector .vmem S1600 .i32).view
          (Rect.unit (s := S1600) (k0_off55 g) S16.size (k0_off55_inb g)).toLoadRect Y))
        400 rfl
        (fun i => tokVec_at (F := F) Y (k0_off55 g) (k0_off55_inb g) _ (k0_off55_eq g) _ (fun j => rfl) i _
          (by show 400 + (min (16 * g.val) 184 + i.val) = min (16 * g.val) 184 + 400 + i.val; omega))
        _
        (List.Forall₂.cons ⟨_, k0_off59_inb g 15, k0_off59_eq g 15, rfl⟩ (
          List.Forall₂.cons ⟨_, k0_off58_inb g 15, k0_off58_eq g 15, rfl⟩ (
          List.Forall₂.cons ⟨_, k0_off57_inb g 15, k0_off57_eq g 15, rfl⟩ (
          List.Forall₂.cons ⟨_, k0_off56_inb g 15, k0_off56_eq g 15, rfl⟩ (
          List.Forall₂.cons ⟨_, k0_off59_inb g 14, k0_off59_eq g 14, rfl⟩ (
          List.Forall₂.cons ⟨_, k0_off58_inb g 14, k0_off58_eq g 14, rfl⟩ (
          List.Forall₂.cons ⟨_, k0_off57_inb g 14, k0_off57_eq g 14, rfl⟩ (
          List.Forall₂.cons ⟨_, k0_off56_inb g 14, k0_off56_eq g 14, rfl⟩ (
          List.Forall₂.cons ⟨_, k0_off59_inb g 13, k0_off59_eq g 13, rfl⟩ (
          List.Forall₂.cons ⟨_, k0_off58_inb g 13, k0_off58_eq g 13, rfl⟩ (
          List.Forall₂.cons ⟨_, k0_off57_inb g 13, k0_off57_eq g 13, rfl⟩ (
          List.Forall₂.cons ⟨_, k0_off56_inb g 13, k0_off56_eq g 13, rfl⟩ (
          List.Forall₂.cons ⟨_, k0_off59_inb g 12, k0_off59_eq g 12, rfl⟩ (
          List.Forall₂.cons ⟨_, k0_off58_inb g 12, k0_off58_eq g 12, rfl⟩ (
          List.Forall₂.cons ⟨_, k0_off57_inb g 12, k0_off57_eq g 12, rfl⟩ (
          List.Forall₂.cons ⟨_, k0_off56_inb g 12, k0_off56_eq g 12, rfl⟩ (
          List.Forall₂.cons ⟨_, k0_off59_inb g 11, k0_off59_eq g 11, rfl⟩ (
          List.Forall₂.cons ⟨_, k0_off58_inb g 11, k0_off58_eq g 11, rfl⟩ (
          List.Forall₂.cons ⟨_, k0_off57_inb g 11, k0_off57_eq g 11, rfl⟩ (
          List.Forall₂.cons ⟨_, k0_off56_inb g 11, k0_off56_eq g 11, rfl⟩ (
          List.Forall₂.cons ⟨_, k0_off59_inb g 10, k0_off59_eq g 10, rfl⟩ (
          List.Forall₂.cons ⟨_, k0_off58_inb g 10, k0_off58_eq g 10, rfl⟩ (
          List.Forall₂.cons ⟨_, k0_off57_inb g 10, k0_off57_eq g 10, rfl⟩ (
          List.Forall₂.cons ⟨_, k0_off56_inb g 10, k0_off56_eq g 10, rfl⟩ (
          List.Forall₂.cons ⟨_, k0_off59_inb g 9, k0_off59_eq g 9, rfl⟩ (
          List.Forall₂.cons ⟨_, k0_off58_inb g 9, k0_off58_eq g 9, rfl⟩ (
          List.Forall₂.cons ⟨_, k0_off57_inb g 9, k0_off57_eq g 9, rfl⟩ (
          List.Forall₂.cons ⟨_, k0_off56_inb g 9, k0_off56_eq g 9, rfl⟩ (
          List.Forall₂.cons ⟨_, k0_off59_inb g 8, k0_off59_eq g 8, rfl⟩ (
          List.Forall₂.cons ⟨_, k0_off58_inb g 8, k0_off58_eq g 8, rfl⟩ (
          List.Forall₂.cons ⟨_, k0_off57_inb g 8, k0_off57_eq g 8, rfl⟩ (
          List.Forall₂.cons ⟨_, k0_off56_inb g 8, k0_off56_eq g 8, rfl⟩ (
          List.Forall₂.cons ⟨_, k0_off59_inb g 7, k0_off59_eq g 7, rfl⟩ (
          List.Forall₂.cons ⟨_, k0_off58_inb g 7, k0_off58_eq g 7, rfl⟩ (
          List.Forall₂.cons ⟨_, k0_off57_inb g 7, k0_off57_eq g 7, rfl⟩ (
          List.Forall₂.cons ⟨_, k0_off56_inb g 7, k0_off56_eq g 7, rfl⟩ (
          List.Forall₂.cons ⟨_, k0_off59_inb g 6, k0_off59_eq g 6, rfl⟩ (
          List.Forall₂.cons ⟨_, k0_off58_inb g 6, k0_off58_eq g 6, rfl⟩ (
          List.Forall₂.cons ⟨_, k0_off57_inb g 6, k0_off57_eq g 6, rfl⟩ (
          List.Forall₂.cons ⟨_, k0_off56_inb g 6, k0_off56_eq g 6, rfl⟩ (
          List.Forall₂.cons ⟨_, k0_off59_inb g 5, k0_off59_eq g 5, rfl⟩ (
          List.Forall₂.cons ⟨_, k0_off58_inb g 5, k0_off58_eq g 5, rfl⟩ (
          List.Forall₂.cons ⟨_, k0_off57_inb g 5, k0_off57_eq g 5, rfl⟩ (
          List.Forall₂.cons ⟨_, k0_off56_inb g 5, k0_off56_eq g 5, rfl⟩ (
          List.Forall₂.cons ⟨_, k0_off59_inb g 4, k0_off59_eq g 4, rfl⟩ (
          List.Forall₂.cons ⟨_, k0_off58_inb g 4, k0_off58_eq g 4, rfl⟩ (
          List.Forall₂.cons ⟨_, k0_off57_inb g 4, k0_off57_eq g 4, rfl⟩ (
          List.Forall₂.cons ⟨_, k0_off56_inb g 4, k0_off56_eq g 4, rfl⟩ (
          List.Forall₂.cons ⟨_, k0_off59_inb g 3, k0_off59_eq g 3, rfl⟩ (
          List.Forall₂.cons ⟨_, k0_off58_inb g 3, k0_off58_eq g 3, rfl⟩ (
          List.Forall₂.cons ⟨_, k0_off57_inb g 3, k0_off57_eq g 3, rfl⟩ (
          List.Forall₂.cons ⟨_, k0_off56_inb g 3, k0_off56_eq g 3, rfl⟩ (
          List.Forall₂.cons ⟨_, k0_off59_inb g 2, k0_off59_eq g 2, rfl⟩ (
          List.Forall₂.cons ⟨_, k0_off58_inb g 2, k0_off58_eq g 2, rfl⟩ (
          List.Forall₂.cons ⟨_, k0_off57_inb g 2, k0_off57_eq g 2, rfl⟩ (
          List.Forall₂.cons ⟨_, k0_off56_inb g 2, k0_off56_eq g 2, rfl⟩ (
          List.Forall₂.cons ⟨_, k0_off59_inb g 1, k0_off59_eq g 1, rfl⟩ (
          List.Forall₂.cons ⟨_, k0_off58_inb g 1, k0_off58_eq g 1, rfl⟩ (
          List.Forall₂.cons ⟨_, k0_off57_inb g 1, k0_off57_eq g 1, rfl⟩ (
          List.Forall₂.cons ⟨_, k0_off56_inb g 1, k0_off56_eq g 1, rfl⟩ (
          List.Forall₂.cons ⟨_, k0_off59_inb g 0, k0_off59_eq g 0, rfl⟩ (
          List.Forall₂.cons ⟨_, k0_off58_inb g 0, k0_off58_eq g 0, rfl⟩ (
          List.Forall₂.cons ⟨_, k0_off57_inb g 0, k0_off57_eq g 0, rfl⟩ (
          List.Forall₂.cons ⟨_, k0_off56_inb g 0, k0_off56_eq g 0, rfl⟩ (List.Forall₂.nil)))))))))))))))))))))))))))))))))))))))))))))))))))))))))))))))))
        hf

theorem grp_12_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_12 (F := F) d L Y f₀ tv 0 acc := by
  unfold invG_12
  iintro ⟨Hk, Hout⟩
  isplitl [Hk]
  · iexact Hk
  · iexists _
    isplitr [Hout]
    swap
    · iexact Hout
    · ipureintro
      exact grpUpTo_zero 1 0 tv Y f₀

/-! ### Loop 13: row 1 of output pair 1; tokens from `cc0_scratch6` at 600, rows into `cc0_scratch7` -/

/-- Before trip g: the token scratch at its contents; in the row scratch, row 1's sites below min (16·g) 200 hold
    their interpolation and the other row is as at the loop's start. -/
def invG_13 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 1 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_13_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1063 : BitVec 32) (c0_i32_1064 : BitVec 32)
    (g : Fin k0_t13_loop.trips) (acc : BitVec 32) :
    invG_13 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t13_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1063 c0_i32_1064 g acc) (invG_13 (F := F) d L Y f₀ (tvLoc v4 v6 v8 v10 v35 v36 v37 v38 v39 v40 v41 v42 v45 v48 v51 v54) (g.val + 1)) := by
  unfold invG_13
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 1 1
        (tvLoc v4 v6 v8 v10 v35 v36 v37 v38 v39 v40 v41 v42 v45 v48 v51 v54) Y f₀ f g.val (lt_of_lt_of_le g.isLt k0_t13_abs.2.1)
        (k0_pay10 (F := F) (View.readAt (Elt F) (Memref.whole cc0_scratch6 : Memref sig .scVector .vmem S1600 .i32).view
          (Rect.unit (s := S1600) (k0_off60 g) S16.size (k0_off60_inb g)).toLoadRect Y))
        600 rfl
        (fun i => tokVec_at (F := F) Y (k0_off60 g) (k0_off60_inb g) _ (k0_off60_eq g) _ (fun j => rfl) i _
          (by show 600 + (min (16 * g.val) 184 + i.val) = min (16 * g.val) 184 + 600 + i.val; omega))
        _
        (List.Forall₂.cons ⟨_, k0_off64_inb g 15, k0_off64_eq g 15, rfl⟩ (
          List.Forall₂.cons ⟨_, k0_off63_inb g 15, k0_off63_eq g 15, rfl⟩ (
          List.Forall₂.cons ⟨_, k0_off62_inb g 15, k0_off62_eq g 15, rfl⟩ (
          List.Forall₂.cons ⟨_, k0_off61_inb g 15, k0_off61_eq g 15, rfl⟩ (
          List.Forall₂.cons ⟨_, k0_off64_inb g 14, k0_off64_eq g 14, rfl⟩ (
          List.Forall₂.cons ⟨_, k0_off63_inb g 14, k0_off63_eq g 14, rfl⟩ (
          List.Forall₂.cons ⟨_, k0_off62_inb g 14, k0_off62_eq g 14, rfl⟩ (
          List.Forall₂.cons ⟨_, k0_off61_inb g 14, k0_off61_eq g 14, rfl⟩ (
          List.Forall₂.cons ⟨_, k0_off64_inb g 13, k0_off64_eq g 13, rfl⟩ (
          List.Forall₂.cons ⟨_, k0_off63_inb g 13, k0_off63_eq g 13, rfl⟩ (
          List.Forall₂.cons ⟨_, k0_off62_inb g 13, k0_off62_eq g 13, rfl⟩ (
          List.Forall₂.cons ⟨_, k0_off61_inb g 13, k0_off61_eq g 13, rfl⟩ (
          List.Forall₂.cons ⟨_, k0_off64_inb g 12, k0_off64_eq g 12, rfl⟩ (
          List.Forall₂.cons ⟨_, k0_off63_inb g 12, k0_off63_eq g 12, rfl⟩ (
          List.Forall₂.cons ⟨_, k0_off62_inb g 12, k0_off62_eq g 12, rfl⟩ (
          List.Forall₂.cons ⟨_, k0_off61_inb g 12, k0_off61_eq g 12, rfl⟩ (
          List.Forall₂.cons ⟨_, k0_off64_inb g 11, k0_off64_eq g 11, rfl⟩ (
          List.Forall₂.cons ⟨_, k0_off63_inb g 11, k0_off63_eq g 11, rfl⟩ (
          List.Forall₂.cons ⟨_, k0_off62_inb g 11, k0_off62_eq g 11, rfl⟩ (
          List.Forall₂.cons ⟨_, k0_off61_inb g 11, k0_off61_eq g 11, rfl⟩ (
          List.Forall₂.cons ⟨_, k0_off64_inb g 10, k0_off64_eq g 10, rfl⟩ (
          List.Forall₂.cons ⟨_, k0_off63_inb g 10, k0_off63_eq g 10, rfl⟩ (
          List.Forall₂.cons ⟨_, k0_off62_inb g 10, k0_off62_eq g 10, rfl⟩ (
          List.Forall₂.cons ⟨_, k0_off61_inb g 10, k0_off61_eq g 10, rfl⟩ (
          List.Forall₂.cons ⟨_, k0_off64_inb g 9, k0_off64_eq g 9, rfl⟩ (
          List.Forall₂.cons ⟨_, k0_off63_inb g 9, k0_off63_eq g 9, rfl⟩ (
          List.Forall₂.cons ⟨_, k0_off62_inb g 9, k0_off62_eq g 9, rfl⟩ (
          List.Forall₂.cons ⟨_, k0_off61_inb g 9, k0_off61_eq g 9, rfl⟩ (
          List.Forall₂.cons ⟨_, k0_off64_inb g 8, k0_off64_eq g 8, rfl⟩ (
          List.Forall₂.cons ⟨_, k0_off63_inb g 8, k0_off63_eq g 8, rfl⟩ (
          List.Forall₂.cons ⟨_, k0_off62_inb g 8, k0_off62_eq g 8, rfl⟩ (
          List.Forall₂.cons ⟨_, k0_off61_inb g 8, k0_off61_eq g 8, rfl⟩ (
          List.Forall₂.cons ⟨_, k0_off64_inb g 7, k0_off64_eq g 7, rfl⟩ (
          List.Forall₂.cons ⟨_, k0_off63_inb g 7, k0_off63_eq g 7, rfl⟩ (
          List.Forall₂.cons ⟨_, k0_off62_inb g 7, k0_off62_eq g 7, rfl⟩ (
          List.Forall₂.cons ⟨_, k0_off61_inb g 7, k0_off61_eq g 7, rfl⟩ (
          List.Forall₂.cons ⟨_, k0_off64_inb g 6, k0_off64_eq g 6, rfl⟩ (
          List.Forall₂.cons ⟨_, k0_off63_inb g 6, k0_off63_eq g 6, rfl⟩ (
          List.Forall₂.cons ⟨_, k0_off62_inb g 6, k0_off62_eq g 6, rfl⟩ (
          List.Forall₂.cons ⟨_, k0_off61_inb g 6, k0_off61_eq g 6, rfl⟩ (
          List.Forall₂.cons ⟨_, k0_off64_inb g 5, k0_off64_eq g 5, rfl⟩ (
          List.Forall₂.cons ⟨_, k0_off63_inb g 5, k0_off63_eq g 5, rfl⟩ (
          List.Forall₂.cons ⟨_, k0_off62_inb g 5, k0_off62_eq g 5, rfl⟩ (
          List.Forall₂.cons ⟨_, k0_off61_inb g 5, k0_off61_eq g 5, rfl⟩ (
          List.Forall₂.cons ⟨_, k0_off64_inb g 4, k0_off64_eq g 4, rfl⟩ (
          List.Forall₂.cons ⟨_, k0_off63_inb g 4, k0_off63_eq g 4, rfl⟩ (
          List.Forall₂.cons ⟨_, k0_off62_inb g 4, k0_off62_eq g 4, rfl⟩ (
          List.Forall₂.cons ⟨_, k0_off61_inb g 4, k0_off61_eq g 4, rfl⟩ (
          List.Forall₂.cons ⟨_, k0_off64_inb g 3, k0_off64_eq g 3, rfl⟩ (
          List.Forall₂.cons ⟨_, k0_off63_inb g 3, k0_off63_eq g 3, rfl⟩ (
          List.Forall₂.cons ⟨_, k0_off62_inb g 3, k0_off62_eq g 3, rfl⟩ (
          List.Forall₂.cons ⟨_, k0_off61_inb g 3, k0_off61_eq g 3, rfl⟩ (
          List.Forall₂.cons ⟨_, k0_off64_inb g 2, k0_off64_eq g 2, rfl⟩ (
          List.Forall₂.cons ⟨_, k0_off63_inb g 2, k0_off63_eq g 2, rfl⟩ (
          List.Forall₂.cons ⟨_, k0_off62_inb g 2, k0_off62_eq g 2, rfl⟩ (
          List.Forall₂.cons ⟨_, k0_off61_inb g 2, k0_off61_eq g 2, rfl⟩ (
          List.Forall₂.cons ⟨_, k0_off64_inb g 1, k0_off64_eq g 1, rfl⟩ (
          List.Forall₂.cons ⟨_, k0_off63_inb g 1, k0_off63_eq g 1, rfl⟩ (
          List.Forall₂.cons ⟨_, k0_off62_inb g 1, k0_off62_eq g 1, rfl⟩ (
          List.Forall₂.cons ⟨_, k0_off61_inb g 1, k0_off61_eq g 1, rfl⟩ (
          List.Forall₂.cons ⟨_, k0_off64_inb g 0, k0_off64_eq g 0, rfl⟩ (
          List.Forall₂.cons ⟨_, k0_off63_inb g 0, k0_off63_eq g 0, rfl⟩ (
          List.Forall₂.cons ⟨_, k0_off62_inb g 0, k0_off62_eq g 0, rfl⟩ (
          List.Forall₂.cons ⟨_, k0_off61_inb g 0, k0_off61_eq g 0, rfl⟩ (List.Forall₂.nil)))))))))))))))))))))))))))))))))))))))))))))))))))))))))))))))))
        hf

theorem grp_13_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_13 (F := F) d L Y f₀ tv 0 acc := by
  unfold invG_13
  iintro ⟨Hk, Hout⟩
  isplitl [Hk]
  · iexact Hk
  · iexists _
    isplitr [Hout]
    swap
    · iexact Hout
    · ipureintro
      exact grpUpTo_zero 1 1 tv Y f₀

/-! ### Loop 14: row 0 of output pair 2; tokens from `cc0_scratch6` at 800, rows into `cc0_scratch2` -/

/-- Before trip g: the token scratch at its contents; in the row scratch, row 0's sites below min (16·g) 200 hold
    their interpolation and the other row is as at the loop's start. -/
def invG_14 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 2 0 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_14_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t14_loop.trips) (acc : BitVec 32) :
    invG_14 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t14_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_14 (F := F) d L Y f₀ (tvLoc v4 v6 v8 v10 v35 v36 v37 v38 v39 v40 v41 v42 v45 v48 v51 v54) (g.val + 1)) := by
  unfold invG_14
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 0
        (tvLoc v4 v6 v8 v10 v35 v36 v37 v38 v39 v40 v41 v42 v45 v48 v51 v54) Y f₀ f g.val (lt_of_lt_of_le g.isLt k0_t14_abs.2.1)
        (k0_pay10 (F := F) (View.readAt (Elt F) (Memref.whole cc0_scratch6 : Memref sig .scVector .vmem S1600 .i32).view
          (Rect.unit (s := S1600) (k0_off65 g) S16.size (k0_off65_inb g)).toLoadRect Y))
        800 rfl
        (fun i => tokVec_at (F := F) Y (k0_off65 g) (k0_off65_inb g) _ (k0_off65_eq g) _ (fun j => rfl) i _
          (by show 800 + (min (16 * g.val) 184 + i.val) = min (16 * g.val) 184 + 800 + i.val; omega))
        _
        (List.Forall₂.cons ⟨_, k0_off69_inb g 15, k0_off69_eq g 15, rfl⟩ (
          List.Forall₂.cons ⟨_, k0_off68_inb g 15, k0_off68_eq g 15, rfl⟩ (
          List.Forall₂.cons ⟨_, k0_off67_inb g 15, k0_off67_eq g 15, rfl⟩ (
          List.Forall₂.cons ⟨_, k0_off66_inb g 15, k0_off66_eq g 15, rfl⟩ (
          List.Forall₂.cons ⟨_, k0_off69_inb g 14, k0_off69_eq g 14, rfl⟩ (
          List.Forall₂.cons ⟨_, k0_off68_inb g 14, k0_off68_eq g 14, rfl⟩ (
          List.Forall₂.cons ⟨_, k0_off67_inb g 14, k0_off67_eq g 14, rfl⟩ (
          List.Forall₂.cons ⟨_, k0_off66_inb g 14, k0_off66_eq g 14, rfl⟩ (
          List.Forall₂.cons ⟨_, k0_off69_inb g 13, k0_off69_eq g 13, rfl⟩ (
          List.Forall₂.cons ⟨_, k0_off68_inb g 13, k0_off68_eq g 13, rfl⟩ (
          List.Forall₂.cons ⟨_, k0_off67_inb g 13, k0_off67_eq g 13, rfl⟩ (
          List.Forall₂.cons ⟨_, k0_off66_inb g 13, k0_off66_eq g 13, rfl⟩ (
          List.Forall₂.cons ⟨_, k0_off69_inb g 12, k0_off69_eq g 12, rfl⟩ (
          List.Forall₂.cons ⟨_, k0_off68_inb g 12, k0_off68_eq g 12, rfl⟩ (
          List.Forall₂.cons ⟨_, k0_off67_inb g 12, k0_off67_eq g 12, rfl⟩ (
          List.Forall₂.cons ⟨_, k0_off66_inb g 12, k0_off66_eq g 12, rfl⟩ (
          List.Forall₂.cons ⟨_, k0_off69_inb g 11, k0_off69_eq g 11, rfl⟩ (
          List.Forall₂.cons ⟨_, k0_off68_inb g 11, k0_off68_eq g 11, rfl⟩ (
          List.Forall₂.cons ⟨_, k0_off67_inb g 11, k0_off67_eq g 11, rfl⟩ (
          List.Forall₂.cons ⟨_, k0_off66_inb g 11, k0_off66_eq g 11, rfl⟩ (
          List.Forall₂.cons ⟨_, k0_off69_inb g 10, k0_off69_eq g 10, rfl⟩ (
          List.Forall₂.cons ⟨_, k0_off68_inb g 10, k0_off68_eq g 10, rfl⟩ (
          List.Forall₂.cons ⟨_, k0_off67_inb g 10, k0_off67_eq g 10, rfl⟩ (
          List.Forall₂.cons ⟨_, k0_off66_inb g 10, k0_off66_eq g 10, rfl⟩ (
          List.Forall₂.cons ⟨_, k0_off69_inb g 9, k0_off69_eq g 9, rfl⟩ (
          List.Forall₂.cons ⟨_, k0_off68_inb g 9, k0_off68_eq g 9, rfl⟩ (
          List.Forall₂.cons ⟨_, k0_off67_inb g 9, k0_off67_eq g 9, rfl⟩ (
          List.Forall₂.cons ⟨_, k0_off66_inb g 9, k0_off66_eq g 9, rfl⟩ (
          List.Forall₂.cons ⟨_, k0_off69_inb g 8, k0_off69_eq g 8, rfl⟩ (
          List.Forall₂.cons ⟨_, k0_off68_inb g 8, k0_off68_eq g 8, rfl⟩ (
          List.Forall₂.cons ⟨_, k0_off67_inb g 8, k0_off67_eq g 8, rfl⟩ (
          List.Forall₂.cons ⟨_, k0_off66_inb g 8, k0_off66_eq g 8, rfl⟩ (
          List.Forall₂.cons ⟨_, k0_off69_inb g 7, k0_off69_eq g 7, rfl⟩ (
          List.Forall₂.cons ⟨_, k0_off68_inb g 7, k0_off68_eq g 7, rfl⟩ (
          List.Forall₂.cons ⟨_, k0_off67_inb g 7, k0_off67_eq g 7, rfl⟩ (
          List.Forall₂.cons ⟨_, k0_off66_inb g 7, k0_off66_eq g 7, rfl⟩ (
          List.Forall₂.cons ⟨_, k0_off69_inb g 6, k0_off69_eq g 6, rfl⟩ (
          List.Forall₂.cons ⟨_, k0_off68_inb g 6, k0_off68_eq g 6, rfl⟩ (
          List.Forall₂.cons ⟨_, k0_off67_inb g 6, k0_off67_eq g 6, rfl⟩ (
          List.Forall₂.cons ⟨_, k0_off66_inb g 6, k0_off66_eq g 6, rfl⟩ (
          List.Forall₂.cons ⟨_, k0_off69_inb g 5, k0_off69_eq g 5, rfl⟩ (
          List.Forall₂.cons ⟨_, k0_off68_inb g 5, k0_off68_eq g 5, rfl⟩ (
          List.Forall₂.cons ⟨_, k0_off67_inb g 5, k0_off67_eq g 5, rfl⟩ (
          List.Forall₂.cons ⟨_, k0_off66_inb g 5, k0_off66_eq g 5, rfl⟩ (
          List.Forall₂.cons ⟨_, k0_off69_inb g 4, k0_off69_eq g 4, rfl⟩ (
          List.Forall₂.cons ⟨_, k0_off68_inb g 4, k0_off68_eq g 4, rfl⟩ (
          List.Forall₂.cons ⟨_, k0_off67_inb g 4, k0_off67_eq g 4, rfl⟩ (
          List.Forall₂.cons ⟨_, k0_off66_inb g 4, k0_off66_eq g 4, rfl⟩ (
          List.Forall₂.cons ⟨_, k0_off69_inb g 3, k0_off69_eq g 3, rfl⟩ (
          List.Forall₂.cons ⟨_, k0_off68_inb g 3, k0_off68_eq g 3, rfl⟩ (
          List.Forall₂.cons ⟨_, k0_off67_inb g 3, k0_off67_eq g 3, rfl⟩ (
          List.Forall₂.cons ⟨_, k0_off66_inb g 3, k0_off66_eq g 3, rfl⟩ (
          List.Forall₂.cons ⟨_, k0_off69_inb g 2, k0_off69_eq g 2, rfl⟩ (
          List.Forall₂.cons ⟨_, k0_off68_inb g 2, k0_off68_eq g 2, rfl⟩ (
          List.Forall₂.cons ⟨_, k0_off67_inb g 2, k0_off67_eq g 2, rfl⟩ (
          List.Forall₂.cons ⟨_, k0_off66_inb g 2, k0_off66_eq g 2, rfl⟩ (
          List.Forall₂.cons ⟨_, k0_off69_inb g 1, k0_off69_eq g 1, rfl⟩ (
          List.Forall₂.cons ⟨_, k0_off68_inb g 1, k0_off68_eq g 1, rfl⟩ (
          List.Forall₂.cons ⟨_, k0_off67_inb g 1, k0_off67_eq g 1, rfl⟩ (
          List.Forall₂.cons ⟨_, k0_off66_inb g 1, k0_off66_eq g 1, rfl⟩ (
          List.Forall₂.cons ⟨_, k0_off69_inb g 0, k0_off69_eq g 0, rfl⟩ (
          List.Forall₂.cons ⟨_, k0_off68_inb g 0, k0_off68_eq g 0, rfl⟩ (
          List.Forall₂.cons ⟨_, k0_off67_inb g 0, k0_off67_eq g 0, rfl⟩ (
          List.Forall₂.cons ⟨_, k0_off66_inb g 0, k0_off66_eq g 0, rfl⟩ (List.Forall₂.nil)))))))))))))))))))))))))))))))))))))))))))))))))))))))))))))))))
        hf

theorem grp_14_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_14 (F := F) d L Y f₀ tv 0 acc := by
  unfold invG_14
  iintro ⟨Hk, Hout⟩
  isplitl [Hk]
  · iexact Hk
  · iexists _
    isplitr [Hout]
    swap
    · iexact Hout
    · ipureintro
      exact grpUpTo_zero 2 0 tv Y f₀

/-! ### Loop 15: row 1 of output pair 2; tokens from `cc0_scratch6` at 1000, rows into `cc0_scratch2` -/

/-- Before trip g: the token scratch at its contents; in the row scratch, row 1's sites below min (16·g) 200 hold
    their interpolation and the other row is as at the loop's start. -/
def invG_15 (Y : Buf (Elt F) ((V d (cV L) (jV L)).loc cc0_scratch6)) (f₀ : Buf (Elt F) ((V d (cV L) (jV L)).loc cc0_scratch2))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 2 1 tv Y f₀ f g⌝
      ∗ ((Memref.whole cc0_scratch2 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_15_region (Y : Buf (Elt F) ((V d (cV L) (jV L)).loc cc0_scratch6)) (f₀ : Buf (Elt F) ((V d (cV L) (jV L)).loc cc0_scratch2)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t15_loop.trips) (acc : BitVec 32) :
    invG_15 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t15_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_15 (F := F) d L Y f₀ (tvLoc v4 v6 v8 v10 v35 v36 v37 v38 v39 v40 v41 v42 v45 v48 v51 v54) (g.val + 1)) := by
  unfold invG_15
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch2 : Memref sig .scVector .vmem S2x200x64 .f32).view 2 1
        (tvLoc v4 v6 v8 v10 v35 v36 v37 v38 v39 v40 v41 v42 v45 v48 v51 v54) Y f₀ f g.val (lt_of_lt_of_le g.isLt k0_t15_abs.2.1)
        (k0_pay10 (F := F) (View.readAt (Elt F) (Memref.whole cc0_scratch6 : Memref sig .scVector .vmem S1600 .i32).view
          (Rect.unit (s := S1600) (k0_off70 g) S16.size (k0_off70_inb g)).toLoadRect Y))
        1000 rfl
        (fun i => tokVec_at (F := F) Y (k0_off70 g) (k0_off70_inb g) _ (k0_off70_eq g) _ (fun j => rfl) i _
          (by show 1000 + (min (16 * g.val) 184 + i.val) = min (16 * g.val) 184 + 1000 + i.val; omega))
        _
        (List.Forall₂.cons ⟨_, k0_off74_inb g 15, k0_off74_eq g 15, rfl⟩ (
          List.Forall₂.cons ⟨_, k0_off73_inb g 15, k0_off73_eq g 15, rfl⟩ (
          List.Forall₂.cons ⟨_, k0_off72_inb g 15, k0_off72_eq g 15, rfl⟩ (
          List.Forall₂.cons ⟨_, k0_off71_inb g 15, k0_off71_eq g 15, rfl⟩ (
          List.Forall₂.cons ⟨_, k0_off74_inb g 14, k0_off74_eq g 14, rfl⟩ (
          List.Forall₂.cons ⟨_, k0_off73_inb g 14, k0_off73_eq g 14, rfl⟩ (
          List.Forall₂.cons ⟨_, k0_off72_inb g 14, k0_off72_eq g 14, rfl⟩ (
          List.Forall₂.cons ⟨_, k0_off71_inb g 14, k0_off71_eq g 14, rfl⟩ (
          List.Forall₂.cons ⟨_, k0_off74_inb g 13, k0_off74_eq g 13, rfl⟩ (
          List.Forall₂.cons ⟨_, k0_off73_inb g 13, k0_off73_eq g 13, rfl⟩ (
          List.Forall₂.cons ⟨_, k0_off72_inb g 13, k0_off72_eq g 13, rfl⟩ (
          List.Forall₂.cons ⟨_, k0_off71_inb g 13, k0_off71_eq g 13, rfl⟩ (
          List.Forall₂.cons ⟨_, k0_off74_inb g 12, k0_off74_eq g 12, rfl⟩ (
          List.Forall₂.cons ⟨_, k0_off73_inb g 12, k0_off73_eq g 12, rfl⟩ (
          List.Forall₂.cons ⟨_, k0_off72_inb g 12, k0_off72_eq g 12, rfl⟩ (
          List.Forall₂.cons ⟨_, k0_off71_inb g 12, k0_off71_eq g 12, rfl⟩ (
          List.Forall₂.cons ⟨_, k0_off74_inb g 11, k0_off74_eq g 11, rfl⟩ (
          List.Forall₂.cons ⟨_, k0_off73_inb g 11, k0_off73_eq g 11, rfl⟩ (
          List.Forall₂.cons ⟨_, k0_off72_inb g 11, k0_off72_eq g 11, rfl⟩ (
          List.Forall₂.cons ⟨_, k0_off71_inb g 11, k0_off71_eq g 11, rfl⟩ (
          List.Forall₂.cons ⟨_, k0_off74_inb g 10, k0_off74_eq g 10, rfl⟩ (
          List.Forall₂.cons ⟨_, k0_off73_inb g 10, k0_off73_eq g 10, rfl⟩ (
          List.Forall₂.cons ⟨_, k0_off72_inb g 10, k0_off72_eq g 10, rfl⟩ (
          List.Forall₂.cons ⟨_, k0_off71_inb g 10, k0_off71_eq g 10, rfl⟩ (
          List.Forall₂.cons ⟨_, k0_off74_inb g 9, k0_off74_eq g 9, rfl⟩ (
          List.Forall₂.cons ⟨_, k0_off73_inb g 9, k0_off73_eq g 9, rfl⟩ (
          List.Forall₂.cons ⟨_, k0_off72_inb g 9, k0_off72_eq g 9, rfl⟩ (
          List.Forall₂.cons ⟨_, k0_off71_inb g 9, k0_off71_eq g 9, rfl⟩ (
          List.Forall₂.cons ⟨_, k0_off74_inb g 8, k0_off74_eq g 8, rfl⟩ (
          List.Forall₂.cons ⟨_, k0_off73_inb g 8, k0_off73_eq g 8, rfl⟩ (
          List.Forall₂.cons ⟨_, k0_off72_inb g 8, k0_off72_eq g 8, rfl⟩ (
          List.Forall₂.cons ⟨_, k0_off71_inb g 8, k0_off71_eq g 8, rfl⟩ (
          List.Forall₂.cons ⟨_, k0_off74_inb g 7, k0_off74_eq g 7, rfl⟩ (
          List.Forall₂.cons ⟨_, k0_off73_inb g 7, k0_off73_eq g 7, rfl⟩ (
          List.Forall₂.cons ⟨_, k0_off72_inb g 7, k0_off72_eq g 7, rfl⟩ (
          List.Forall₂.cons ⟨_, k0_off71_inb g 7, k0_off71_eq g 7, rfl⟩ (
          List.Forall₂.cons ⟨_, k0_off74_inb g 6, k0_off74_eq g 6, rfl⟩ (
          List.Forall₂.cons ⟨_, k0_off73_inb g 6, k0_off73_eq g 6, rfl⟩ (
          List.Forall₂.cons ⟨_, k0_off72_inb g 6, k0_off72_eq g 6, rfl⟩ (
          List.Forall₂.cons ⟨_, k0_off71_inb g 6, k0_off71_eq g 6, rfl⟩ (
          List.Forall₂.cons ⟨_, k0_off74_inb g 5, k0_off74_eq g 5, rfl⟩ (
          List.Forall₂.cons ⟨_, k0_off73_inb g 5, k0_off73_eq g 5, rfl⟩ (
          List.Forall₂.cons ⟨_, k0_off72_inb g 5, k0_off72_eq g 5, rfl⟩ (
          List.Forall₂.cons ⟨_, k0_off71_inb g 5, k0_off71_eq g 5, rfl⟩ (
          List.Forall₂.cons ⟨_, k0_off74_inb g 4, k0_off74_eq g 4, rfl⟩ (
          List.Forall₂.cons ⟨_, k0_off73_inb g 4, k0_off73_eq g 4, rfl⟩ (
          List.Forall₂.cons ⟨_, k0_off72_inb g 4, k0_off72_eq g 4, rfl⟩ (
          List.Forall₂.cons ⟨_, k0_off71_inb g 4, k0_off71_eq g 4, rfl⟩ (
          List.Forall₂.cons ⟨_, k0_off74_inb g 3, k0_off74_eq g 3, rfl⟩ (
          List.Forall₂.cons ⟨_, k0_off73_inb g 3, k0_off73_eq g 3, rfl⟩ (
          List.Forall₂.cons ⟨_, k0_off72_inb g 3, k0_off72_eq g 3, rfl⟩ (
          List.Forall₂.cons ⟨_, k0_off71_inb g 3, k0_off71_eq g 3, rfl⟩ (
          List.Forall₂.cons ⟨_, k0_off74_inb g 2, k0_off74_eq g 2, rfl⟩ (
          List.Forall₂.cons ⟨_, k0_off73_inb g 2, k0_off73_eq g 2, rfl⟩ (
          List.Forall₂.cons ⟨_, k0_off72_inb g 2, k0_off72_eq g 2, rfl⟩ (
          List.Forall₂.cons ⟨_, k0_off71_inb g 2, k0_off71_eq g 2, rfl⟩ (
          List.Forall₂.cons ⟨_, k0_off74_inb g 1, k0_off74_eq g 1, rfl⟩ (
          List.Forall₂.cons ⟨_, k0_off73_inb g 1, k0_off73_eq g 1, rfl⟩ (
          List.Forall₂.cons ⟨_, k0_off72_inb g 1, k0_off72_eq g 1, rfl⟩ (
          List.Forall₂.cons ⟨_, k0_off71_inb g 1, k0_off71_eq g 1, rfl⟩ (
          List.Forall₂.cons ⟨_, k0_off74_inb g 0, k0_off74_eq g 0, rfl⟩ (
          List.Forall₂.cons ⟨_, k0_off73_inb g 0, k0_off73_eq g 0, rfl⟩ (
          List.Forall₂.cons ⟨_, k0_off72_inb g 0, k0_off72_eq g 0, rfl⟩ (
          List.Forall₂.cons ⟨_, k0_off71_inb g 0, k0_off71_eq g 0, rfl⟩ (List.Forall₂.nil)))))))))))))))))))))))))))))))))))))))))))))))))))))))))))))))))
        hf

theorem grp_15_init (Y : Buf (Elt F) ((V d (cV L) (jV L)).loc cc0_scratch6)) (f₀ : Buf (Elt F) ((V d (cV L) (jV L)).loc cc0_scratch2))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch2 : Memref sig .scVector .vmem S2x200x64 .f32).view.loc (V d (cV L) (jV L)) ↦{fullShare} f₀)) : sProp 𝕄)
      ⊢ invG_15 (F := F) d L Y f₀ tv 0 acc := by
  unfold invG_15
  iintro ⟨Hk, Hout⟩
  isplitl [Hk]
  · iexact Hk
  · iexists _
    isplitr [Hout]
    swap
    · iexact Hout
    · ipureintro
      exact grpUpTo_zero 2 1 tv Y f₀

/-! ### Loop 16: row 0 of output pair 3; tokens from `cc0_scratch6` at 1200, rows into `cc0_scratch7` -/

/-- Before trip g: the token scratch at its contents; in the row scratch, row 0's sites below min (16·g) 200 hold
    their interpolation and the other row is as at the loop's start. -/
def invG_16 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 3 0 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_16_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t16_loop.trips) (acc : BitVec 32) :
    invG_16 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t16_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_16 (F := F) d L Y f₀ (tvLoc v4 v6 v8 v10 v35 v36 v37 v38 v39 v40 v41 v42 v45 v48 v51 v54) (g.val + 1)) := by
  unfold invG_16
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 0
        (tvLoc v4 v6 v8 v10 v35 v36 v37 v38 v39 v40 v41 v42 v45 v48 v51 v54) Y f₀ f g.val (lt_of_lt_of_le g.isLt k0_t16_abs.2.1)
        (k0_pay10 (F := F) (View.readAt (Elt F) (Memref.whole cc0_scratch6 : Memref sig .scVector .vmem S1600 .i32).view
          (Rect.unit (s := S1600) (k0_off75 g) S16.size (k0_off75_inb g)).toLoadRect Y))
        1200 rfl
        (fun i => tokVec_at (F := F) Y (k0_off75 g) (k0_off75_inb g) _ (k0_off75_eq g) _ (fun j => rfl) i _
          (by show 1200 + (min (16 * g.val) 184 + i.val) = min (16 * g.val) 184 + 1200 + i.val; omega))
        _
        (List.Forall₂.cons ⟨_, k0_off79_inb g 15, k0_off79_eq g 15, rfl⟩ (
          List.Forall₂.cons ⟨_, k0_off78_inb g 15, k0_off78_eq g 15, rfl⟩ (
          List.Forall₂.cons ⟨_, k0_off77_inb g 15, k0_off77_eq g 15, rfl⟩ (
          List.Forall₂.cons ⟨_, k0_off76_inb g 15, k0_off76_eq g 15, rfl⟩ (
          List.Forall₂.cons ⟨_, k0_off79_inb g 14, k0_off79_eq g 14, rfl⟩ (
          List.Forall₂.cons ⟨_, k0_off78_inb g 14, k0_off78_eq g 14, rfl⟩ (
          List.Forall₂.cons ⟨_, k0_off77_inb g 14, k0_off77_eq g 14, rfl⟩ (
          List.Forall₂.cons ⟨_, k0_off76_inb g 14, k0_off76_eq g 14, rfl⟩ (
          List.Forall₂.cons ⟨_, k0_off79_inb g 13, k0_off79_eq g 13, rfl⟩ (
          List.Forall₂.cons ⟨_, k0_off78_inb g 13, k0_off78_eq g 13, rfl⟩ (
          List.Forall₂.cons ⟨_, k0_off77_inb g 13, k0_off77_eq g 13, rfl⟩ (
          List.Forall₂.cons ⟨_, k0_off76_inb g 13, k0_off76_eq g 13, rfl⟩ (
          List.Forall₂.cons ⟨_, k0_off79_inb g 12, k0_off79_eq g 12, rfl⟩ (
          List.Forall₂.cons ⟨_, k0_off78_inb g 12, k0_off78_eq g 12, rfl⟩ (
          List.Forall₂.cons ⟨_, k0_off77_inb g 12, k0_off77_eq g 12, rfl⟩ (
          List.Forall₂.cons ⟨_, k0_off76_inb g 12, k0_off76_eq g 12, rfl⟩ (
          List.Forall₂.cons ⟨_, k0_off79_inb g 11, k0_off79_eq g 11, rfl⟩ (
          List.Forall₂.cons ⟨_, k0_off78_inb g 11, k0_off78_eq g 11, rfl⟩ (
          List.Forall₂.cons ⟨_, k0_off77_inb g 11, k0_off77_eq g 11, rfl⟩ (
          List.Forall₂.cons ⟨_, k0_off76_inb g 11, k0_off76_eq g 11, rfl⟩ (
          List.Forall₂.cons ⟨_, k0_off79_inb g 10, k0_off79_eq g 10, rfl⟩ (
          List.Forall₂.cons ⟨_, k0_off78_inb g 10, k0_off78_eq g 10, rfl⟩ (
          List.Forall₂.cons ⟨_, k0_off77_inb g 10, k0_off77_eq g 10, rfl⟩ (
          List.Forall₂.cons ⟨_, k0_off76_inb g 10, k0_off76_eq g 10, rfl⟩ (
          List.Forall₂.cons ⟨_, k0_off79_inb g 9, k0_off79_eq g 9, rfl⟩ (
          List.Forall₂.cons ⟨_, k0_off78_inb g 9, k0_off78_eq g 9, rfl⟩ (
          List.Forall₂.cons ⟨_, k0_off77_inb g 9, k0_off77_eq g 9, rfl⟩ (
          List.Forall₂.cons ⟨_, k0_off76_inb g 9, k0_off76_eq g 9, rfl⟩ (
          List.Forall₂.cons ⟨_, k0_off79_inb g 8, k0_off79_eq g 8, rfl⟩ (
          List.Forall₂.cons ⟨_, k0_off78_inb g 8, k0_off78_eq g 8, rfl⟩ (
          List.Forall₂.cons ⟨_, k0_off77_inb g 8, k0_off77_eq g 8, rfl⟩ (
          List.Forall₂.cons ⟨_, k0_off76_inb g 8, k0_off76_eq g 8, rfl⟩ (
          List.Forall₂.cons ⟨_, k0_off79_inb g 7, k0_off79_eq g 7, rfl⟩ (
          List.Forall₂.cons ⟨_, k0_off78_inb g 7, k0_off78_eq g 7, rfl⟩ (
          List.Forall₂.cons ⟨_, k0_off77_inb g 7, k0_off77_eq g 7, rfl⟩ (
          List.Forall₂.cons ⟨_, k0_off76_inb g 7, k0_off76_eq g 7, rfl⟩ (
          List.Forall₂.cons ⟨_, k0_off79_inb g 6, k0_off79_eq g 6, rfl⟩ (
          List.Forall₂.cons ⟨_, k0_off78_inb g 6, k0_off78_eq g 6, rfl⟩ (
          List.Forall₂.cons ⟨_, k0_off77_inb g 6, k0_off77_eq g 6, rfl⟩ (
          List.Forall₂.cons ⟨_, k0_off76_inb g 6, k0_off76_eq g 6, rfl⟩ (
          List.Forall₂.cons ⟨_, k0_off79_inb g 5, k0_off79_eq g 5, rfl⟩ (
          List.Forall₂.cons ⟨_, k0_off78_inb g 5, k0_off78_eq g 5, rfl⟩ (
          List.Forall₂.cons ⟨_, k0_off77_inb g 5, k0_off77_eq g 5, rfl⟩ (
          List.Forall₂.cons ⟨_, k0_off76_inb g 5, k0_off76_eq g 5, rfl⟩ (
          List.Forall₂.cons ⟨_, k0_off79_inb g 4, k0_off79_eq g 4, rfl⟩ (
          List.Forall₂.cons ⟨_, k0_off78_inb g 4, k0_off78_eq g 4, rfl⟩ (
          List.Forall₂.cons ⟨_, k0_off77_inb g 4, k0_off77_eq g 4, rfl⟩ (
          List.Forall₂.cons ⟨_, k0_off76_inb g 4, k0_off76_eq g 4, rfl⟩ (
          List.Forall₂.cons ⟨_, k0_off79_inb g 3, k0_off79_eq g 3, rfl⟩ (
          List.Forall₂.cons ⟨_, k0_off78_inb g 3, k0_off78_eq g 3, rfl⟩ (
          List.Forall₂.cons ⟨_, k0_off77_inb g 3, k0_off77_eq g 3, rfl⟩ (
          List.Forall₂.cons ⟨_, k0_off76_inb g 3, k0_off76_eq g 3, rfl⟩ (
          List.Forall₂.cons ⟨_, k0_off79_inb g 2, k0_off79_eq g 2, rfl⟩ (
          List.Forall₂.cons ⟨_, k0_off78_inb g 2, k0_off78_eq g 2, rfl⟩ (
          List.Forall₂.cons ⟨_, k0_off77_inb g 2, k0_off77_eq g 2, rfl⟩ (
          List.Forall₂.cons ⟨_, k0_off76_inb g 2, k0_off76_eq g 2, rfl⟩ (
          List.Forall₂.cons ⟨_, k0_off79_inb g 1, k0_off79_eq g 1, rfl⟩ (
          List.Forall₂.cons ⟨_, k0_off78_inb g 1, k0_off78_eq g 1, rfl⟩ (
          List.Forall₂.cons ⟨_, k0_off77_inb g 1, k0_off77_eq g 1, rfl⟩ (
          List.Forall₂.cons ⟨_, k0_off76_inb g 1, k0_off76_eq g 1, rfl⟩ (
          List.Forall₂.cons ⟨_, k0_off79_inb g 0, k0_off79_eq g 0, rfl⟩ (
          List.Forall₂.cons ⟨_, k0_off78_inb g 0, k0_off78_eq g 0, rfl⟩ (
          List.Forall₂.cons ⟨_, k0_off77_inb g 0, k0_off77_eq g 0, rfl⟩ (
          List.Forall₂.cons ⟨_, k0_off76_inb g 0, k0_off76_eq g 0, rfl⟩ (List.Forall₂.nil)))))))))))))))))))))))))))))))))))))))))))))))))))))))))))))))))
        hf

theorem grp_16_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_16 (F := F) d L Y f₀ tv 0 acc := by
  unfold invG_16
  iintro ⟨Hk, Hout⟩
  isplitl [Hk]
  · iexact Hk
  · iexists _
    isplitr [Hout]
    swap
    · iexact Hout
    · ipureintro
      exact grpUpTo_zero 3 0 tv Y f₀

/-! ### Loop 17: row 1 of output pair 3; tokens from `cc0_scratch6` at 1400, rows into `cc0_scratch7` -/

/-- Before trip g: the token scratch at its contents; in the row scratch, row 1's sites below min (16·g) 200 hold
    their interpolation and the other row is as at the loop's start. -/
def invG_17 (Y : Buf (Elt F) ((V d (cV L) (jV L)).loc cc0_scratch6)) (f₀ : Buf (Elt F) ((V d (cV L) (jV L)).loc cc0_scratch7))
    (tv : Fin 4 → Fin 4 → FVec F S16 .f32) (g : ℕ) (_ : BitVec 32) : sProp 𝕄 :=
  iprop(((Memref.whole cc0_scratch6 : Memref sig .scVector .vmem S1600 .i32).view.loc (V d (cV L) (jV L)) ↦{fullShare} Y)
    ∗ ∃ f, ⌜GrpUpTo (F := F) 3 1 tv Y f₀ f g⌝
      ∗ ((Memref.whole cc0_scratch7 : Memref sig .scVector .vmem S2x200x64 .f32).view.loc (V d (cV L) (jV L)) ↦{fullShare} f))

set_option maxHeartbeats 8000000 in
set_option maxRecDepth 65536 in
/-- One trip: the sixty-four stores are the blocks of sites o … o + 15, so the invariant moves on by one trip. -/
theorem grp_17_region (Y : Buf (Elt F) ((V d (cV L) (jV L)).loc cc0_scratch6)) (f₀ : Buf (Elt F) ((V d (cV L) (jV L)).loc cc0_scratch7)) (v2 : BitVec 32) (v4 : FVec F S16 .f32) (v6 : FVec F S16 .f32) (v8 : FVec F S16 .f32) (v10 : FVec F S16 .f32) (v35 : FVec F S16 .f32) (v36 : FVec F S16 .f32) (v37 : FVec F S16 .f32) (v38 : FVec F S16 .f32) (v39 : FVec F S16 .f32) (v40 : FVec F S16 .f32) (v41 : FVec F S16 .f32) (v42 : FVec F S16 .f32) (v45 : FVec F S16 .f32) (v48 : FVec F S16 .f32) (v51 : FVec F S16 .f32) (v54 : FVec F S16 .f32) (k0_t1 : Fin k0_t1_loop.trips) (v1265 : BitVec 32) (c0_i32_1098 : BitVec 32) (c0_i32_1099 : BitVec 32)
    (g : Fin k0_t17_loop.trips) (acc : BitVec 32) :
    invG_17 (F := F) d L Y f₀ (tvLoc v4 v6 v8 v10 v35 v36 v37 v38 v39 v40 v41 v42 v45 v48 v51 v54) g.val acc ⊢ wp frame (wpE (defs₀ (F := F)) 𝒱₀ (V d (cV L) (jV L)) none) Set.univ
      (k0_t17_body L (Memref.whole main_arg0_scv) (Memref.isWhole_whole _) (Memref.whole main_v0_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) cc0_scratch8 cc0_scratch9 (Memref.whole cc0_scratch10) (Memref.isWhole_whole _) cc0_scoped0 v2 v4 v6 v8 v10 v35 v36 v37 v38 v39 v40 v41 v42 v45 v48 v51 v54 k0_t1 v1265 c0_i32_1098 c0_i32_1099 g acc) (invG_17 (F := F) d L Y f₀ (tvLoc v4 v6 v8 v10 v35 v36 v37 v38 v39 v40 v41 v42 v45 v48 v51 v54) (g.val + 1)) := by
  unfold invG_17
  iintro ⟨Hk, %f, %hf, Hout⟩
  sl_exec_parts
  sl_step
  isplitl [Hk]
  · iexact Hk
  · iexists _
    isplitr [Hout]
    swap
    · iexact Hout
    · ipureintro
      exact grpUpTo_step (F := F) (Memref.whole cc0_scratch7 : Memref sig .scVector .vmem S2x200x64 .f32).view 3 1
        (tvLoc v4 v6 v8 v10 v35 v36 v37 v38 v39 v40 v41 v42 v45 v48 v51 v54) Y f₀ f g.val (lt_of_lt_of_le g.isLt k0_t17_abs.2.1)
        (k0_pay10 (F := F) (View.readAt (Elt F) (Memref.whole cc0_scratch6 : Memref sig .scVector .vmem S1600 .i32).view
          (Rect.unit (s := S1600) (k0_off80 g) S16.size (k0_off80_inb g)).toLoadRect Y))
        1400 rfl
        (fun i => tokVec_at (F := F) Y (k0_off80 g) (k0_off80_inb g) _ (k0_off80_eq g) _ (fun j => rfl) i _
          (by show 1400 + (min (16 * g.val) 184 + i.val) = min (16 * g.val) 184 + 1400 + i.val; omega))
        _
        (List.Forall₂.cons ⟨_, k0_off84_inb g 15, k0_off84_eq g 15, rfl⟩ (
          List.Forall₂.cons ⟨_, k0_off83_inb g 15, k0_off83_eq g 15, rfl⟩ (
          List.Forall₂.cons ⟨_, k0_off82_inb g 15, k0_off82_eq g 15, rfl⟩ (
          List.Forall₂.cons ⟨_, k0_off81_inb g 15, k0_off81_eq g 15, rfl⟩ (
          List.Forall₂.cons ⟨_, k0_off84_inb g 14, k0_off84_eq g 14, rfl⟩ (
          List.Forall₂.cons ⟨_, k0_off83_inb g 14, k0_off83_eq g 14, rfl⟩ (
          List.Forall₂.cons ⟨_, k0_off82_inb g 14, k0_off82_eq g 14, rfl⟩ (
          List.Forall₂.cons ⟨_, k0_off81_inb g 14, k0_off81_eq g 14, rfl⟩ (
          List.Forall₂.cons ⟨_, k0_off84_inb g 13, k0_off84_eq g 13, rfl⟩ (
          List.Forall₂.cons ⟨_, k0_off83_inb g 13, k0_off83_eq g 13, rfl⟩ (
          List.Forall₂.cons ⟨_, k0_off82_inb g 13, k0_off82_eq g 13, rfl⟩ (
          List.Forall₂.cons ⟨_, k0_off81_inb g 13, k0_off81_eq g 13, rfl⟩ (
          List.Forall₂.cons ⟨_, k0_off84_inb g 12, k0_off84_eq g 12, rfl⟩ (
          List.Forall₂.cons ⟨_, k0_off83_inb g 12, k0_off83_eq g 12, rfl⟩ (
          List.Forall₂.cons ⟨_, k0_off82_inb g 12, k0_off82_eq g 12, rfl⟩ (
          List.Forall₂.cons ⟨_, k0_off81_inb g 12, k0_off81_eq g 12, rfl⟩ (
          List.Forall₂.cons ⟨_, k0_off84_inb g 11, k0_off84_eq g 11, rfl⟩ (
          List.Forall₂.cons ⟨_, k0_off83_inb g 11, k0_off83_eq g 11, rfl⟩ (
          List.Forall₂.cons ⟨_, k0_off82_inb g 11, k0_off82_eq g 11, rfl⟩ (
          List.Forall₂.cons ⟨_, k0_off81_inb g 11, k0_off81_eq g 11, rfl⟩ (
          List.Forall₂.cons ⟨_, k0_off84_inb g 10, k0_off84_eq g 10, rfl⟩ (
          List.Forall₂.cons ⟨_, k0_off83_inb g 10, k0_off83_eq g 10, rfl⟩ (
          List.Forall₂.cons ⟨_, k0_off82_inb g 10, k0_off82_eq g 10, rfl⟩ (
          List.Forall₂.cons ⟨_, k0_off81_inb g 10, k0_off81_eq g 10, rfl⟩ (
          List.Forall₂.cons ⟨_, k0_off84_inb g 9, k0_off84_eq g 9, rfl⟩ (
          List.Forall₂.cons ⟨_, k0_off83_inb g 9, k0_off83_eq g 9, rfl⟩ (
          List.Forall₂.cons ⟨_, k0_off82_inb g 9, k0_off82_eq g 9, rfl⟩ (
          List.Forall₂.cons ⟨_, k0_off81_inb g 9, k0_off81_eq g 9, rfl⟩ (
          List.Forall₂.cons ⟨_, k0_off84_inb g 8, k0_off84_eq g 8, rfl⟩ (
          List.Forall₂.cons ⟨_, k0_off83_inb g 8, k0_off83_eq g 8, rfl⟩ (
          List.Forall₂.cons ⟨_, k0_off82_inb g 8, k0_off82_eq g 8, rfl⟩ (
          List.Forall₂.cons ⟨_, k0_off81_inb g 8, k0_off81_eq g 8, rfl⟩ (
          List.Forall₂.cons ⟨_, k0_off84_inb g 7, k0_off84_eq g 7, rfl⟩ (
          List.Forall₂.cons ⟨_, k0_off83_inb g 7, k0_off83_eq g 7, rfl⟩ (
          List.Forall₂.cons ⟨_, k0_off82_inb g 7, k0_off82_eq g 7, rfl⟩ (
          List.Forall₂.cons ⟨_, k0_off81_inb g 7, k0_off81_eq g 7, rfl⟩ (
          List.Forall₂.cons ⟨_, k0_off84_inb g 6, k0_off84_eq g 6, rfl⟩ (
          List.Forall₂.cons ⟨_, k0_off83_inb g 6, k0_off83_eq g 6, rfl⟩ (
          List.Forall₂.cons ⟨_, k0_off82_inb g 6, k0_off82_eq g 6, rfl⟩ (
          List.Forall₂.cons ⟨_, k0_off81_inb g 6, k0_off81_eq g 6, rfl⟩ (
          List.Forall₂.cons ⟨_, k0_off84_inb g 5, k0_off84_eq g 5, rfl⟩ (
          List.Forall₂.cons ⟨_, k0_off83_inb g 5, k0_off83_eq g 5, rfl⟩ (
          List.Forall₂.cons ⟨_, k0_off82_inb g 5, k0_off82_eq g 5, rfl⟩ (
          List.Forall₂.cons ⟨_, k0_off81_inb g 5, k0_off81_eq g 5, rfl⟩ (
          List.Forall₂.cons ⟨_, k0_off84_inb g 4, k0_off84_eq g 4, rfl⟩ (
          List.Forall₂.cons ⟨_, k0_off83_inb g 4, k0_off83_eq g 4, rfl⟩ (
          List.Forall₂.cons ⟨_, k0_off82_inb g 4, k0_off82_eq g 4, rfl⟩ (
          List.Forall₂.cons ⟨_, k0_off81_inb g 4, k0_off81_eq g 4, rfl⟩ (
          List.Forall₂.cons ⟨_, k0_off84_inb g 3, k0_off84_eq g 3, rfl⟩ (
          List.Forall₂.cons ⟨_, k0_off83_inb g 3, k0_off83_eq g 3, rfl⟩ (
          List.Forall₂.cons ⟨_, k0_off82_inb g 3, k0_off82_eq g 3, rfl⟩ (
          List.Forall₂.cons ⟨_, k0_off81_inb g 3, k0_off81_eq g 3, rfl⟩ (
          List.Forall₂.cons ⟨_, k0_off84_inb g 2, k0_off84_eq g 2, rfl⟩ (
          List.Forall₂.cons ⟨_, k0_off83_inb g 2, k0_off83_eq g 2, rfl⟩ (
          List.Forall₂.cons ⟨_, k0_off82_inb g 2, k0_off82_eq g 2, rfl⟩ (
          List.Forall₂.cons ⟨_, k0_off81_inb g 2, k0_off81_eq g 2, rfl⟩ (
          List.Forall₂.cons ⟨_, k0_off84_inb g 1, k0_off84_eq g 1, rfl⟩ (
          List.Forall₂.cons ⟨_, k0_off83_inb g 1, k0_off83_eq g 1, rfl⟩ (
          List.Forall₂.cons ⟨_, k0_off82_inb g 1, k0_off82_eq g 1, rfl⟩ (
          List.Forall₂.cons ⟨_, k0_off81_inb g 1, k0_off81_eq g 1, rfl⟩ (
          List.Forall₂.cons ⟨_, k0_off84_inb g 0, k0_off84_eq g 0, rfl⟩ (
          List.Forall₂.cons ⟨_, k0_off83_inb g 0, k0_off83_eq g 0, rfl⟩ (
          List.Forall₂.cons ⟨_, k0_off82_inb g 0, k0_off82_eq g 0, rfl⟩ (
          List.Forall₂.cons ⟨_, k0_off81_inb g 0, k0_off81_eq g 0, rfl⟩ (List.Forall₂.nil)))))))))))))))))))))))))))))))))))))))))))))))))))))))))))))))))
        hf

theorem grp_17_init (Y : Buf (Elt F) ((V d (cV L) (jV L)).loc cc0_scratch6)) (f₀ : Buf (Elt F) ((V d (cV L) (jV L)).loc cc0_scratch7))
    (tv : Fin 4 → Fin 4 → FVec F S16 .f32) (acc : BitVec 32) :
    (iprop(((Memref.whole cc0_scratch6 : Memref sig .scVector .vmem S1600 .i32).view.loc (V d (cV L) (jV L)) ↦{fullShare} Y)
      ∗ ((Memref.whole cc0_scratch7 : Memref sig .scVector .vmem S2x200x64 .f32).view.loc (V d (cV L) (jV L)) ↦{fullShare} f₀)) : sProp 𝕄)
      ⊢ invG_17 (F := F) d L Y f₀ tv 0 acc := by
  unfold invG_17
  iintro ⟨Hk, Hout⟩
  isplitl [Hk]
  · iexact Hk
  · iexists _
    isplitr [Hout]
    swap
    · iexact Hout
    · ipureintro
      exact grpUpTo_zero 3 1 tv Y f₀

end Cert.Proof.KB

end
-- ==== Proof.KBGlue.lean ====
/-
  From the loops' invariants to the rows of the result.

  A pair of inner loops fills the two rows of a row scratch buffer; the token scratch holds the token words of the eight
  rows of bits in the input scratch; the coefficient vectors every trip is handed are formed, before the pair loop, from
  sixteen vectors loaded from the table scratch.  Put together: after a pair's two loops the row scratch holds two
  rows of the result function.
-/
import proofs.«206263_g65532611002545_cont_9to1c4b_62_29_alg».proof.Proof.KBGrp
import proofs.«206263_g65532611002545_cont_9to1c4b_62_29_alg».proof.Proof.KBOutv
import proofs.«206263_g65532611002545_cont_9to1c4b_62_29_alg».proof.Proof.KBFacts
import Idealize.ShloMosaic.Lib.Pipeline.Value

noncomputable section

namespace Cert.Proof.KB

open Cert.Kernel Cert.Kernel.Gen
open Idealize.ShloMosaic Idealize.ShloMosaic.ValueIdx

/-- The two loops of a pair: the first fills row 0 from the buffer as it was, the second fills row 1 from what the first
    left (and leaves row 0 as the first left it); together every site of both rows holds its interpolation. -/
theorem grpUpTo_pair {F : FTy → Type} [FloatOps F] (oc : Fin 4) (tv : Fin 4 → Fin 4 → FVec F S16 .f32) (Y : IVec S1600 32)
    (f₀ f f' : FVec F S2x200x64 .f32) (h0 : GrpUpTo oc 0 tv Y f₀ f 13) (h1 : GrpUpTo oc 1 tv Y f f' 13) :
    ∀ (r2 : Fin 2) (s : Fin 200) (k : Fin 64),
      f' (ix3 (n0 := 2) (n1 := 200) (n2 := 64) r2 s k)
        = lane' (tv 0 ⟨k.val / 16, by omega⟩ (ix1 (n := 16) ⟨k.val % 16, by omega⟩))
            (tv 1 ⟨k.val / 16, by omega⟩ (ix1 (n := 16) ⟨k.val % 16, by omega⟩))
            (tv 2 ⟨k.val / 16, by omega⟩ (ix1 (n := 16) ⟨k.val % 16, by omega⟩))
            (tv 3 ⟨k.val / 16, by omega⟩ (ix1 (n := 16) ⟨k.val % 16, by omega⟩))
            (Y (ix1 (n := 1600) ⟨400 * oc.val + 200 * r2.val + s.val, by omega⟩)) := by
  intro r2 s k
  match r2 with
  | ⟨0, _⟩ =>
    have e : f' (ix3 (n0 := 2) (n1 := 200) (n2 := 64) (0 : Fin 2) s k) = f (ix3 (n0 := 2) (n1 := 200) (n2 := 64) (0 : Fin 2) s k) :=
      h1.2 _ (by show (0 : Fin 2) ≠ 1; decide)
    exact e.trans ((grpUpTo_exit oc 0 tv Y f₀ f h0).1 s k)
  | ⟨1, _⟩ => exact (grpUpTo_exit oc 1 tv Y f f' h1).1 s k

/-- Two rows of results from a pair of loops: with the input scratch holding rows row … row + 7 of the bits and the
    token scratch their token words, the row scratch after the pair's two loops holds rows row + 2·oc and row + 2·oc + 1
    of the result function. -/
theorem pair_rows {F : FTy → Type} [FloatOps F] (n : IVec S4096x400 32) (X : FVec F S256 .f32) (R : FVec F S4096x200x64 .f32) (hR : R = kout n X)
    (row : ℕ) (fd : IVec S8x400 32) (hfd : NvOK n row fd) (Y : IVec S1600 32)
    (hY : ∀ (r : Fin 8) (s : Fin 200), Y (ix1 (n := 1600) ⟨200 * r.val + s.val, by omega⟩)
      = Scalar.addi (Scalar.addi (fd (ix2 (n0 := 8) (n1 := 400) r ⟨200 + s.val, by omega⟩)) (fd (ix2 (n0 := 8) (n1 := 400) r ⟨s.val, by omega⟩)))
          (fd (ix2 (n0 := 8) (n1 := 400) r ⟨s.val, by omega⟩)))
    (tv : Fin 4 → Fin 4 → FVec F S16 .f32) (htv : tv = tvOf X) (oc : Fin 4) (f₀ f₁ f₂ : FVec F S2x200x64 .f32)
    (ha : GrpUpTo oc 0 tv Y f₀ f₁ 13) (hb : GrpUpTo oc 1 tv Y f₁ f₂ 13) : OutvOK R (row + 2 * oc.val) f₂ := by
  obtain ⟨hrow, hfd'⟩ := hfd
  subst hR htv
  have hoc := oc.isLt
  refine ⟨by omega, fun r2 s c => ?_⟩
  exact out_rows n X Y f₂ row hrow oc (fun r s => (hY r s).trans (tokWord_of_landed n fd row hrow hfd' r s))
    (grpUpTo_pair oc (tvOf X) Y f₀ f₁ f₂ ha hb) r2 s c

/-! ## The coefficient vectors a trip is handed -/

section Trip

variable {F : FTy → Type} [FloatOps F]

/-- The sixteen coefficient vectors the pair loop's region hands an inner loop, from the sixteen table vectors (rows
    0 … 3 in lane blocks 0 … 3: v4 v6 v8 v10, v12 … v18, v20 … v26, v28 … v34) and the three differences formed before
    the loop (v35 v36 v37). -/
abbrev tvTrip (v4 v6 v8 v10 v12 v14 v16 v18 v20 v22 v24 v26 v28 v30 v32 v34 v35 v36 v37 : FVec F S16 .f32) : Fin 4 → Fin 4 → FVec F S16 .f32 :=
  tvLoc v4 v6 v8 v10 v35 v36 v37 (k0_pay1 v10 v18) (k0_pay2 v4 v20) (k0_pay3 v6 v22) (k0_pay4 v8 v24) (k0_pay5 v10 v26)
    (k0_pay6 v4 v12 v20 v28) (k0_pay7 v6 v14 v22 v30) (k0_pay8 v8 v16 v24 v32) (k0_pay9 v10 v18 v26 v34)

/-- The sixteen table vectors are the table's rows in lane blocks, and the three differences are row 1 − row 0 in
    blocks 0, 1, 2. -/
structure TabVecs (X : FVec F S256 .f32) (v4 v6 v8 v10 v12 v14 v16 v18 v20 v22 v24 v26 v28 v30 v32 v34 v35 v36 v37 : FVec F S16 .f32) : Prop where
  h4 : v4 = tabRow X 0 0
  h6 : v6 = tabRow X 0 1
  h8 : v8 = tabRow X 0 2
  h10 : v10 = tabRow X 0 3
  h12 : v12 = tabRow X 1 0
  h14 : v14 = tabRow X 1 1
  h16 : v16 = tabRow X 1 2
  h18 : v18 = tabRow X 1 3
  h20 : v20 = tabRow X 2 0
  h22 : v22 = tabRow X 2 1
  h24 : v24 = tabRow X 2 2
  h26 : v26 = tabRow X 2 3
  h28 : v28 = tabRow X 3 0
  h30 : v30 = tabRow X 3 1
  h32 : v32 = tabRow X 3 2
  h34 : v34 = tabRow X 3 3
  h35 : v35 = subf v12 v4
  h36 : v36 = subf v14 v6
  h37 : v37 = subf v16 v8

/-- With the table vectors the table's rows, the trip's coefficient vectors are the table's coefficient vectors. -/
theorem tvTrip_eq (X : FVec F S256 .f32) {v4 v6 v8 v10 v12 v14 v16 v18 v20 v22 v24 v26 v28 v30 v32 v34 v35 v36 v37 : FVec F S16 .f32}
    (h4 : v4 = tabRow X 0 0) (h6 : v6 = tabRow X 0 1) (h8 : v8 = tabRow X 0 2) (h10 : v10 = tabRow X 0 3) (h12 : v12 = tabRow X 1 0) (h14 : v14 = tabRow X 1 1) (h16 : v16 = tabRow X 1 2) (h18 : v18 = tabRow X 1 3) (h20 : v20 = tabRow X 2 0) (h22 : v22 = tabRow X 2 1) (h24 : v24 = tabRow X 2 2) (h26 : v26 = tabRow X 2 3) (h28 : v28 = tabRow X 3 0) (h30 : v30 = tabRow X 3 1) (h32 : v32 = tabRow X 3 2) (h34 : v34 = tabRow X 3 3)
    (h35 : v35 = subf v12 v4) (h36 : v36 = subf v14 v6) (h37 : v37 = subf v16 v8) :
    tvTrip v4 v6 v8 v10 v12 v14 v16 v18 v20 v22 v24 v26 v28 v30 v32 v34 v35 v36 v37 = tvOf X := by
  subst h35 h36 h37
  subst h4 h6 h8 h10 h12 h14 h16 h18 h20 h22 h24 h26 h28 h30 h32 h34
  funext r kk
  fin_cases r <;> fin_cases kk <;> rfl

theorem tvTrip_eq_of (X : FVec F S256 .f32) {v4 v6 v8 v10 v12 v14 v16 v18 v20 v22 v24 v26 v28 v30 v32 v34 v35 v36 v37 : FVec F S16 .f32}
    (h : TabVecs X v4 v6 v8 v10 v12 v14 v16 v18 v20 v22 v24 v26 v28 v30 v32 v34 v35 v36 v37) :
    tvTrip v4 v6 v8 v10 v12 v14 v16 v18 v20 v22 v24 v26 v28 v30 v32 v34 v35 v36 v37 = tvOf X :=
  tvTrip_eq X h.h4 h.h6 h.h8 h.h10 h.h12 h.h14 h.h16 h.h18 h.h20 h.h22 h.h24 h.h26 h.h28 h.h30 h.h32 h.h34 h.h35 h.h36 h.h37

/-- Sixteen words of the table scratch from offset 64·r + 16·kk are row r of the table in lane block kk. -/
theorem tabLoad_eq (X : FVec F S256 .f32) (b : ℕ) (inb : ∀ a, (![b] : Fin 1 → Nat) a + S16.size a ≤ S256.size a) (hc : S16.ShapeCasts S16)
    (r kk : Fin 4) (hb : b = 64 * r.val + 16 * kk.val) :
    shapeCast S16 (View.readAt (Elt F) (Memref.whole cc0_scratch10 : Memref sig .scVector .vmem S256 .f32).view
      (Rect.unit (s := S256) ![b] S16.size inb).toLoadRect X) hc = tabRow X r kk := by
  funext l
  rw [shapeCast_apply _ hc l l rfl]
  unfold tabRow flatIx
  exact congrArg X (funext fun a => match a with
    | ⟨0, _⟩ => Fin.ext (by show b + 1 * (l 0).val = 64 * r.val + (16 * kk.val + (l 0).val); omega))

/-- THE PROLOGUE: with the table scratch holding X, the sixteen vectors the kernel loads from it at offsets 0, 16, …, 240
    and the three differences it forms are the table's rows in lane blocks and their differences. -/
theorem prologue_rows (X : FVec F S256 .f32) :
    TabVecs X
      (k0_pay2871 (F := F) (View.readAt (Elt F) (Memref.whole cc0_scratch10 : Memref sig .scVector .vmem S256 .f32).view (Rect.unit (s := S256) ![0] S16.size inb_S256_S16_0).toLoadRect X))
      (k0_pay2872 (F := F) (View.readAt (Elt F) (Memref.whole cc0_scratch10 : Memref sig .scVector .vmem S256 .f32).view (Rect.unit (s := S256) ![16] S16.size inb_S256_S16_16).toLoadRect X))
      (k0_pay2873 (F := F) (View.readAt (Elt F) (Memref.whole cc0_scratch10 : Memref sig .scVector .vmem S256 .f32).view (Rect.unit (s := S256) ![32] S16.size inb_S256_S16_32).toLoadRect X))
      (k0_pay2874 (F := F) (View.readAt (Elt F) (Memref.whole cc0_scratch10 : Memref sig .scVector .vmem S256 .f32).view (Rect.unit (s := S256) ![48] S16.size inb_S256_S16_48).toLoadRect X))
      (k0_pay2875 (F := F) (View.readAt (Elt F) (Memref.whole cc0_scratch10 : Memref sig .scVector .vmem S256 .f32).view (Rect.unit (s := S256) ![64] S16.size inb_S256_S16_64).toLoadRect X))
      (k0_pay2876 (F := F) (View.readAt (Elt F) (Memref.whole cc0_scratch10 : Memref sig .scVector .vmem S256 .f32).view (Rect.unit (s := S256) ![80] S16.size inb_S256_S16_80).toLoadRect X))
      (k0_pay2877 (F := F) (View.readAt (Elt F) (Memref.whole cc0_scratch10 : Memref sig .scVector .vmem S256 .f32).view (Rect.unit (s := S256) ![96] S16.size inb_S256_S16_96).toLoadRect X))
      (k0_pay2878 (F := F) (View.readAt (Elt F) (Memref.whole cc0_scratch10 : Memref sig .scVector .vmem S256 .f32).view (Rect.unit (s := S256) ![112] S16.size inb_S256_S16_112).toLoadRect X))
      (k0_pay2879 (F := F) (View.readAt (Elt F) (Memref.whole cc0_scratch10 : Memref sig .scVector .vmem S256 .f32).view (Rect.unit (s := S256) ![128] S16.size inb_S256_S16_128).toLoadRect X))
      (k0_pay2880 (F := F) (View.readAt (Elt F) (Memref.whole cc0_scratch10 : Memref sig .scVector .vmem S256 .f32).view (Rect.unit (s := S256) ![144] S16.size inb_S256_S16_144).toLoadRect X))
      (k0_pay2881 (F := F) (View.readAt (Elt F) (Memref.whole cc0_scratch10 : Memref sig .scVector .vmem S256 .f32).view (Rect.unit (s := S256) ![160] S16.size inb_S256_S16_160).toLoadRect X))
      (k0_pay2882 (F := F) (View.readAt (Elt F) (Memref.whole cc0_scratch10 : Memref sig .scVector .vmem S256 .f32).view (Rect.unit (s := S256) ![176] S16.size inb_S256_S16_176).toLoadRect X))
      (k0_pay2883 (F := F) (View.readAt (Elt F) (Memref.whole cc0_scratch10 : Memref sig .scVector .vmem S256 .f32).view (Rect.unit (s := S256) ![192] S16.size inb_S256_S16_192).toLoadRect X))
      (k0_pay2884 (F := F) (View.readAt (Elt F) (Memref.whole cc0_scratch10 : Memref sig .scVector .vmem S256 .f32).view (Rect.unit (s := S256) ![208] S16.size inb_S256_S16_208).toLoadRect X))
      (k0_pay2885 (F := F) (View.readAt (Elt F) (Memref.whole cc0_scratch10 : Memref sig .scVector .vmem S256 .f32).view (Rect.unit (s := S256) ![224] S16.size inb_S256_S16_224).toLoadRect X))
      (k0_pay2886 (F := F) (View.readAt (Elt F) (Memref.whole cc0_scratch10 : Memref sig .scVector .vmem S256 .f32).view (Rect.unit (s := S256) ![240] S16.size inb_S256_S16_240).toLoadRect X))
      (k0_pay2887 (F := F) (View.readAt (Elt F) (Memref.whole cc0_scratch10 : Memref sig .scVector .vmem S256 .f32).view (Rect.unit (s := S256) ![0] S16.size inb_S256_S16_0).toLoadRect X) (View.readAt (Elt F) (Memref.whole cc0_scratch10 : Memref sig .scVector .vmem S256 .f32).view (Rect.unit (s := S256) ![64] S16.size inb_S256_S16_64).toLoadRect X))
      (k0_pay2888 (F := F) (View.readAt (Elt F) (Memref.whole cc0_scratch10 : Memref sig .scVector .vmem S256 .f32).view (Rect.unit (s := S256) ![16] S16.size inb_S256_S16_16).toLoadRect X) (View.readAt (Elt F) (Memref.whole cc0_scratch10 : Memref sig .scVector .vmem S256 .f32).view (Rect.unit (s := S256) ![80] S16.size inb_S256_S16_80).toLoadRect X))
      (k0_pay2889 (F := F) (View.readAt (Elt F) (Memref.whole cc0_scratch10 : Memref sig .scVector .vmem S256 .f32).view (Rect.unit (s := S256) ![32] S16.size inb_S256_S16_32).toLoadRect X) (View.readAt (Elt F) (Memref.whole cc0_scratch10 : Memref sig .scVector .vmem S256 .f32).view (Rect.unit (s := S256) ![96] S16.size inb_S256_S16_96).toLoadRect X)) where
  h4 := tabLoad_eq X 0 inb_S256_S16_0 shapeCasts_S16_S16 0 0 rfl
  h6 := tabLoad_eq X 16 inb_S256_S16_16 shapeCasts_S16_S16 0 1 rfl
  h8 := tabLoad_eq X 32 inb_S256_S16_32 shapeCasts_S16_S16 0 2 rfl
  h10 := tabLoad_eq X 48 inb_S256_S16_48 shapeCasts_S16_S16 0 3 rfl
  h12 := tabLoad_eq X 64 inb_S256_S16_64 shapeCasts_S16_S16 1 0 rfl
  h14 := tabLoad_eq X 80 inb_S256_S16_80 shapeCasts_S16_S16 1 1 rfl
  h16 := tabLoad_eq X 96 inb_S256_S16_96 shapeCasts_S16_S16 1 2 rfl
  h18 := tabLoad_eq X 112 inb_S256_S16_112 shapeCasts_S16_S16 1 3 rfl
  h20 := tabLoad_eq X 128 inb_S256_S16_128 shapeCasts_S16_S16 2 0 rfl
  h22 := tabLoad_eq X 144 inb_S256_S16_144 shapeCasts_S16_S16 2 1 rfl
  h24 := tabLoad_eq X 160 inb_S256_S16_160 shapeCasts_S16_S16 2 2 rfl
  h26 := tabLoad_eq X 176 inb_S256_S16_176 shapeCasts_S16_S16 2 3 rfl
  h28 := tabLoad_eq X 192 inb_S256_S16_192 shapeCasts_S16_S16 3 0 rfl
  h30 := tabLoad_eq X 208 inb_S256_S16_208 shapeCasts_S16_S16 3 1 rfl
  h32 := tabLoad_eq X 224 inb_S256_S16_224 shapeCasts_S16_S16 3 2 rfl
  h34 := tabLoad_eq X 240 inb_S256_S16_240 shapeCasts_S16_S16 3 3 rfl
  h35 := rfl
  h36 := rfl
  h37 := rfl

end Trip

end Cert.Proof.KB

end
-- ==== Proof.KBTrip0.lean ====
/-
  One trip of the pair loop (the first: nothing to drain),
  from the invariant before it to the invariant after it.
-/
import proofs.«206263_g65532611002545_cont_9to1c4b_62_29_alg».proof.Proof.KBTripLemmas
import proofs.«206263_g65532611002545_cont_9to1c4b_62_29_alg».proof.Proof.KBGlue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_first (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (hkv : 0 < k0_t1_loop.trips) (acc : BitVec 32) :
    invP m d L O W X R 0 acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 ⟨0, hkv⟩ acc) (invP m d L O W X R (0 + 1)) := by
  have k0_h1 : k0_cond1 ⟨0, hkv⟩ = 1#1 := cond1_lt ⟨0, hkv⟩ (show (0 : ℕ) < 7 from by decide)
  have k0_h4 : k0_cond4 ⟨0, hkv⟩ = 1#1 := cond4_lt ⟨0, hkv⟩ (show (0 : ℕ) < 7 from by decide)
  unfold invP InSt0 InSt1
  rw [if_pos (show (0 : ℕ) < 8 from by decide), if_pos (show (0 : ℕ) < 8 from by decide), if_pos (show (0 + 1 : ℕ) < 8 from by decide), if_pos (show (0 + 1 : ℕ) < 8 from by decide)]
  unfold OutSt InFl0 InFl1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%g2, Hb2⟩, ⟨%g7, Hb7⟩, Hs4, Hs9⟩, Htodo, Hdone, %W', %hW', HO⟩
  ihave Hsp := (todo_split (F := F) d L (m (oLoc d)) ⟨0, hkv⟩).1 $$ Htodo
  icases Hsp with ⟨⟨Hc00, Hc01, Hc02, Hc03, Hc10, Hc11, Hc12, Hc13⟩, Htodo⟩
  sl_exec_parts
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 g2 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts
  sl_for (invG_4 (F := F) d L Y0 g7 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * 0) + 2 * (0 : Fin 4).val) f3 :=
    pair_rows (F := F) (m (nLoc d)) X R hR (B0 L + 16 * 0) fd0 hfd0 Y0 hY0 _ htv (0 : Fin 4) _ _ f3 (by have h := hf2; rw [e13_2] at h; exact h) (by have h := hf3; rw [e13_3] at h; exact h)
  have hv01 : OutvOK R ((B0 L + 16 * 0) + 2 * (1 : Fin 4).val) f5 :=
    pair_rows (F := F) (m (nLoc d)) X R hR (B0 L + 16 * 0) fd0 hfd0 Y0 hY0 _ htv (1 : Fin 4) _ _ f5 (by have h := hf4; rw [e13_4] at h; exact h) (by have h := hf5; rw [e13_5] at h; exact h)
  have hv02 : OutvOK R ((B0 L + 16 * 0) + 2 * (2 : Fin 4).val) f7 :=
    pair_rows (F := F) (m (nLoc d)) X R hR (B0 L + 16 * 0) fd0 hfd0 Y0 hY0 _ htv (2 : Fin 4) _ _ f7 (by have h := hf6; rw [e13_6] at h; exact h) (by have h := hf7; rw [e13_7] at h; exact h)
  have hv03 : OutvOK R ((B0 L + 16 * 0) + 2 * (3 : Fin 4).val) f9 :=
    pair_rows (F := F) (m (nLoc d)) X R hR (B0 L + 16 * 0) fd0 hfd0 Y0 hY0 _ htv (3 : Fin 4) _ _ f9 (by have h := hf8; rw [e13_8] at h; exact h) (by have h := hf9; rw [e13_9] at h; exact h)
  have hv10 : OutvOK R ((B0 L + 16 * 0 + 8) + 2 * (0 : Fin 4).val) f11 :=
    pair_rows (F := F) (m (nLoc d)) X R hR (B0 L + 16 * 0 + 8) fd1 hfd1 Y1 hY1 _ htv (0 : Fin 4) _ _ f11 (by have h := hf10; rw [e13_10] at h; exact h) (by have h := hf11; rw [e13_11] at h; exact h)
  have hv11 : OutvOK R ((B0 L + 16 * 0 + 8) + 2 * (1 : Fin 4).val) f13 :=
    pair_rows (F := F) (m (nLoc d)) X R hR (B0 L + 16 * 0 + 8) fd1 hfd1 Y1 hY1 _ htv (1 : Fin 4) _ _ f13 (by have h := hf12; rw [e13_12] at h; exact h) (by have h := hf13; rw [e13_13] at h; exact h)
  have hv12 : OutvOK R ((B0 L + 16 * 0 + 8) + 2 * (2 : Fin 4).val) f15 :=
    pair_rows (F := F) (m (nLoc d)) X R hR (B0 L + 16 * 0 + 8) fd1 hfd1 Y1 hY1 _ htv (2 : Fin 4) _ _ f15 (by have h := hf14; rw [e13_14] at h; exact h) (by have h := hf15; rw [e13_15] at h; exact h)
  have hv13 : OutvOK R ((B0 L + 16 * 0 + 8) + 2 * (3 : Fin 4).val) f17 :=
    pair_rows (F := F) (m (nLoc d)) X R hR (B0 L + 16 * 0 + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ ⟨0, hkv⟩)) $$ Hc00
  ihave Hc00 := (chunk_land2 (F := F) d L ⟨0, hkv⟩ (⟨0, by decide⟩ : Fin 2) (⟨0, by decide⟩ : Fin 4) _ f3 R (B0 L + 16 * (⟨0, hkv⟩ : Fin k0_t1_loop.trips).val) (B0 L + 16 * (⟨0, hkv⟩ : Fin k0_t1_loop.trips).val + 2) (B0 L + 16 * 0) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ ⟨0, hkv⟩)) $$ Hc01
  ihave Hc01 := (chunk_land7 (F := F) d L ⟨0, hkv⟩ (⟨0, by decide⟩ : Fin 2) (⟨1, by decide⟩ : Fin 4) _ f5 R (B0 L + 16 * (⟨0, hkv⟩ : Fin k0_t1_loop.trips).val + 2) (B0 L + 16 * (⟨0, hkv⟩ : Fin k0_t1_loop.trips).val + 4) (B0 L + 16 * 0) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ ⟨0, hkv⟩)) $$ Hc02
  ihave Hc02 := (chunk_land2 (F := F) d L ⟨0, hkv⟩ (⟨0, by decide⟩ : Fin 2) (⟨2, by decide⟩ : Fin 4) _ f7 R (B0 L + 16 * (⟨0, hkv⟩ : Fin k0_t1_loop.trips).val + 4) (B0 L + 16 * (⟨0, hkv⟩ : Fin k0_t1_loop.trips).val + 6) (B0 L + 16 * 0) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ ⟨0, hkv⟩)) $$ Hc03
  ihave Hc03 := (chunk_land7 (F := F) d L ⟨0, hkv⟩ (⟨0, by decide⟩ : Fin 2) (⟨3, by decide⟩ : Fin 4) _ f9 R (B0 L + 16 * (⟨0, hkv⟩ : Fin k0_t1_loop.trips).val + 6) (B0 L + 16 * (⟨0, hkv⟩ : Fin k0_t1_loop.trips).val + 8) (B0 L + 16 * 0) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ ⟨0, hkv⟩)) $$ Hc10
  ihave Hc10 := (chunk_land2 (F := F) d L ⟨0, hkv⟩ (⟨1, by decide⟩ : Fin 2) (⟨0, by decide⟩ : Fin 4) _ f11 R (B0 L + 16 * (⟨0, hkv⟩ : Fin k0_t1_loop.trips).val + 8) (B0 L + 16 * (⟨0, hkv⟩ : Fin k0_t1_loop.trips).val + 10) (B0 L + 16 * 0 + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ ⟨0, hkv⟩)) $$ Hc11
  ihave Hc11 := (chunk_land7 (F := F) d L ⟨0, hkv⟩ (⟨1, by decide⟩ : Fin 2) (⟨1, by decide⟩ : Fin 4) _ f13 R (B0 L + 16 * (⟨0, hkv⟩ : Fin k0_t1_loop.trips).val + 10) (B0 L + 16 * (⟨0, hkv⟩ : Fin k0_t1_loop.trips).val + 12) (B0 L + 16 * 0 + 8) (by first | omega | (simp only [Fin.val_mk] <;> omega)) (by first | omega | (simp only [Fin.val_mk] <;> omega)) (by first | omega | (simp only [Fin.val_mk] <;> omega)) hv11) $$ Hc11
  ihave H6 := (six_join (F := F) d L R ⟨0, hkv⟩).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  icases Hdone with -
  ihave Hdone := (rows_respell (F := F) d R (a := (B0 L + 16 * (⟨0, hkv⟩ : Fin k0_t1_loop.trips).val)) (b := (B0 L + 16 * (⟨0, hkv⟩ : Fin k0_t1_loop.trips).val + 12)) (a' := B0 L) (b' := B0 L + 16 * 0 + 12) (by first | omega | (simp only [Fin.val_mk] <;> omega)) (by first | omega | (simp only [Fin.val_mk] <;> omega))) $$ H6
  ihave Hs4 := (flight_congr (F := F) d L (chunk_rows_12 (F := F) d L _ ⟨0, hkv⟩)) $$ Hs4
  ihave Hs9 := (flight_congr (F := F) d L (chunk_rows_13 (F := F) d L _ ⟨0, hkv⟩)) $$ Hs9
  isplitl [Hmw]; · iexact Hmw
  isplitl [Hf0 Hr0]
  · iexists _; iexists _
    isplitr
    · ipureintro
      exact land_ok0 (F := F) (k0_off2 L ⟨0, hkv⟩) (k0_off2_inb L ⟨0, hkv⟩ k0_h1) (m (nLoc d)) fd0 _ (off2_row L ⟨0, hkv⟩).1 (off2_row L ⟨0, hkv⟩).2
    isplitl [Hf0]; · iexact Hf0
    iexact Hr0
  isplitl [Hf1 Hr1]
  · iexists _; iexists _
    isplitr
    · ipureintro
      exact land_ok5 (F := F) (k0_off44 L ⟨0, hkv⟩) (k0_off44_inb L ⟨0, hkv⟩ k0_h4) (m (nLoc d)) fd1 _ (off44_row L ⟨0, hkv⟩).1 (off44_row L ⟨0, hkv⟩).2
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L ⟨0, hkv⟩ (⟨1, by decide⟩ : Fin 2) (⟨2, by decide⟩ : Fin 4) (m (oLoc d)) f15 R (B0 L + 16 * (⟨0, hkv⟩ : Fin k0_t1_loop.trips).val + 12) (B0 L + 16 * (⟨0, hkv⟩ : Fin k0_t1_loop.trips).val + 14) (B0 L + 16 * 0 + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L ⟨0, hkv⟩ (⟨1, by decide⟩ : Fin 2) (⟨3, by decide⟩ : Fin 4) (m (oLoc d)) f17 R (B0 L + 16 * (⟨0, hkv⟩ : Fin k0_t1_loop.trips).val + 14) (B0 L + 16 * (⟨0, hkv⟩ : Fin k0_t1_loop.trips).val + 16) (B0 L + 16 * 0 + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KB

end
-- ==== Proof.KBTrip1.lean ====
/-
  One trip of the pair loop (a middle one: the previous trip's last two write-outs are drained, both input slots refilled),
  from the invariant before it to the invariant after it.
-/
import proofs.«206263_g65532611002545_cont_9to1c4b_62_29_alg».proof.Proof.KBTripLemmas
import proofs.«206263_g65532611002545_cont_9to1c4b_62_29_alg».proof.Proof.KBGlue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_mid (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (k : Fin k0_t1_loop.trips) (k' : ℕ) (hk : k.val = k' + 1) (hk7 : k.val < 7) (acc : BitVec 32) :
    invP m d L O W X R k.val acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 k acc) (invP m d L O W X R (k.val + 1)) := by
  have k0_h1 : k0_cond1 k = 1#1 := cond1_lt k hk7
  have k0_h4 : k0_cond4 k = 1#1 := cond4_lt k hk7
  have hk0 : 0 < k.val := by omega
  unfold invP InSt0 InSt1
  rw [if_pos (show k.val < 8 from by omega), if_pos (show k.val < 8 from by omega), if_pos (show k.val + 1 < 8 from by omega), if_pos (show k.val + 1 < 8 from by omega)]
  rw [show OutSt (F := F) d L R k.val = OutSt (F := F) d L R (k' + 1) from by rw [hk]]
  rw [show doneEnd L k.val = B0 L + 16 * k' + 12 from by rw [hk]; rfl]
  unfold OutSt InFl0 InFl1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  ihave Hsp := (todo_split (F := F) d L (m (oLoc d)) k).1 $$ Htodo
  icases Hsp with ⟨⟨Hc00, Hc01, Hc02, Hc03, Hc10, Hc11, Hc12, Hc13⟩, Htodo⟩
  sl_exec_parts (disch := (sl_unfold_run_names; clear * - k hk0; revert hk0; revert k; decide +kernel))
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 fo0 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts (disch := (sl_unfold_run_names; clear * - k hk0; revert hk0; revert k; decide +kernel))
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts (disch := (sl_unfold_run_names; clear * - k hk0; revert hk0; revert k; decide +kernel))
  sl_for (invG_4 (F := F) d L Y0 fo1 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts (disch := (sl_unfold_run_names; clear * - k hk0; revert hk0; revert k; decide +kernel))
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts (disch := (sl_unfold_run_names; clear * - k hk0; revert hk0; revert k; decide +kernel))
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts (disch := (sl_unfold_run_names; clear * - k hk0; revert hk0; revert k; decide +kernel))
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts (disch := (sl_unfold_run_names; clear * - k hk0; revert hk0; revert k; decide +kernel))
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts (disch := (sl_unfold_run_names; clear * - k hk0; revert hk0; revert k; decide +kernel))
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts (disch := (sl_unfold_run_names; clear * - k hk0; revert hk0; revert k; decide +kernel))
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts (disch := (sl_unfold_run_names; clear * - k hk0; revert hk0; revert k; decide +kernel))
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts (disch := (sl_unfold_run_names; clear * - k hk0; revert hk0; revert k; decide +kernel))
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts (disch := (sl_unfold_run_names; clear * - k hk0; revert hk0; revert k; decide +kernel))
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts (disch := (sl_unfold_run_names; clear * - k hk0; revert hk0; revert k; decide +kernel))
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts (disch := (sl_unfold_run_names; clear * - k hk0; revert hk0; revert k; decide +kernel))
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts (disch := (sl_unfold_run_names; clear * - k hk0; revert hk0; revert k; decide +kernel))
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts (disch := (sl_unfold_run_names; clear * - k hk0; revert hk0; revert k; decide +kernel))
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts (disch := (sl_unfold_run_names; clear * - k hk0; revert hk0; revert k; decide +kernel))
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * k.val) + 2 * (0 : Fin 4).val) f3 :=
    pair_rows (F := F) (m (nLoc d)) X R hR (B0 L + 16 * k.val) fd0 hfd0 Y0 hY0 _ htv (0 : Fin 4) _ _ f3 (by have h := hf2; rw [e13_2] at h; exact h) (by have h := hf3; rw [e13_3] at h; exact h)
  have hv01 : OutvOK R ((B0 L + 16 * k.val) + 2 * (1 : Fin 4).val) f5 :=
    pair_rows (F := F) (m (nLoc d)) X R hR (B0 L + 16 * k.val) fd0 hfd0 Y0 hY0 _ htv (1 : Fin 4) _ _ f5 (by have h := hf4; rw [e13_4] at h; exact h) (by have h := hf5; rw [e13_5] at h; exact h)
  have hv02 : OutvOK R ((B0 L + 16 * k.val) + 2 * (2 : Fin 4).val) f7 :=
    pair_rows (F := F) (m (nLoc d)) X R hR (B0 L + 16 * k.val) fd0 hfd0 Y0 hY0 _ htv (2 : Fin 4) _ _ f7 (by have h := hf6; rw [e13_6] at h; exact h) (by have h := hf7; rw [e13_7] at h; exact h)
  have hv03 : OutvOK R ((B0 L + 16 * k.val) + 2 * (3 : Fin 4).val) f9 :=
    pair_rows (F := F) (m (nLoc d)) X R hR (B0 L + 16 * k.val) fd0 hfd0 Y0 hY0 _ htv (3 : Fin 4) _ _ f9 (by have h := hf8; rw [e13_8] at h; exact h) (by have h := hf9; rw [e13_9] at h; exact h)
  have hv10 : OutvOK R ((B0 L + 16 * k.val + 8) + 2 * (0 : Fin 4).val) f11 :=
    pair_rows (F := F) (m (nLoc d)) X R hR (B0 L + 16 * k.val + 8) fd1 hfd1 Y1 hY1 _ htv (0 : Fin 4) _ _ f11 (by have h := hf10; rw [e13_10] at h; exact h) (by have h := hf11; rw [e13_11] at h; exact h)
  have hv11 : OutvOK R ((B0 L + 16 * k.val + 8) + 2 * (1 : Fin 4).val) f13 :=
    pair_rows (F := F) (m (nLoc d)) X R hR (B0 L + 16 * k.val + 8) fd1 hfd1 Y1 hY1 _ htv (1 : Fin 4) _ _ f13 (by have h := hf12; rw [e13_12] at h; exact h) (by have h := hf13; rw [e13_13] at h; exact h)
  have hv12 : OutvOK R ((B0 L + 16 * k.val + 8) + 2 * (2 : Fin 4).val) f15 :=
    pair_rows (F := F) (m (nLoc d)) X R hR (B0 L + 16 * k.val + 8) fd1 hfd1 Y1 hY1 _ htv (2 : Fin 4) _ _ f15 (by have h := hf14; rw [e13_14] at h; exact h) (by have h := hf15; rw [e13_15] at h; exact h)
  have hv13 : OutvOK R ((B0 L + 16 * k.val + 8) + 2 * (3 : Fin 4).val) f17 :=
    pair_rows (F := F) (m (nLoc d)) X R hR (B0 L + 16 * k.val + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ k)) $$ Hc00
  ihave Hc00 := (chunk_land2 (F := F) d L k (⟨0, by decide⟩ : Fin 2) (⟨0, by decide⟩ : Fin 4) _ f3 R (B0 L + 16 * k.val) (B0 L + 16 * k.val + 2) (B0 L + 16 * k.val) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ k)) $$ Hc01
  ihave Hc01 := (chunk_land7 (F := F) d L k (⟨0, by decide⟩ : Fin 2) (⟨1, by decide⟩ : Fin 4) _ f5 R (B0 L + 16 * k.val + 2) (B0 L + 16 * k.val + 4) (B0 L + 16 * k.val) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ k)) $$ Hc02
  ihave Hc02 := (chunk_land2 (F := F) d L k (⟨0, by decide⟩ : Fin 2) (⟨2, by decide⟩ : Fin 4) _ f7 R (B0 L + 16 * k.val + 4) (B0 L + 16 * k.val + 6) (B0 L + 16 * k.val) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ k)) $$ Hc03
  ihave Hc03 := (chunk_land7 (F := F) d L k (⟨0, by decide⟩ : Fin 2) (⟨3, by decide⟩ : Fin 4) _ f9 R (B0 L + 16 * k.val + 6) (B0 L + 16 * k.val + 8) (B0 L + 16 * k.val) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ k)) $$ Hc10
  ihave Hc10 := (chunk_land2 (F := F) d L k (⟨1, by decide⟩ : Fin 2) (⟨0, by decide⟩ : Fin 4) _ f11 R (B0 L + 16 * k.val + 8) (B0 L + 16 * k.val + 10) (B0 L + 16 * k.val + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ k)) $$ Hc11
  ihave Hc11 := (chunk_land7 (F := F) d L k (⟨1, by decide⟩ : Fin 2) (⟨1, by decide⟩ : Fin 4) _ f13 R (B0 L + 16 * k.val + 10) (B0 L + 16 * k.val + 12) (B0 L + 16 * k.val + 8) (by first | omega | (simp only [Fin.val_mk] <;> omega)) (by first | omega | (simp only [Fin.val_mk] <;> omega)) (by first | omega | (simp only [Fin.val_mk] <;> omega)) hv11) $$ Hc11
  ihave H6 := (six_join (F := F) d L R k).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  ihave Hl0 := (rows_to_R (F := F) d R gC0 hgC0) $$ Hs4_dst
  ihave Hl1 := (rows_to_R (F := F) d R gC1 hgC1) $$ Hs9_dst
  ihave J1 := (rows_join (F := F) d R (a := B0 L) (b := B0 L + 16 * k' + 12) (c := B0 L + 16 * k' + 14) (by omega) (by omega)) $$ [Hdone Hl0]
  · isplitl [Hdone]; · iexact Hdone
    iexact Hl0
  ihave J2 := (rows_join (F := F) d R (a := B0 L) (b := B0 L + 16 * k' + 14) (c := B0 L + 16 * k' + 16) (by omega) (by omega)) $$ [J1 Hl1]
  · isplitl [J1]; · iexact J1
    iexact Hl1
  ihave J2 := (rows_respell (F := F) d R (a := B0 L) (b := B0 L + 16 * k' + 16) (a' := B0 L) (b' := B0 L + 16 * k.val) rfl (by omega)) $$ J2
  ihave Hdone := (rows_join (F := F) d R (a := B0 L) (b := B0 L + 16 * k.val) (c := B0 L + 16 * k.val + 12) (by omega) (by omega)) $$ [J2 H6]
  · isplitl [J2]; · iexact J2
    iexact H6
  ihave Hs4 := (flight_congr (F := F) d L (chunk_rows_12 (F := F) d L _ k)) $$ Hs4
  ihave Hs9 := (flight_congr (F := F) d L (chunk_rows_13 (F := F) d L _ k)) $$ Hs9
  isplitl [Hmw]; · iexact Hmw
  isplitl [Hf0 Hr0]
  · iexists _; iexists _
    isplitr
    · ipureintro
      exact land_ok0 (F := F) (k0_off2 L k) (k0_off2_inb L k k0_h1) (m (nLoc d)) fd0 _ (off2_row L k).1 (off2_row L k).2
    isplitl [Hf0]; · iexact Hf0
    iexact Hr0
  isplitl [Hf1 Hr1]
  · iexists _; iexists _
    isplitr
    · ipureintro
      exact land_ok5 (F := F) (k0_off44 L k) (k0_off44_inb L k k0_h4) (m (nLoc d)) fd1 _ (off44_row L k).1 (off44_row L k).2
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L k (⟨1, by decide⟩ : Fin 2) (⟨2, by decide⟩ : Fin 4) (m (oLoc d)) f15 R (B0 L + 16 * k.val + 12) (B0 L + 16 * k.val + 14) (B0 L + 16 * k.val + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L k (⟨1, by decide⟩ : Fin 2) (⟨3, by decide⟩ : Fin 4) (m (oLoc d)) f17 R (B0 L + 16 * k.val + 14) (B0 L + 16 * k.val + 16) (B0 L + 16 * k.val + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KB

end
-- ==== Proof.KBTrip7.lean ====
/-
  One trip of the pair loop (the last: the previous trip's write-outs are drained, no input slot is refilled),
  from the invariant before it to the invariant after it.
-/
import proofs.«206263_g65532611002545_cont_9to1c4b_62_29_alg».proof.Proof.KBTripLemmas
import proofs.«206263_g65532611002545_cont_9to1c4b_62_29_alg».proof.Proof.KBGlue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

set_option maxHeartbeats 16000000 in
theorem trip_last (O : CellTallies nD τ sig (HIx 1)) (W : Waits sig (HIx 1)) (X : Buf (Elt F) ((V d (cV L) (jV L)).loc cc0_scratch10)) (R : Buf (Elt F) (oLoc d))
    (v2 : BitVec 32) (v4 v6 v8 v10 v12 v14 v16 v18 v20 v22 v24 v26 v28 v30 v32 v34 v35 v36 v37 : FVec F S16 .f32)
    (hR : R = kout (F := F) (m (nLoc d)) X) (htv : tvTrip v4 v6 v8 v10 v12 v14 v16 v18 v20 v22 v24 v26 v28 v30 v32 v34 v35 v36 v37 = tvOf X) (k : Fin k0_t1_loop.trips) (k' : ℕ) (hk : k.val = k' + 1) (hk7 : ¬ k.val < 7) (acc : BitVec 32) :
    invP m d L O W X R k.val acc ⊢ wp frame (wpE (defs₀ (F := F)) 𝒱₀ (V d (cV L) (jV L)) none) Set.univ (k0_t1_body (F := F) L (Memref.whole main_arg0_scv : Memref sig .scVector .hbm S4096x400 .i32) (Memref.isWhole_whole _) (Memref.whole main_v0_scv : Memref sig .scVector .hbm S256 .f32) (Memref.isWhole_whole _) (Memref.whole main_v1_scv : Memref sig .scVector .hbm S4096x200x64 .f32) (Memref.isWhole_whole _) (Memref.whole cc0_scratch0 : Memref sig .scVector .vmem S8x400 .i32) (Memref.isWhole_whole _) (Memref.whole cc0_scratch1 : Memref sig .scVector .vmem S1600 .i32) (Memref.isWhole_whole _) (Memref.whole cc0_scratch2 : Memref sig .scVector .vmem S2x200x64 .f32) (Memref.isWhole_whole _) cc0_scratch3 cc0_scratch4 (Memref.whole cc0_scratch5 : Memref sig .scVector .vmem S8x400 .i32) (Memref.isWhole_whole _) (Memref.whole cc0_scratch6 : Memref sig .scVector .vmem S1600 .i32) (Memref.isWhole_whole _) (Memref.whole cc0_scratch7 : Memref sig .scVector .vmem S2x200x64 .f32) (Memref.isWhole_whole _) cc0_scratch8 cc0_scratch9 (Memref.whole cc0_scratch10 : Memref sig .scVector .vmem S256 .f32) (Memref.isWhole_whole _) cc0_scoped0 v2 v4 v6 v8 v10 v12 v14 v16 v18 v20 v22 v24 v26 v28 v30 v32 v34 v35 v36 v37 k acc) (invP m d L O W X R (k.val + 1)) := by
  have k0_h1 : ¬ k0_cond1 k = 1#1 := cond1_ge k hk7
  have k0_h4 : ¬ k0_cond4 k = 1#1 := cond4_ge k hk7
  have hk0 : 0 < k.val := by omega
  have hk8 : k.val < 8 := k.isLt.trans_le (by decide)
  unfold invP InSt0 InSt1
  rw [if_pos hk8, if_pos hk8, if_neg (show ¬ k.val + 1 < 8 from by omega), if_neg (show ¬ k.val + 1 < 8 from by omega)]
  rw [show OutSt (F := F) d L R k.val = OutSt (F := F) d L R (k' + 1) from by rw [hk]]
  rw [show doneEnd L k.val = B0 L + 16 * k' + 12 from by rw [hk]; rfl]
  unfold OutSt InFl0 InFl1 InHeld0 InHeld1 OutFl k0_t1_body
  iintro ⟨Hmw, ⟨%I0, %fd0, %hfd0, Hf0, Hr0⟩, ⟨%I1, %fd1, %hfd1, Hf1, Hr1⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  ihave Hsp := (todo_split (F := F) d L (m (oLoc d)) k).1 $$ Htodo
  icases Hsp with ⟨⟨Hc00, Hc01, Hc02, Hc03, Hc10, Hc11, Hc12, Hc13⟩, Htodo⟩
  sl_exec_parts (disch := (sl_unfold_run_names; clear * - k hk0; revert hk0; revert k; decide +kernel))
  -- the token scratch after the 104 stores: entry 200 r + s is up + down + down of the landed rows
  generalize hYd_Y0 : (Memref.whole cc0_scratch1 : Memref sig .scVector .vmem S1600 .i32).view.writes (Elt F) _ _ = Y0
  have hY0 : ∀ (r : Fin 8) (s : Fin 200), Y0 (ix1 (n := 1600) ⟨200 * r.val + s.val, by have := r.isLt; have := s.isLt; omega⟩) = Scalar.addi (Scalar.addi (fd0 (ix2 (n0 := 8) (n1 := 400) r ⟨200 + s.val, by have := s.isLt; omega⟩)) (fd0 (ix2 (n0 := 8) (n1 := 400) r ⟨s.val, by have := s.isLt; omega⟩))) (fd0 (ix2 (n0 := 8) (n1 := 400) r ⟨s.val, by have := s.isLt; omega⟩)) := by
    intro r s
    rw [← hYd_Y0]
    refine tokY1 fd0 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd0 _ _ _ _ (by decide) (by decide) (by decide) (by decide) x | exact tok_piece5 fd0 _ _ _ _ (by decide) (by decide) (by decide) (by decide) x)
  sl_for (invG_2 (F := F) d L Y0 fo0 (tvTrip v4 v6 v8 v10 v12 v14 v16 v18 v20 v22 v24 v26 v28 v30 v32 v34 v35 v36 v37)) $$ [Hb1 Hb2]
  case region =>
    intro g acc
    sl_unfold_run_names
    first | exact grp_2_region (F := F) d L _ _ _ _ _ _ _ _ _ _ _ _ _ _ _ _ _ _ _ _ _ _ _ _ _ | exact grp_2_region (F := F) d L _ _ _ _ _ _ _ _ _ _ _ _ _ _ _ _ _ _ _ _ _ _ _ _ | exact grp_2_region (F := F) d L _ _ _ _ _ _ _ _ _ _ _ _ _ _ _ _ _ _ _ _ _ _ _ _ _ _ | exact grp_2_region (F := F) d L _ _ _ _ _ _ _ _ _ _ _ _ _ _ _ _ _ _ _ _ _ _ _ | exact grp_2_region (F := F) d L _ _ _ _ _ _ _ _ _ _ _ _ _ _ _ _ _ _ _ _ _ _ _ _ _ _ _
  · iapply (grp_2_init (F := F) d L _ _ _ _)
    isplitl [Hb1]
    · iexact Hb1
    · iexact Hb2
  iintro %_ HI
  unfold invG_2
  icases HI with ⟨Hb1, %f2, %hf2, Hb2⟩
  sl_exec_parts (disch := (sl_unfold_run_names; clear * - k hk0; revert hk0; revert k; decide +kernel))
  sl_for (invG_3 (F := F) d L Y0 f2 (tvTrip v4 v6 v8 v10 v12 v14 v16 v18 v20 v22 v24 v26 v28 v30 v32 v34 v35 v36 v37)) $$ [Hb1 Hb2]
  case region =>
    intro g acc
    sl_unfold_run_names
    first | exact grp_3_region (F := F) d L _ _ _ _ _ _ _ _ _ _ _ _ _ _ _ _ _ _ _ _ _ _ _ _ _ | exact grp_3_region (F := F) d L _ _ _ _ _ _ _ _ _ _ _ _ _ _ _ _ _ _ _ _ _ _ _ _ | exact grp_3_region (F := F) d L _ _ _ _ _ _ _ _ _ _ _ _ _ _ _ _ _ _ _ _ _ _ _ _ _ _ | exact grp_3_region (F := F) d L _ _ _ _ _ _ _ _ _ _ _ _ _ _ _ _ _ _ _ _ _ _ _ | exact grp_3_region (F := F) d L _ _ _ _ _ _ _ _ _ _ _ _ _ _ _ _ _ _ _ _ _ _ _ _ _ _ _
  · iapply (grp_3_init (F := F) d L _ _ _ _)
    isplitl [Hb1]
    · iexact Hb1
    · iexact Hb2
  iintro %_ HI
  unfold invG_3
  icases HI with ⟨Hb1, %f3, %hf3, Hb2⟩
  sl_exec_parts (disch := (sl_unfold_run_names; clear * - k hk0; revert hk0; revert k; decide +kernel))
  sl_for (invG_4 (F := F) d L Y0 fo1 (tvTrip v4 v6 v8 v10 v12 v14 v16 v18 v20 v22 v24 v26 v28 v30 v32 v34 v35 v36 v37)) $$ [Hb1 Hb7]
  case region =>
    intro g acc
    sl_unfold_run_names
    first | exact grp_4_region (F := F) d L _ _ _ _ _ _ _ _ _ _ _ _ _ _ _ _ _ _ _ _ _ _ _ _ _ | exact grp_4_region (F := F) d L _ _ _ _ _ _ _ _ _ _ _ _ _ _ _ _ _ _ _ _ _ _ _ _ | exact grp_4_region (F := F) d L _ _ _ _ _ _ _ _ _ _ _ _ _ _ _ _ _ _ _ _ _ _ _ _ _ _ | exact grp_4_region (F := F) d L _ _ _ _ _ _ _ _ _ _ _ _ _ _ _ _ _ _ _ _ _ _ _ | exact grp_4_region (F := F) d L _ _ _ _ _ _ _ _ _ _ _ _ _ _ _ _ _ _ _ _ _ _ _ _ _ _ _
  · iapply (grp_4_init (F := F) d L _ _ _ _)
    isplitl [Hb1]
    · iexact Hb1
    · iexact Hb7
  iintro %_ HI
  unfold invG_4
  icases HI with ⟨Hb1, %f4, %hf4, Hb7⟩
  sl_exec_parts (disch := (sl_unfold_run_names; clear * - k hk0; revert hk0; revert k; decide +kernel))
  sl_for (invG_5 (F := F) d L Y0 f4 (tvTrip v4 v6 v8 v10 v12 v14 v16 v18 v20 v22 v24 v26 v28 v30 v32 v34 v35 v36 v37)) $$ [Hb1 Hb7]
  case region =>
    intro g acc
    sl_unfold_run_names
    first | exact grp_5_region (F := F) d L _ _ _ _ _ _ _ _ _ _ _ _ _ _ _ _ _ _ _ _ _ _ _ _ _ | exact grp_5_region (F := F) d L _ _ _ _ _ _ _ _ _ _ _ _ _ _ _ _ _ _ _ _ _ _ _ _ | exact grp_5_region (F := F) d L _ _ _ _ _ _ _ _ _ _ _ _ _ _ _ _ _ _ _ _ _ _ _ _ _ _ | exact grp_5_region (F := F) d L _ _ _ _ _ _ _ _ _ _ _ _ _ _ _ _ _ _ _ _ _ _ _ | exact grp_5_region (F := F) d L _ _ _ _ _ _ _ _ _ _ _ _ _ _ _ _ _ _ _ _ _ _ _ _ _ _ _
  · iapply (grp_5_init (F := F) d L _ _ _ _)
    isplitl [Hb1]
    · iexact Hb1
    · iexact Hb7
  iintro %_ HI
  unfold invG_5
  icases HI with ⟨Hb1, %f5, %hf5, Hb7⟩
  sl_exec_parts (disch := (sl_unfold_run_names; clear * - k hk0; revert hk0; revert k; decide +kernel))
  sl_for (invG_6 (F := F) d L Y0 f3 (tvTrip v4 v6 v8 v10 v12 v14 v16 v18 v20 v22 v24 v26 v28 v30 v32 v34 v35 v36 v37)) $$ [Hb1 Hb2]
  case region =>
    intro g acc
    sl_unfold_run_names
    first | exact grp_6_region (F := F) d L _ _ _ _ _ _ _ _ _ _ _ _ _ _ _ _ _ _ _ _ _ _ _ _ _ | exact grp_6_region (F := F) d L _ _ _ _ _ _ _ _ _ _ _ _ _ _ _ _ _ _ _ _ _ _ _ _ | exact grp_6_region (F := F) d L _ _ _ _ _ _ _ _ _ _ _ _ _ _ _ _ _ _ _ _ _ _ _ _ _ _ | exact grp_6_region (F := F) d L _ _ _ _ _ _ _ _ _ _ _ _ _ _ _ _ _ _ _ _ _ _ _ | exact grp_6_region (F := F) d L _ _ _ _ _ _ _ _ _ _ _ _ _ _ _ _ _ _ _ _ _ _ _ _ _ _ _
  · iapply (grp_6_init (F := F) d L _ _ _ _)
    isplitl [Hb1]
    · iexact Hb1
    · iexact Hb2
  iintro %_ HI
  unfold invG_6
  icases HI with ⟨Hb1, %f6, %hf6, Hb2⟩
  sl_exec_parts (disch := (sl_unfold_run_names; clear * - k hk0; revert hk0; revert k; decide +kernel))
  sl_for (invG_7 (F := F) d L Y0 f6 (tvTrip v4 v6 v8 v10 v12 v14 v16 v18 v20 v22 v24 v26 v28 v30 v32 v34 v35 v36 v37)) $$ [Hb1 Hb2]
  case region =>
    intro g acc
    sl_unfold_run_names
    first | exact grp_7_region (F := F) d L _ _ _ _ _ _ _ _ _ _ _ _ _ _ _ _ _ _ _ _ _ _ _ _ _ | exact grp_7_region (F := F) d L _ _ _ _ _ _ _ _ _ _ _ _ _ _ _ _ _ _ _ _ _ _ _ _ | exact grp_7_region (F := F) d L _ _ _ _ _ _ _ _ _ _ _ _ _ _ _ _ _ _ _ _ _ _ _ _ _ _ | exact grp_7_region (F := F) d L _ _ _ _ _ _ _ _ _ _ _ _ _ _ _ _ _ _ _ _ _ _ _ | exact grp_7_region (F := F) d L _ _ _ _ _ _ _ _ _ _ _ _ _ _ _ _ _ _ _ _ _ _ _ _ _ _ _
  · iapply (grp_7_init (F := F) d L _ _ _ _)
    isplitl [Hb1]
    · iexact Hb1
    · iexact Hb2
  iintro %_ HI
  unfold invG_7
  icases HI with ⟨Hb1, %f7, %hf7, Hb2⟩
  sl_exec_parts (disch := (sl_unfold_run_names; clear * - k hk0; revert hk0; revert k; decide +kernel))
  sl_for (invG_8 (F := F) d L Y0 f5 (tvTrip v4 v6 v8 v10 v12 v14 v16 v18 v20 v22 v24 v26 v28 v30 v32 v34 v35 v36 v37)) $$ [Hb1 Hb7]
  case region =>
    intro g acc
    sl_unfold_run_names
    first | exact grp_8_region (F := F) d L _ _ _ _ _ _ _ _ _ _ _ _ _ _ _ _ _ _ _ _ _ _ _ _ _ | exact grp_8_region (F := F) d L _ _ _ _ _ _ _ _ _ _ _ _ _ _ _ _ _ _ _ _ _ _ _ _ | exact grp_8_region (F := F) d L _ _ _ _ _ _ _ _ _ _ _ _ _ _ _ _ _ _ _ _ _ _ _ _ _ _ | exact grp_8_region (F := F) d L _ _ _ _ _ _ _ _ _ _ _ _ _ _ _ _ _ _ _ _ _ _ _ | exact grp_8_region (F := F) d L _ _ _ _ _ _ _ _ _ _ _ _ _ _ _ _ _ _ _ _ _ _ _ _ _ _ _
  · iapply (grp_8_init (F := F) d L _ _ _ _)
    isplitl [Hb1]
    · iexact Hb1
    · iexact Hb7
  iintro %_ HI
  unfold invG_8
  icases HI with ⟨Hb1, %f8, %hf8, Hb7⟩
  sl_exec_parts (disch := (sl_unfold_run_names; clear * - k hk0; revert hk0; revert k; decide +kernel))
  sl_for (invG_9 (F := F) d L Y0 f8 (tvTrip v4 v6 v8 v10 v12 v14 v16 v18 v20 v22 v24 v26 v28 v30 v32 v34 v35 v36 v37)) $$ [Hb1 Hb7]
  case region =>
    intro g acc
    sl_unfold_run_names
    first | exact grp_9_region (F := F) d L _ _ _ _ _ _ _ _ _ _ _ _ _ _ _ _ _ _ _ _ _ _ _ _ _ | exact grp_9_region (F := F) d L _ _ _ _ _ _ _ _ _ _ _ _ _ _ _ _ _ _ _ _ _ _ _ _ | exact grp_9_region (F := F) d L _ _ _ _ _ _ _ _ _ _ _ _ _ _ _ _ _ _ _ _ _ _ _ _ _ _ | exact grp_9_region (F := F) d L _ _ _ _ _ _ _ _ _ _ _ _ _ _ _ _ _ _ _ _ _ _ _ | exact grp_9_region (F := F) d L _ _ _ _ _ _ _ _ _ _ _ _ _ _ _ _ _ _ _ _ _ _ _ _ _ _ _
  · iapply (grp_9_init (F := F) d L _ _ _ _)
    isplitl [Hb1]
    · iexact Hb1
    · iexact Hb7
  iintro %_ HI
  unfold invG_9
  icases HI with ⟨Hb1, %f9, %hf9, Hb7⟩
  sl_exec_parts (disch := (sl_unfold_run_names; clear * - k hk0; revert hk0; revert k; decide +kernel))
  -- the token scratch after the 104 stores: entry 200 r + s is up + down + down of the landed rows
  generalize hYd_Y1 : (Memref.whole cc0_scratch6 : Memref sig .scVector .vmem S1600 .i32).view.writes (Elt F) _ _ = Y1
  have hY1 : ∀ (r : Fin 8) (s : Fin 200), Y1 (ix1 (n := 1600) ⟨200 * r.val + s.val, by have := r.isLt; have := s.isLt; omega⟩) = Scalar.addi (Scalar.addi (fd1 (ix2 (n0 := 8) (n1 := 400) r ⟨200 + s.val, by have := s.isLt; omega⟩)) (fd1 (ix2 (n0 := 8) (n1 := 400) r ⟨s.val, by have := s.isLt; omega⟩))) (fd1 (ix2 (n0 := 8) (n1 := 400) r ⟨s.val, by have := s.isLt; omega⟩)) := by
    intro r s
    rw [← hYd_Y1]
    refine tokY6 fd1 _ _ ?_ (View.cover_of_tiledBy _ (fun _ => 8) (by sl_kernel_rfl)) r s _
    sl_unfold_run_names
    repeat' (first | (intro p hp; exact absurd hp List.not_mem_nil) | refine List.forall_mem_cons.mpr ⟨?_, ?_⟩)
    all_goals (intro x; first | exact tok_piece0 fd1 _ _ _ _ (by decide) (by decide) (by decide) (by decide) x | exact tok_piece5 fd1 _ _ _ _ (by decide) (by decide) (by decide) (by decide) x)
  sl_for (invG_10 (F := F) d L Y1 f7 (tvTrip v4 v6 v8 v10 v12 v14 v16 v18 v20 v22 v24 v26 v28 v30 v32 v34 v35 v36 v37)) $$ [Hb6 Hb2]
  case region =>
    intro g acc
    sl_unfold_run_names
    first | exact grp_10_region (F := F) d L _ _ _ _ _ _ _ _ _ _ _ _ _ _ _ _ _ _ _ _ _ _ _ _ _ | exact grp_10_region (F := F) d L _ _ _ _ _ _ _ _ _ _ _ _ _ _ _ _ _ _ _ _ _ _ _ _ | exact grp_10_region (F := F) d L _ _ _ _ _ _ _ _ _ _ _ _ _ _ _ _ _ _ _ _ _ _ _ _ _ _ | exact grp_10_region (F := F) d L _ _ _ _ _ _ _ _ _ _ _ _ _ _ _ _ _ _ _ _ _ _ _ | exact grp_10_region (F := F) d L _ _ _ _ _ _ _ _ _ _ _ _ _ _ _ _ _ _ _ _ _ _ _ _ _ _ _
  · iapply (grp_10_init (F := F) d L _ _ _ _)
    isplitl [Hb6]
    · iexact Hb6
    · iexact Hb2
  iintro %_ HI
  unfold invG_10
  icases HI with ⟨Hb6, %f10, %hf10, Hb2⟩
  sl_exec_parts (disch := (sl_unfold_run_names; clear * - k hk0; revert hk0; revert k; decide +kernel))
  sl_for (invG_11 (F := F) d L Y1 f10 (tvTrip v4 v6 v8 v10 v12 v14 v16 v18 v20 v22 v24 v26 v28 v30 v32 v34 v35 v36 v37)) $$ [Hb6 Hb2]
  case region =>
    intro g acc
    sl_unfold_run_names
    first | exact grp_11_region (F := F) d L _ _ _ _ _ _ _ _ _ _ _ _ _ _ _ _ _ _ _ _ _ _ _ _ _ | exact grp_11_region (F := F) d L _ _ _ _ _ _ _ _ _ _ _ _ _ _ _ _ _ _ _ _ _ _ _ _ | exact grp_11_region (F := F) d L _ _ _ _ _ _ _ _ _ _ _ _ _ _ _ _ _ _ _ _ _ _ _ _ _ _ | exact grp_11_region (F := F) d L _ _ _ _ _ _ _ _ _ _ _ _ _ _ _ _ _ _ _ _ _ _ _ | exact grp_11_region (F := F) d L _ _ _ _ _ _ _ _ _ _ _ _ _ _ _ _ _ _ _ _ _ _ _ _ _ _ _
  · iapply (grp_11_init (F := F) d L _ _ _ _)
    isplitl [Hb6]
    · iexact Hb6
    · iexact Hb2
  iintro %_ HI
  unfold invG_11
  icases HI with ⟨Hb6, %f11, %hf11, Hb2⟩
  sl_exec_parts (disch := (sl_unfold_run_names; clear * - k hk0; revert hk0; revert k; decide +kernel))
  sl_for (invG_12 (F := F) d L Y1 f9 (tvTrip v4 v6 v8 v10 v12 v14 v16 v18 v20 v22 v24 v26 v28 v30 v32 v34 v35 v36 v37)) $$ [Hb6 Hb7]
  case region =>
    intro g acc
    sl_unfold_run_names
    first | exact grp_12_region (F := F) d L _ _ _ _ _ _ _ _ _ _ _ _ _ _ _ _ _ _ _ _ _ _ _ _ _ | exact grp_12_region (F := F) d L _ _ _ _ _ _ _ _ _ _ _ _ _ _ _ _ _ _ _ _ _ _ _ _ | exact grp_12_region (F := F) d L _ _ _ _ _ _ _ _ _ _ _ _ _ _ _ _ _ _ _ _ _ _ _ _ _ _ | exact grp_12_region (F := F) d L _ _ _ _ _ _ _ _ _ _ _ _ _ _ _ _ _ _ _ _ _ _ _ | exact grp_12_region (F := F) d L _ _ _ _ _ _ _ _ _ _ _ _ _ _ _ _ _ _ _ _ _ _ _ _ _ _ _
  · iapply (grp_12_init (F := F) d L _ _ _ _)
    isplitl [Hb6]
    · iexact Hb6
    · iexact Hb7
  iintro %_ HI
  unfold invG_12
  icases HI with ⟨Hb6, %f12, %hf12, Hb7⟩
  sl_exec_parts (disch := (sl_unfold_run_names; clear * - k hk0; revert hk0; revert k; decide +kernel))
  sl_for (invG_13 (F := F) d L Y1 f12 (tvTrip v4 v6 v8 v10 v12 v14 v16 v18 v20 v22 v24 v26 v28 v30 v32 v34 v35 v36 v37)) $$ [Hb6 Hb7]
  case region =>
    intro g acc
    sl_unfold_run_names
    first | exact grp_13_region (F := F) d L _ _ _ _ _ _ _ _ _ _ _ _ _ _ _ _ _ _ _ _ _ _ _ _ _ | exact grp_13_region (F := F) d L _ _ _ _ _ _ _ _ _ _ _ _ _ _ _ _ _ _ _ _ _ _ _ _ | exact grp_13_region (F := F) d L _ _ _ _ _ _ _ _ _ _ _ _ _ _ _ _ _ _ _ _ _ _ _ _ _ _ | exact grp_13_region (F := F) d L _ _ _ _ _ _ _ _ _ _ _ _ _ _ _ _ _ _ _ _ _ _ _ | exact grp_13_region (F := F) d L _ _ _ _ _ _ _ _ _ _ _ _ _ _ _ _ _ _ _ _ _ _ _ _ _ _ _
  · iapply (grp_13_init (F := F) d L _ _ _ _)
    isplitl [Hb6]
    · iexact Hb6
    · iexact Hb7
  iintro %_ HI
  unfold invG_13
  icases HI with ⟨Hb6, %f13, %hf13, Hb7⟩
  sl_exec_parts (disch := (sl_unfold_run_names; clear * - k hk0; revert hk0; revert k; decide +kernel))
  sl_for (invG_14 (F := F) d L Y1 f11 (tvTrip v4 v6 v8 v10 v12 v14 v16 v18 v20 v22 v24 v26 v28 v30 v32 v34 v35 v36 v37)) $$ [Hb6 Hb2]
  case region =>
    intro g acc
    sl_unfold_run_names
    first | exact grp_14_region (F := F) d L _ _ _ _ _ _ _ _ _ _ _ _ _ _ _ _ _ _ _ _ _ _ _ _ _ | exact grp_14_region (F := F) d L _ _ _ _ _ _ _ _ _ _ _ _ _ _ _ _ _ _ _ _ _ _ _ _ | exact grp_14_region (F := F) d L _ _ _ _ _ _ _ _ _ _ _ _ _ _ _ _ _ _ _ _ _ _ _ _ _ _ | exact grp_14_region (F := F) d L _ _ _ _ _ _ _ _ _ _ _ _ _ _ _ _ _ _ _ _ _ _ _ | exact grp_14_region (F := F) d L _ _ _ _ _ _ _ _ _ _ _ _ _ _ _ _ _ _ _ _ _ _ _ _ _ _ _
  · iapply (grp_14_init (F := F) d L _ _ _ _)
    isplitl [Hb6]
    · iexact Hb6
    · iexact Hb2
  iintro %_ HI
  unfold invG_14
  icases HI with ⟨Hb6, %f14, %hf14, Hb2⟩
  sl_exec_parts (disch := (sl_unfold_run_names; clear * - k hk0; revert hk0; revert k; decide +kernel))
  sl_for (invG_15 (F := F) d L Y1 f14 (tvTrip v4 v6 v8 v10 v12 v14 v16 v18 v20 v22 v24 v26 v28 v30 v32 v34 v35 v36 v37)) $$ [Hb6 Hb2]
  case region =>
    intro g acc
    sl_unfold_run_names
    first | exact grp_15_region (F := F) d L _ _ _ _ _ _ _ _ _ _ _ _ _ _ _ _ _ _ _ _ _ _ _ _ _ | exact grp_15_region (F := F) d L _ _ _ _ _ _ _ _ _ _ _ _ _ _ _ _ _ _ _ _ _ _ _ _ | exact grp_15_region (F := F) d L _ _ _ _ _ _ _ _ _ _ _ _ _ _ _ _ _ _ _ _ _ _ _ _ _ _ | exact grp_15_region (F := F) d L _ _ _ _ _ _ _ _ _ _ _ _ _ _ _ _ _ _ _ _ _ _ _ | exact grp_15_region (F := F) d L _ _ _ _ _ _ _ _ _ _ _ _ _ _ _ _ _ _ _ _ _ _ _ _ _ _ _
  · iapply (grp_15_init (F := F) d L _ _ _ _)
    isplitl [Hb6]
    · iexact Hb6
    · iexact Hb2
  iintro %_ HI
  unfold invG_15
  icases HI with ⟨Hb6, %f15, %hf15, Hb2⟩
  sl_exec_parts (disch := (sl_unfold_run_names; clear * - k hk0; revert hk0; revert k; decide +kernel))
  sl_for (invG_16 (F := F) d L Y1 f13 (tvTrip v4 v6 v8 v10 v12 v14 v16 v18 v20 v22 v24 v26 v28 v30 v32 v34 v35 v36 v37)) $$ [Hb6 Hb7]
  case region =>
    intro g acc
    sl_unfold_run_names
    first | exact grp_16_region (F := F) d L _ _ _ _ _ _ _ _ _ _ _ _ _ _ _ _ _ _ _ _ _ _ _ _ _ | exact grp_16_region (F := F) d L _ _ _ _ _ _ _ _ _ _ _ _ _ _ _ _ _ _ _ _ _ _ _ _ | exact grp_16_region (F := F) d L _ _ _ _ _ _ _ _ _ _ _ _ _ _ _ _ _ _ _ _ _ _ _ _ _ _ | exact grp_16_region (F := F) d L _ _ _ _ _ _ _ _ _ _ _ _ _ _ _ _ _ _ _ _ _ _ _ | exact grp_16_region (F := F) d L _ _ _ _ _ _ _ _ _ _ _ _ _ _ _ _ _ _ _ _ _ _ _ _ _ _ _
  · iapply (grp_16_init (F := F) d L _ _ _ _)
    isplitl [Hb6]
    · iexact Hb6
    · iexact Hb7
  iintro %_ HI
  unfold invG_16
  icases HI with ⟨Hb6, %f16, %hf16, Hb7⟩
  sl_exec_parts (disch := (sl_unfold_run_names; clear * - k hk0; revert hk0; revert k; decide +kernel))
  sl_for (invG_17 (F := F) d L Y1 f16 (tvTrip v4 v6 v8 v10 v12 v14 v16 v18 v20 v22 v24 v26 v28 v30 v32 v34 v35 v36 v37)) $$ [Hb6 Hb7]
  case region =>
    intro g acc
    sl_unfold_run_names
    first | exact grp_17_region (F := F) d L _ _ _ _ _ _ _ _ _ _ _ _ _ _ _ _ _ _ _ _ _ _ _ _ _ | exact grp_17_region (F := F) d L _ _ _ _ _ _ _ _ _ _ _ _ _ _ _ _ _ _ _ _ _ _ _ _ | exact grp_17_region (F := F) d L _ _ _ _ _ _ _ _ _ _ _ _ _ _ _ _ _ _ _ _ _ _ _ _ _ _ | exact grp_17_region (F := F) d L _ _ _ _ _ _ _ _ _ _ _ _ _ _ _ _ _ _ _ _ _ _ _ | exact grp_17_region (F := F) d L _ _ _ _ _ _ _ _ _ _ _ _ _ _ _ _ _ _ _ _ _ _ _ _ _ _ _
  · iapply (grp_17_init (F := F) d L _ _ _ _)
    isplitl [Hb6]
    · iexact Hb6
    · iexact Hb7
  iintro %_ HI
  unfold invG_17
  icases HI with ⟨Hb6, %f17, %hf17, Hb7⟩
  sl_exec_parts (disch := (sl_unfold_run_names; clear * - k hk0; revert hk0; revert k; decide +kernel))
  sl_step
  sl_unfold_run_names
  have e13_2 : Scf.trips k0_t2_loop.lb k0_t2_loop.ub k0_t2_loop.st = 13 := by decide
  have e13_3 : Scf.trips k0_t3_loop.lb k0_t3_loop.ub k0_t3_loop.st = 13 := by decide
  have e13_4 : Scf.trips k0_t4_loop.lb k0_t4_loop.ub k0_t4_loop.st = 13 := by decide
  have e13_5 : Scf.trips k0_t5_loop.lb k0_t5_loop.ub k0_t5_loop.st = 13 := by decide
  have e13_6 : Scf.trips k0_t6_loop.lb k0_t6_loop.ub k0_t6_loop.st = 13 := by decide
  have e13_7 : Scf.trips k0_t7_loop.lb k0_t7_loop.ub k0_t7_loop.st = 13 := by decide
  have e13_8 : Scf.trips k0_t8_loop.lb k0_t8_loop.ub k0_t8_loop.st = 13 := by decide
  have e13_9 : Scf.trips k0_t9_loop.lb k0_t9_loop.ub k0_t9_loop.st = 13 := by decide
  have e13_10 : Scf.trips k0_t10_loop.lb k0_t10_loop.ub k0_t10_loop.st = 13 := by decide
  have e13_11 : Scf.trips k0_t11_loop.lb k0_t11_loop.ub k0_t11_loop.st = 13 := by decide
  have e13_12 : Scf.trips k0_t12_loop.lb k0_t12_loop.ub k0_t12_loop.st = 13 := by decide
  have e13_13 : Scf.trips k0_t13_loop.lb k0_t13_loop.ub k0_t13_loop.st = 13 := by decide
  have e13_14 : Scf.trips k0_t14_loop.lb k0_t14_loop.ub k0_t14_loop.st = 13 := by decide
  have e13_15 : Scf.trips k0_t15_loop.lb k0_t15_loop.ub k0_t15_loop.st = 13 := by decide
  have e13_16 : Scf.trips k0_t16_loop.lb k0_t16_loop.ub k0_t16_loop.st = 13 := by decide
  have e13_17 : Scf.trips k0_t17_loop.lb k0_t17_loop.ub k0_t17_loop.st = 13 := by decide
  have hv00 : OutvOK R ((B0 L + 16 * k.val) + 2 * (0 : Fin 4).val) f3 :=
    pair_rows (F := F) (m (nLoc d)) X R hR (B0 L + 16 * k.val) fd0 hfd0 Y0 hY0 _ htv (0 : Fin 4) _ _ f3 (by have h := hf2; rw [e13_2] at h; exact h) (by have h := hf3; rw [e13_3] at h; exact h)
  have hv01 : OutvOK R ((B0 L + 16 * k.val) + 2 * (1 : Fin 4).val) f5 :=
    pair_rows (F := F) (m (nLoc d)) X R hR (B0 L + 16 * k.val) fd0 hfd0 Y0 hY0 _ htv (1 : Fin 4) _ _ f5 (by have h := hf4; rw [e13_4] at h; exact h) (by have h := hf5; rw [e13_5] at h; exact h)
  have hv02 : OutvOK R ((B0 L + 16 * k.val) + 2 * (2 : Fin 4).val) f7 :=
    pair_rows (F := F) (m (nLoc d)) X R hR (B0 L + 16 * k.val) fd0 hfd0 Y0 hY0 _ htv (2 : Fin 4) _ _ f7 (by have h := hf6; rw [e13_6] at h; exact h) (by have h := hf7; rw [e13_7] at h; exact h)
  have hv03 : OutvOK R ((B0 L + 16 * k.val) + 2 * (3 : Fin 4).val) f9 :=
    pair_rows (F := F) (m (nLoc d)) X R hR (B0 L + 16 * k.val) fd0 hfd0 Y0 hY0 _ htv (3 : Fin 4) _ _ f9 (by have h := hf8; rw [e13_8] at h; exact h) (by have h := hf9; rw [e13_9] at h; exact h)
  have hv10 : OutvOK R ((B0 L + 16 * k.val + 8) + 2 * (0 : Fin 4).val) f11 :=
    pair_rows (F := F) (m (nLoc d)) X R hR (B0 L + 16 * k.val + 8) fd1 hfd1 Y1 hY1 _ htv (0 : Fin 4) _ _ f11 (by have h := hf10; rw [e13_10] at h; exact h) (by have h := hf11; rw [e13_11] at h; exact h)
  have hv11 : OutvOK R ((B0 L + 16 * k.val + 8) + 2 * (1 : Fin 4).val) f13 :=
    pair_rows (F := F) (m (nLoc d)) X R hR (B0 L + 16 * k.val + 8) fd1 hfd1 Y1 hY1 _ htv (1 : Fin 4) _ _ f13 (by have h := hf12; rw [e13_12] at h; exact h) (by have h := hf13; rw [e13_13] at h; exact h)
  have hv12 : OutvOK R ((B0 L + 16 * k.val + 8) + 2 * (2 : Fin 4).val) f15 :=
    pair_rows (F := F) (m (nLoc d)) X R hR (B0 L + 16 * k.val + 8) fd1 hfd1 Y1 hY1 _ htv (2 : Fin 4) _ _ f15 (by have h := hf14; rw [e13_14] at h; exact h) (by have h := hf15; rw [e13_15] at h; exact h)
  have hv13 : OutvOK R ((B0 L + 16 * k.val + 8) + 2 * (3 : Fin 4).val) f17 :=
    pair_rows (F := F) (m (nLoc d)) X R hR (B0 L + 16 * k.val + 8) fd1 hfd1 Y1 hY1 _ htv (3 : Fin 4) _ _ f17 (by have h := hf16; rw [e13_16] at h; exact h) (by have h := hf17; rw [e13_17] at h; exact h)
  ihave Hc00 := (Entails.of_eq (chunk_rows_00 (F := F) d L _ k)) $$ Hc00
  ihave Hc00 := (chunk_land2 (F := F) d L k (⟨0, by decide⟩ : Fin 2) (⟨0, by decide⟩ : Fin 4) _ f3 R (B0 L + 16 * k.val) (B0 L + 16 * k.val + 2) (B0 L + 16 * k.val) (by first | omega | (simp only [Fin.val_mk] <;> omega)) (by first | omega | (simp only [Fin.val_mk] <;> omega)) (by first | omega | (simp only [Fin.val_mk] <;> omega)) hv00) $$ Hc00
  ihave Hc01 := (Entails.of_eq (chunk_rows_01 (F := F) d L _ k)) $$ Hc01
  ihave Hc01 := (chunk_land7 (F := F) d L k (⟨0, by decide⟩ : Fin 2) (⟨1, by decide⟩ : Fin 4) _ f5 R (B0 L + 16 * k.val + 2) (B0 L + 16 * k.val + 4) (B0 L + 16 * k.val) (by first | omega | (simp only [Fin.val_mk] <;> omega)) (by first | omega | (simp only [Fin.val_mk] <;> omega)) (by first | omega | (simp only [Fin.val_mk] <;> omega)) hv01) $$ Hc01
  ihave Hc02 := (Entails.of_eq (chunk_rows_02 (F := F) d L _ k)) $$ Hc02
  ihave Hc02 := (chunk_land2 (F := F) d L k (⟨0, by decide⟩ : Fin 2) (⟨2, by decide⟩ : Fin 4) _ f7 R (B0 L + 16 * k.val + 4) (B0 L + 16 * k.val + 6) (B0 L + 16 * k.val) (by first | omega | (simp only [Fin.val_mk] <;> omega)) (by first | omega | (simp only [Fin.val_mk] <;> omega)) (by first | omega | (simp only [Fin.val_mk] <;> omega)) hv02) $$ Hc02
  ihave Hc03 := (Entails.of_eq (chunk_rows_03 (F := F) d L _ k)) $$ Hc03
  ihave Hc03 := (chunk_land7 (F := F) d L k (⟨0, by decide⟩ : Fin 2) (⟨3, by decide⟩ : Fin 4) _ f9 R (B0 L + 16 * k.val + 6) (B0 L + 16 * k.val + 8) (B0 L + 16 * k.val) (by first | omega | (simp only [Fin.val_mk] <;> omega)) (by first | omega | (simp only [Fin.val_mk] <;> omega)) (by first | omega | (simp only [Fin.val_mk] <;> omega)) hv03) $$ Hc03
  ihave Hc10 := (Entails.of_eq (chunk_rows_10 (F := F) d L _ k)) $$ Hc10
  ihave Hc10 := (chunk_land2 (F := F) d L k (⟨1, by decide⟩ : Fin 2) (⟨0, by decide⟩ : Fin 4) _ f11 R (B0 L + 16 * k.val + 8) (B0 L + 16 * k.val + 10) (B0 L + 16 * k.val + 8) (by first | omega | (simp only [Fin.val_mk] <;> omega)) (by first | omega | (simp only [Fin.val_mk] <;> omega)) (by first | omega | (simp only [Fin.val_mk] <;> omega)) hv10) $$ Hc10
  ihave Hc11 := (Entails.of_eq (chunk_rows_11 (F := F) d L _ k)) $$ Hc11
  ihave Hc11 := (chunk_land7 (F := F) d L k (⟨1, by decide⟩ : Fin 2) (⟨1, by decide⟩ : Fin 4) _ f13 R (B0 L + 16 * k.val + 10) (B0 L + 16 * k.val + 12) (B0 L + 16 * k.val + 8) (by first | omega | (simp only [Fin.val_mk] <;> omega)) (by first | omega | (simp only [Fin.val_mk] <;> omega)) (by first | omega | (simp only [Fin.val_mk] <;> omega)) hv11) $$ Hc11
  ihave H6 := (six_join (F := F) d L R k).1 $$ [Hc00 Hc01 Hc02 Hc03 Hc10 Hc11]
  · isplitl [Hc00]; · iexact Hc00
    isplitl [Hc01]; · iexact Hc01
    isplitl [Hc02]; · iexact Hc02
    isplitl [Hc03]; · iexact Hc03
    isplitl [Hc10]; · iexact Hc10
    iexact Hc11
  ihave Hl0 := (rows_to_R (F := F) d R gC0 hgC0) $$ Hs4_dst
  ihave Hl1 := (rows_to_R (F := F) d R gC1 hgC1) $$ Hs9_dst
  ihave J1 := (rows_join (F := F) d R (a := B0 L) (b := B0 L + 16 * k' + 12) (c := B0 L + 16 * k' + 14) (by omega) (by omega)) $$ [Hdone Hl0]
  · isplitl [Hdone]; · iexact Hdone
    iexact Hl0
  ihave J2 := (rows_join (F := F) d R (a := B0 L) (b := B0 L + 16 * k' + 14) (c := B0 L + 16 * k' + 16) (by omega) (by omega)) $$ [J1 Hl1]
  · isplitl [J1]; · iexact J1
    iexact Hl1
  ihave J2 := (rows_respell (F := F) d R (a := B0 L) (b := B0 L + 16 * k' + 16) (a' := B0 L) (b' := B0 L + 16 * k.val) rfl (by omega)) $$ J2
  ihave Hdone := (rows_join (F := F) d R (a := B0 L) (b := B0 L + 16 * k.val) (c := B0 L + 16 * k.val + 12) (by omega) (by omega)) $$ [J2 H6]
  · isplitl [J2]; · iexact J2
    iexact H6
  ihave Hs4 := (flight_congr (F := F) d L (chunk_rows_12 (F := F) d L _ k)) $$ Hs4
  ihave Hs9 := (flight_congr (F := F) d L (chunk_rows_13 (F := F) d L _ k)) $$ Hs9
  isplitl [Hmw]; · iexact Hmw
  isplitl [Hf0_dst Hf0 Hr0]
  · isplitl [Hf0_dst]; · iexists _; iexact Hf0_dst
    isplitl [Hf0]; · iexact Hf0
    iexact Hr0
  isplitl [Hf1_dst Hf1 Hr1]
  · isplitl [Hf1_dst]; · iexists _; iexact Hf1_dst
    isplitl [Hf1]; · iexact Hf1
    iexact Hr1
  isplitl [Hb1]; · iexists _; iexact Hb1
  isplitl [Hb6]; · iexists _; iexact Hb6
  isplitl [Hb10]; · iexact Hb10
  isplitl [Hs4 Hb2 Hs9 Hb7]
  · isplitl [Hs4 Hb2]
    · iexists _; iexists _
      isplitr
      · ipureintro
        exact rows_ok2 (F := F) d L k (⟨1, by decide⟩ : Fin 2) (⟨2, by decide⟩ : Fin 4) (m (oLoc d)) f15 R (B0 L + 16 * k.val + 12) (B0 L + 16 * k.val + 14) (B0 L + 16 * k.val + 8) (by first | omega | (simp only [Fin.val_mk] <;> omega)) (by first | omega | (simp only [Fin.val_mk] <;> omega)) (by first | omega | (simp only [Fin.val_mk] <;> omega)) hv12
      isplitl [Hs4]; · iexact Hs4
      iexact Hb2
    · iexists _; iexists _
      isplitr
      · ipureintro
        exact rows_ok7 (F := F) d L k (⟨1, by decide⟩ : Fin 2) (⟨3, by decide⟩ : Fin 4) (m (oLoc d)) f17 R (B0 L + 16 * k.val + 14) (B0 L + 16 * k.val + 16) (B0 L + 16 * k.val + 8) (by first | omega | (simp only [Fin.val_mk] <;> omega)) (by first | omega | (simp only [Fin.val_mk] <;> omega)) (by first | omega | (simp only [Fin.val_mk] <;> omega)) hv13
      isplitl [Hs9]; · iexact Hs9
      iexact Hb7
  isplitl [Htodo]; · iexact Htodo
  isplitl [Hdone]; · iexact Hdone
  iexists _
  isplitr
  rotate_left
  · iexact HO
  · ipureintro
    repeat (first | exact hW' | apply ins_ok)

end Cert.Proof.KB

end
-- ==== Proof.KBBody.lean ====
/-
  One task, whole: the table is fetched and read, both input slots are started, the pair loop runs from its invariant
  at trip 0 to its invariant after trip 7, the last two write-outs are waited for, and the task hands back what it was
  handed, the result's block at the result function.
-/
import proofs.«206263_g65532611002545_cont_9to1c4b_62_29_alg».proof.Proof.KBTrip0
import proofs.«206263_g65532611002545_cont_9to1c4b_62_29_alg».proof.Proof.KBTrip1
import proofs.«206263_g65532611002545_cont_9to1c4b_62_29_alg».proof.Proof.KBTrip7

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

open Idealize.ShloMosaic.ValueIdx

variable (d : Dev nD) (L : grid0.Coords)

/-- The invariant after the last trip, taken apart. -/
theorem inv_exit (O : CellTallies nD τ sig (HIx 1)) (W : Waits sig (HIx 1)) (X : Buf (Elt F) ((V d (cV L) (jV L)).loc cc0_scratch10)) (R : Buf (Elt F) (oLoc d)) (n : ℕ) (hn : n = 8) (acc : BitVec 32) :
    invP m d L O W X R n acc ⊢ iprop(Transfers.MayWaits (V d (cV L) (jV L)) (none : HIx 1) O
      ∗ ((∃ fd, (Memref.whole cc0_scratch0 : Memref sig .scVector .vmem S8x400 .i32).view.loc (V d (cV L) (jV L)) ↦{fullShare} fd) ∗ semVal ((V d (cV L) (jV L)), SemLoc.dma cc0_scratch3.sem) 0 ∗ ((Memref.whole main_arg0_scv : Memref sig .scVector .hbm S4096x400 .i32).view.loc (V d (cV L) (jV L)) ↦[Finset.univ]{(Transfers.shareTok fullShare 32 (widL L)).left} m (nLoc d)))
      ∗ ((∃ fd, (Memref.whole cc0_scratch5 : Memref sig .scVector .vmem S8x400 .i32).view.loc (V d (cV L) (jV L)) ↦{fullShare} fd) ∗ semVal ((V d (cV L) (jV L)), SemLoc.dma cc0_scratch8.sem) 0 ∗ ((Memref.whole main_arg0_scv : Memref sig .scVector .hbm S4096x400 .i32).view.loc (V d (cV L) (jV L)) ↦[Finset.univ]{(Transfers.shareTok fullShare 32 (widL L)).right} m (nLoc d)))
      ∗ (∃ f, (Memref.whole cc0_scratch1 : Memref sig .scVector .vmem S1600 .i32).view.loc (V d (cV L) (jV L)) ↦{fullShare} f)
      ∗ (∃ f, (Memref.whole cc0_scratch6 : Memref sig .scVector .vmem S1600 .i32).view.loc (V d (cV L) (jV L)) ↦{fullShare} f)
      ∗ ((Memref.whole cc0_scratch10 : Memref sig .scVector .vmem S256 .f32).view.loc (V d (cV L) (jV L)) ↦{fullShare} X)
      ∗ ((∃ (gC : Buf (Elt F) (oLoc d)) (fo : Buf (Elt F) ((Memref.whole cc0_scratch2 : Memref sig .scVector .vmem S2x200x64 .f32).view.loc (V d (cV L) (jV L)))),
        ⌜RowsOK R gC (B0 L + 16 * 7 + 12) (B0 L + 16 * 7 + 14)⌝ ∗ Transfers.Flight countersEmb (V d (cV L) (jV L)) (SemLoc.dma cc0_scratch4.sem) (default : HIx 1) 819200
          iprop((oLoc d ↦[rowsSet (B0 L + 16 * 7 + 12) (B0 L + 16 * 7 + 14)]{fullShare} gC) ∗ ((Memref.whole cc0_scratch2 : Memref sig .scVector .vmem S2x200x64 .f32).view.loc (V d (cV L) (jV L)) ↦[(Memref.whole cc0_scratch2 : Memref sig .scVector .vmem S2x200x64 .f32).view.set]{fullShare} fo))
        ∗ ((Memref.whole cc0_scratch2 : Memref sig .scVector .vmem S2x200x64 .f32).view.loc (V d (cV L) (jV L)) ↦[Finset.univ \ (Memref.whole cc0_scratch2 : Memref sig .scVector .vmem S2x200x64 .f32).view.set]{fullShare} fo))
          ∗ (∃ (gC : Buf (Elt F) (oLoc d)) (fo : Buf (Elt F) ((Memref.whole cc0_scratch7 : Memref sig .scVector .vmem S2x200x64 .f32).view.loc (V d (cV L) (jV L)))),
        ⌜RowsOK R gC (B0 L + 16 * 7 + 14) (B0 L + 16 * 7 + 16)⌝ ∗ Transfers.Flight countersEmb (V d (cV L) (jV L)) (SemLoc.dma cc0_scratch9.sem) (default : HIx 1) 819200
          iprop((oLoc d ↦[rowsSet (B0 L + 16 * 7 + 14) (B0 L + 16 * 7 + 16)]{fullShare} gC) ∗ ((Memref.whole cc0_scratch7 : Memref sig .scVector .vmem S2x200x64 .f32).view.loc (V d (cV L) (jV L)) ↦[(Memref.whole cc0_scratch7 : Memref sig .scVector .vmem S2x200x64 .f32).view.set]{fullShare} fo))
        ∗ ((Memref.whole cc0_scratch7 : Memref sig .scVector .vmem S2x200x64 .f32).view.loc (V d (cV L) (jV L)) ↦[Finset.univ \ (Memref.whole cc0_scratch7 : Memref sig .scVector .vmem S2x200x64 .f32).view.set]{fullShare} fo)))
      ∗ (oLoc d ↦[rowsSet (B0 L + 16 * 8) (B0 L + 128)]{fullShare} m (oLoc d))
      ∗ (oLoc d ↦[rowsSet (B0 L) (B0 L + 16 * 7 + 12)]{fullShare} R)
      ∗ ∃ W', ⌜∀ p ∈ W', p ∈ W ∨ p.2 = none⌝ ∗ owes (V d (cV L) (jV L)) O W') := by
  subst hn
  unfold invP InSt0 InSt1
  rw [if_neg (show ¬ (8 : ℕ) < 8 from by decide), if_neg (show ¬ (8 : ℕ) < 8 from by decide)]
  unfold InHeld0 InHeld1
  show _ ⊢ _
  exact Entails.refl _

/-- The invariant before the first trip, put together. -/
theorem inv_entry (O : CellTallies nD τ sig (HIx 1)) (W : Waits sig (HIx 1)) (X : Buf (Elt F) ((V d (cV L) (jV L)).loc cc0_scratch10)) (R : Buf (Elt F) (oLoc d)) (acc : BitVec 32) :
    iprop(Transfers.MayWaits (V d (cV L) (jV L)) (none : HIx 1) O
      ∗ InFl0 m d L (Transfers.shareTok fullShare 32 (widL L)).left (SemLoc.dma cc0_scratch3.sem) (B0 L + 16 * 0)
      ∗ InFl1 m d L (Transfers.shareTok fullShare 32 (widL L)).right (SemLoc.dma cc0_scratch8.sem) (B0 L + 16 * 0 + 8)
      ∗ (∃ f, (Memref.whole cc0_scratch1 : Memref sig .scVector .vmem S1600 .i32).view.loc (V d (cV L) (jV L)) ↦{fullShare} f)
      ∗ (∃ f, (Memref.whole cc0_scratch6 : Memref sig .scVector .vmem S1600 .i32).view.loc (V d (cV L) (jV L)) ↦{fullShare} f)
      ∗ ((Memref.whole cc0_scratch10 : Memref sig .scVector .vmem S256 .f32).view.loc (V d (cV L) (jV L)) ↦{fullShare} X)
      ∗ ((∃ f, (Memref.whole cc0_scratch2 : Memref sig .scVector .vmem S2x200x64 .f32).view.loc (V d (cV L) (jV L)) ↦{fullShare} f) ∗ (∃ f, (Memref.whole cc0_scratch7 : Memref sig .scVector .vmem S2x200x64 .f32).view.loc (V d (cV L) (jV L)) ↦{fullShare} f)
          ∗ semVal (gOut0 d (cV L) (jV L)) 0 ∗ semVal (gOut1 d (cV L) (jV L)) 0)
      ∗ (oLoc d ↦[rowsSet (B0 L + 16 * 0) (B0 L + 128)]{fullShare} m (oLoc d))
      ∗ (oLoc d ↦[rowsSet (B0 L) (B0 L)]{fullShare} R)
      ∗ ∃ W', ⌜∀ p ∈ W', p ∈ W ∨ p.2 = none⌝ ∗ owes (V d (cV L) (jV L)) O W') ⊢ invP m d L O W X R 0 acc := by
  unfold invP InSt0 InSt1
  rw [if_pos (show (0 : ℕ) < 8 from by decide), if_pos (show (0 : ℕ) < 8 from by decide)]
  exact Entails.refl _

/-- The rows the two initial fetches fetch. -/
theorem off1_row0 : k0_off1 L 0#32 0 = B0 L + 16 * 0 ∧ k0_off1 L 0#32 1 = 0 := by
  have h : k0_off1 L 0#32 = ![256 * (L 1).val + 128 * (L 0).val + 8 * 0, 0] := k0_off1_eq L ⟨0, by decide⟩
  rw [h]
  refine ⟨?_, rfl⟩
  show 256 * (L 1).val + 128 * (L 0).val + 8 * 0 = 128 * (2 * (L 1).val + (L 0).val) + 16 * 0
  omega
theorem off1_row1 : k0_off1 L 8#32 0 = B0 L + 16 * 0 + 8 ∧ k0_off1 L 8#32 1 = 0 := by
  have h : k0_off1 L 8#32 = ![256 * (L 1).val + 128 * (L 0).val + 8 * 1, 0] := k0_off1_eq L ⟨1, by decide⟩
  rw [h]
  refine ⟨?_, rfl⟩
  show 256 * (L 1).val + 128 * (L 0).val + 8 * 1 = 128 * (2 * (L 1).val + (L 0).val) + 16 * 0 + 8
  omega

set_option maxHeartbeats 16000000 in
theorem tile_body : TileBody (F := F) m := by
  intro d L O W hO
  have hF : (K (F := F)).Facts := facts
  unfold kernelAt
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold goOf tdOf
  iintro ⟨#Hlv, -, ⟨Hn, Ht, Ho⟩, ⟨⟨⟨%f0, Hb0⟩, ⟨%f1, Hb1⟩, ⟨%f2, Hb2⟩, ⟨%f5, Hb5⟩, ⟨%f6, Hb6⟩, ⟨%f7, Hb7⟩, ⟨%f10, Hb10⟩⟩, Hbufs⟩, ⟨⟨Hs3, Hs4, Hs8, Hs9, HsT⟩, Hsems⟩, HO⟩
  ihave Hmw := ((K (F := F)).mayWaits_none (thr := (V d (cV L) (jV L))) hO) $$ Hlv
  ihave Hn2 := (pointsTo_share (PosShare.mem_left_op_right _)).1 $$ Hn
  icases Hn2 with ⟨HnA, HnB⟩
  ihave HnA := (Entails.of_eq (pts_N (F := F) d L _ _).symm) $$ HnA
  ihave HnB := (Entails.of_eq (pts_N (F := F) d L _ _).symm) $$ HnB
  ihave Ht := (Entails.of_eq (pts_T (F := F) d L _ _).symm) $$ Ht
  ihave Hb0 := (Entails.of_eq (pts_N0 (F := F) d L _).symm) $$ Hb0
  ihave Hb1 := (Entails.of_eq (pts_K0 (F := F) d L _).symm) $$ Hb1
  ihave Hb2 := (Entails.of_eq (pts_O0 (F := F) d L _).symm) $$ Hb2
  ihave Hb5 := (Entails.of_eq (pts_N1 (F := F) d L _).symm) $$ Hb5
  ihave Hb6 := (Entails.of_eq (pts_K1 (F := F) d L _).symm) $$ Hb6
  ihave Hb7 := (Entails.of_eq (pts_O1 (F := F) d L _).symm) $$ Hb7
  ihave Hb10 := (Entails.of_eq (pts_Tv (F := F) d L _).symm) $$ Hb10
  ihave Ho := (Entails.of_eq (first_start (F := F) d L _).symm) $$ Ho
  sl_exec_parts
  -- the table has landed: the table scratch holds the flattened table
  generalize hXd : View.write (Elt F) (Memref.whole cc0_scratch10 : Memref sig .scVector .vmem S256 .f32).view f10 _ Finset.univ = X
  have hX : X = tabV m d := by
    rw [← hXd]; sl_unfold_run_names
    exact tab_lands (F := F) _ _
  subst hX
  -- the two input slots' copies carry rows B0 … B0 + 7 and B0 + 8 … B0 + 15 of the bits
  generalize hfdA : View.write (Elt F) (Memref.whole cc0_scratch0 : Memref sig .scVector .vmem S8x400 .i32).view f0 _ Finset.univ = fdA
  generalize hfdB : View.write (Elt F) (Memref.whole cc0_scratch5 : Memref sig .scVector .vmem S8x400 .i32).view f5 _ Finset.univ = fdB
  have hnvA : NvOK (m (nLoc d)) (B0 L + 16 * 0) fdA := by
    rw [← hfdA]; sl_unfold_run_names
    exact land_ok0 (F := F) (k0_off1 L 0#32) _ (m (nLoc d)) f0 _ (off1_row0 L).1 (off1_row0 L).2
  have hnvB : NvOK (m (nLoc d)) (B0 L + 16 * 0 + 8) fdB := by
    rw [← hfdB]; sl_unfold_run_names
    exact land_ok5 (F := F) (k0_off1 L 8#32) _ (m (nLoc d)) f5 _ (off1_row1 L).1 (off1_row1 L).2
  sl_for (invP m d L O W (tabV m d) (outV m d)) $$ [Hmw Hs3 HnA Hs8 HnB Hb1 Hb6 Hb10 Hb2 Hb7 Hs4 Hs9 Ho HO]
  case region =>
    intro k acc
    sl_unfold_run_names
    rcases Nat.eq_zero_or_pos k.val with h0 | hpos
    · obtain ⟨kv, hkv⟩ := k
      simp only at h0
      subst h0
      refine trip_first (F := F) m d L O W (tabV m d) (outV m d) _ _ _ _ _ _ _ _ _ _ _ _ _ _ _ _ _ _ _ _ ?_ ?_ hkv acc
      · rfl
      · first | rw [tab_lands (F := F) (tabV m d) f10] | simp only [tab_lands]
        exact tvTrip_eq_of (F := F) (tabV m d) (prologue_rows (F := F) (tabV m d))
    · obtain ⟨k', hk'⟩ := Nat.exists_eq_succ_of_ne_zero (Nat.pos_iff_ne_zero.mp hpos)
      by_cases h7 : k.val < 7
      · refine trip_mid (F := F) m d L O W (tabV m d) (outV m d) _ _ _ _ _ _ _ _ _ _ _ _ _ _ _ _ _ _ _ _ ?_ ?_ k k' hk' h7 acc
        · rfl
        · first | rw [tab_lands (F := F) (tabV m d) f10] | simp only [tab_lands]
          exact tvTrip_eq_of (F := F) (tabV m d) (prologue_rows (F := F) (tabV m d))
      · refine trip_last (F := F) m d L O W (tabV m d) (outV m d) _ _ _ _ _ _ _ _ _ _ _ _ _ _ _ _ _ _ _ _ ?_ ?_ k k' hk' h7 acc
        · rfl
        · first | rw [tab_lands (F := F) (tabV m d) f10] | simp only [tab_lands]
          exact tvTrip_eq_of (F := F) (tabV m d) (prologue_rows (F := F) (tabV m d))
  · iapply (inv_entry (F := F) m d L O W _ _ _)
    isplitl [Hmw]; · iexact Hmw
    isplitl [Hs3 HnA]
    · unfold InFl0
      iexists _; iexists _
      isplitr
      · ipureintro; exact hnvA
      isplitl [Hs3]; · iexact Hs3
      iexact HnA
    isplitl [Hs8 HnB]
    · unfold InFl1
      iexists _; iexists _
      isplitr
      · ipureintro; exact hnvB
      isplitl [Hs8]; · iexact Hs8
      iexact HnB
    isplitl [Hb1]; · iexists _; iexact Hb1
    isplitl [Hb6]; · iexists _; iexact Hb6
    isplitl [Hb10]; · iexact Hb10
    isplitl [Hb2 Hb7 Hs4 Hs9]
    · isplitl [Hb2]; · iexists _; iexact Hb2
      isplitl [Hb7]; · iexists _; iexact Hb7
      isplitl [Hs4]; · iexact Hs4
      iexact Hs9
    isplitl [Ho]; · iexact Ho
    isplitr
    · iapply (Entails.of_eq (rows_empty (F := F) d (outV m d) (le_refl (B0 L))).symm)
      iempintro
    iexists _
    isplitr
    rotate_left
    · iexact HO
    · ipureintro; exact ins_ok (fun p hp => Or.inl hp)
  iintro %acc' HI
  first
    | ihave HI := (inv_exit (F := F) m d L O W _ _ k0_t1_loop.trips trips_eq acc') $$ HI
    | ihave HI := (inv_exit (F := F) m d L O W _ _ (Scf.trips k0_t1_loop.lb k0_t1_loop.ub k0_t1_loop.st) (by decide) acc') $$ HI
  icases HI with ⟨Hmw, ⟨⟨%fdA', Hb0⟩, Hs3, HnA⟩, ⟨⟨%fdB', Hb5⟩, Hs8, HnB⟩, ⟨%g1, Hb1⟩, ⟨%g6, Hb6⟩, Hb10, ⟨⟨%gC0, %fo0, %hgC0, Hs4, Hb2⟩, ⟨%gC1, %fo1, %hgC1, Hs9, Hb7⟩⟩, Htodo, Hdone, %W', %hW', HO⟩
  sl_exec_parts
  sl_step
  -- the bits' two half-shares rejoin; the table's share as it came
  ihave HnA := (Entails.of_eq (pts_N (F := F) d L _ _)) $$ HnA
  ihave HnB := (Entails.of_eq (pts_N (F := F) d L _ _)) $$ HnB
  ihave Hn := (pointsTo_share (PosShare.mem_left_op_right (Transfers.shareTok fullShare 32 (widL L)))).2 $$ [HnA HnB]
  · isplitl [HnA]; · iexact HnA
    iexact HnB
  ihave Ht := (Entails.of_eq (pts_T (F := F) d L _ _)) $$ Ht
  -- the last four rows land; with the done rows they are the task's whole block at the result function
  ihave Hl0 := (rows_to_R (F := F) d (outV m d) gC0 hgC0) $$ Hs4_dst
  ihave Hl1 := (rows_to_R (F := F) d (outV m d) gC1 hgC1) $$ Hs9_dst
  ihave J1 := (rows_join (F := F) d (outV m d) (a := B0 L) (b := B0 L + 16 * 7 + 12) (c := B0 L + 16 * 7 + 14) (by omega) (by omega)) $$ [Hdone Hl0]
  · isplitl [Hdone]; · iexact Hdone
    iexact Hl0
  ihave J2 := (rows_join (F := F) d (outV m d) (a := B0 L) (b := B0 L + 16 * 7 + 14) (c := B0 L + 16 * 7 + 16) (by omega) (by omega)) $$ [J1 Hl1]
  · isplitl [J1]; · iexact J1
    iexact Hl1
  ihave J2 := (rows_respell (F := F) d (outV m d) (a := B0 L) (b := B0 L + 16 * 7 + 16) (a' := B0 L) (b' := B0 L + 128) rfl (by omega)) $$ J2
  ihave Hout := (Entails.of_eq (rows_ofBlk (F := F) d L (outV m d)).symm) $$ J2
  icases Htodo with -
  ihave Hb0 := (Entails.of_eq (pts_N0 (F := F) d L _)) $$ Hb0
  ihave Hb1 := (Entails.of_eq (pts_K0 (F := F) d L _)) $$ Hb1
  ihave Hb2 := (Entails.of_eq (pts_O0 (F := F) d L _)) $$ Hb2
  ihave Hb5 := (Entails.of_eq (pts_N1 (F := F) d L _)) $$ Hb5
  ihave Hb6 := (Entails.of_eq (pts_K1 (F := F) d L _)) $$ Hb6
  ihave Hb7 := (Entails.of_eq (pts_O1 (F := F) d L _)) $$ Hb7
  ihave Hb10 := (Entails.of_eq (pts_Tv (F := F) d L _)) $$ Hb10
  isplitl [Hn Ht Hout]
  · isplitl [Hn]; · iexact Hn
    isplitl [Ht]; · iexact Ht
    iexact Hout
  isplitl [Hb0 Hb1 Hb2 Hb5 Hb6 Hb7 Hb10 Hbufs]
  · isplitl [Hb0 Hb1 Hb2 Hb5 Hb6 Hb7 Hb10]
    · isplitl [Hb0]; · iexists _; iexact Hb0
      isplitl [Hb1]; · iexists _; iexact Hb1
      isplitl [Hb2]; · iexists _; iexact Hb2
      isplitl [Hb5]; · iexists _; iexact Hb5
      isplitl [Hb6]; · iexists _; iexact Hb6
      isplitl [Hb7]; · iexists _; iexact Hb7
      iexists _; iexact Hb10
    · iexact Hbufs
  isplitl [Hs3 Hs4 Hs8 Hs9 HsT Hsems]
  · isplitl [Hs3 Hs4 Hs8 Hs9 HsT]
    · isplitl [Hs3]; · iexact Hs3
      isplitl [Hs4]; · iexact Hs4
      isplitl [Hs8]; · iexact Hs8
      isplitl [Hs9]; · iexact Hs9
      iexact HsT
    · iexact Hsems
  iexists _
  isplitr
  rotate_left
  · iexact HO
  · ipureintro
    repeat (first | exact hW' | apply ins_ok)

end Cert.Proof.KB

end
-- ==== Proof.lean ====
/- The proof of `Cert.Claim` (proofs.«206263_g65532611002545_cont_9to1c4b_62_29_alg».proof.Defs).

   The kernel computes, per site, the row of a 4 × 64 table selected by two occupation bits; the reference gathers the
   row numbered  up + 2 · down.  Both are the function `BandEmbed.G` (Proof/Spec.lean) of the two arguments:

   * the reference's host program is run operation by operation (Proof/RefRun.lean) and its result read at an index
     (Proof/RefStages.lean, Proof/RefValue.lean): the weights are [1, 2], the tokens  up + 2 · down, the gather's index
     in range because every occupation word is 0 or 1 (the precondition; Proof/PreFacts.lean);
   * the kernel runs thirty-two tasks, each on its own 128 rows.  A task fetches the flattened table, then in eight
     trips of a pair loop fetches eight rows of bits into one of two input slots, forms the tokens  up + down + down,
     interpolates  t0 + u·(t1 − t0) + d·(t2 − t0) + u·d·(t3 − t2 − t1 + t0)  site by site into one of two output
     scratches, and writes two rows at a time out to the result, each copy on a semaphore of its own and waited for
     before its buffer is touched again.  Proof/KIInv.lean states what a task holds before each trip; Proof/KITrip0,
     KITrip1, KITrip7 take it from one trip to the next; Proof/KIBody.lean is the task whole; Proof/KILaunch.lean puts
     the thirty-two tasks and the host's reshape together.  The result, entry by entry, is `kout` (Proof/KIProto.lean),
     at any float instance; on extended reals, with a finite table and occupation words that are bits, the
     interpolation is the selected row (Proof/Law.lean, Proof/KIValue.lean): the law uses finiteness, since the
     differences cancel only among reals.
   * the word-level kernel is the same text in its own namespace (Proof/KB*.lean), its value dropped for the frame.

   Proof/Assemble.lean puts the five conjuncts together. -/
import proofs.«206263_g65532611002545_cont_9to1c4b_62_29_alg».proof.Defs
import proofs.«206263_g65532611002545_cont_9to1c4b_62_29_alg».proof.Proof.Gen.Kernel
import proofs.«206263_g65532611002545_cont_9to1c4b_62_29_alg».proof.Proof.Gen.Kernel.Skeleton
import proofs.«206263_g65532611002545_cont_9to1c4b_62_29_alg».proof.Proof.Gen.KernelIdeal
import proofs.«206263_g65532611002545_cont_9to1c4b_62_29_alg».proof.Proof.Gen.KernelIdeal.Skeleton
import proofs.«206263_g65532611002545_cont_9to1c4b_62_29_alg».proof.Proof.Gen.ReferenceIdeal
import proofs.«206263_g65532611002545_cont_9to1c4b_62_29_alg».proof.Proof.Gen.Pre_input_domain
import proofs.«206263_g65532611002545_cont_9to1c4b_62_29_alg».proof.Proof.Assemble
import proofs.«206263_g65532611002545_cont_9to1c4b_62_29_alg».proof.Proof.KIBody
import proofs.«206263_g65532611002545_cont_9to1c4b_62_29_alg».proof.Proof.KBBody
import Idealize.ShloMosaic.Adequacy
import Idealize.ShloMosaic.Init

noncomputable section

namespace Cert.Proof

open Idealize.ShloMosaic Idealize.SL.Sem Cert.Kernel

theorem claim : Cert.Claim :=
  claim_of_tiles (fun m => Cert.Proof.KB.tile_body (F := Bits) m) (fun m => Cert.Proof.KI.tile_body (F := Ideal) m)

end Cert.Proof

end
